-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 999999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S1000000x64 : Shape := ⟨2, ![1000000, 64]⟩
abbrev S26x16384 : Shape := ⟨2, ![26, 16384]⟩
abbrev S425984 : Shape := ⟨1, ![425984]⟩
abbrev S64x1000000 : Shape := ⟨2, ![64, 1000000]⟩
abbrev S64x64 : Shape := ⟨2, ![64, 64]⟩
abbrev S500000x128 : Shape := ⟨2, ![500000, 128]⟩
abbrev S2x64x256 : Shape := ⟨3, ![2, 64, 256]⟩
abbrev S2x128x128 : Shape := ⟨3, ![2, 128, 128]⟩
abbrev S32x128 : Shape := ⟨2, ![32, 128]⟩
abbrev S_ : Shape := ⟨0, ![]⟩
abbrev S16 : Shape := ⟨1, ![16]⟩
abbrev S1x64x256 : Shape := ⟨3, ![1, 64, 256]⟩
abbrev S64x256 : Shape := ⟨2, ![64, 256]⟩
abbrev S1x128x128 : Shape := ⟨3, ![1, 128, 128]⟩
abbrev S128x128 : Shape := ⟨2, ![128, 128]⟩
abbrev S26x8x128x8x128 : Shape := ⟨5, ![26, 8, 128, 8, 128]⟩
abbrev S13312 : Shape := ⟨1, ![13312]⟩
abbrev S2x64x128 : Shape := ⟨3, ![2, 64, 128]⟩
abbrev S128 : Shape := ⟨1, ![128]⟩
abbrev S1x64x128 : Shape := ⟨3, ![1, 64, 128]⟩
abbrev S64x128 : Shape := ⟨2, ![64, 128]⟩
abbrev S8x128 : Shape := ⟨2, ![8, 128]⟩
abbrev S1x1x1x8x128 : Shape := ⟨5, ![1, 1, 1, 8, 128]⟩
abbrev S128x128x26x8x8 : Shape := ⟨5, ![128, 128, 26, 8, 8]⟩
abbrev S16384x26x64 : Shape := ⟨3, ![16384, 26, 64]⟩

abbrev nBuf : Table → Nat
  | .hbm => 11
  | .local .scVector .vmem => 8
  | _ => 0

abbrev bufTy : (tb : Table) → Fin (nBuf tb) → BufTy
  | .hbm, ⟨0, _⟩ => ⟨S16384x26, .i32⟩
  | .hbm, ⟨1, _⟩ => ⟨S1000000x64, .f32⟩
  | .hbm, ⟨2, _⟩ => ⟨S26x16384, .i32⟩
  | .hbm, ⟨3, _⟩ => ⟨S425984, .i32⟩
  | .hbm, ⟨4, _⟩ => ⟨S64x1000000, .f32⟩
  | .hbm, ⟨5, _⟩ => ⟨S64x64, .f32⟩
  | .hbm, ⟨6, _⟩ => ⟨S64x64, .f32⟩
  | .hbm, ⟨7, _⟩ => ⟨S500000x128, .f32⟩
  | .hbm, ⟨8, _⟩ => ⟨S26x8x128x8x128, .f32⟩
  | .hbm, ⟨9, _⟩ => ⟨S128x128x26x8x8, .f32⟩
  | .hbm, ⟨10, _⟩ => ⟨S16384x26x64, .f32⟩
  | .local .scVector .vmem, ⟨0, _⟩ => ⟨S2x64x256, .f32⟩
  | .local .scVector .vmem, ⟨1, _⟩ => ⟨S2x128x128, .f32⟩
  | .local .scVector .vmem, ⟨2, _⟩ => ⟨S64x64, .f32⟩
  | .local .scVector .vmem, ⟨3, _⟩ => ⟨S32x128, .f32⟩
  | .local .scVector .vmem, ⟨4, _⟩ => ⟨S13312, .i32⟩
  | .local .scVector .vmem, ⟨5, _⟩ => ⟨S13312, .i32⟩
  | .local .scVector .vmem, ⟨6, _⟩ => ⟨S2x128x128, .f32⟩
  | .local .scVector .vmem, ⟨7, _⟩ => ⟨S2x64x128, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v2_scv : Ref sig .scVector := ⟨.hbm, 4, rfl⟩
abbrev main_v4_scv : Ref sig .scVector := ⟨.hbm, 6, rfl⟩
abbrev main_v5_scv : Ref sig .scVector := ⟨.hbm, 7, rfl⟩
abbrev main_v1_scv : Ref sig .scVector := ⟨.hbm, 3, rfl⟩
abbrev main_v6_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c3906_i32 : BitVec 32 := 3906#32
  let v4 : BitVec 1 := Scalar.cmpi .slt v3 c3906_i32
  let v5 : BitVec 32 := Scalar.extui v4
  let c0_i32_0 : BitVec 32 := 0#32
  let v6 : BitVec 1 := Scalar.cmpi .ne v5 c0_i32_0
  v6

def k0_off1 (i : grid0.Coords) : Fin 2 → Nat :=
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c256_i32 : BitVec 32 := 256#32
  let v23 : BitVec 32 := Scalar.muli v3 c256_i32
  ![0, v23.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.addi v1 c32_i32
  let c3906_i32_1 : BitVec 32 := 3906#32
  let v8 : BitVec 1 := Scalar.cmpi .slt v7 c3906_i32_1
  let v9 : BitVec 32 := Scalar.extui v8
  let c0_i32_2 : BitVec 32 := 0#32
  let v10 : BitVec 1 := Scalar.cmpi .ne v9 c0_i32_2
  v10

def k0_off2 (i : grid0.Coords) : Fin 2 → Nat :=
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.addi v1 c32_i32
  let c256_i32 : BitVec 32 := 256#32
  let v23 : BitVec 32 := Scalar.muli v7 c256_i32
  ![0, v23.toNat]
@[reducible] def k0_t1_loop : Scf.Loop 32 :=
  let c0_i32_4 : BitVec 32 := 0#32
  let c62_i32 : BitVec 32 := 62#32
  let v11 : BitVec 32 := Scalar.addi c0_i32_4 c62_i32
  let c1_i32 : BitVec 32 := 1#32
  ⟨c0_i32_4, v11, c1_i32⟩
def k0_cond6 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_19 : BitVec 32 := 32#32
  let c0_i32_4 : BitVec 32 := 0#32
  let c1_i32 : BitVec 32 := 1#32
  let arg13 : BitVec 32 := Scf.iv c0_i32_4 c1_i32 k0_t1
  let c2_i32_12 : BitVec 32 := 2#32
  let v23 : BitVec 32 := Scalar.muli arg13 c2_i32_12
  let c0_i32_13 : BitVec 32 := 0#32
  let v24 : BitVec 32 := Scalar.addi v23 c0_i32_13
  let v33 : BitVec 32 := Scalar.muli c32_i32_19 v24
  let v34 : BitVec 32 := Scalar.addi v1 v33
  let c3906_i32_20 : BitVec 32 := 3906#32
  let v35 : BitVec 1 := Scalar.cmpi .slt v34 c3906_i32_20
  let v36 : BitVec 32 := Scalar.extui v35
  let c0_i32_21 : BitVec 32 := 0#32
  let v37 : BitVec 1 := Scalar.cmpi .ne v36 c0_i32_21
  v37

@[reducible] def k0_t2_loop : Scf.Loop 32 :=
  let c0_i32_49 : BitVec 32 := 0#32
  let c64_i32 : BitVec 32 := 64#32
  let v75 : BitVec 32 := Scalar.addi c0_i32_49 c64_i32
  let c1_i32_50 : BitVec 32 := 1#32
  ⟨c0_i32_49, v75, c1_i32_50⟩

def k0_chk1 (i : grid0.Coords) (k0_t1 : Fin k0_t1_loop.trips) (v106 : IVec S16 32) (v120 : IVec S16 32) : Prop :=
  (∀ (k0_h6 : k0_cond6 i k0_t1 = 1#1), ∀ a x, ((![v120, v106] : Fin 2 → IVec S16 32) a x).toNat < S64x256.size a)
instance k0_chk1.dec : ∀ (i : grid0.Coords) (k0_t1 : Fin k0_t1_loop.trips) (v106 : IVec S16 32) (v120 : IVec S16 32), Decidable (k0_chk1 i k0_t1 v106 v120) := fun i k0_t1 v106 v120 => decidable_of_iff' _ (Iff.of_eq (k0_chk1.eq_1 i k0_t1 v106 v120))
theorem k0_idx1_inb : ∀ (i : grid0.Coords) (k0_t1 : Fin k0_t1_loop.trips) (v106 : IVec S16 32) (v120 : IVec S16 32) (k0_hw1 : k0_chk1 i k0_t1 v106 v120), ∀ (k0_h6 : k0_cond6 i k0_t1 = 1#1), ∀ a x, ((![v120, v106] : Fin 2 → IVec S16 32) a x).toNat < S64x256.size a := fun i k0_t1 v106 v120 k0_hw1 k0_h6 => k0_hw1 k0_h6

def k0_chk2 (i : grid0.Coords) (k0_t1 : Fin k0_t1_loop.trips) (v108 : IVec S16 32) (v124 : IVec S16 32) : Prop :=
  (∀ (k0_h6 : k0_cond6 i k0_t1 = 1#1), ∀ a x, ((![v108, v124] : Fin 2 → IVec S16 32) a x).toNat < S128x128.size a)
instance k0_chk2.dec : ∀ (i : grid0.Coords) (k0_t1 : Fin k0_t1_loop.trips) (v108 : IVec S16 32) (v124 : IVec S16 32), Decidable (k0_chk2 i k0_t1 v108 v124) := fun i k0_t1 v108 v124 => decidable_of_iff' _ (Iff.of_eq (k0_chk2.eq_1 i k0_t1 v108 v124))
theorem k0_idx2_inb : ∀ (i : grid0.Coords) (k0_t1 : Fin k0_t1_loop.trips) (v108 : IVec S16 32) (v124 : IVec S16 32) (k0_hw2 : k0_chk2 i k0_t1 v108 v124), ∀ (k0_h6 : k0_cond6 i k0_t1 = 1#1), ∀ a x, ((![v108, v124] : Fin 2 → IVec S16 32) a x).toNat < S128x128.size a := fun i k0_t1 v108 v124 k0_hw2 k0_h6 => k0_hw2 k0_h6

def k0_chk3 (i : grid0.Coords) (k0_t1 : Fin k0_t1_loop.trips) (v106 : IVec S16 32) (v132 : IVec S16 32) : Prop :=
  (∀ (k0_h6 : k0_cond6 i k0_t1 = 1#1), ∀ a x, ((![v132, v106] : Fin 2 → IVec S16 32) a x).toNat < S64x256.size a)
instance k0_chk3.dec : ∀ (i : grid0.Coords) (k0_t1 : Fin k0_t1_loop.trips) (v106 : IVec S16 32) (v132 : IVec S16 32), Decidable (k0_chk3 i k0_t1 v106 v132) := fun i k0_t1 v106 v132 => decidable_of_iff' _ (Iff.of_eq (k0_chk3.eq_1 i k0_t1 v106 v132))
theorem k0_idx3_inb : ∀ (i : grid0.Coords) (k0_t1 : Fin k0_t1_loop.trips) (v106 : IVec S16 32) (v132 : IVec S16 32) (k0_hw3 : k0_chk3 i k0_t1 v106 v132), ∀ (k0_h6 : k0_cond6 i k0_t1 = 1#1), ∀ a x, ((![v132, v106] : Fin 2 → IVec S16 32) a x).toNat < S64x256.size a := fun i k0_t1 v106 v132 k0_hw3 k0_h6 => k0_hw3 k0_h6

def k0_chk4 (i : grid0.Coords) (k0_t1 : Fin k0_t1_loop.trips) (v108 : IVec S16 32) (v136 : IVec S16 32) : Prop :=
  (∀ (k0_h6 : k0_cond6 i k0_t1 = 1#1), ∀ a x, ((![v108, v136] : Fin 2 → IVec S16 32) a x).toNat < S128x128.size a)
instance k0_chk4.dec : ∀ (i : grid0.Coords) (k0_t1 : Fin k0_t1_loop.trips) (v108 : IVec S16 32) (v136 : IVec S16 32), Decidable (k0_chk4 i k0_t1 v108 v136) := fun i k0_t1 v108 v136 => decidable_of_iff' _ (Iff.of_eq (k0_chk4.eq_1 i k0_t1 v108 v136))
theorem k0_idx4_inb : ∀ (i : grid0.Coords) (k0_t1 : Fin k0_t1_loop.trips) (v108 : IVec S16 32) (v136 : IVec S16 32) (k0_hw4 : k0_chk4 i k0_t1 v108 v136), ∀ (k0_h6 : k0_cond6 i k0_t1 = 1#1), ∀ a x, ((![v108, v136] : Fin 2 → IVec S16 32) a x).toNat < S128x128.size a := fun i k0_t1 v108 v136 k0_hw4 k0_h6 => k0_hw4 k0_h6

def k0_chk5 (i : grid0.Coords) (k0_t1 : Fin k0_t1_loop.trips) (v106 : IVec S16 32) (v144 : IVec S16 32) : Prop :=
  (∀ (k0_h6 : k0_cond6 i k0_t1 = 1#1), ∀ a x, ((![v144, v106] : Fin 2 → IVec S16 32) a x).toNat < S64x256.size a)
instance k0_chk5.dec : ∀ (i : grid0.Coords) (k0_t1 : Fin k0_t1_loop.trips) (v106 : IVec S16 32) (v144 : IVec S16 32), Decidable (k0_chk5 i k0_t1 v106 v144) := fun i k0_t1 v106 v144 => decidable_of_iff' _ (Iff.of_eq (k0_chk5.eq_1 i k0_t1 v106 v144))
theorem k0_idx5_inb : ∀ (i : grid0.Coords) (k0_t1 : Fin k0_t1_loop.trips) (v106 : IVec S16 32) (v144 : IVec S16 32) (k0_hw5 : k0_chk5 i k0_t1 v106 v144), ∀ (k0_h6 : k0_cond6 i k0_t1 = 1#1), ∀ a x, ((![v144, v106] : Fin 2 → IVec S16 32) a x).toNat < S64x256.size a := fun i k0_t1 v106 v144 k0_hw5 k0_h6 => k0_hw5 k0_h6

def k0_chk6 (i : grid0.Coords) (k0_t1 : Fin k0_t1_loop.trips) (v108 : IVec S16 32) (v148 : IVec S16 32) : Prop :=
  (∀ (k0_h6 : k0_cond6 i k0_t1 = 1#1), ∀ a x, ((![v108, v148] : Fin 2 → IVec S16 32) a x).toNat < S128x128.size a)
instance k0_chk6.dec : ∀ (i : grid0.Coords) (k0_t1 : Fin k0_t1_loop.trips) (v108 : IVec S16 32) (v148 : IVec S16 32), Decidable (k0_chk6 i k0_t1 v108 v148) := fun i k0_t1 v108 v148 => decidable_of_iff' _ (Iff.of_eq (k0_chk6.eq_1 i k0_t1 v108 v148))
theorem k0_idx6_inb : ∀ (i : grid0.Coords) (k0_t1 : Fin k0_t1_loop.trips) (v108 : IVec S16 32) (v148 : IVec S16 32) (k0_hw6 : k0_chk6 i k0_t1 v108 v148), ∀ (k0_h6 : k0_cond6 i k0_t1 = 1#1), ∀ a x, ((![v108, v148] : Fin 2 → IVec S16 32) a x).toNat < S128x128.size a := fun i k0_t1 v108 v148 k0_hw6 k0_h6 => k0_hw6 k0_h6

def k0_chk7 (i : grid0.Coords) (k0_t1 : Fin k0_t1_loop.trips) (v106 : IVec S16 32) (v156 : IVec S16 32) : Prop :=
  (∀ (k0_h6 : k0_cond6 i k0_t1 = 1#1), ∀ a x, ((![v156, v106] : Fin 2 → IVec S16 32) a x).toNat < S64x256.size a)
instance k0_chk7.dec : ∀ (i : grid0.Coords) (k0_t1 : Fin k0_t1_loop.trips) (v106 : IVec S16 32) (v156 : IVec S16 32), Decidable (k0_chk7 i k0_t1 v106 v156) := fun i k0_t1 v106 v156 => decidable_of_iff' _ (Iff.of_eq (k0_chk7.eq_1 i k0_t1 v106 v156))
theorem k0_idx7_inb : ∀ (i : grid0.Coords) (k0_t1 : Fin k0_t1_loop.trips) (v106 : IVec S16 32) (v156 : IVec S16 32) (k0_hw7 : k0_chk7 i k0_t1 v106 v156), ∀ (k0_h6 : k0_cond6 i k0_t1 = 1#1), ∀ a x, ((![v156, v106] : Fin 2 → IVec S16 32) a x).toNat < S64x256.size a := fun i k0_t1 v106 v156 k0_hw7 k0_h6 => k0_hw7 k0_h6

def k0_chk8 (i : grid0.Coords) (k0_t1 : Fin k0_t1_loop.trips) (v108 : IVec S16 32) (v160 : IVec S16 32) : Prop :=
  (∀ (k0_h6 : k0_cond6 i k0_t1 = 1#1), ∀ a x, ((![v108, v160] : Fin 2 → IVec S16 32) a x).toNat < S128x128.size a)
instance k0_chk8.dec : ∀ (i : grid0.Coords) (k0_t1 : Fin k0_t1_loop.trips) (v108 : IVec S16 32) (v160 : IVec S16 32), Decidable (k0_chk8 i k0_t1 v108 v160) := fun i k0_t1 v108 v160 => decidable_of_iff' _ (Iff.of_eq (k0_chk8.eq_1 i k0_t1 v108 v160))
theorem k0_idx8_inb : ∀ (i : grid0.Coords) (k0_t1 : Fin k0_t1_loop.trips) (v108 : IVec S16 32) (v160 : IVec S16 32) (k0_hw8 : k0_chk8 i k0_t1 v108 v160), ∀ (k0_h6 : k0_cond6 i k0_t1 = 1#1), ∀ a x, ((![v108, v160] : Fin 2 → IVec S16 32) a x).toNat < S128x128.size a := fun i k0_t1 v108 v160 k0_hw8 k0_h6 => k0_hw8 k0_h6

def k0_chk9 (i : grid0.Coords) (k0_t1 : Fin k0_t1_loop.trips) (v106 : IVec S16 32) (v168 : IVec S16 32) : Prop :=
  (∀ (k0_h6 : k0_cond6 i k0_t1 = 1#1), ∀ a x, ((![v168, v106] : Fin 2 → IVec S16 32) a x).toNat < S64x256.size a)
instance k0_chk9.dec : ∀ (i : grid0.Coords) (k0_t1 : Fin k0_t1_loop.trips) (v106 : IVec S16 32) (v168 : IVec S16 32), Decidable (k0_chk9 i k0_t1 v106 v168) := fun i k0_t1 v106 v168 => decidable_of_iff' _ (Iff.of_eq (k0_chk9.eq_1 i k0_t1 v106 v168))
theorem k0_idx9_inb : ∀ (i : grid0.Coords) (k0_t1 : Fin k0_t1_loop.trips) (v106 : IVec S16 32) (v168 : IVec S16 32) (k0_hw9 : k0_chk9 i k0_t1 v106 v168), ∀ (k0_h6 : k0_cond6 i k0_t1 = 1#1), ∀ a x, ((![v168, v106] : Fin 2 → IVec S16 32) a x).toNat < S64x256.size a := fun i k0_t1 v106 v168 k0_hw9 k0_h6 => k0_hw9 k0_h6

def k0_chk10 (i : grid0.Coords) (k0_t1 : Fin k0_t1_loop.trips) (v108 : IVec S16 32) (v172 : IVec S16 32) : Prop :=
  (∀ (k0_h6 : k0_cond6 i k0_t1 = 1#1), ∀ a x, ((![v108, v172] : Fin 2 → IVec S16 32) a x).toNat < S128x128.size a)
instance k0_chk10.dec : ∀ (i : grid0.Coords) (k0_t1 : Fin k0_t1_loop.trips) (v108 : IVec S16 32) (v172 : IVec S16 32), Decidable (k0_chk10 i k0_t1 v108 v172) := fun i k0_t1 v108 v172 => decidable_of_iff' _ (Iff.of_eq (k0_chk10.eq_1 i k0_t1 v108 v172))
theorem k0_idx10_inb : ∀ (i : grid0.Coords) (k0_t1 : Fin k0_t1_loop.trips) (v108 : IVec S16 32) (v172 : IVec S16 32) (k0_hw10 : k0_chk10 i k0_t1 v108 v172), ∀ (k0_h6 : k0_cond6 i k0_t1 = 1#1), ∀ a x, ((![v108, v172] : Fin 2 → IVec S16 32) a x).toNat < S128x128.size a := fun i k0_t1 v108 v172 k0_hw10 k0_h6 => k0_hw10 k0_h6

def k0_chk11 (i : grid0.Coords) (k0_t1 : Fin k0_t1_loop.trips) (v106 : IVec S16 32) (v180 : IVec S16 32) : Prop :=
  (∀ (k0_h6 : k0_cond6 i k0_t1 = 1#1), ∀ a x, ((![v180, v106] : Fin 2 → IVec S16 32) a x).toNat < S64x256.size a)
instance k0_chk11.dec : ∀ (i : grid0.Coords) (k0_t1 : Fin k0_t1_loop.trips) (v106 : IVec S16 32) (v180 : IVec S16 32), Decidable (k0_chk11 i k0_t1 v106 v180) := fun i k0_t1 v106 v180 => decidable_of_iff' _ (Iff.of_eq (k0_chk11.eq_1 i k0_t1 v106 v180))
theorem k0_idx11_inb : ∀ (i : grid0.Coords) (k0_t1 : Fin k0_t1_loop.trips) (v106 : IVec S16 32) (v180 : IVec S16 32) (k0_hw11 : k0_chk11 i k0_t1 v106 v180), ∀ (k0_h6 : k0_cond6 i k0_t1 = 1#1), ∀ a x, ((![v180, v106] : Fin 2 → IVec S16 32) a x).toNat < S64x256.size a := fun i k0_t1 v106 v180 k0_hw11 k0_h6 => k0_hw11 k0_h6

def k0_chk12 (i : grid0.Coords) (k0_t1 : Fin k0_t1_loop.trips) (v108 : IVec S16 32) (v184 : IVec S16 32) : Prop :=
  (∀ (k0_h6 : k0_cond6 i k0_t1 = 1#1), ∀ a x, ((![v108, v184] : Fin 2 → IVec S16 32) a x).toNat < S128x128.size a)
instance k0_chk12.dec : ∀ (i : grid0.Coords) (k0_t1 : Fin k0_t1_loop.trips) (v108 : IVec S16 32) (v184 : IVec S16 32), Decidable (k0_chk12 i k0_t1 v108 v184) := fun i k0_t1 v108 v184 => decidable_of_iff' _ (Iff.of_eq (k0_chk12.eq_1 i k0_t1 v108 v184))
theorem k0_idx12_inb : ∀ (i : grid0.Coords) (k0_t1 : Fin k0_t1_loop.trips) (v108 : IVec S16 32) (v184 : IVec S16 32) (k0_hw12 : k0_chk12 i k0_t1 v108 v184), ∀ (k0_h6 : k0_cond6 i k0_t1 = 1#1), ∀ a x, ((![v108, v184] : Fin 2 → IVec S16 32) a x).toNat < S128x128.size a := fun i k0_t1 v108 v184 k0_hw12 k0_h6 => k0_hw12 k0_h6

def k0_chk13 (i : grid0.Coords) (k0_t1 : Fin k0_t1_loop.trips) (v106 : IVec S16 32) (v192 : IVec S16 32) : Prop :=
  (∀ (k0_h6 : k0_cond6 i k0_t1 = 1#1), ∀ a x, ((![v192, v106] : Fin 2 → IVec S16 32) a x).toNat < S64x256.size a)
instance k0_chk13.dec : ∀ (i : grid0.Coords) (k0_t1 : Fin k0_t1_loop.trips) (v106 : IVec S16 32) (v192 : IVec S16 32), Decidable (k0_chk13 i k0_t1 v106 v192) := fun i k0_t1 v106 v192 => decidable_of_iff' _ (Iff.of_eq (k0_chk13.eq_1 i k0_t1 v106 v192))
theorem k0_idx13_inb : ∀ (i : grid0.Coords) (k0_t1 : Fin k0_t1_loop.trips) (v106 : IVec S16 32) (v192 : IVec S16 32) (k0_hw13 : k0_chk13 i k0_t1 v106 v192), ∀ (k0_h6 : k0_cond6 i k0_t1 = 1#1), ∀ a x, ((![v192, v106] : Fin 2 → IVec S16 32) a x).toNat < S64x256.size a := fun i k0_t1 v106 v192 k0_hw13 k0_h6 => k0_hw13 k0_h6

def k0_chk14 (i : grid0.Coords) (k0_t1 : Fin k0_t1_loop.trips) (v108 : IVec S16 32) (v196 : IVec S16 32) : Prop :=
  (∀ (k0_h6 : k0_cond6 i k0_t1 = 1#1), ∀ a x, ((![v108, v196] : Fin 2 → IVec S16 32) a x).toNat < S128x128.size a)
instance k0_chk14.dec : ∀ (i : grid0.Coords) (k0_t1 : Fin k0_t1_loop.trips) (v108 : IVec S16 32) (v196 : IVec S16 32), Decidable (k0_chk14 i k0_t1 v108 v196) := fun i k0_t1 v108 v196 => decidable_of_iff' _ (Iff.of_eq (k0_chk14.eq_1 i k0_t1 v108 v196))
theorem k0_idx14_inb : ∀ (i : grid0.Coords) (k0_t1 : Fin k0_t1_loop.trips) (v108 : IVec S16 32) (v196 : IVec S16 32) (k0_hw14 : k0_chk14 i k0_t1 v108 v196), ∀ (k0_h6 : k0_cond6 i k0_t1 = 1#1), ∀ a x, ((![v108, v196] : Fin 2 → IVec S16 32) a x).toNat < S128x128.size a := fun i k0_t1 v108 v196 k0_hw14 k0_h6 => k0_hw14 k0_h6

def k0_chk15 (i : grid0.Coords) (k0_t1 : Fin k0_t1_loop.trips) (v106 : IVec S16 32) (v204 : IVec S16 32) : Prop :=
  (∀ (k0_h6 : k0_cond6 i k0_t1 = 1#1), ∀ a x, ((![v204, v106] : Fin 2 → IVec S16 32) a x).toNat < S64x256.size a)
instance k0_chk15.dec : ∀ (i : grid0.Coords) (k0_t1 : Fin k0_t1_loop.trips) (v106 : IVec S16 32) (v204 : IVec S16 32), Decidable (k0_chk15 i k0_t1 v106 v204) := fun i k0_t1 v106 v204 => decidable_of_iff' _ (Iff.of_eq (k0_chk15.eq_1 i k0_t1 v106 v204))
theorem k0_idx15_inb : ∀ (i : grid0.Coords) (k0_t1 : Fin k0_t1_loop.trips) (v106 : IVec S16 32) (v204 : IVec S16 32) (k0_hw15 : k0_chk15 i k0_t1 v106 v204), ∀ (k0_h6 : k0_cond6 i k0_t1 = 1#1), ∀ a x, ((![v204, v106] : Fin 2 → IVec S16 32) a x).toNat < S64x256.size a := fun i k0_t1 v106 v204 k0_hw15 k0_h6 => k0_hw15 k0_h6

def k0_chk16 (i : grid0.Coords) (k0_t1 : Fin k0_t1_loop.trips) (v108 : IVec S16 32) (v208 : IVec S16 32) : Prop :=
  (∀ (k0_h6 : k0_cond6 i k0_t1 = 1#1), ∀ a x, ((![v108, v208] : Fin 2 → IVec S16 32) a x).toNat < S128x128.size a)
instance k0_chk16.dec : ∀ (i : grid0.Coords) (k0_t1 : Fin k0_t1_loop.trips) (v108 : IVec S16 32) (v208 : IVec S16 32), Decidable (k0_chk16 i k0_t1 v108 v208) := fun i k0_t1 v108 v208 => decidable_of_iff' _ (Iff.of_eq (k0_chk16.eq_1 i k0_t1 v108 v208))
theorem k0_idx16_inb : ∀ (i : grid0.Coords) (k0_t1 : Fin k0_t1_loop.trips) (v108 : IVec S16 32) (v208 : IVec S16 32) (k0_hw16 : k0_chk16 i k0_t1 v108 v208), ∀ (k0_h6 : k0_cond6 i k0_t1 = 1#1), ∀ a x, ((![v108, v208] : Fin 2 → IVec S16 32) a x).toNat < S128x128.size a := fun i k0_t1 v108 v208 k0_hw16 k0_h6 => k0_hw16 k0_h6

def k0_chk17 (i : grid0.Coords) (k0_t1 : Fin k0_t1_loop.trips) (v106 : IVec S16 32) (v216 : IVec S16 32) : Prop :=
  (∀ (k0_h6 : k0_cond6 i k0_t1 = 1#1), ∀ a x, ((![v216, v106] : Fin 2 → IVec S16 32) a x).toNat < S64x256.size a)
instance k0_chk17.dec : ∀ (i : grid0.Coords) (k0_t1 : Fin k0_t1_loop.trips) (v106 : IVec S16 32) (v216 : IVec S16 32), Decidable (k0_chk17 i k0_t1 v106 v216) := fun i k0_t1 v106 v216 => decidable_of_iff' _ (Iff.of_eq (k0_chk17.eq_1 i k0_t1 v106 v216))
theorem k0_idx17_inb : ∀ (i : grid0.Coords) (k0_t1 : Fin k0_t1_loop.trips) (v106 : IVec S16 32) (v216 : IVec S16 32) (k0_hw17 : k0_chk17 i k0_t1 v106 v216), ∀ (k0_h6 : k0_cond6 i k0_t1 = 1#1), ∀ a x, ((![v216, v106] : Fin 2 → IVec S16 32) a x).toNat < S64x256.size a := fun i k0_t1 v106 v216 k0_hw17 k0_h6 => k0_hw17 k0_h6

def k0_chk18 (i : grid0.Coords) (k0_t1 : Fin k0_t1_loop.trips) (v108 : IVec S16 32) (v220 : IVec S16 32) : Prop :=
  (∀ (k0_h6 : k0_cond6 i k0_t1 = 1#1), ∀ a x, ((![v108, v220] : Fin 2 → IVec S16 32) a x).toNat < S128x128.size a)
instance k0_chk18.dec : ∀ (i : grid0.Coords) (k0_t1 : Fin k0_t1_loop.trips) (v108 : IVec S16 32) (v220 : IVec S16 32), Decidable (k0_chk18 i k0_t1 v108 v220) := fun i k0_t1 v108 v220 => decidable_of_iff' _ (Iff.of_eq (k0_chk18.eq_1 i k0_t1 v108 v220))
theorem k0_idx18_inb : ∀ (i : grid0.Coords) (k0_t1 : Fin k0_t1_loop.trips) (v108 : IVec S16 32) (v220 : IVec S16 32) (k0_hw18 : k0_chk18 i k0_t1 v108 v220), ∀ (k0_h6 : k0_cond6 i k0_t1 = 1#1), ∀ a x, ((![v108, v220] : Fin 2 → IVec S16 32) a x).toNat < S128x128.size a := fun i k0_t1 v108 v220 k0_hw18 k0_h6 => k0_hw18 k0_h6

def k0_chk19 (i : grid0.Coords) (k0_t1 : Fin k0_t1_loop.trips) (v106 : IVec S16 32) (v228 : IVec S16 32) : Prop :=
  (∀ (k0_h6 : k0_cond6 i k0_t1 = 1#1), ∀ a x, ((![v228, v106] : Fin 2 → IVec S16 32) a x).toNat < S64x256.size a)
instance k0_chk19.dec : ∀ (i : grid0.Coords) (k0_t1 : Fin k0_t1_loop.trips) (v106 : IVec S16 32) (v228 : IVec S16 32), Decidable (k0_chk19 i k0_t1 v106 v228) := fun i k0_t1 v106 v228 => decidable_of_iff' _ (Iff.of_eq (k0_chk19.eq_1 i k0_t1 v106 v228))
theorem k0_idx19_inb : ∀ (i : grid0.Coords) (k0_t1 : Fin k0_t1_loop.trips) (v106 : IVec S16 32) (v228 : IVec S16 32) (k0_hw19 : k0_chk19 i k0_t1 v106 v228), ∀ (k0_h6 : k0_cond6 i k0_t1 = 1#1), ∀ a x, ((![v228, v106] : Fin 2 → IVec S16 32) a x).toNat < S64x256.size a := fun i k0_t1 v106 v228 k0_hw19 k0_h6 => k0_hw19 k0_h6

def k0_chk20 (i : grid0.Coords) (k0_t1 : Fin k0_t1_loop.trips) (v108 : IVec S16 32) (v232 : IVec S16 32) : Prop :=
  (∀ (k0_h6 : k0_cond6 i k0_t1 = 1#1), ∀ a x, ((![v108, v232] : Fin 2 → IVec S16 32) a x).toNat < S128x128.size a)
instance k0_chk20.dec : ∀ (i : grid0.Coords) (k0_t1 : Fin k0_t1_loop.trips) (v108 : IVec S16 32) (v232 : IVec S16 32), Decidable (k0_chk20 i k0_t1 v108 v232) := fun i k0_t1 v108 v232 => decidable_of_iff' _ (Iff.of_eq (k0_chk20.eq_1 i k0_t1 v108 v232))
theorem k0_idx20_inb : ∀ (i : grid0.Coords) (k0_t1 : Fin k0_t1_loop.trips) (v108 : IVec S16 32) (v232 : IVec S16 32) (k0_hw20 : k0_chk20 i k0_t1 v108 v232), ∀ (k0_h6 : k0_cond6 i k0_t1 = 1#1), ∀ a x, ((![v108, v232] : Fin 2 → IVec S16 32) a x).toNat < S128x128.size a := fun i k0_t1 v108 v232 k0_hw20 k0_h6 => k0_hw20 k0_h6

def k0_chk21 (i : grid0.Coords) (k0_t1 : Fin k0_t1_loop.trips) (v106 : IVec S16 32) (v240 : IVec S16 32) : Prop :=
  (∀ (k0_h6 : k0_cond6 i k0_t1 = 1#1), ∀ a x, ((![v240, v106] : Fin 2 → IVec S16 32) a x).toNat < S64x256.size a)
instance k0_chk21.dec : ∀ (i : grid0.Coords) (k0_t1 : Fin k0_t1_loop.trips) (v106 : IVec S16 32) (v240 : IVec S16 32), Decidable (k0_chk21 i k0_t1 v106 v240) := fun i k0_t1 v106 v240 => decidable_of_iff' _ (Iff.of_eq (k0_chk21.eq_1 i k0_t1 v106 v240))
theorem k0_idx21_inb : ∀ (i : grid0.Coords) (k0_t1 : Fin k0_t1_loop.trips) (v106 : IVec S16 32) (v240 : IVec S16 32) (k0_hw21 : k0_chk21 i k0_t1 v106 v240), ∀ (k0_h6 : k0_cond6 i k0_t1 = 1#1), ∀ a x, ((![v240, v106] : Fin 2 → IVec S16 32) a x).toNat < S64x256.size a := fun i k0_t1 v106 v240 k0_hw21 k0_h6 => k0_hw21 k0_h6

def k0_chk22 (i : grid0.Coords) (k0_t1 : Fin k0_t1_loop.trips) (v108 : IVec S16 32) (v244 : IVec S16 32) : Prop :=
  (∀ (k0_h6 : k0_cond6 i k0_t1 = 1#1), ∀ a x, ((![v108, v244] : Fin 2 → IVec S16 32) a x).toNat < S128x128.size a)
instance k0_chk22.dec : ∀ (i : grid0.Coords) (k0_t1 : Fin k0_t1_loop.trips) (v108 : IVec S16 32) (v244 : IVec S16 32), Decidable (k0_chk22 i k0_t1 v108 v244) := fun i k0_t1 v108 v244 => decidable_of_iff' _ (Iff.of_eq (k0_chk22.eq_1 i k0_t1 v108 v244))
theorem k0_idx22_inb : ∀ (i : grid0.Coords) (k0_t1 : Fin k0_t1_loop.trips) (v108 : IVec S16 32) (v244 : IVec S16 32) (k0_hw22 : k0_chk22 i k0_t1 v108 v244), ∀ (k0_h6 : k0_cond6 i k0_t1 = 1#1), ∀ a x, ((![v108, v244] : Fin 2 → IVec S16 32) a x).toNat < S128x128.size a := fun i k0_t1 v108 v244 k0_hw22 k0_h6 => k0_hw22 k0_h6

def k0_chk23 (i : grid0.Coords) (k0_t1 : Fin k0_t1_loop.trips) (v106 : IVec S16 32) (v252 : IVec S16 32) : Prop :=
  (∀ (k0_h6 : k0_cond6 i k0_t1 = 1#1), ∀ a x, ((![v252, v106] : Fin 2 → IVec S16 32) a x).toNat < S64x256.size a)
instance k0_chk23.dec : ∀ (i : grid0.Coords) (k0_t1 : Fin k0_t1_loop.trips) (v106 : IVec S16 32) (v252 : IVec S16 32), Decidable (k0_chk23 i k0_t1 v106 v252) := fun i k0_t1 v106 v252 => decidable_of_iff' _ (Iff.of_eq (k0_chk23.eq_1 i k0_t1 v106 v252))
theorem k0_idx23_inb : ∀ (i : grid0.Coords) (k0_t1 : Fin k0_t1_loop.trips) (v106 : IVec S16 32) (v252 : IVec S16 32) (k0_hw23 : k0_chk23 i k0_t1 v106 v252), ∀ (k0_h6 : k0_cond6 i k0_t1 = 1#1), ∀ a x, ((![v252, v106] : Fin 2 → IVec S16 32) a x).toNat < S64x256.size a := fun i k0_t1 v106 v252 k0_hw23 k0_h6 => k0_hw23 k0_h6

def k0_chk24 (i : grid0.Coords) (k0_t1 : Fin k0_t1_loop.trips) (v108 : IVec S16 32) (v256 : IVec S16 32) : Prop :=
  (∀ (k0_h6 : k0_cond6 i k0_t1 = 1#1), ∀ a x, ((![v108, v256] : Fin 2 → IVec S16 32) a x).toNat < S128x128.size a)
instance k0_chk24.dec : ∀ (i : grid0.Coords) (k0_t1 : Fin k0_t1_loop.trips) (v108 : IVec S16 32) (v256 : IVec S16 32), Decidable (k0_chk24 i k0_t1 v108 v256) := fun i k0_t1 v108 v256 => decidable_of_iff' _ (Iff.of_eq (k0_chk24.eq_1 i k0_t1 v108 v256))
theorem k0_idx24_inb : ∀ (i : grid0.Coords) (k0_t1 : Fin k0_t1_loop.trips) (v108 : IVec S16 32) (v256 : IVec S16 32) (k0_hw24 : k0_chk24 i k0_t1 v108 v256), ∀ (k0_h6 : k0_cond6 i k0_t1 = 1#1), ∀ a x, ((![v108, v256] : Fin 2 → IVec S16 32) a x).toNat < S128x128.size a := fun i k0_t1 v108 v256 k0_hw24 k0_h6 => k0_hw24 k0_h6

def k0_chk25 (i : grid0.Coords) (k0_t1 : Fin k0_t1_loop.trips) (v106 : IVec S16 32) (v264 : IVec S16 32) : Prop :=
  (∀ (k0_h6 : k0_cond6 i k0_t1 = 1#1), ∀ a x, ((![v264, v106] : Fin 2 → IVec S16 32) a x).toNat < S64x256.size a)
instance k0_chk25.dec : ∀ (i : grid0.Coords) (k0_t1 : Fin k0_t1_loop.trips) (v106 : IVec S16 32) (v264 : IVec S16 32), Decidable (k0_chk25 i k0_t1 v106 v264) := fun i k0_t1 v106 v264 => decidable_of_iff' _ (Iff.of_eq (k0_chk25.eq_1 i k0_t1 v106 v264))
theorem k0_idx25_inb : ∀ (i : grid0.Coords) (k0_t1 : Fin k0_t1_loop.trips) (v106 : IVec S16 32) (v264 : IVec S16 32) (k0_hw25 : k0_chk25 i k0_t1 v106 v264), ∀ (k0_h6 : k0_cond6 i k0_t1 = 1#1), ∀ a x, ((![v264, v106] : Fin 2 → IVec S16 32) a x).toNat < S64x256.size a := fun i k0_t1 v106 v264 k0_hw25 k0_h6 => k0_hw25 k0_h6

def k0_chk26 (i : grid0.Coords) (k0_t1 : Fin k0_t1_loop.trips) (v108 : IVec S16 32) (v268 : IVec S16 32) : Prop :=
  (∀ (k0_h6 : k0_cond6 i k0_t1 = 1#1), ∀ a x, ((![v108, v268] : Fin 2 → IVec S16 32) a x).toNat < S128x128.size a)
instance k0_chk26.dec : ∀ (i : grid0.Coords) (k0_t1 : Fin k0_t1_loop.trips) (v108 : IVec S16 32) (v268 : IVec S16 32), Decidable (k0_chk26 i k0_t1 v108 v268) := fun i k0_t1 v108 v268 => decidable_of_iff' _ (Iff.of_eq (k0_chk26.eq_1 i k0_t1 v108 v268))
theorem k0_idx26_inb : ∀ (i : grid0.Coords) (k0_t1 : Fin k0_t1_loop.trips) (v108 : IVec S16 32) (v268 : IVec S16 32) (k0_hw26 : k0_chk26 i k0_t1 v108 v268), ∀ (k0_h6 : k0_cond6 i k0_t1 = 1#1), ∀ a x, ((![v108, v268] : Fin 2 → IVec S16 32) a x).toNat < S128x128.size a := fun i k0_t1 v108 v268 k0_hw26 k0_h6 => k0_hw26 k0_h6

def k0_chk27 (i : grid0.Coords) (k0_t1 : Fin k0_t1_loop.trips) (v106 : IVec S16 32) (v276 : IVec S16 32) : Prop :=
  (∀ (k0_h6 : k0_cond6 i k0_t1 = 1#1), ∀ a x, ((![v276, v106] : Fin 2 → IVec S16 32) a x).toNat < S64x256.size a)
instance k0_chk27.dec : ∀ (i : grid0.Coords) (k0_t1 : Fin k0_t1_loop.trips) (v106 : IVec S16 32) (v276 : IVec S16 32), Decidable (k0_chk27 i k0_t1 v106 v276) := fun i k0_t1 v106 v276 => decidable_of_iff' _ (Iff.of_eq (k0_chk27.eq_1 i k0_t1 v106 v276))
theorem k0_idx27_inb : ∀ (i : grid0.Coords) (k0_t1 : Fin k0_t1_loop.trips) (v106 : IVec S16 32) (v276 : IVec S16 32) (k0_hw27 : k0_chk27 i k0_t1 v106 v276), ∀ (k0_h6 : k0_cond6 i k0_t1 = 1#1), ∀ a x, ((![v276, v106] : Fin 2 → IVec S16 32) a x).toNat < S64x256.size a := fun i k0_t1 v106 v276 k0_hw27 k0_h6 => k0_hw27 k0_h6

def k0_chk28 (i : grid0.Coords) (k0_t1 : Fin k0_t1_loop.trips) (v108 : IVec S16 32) (v280 : IVec S16 32) : Prop :=
  (∀ (k0_h6 : k0_cond6 i k0_t1 = 1#1), ∀ a x, ((![v108, v280] : Fin 2 → IVec S16 32) a x).toNat < S128x128.size a)
instance k0_chk28.dec : ∀ (i : grid0.Coords) (k0_t1 : Fin k0_t1_loop.trips) (v108 : IVec S16 32) (v280 : IVec S16 32), Decidable (k0_chk28 i k0_t1 v108 v280) := fun i k0_t1 v108 v280 => decidable_of_iff' _ (Iff.of_eq (k0_chk28.eq_1 i k0_t1 v108 v280))
theorem k0_idx28_inb : ∀ (i : grid0.Coords) (k0_t1 : Fin k0_t1_loop.trips) (v108 : IVec S16 32) (v280 : IVec S16 32) (k0_hw28 : k0_chk28 i k0_t1 v108 v280), ∀ (k0_h6 : k0_cond6 i k0_t1 = 1#1), ∀ a x, ((![v108, v280] : Fin 2 → IVec S16 32) a x).toNat < S128x128.size a := fun i k0_t1 v108 v280 k0_hw28 k0_h6 => k0_hw28 k0_h6

def k0_chk29 (i : grid0.Coords) (k0_t1 : Fin k0_t1_loop.trips) (v106 : IVec S16 32) (v288 : IVec S16 32) : Prop :=
  (∀ (k0_h6 : k0_cond6 i k0_t1 = 1#1), ∀ a x, ((![v288, v106] : Fin 2 → IVec S16 32) a x).toNat < S64x256.size a)
instance k0_chk29.dec : ∀ (i : grid0.Coords) (k0_t1 : Fin k0_t1_loop.trips) (v106 : IVec S16 32) (v288 : IVec S16 32), Decidable (k0_chk29 i k0_t1 v106 v288) := fun i k0_t1 v106 v288 => decidable_of_iff' _ (Iff.of_eq (k0_chk29.eq_1 i k0_t1 v106 v288))
theorem k0_idx29_inb : ∀ (i : grid0.Coords) (k0_t1 : Fin k0_t1_loop.trips) (v106 : IVec S16 32) (v288 : IVec S16 32) (k0_hw29 : k0_chk29 i k0_t1 v106 v288), ∀ (k0_h6 : k0_cond6 i k0_t1 = 1#1), ∀ a x, ((![v288, v106] : Fin 2 → IVec S16 32) a x).toNat < S64x256.size a := fun i k0_t1 v106 v288 k0_hw29 k0_h6 => k0_hw29 k0_h6

def k0_chk30 (i : grid0.Coords) (k0_t1 : Fin k0_t1_loop.trips) (v108 : IVec S16 32) (v292 : IVec S16 32) : Prop :=
  (∀ (k0_h6 : k0_cond6 i k0_t1 = 1#1), ∀ a x, ((![v108, v292] : Fin 2 → IVec S16 32) a x).toNat < S128x128.size a)
instance k0_chk30.dec : ∀ (i : grid0.Coords) (k0_t1 : Fin k0_t1_loop.trips) (v108 : IVec S16 32) (v292 : IVec S16 32), Decidable (k0_chk30 i k0_t1 v108 v292) := fun i k0_t1 v108 v292 => decidable_of_iff' _ (Iff.of_eq (k0_chk30.eq_1 i k0_t1 v108 v292))
theorem k0_idx30_inb : ∀ (i : grid0.Coords) (k0_t1 : Fin k0_t1_loop.trips) (v108 : IVec S16 32) (v292 : IVec S16 32) (k0_hw30 : k0_chk30 i k0_t1 v108 v292), ∀ (k0_h6 : k0_cond6 i k0_t1 = 1#1), ∀ a x, ((![v108, v292] : Fin 2 → IVec S16 32) a x).toNat < S128x128.size a := fun i k0_t1 v108 v292 k0_hw30 k0_h6 => k0_hw30 k0_h6

def k0_chk31 (i : grid0.Coords) (k0_t1 : Fin k0_t1_loop.trips) (v106 : IVec S16 32) (v300 : IVec S16 32) : Prop :=
  (∀ (k0_h6 : k0_cond6 i k0_t1 = 1#1), ∀ a x, ((![v300, v106] : Fin 2 → IVec S16 32) a x).toNat < S64x256.size a)
instance k0_chk31.dec : ∀ (i : grid0.Coords) (k0_t1 : Fin k0_t1_loop.trips) (v106 : IVec S16 32) (v300 : IVec S16 32), Decidable (k0_chk31 i k0_t1 v106 v300) := fun i k0_t1 v106 v300 => decidable_of_iff' _ (Iff.of_eq (k0_chk31.eq_1 i k0_t1 v106 v300))
theorem k0_idx31_inb : ∀ (i : grid0.Coords) (k0_t1 : Fin k0_t1_loop.trips) (v106 : IVec S16 32) (v300 : IVec S16 32) (k0_hw31 : k0_chk31 i k0_t1 v106 v300), ∀ (k0_h6 : k0_cond6 i k0_t1 = 1#1), ∀ a x, ((![v300, v106] : Fin 2 → IVec S16 32) a x).toNat < S64x256.size a := fun i k0_t1 v106 v300 k0_hw31 k0_h6 => k0_hw31 k0_h6

def k0_chk32 (i : grid0.Coords) (k0_t1 : Fin k0_t1_loop.trips) (v108 : IVec S16 32) (v304 : IVec S16 32) : Prop :=
  (∀ (k0_h6 : k0_cond6 i k0_t1 = 1#1), ∀ a x, ((![v108, v304] : Fin 2 → IVec S16 32) a x).toNat < S128x128.size a)
instance k0_chk32.dec : ∀ (i : grid0.Coords) (k0_t1 : Fin k0_t1_loop.trips) (v108 : IVec S16 32) (v304 : IVec S16 32), Decidable (k0_chk32 i k0_t1 v108 v304) := fun i k0_t1 v108 v304 => decidable_of_iff' _ (Iff.of_eq (k0_chk32.eq_1 i k0_t1 v108 v304))
theorem k0_idx32_inb : ∀ (i : grid0.Coords) (k0_t1 : Fin k0_t1_loop.trips) (v108 : IVec S16 32) (v304 : IVec S16 32) (k0_hw32 : k0_chk32 i k0_t1 v108 v304), ∀ (k0_h6 : k0_cond6 i k0_t1 = 1#1), ∀ a x, ((![v108, v304] : Fin 2 → IVec S16 32) a x).toNat < S128x128.size a := fun i k0_t1 v108 v304 k0_hw32 k0_h6 => k0_hw32 k0_h6
def k0_cond7 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_22 : BitVec 32 := 32#32
  let c0_i32_4 : BitVec 32 := 0#32
  let c1_i32 : BitVec 32 := 1#32
  let arg13 : BitVec 32 := Scf.iv c0_i32_4 c1_i32 k0_t1
  let c2_i32_12 : BitVec 32 := 2#32
  let v23 : BitVec 32 := Scalar.muli arg13 c2_i32_12
  let c0_i32_13 : BitVec 32 := 0#32
  let v24 : BitVec 32 := Scalar.addi v23 c0_i32_13
  let v38 : BitVec 32 := Scalar.muli c32_i32_22 v24
  let v39 : BitVec 32 := Scalar.addi v1 v38
  let c3906_i32_23 : BitVec 32 := 3906#32
  let v40 : BitVec 1 := Scalar.cmpi .slt v39 c3906_i32_23
  let v41 : BitVec 32 := Scalar.extui v40
  let c0_i32_24 : BitVec 32 := 0#32
  let v42 : BitVec 1 := Scalar.cmpi .ne v41 c0_i32_24
  v42

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_22 : BitVec 32 := 32#32
  let c0_i32_4 : BitVec 32 := 0#32
  let c1_i32 : BitVec 32 := 1#32
  let arg13 : BitVec 32 := Scf.iv c0_i32_4 c1_i32 k0_t1
  let c2_i32_12 : BitVec 32 := 2#32
  let v23 : BitVec 32 := Scalar.muli arg13 c2_i32_12
  let c0_i32_13 : BitVec 32 := 0#32
  let v24 : BitVec 32 := Scalar.addi v23 c0_i32_13
  let v38 : BitVec 32 := Scalar.muli c32_i32_22 v24
  let v39 : BitVec 32 := Scalar.addi v1 v38
  let c128_i32 : BitVec 32 := 128#32
  let v75 : BitVec 32 := Scalar.muli v39 c128_i32
  let c0_i32_49 : BitVec 32 := 0#32
  ![v75.toNat, 0]
def k0_cond8 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_26 : BitVec 32 := 32#32
  let c0_i32_4 : BitVec 32 := 0#32
  let c1_i32 : BitVec 32 := 1#32
  let arg13 : BitVec 32 := Scf.iv c0_i32_4 c1_i32 k0_t1
  let c2_i32_12 : BitVec 32 := 2#32
  let v23 : BitVec 32 := Scalar.muli arg13 c2_i32_12
  let c0_i32_13 : BitVec 32 := 0#32
  let v24 : BitVec 32 := Scalar.addi v23 c0_i32_13
  let c2_i32_25 : BitVec 32 := 2#32
  let v43 : BitVec 32 := Scalar.addi v24 c2_i32_25
  let v44 : BitVec 32 := Scalar.muli c32_i32_26 v43
  let v45 : BitVec 32 := Scalar.addi v1 v44
  let c3906_i32_27 : BitVec 32 := 3906#32
  let v46 : BitVec 1 := Scalar.cmpi .slt v45 c3906_i32_27
  let v47 : BitVec 32 := Scalar.extui v46
  let c0_i32_28 : BitVec 32 := 0#32
  let v48 : BitVec 1 := Scalar.cmpi .ne v47 c0_i32_28
  v48

def k0_off4 (i : grid0.Coords) (k0_t1 : Fin k0_t1_loop.trips) : Fin 2 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_26 : BitVec 32 := 32#32
  let c0_i32_4 : BitVec 32 := 0#32
  let c1_i32 : BitVec 32 := 1#32
  let arg13 : BitVec 32 := Scf.iv c0_i32_4 c1_i32 k0_t1
  let c2_i32_12 : BitVec 32 := 2#32
  let v23 : BitVec 32 := Scalar.muli arg13 c2_i32_12
  let c0_i32_13 : BitVec 32 := 0#32
  let v24 : BitVec 32 := Scalar.addi v23 c0_i32_13
  let c2_i32_25 : BitVec 32 := 2#32
  let v43 : BitVec 32 := Scalar.addi v24 c2_i32_25
  let v44 : BitVec 32 := Scalar.muli c32_i32_26 v43
  let v45 : BitVec 32 := Scalar.addi v1 v44
  let c256_i32 : BitVec 32 := 256#32
  let v75 : BitVec 32 := Scalar.muli v45 c256_i32
  ![0, v75.toNat]
def k0_cond12 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_36 : BitVec 32 := 32#32
  let c0_i32_4 : BitVec 32 := 0#32
  let c1_i32 : BitVec 32 := 1#32
  let arg13 : BitVec 32 := Scf.iv c0_i32_4 c1_i32 k0_t1
  let c2_i32_29 : BitVec 32 := 2#32
  let v49 : BitVec 32 := Scalar.muli arg13 c2_i32_29
  let c1_i32_30 : BitVec 32 := 1#32
  let v50 : BitVec 32 := Scalar.addi v49 c1_i32_30
  let v59 : BitVec 32 := Scalar.muli c32_i32_36 v50
  let v60 : BitVec 32 := Scalar.addi v1 v59
  let c3906_i32_37 : BitVec 32 := 3906#32
  let v61 : BitVec 1 := Scalar.cmpi .slt v60 c3906_i32_37
  let v62 : BitVec 32 := Scalar.extui v61
  let c0_i32_38 : BitVec 32 := 0#32
  let v63 : BitVec 1 := Scalar.cmpi .ne v62 c0_i32_38
  v63

@[reducible] def k0_t3_loop : Scf.Loop 32 :=
  let c0_i32_49 : BitVec 32 := 0#32
  let c64_i32 : BitVec 32 := 64#32
  let v75 : BitVec 32 := Scalar.addi c0_i32_49 c64_i32
  let c1_i32_50 : BitVec 32 := 1#32
  ⟨c0_i32_49, v75, c1_i32_50⟩

def k0_chk33 (i : grid0.Coords) (k0_t1 : Fin k0_t1_loop.trips) (v106 : IVec S16 32) (v120 : IVec S16 32) : Prop :=
  (∀ (k0_h12 : k0_cond12 i k0_t1 = 1#1), ∀ a x, ((![v120, v106] : Fin 2 → IVec S16 32) a x).toNat < S64x256.size a)
instance k0_chk33.dec : ∀ (i : grid0.Coords) (k0_t1 : Fin k0_t1_loop.trips) (v106 : IVec S16 32) (v120 : IVec S16 32), Decidable (k0_chk33 i k0_t1 v106 v120) := fun i k0_t1 v106 v120 => decidable_of_iff' _ (Iff.of_eq (k0_chk33.eq_1 i k0_t1 v106 v120))
theorem k0_idx33_inb : ∀ (i : grid0.Coords) (k0_t1 : Fin k0_t1_loop.trips) (v106 : IVec S16 32) (v120 : IVec S16 32) (k0_hw33 : k0_chk33 i k0_t1 v106 v120), ∀ (k0_h12 : k0_cond12 i k0_t1 = 1#1), ∀ a x, ((![v120, v106] : Fin 2 → IVec S16 32) a x).toNat < S64x256.size a := fun i k0_t1 v106 v120 k0_hw33 k0_h12 => k0_hw33 k0_h12

def k0_chk34 (i : grid0.Coords) (k0_t1 : Fin k0_t1_loop.trips) (v108 : IVec S16 32) (v124 : IVec S16 32) : Prop :=
  (∀ (k0_h12 : k0_cond12 i k0_t1 = 1#1), ∀ a x, ((![v108, v124] : Fin 2 → IVec S16 32) a x).toNat < S128x128.size a)
instance k0_chk34.dec : ∀ (i : grid0.Coords) (k0_t1 : Fin k0_t1_loop.trips) (v108 : IVec S16 32) (v124 : IVec S16 32), Decidable (k0_chk34 i k0_t1 v108 v124) := fun i k0_t1 v108 v124 => decidable_of_iff' _ (Iff.of_eq (k0_chk34.eq_1 i k0_t1 v108 v124))
theorem k0_idx34_inb : ∀ (i : grid0.Coords) (k0_t1 : Fin k0_t1_loop.trips) (v108 : IVec S16 32) (v124 : IVec S16 32) (k0_hw34 : k0_chk34 i k0_t1 v108 v124), ∀ (k0_h12 : k0_cond12 i k0_t1 = 1#1), ∀ a x, ((![v108, v124] : Fin 2 → IVec S16 32) a x).toNat < S128x128.size a := fun i k0_t1 v108 v124 k0_hw34 k0_h12 => k0_hw34 k0_h12

def k0_chk35 (i : grid0.Coords) (k0_t1 : Fin k0_t1_loop.trips) (v106 : IVec S16 32) (v132 : IVec S16 32) : Prop :=
  (∀ (k0_h12 : k0_cond12 i k0_t1 = 1#1), ∀ a x, ((![v132, v106] : Fin 2 → IVec S16 32) a x).toNat < S64x256.size a)
instance k0_chk35.dec : ∀ (i : grid0.Coords) (k0_t1 : Fin k0_t1_loop.trips) (v106 : IVec S16 32) (v132 : IVec S16 32), Decidable (k0_chk35 i k0_t1 v106 v132) := fun i k0_t1 v106 v132 => decidable_of_iff' _ (Iff.of_eq (k0_chk35.eq_1 i k0_t1 v106 v132))
theorem k0_idx35_inb : ∀ (i : grid0.Coords) (k0_t1 : Fin k0_t1_loop.trips) (v106 : IVec S16 32) (v132 : IVec S16 32) (k0_hw35 : k0_chk35 i k0_t1 v106 v132), ∀ (k0_h12 : k0_cond12 i k0_t1 = 1#1), ∀ a x, ((![v132, v106] : Fin 2 → IVec S16 32) a x).toNat < S64x256.size a := fun i k0_t1 v106 v132 k0_hw35 k0_h12 => k0_hw35 k0_h12

def k0_chk36 (i : grid0.Coords) (k0_t1 : Fin k0_t1_loop.trips) (v108 : IVec S16 32) (v136 : IVec S16 32) : Prop :=
  (∀ (k0_h12 : k0_cond12 i k0_t1 = 1#1), ∀ a x, ((![v108, v136] : Fin 2 → IVec S16 32) a x).toNat < S128x128.size a)
instance k0_chk36.dec : ∀ (i : grid0.Coords) (k0_t1 : Fin k0_t1_loop.trips) (v108 : IVec S16 32) (v136 : IVec S16 32), Decidable (k0_chk36 i k0_t1 v108 v136) := fun i k0_t1 v108 v136 => decidable_of_iff' _ (Iff.of_eq (k0_chk36.eq_1 i k0_t1 v108 v136))
theorem k0_idx36_inb : ∀ (i : grid0.Coords) (k0_t1 : Fin k0_t1_loop.trips) (v108 : IVec S16 32) (v136 : IVec S16 32) (k0_hw36 : k0_chk36 i k0_t1 v108 v136), ∀ (k0_h12 : k0_cond12 i k0_t1 = 1#1), ∀ a x, ((![v108, v136] : Fin 2 → IVec S16 32) a x).toNat < S128x128.size a := fun i k0_t1 v108 v136 k0_hw36 k0_h12 => k0_hw36 k0_h12

def k0_chk37 (i : grid0.Coords) (k0_t1 : Fin k0_t1_loop.trips) (v106 : IVec S16 32) (v144 : IVec S16 32) : Prop :=
  (∀ (k0_h12 : k0_cond12 i k0_t1 = 1#1), ∀ a x, ((![v144, v106] : Fin 2 → IVec S16 32) a x).toNat < S64x256.size a)
instance k0_chk37.dec : ∀ (i : grid0.Coords) (k0_t1 : Fin k0_t1_loop.trips) (v106 : IVec S16 32) (v144 : IVec S16 32), Decidable (k0_chk37 i k0_t1 v106 v144) := fun i k0_t1 v106 v144 => decidable_of_iff' _ (Iff.of_eq (k0_chk37.eq_1 i k0_t1 v106 v144))
theorem k0_idx37_inb : ∀ (i : grid0.Coords) (k0_t1 : Fin k0_t1_loop.trips) (v106 : IVec S16 32) (v144 : IVec S16 32) (k0_hw37 : k0_chk37 i k0_t1 v106 v144), ∀ (k0_h12 : k0_cond12 i k0_t1 = 1#1), ∀ a x, ((![v144, v106] : Fin 2 → IVec S16 32) a x).toNat < S64x256.size a := fun i k0_t1 v106 v144 k0_hw37 k0_h12 => k0_hw37 k0_h12

def k0_chk38 (i : grid0.Coords) (k0_t1 : Fin k0_t1_loop.trips) (v108 : IVec S16 32) (v148 : IVec S16 32) : Prop :=
  (∀ (k0_h12 : k0_cond12 i k0_t1 = 1#1), ∀ a x, ((![v108, v148] : Fin 2 → IVec S16 32) a x).toNat < S128x128.size a)
instance k0_chk38.dec : ∀ (i : grid0.Coords) (k0_t1 : Fin k0_t1_loop.trips) (v108 : IVec S16 32) (v148 : IVec S16 32), Decidable (k0_chk38 i k0_t1 v108 v148) := fun i k0_t1 v108 v148 => decidable_of_iff' _ (Iff.of_eq (k0_chk38.eq_1 i k0_t1 v108 v148))
theorem k0_idx38_inb : ∀ (i : grid0.Coords) (k0_t1 : Fin k0_t1_loop.trips) (v108 : IVec S16 32) (v148 : IVec S16 32) (k0_hw38 : k0_chk38 i k0_t1 v108 v148), ∀ (k0_h12 : k0_cond12 i k0_t1 = 1#1), ∀ a x, ((![v108, v148] : Fin 2 → IVec S16 32) a x).toNat < S128x128.size a := fun i k0_t1 v108 v148 k0_hw38 k0_h12 => k0_hw38 k0_h12

def k0_chk39 (i : grid0.Coords) (k0_t1 : Fin k0_t1_loop.trips) (v106 : IVec S16 32) (v156 : IVec S16 32) : Prop :=
  (∀ (k0_h12 : k0_cond12 i k0_t1 = 1#1), ∀ a x, ((![v156, v106] : Fin 2 → IVec S16 32) a x).toNat < S64x256.size a)
instance k0_chk39.dec : ∀ (i : grid0.Coords) (k0_t1 : Fin k0_t1_loop.trips) (v106 : IVec S16 32) (v156 : IVec S16 32), Decidable (k0_chk39 i k0_t1 v106 v156) := fun i k0_t1 v106 v156 => decidable_of_iff' _ (Iff.of_eq (k0_chk39.eq_1 i k0_t1 v106 v156))
theorem k0_idx39_inb : ∀ (i : grid0.Coords) (k0_t1 : Fin k0_t1_loop.trips) (v106 : IVec S16 32) (v156 : IVec S16 32) (k0_hw39 : k0_chk39 i k0_t1 v106 v156), ∀ (k0_h12 : k0_cond12 i k0_t1 = 1#1), ∀ a x, ((![v156, v106] : Fin 2 → IVec S16 32) a x).toNat < S64x256.size a := fun i k0_t1 v106 v156 k0_hw39 k0_h12 => k0_hw39 k0_h12

def k0_chk40 (i : grid0.Coords) (k0_t1 : Fin k0_t1_loop.trips) (v108 : IVec S16 32) (v160 : IVec S16 32) : Prop :=
  (∀ (k0_h12 : k0_cond12 i k0_t1 = 1#1), ∀ a x, ((![v108, v160] : Fin 2 → IVec S16 32) a x).toNat < S128x128.size a)
instance k0_chk40.dec : ∀ (i : grid0.Coords) (k0_t1 : Fin k0_t1_loop.trips) (v108 : IVec S16 32) (v160 : IVec S16 32), Decidable (k0_chk40 i k0_t1 v108 v160) := fun i k0_t1 v108 v160 => decidable_of_iff' _ (Iff.of_eq (k0_chk40.eq_1 i k0_t1 v108 v160))
theorem k0_idx40_inb : ∀ (i : grid0.Coords) (k0_t1 : Fin k0_t1_loop.trips) (v108 : IVec S16 32) (v160 : IVec S16 32) (k0_hw40 : k0_chk40 i k0_t1 v108 v160), ∀ (k0_h12 : k0_cond12 i k0_t1 = 1#1), ∀ a x, ((![v108, v160] : Fin 2 → IVec S16 32) a x).toNat < S128x128.size a := fun i k0_t1 v108 v160 k0_hw40 k0_h12 => k0_hw40 k0_h12

def k0_chk41 (i : grid0.Coords) (k0_t1 : Fin k0_t1_loop.trips) (v106 : IVec S16 32) (v168 : IVec S16 32) : Prop :=
  (∀ (k0_h12 : k0_cond12 i k0_t1 = 1#1), ∀ a x, ((![v168, v106] : Fin 2 → IVec S16 32) a x).toNat < S64x256.size a)
instance k0_chk41.dec : ∀ (i : grid0.Coords) (k0_t1 : Fin k0_t1_loop.trips) (v106 : IVec S16 32) (v168 : IVec S16 32), Decidable (k0_chk41 i k0_t1 v106 v168) := fun i k0_t1 v106 v168 => decidable_of_iff' _ (Iff.of_eq (k0_chk41.eq_1 i k0_t1 v106 v168))
theorem k0_idx41_inb : ∀ (i : grid0.Coords) (k0_t1 : Fin k0_t1_loop.trips) (v106 : IVec S16 32) (v168 : IVec S16 32) (k0_hw41 : k0_chk41 i k0_t1 v106 v168), ∀ (k0_h12 : k0_cond12 i k0_t1 = 1#1), ∀ a x, ((![v168, v106] : Fin 2 → IVec S16 32) a x).toNat < S64x256.size a := fun i k0_t1 v106 v168 k0_hw41 k0_h12 => k0_hw41 k0_h12

def k0_chk42 (i : grid0.Coords) (k0_t1 : Fin k0_t1_loop.trips) (v108 : IVec S16 32) (v172 : IVec S16 32) : Prop :=
  (∀ (k0_h12 : k0_cond12 i k0_t1 = 1#1), ∀ a x, ((![v108, v172] : Fin 2 → IVec S16 32) a x).toNat < S128x128.size a)
instance k0_chk42.dec : ∀ (i : grid0.Coords) (k0_t1 : Fin k0_t1_loop.trips) (v108 : IVec S16 32) (v172 : IVec S16 32), Decidable (k0_chk42 i k0_t1 v108 v172) := fun i k0_t1 v108 v172 => decidable_of_iff' _ (Iff.of_eq (k0_chk42.eq_1 i k0_t1 v108 v172))
theorem k0_idx42_inb : ∀ (i : grid0.Coords) (k0_t1 : Fin k0_t1_loop.trips) (v108 : IVec S16 32) (v172 : IVec S16 32) (k0_hw42 : k0_chk42 i k0_t1 v108 v172), ∀ (k0_h12 : k0_cond12 i k0_t1 = 1#1), ∀ a x, ((![v108, v172] : Fin 2 → IVec S16 32) a x).toNat < S128x128.size a := fun i k0_t1 v108 v172 k0_hw42 k0_h12 => k0_hw42 k0_h12

def k0_chk43 (i : grid0.Coords) (k0_t1 : Fin k0_t1_loop.trips) (v106 : IVec S16 32) (v180 : IVec S16 32) : Prop :=
  (∀ (k0_h12 : k0_cond12 i k0_t1 = 1#1), ∀ a x, ((![v180, v106] : Fin 2 → IVec S16 32) a x).toNat < S64x256.size a)
instance k0_chk43.dec : ∀ (i : grid0.Coords) (k0_t1 : Fin k0_t1_loop.trips) (v106 : IVec S16 32) (v180 : IVec S16 32), Decidable (k0_chk43 i k0_t1 v106 v180) := fun i k0_t1 v106 v180 => decidable_of_iff' _ (Iff.of_eq (k0_chk43.eq_1 i k0_t1 v106 v180))
theorem k0_idx43_inb : ∀ (i : grid0.Coords) (k0_t1 : Fin k0_t1_loop.trips) (v106 : IVec S16 32) (v180 : IVec S16 32) (k0_hw43 : k0_chk43 i k0_t1 v106 v180), ∀ (k0_h12 : k0_cond12 i k0_t1 = 1#1), ∀ a x, ((![v180, v106] : Fin 2 → IVec S16 32) a x).toNat < S64x256.size a := fun i k0_t1 v106 v180 k0_hw43 k0_h12 => k0_hw43 k0_h12

def k0_chk44 (i : grid0.Coords) (k0_t1 : Fin k0_t1_loop.trips) (v108 : IVec S16 32) (v184 : IVec S16 32) : Prop :=
  (∀ (k0_h12 : k0_cond12 i k0_t1 = 1#1), ∀ a x, ((![v108, v184] : Fin 2 → IVec S16 32) a x).toNat < S128x128.size a)
instance k0_chk44.dec : ∀ (i : grid0.Coords) (k0_t1 : Fin k0_t1_loop.trips) (v108 : IVec S16 32) (v184 : IVec S16 32), Decidable (k0_chk44 i k0_t1 v108 v184) := fun i k0_t1 v108 v184 => decidable_of_iff' _ (Iff.of_eq (k0_chk44.eq_1 i k0_t1 v108 v184))
theorem k0_idx44_inb : ∀ (i : grid0.Coords) (k0_t1 : Fin k0_t1_loop.trips) (v108 : IVec S16 32) (v184 : IVec S16 32) (k0_hw44 : k0_chk44 i k0_t1 v108 v184), ∀ (k0_h12 : k0_cond12 i k0_t1 = 1#1), ∀ a x, ((![v108, v184] : Fin 2 → IVec S16 32) a x).toNat < S128x128.size a := fun i k0_t1 v108 v184 k0_hw44 k0_h12 => k0_hw44 k0_h12

def k0_chk45 (i : grid0.Coords) (k0_t1 : Fin k0_t1_loop.trips) (v106 : IVec S16 32) (v192 : IVec S16 32) : Prop :=
  (∀ (k0_h12 : k0_cond12 i k0_t1 = 1#1), ∀ a x, ((![v192, v106] : Fin 2 → IVec S16 32) a x).toNat < S64x256.size a)
instance k0_chk45.dec : ∀ (i : grid0.Coords) (k0_t1 : Fin k0_t1_loop.trips) (v106 : IVec S16 32) (v192 : IVec S16 32), Decidable (k0_chk45 i k0_t1 v106 v192) := fun i k0_t1 v106 v192 => decidable_of_iff' _ (Iff.of_eq (k0_chk45.eq_1 i k0_t1 v106 v192))
theorem k0_idx45_inb : ∀ (i : grid0.Coords) (k0_t1 : Fin k0_t1_loop.trips) (v106 : IVec S16 32) (v192 : IVec S16 32) (k0_hw45 : k0_chk45 i k0_t1 v106 v192), ∀ (k0_h12 : k0_cond12 i k0_t1 = 1#1), ∀ a x, ((![v192, v106] : Fin 2 → IVec S16 32) a x).toNat < S64x256.size a := fun i k0_t1 v106 v192 k0_hw45 k0_h12 => k0_hw45 k0_h12

def k0_chk46 (i : grid0.Coords) (k0_t1 : Fin k0_t1_loop.trips) (v108 : IVec S16 32) (v196 : IVec S16 32) : Prop :=
  (∀ (k0_h12 : k0_cond12 i k0_t1 = 1#1), ∀ a x, ((![v108, v196] : Fin 2 → IVec S16 32) a x).toNat < S128x128.size a)
instance k0_chk46.dec : ∀ (i : grid0.Coords) (k0_t1 : Fin k0_t1_loop.trips) (v108 : IVec S16 32) (v196 : IVec S16 32), Decidable (k0_chk46 i k0_t1 v108 v196) := fun i k0_t1 v108 v196 => decidable_of_iff' _ (Iff.of_eq (k0_chk46.eq_1 i k0_t1 v108 v196))
theorem k0_idx46_inb : ∀ (i : grid0.Coords) (k0_t1 : Fin k0_t1_loop.trips) (v108 : IVec S16 32) (v196 : IVec S16 32) (k0_hw46 : k0_chk46 i k0_t1 v108 v196), ∀ (k0_h12 : k0_cond12 i k0_t1 = 1#1), ∀ a x, ((![v108, v196] : Fin 2 → IVec S16 32) a x).toNat < S128x128.size a := fun i k0_t1 v108 v196 k0_hw46 k0_h12 => k0_hw46 k0_h12

def k0_chk47 (i : grid0.Coords) (k0_t1 : Fin k0_t1_loop.trips) (v106 : IVec S16 32) (v204 : IVec S16 32) : Prop :=
  (∀ (k0_h12 : k0_cond12 i k0_t1 = 1#1), ∀ a x, ((![v204, v106] : Fin 2 → IVec S16 32) a x).toNat < S64x256.size a)
instance k0_chk47.dec : ∀ (i : grid0.Coords) (k0_t1 : Fin k0_t1_loop.trips) (v106 : IVec S16 32) (v204 : IVec S16 32), Decidable (k0_chk47 i k0_t1 v106 v204) := fun i k0_t1 v106 v204 => decidable_of_iff' _ (Iff.of_eq (k0_chk47.eq_1 i k0_t1 v106 v204))
theorem k0_idx47_inb : ∀ (i : grid0.Coords) (k0_t1 : Fin k0_t1_loop.trips) (v106 : IVec S16 32) (v204 : IVec S16 32) (k0_hw47 : k0_chk47 i k0_t1 v106 v204), ∀ (k0_h12 : k0_cond12 i k0_t1 = 1#1), ∀ a x, ((![v204, v106] : Fin 2 → IVec S16 32) a x).toNat < S64x256.size a := fun i k0_t1 v106 v204 k0_hw47 k0_h12 => k0_hw47 k0_h12

def k0_chk48 (i : grid0.Coords) (k0_t1 : Fin k0_t1_loop.trips) (v108 : IVec S16 32) (v208 : IVec S16 32) : Prop :=
  (∀ (k0_h12 : k0_cond12 i k0_t1 = 1#1), ∀ a x, ((![v108, v208] : Fin 2 → IVec S16 32) a x).toNat < S128x128.size a)
instance k0_chk48.dec : ∀ (i : grid0.Coords) (k0_t1 : Fin k0_t1_loop.trips) (v108 : IVec S16 32) (v208 : IVec S16 32), Decidable (k0_chk48 i k0_t1 v108 v208) := fun i k0_t1 v108 v208 => decidable_of_iff' _ (Iff.of_eq (k0_chk48.eq_1 i k0_t1 v108 v208))
theorem k0_idx48_inb : ∀ (i : grid0.Coords) (k0_t1 : Fin k0_t1_loop.trips) (v108 : IVec S16 32) (v208 : IVec S16 32) (k0_hw48 : k0_chk48 i k0_t1 v108 v208), ∀ (k0_h12 : k0_cond12 i k0_t1 = 1#1), ∀ a x, ((![v108, v208] : Fin 2 → IVec S16 32) a x).toNat < S128x128.size a := fun i k0_t1 v108 v208 k0_hw48 k0_h12 => k0_hw48 k0_h12

def k0_chk49 (i : grid0.Coords) (k0_t1 : Fin k0_t1_loop.trips) (v106 : IVec S16 32) (v216 : IVec S16 32) : Prop :=
  (∀ (k0_h12 : k0_cond12 i k0_t1 = 1#1), ∀ a x, ((![v216, v106] : Fin 2 → IVec S16 32) a x).toNat < S64x256.size a)
instance k0_chk49.dec : ∀ (i : grid0.Coords) (k0_t1 : Fin k0_t1_loop.trips) (v106 : IVec S16 32) (v216 : IVec S16 32), Decidable (k0_chk49 i k0_t1 v106 v216) := fun i k0_t1 v106 v216 => decidable_of_iff' _ (Iff.of_eq (k0_chk49.eq_1 i k0_t1 v106 v216))
theorem k0_idx49_inb : ∀ (i : grid0.Coords) (k0_t1 : Fin k0_t1_loop.trips) (v106 : IVec S16 32) (v216 : IVec S16 32) (k0_hw49 : k0_chk49 i k0_t1 v106 v216), ∀ (k0_h12 : k0_cond12 i k0_t1 = 1#1), ∀ a x, ((![v216, v106] : Fin 2 → IVec S16 32) a x).toNat < S64x256.size a := fun i k0_t1 v106 v216 k0_hw49 k0_h12 => k0_hw49 k0_h12

def k0_chk50 (i : grid0.Coords) (k0_t1 : Fin k0_t1_loop.trips) (v108 : IVec S16 32) (v220 : IVec S16 32) : Prop :=
  (∀ (k0_h12 : k0_cond12 i k0_t1 = 1#1), ∀ a x, ((![v108, v220] : Fin 2 → IVec S16 32) a x).toNat < S128x128.size a)
instance k0_chk50.dec : ∀ (i : grid0.Coords) (k0_t1 : Fin k0_t1_loop.trips) (v108 : IVec S16 32) (v220 : IVec S16 32), Decidable (k0_chk50 i k0_t1 v108 v220) := fun i k0_t1 v108 v220 => decidable_of_iff' _ (Iff.of_eq (k0_chk50.eq_1 i k0_t1 v108 v220))
theorem k0_idx50_inb : ∀ (i : grid0.Coords) (k0_t1 : Fin k0_t1_loop.trips) (v108 : IVec S16 32) (v220 : IVec S16 32) (k0_hw50 : k0_chk50 i k0_t1 v108 v220), ∀ (k0_h12 : k0_cond12 i k0_t1 = 1#1), ∀ a x, ((![v108, v220] : Fin 2 → IVec S16 32) a x).toNat < S128x128.size a := fun i k0_t1 v108 v220 k0_hw50 k0_h12 => k0_hw50 k0_h12

def k0_chk51 (i : grid0.Coords) (k0_t1 : Fin k0_t1_loop.trips) (v106 : IVec S16 32) (v228 : IVec S16 32) : Prop :=
  (∀ (k0_h12 : k0_cond12 i k0_t1 = 1#1), ∀ a x, ((![v228, v106] : Fin 2 → IVec S16 32) a x).toNat < S64x256.size a)
instance k0_chk51.dec : ∀ (i : grid0.Coords) (k0_t1 : Fin k0_t1_loop.trips) (v106 : IVec S16 32) (v228 : IVec S16 32), Decidable (k0_chk51 i k0_t1 v106 v228) := fun i k0_t1 v106 v228 => decidable_of_iff' _ (Iff.of_eq (k0_chk51.eq_1 i k0_t1 v106 v228))
theorem k0_idx51_inb : ∀ (i : grid0.Coords) (k0_t1 : Fin k0_t1_loop.trips) (v106 : IVec S16 32) (v228 : IVec S16 32) (k0_hw51 : k0_chk51 i k0_t1 v106 v228), ∀ (k0_h12 : k0_cond12 i k0_t1 = 1#1), ∀ a x, ((![v228, v106] : Fin 2 → IVec S16 32) a x).toNat < S64x256.size a := fun i k0_t1 v106 v228 k0_hw51 k0_h12 => k0_hw51 k0_h12

def k0_chk52 (i : grid0.Coords) (k0_t1 : Fin k0_t1_loop.trips) (v108 : IVec S16 32) (v232 : IVec S16 32) : Prop :=
  (∀ (k0_h12 : k0_cond12 i k0_t1 = 1#1), ∀ a x, ((![v108, v232] : Fin 2 → IVec S16 32) a x).toNat < S128x128.size a)
instance k0_chk52.dec : ∀ (i : grid0.Coords) (k0_t1 : Fin k0_t1_loop.trips) (v108 : IVec S16 32) (v232 : IVec S16 32), Decidable (k0_chk52 i k0_t1 v108 v232) := fun i k0_t1 v108 v232 => decidable_of_iff' _ (Iff.of_eq (k0_chk52.eq_1 i k0_t1 v108 v232))
theorem k0_idx52_inb : ∀ (i : grid0.Coords) (k0_t1 : Fin k0_t1_loop.trips) (v108 : IVec S16 32) (v232 : IVec S16 32) (k0_hw52 : k0_chk52 i k0_t1 v108 v232), ∀ (k0_h12 : k0_cond12 i k0_t1 = 1#1), ∀ a x, ((![v108, v232] : Fin 2 → IVec S16 32) a x).toNat < S128x128.size a := fun i k0_t1 v108 v232 k0_hw52 k0_h12 => k0_hw52 k0_h12

def k0_chk53 (i : grid0.Coords) (k0_t1 : Fin k0_t1_loop.trips) (v106 : IVec S16 32) (v240 : IVec S16 32) : Prop :=
  (∀ (k0_h12 : k0_cond12 i k0_t1 = 1#1), ∀ a x, ((![v240, v106] : Fin 2 → IVec S16 32) a x).toNat < S64x256.size a)
instance k0_chk53.dec : ∀ (i : grid0.Coords) (k0_t1 : Fin k0_t1_loop.trips) (v106 : IVec S16 32) (v240 : IVec S16 32), Decidable (k0_chk53 i k0_t1 v106 v240) := fun i k0_t1 v106 v240 => decidable_of_iff' _ (Iff.of_eq (k0_chk53.eq_1 i k0_t1 v106 v240))
theorem k0_idx53_inb : ∀ (i : grid0.Coords) (k0_t1 : Fin k0_t1_loop.trips) (v106 : IVec S16 32) (v240 : IVec S16 32) (k0_hw53 : k0_chk53 i k0_t1 v106 v240), ∀ (k0_h12 : k0_cond12 i k0_t1 = 1#1), ∀ a x, ((![v240, v106] : Fin 2 → IVec S16 32) a x).toNat < S64x256.size a := fun i k0_t1 v106 v240 k0_hw53 k0_h12 => k0_hw53 k0_h12

def k0_chk54 (i : grid0.Coords) (k0_t1 : Fin k0_t1_loop.trips) (v108 : IVec S16 32) (v244 : IVec S16 32) : Prop :=
  (∀ (k0_h12 : k0_cond12 i k0_t1 = 1#1), ∀ a x, ((![v108, v244] : Fin 2 → IVec S16 32) a x).toNat < S128x128.size a)
instance k0_chk54.dec : ∀ (i : grid0.Coords) (k0_t1 : Fin k0_t1_loop.trips) (v108 : IVec S16 32) (v244 : IVec S16 32), Decidable (k0_chk54 i k0_t1 v108 v244) := fun i k0_t1 v108 v244 => decidable_of_iff' _ (Iff.of_eq (k0_chk54.eq_1 i k0_t1 v108 v244))
theorem k0_idx54_inb : ∀ (i : grid0.Coords) (k0_t1 : Fin k0_t1_loop.trips) (v108 : IVec S16 32) (v244 : IVec S16 32) (k0_hw54 : k0_chk54 i k0_t1 v108 v244), ∀ (k0_h12 : k0_cond12 i k0_t1 = 1#1), ∀ a x, ((![v108, v244] : Fin 2 → IVec S16 32) a x).toNat < S128x128.size a := fun i k0_t1 v108 v244 k0_hw54 k0_h12 => k0_hw54 k0_h12

def k0_chk55 (i : grid0.Coords) (k0_t1 : Fin k0_t1_loop.trips) (v106 : IVec S16 32) (v252 : IVec S16 32) : Prop :=
  (∀ (k0_h12 : k0_cond12 i k0_t1 = 1#1), ∀ a x, ((![v252, v106] : Fin 2 → IVec S16 32) a x).toNat < S64x256.size a)
instance k0_chk55.dec : ∀ (i : grid0.Coords) (k0_t1 : Fin k0_t1_loop.trips) (v106 : IVec S16 32) (v252 : IVec S16 32), Decidable (k0_chk55 i k0_t1 v106 v252) := fun i k0_t1 v106 v252 => decidable_of_iff' _ (Iff.of_eq (k0_chk55.eq_1 i k0_t1 v106 v252))
theorem k0_idx55_inb : ∀ (i : grid0.Coords) (k0_t1 : Fin k0_t1_loop.trips) (v106 : IVec S16 32) (v252 : IVec S16 32) (k0_hw55 : k0_chk55 i k0_t1 v106 v252), ∀ (k0_h12 : k0_cond12 i k0_t1 = 1#1), ∀ a x, ((![v252, v106] : Fin 2 → IVec S16 32) a x).toNat < S64x256.size a := fun i k0_t1 v106 v252 k0_hw55 k0_h12 => k0_hw55 k0_h12

def k0_chk56 (i : grid0.Coords) (k0_t1 : Fin k0_t1_loop.trips) (v108 : IVec S16 32) (v256 : IVec S16 32) : Prop :=
  (∀ (k0_h12 : k0_cond12 i k0_t1 = 1#1), ∀ a x, ((![v108, v256] : Fin 2 → IVec S16 32) a x).toNat < S128x128.size a)
instance k0_chk56.dec : ∀ (i : grid0.Coords) (k0_t1 : Fin k0_t1_loop.trips) (v108 : IVec S16 32) (v256 : IVec S16 32), Decidable (k0_chk56 i k0_t1 v108 v256) := fun i k0_t1 v108 v256 => decidable_of_iff' _ (Iff.of_eq (k0_chk56.eq_1 i k0_t1 v108 v256))
theorem k0_idx56_inb : ∀ (i : grid0.Coords) (k0_t1 : Fin k0_t1_loop.trips) (v108 : IVec S16 32) (v256 : IVec S16 32) (k0_hw56 : k0_chk56 i k0_t1 v108 v256), ∀ (k0_h12 : k0_cond12 i k0_t1 = 1#1), ∀ a x, ((![v108, v256] : Fin 2 → IVec S16 32) a x).toNat < S128x128.size a := fun i k0_t1 v108 v256 k0_hw56 k0_h12 => k0_hw56 k0_h12

def k0_chk57 (i : grid0.Coords) (k0_t1 : Fin k0_t1_loop.trips) (v106 : IVec S16 32) (v264 : IVec S16 32) : Prop :=
  (∀ (k0_h12 : k0_cond12 i k0_t1 = 1#1), ∀ a x, ((![v264, v106] : Fin 2 → IVec S16 32) a x).toNat < S64x256.size a)
instance k0_chk57.dec : ∀ (i : grid0.Coords) (k0_t1 : Fin k0_t1_loop.trips) (v106 : IVec S16 32) (v264 : IVec S16 32), Decidable (k0_chk57 i k0_t1 v106 v264) := fun i k0_t1 v106 v264 => decidable_of_iff' _ (Iff.of_eq (k0_chk57.eq_1 i k0_t1 v106 v264))
theorem k0_idx57_inb : ∀ (i : grid0.Coords) (k0_t1 : Fin k0_t1_loop.trips) (v106 : IVec S16 32) (v264 : IVec S16 32) (k0_hw57 : k0_chk57 i k0_t1 v106 v264), ∀ (k0_h12 : k0_cond12 i k0_t1 = 1#1), ∀ a x, ((![v264, v106] : Fin 2 → IVec S16 32) a x).toNat < S64x256.size a := fun i k0_t1 v106 v264 k0_hw57 k0_h12 => k0_hw57 k0_h12

def k0_chk58 (i : grid0.Coords) (k0_t1 : Fin k0_t1_loop.trips) (v108 : IVec S16 32) (v268 : IVec S16 32) : Prop :=
  (∀ (k0_h12 : k0_cond12 i k0_t1 = 1#1), ∀ a x, ((![v108, v268] : Fin 2 → IVec S16 32) a x).toNat < S128x128.size a)
instance k0_chk58.dec : ∀ (i : grid0.Coords) (k0_t1 : Fin k0_t1_loop.trips) (v108 : IVec S16 32) (v268 : IVec S16 32), Decidable (k0_chk58 i k0_t1 v108 v268) := fun i k0_t1 v108 v268 => decidable_of_iff' _ (Iff.of_eq (k0_chk58.eq_1 i k0_t1 v108 v268))
theorem k0_idx58_inb : ∀ (i : grid0.Coords) (k0_t1 : Fin k0_t1_loop.trips) (v108 : IVec S16 32) (v268 : IVec S16 32) (k0_hw58 : k0_chk58 i k0_t1 v108 v268), ∀ (k0_h12 : k0_cond12 i k0_t1 = 1#1), ∀ a x, ((![v108, v268] : Fin 2 → IVec S16 32) a x).toNat < S128x128.size a := fun i k0_t1 v108 v268 k0_hw58 k0_h12 => k0_hw58 k0_h12

def k0_chk59 (i : grid0.Coords) (k0_t1 : Fin k0_t1_loop.trips) (v106 : IVec S16 32) (v276 : IVec S16 32) : Prop :=
  (∀ (k0_h12 : k0_cond12 i k0_t1 = 1#1), ∀ a x, ((![v276, v106] : Fin 2 → IVec S16 32) a x).toNat < S64x256.size a)
instance k0_chk59.dec : ∀ (i : grid0.Coords) (k0_t1 : Fin k0_t1_loop.trips) (v106 : IVec S16 32) (v276 : IVec S16 32), Decidable (k0_chk59 i k0_t1 v106 v276) := fun i k0_t1 v106 v276 => decidable_of_iff' _ (Iff.of_eq (k0_chk59.eq_1 i k0_t1 v106 v276))
theorem k0_idx59_inb : ∀ (i : grid0.Coords) (k0_t1 : Fin k0_t1_loop.trips) (v106 : IVec S16 32) (v276 : IVec S16 32) (k0_hw59 : k0_chk59 i k0_t1 v106 v276), ∀ (k0_h12 : k0_cond12 i k0_t1 = 1#1), ∀ a x, ((![v276, v106] : Fin 2 → IVec S16 32) a x).toNat < S64x256.size a := fun i k0_t1 v106 v276 k0_hw59 k0_h12 => k0_hw59 k0_h12

def k0_chk60 (i : grid0.Coords) (k0_t1 : Fin k0_t1_loop.trips) (v108 : IVec S16 32) (v280 : IVec S16 32) : Prop :=
  (∀ (k0_h12 : k0_cond12 i k0_t1 = 1#1), ∀ a x, ((![v108, v280] : Fin 2 → IVec S16 32) a x).toNat < S128x128.size a)
instance k0_chk60.dec : ∀ (i : grid0.Coords) (k0_t1 : Fin k0_t1_loop.trips) (v108 : IVec S16 32) (v280 : IVec S16 32), Decidable (k0_chk60 i k0_t1 v108 v280) := fun i k0_t1 v108 v280 => decidable_of_iff' _ (Iff.of_eq (k0_chk60.eq_1 i k0_t1 v108 v280))
theorem k0_idx60_inb : ∀ (i : grid0.Coords) (k0_t1 : Fin k0_t1_loop.trips) (v108 : IVec S16 32) (v280 : IVec S16 32) (k0_hw60 : k0_chk60 i k0_t1 v108 v280), ∀ (k0_h12 : k0_cond12 i k0_t1 = 1#1), ∀ a x, ((![v108, v280] : Fin 2 → IVec S16 32) a x).toNat < S128x128.size a := fun i k0_t1 v108 v280 k0_hw60 k0_h12 => k0_hw60 k0_h12

def k0_chk61 (i : grid0.Coords) (k0_t1 : Fin k0_t1_loop.trips) (v106 : IVec S16 32) (v288 : IVec S16 32) : Prop :=
  (∀ (k0_h12 : k0_cond12 i k0_t1 = 1#1), ∀ a x, ((![v288, v106] : Fin 2 → IVec S16 32) a x).toNat < S64x256.size a)
instance k0_chk61.dec : ∀ (i : grid0.Coords) (k0_t1 : Fin k0_t1_loop.trips) (v106 : IVec S16 32) (v288 : IVec S16 32), Decidable (k0_chk61 i k0_t1 v106 v288) := fun i k0_t1 v106 v288 => decidable_of_iff' _ (Iff.of_eq (k0_chk61.eq_1 i k0_t1 v106 v288))
theorem k0_idx61_inb : ∀ (i : grid0.Coords) (k0_t1 : Fin k0_t1_loop.trips) (v106 : IVec S16 32) (v288 : IVec S16 32) (k0_hw61 : k0_chk61 i k0_t1 v106 v288), ∀ (k0_h12 : k0_cond12 i k0_t1 = 1#1), ∀ a x, ((![v288, v106] : Fin 2 → IVec S16 32) a x).toNat < S64x256.size a := fun i k0_t1 v106 v288 k0_hw61 k0_h12 => k0_hw61 k0_h12

def k0_chk62 (i : grid0.Coords) (k0_t1 : Fin k0_t1_loop.trips) (v108 : IVec S16 32) (v292 : IVec S16 32) : Prop :=
  (∀ (k0_h12 : k0_cond12 i k0_t1 = 1#1), ∀ a x, ((![v108, v292] : Fin 2 → IVec S16 32) a x).toNat < S128x128.size a)
instance k0_chk62.dec : ∀ (i : grid0.Coords) (k0_t1 : Fin k0_t1_loop.trips) (v108 : IVec S16 32) (v292 : IVec S16 32), Decidable (k0_chk62 i k0_t1 v108 v292) := fun i k0_t1 v108 v292 => decidable_of_iff' _ (Iff.of_eq (k0_chk62.eq_1 i k0_t1 v108 v292))
theorem k0_idx62_inb : ∀ (i : grid0.Coords) (k0_t1 : Fin k0_t1_loop.trips) (v108 : IVec S16 32) (v292 : IVec S16 32) (k0_hw62 : k0_chk62 i k0_t1 v108 v292), ∀ (k0_h12 : k0_cond12 i k0_t1 = 1#1), ∀ a x, ((![v108, v292] : Fin 2 → IVec S16 32) a x).toNat < S128x128.size a := fun i k0_t1 v108 v292 k0_hw62 k0_h12 => k0_hw62 k0_h12

def k0_chk63 (i : grid0.Coords) (k0_t1 : Fin k0_t1_loop.trips) (v106 : IVec S16 32) (v300 : IVec S16 32) : Prop :=
  (∀ (k0_h12 : k0_cond12 i k0_t1 = 1#1), ∀ a x, ((![v300, v106] : Fin 2 → IVec S16 32) a x).toNat < S64x256.size a)
instance k0_chk63.dec : ∀ (i : grid0.Coords) (k0_t1 : Fin k0_t1_loop.trips) (v106 : IVec S16 32) (v300 : IVec S16 32), Decidable (k0_chk63 i k0_t1 v106 v300) := fun i k0_t1 v106 v300 => decidable_of_iff' _ (Iff.of_eq (k0_chk63.eq_1 i k0_t1 v106 v300))
theorem k0_idx63_inb : ∀ (i : grid0.Coords) (k0_t1 : Fin k0_t1_loop.trips) (v106 : IVec S16 32) (v300 : IVec S16 32) (k0_hw63 : k0_chk63 i k0_t1 v106 v300), ∀ (k0_h12 : k0_cond12 i k0_t1 = 1#1), ∀ a x, ((![v300, v106] : Fin 2 → IVec S16 32) a x).toNat < S64x256.size a := fun i k0_t1 v106 v300 k0_hw63 k0_h12 => k0_hw63 k0_h12

def k0_chk64 (i : grid0.Coords) (k0_t1 : Fin k0_t1_loop.trips) (v108 : IVec S16 32) (v304 : IVec S16 32) : Prop :=
  (∀ (k0_h12 : k0_cond12 i k0_t1 = 1#1), ∀ a x, ((![v108, v304] : Fin 2 → IVec S16 32) a x).toNat < S128x128.size a)
instance k0_chk64.dec : ∀ (i : grid0.Coords) (k0_t1 : Fin k0_t1_loop.trips) (v108 : IVec S16 32) (v304 : IVec S16 32), Decidable (k0_chk64 i k0_t1 v108 v304) := fun i k0_t1 v108 v304 => decidable_of_iff' _ (Iff.of_eq (k0_chk64.eq_1 i k0_t1 v108 v304))
theorem k0_idx64_inb : ∀ (i : grid0.Coords) (k0_t1 : Fin k0_t1_loop.trips) (v108 : IVec S16 32) (v304 : IVec S16 32) (k0_hw64 : k0_chk64 i k0_t1 v108 v304), ∀ (k0_h12 : k0_cond12 i k0_t1 = 1#1), ∀ a x, ((![v108, v304] : Fin 2 → IVec S16 32) a x).toNat < S128x128.size a := fun i k0_t1 v108 v304 k0_hw64 k0_h12 => k0_hw64 k0_h12
def k0_cond13 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_39 : BitVec 32 := 32#32
  let c0_i32_4 : BitVec 32 := 0#32
  let c1_i32 : BitVec 32 := 1#32
  let arg13 : BitVec 32 := Scf.iv c0_i32_4 c1_i32 k0_t1
  let c2_i32_29 : BitVec 32 := 2#32
  let v49 : BitVec 32 := Scalar.muli arg13 c2_i32_29
  let c1_i32_30 : BitVec 32 := 1#32
  let v50 : BitVec 32 := Scalar.addi v49 c1_i32_30
  let v64 : BitVec 32 := Scalar.muli c32_i32_39 v50
  let v65 : BitVec 32 := Scalar.addi v1 v64
  let c3906_i32_40 : BitVec 32 := 3906#32
  let v66 : BitVec 1 := Scalar.cmpi .slt v65 c3906_i32_40
  let v67 : BitVec 32 := Scalar.extui v66
  let c0_i32_41 : BitVec 32 := 0#32
  let v68 : BitVec 1 := Scalar.cmpi .ne v67 c0_i32_41
  v68

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_39 : BitVec 32 := 32#32
  let c0_i32_4 : BitVec 32 := 0#32
  let c1_i32 : BitVec 32 := 1#32
  let arg13 : BitVec 32 := Scf.iv c0_i32_4 c1_i32 k0_t1
  let c2_i32_29 : BitVec 32 := 2#32
  let v49 : BitVec 32 := Scalar.muli arg13 c2_i32_29
  let c1_i32_30 : BitVec 32 := 1#32
  let v50 : BitVec 32 := Scalar.addi v49 c1_i32_30
  let v64 : BitVec 32 := Scalar.muli c32_i32_39 v50
  let v65 : BitVec 32 := Scalar.addi v1 v64
  let c128_i32 : BitVec 32 := 128#32
  let v75 : BitVec 32 := Scalar.muli v65 c128_i32
  let c0_i32_49 : BitVec 32 := 0#32
  ![v75.toNat, 0]
def k0_cond14 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_43 : BitVec 32 := 32#32
  let c0_i32_4 : BitVec 32 := 0#32
  let c1_i32 : BitVec 32 := 1#32
  let arg13 : BitVec 32 := Scf.iv c0_i32_4 c1_i32 k0_t1
  let c2_i32_29 : BitVec 32 := 2#32
  let v49 : BitVec 32 := Scalar.muli arg13 c2_i32_29
  let c1_i32_30 : BitVec 32 := 1#32
  let v50 : BitVec 32 := Scalar.addi v49 c1_i32_30
  let c2_i32_42 : BitVec 32 := 2#32
  let v69 : BitVec 32 := Scalar.addi v50 c2_i32_42
  let v70 : BitVec 32 := Scalar.muli c32_i32_43 v69
  let v71 : BitVec 32 := Scalar.addi v1 v70
  let c3906_i32_44 : BitVec 32 := 3906#32
  let v72 : BitVec 1 := Scalar.cmpi .slt v71 c3906_i32_44
  let v73 : BitVec 32 := Scalar.extui v72
  let c0_i32_45 : BitVec 32 := 0#32
  let v74 : BitVec 1 := Scalar.cmpi .ne v73 c0_i32_45
  v74

def k0_off6 (i : grid0.Coords) (k0_t1 : Fin k0_t1_loop.trips) : Fin 2 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_43 : BitVec 32 := 32#32
  let c0_i32_4 : BitVec 32 := 0#32
  let c1_i32 : BitVec 32 := 1#32
  let arg13 : BitVec 32 := Scf.iv c0_i32_4 c1_i32 k0_t1
  let c2_i32_29 : BitVec 32 := 2#32
  let v49 : BitVec 32 := Scalar.muli arg13 c2_i32_29
  let c1_i32_30 : BitVec 32 := 1#32
  let v50 : BitVec 32 := Scalar.addi v49 c1_i32_30
  let c2_i32_42 : BitVec 32 := 2#32
  let v69 : BitVec 32 := Scalar.addi v50 c2_i32_42
  let v70 : BitVec 32 := Scalar.muli c32_i32_43 v69
  let v71 : BitVec 32 := Scalar.addi v1 v70
  let c256_i32 : BitVec 32 := 256#32
  let v75 : BitVec 32 := Scalar.muli v71 c256_i32
  ![0, v75.toNat]
def k0_cond17 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let v20 : BitVec 1 := Scalar.cmpi .eq v1 c0_i32_10
  let v21 : BitVec 32 := Scalar.extui v20
  let c0_i32_11 : BitVec 32 := 0#32
  let v22 : BitVec 1 := Scalar.cmpi .ne v21 c0_i32_11
  v22

@[reducible] def k0_t4_loop : Scf.Loop 32 :=
  let c0_i32_13 : BitVec 32 := 0#32
  let c16_i32 : BitVec 32 := 16#32
  let v23 : BitVec 32 := Scalar.addi c0_i32_13 c16_i32
  let c1_i32_14 : BitVec 32 := 1#32
  ⟨c0_i32_13, v23, c1_i32_14⟩

def k0_chk65 (i : grid0.Coords) (v56 : IVec S16 32) (v69 : IVec S16 32) : Prop :=
  (∀ (k0_h17 : k0_cond17 i = 1#1), ∀ a x, ((![v56, v69] : Fin 2 → IVec S16 32) a x).toNat < S64x64.size a)
instance k0_chk65.dec : ∀ (i : grid0.Coords) (v56 : IVec S16 32) (v69 : IVec S16 32), Decidable (k0_chk65 i v56 v69) := fun i v56 v69 => decidable_of_iff' _ (Iff.of_eq (k0_chk65.eq_1 i v56 v69))
theorem k0_idx65_inb : ∀ (i : grid0.Coords) (v56 : IVec S16 32) (v69 : IVec S16 32) (k0_hw65 : k0_chk65 i v56 v69), ∀ (k0_h17 : k0_cond17 i = 1#1), ∀ a x, ((![v56, v69] : Fin 2 → IVec S16 32) a x).toNat < S64x64.size a := fun i v56 v69 k0_hw65 k0_h17 => k0_hw65 k0_h17

def k0_chk66 (i : grid0.Coords) (v66 : IVec S16 32) (v72 : IVec S16 32) : Prop :=
  (∀ (k0_h17 : k0_cond17 i = 1#1), ∀ a x, ((![v66, v72] : Fin 2 → IVec S16 32) a x).toNat < S32x128.size a)
instance k0_chk66.dec : ∀ (i : grid0.Coords) (v66 : IVec S16 32) (v72 : IVec S16 32), Decidable (k0_chk66 i v66 v72) := fun i v66 v72 => decidable_of_iff' _ (Iff.of_eq (k0_chk66.eq_1 i v66 v72))
theorem k0_idx66_inb : ∀ (i : grid0.Coords) (v66 : IVec S16 32) (v72 : IVec S16 32) (k0_hw66 : k0_chk66 i v66 v72), ∀ (k0_h17 : k0_cond17 i = 1#1), ∀ a x, ((![v66, v72] : Fin 2 → IVec S16 32) a x).toNat < S32x128.size a := fun i v66 v72 k0_hw66 k0_h17 => k0_hw66 k0_h17

def k0_chk67 (i : grid0.Coords) (v56 : IVec S16 32) (v81 : IVec S16 32) : Prop :=
  (∀ (k0_h17 : k0_cond17 i = 1#1), ∀ a x, ((![v56, v81] : Fin 2 → IVec S16 32) a x).toNat < S64x64.size a)
instance k0_chk67.dec : ∀ (i : grid0.Coords) (v56 : IVec S16 32) (v81 : IVec S16 32), Decidable (k0_chk67 i v56 v81) := fun i v56 v81 => decidable_of_iff' _ (Iff.of_eq (k0_chk67.eq_1 i v56 v81))
theorem k0_idx67_inb : ∀ (i : grid0.Coords) (v56 : IVec S16 32) (v81 : IVec S16 32) (k0_hw67 : k0_chk67 i v56 v81), ∀ (k0_h17 : k0_cond17 i = 1#1), ∀ a x, ((![v56, v81] : Fin 2 → IVec S16 32) a x).toNat < S64x64.size a := fun i v56 v81 k0_hw67 k0_h17 => k0_hw67 k0_h17

def k0_chk68 (i : grid0.Coords) (v78 : IVec S16 32) (v84 : IVec S16 32) : Prop :=
  (∀ (k0_h17 : k0_cond17 i = 1#1), ∀ a x, ((![v78, v84] : Fin 2 → IVec S16 32) a x).toNat < S32x128.size a)
instance k0_chk68.dec : ∀ (i : grid0.Coords) (v78 : IVec S16 32) (v84 : IVec S16 32), Decidable (k0_chk68 i v78 v84) := fun i v78 v84 => decidable_of_iff' _ (Iff.of_eq (k0_chk68.eq_1 i v78 v84))
theorem k0_idx68_inb : ∀ (i : grid0.Coords) (v78 : IVec S16 32) (v84 : IVec S16 32) (k0_hw68 : k0_chk68 i v78 v84), ∀ (k0_h17 : k0_cond17 i = 1#1), ∀ a x, ((![v78, v84] : Fin 2 → IVec S16 32) a x).toNat < S32x128.size a := fun i v78 v84 k0_hw68 k0_h17 => k0_hw68 k0_h17

def k0_chk69 (i : grid0.Coords) (v56 : IVec S16 32) (v93 : IVec S16 32) : Prop :=
  (∀ (k0_h17 : k0_cond17 i = 1#1), ∀ a x, ((![v56, v93] : Fin 2 → IVec S16 32) a x).toNat < S64x64.size a)
instance k0_chk69.dec : ∀ (i : grid0.Coords) (v56 : IVec S16 32) (v93 : IVec S16 32), Decidable (k0_chk69 i v56 v93) := fun i v56 v93 => decidable_of_iff' _ (Iff.of_eq (k0_chk69.eq_1 i v56 v93))
theorem k0_idx69_inb : ∀ (i : grid0.Coords) (v56 : IVec S16 32) (v93 : IVec S16 32) (k0_hw69 : k0_chk69 i v56 v93), ∀ (k0_h17 : k0_cond17 i = 1#1), ∀ a x, ((![v56, v93] : Fin 2 → IVec S16 32) a x).toNat < S64x64.size a := fun i v56 v93 k0_hw69 k0_h17 => k0_hw69 k0_h17

def k0_chk70 (i : grid0.Coords) (v90 : IVec S16 32) (v96 : IVec S16 32) : Prop :=
  (∀ (k0_h17 : k0_cond17 i = 1#1), ∀ a x, ((![v90, v96] : Fin 2 → IVec S16 32) a x).toNat < S32x128.size a)
instance k0_chk70.dec : ∀ (i : grid0.Coords) (v90 : IVec S16 32) (v96 : IVec S16 32), Decidable (k0_chk70 i v90 v96) := fun i v90 v96 => decidable_of_iff' _ (Iff.of_eq (k0_chk70.eq_1 i v90 v96))
theorem k0_idx70_inb : ∀ (i : grid0.Coords) (v90 : IVec S16 32) (v96 : IVec S16 32) (k0_hw70 : k0_chk70 i v90 v96), ∀ (k0_h17 : k0_cond17 i = 1#1), ∀ a x, ((![v90, v96] : Fin 2 → IVec S16 32) a x).toNat < S32x128.size a := fun i v90 v96 k0_hw70 k0_h17 => k0_hw70 k0_h17

def k0_chk71 (i : grid0.Coords) (v56 : IVec S16 32) (v105 : IVec S16 32) : Prop :=
  (∀ (k0_h17 : k0_cond17 i = 1#1), ∀ a x, ((![v56, v105] : Fin 2 → IVec S16 32) a x).toNat < S64x64.size a)
instance k0_chk71.dec : ∀ (i : grid0.Coords) (v56 : IVec S16 32) (v105 : IVec S16 32), Decidable (k0_chk71 i v56 v105) := fun i v56 v105 => decidable_of_iff' _ (Iff.of_eq (k0_chk71.eq_1 i v56 v105))
theorem k0_idx71_inb : ∀ (i : grid0.Coords) (v56 : IVec S16 32) (v105 : IVec S16 32) (k0_hw71 : k0_chk71 i v56 v105), ∀ (k0_h17 : k0_cond17 i = 1#1), ∀ a x, ((![v56, v105] : Fin 2 → IVec S16 32) a x).toNat < S64x64.size a := fun i v56 v105 k0_hw71 k0_h17 => k0_hw71 k0_h17

def k0_chk72 (i : grid0.Coords) (v102 : IVec S16 32) (v108 : IVec S16 32) : Prop :=
  (∀ (k0_h17 : k0_cond17 i = 1#1), ∀ a x, ((![v102, v108] : Fin 2 → IVec S16 32) a x).toNat < S32x128.size a)
instance k0_chk72.dec : ∀ (i : grid0.Coords) (v102 : IVec S16 32) (v108 : IVec S16 32), Decidable (k0_chk72 i v102 v108) := fun i v102 v108 => decidable_of_iff' _ (Iff.of_eq (k0_chk72.eq_1 i v102 v108))
theorem k0_idx72_inb : ∀ (i : grid0.Coords) (v102 : IVec S16 32) (v108 : IVec S16 32) (k0_hw72 : k0_chk72 i v102 v108), ∀ (k0_h17 : k0_cond17 i = 1#1), ∀ a x, ((![v102, v108] : Fin 2 → IVec S16 32) a x).toNat < S32x128.size a := fun i v102 v108 k0_hw72 k0_h17 => k0_hw72 k0_h17

def k0_chk73 (i : grid0.Coords) (v56 : IVec S16 32) (v117 : IVec S16 32) : Prop :=
  (∀ (k0_h17 : k0_cond17 i = 1#1), ∀ a x, ((![v56, v117] : Fin 2 → IVec S16 32) a x).toNat < S64x64.size a)
instance k0_chk73.dec : ∀ (i : grid0.Coords) (v56 : IVec S16 32) (v117 : IVec S16 32), Decidable (k0_chk73 i v56 v117) := fun i v56 v117 => decidable_of_iff' _ (Iff.of_eq (k0_chk73.eq_1 i v56 v117))
theorem k0_idx73_inb : ∀ (i : grid0.Coords) (v56 : IVec S16 32) (v117 : IVec S16 32) (k0_hw73 : k0_chk73 i v56 v117), ∀ (k0_h17 : k0_cond17 i = 1#1), ∀ a x, ((![v56, v117] : Fin 2 → IVec S16 32) a x).toNat < S64x64.size a := fun i v56 v117 k0_hw73 k0_h17 => k0_hw73 k0_h17

def k0_chk74 (i : grid0.Coords) (v114 : IVec S16 32) (v120 : IVec S16 32) : Prop :=
  (∀ (k0_h17 : k0_cond17 i = 1#1), ∀ a x, ((![v114, v120] : Fin 2 → IVec S16 32) a x).toNat < S32x128.size a)
instance k0_chk74.dec : ∀ (i : grid0.Coords) (v114 : IVec S16 32) (v120 : IVec S16 32), Decidable (k0_chk74 i v114 v120) := fun i v114 v120 => decidable_of_iff' _ (Iff.of_eq (k0_chk74.eq_1 i v114 v120))
theorem k0_idx74_inb : ∀ (i : grid0.Coords) (v114 : IVec S16 32) (v120 : IVec S16 32) (k0_hw74 : k0_chk74 i v114 v120), ∀ (k0_h17 : k0_cond17 i = 1#1), ∀ a x, ((![v114, v120] : Fin 2 → IVec S16 32) a x).toNat < S32x128.size a := fun i v114 v120 k0_hw74 k0_h17 => k0_hw74 k0_h17

def k0_chk75 (i : grid0.Coords) (v56 : IVec S16 32) (v129 : IVec S16 32) : Prop :=
  (∀ (k0_h17 : k0_cond17 i = 1#1), ∀ a x, ((![v56, v129] : Fin 2 → IVec S16 32) a x).toNat < S64x64.size a)
instance k0_chk75.dec : ∀ (i : grid0.Coords) (v56 : IVec S16 32) (v129 : IVec S16 32), Decidable (k0_chk75 i v56 v129) := fun i v56 v129 => decidable_of_iff' _ (Iff.of_eq (k0_chk75.eq_1 i v56 v129))
theorem k0_idx75_inb : ∀ (i : grid0.Coords) (v56 : IVec S16 32) (v129 : IVec S16 32) (k0_hw75 : k0_chk75 i v56 v129), ∀ (k0_h17 : k0_cond17 i = 1#1), ∀ a x, ((![v56, v129] : Fin 2 → IVec S16 32) a x).toNat < S64x64.size a := fun i v56 v129 k0_hw75 k0_h17 => k0_hw75 k0_h17

def k0_chk76 (i : grid0.Coords) (v126 : IVec S16 32) (v132 : IVec S16 32) : Prop :=
  (∀ (k0_h17 : k0_cond17 i = 1#1), ∀ a x, ((![v126, v132] : Fin 2 → IVec S16 32) a x).toNat < S32x128.size a)
instance k0_chk76.dec : ∀ (i : grid0.Coords) (v126 : IVec S16 32) (v132 : IVec S16 32), Decidable (k0_chk76 i v126 v132) := fun i v126 v132 => decidable_of_iff' _ (Iff.of_eq (k0_chk76.eq_1 i v126 v132))
theorem k0_idx76_inb : ∀ (i : grid0.Coords) (v126 : IVec S16 32) (v132 : IVec S16 32) (k0_hw76 : k0_chk76 i v126 v132), ∀ (k0_h17 : k0_cond17 i = 1#1), ∀ a x, ((![v126, v132] : Fin 2 → IVec S16 32) a x).toNat < S32x128.size a := fun i v126 v132 k0_hw76 k0_h17 => k0_hw76 k0_h17

def k0_chk77 (i : grid0.Coords) (v56 : IVec S16 32) (v141 : IVec S16 32) : Prop :=
  (∀ (k0_h17 : k0_cond17 i = 1#1), ∀ a x, ((![v56, v141] : Fin 2 → IVec S16 32) a x).toNat < S64x64.size a)
instance k0_chk77.dec : ∀ (i : grid0.Coords) (v56 : IVec S16 32) (v141 : IVec S16 32), Decidable (k0_chk77 i v56 v141) := fun i v56 v141 => decidable_of_iff' _ (Iff.of_eq (k0_chk77.eq_1 i v56 v141))
theorem k0_idx77_inb : ∀ (i : grid0.Coords) (v56 : IVec S16 32) (v141 : IVec S16 32) (k0_hw77 : k0_chk77 i v56 v141), ∀ (k0_h17 : k0_cond17 i = 1#1), ∀ a x, ((![v56, v141] : Fin 2 → IVec S16 32) a x).toNat < S64x64.size a := fun i v56 v141 k0_hw77 k0_h17 => k0_hw77 k0_h17

def k0_chk78 (i : grid0.Coords) (v138 : IVec S16 32) (v144 : IVec S16 32) : Prop :=
  (∀ (k0_h17 : k0_cond17 i = 1#1), ∀ a x, ((![v138, v144] : Fin 2 → IVec S16 32) a x).toNat < S32x128.size a)
instance k0_chk78.dec : ∀ (i : grid0.Coords) (v138 : IVec S16 32) (v144 : IVec S16 32), Decidable (k0_chk78 i v138 v144) := fun i v138 v144 => decidable_of_iff' _ (Iff.of_eq (k0_chk78.eq_1 i v138 v144))
theorem k0_idx78_inb : ∀ (i : grid0.Coords) (v138 : IVec S16 32) (v144 : IVec S16 32) (k0_hw78 : k0_chk78 i v138 v144), ∀ (k0_h17 : k0_cond17 i = 1#1), ∀ a x, ((![v138, v144] : Fin 2 → IVec S16 32) a x).toNat < S32x128.size a := fun i v138 v144 k0_hw78 k0_h17 => k0_hw78 k0_h17

def k0_chk79 (i : grid0.Coords) (v56 : IVec S16 32) (v153 : IVec S16 32) : Prop :=
  (∀ (k0_h17 : k0_cond17 i = 1#1), ∀ a x, ((![v56, v153] : Fin 2 → IVec S16 32) a x).toNat < S64x64.size a)
instance k0_chk79.dec : ∀ (i : grid0.Coords) (v56 : IVec S16 32) (v153 : IVec S16 32), Decidable (k0_chk79 i v56 v153) := fun i v56 v153 => decidable_of_iff' _ (Iff.of_eq (k0_chk79.eq_1 i v56 v153))
theorem k0_idx79_inb : ∀ (i : grid0.Coords) (v56 : IVec S16 32) (v153 : IVec S16 32) (k0_hw79 : k0_chk79 i v56 v153), ∀ (k0_h17 : k0_cond17 i = 1#1), ∀ a x, ((![v56, v153] : Fin 2 → IVec S16 32) a x).toNat < S64x64.size a := fun i v56 v153 k0_hw79 k0_h17 => k0_hw79 k0_h17

def k0_chk80 (i : grid0.Coords) (v150 : IVec S16 32) (v156 : IVec S16 32) : Prop :=
  (∀ (k0_h17 : k0_cond17 i = 1#1), ∀ a x, ((![v150, v156] : Fin 2 → IVec S16 32) a x).toNat < S32x128.size a)
instance k0_chk80.dec : ∀ (i : grid0.Coords) (v150 : IVec S16 32) (v156 : IVec S16 32), Decidable (k0_chk80 i v150 v156) := fun i v150 v156 => decidable_of_iff' _ (Iff.of_eq (k0_chk80.eq_1 i v150 v156))
theorem k0_idx80_inb : ∀ (i : grid0.Coords) (v150 : IVec S16 32) (v156 : IVec S16 32) (k0_hw80 : k0_chk80 i v150 v156), ∀ (k0_h17 : k0_cond17 i = 1#1), ∀ a x, ((![v150, v156] : Fin 2 → IVec S16 32) a x).toNat < S32x128.size a := fun i v150 v156 k0_hw80 k0_h17 => k0_hw80 k0_h17

def k0_chk81 (i : grid0.Coords) (v56 : IVec S16 32) (v165 : IVec S16 32) : Prop :=
  (∀ (k0_h17 : k0_cond17 i = 1#1), ∀ a x, ((![v56, v165] : Fin 2 → IVec S16 32) a x).toNat < S64x64.size a)
instance k0_chk81.dec : ∀ (i : grid0.Coords) (v56 : IVec S16 32) (v165 : IVec S16 32), Decidable (k0_chk81 i v56 v165) := fun i v56 v165 => decidable_of_iff' _ (Iff.of_eq (k0_chk81.eq_1 i v56 v165))
theorem k0_idx81_inb : ∀ (i : grid0.Coords) (v56 : IVec S16 32) (v165 : IVec S16 32) (k0_hw81 : k0_chk81 i v56 v165), ∀ (k0_h17 : k0_cond17 i = 1#1), ∀ a x, ((![v56, v165] : Fin 2 → IVec S16 32) a x).toNat < S64x64.size a := fun i v56 v165 k0_hw81 k0_h17 => k0_hw81 k0_h17

def k0_chk82 (i : grid0.Coords) (v162 : IVec S16 32) (v168 : IVec S16 32) : Prop :=
  (∀ (k0_h17 : k0_cond17 i = 1#1), ∀ a x, ((![v162, v168] : Fin 2 → IVec S16 32) a x).toNat < S32x128.size a)
instance k0_chk82.dec : ∀ (i : grid0.Coords) (v162 : IVec S16 32) (v168 : IVec S16 32), Decidable (k0_chk82 i v162 v168) := fun i v162 v168 => decidable_of_iff' _ (Iff.of_eq (k0_chk82.eq_1 i v162 v168))
theorem k0_idx82_inb : ∀ (i : grid0.Coords) (v162 : IVec S16 32) (v168 : IVec S16 32) (k0_hw82 : k0_chk82 i v162 v168), ∀ (k0_h17 : k0_cond17 i = 1#1), ∀ a x, ((![v162, v168] : Fin 2 → IVec S16 32) a x).toNat < S32x128.size a := fun i v162 v168 k0_hw82 k0_h17 => k0_hw82 k0_h17

def k0_chk83 (i : grid0.Coords) (v56 : IVec S16 32) (v177 : IVec S16 32) : Prop :=
  (∀ (k0_h17 : k0_cond17 i = 1#1), ∀ a x, ((![v56, v177] : Fin 2 → IVec S16 32) a x).toNat < S64x64.size a)
instance k0_chk83.dec : ∀ (i : grid0.Coords) (v56 : IVec S16 32) (v177 : IVec S16 32), Decidable (k0_chk83 i v56 v177) := fun i v56 v177 => decidable_of_iff' _ (Iff.of_eq (k0_chk83.eq_1 i v56 v177))
theorem k0_idx83_inb : ∀ (i : grid0.Coords) (v56 : IVec S16 32) (v177 : IVec S16 32) (k0_hw83 : k0_chk83 i v56 v177), ∀ (k0_h17 : k0_cond17 i = 1#1), ∀ a x, ((![v56, v177] : Fin 2 → IVec S16 32) a x).toNat < S64x64.size a := fun i v56 v177 k0_hw83 k0_h17 => k0_hw83 k0_h17

def k0_chk84 (i : grid0.Coords) (v174 : IVec S16 32) (v180 : IVec S16 32) : Prop :=
  (∀ (k0_h17 : k0_cond17 i = 1#1), ∀ a x, ((![v174, v180] : Fin 2 → IVec S16 32) a x).toNat < S32x128.size a)
instance k0_chk84.dec : ∀ (i : grid0.Coords) (v174 : IVec S16 32) (v180 : IVec S16 32), Decidable (k0_chk84 i v174 v180) := fun i v174 v180 => decidable_of_iff' _ (Iff.of_eq (k0_chk84.eq_1 i v174 v180))
theorem k0_idx84_inb : ∀ (i : grid0.Coords) (v174 : IVec S16 32) (v180 : IVec S16 32) (k0_hw84 : k0_chk84 i v174 v180), ∀ (k0_h17 : k0_cond17 i = 1#1), ∀ a x, ((![v174, v180] : Fin 2 → IVec S16 32) a x).toNat < S32x128.size a := fun i v174 v180 k0_hw84 k0_h17 => k0_hw84 k0_h17

def k0_chk85 (i : grid0.Coords) (v56 : IVec S16 32) (v189 : IVec S16 32) : Prop :=
  (∀ (k0_h17 : k0_cond17 i = 1#1), ∀ a x, ((![v56, v189] : Fin 2 → IVec S16 32) a x).toNat < S64x64.size a)
instance k0_chk85.dec : ∀ (i : grid0.Coords) (v56 : IVec S16 32) (v189 : IVec S16 32), Decidable (k0_chk85 i v56 v189) := fun i v56 v189 => decidable_of_iff' _ (Iff.of_eq (k0_chk85.eq_1 i v56 v189))
theorem k0_idx85_inb : ∀ (i : grid0.Coords) (v56 : IVec S16 32) (v189 : IVec S16 32) (k0_hw85 : k0_chk85 i v56 v189), ∀ (k0_h17 : k0_cond17 i = 1#1), ∀ a x, ((![v56, v189] : Fin 2 → IVec S16 32) a x).toNat < S64x64.size a := fun i v56 v189 k0_hw85 k0_h17 => k0_hw85 k0_h17

def k0_chk86 (i : grid0.Coords) (v186 : IVec S16 32) (v192 : IVec S16 32) : Prop :=
  (∀ (k0_h17 : k0_cond17 i = 1#1), ∀ a x, ((![v186, v192] : Fin 2 → IVec S16 32) a x).toNat < S32x128.size a)
instance k0_chk86.dec : ∀ (i : grid0.Coords) (v186 : IVec S16 32) (v192 : IVec S16 32), Decidable (k0_chk86 i v186 v192) := fun i v186 v192 => decidable_of_iff' _ (Iff.of_eq (k0_chk86.eq_1 i v186 v192))
theorem k0_idx86_inb : ∀ (i : grid0.Coords) (v186 : IVec S16 32) (v192 : IVec S16 32) (k0_hw86 : k0_chk86 i v186 v192), ∀ (k0_h17 : k0_cond17 i = 1#1), ∀ a x, ((![v186, v192] : Fin 2 → IVec S16 32) a x).toNat < S32x128.size a := fun i v186 v192 k0_hw86 k0_h17 => k0_hw86 k0_h17

def k0_chk87 (i : grid0.Coords) (v56 : IVec S16 32) (v201 : IVec S16 32) : Prop :=
  (∀ (k0_h17 : k0_cond17 i = 1#1), ∀ a x, ((![v56, v201] : Fin 2 → IVec S16 32) a x).toNat < S64x64.size a)
instance k0_chk87.dec : ∀ (i : grid0.Coords) (v56 : IVec S16 32) (v201 : IVec S16 32), Decidable (k0_chk87 i v56 v201) := fun i v56 v201 => decidable_of_iff' _ (Iff.of_eq (k0_chk87.eq_1 i v56 v201))
theorem k0_idx87_inb : ∀ (i : grid0.Coords) (v56 : IVec S16 32) (v201 : IVec S16 32) (k0_hw87 : k0_chk87 i v56 v201), ∀ (k0_h17 : k0_cond17 i = 1#1), ∀ a x, ((![v56, v201] : Fin 2 → IVec S16 32) a x).toNat < S64x64.size a := fun i v56 v201 k0_hw87 k0_h17 => k0_hw87 k0_h17

def k0_chk88 (i : grid0.Coords) (v198 : IVec S16 32) (v204 : IVec S16 32) : Prop :=
  (∀ (k0_h17 : k0_cond17 i = 1#1), ∀ a x, ((![v198, v204] : Fin 2 → IVec S16 32) a x).toNat < S32x128.size a)
instance k0_chk88.dec : ∀ (i : grid0.Coords) (v198 : IVec S16 32) (v204 : IVec S16 32), Decidable (k0_chk88 i v198 v204) := fun i v198 v204 => decidable_of_iff' _ (Iff.of_eq (k0_chk88.eq_1 i v198 v204))
theorem k0_idx88_inb : ∀ (i : grid0.Coords) (v198 : IVec S16 32) (v204 : IVec S16 32) (k0_hw88 : k0_chk88 i v198 v204), ∀ (k0_h17 : k0_cond17 i = 1#1), ∀ a x, ((![v198, v204] : Fin 2 → IVec S16 32) a x).toNat < S32x128.size a := fun i v198 v204 k0_hw88 k0_h17 => k0_hw88 k0_h17

def k0_chk89 (i : grid0.Coords) (v56 : IVec S16 32) (v213 : IVec S16 32) : Prop :=
  (∀ (k0_h17 : k0_cond17 i = 1#1), ∀ a x, ((![v56, v213] : Fin 2 → IVec S16 32) a x).toNat < S64x64.size a)
instance k0_chk89.dec : ∀ (i : grid0.Coords) (v56 : IVec S16 32) (v213 : IVec S16 32), Decidable (k0_chk89 i v56 v213) := fun i v56 v213 => decidable_of_iff' _ (Iff.of_eq (k0_chk89.eq_1 i v56 v213))
theorem k0_idx89_inb : ∀ (i : grid0.Coords) (v56 : IVec S16 32) (v213 : IVec S16 32) (k0_hw89 : k0_chk89 i v56 v213), ∀ (k0_h17 : k0_cond17 i = 1#1), ∀ a x, ((![v56, v213] : Fin 2 → IVec S16 32) a x).toNat < S64x64.size a := fun i v56 v213 k0_hw89 k0_h17 => k0_hw89 k0_h17

def k0_chk90 (i : grid0.Coords) (v210 : IVec S16 32) (v216 : IVec S16 32) : Prop :=
  (∀ (k0_h17 : k0_cond17 i = 1#1), ∀ a x, ((![v210, v216] : Fin 2 → IVec S16 32) a x).toNat < S32x128.size a)
instance k0_chk90.dec : ∀ (i : grid0.Coords) (v210 : IVec S16 32) (v216 : IVec S16 32), Decidable (k0_chk90 i v210 v216) := fun i v210 v216 => decidable_of_iff' _ (Iff.of_eq (k0_chk90.eq_1 i v210 v216))
theorem k0_idx90_inb : ∀ (i : grid0.Coords) (v210 : IVec S16 32) (v216 : IVec S16 32) (k0_hw90 : k0_chk90 i v210 v216), ∀ (k0_h17 : k0_cond17 i = 1#1), ∀ a x, ((![v210, v216] : Fin 2 → IVec S16 32) a x).toNat < S32x128.size a := fun i v210 v216 k0_hw90 k0_h17 => k0_hw90 k0_h17

def k0_chk91 (i : grid0.Coords) (v56 : IVec S16 32) (v225 : IVec S16 32) : Prop :=
  (∀ (k0_h17 : k0_cond17 i = 1#1), ∀ a x, ((![v56, v225] : Fin 2 → IVec S16 32) a x).toNat < S64x64.size a)
instance k0_chk91.dec : ∀ (i : grid0.Coords) (v56 : IVec S16 32) (v225 : IVec S16 32), Decidable (k0_chk91 i v56 v225) := fun i v56 v225 => decidable_of_iff' _ (Iff.of_eq (k0_chk91.eq_1 i v56 v225))
theorem k0_idx91_inb : ∀ (i : grid0.Coords) (v56 : IVec S16 32) (v225 : IVec S16 32) (k0_hw91 : k0_chk91 i v56 v225), ∀ (k0_h17 : k0_cond17 i = 1#1), ∀ a x, ((![v56, v225] : Fin 2 → IVec S16 32) a x).toNat < S64x64.size a := fun i v56 v225 k0_hw91 k0_h17 => k0_hw91 k0_h17

def k0_chk92 (i : grid0.Coords) (v222 : IVec S16 32) (v228 : IVec S16 32) : Prop :=
  (∀ (k0_h17 : k0_cond17 i = 1#1), ∀ a x, ((![v222, v228] : Fin 2 → IVec S16 32) a x).toNat < S32x128.size a)
instance k0_chk92.dec : ∀ (i : grid0.Coords) (v222 : IVec S16 32) (v228 : IVec S16 32), Decidable (k0_chk92 i v222 v228) := fun i v222 v228 => decidable_of_iff' _ (Iff.of_eq (k0_chk92.eq_1 i v222 v228))
theorem k0_idx92_inb : ∀ (i : grid0.Coords) (v222 : IVec S16 32) (v228 : IVec S16 32) (k0_hw92 : k0_chk92 i v222 v228), ∀ (k0_h17 : k0_cond17 i = 1#1), ∀ a x, ((![v222, v228] : Fin 2 → IVec S16 32) a x).toNat < S32x128.size a := fun i v222 v228 k0_hw92 k0_h17 => k0_hw92 k0_h17

def k0_chk93 (i : grid0.Coords) (v56 : IVec S16 32) (v237 : IVec S16 32) : Prop :=
  (∀ (k0_h17 : k0_cond17 i = 1#1), ∀ a x, ((![v56, v237] : Fin 2 → IVec S16 32) a x).toNat < S64x64.size a)
instance k0_chk93.dec : ∀ (i : grid0.Coords) (v56 : IVec S16 32) (v237 : IVec S16 32), Decidable (k0_chk93 i v56 v237) := fun i v56 v237 => decidable_of_iff' _ (Iff.of_eq (k0_chk93.eq_1 i v56 v237))
theorem k0_idx93_inb : ∀ (i : grid0.Coords) (v56 : IVec S16 32) (v237 : IVec S16 32) (k0_hw93 : k0_chk93 i v56 v237), ∀ (k0_h17 : k0_cond17 i = 1#1), ∀ a x, ((![v56, v237] : Fin 2 → IVec S16 32) a x).toNat < S64x64.size a := fun i v56 v237 k0_hw93 k0_h17 => k0_hw93 k0_h17

def k0_chk94 (i : grid0.Coords) (v234 : IVec S16 32) (v240 : IVec S16 32) : Prop :=
  (∀ (k0_h17 : k0_cond17 i = 1#1), ∀ a x, ((![v234, v240] : Fin 2 → IVec S16 32) a x).toNat < S32x128.size a)
instance k0_chk94.dec : ∀ (i : grid0.Coords) (v234 : IVec S16 32) (v240 : IVec S16 32), Decidable (k0_chk94 i v234 v240) := fun i v234 v240 => decidable_of_iff' _ (Iff.of_eq (k0_chk94.eq_1 i v234 v240))
theorem k0_idx94_inb : ∀ (i : grid0.Coords) (v234 : IVec S16 32) (v240 : IVec S16 32) (k0_hw94 : k0_chk94 i v234 v240), ∀ (k0_h17 : k0_cond17 i = 1#1), ∀ a x, ((![v234, v240] : Fin 2 → IVec S16 32) a x).toNat < S32x128.size a := fun i v234 v240 k0_hw94 k0_h17 => k0_hw94 k0_h17

def k0_chk95 (i : grid0.Coords) (v56 : IVec S16 32) (v249 : IVec S16 32) : Prop :=
  (∀ (k0_h17 : k0_cond17 i = 1#1), ∀ a x, ((![v56, v249] : Fin 2 → IVec S16 32) a x).toNat < S64x64.size a)
instance k0_chk95.dec : ∀ (i : grid0.Coords) (v56 : IVec S16 32) (v249 : IVec S16 32), Decidable (k0_chk95 i v56 v249) := fun i v56 v249 => decidable_of_iff' _ (Iff.of_eq (k0_chk95.eq_1 i v56 v249))
theorem k0_idx95_inb : ∀ (i : grid0.Coords) (v56 : IVec S16 32) (v249 : IVec S16 32) (k0_hw95 : k0_chk95 i v56 v249), ∀ (k0_h17 : k0_cond17 i = 1#1), ∀ a x, ((![v56, v249] : Fin 2 → IVec S16 32) a x).toNat < S64x64.size a := fun i v56 v249 k0_hw95 k0_h17 => k0_hw95 k0_h17

def k0_chk96 (i : grid0.Coords) (v246 : IVec S16 32) (v252 : IVec S16 32) : Prop :=
  (∀ (k0_h17 : k0_cond17 i = 1#1), ∀ a x, ((![v246, v252] : Fin 2 → IVec S16 32) a x).toNat < S32x128.size a)
instance k0_chk96.dec : ∀ (i : grid0.Coords) (v246 : IVec S16 32) (v252 : IVec S16 32), Decidable (k0_chk96 i v246 v252) := fun i v246 v252 => decidable_of_iff' _ (Iff.of_eq (k0_chk96.eq_1 i v246 v252))
theorem k0_idx96_inb : ∀ (i : grid0.Coords) (v246 : IVec S16 32) (v252 : IVec S16 32) (k0_hw96 : k0_chk96 i v246 v252), ∀ (k0_h17 : k0_cond17 i = 1#1), ∀ a x, ((![v246, v252] : Fin 2 → IVec S16 32) a x).toNat < S32x128.size a := fun i v246 v252 k0_hw96 k0_h17 => k0_hw96 k0_h17
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c128_i32 : BitVec 32 := 128#32
  let v3 : BitVec 32 := Scalar.muli v2 c128_i32
  ![v3.toNat]
@[reducible] def k1_t1_loop : Scf.Loop 32 :=
  let c0_i32_0 : BitVec 32 := 0#32
  let c832_i32 : BitVec 32 := 832#32
  let v5 : BitVec 32 := Scalar.addi c0_i32_0 c832_i32
  let c1_i32 : BitVec 32 := 1#32
  ⟨c0_i32_0, v5, c1_i32⟩
def k1_off2 (k1_t1 : Fin k1_t1_loop.trips) : Fin 1 → Nat :=
  let c0_i32_0 : BitVec 32 := 0#32
  let c1_i32 : BitVec 32 := 1#32
  let arg13 : BitVec 32 := Scf.iv c0_i32_0 c1_i32 k1_t1
  let c16_i32_267 : BitVec 32 := 16#32
  let v175 : BitVec 32 := Scalar.muli arg13 c16_i32_267
  let v176 : Index := Scalar.indexCast v175
  ![v176.toNat]
@[reducible] def k1_t2_loop : Scf.Loop 32 :=
  let c0_i32_15 : BitVec 32 := 0#32
  let c52_i32 : BitVec 32 := 52#32
  let v14 : BitVec 32 := Scalar.addi c0_i32_15 c52_i32
  let c1_i32_16 : BitVec 32 := 1#32
  ⟨c0_i32_15, v14, c1_i32_16⟩
@[reducible] def k1_t3_loop : Scf.Loop 32 :=
  let c0_i32_280 : BitVec 32 := 0#32
  let c32_i32_281 : BitVec 32 := 32#32
  let v184 : BitVec 32 := Scalar.addi c0_i32_280 c32_i32_281
  let c1_i32_282 : BitVec 32 := 1#32
  ⟨c0_i32_280, v184, c1_i32_282⟩
def k1_off3 (k1_t2 : Fin k1_t2_loop.trips) (k1_t3 : Fin k1_t3_loop.trips) : Fin 1 → Nat :=
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let c0_i32_268 : BitVec 32 := 0#32
  let v176 : BitVec 32 := Scalar.addi v175 c0_i32_268
  let c128_i32_567 : BitVec 32 := 128#32
  let v450 : BitVec 32 := Scalar.muli v176 c128_i32_567
  let c0_i32_280 : BitVec 32 := 0#32
  let c1_i32_282 : BitVec 32 := 1#32
  let arg14 : BitVec 32 := Scf.iv c0_i32_280 c1_i32_282 k1_t3
  let c0_i32_553 : BitVec 32 := 0#32
  let v420 : BitVec 1 := Scalar.cmpi .sgt arg14 c0_i32_553
  let v421 : BitVec 32 := Scalar.extui v420
  let c0_i32_554 : BitVec 32 := 0#32
  let v422 : BitVec 1 := Scalar.cmpi .slt arg14 c0_i32_554
  let v423 : BitVec 32 := Scalar.extui v422
  let v424 : BitVec 32 := Scalar.subi v421 v423
  let c4_i32_552 : BitVec 32 := 4#32
  let c0_i32_555 : BitVec 32 := 0#32
  let v425 : BitVec 1 := Scalar.cmpi .sgt c4_i32_552 c0_i32_555
  let v426 : BitVec 32 := Scalar.extui v425
  let c0_i32_556 : BitVec 32 := 0#32
  let v427 : BitVec 1 := Scalar.cmpi .slt c4_i32_552 c0_i32_556
  let v428 : BitVec 32 := Scalar.extui v427
  let v429 : BitVec 32 := Scalar.subi v426 v428
  let v430 : BitVec 1 := Scalar.cmpi .ne v424 v429
  let v431 : BitVec 32 := Scalar.remsi arg14 c4_i32_552
  let c0_i32_557 : BitVec 32 := 0#32
  let v432 : BitVec 1 := Scalar.cmpi .ne v431 c0_i32_557
  let v433 : BitVec 1 := Scalar.andi v430 v432
  let v419 : BitVec 32 := Scalar.divsi arg14 c4_i32_552
  let c1_i32_558 : BitVec 32 := 1#32
  let v434 : BitVec 32 := Scalar.subi v419 c1_i32_558
  let v435 : BitVec 32 := Scalar.select v433 v434 v419
  let c16_i32_568 : BitVec 32 := 16#32
  let v451 : BitVec 32 := Scalar.muli v435 c16_i32_568
  let v452 : BitVec 32 := Scalar.addi v450 v451
  let v453 : Index := Scalar.indexCast v452
  ![v453.toNat]

def k1_chk1 (v449 : IVec S16 32) (v465 : IVec S16 32) : Prop :=
  (∀ a x, ((![v449, v465] : Fin 2 → IVec S16 32) a x).toNat < S128x128.size a)
instance k1_chk1.dec : ∀ (v449 : IVec S16 32) (v465 : IVec S16 32), Decidable (k1_chk1 v449 v465) := fun v449 v465 => decidable_of_iff' _ (Iff.of_eq (k1_chk1.eq_1 v449 v465))
theorem k1_idx1_inb : ∀ (v449 : IVec S16 32) (v465 : IVec S16 32) (k1_hw1 : k1_chk1 v449 v465), ∀ a x, ((![v449, v465] : Fin 2 → IVec S16 32) a x).toNat < S128x128.size a := fun v449 v465 k1_hw1 => k1_hw1

def k1_chk2 (v449 : IVec S16 32) (v464 : IVec S16 32) : Prop :=
  (∀ a x, ((![v464, v449] : Fin 2 → IVec S16 32) a x).toNat < S64x128.size a)
instance k1_chk2.dec : ∀ (v449 : IVec S16 32) (v464 : IVec S16 32), Decidable (k1_chk2 v449 v464) := fun v449 v464 => decidable_of_iff' _ (Iff.of_eq (k1_chk2.eq_1 v449 v464))
theorem k1_idx2_inb : ∀ (v449 : IVec S16 32) (v464 : IVec S16 32) (k1_hw2 : k1_chk2 v449 v464), ∀ a x, ((![v464, v449] : Fin 2 → IVec S16 32) a x).toNat < S64x128.size a := fun v449 v464 k1_hw2 => k1_hw2

def k1_chk3 (v449 : IVec S16 32) (v477 : IVec S16 32) : Prop :=
  (∀ a x, ((![v449, v477] : Fin 2 → IVec S16 32) a x).toNat < S128x128.size a)
instance k1_chk3.dec : ∀ (v449 : IVec S16 32) (v477 : IVec S16 32), Decidable (k1_chk3 v449 v477) := fun v449 v477 => decidable_of_iff' _ (Iff.of_eq (k1_chk3.eq_1 v449 v477))
theorem k1_idx3_inb : ∀ (v449 : IVec S16 32) (v477 : IVec S16 32) (k1_hw3 : k1_chk3 v449 v477), ∀ a x, ((![v449, v477] : Fin 2 → IVec S16 32) a x).toNat < S128x128.size a := fun v449 v477 k1_hw3 => k1_hw3

def k1_chk4 (v449 : IVec S16 32) (v476 : IVec S16 32) : Prop :=
  (∀ a x, ((![v476, v449] : Fin 2 → IVec S16 32) a x).toNat < S64x128.size a)
instance k1_chk4.dec : ∀ (v449 : IVec S16 32) (v476 : IVec S16 32), Decidable (k1_chk4 v449 v476) := fun v449 v476 => decidable_of_iff' _ (Iff.of_eq (k1_chk4.eq_1 v449 v476))
theorem k1_idx4_inb : ∀ (v449 : IVec S16 32) (v476 : IVec S16 32) (k1_hw4 : k1_chk4 v449 v476), ∀ a x, ((![v476, v449] : Fin 2 → IVec S16 32) a x).toNat < S64x128.size a := fun v449 v476 k1_hw4 => k1_hw4

def k1_chk5 (v449 : IVec S16 32) (v489 : IVec S16 32) : Prop :=
  (∀ a x, ((![v449, v489] : Fin 2 → IVec S16 32) a x).toNat < S128x128.size a)
instance k1_chk5.dec : ∀ (v449 : IVec S16 32) (v489 : IVec S16 32), Decidable (k1_chk5 v449 v489) := fun v449 v489 => decidable_of_iff' _ (Iff.of_eq (k1_chk5.eq_1 v449 v489))
theorem k1_idx5_inb : ∀ (v449 : IVec S16 32) (v489 : IVec S16 32) (k1_hw5 : k1_chk5 v449 v489), ∀ a x, ((![v449, v489] : Fin 2 → IVec S16 32) a x).toNat < S128x128.size a := fun v449 v489 k1_hw5 => k1_hw5

def k1_chk6 (v449 : IVec S16 32) (v488 : IVec S16 32) : Prop :=
  (∀ a x, ((![v488, v449] : Fin 2 → IVec S16 32) a x).toNat < S64x128.size a)
instance k1_chk6.dec : ∀ (v449 : IVec S16 32) (v488 : IVec S16 32), Decidable (k1_chk6 v449 v488) := fun v449 v488 => decidable_of_iff' _ (Iff.of_eq (k1_chk6.eq_1 v449 v488))
theorem k1_idx6_inb : ∀ (v449 : IVec S16 32) (v488 : IVec S16 32) (k1_hw6 : k1_chk6 v449 v488), ∀ a x, ((![v488, v449] : Fin 2 → IVec S16 32) a x).toNat < S64x128.size a := fun v449 v488 k1_hw6 => k1_hw6

def k1_chk7 (v449 : IVec S16 32) (v501 : IVec S16 32) : Prop :=
  (∀ a x, ((![v449, v501] : Fin 2 → IVec S16 32) a x).toNat < S128x128.size a)
instance k1_chk7.dec : ∀ (v449 : IVec S16 32) (v501 : IVec S16 32), Decidable (k1_chk7 v449 v501) := fun v449 v501 => decidable_of_iff' _ (Iff.of_eq (k1_chk7.eq_1 v449 v501))
theorem k1_idx7_inb : ∀ (v449 : IVec S16 32) (v501 : IVec S16 32) (k1_hw7 : k1_chk7 v449 v501), ∀ a x, ((![v449, v501] : Fin 2 → IVec S16 32) a x).toNat < S128x128.size a := fun v449 v501 k1_hw7 => k1_hw7

def k1_chk8 (v449 : IVec S16 32) (v500 : IVec S16 32) : Prop :=
  (∀ a x, ((![v500, v449] : Fin 2 → IVec S16 32) a x).toNat < S64x128.size a)
instance k1_chk8.dec : ∀ (v449 : IVec S16 32) (v500 : IVec S16 32), Decidable (k1_chk8 v449 v500) := fun v449 v500 => decidable_of_iff' _ (Iff.of_eq (k1_chk8.eq_1 v449 v500))
theorem k1_idx8_inb : ∀ (v449 : IVec S16 32) (v500 : IVec S16 32) (k1_hw8 : k1_chk8 v449 v500), ∀ a x, ((![v500, v449] : Fin 2 → IVec S16 32) a x).toNat < S64x128.size a := fun v449 v500 k1_hw8 => k1_hw8

def k1_chk9 (v449 : IVec S16 32) (v513 : IVec S16 32) : Prop :=
  (∀ a x, ((![v449, v513] : Fin 2 → IVec S16 32) a x).toNat < S128x128.size a)
instance k1_chk9.dec : ∀ (v449 : IVec S16 32) (v513 : IVec S16 32), Decidable (k1_chk9 v449 v513) := fun v449 v513 => decidable_of_iff' _ (Iff.of_eq (k1_chk9.eq_1 v449 v513))
theorem k1_idx9_inb : ∀ (v449 : IVec S16 32) (v513 : IVec S16 32) (k1_hw9 : k1_chk9 v449 v513), ∀ a x, ((![v449, v513] : Fin 2 → IVec S16 32) a x).toNat < S128x128.size a := fun v449 v513 k1_hw9 => k1_hw9

def k1_chk10 (v449 : IVec S16 32) (v512 : IVec S16 32) : Prop :=
  (∀ a x, ((![v512, v449] : Fin 2 → IVec S16 32) a x).toNat < S64x128.size a)
instance k1_chk10.dec : ∀ (v449 : IVec S16 32) (v512 : IVec S16 32), Decidable (k1_chk10 v449 v512) := fun v449 v512 => decidable_of_iff' _ (Iff.of_eq (k1_chk10.eq_1 v449 v512))
theorem k1_idx10_inb : ∀ (v449 : IVec S16 32) (v512 : IVec S16 32) (k1_hw10 : k1_chk10 v449 v512), ∀ a x, ((![v512, v449] : Fin 2 → IVec S16 32) a x).toNat < S64x128.size a := fun v449 v512 k1_hw10 => k1_hw10

def k1_chk11 (v449 : IVec S16 32) (v525 : IVec S16 32) : Prop :=
  (∀ a x, ((![v449, v525] : Fin 2 → IVec S16 32) a x).toNat < S128x128.size a)
instance k1_chk11.dec : ∀ (v449 : IVec S16 32) (v525 : IVec S16 32), Decidable (k1_chk11 v449 v525) := fun v449 v525 => decidable_of_iff' _ (Iff.of_eq (k1_chk11.eq_1 v449 v525))
theorem k1_idx11_inb : ∀ (v449 : IVec S16 32) (v525 : IVec S16 32) (k1_hw11 : k1_chk11 v449 v525), ∀ a x, ((![v449, v525] : Fin 2 → IVec S16 32) a x).toNat < S128x128.size a := fun v449 v525 k1_hw11 => k1_hw11

def k1_chk12 (v449 : IVec S16 32) (v524 : IVec S16 32) : Prop :=
  (∀ a x, ((![v524, v449] : Fin 2 → IVec S16 32) a x).toNat < S64x128.size a)
instance k1_chk12.dec : ∀ (v449 : IVec S16 32) (v524 : IVec S16 32), Decidable (k1_chk12 v449 v524) := fun v449 v524 => decidable_of_iff' _ (Iff.of_eq (k1_chk12.eq_1 v449 v524))
theorem k1_idx12_inb : ∀ (v449 : IVec S16 32) (v524 : IVec S16 32) (k1_hw12 : k1_chk12 v449 v524), ∀ a x, ((![v524, v449] : Fin 2 → IVec S16 32) a x).toNat < S64x128.size a := fun v449 v524 k1_hw12 => k1_hw12

def k1_chk13 (v449 : IVec S16 32) (v537 : IVec S16 32) : Prop :=
  (∀ a x, ((![v449, v537] : Fin 2 → IVec S16 32) a x).toNat < S128x128.size a)
instance k1_chk13.dec : ∀ (v449 : IVec S16 32) (v537 : IVec S16 32), Decidable (k1_chk13 v449 v537) := fun v449 v537 => decidable_of_iff' _ (Iff.of_eq (k1_chk13.eq_1 v449 v537))
theorem k1_idx13_inb : ∀ (v449 : IVec S16 32) (v537 : IVec S16 32) (k1_hw13 : k1_chk13 v449 v537), ∀ a x, ((![v449, v537] : Fin 2 → IVec S16 32) a x).toNat < S128x128.size a := fun v449 v537 k1_hw13 => k1_hw13

def k1_chk14 (v449 : IVec S16 32) (v536 : IVec S16 32) : Prop :=
  (∀ a x, ((![v536, v449] : Fin 2 → IVec S16 32) a x).toNat < S64x128.size a)
instance k1_chk14.dec : ∀ (v449 : IVec S16 32) (v536 : IVec S16 32), Decidable (k1_chk14 v449 v536) := fun v449 v536 => decidable_of_iff' _ (Iff.of_eq (k1_chk14.eq_1 v449 v536))
theorem k1_idx14_inb : ∀ (v449 : IVec S16 32) (v536 : IVec S16 32) (k1_hw14 : k1_chk14 v449 v536), ∀ a x, ((![v536, v449] : Fin 2 → IVec S16 32) a x).toNat < S64x128.size a := fun v449 v536 k1_hw14 => k1_hw14

def k1_chk15 (v449 : IVec S16 32) (v549 : IVec S16 32) : Prop :=
  (∀ a x, ((![v449, v549] : Fin 2 → IVec S16 32) a x).toNat < S128x128.size a)
instance k1_chk15.dec : ∀ (v449 : IVec S16 32) (v549 : IVec S16 32), Decidable (k1_chk15 v449 v549) := fun v449 v549 => decidable_of_iff' _ (Iff.of_eq (k1_chk15.eq_1 v449 v549))
theorem k1_idx15_inb : ∀ (v449 : IVec S16 32) (v549 : IVec S16 32) (k1_hw15 : k1_chk15 v449 v549), ∀ a x, ((![v449, v549] : Fin 2 → IVec S16 32) a x).toNat < S128x128.size a := fun v449 v549 k1_hw15 => k1_hw15

def k1_chk16 (v449 : IVec S16 32) (v548 : IVec S16 32) : Prop :=
  (∀ a x, ((![v548, v449] : Fin 2 → IVec S16 32) a x).toNat < S64x128.size a)
instance k1_chk16.dec : ∀ (v449 : IVec S16 32) (v548 : IVec S16 32), Decidable (k1_chk16 v449 v548) := fun v449 v548 => decidable_of_iff' _ (Iff.of_eq (k1_chk16.eq_1 v449 v548))
theorem k1_idx16_inb : ∀ (v449 : IVec S16 32) (v548 : IVec S16 32) (k1_hw16 : k1_chk16 v449 v548), ∀ a x, ((![v548, v449] : Fin 2 → IVec S16 32) a x).toNat < S64x128.size a := fun v449 v548 k1_hw16 => k1_hw16

def k1_chk17 (v449 : IVec S16 32) (v561 : IVec S16 32) : Prop :=
  (∀ a x, ((![v449, v561] : Fin 2 → IVec S16 32) a x).toNat < S128x128.size a)
instance k1_chk17.dec : ∀ (v449 : IVec S16 32) (v561 : IVec S16 32), Decidable (k1_chk17 v449 v561) := fun v449 v561 => decidable_of_iff' _ (Iff.of_eq (k1_chk17.eq_1 v449 v561))
theorem k1_idx17_inb : ∀ (v449 : IVec S16 32) (v561 : IVec S16 32) (k1_hw17 : k1_chk17 v449 v561), ∀ a x, ((![v449, v561] : Fin 2 → IVec S16 32) a x).toNat < S128x128.size a := fun v449 v561 k1_hw17 => k1_hw17

def k1_chk18 (v449 : IVec S16 32) (v560 : IVec S16 32) : Prop :=
  (∀ a x, ((![v560, v449] : Fin 2 → IVec S16 32) a x).toNat < S64x128.size a)
instance k1_chk18.dec : ∀ (v449 : IVec S16 32) (v560 : IVec S16 32), Decidable (k1_chk18 v449 v560) := fun v449 v560 => decidable_of_iff' _ (Iff.of_eq (k1_chk18.eq_1 v449 v560))
theorem k1_idx18_inb : ∀ (v449 : IVec S16 32) (v560 : IVec S16 32) (k1_hw18 : k1_chk18 v449 v560), ∀ a x, ((![v560, v449] : Fin 2 → IVec S16 32) a x).toNat < S64x128.size a := fun v449 v560 k1_hw18 => k1_hw18

def k1_chk19 (v449 : IVec S16 32) (v573 : IVec S16 32) : Prop :=
  (∀ a x, ((![v449, v573] : Fin 2 → IVec S16 32) a x).toNat < S128x128.size a)
instance k1_chk19.dec : ∀ (v449 : IVec S16 32) (v573 : IVec S16 32), Decidable (k1_chk19 v449 v573) := fun v449 v573 => decidable_of_iff' _ (Iff.of_eq (k1_chk19.eq_1 v449 v573))
theorem k1_idx19_inb : ∀ (v449 : IVec S16 32) (v573 : IVec S16 32) (k1_hw19 : k1_chk19 v449 v573), ∀ a x, ((![v449, v573] : Fin 2 → IVec S16 32) a x).toNat < S128x128.size a := fun v449 v573 k1_hw19 => k1_hw19

def k1_chk20 (v449 : IVec S16 32) (v572 : IVec S16 32) : Prop :=
  (∀ a x, ((![v572, v449] : Fin 2 → IVec S16 32) a x).toNat < S64x128.size a)
instance k1_chk20.dec : ∀ (v449 : IVec S16 32) (v572 : IVec S16 32), Decidable (k1_chk20 v449 v572) := fun v449 v572 => decidable_of_iff' _ (Iff.of_eq (k1_chk20.eq_1 v449 v572))
theorem k1_idx20_inb : ∀ (v449 : IVec S16 32) (v572 : IVec S16 32) (k1_hw20 : k1_chk20 v449 v572), ∀ a x, ((![v572, v449] : Fin 2 → IVec S16 32) a x).toNat < S64x128.size a := fun v449 v572 k1_hw20 => k1_hw20

def k1_chk21 (v449 : IVec S16 32) (v585 : IVec S16 32) : Prop :=
  (∀ a x, ((![v449, v585] : Fin 2 → IVec S16 32) a x).toNat < S128x128.size a)
instance k1_chk21.dec : ∀ (v449 : IVec S16 32) (v585 : IVec S16 32), Decidable (k1_chk21 v449 v585) := fun v449 v585 => decidable_of_iff' _ (Iff.of_eq (k1_chk21.eq_1 v449 v585))
theorem k1_idx21_inb : ∀ (v449 : IVec S16 32) (v585 : IVec S16 32) (k1_hw21 : k1_chk21 v449 v585), ∀ a x, ((![v449, v585] : Fin 2 → IVec S16 32) a x).toNat < S128x128.size a := fun v449 v585 k1_hw21 => k1_hw21

def k1_chk22 (v449 : IVec S16 32) (v584 : IVec S16 32) : Prop :=
  (∀ a x, ((![v584, v449] : Fin 2 → IVec S16 32) a x).toNat < S64x128.size a)
instance k1_chk22.dec : ∀ (v449 : IVec S16 32) (v584 : IVec S16 32), Decidable (k1_chk22 v449 v584) := fun v449 v584 => decidable_of_iff' _ (Iff.of_eq (k1_chk22.eq_1 v449 v584))
theorem k1_idx22_inb : ∀ (v449 : IVec S16 32) (v584 : IVec S16 32) (k1_hw22 : k1_chk22 v449 v584), ∀ a x, ((![v584, v449] : Fin 2 → IVec S16 32) a x).toNat < S64x128.size a := fun v449 v584 k1_hw22 => k1_hw22

def k1_chk23 (v449 : IVec S16 32) (v597 : IVec S16 32) : Prop :=
  (∀ a x, ((![v449, v597] : Fin 2 → IVec S16 32) a x).toNat < S128x128.size a)
instance k1_chk23.dec : ∀ (v449 : IVec S16 32) (v597 : IVec S16 32), Decidable (k1_chk23 v449 v597) := fun v449 v597 => decidable_of_iff' _ (Iff.of_eq (k1_chk23.eq_1 v449 v597))
theorem k1_idx23_inb : ∀ (v449 : IVec S16 32) (v597 : IVec S16 32) (k1_hw23 : k1_chk23 v449 v597), ∀ a x, ((![v449, v597] : Fin 2 → IVec S16 32) a x).toNat < S128x128.size a := fun v449 v597 k1_hw23 => k1_hw23

def k1_chk24 (v449 : IVec S16 32) (v596 : IVec S16 32) : Prop :=
  (∀ a x, ((![v596, v449] : Fin 2 → IVec S16 32) a x).toNat < S64x128.size a)
instance k1_chk24.dec : ∀ (v449 : IVec S16 32) (v596 : IVec S16 32), Decidable (k1_chk24 v449 v596) := fun v449 v596 => decidable_of_iff' _ (Iff.of_eq (k1_chk24.eq_1 v449 v596))
theorem k1_idx24_inb : ∀ (v449 : IVec S16 32) (v596 : IVec S16 32) (k1_hw24 : k1_chk24 v449 v596), ∀ a x, ((![v596, v449] : Fin 2 → IVec S16 32) a x).toNat < S64x128.size a := fun v449 v596 k1_hw24 => k1_hw24

def k1_chk25 (v449 : IVec S16 32) (v609 : IVec S16 32) : Prop :=
  (∀ a x, ((![v449, v609] : Fin 2 → IVec S16 32) a x).toNat < S128x128.size a)
instance k1_chk25.dec : ∀ (v449 : IVec S16 32) (v609 : IVec S16 32), Decidable (k1_chk25 v449 v609) := fun v449 v609 => decidable_of_iff' _ (Iff.of_eq (k1_chk25.eq_1 v449 v609))
theorem k1_idx25_inb : ∀ (v449 : IVec S16 32) (v609 : IVec S16 32) (k1_hw25 : k1_chk25 v449 v609), ∀ a x, ((![v449, v609] : Fin 2 → IVec S16 32) a x).toNat < S128x128.size a := fun v449 v609 k1_hw25 => k1_hw25

def k1_chk26 (v449 : IVec S16 32) (v608 : IVec S16 32) : Prop :=
  (∀ a x, ((![v608, v449] : Fin 2 → IVec S16 32) a x).toNat < S64x128.size a)
instance k1_chk26.dec : ∀ (v449 : IVec S16 32) (v608 : IVec S16 32), Decidable (k1_chk26 v449 v608) := fun v449 v608 => decidable_of_iff' _ (Iff.of_eq (k1_chk26.eq_1 v449 v608))
theorem k1_idx26_inb : ∀ (v449 : IVec S16 32) (v608 : IVec S16 32) (k1_hw26 : k1_chk26 v449 v608), ∀ a x, ((![v608, v449] : Fin 2 → IVec S16 32) a x).toNat < S64x128.size a := fun v449 v608 k1_hw26 => k1_hw26

def k1_chk27 (v449 : IVec S16 32) (v621 : IVec S16 32) : Prop :=
  (∀ a x, ((![v449, v621] : Fin 2 → IVec S16 32) a x).toNat < S128x128.size a)
instance k1_chk27.dec : ∀ (v449 : IVec S16 32) (v621 : IVec S16 32), Decidable (k1_chk27 v449 v621) := fun v449 v621 => decidable_of_iff' _ (Iff.of_eq (k1_chk27.eq_1 v449 v621))
theorem k1_idx27_inb : ∀ (v449 : IVec S16 32) (v621 : IVec S16 32) (k1_hw27 : k1_chk27 v449 v621), ∀ a x, ((![v449, v621] : Fin 2 → IVec S16 32) a x).toNat < S128x128.size a := fun v449 v621 k1_hw27 => k1_hw27

def k1_chk28 (v449 : IVec S16 32) (v620 : IVec S16 32) : Prop :=
  (∀ a x, ((![v620, v449] : Fin 2 → IVec S16 32) a x).toNat < S64x128.size a)
instance k1_chk28.dec : ∀ (v449 : IVec S16 32) (v620 : IVec S16 32), Decidable (k1_chk28 v449 v620) := fun v449 v620 => decidable_of_iff' _ (Iff.of_eq (k1_chk28.eq_1 v449 v620))
theorem k1_idx28_inb : ∀ (v449 : IVec S16 32) (v620 : IVec S16 32) (k1_hw28 : k1_chk28 v449 v620), ∀ a x, ((![v620, v449] : Fin 2 → IVec S16 32) a x).toNat < S64x128.size a := fun v449 v620 k1_hw28 => k1_hw28

def k1_chk29 (v449 : IVec S16 32) (v633 : IVec S16 32) : Prop :=
  (∀ a x, ((![v449, v633] : Fin 2 → IVec S16 32) a x).toNat < S128x128.size a)
instance k1_chk29.dec : ∀ (v449 : IVec S16 32) (v633 : IVec S16 32), Decidable (k1_chk29 v449 v633) := fun v449 v633 => decidable_of_iff' _ (Iff.of_eq (k1_chk29.eq_1 v449 v633))
theorem k1_idx29_inb : ∀ (v449 : IVec S16 32) (v633 : IVec S16 32) (k1_hw29 : k1_chk29 v449 v633), ∀ a x, ((![v449, v633] : Fin 2 → IVec S16 32) a x).toNat < S128x128.size a := fun v449 v633 k1_hw29 => k1_hw29

def k1_chk30 (v449 : IVec S16 32) (v632 : IVec S16 32) : Prop :=
  (∀ a x, ((![v632, v449] : Fin 2 → IVec S16 32) a x).toNat < S64x128.size a)
instance k1_chk30.dec : ∀ (v449 : IVec S16 32) (v632 : IVec S16 32), Decidable (k1_chk30 v449 v632) := fun v449 v632 => decidable_of_iff' _ (Iff.of_eq (k1_chk30.eq_1 v449 v632))
theorem k1_idx30_inb : ∀ (v449 : IVec S16 32) (v632 : IVec S16 32) (k1_hw30 : k1_chk30 v449 v632), ∀ a x, ((![v632, v449] : Fin 2 → IVec S16 32) a x).toNat < S64x128.size a := fun v449 v632 k1_hw30 => k1_hw30

def k1_chk31 (v449 : IVec S16 32) (v645 : IVec S16 32) : Prop :=
  (∀ a x, ((![v449, v645] : Fin 2 → IVec S16 32) a x).toNat < S128x128.size a)
instance k1_chk31.dec : ∀ (v449 : IVec S16 32) (v645 : IVec S16 32), Decidable (k1_chk31 v449 v645) := fun v449 v645 => decidable_of_iff' _ (Iff.of_eq (k1_chk31.eq_1 v449 v645))
theorem k1_idx31_inb : ∀ (v449 : IVec S16 32) (v645 : IVec S16 32) (k1_hw31 : k1_chk31 v449 v645), ∀ a x, ((![v449, v645] : Fin 2 → IVec S16 32) a x).toNat < S128x128.size a := fun v449 v645 k1_hw31 => k1_hw31

def k1_chk32 (v449 : IVec S16 32) (v644 : IVec S16 32) : Prop :=
  (∀ a x, ((![v644, v449] : Fin 2 → IVec S16 32) a x).toNat < S64x128.size a)
instance k1_chk32.dec : ∀ (v449 : IVec S16 32) (v644 : IVec S16 32), Decidable (k1_chk32 v449 v644) := fun v449 v644 => decidable_of_iff' _ (Iff.of_eq (k1_chk32.eq_1 v449 v644))
theorem k1_idx32_inb : ∀ (v449 : IVec S16 32) (v644 : IVec S16 32) (k1_hw32 : k1_chk32 v449 v644), ∀ a x, ((![v644, v449] : Fin 2 → IVec S16 32) a x).toNat < S64x128.size a := fun v449 v644 k1_hw32 => k1_hw32
def k1_off4 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c0_i32_298 : BitVec 32 := 0#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_303 : BitVec 32 := 0#32
  let c0_i32_304 : BitVec 32 := 0#32
  ![v202.toNat, 0, v212.toNat, 0, 0]
def k1_off5 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c1_i32_312 : BitVec 32 := 1#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_317 : BitVec 32 := 0#32
  let c0_i32_318 : BitVec 32 := 0#32
  ![v202.toNat, 1, v212.toNat, 0, 0]
def k1_off6 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c2_i32_326 : BitVec 32 := 2#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_331 : BitVec 32 := 0#32
  let c0_i32_332 : BitVec 32 := 0#32
  ![v202.toNat, 2, v212.toNat, 0, 0]
def k1_off7 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c3_i32 : BitVec 32 := 3#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_344 : BitVec 32 := 0#32
  let c0_i32_345 : BitVec 32 := 0#32
  ![v202.toNat, 3, v212.toNat, 0, 0]
def k1_off8 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c4_i32 : BitVec 32 := 4#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_357 : BitVec 32 := 0#32
  let c0_i32_358 : BitVec 32 := 0#32
  ![v202.toNat, 4, v212.toNat, 0, 0]
def k1_off9 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c5_i32 : BitVec 32 := 5#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_370 : BitVec 32 := 0#32
  let c0_i32_371 : BitVec 32 := 0#32
  ![v202.toNat, 5, v212.toNat, 0, 0]
def k1_off10 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c6_i32 : BitVec 32 := 6#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_383 : BitVec 32 := 0#32
  let c0_i32_384 : BitVec 32 := 0#32
  ![v202.toNat, 6, v212.toNat, 0, 0]
def k1_off11 (i : grid1.Coords) (k1_t2 : Fin k1_t2_loop.trips) (c0_i32_268 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let v176 : BitVec 32 := Scalar.addi v175 c0_i32_268
  let v185 : BitVec 32 := Scalar.addi v2 v176
  let c0_i32_285 : BitVec 32 := 0#32
  let v187 : BitVec 1 := Scalar.cmpi .sgt v185 c0_i32_285
  let v188 : BitVec 32 := Scalar.extui v187
  let c0_i32_286 : BitVec 32 := 0#32
  let v189 : BitVec 1 := Scalar.cmpi .slt v185 c0_i32_286
  let v190 : BitVec 32 := Scalar.extui v189
  let v191 : BitVec 32 := Scalar.subi v188 v190
  let c128_i32_284 : BitVec 32 := 128#32
  let c0_i32_287 : BitVec 32 := 0#32
  let v192 : BitVec 1 := Scalar.cmpi .sgt c128_i32_284 c0_i32_287
  let v193 : BitVec 32 := Scalar.extui v192
  let c0_i32_288 : BitVec 32 := 0#32
  let v194 : BitVec 1 := Scalar.cmpi .slt c128_i32_284 c0_i32_288
  let v195 : BitVec 32 := Scalar.extui v194
  let v196 : BitVec 32 := Scalar.subi v193 v195
  let v197 : BitVec 1 := Scalar.cmpi .ne v191 v196
  let v198 : BitVec 32 := Scalar.remsi v185 c128_i32_284
  let c0_i32_289 : BitVec 32 := 0#32
  let v199 : BitVec 1 := Scalar.cmpi .ne v198 c0_i32_289
  let v200 : BitVec 1 := Scalar.andi v197 v199
  let v186 : BitVec 32 := Scalar.divsi v185 c128_i32_284
  let c1_i32_290 : BitVec 32 := 1#32
  let v201 : BitVec 32 := Scalar.subi v186 c1_i32_290
  let v202 : BitVec 32 := Scalar.select v200 v201 v186
  let c7_i32 : BitVec 32 := 7#32
  let c128_i32_291 : BitVec 32 := 128#32
  let c0_i32_292 : BitVec 32 := 0#32
  let v203 : BitVec 1 := Scalar.cmpi .eq c128_i32_291 c0_i32_292
  let c1_i32_293 : BitVec 32 := 1#32
  let v204 : BitVec 32 := Scalar.select v203 c1_i32_293 c128_i32_291
  let v205 : BitVec 32 := Scalar.remsi v185 v204
  let c0_i32_295 : BitVec 32 := 0#32
  let v207 : BitVec 1 := Scalar.cmpi .slt v205 c0_i32_295
  let c0_i32_296 : BitVec 32 := 0#32
  let v208 : BitVec 1 := Scalar.cmpi .slt v204 c0_i32_296
  let v209 : BitVec 1 := Scalar.xori v207 v208
  let c0_i32_294 : BitVec 32 := 0#32
  let v206 : BitVec 1 := Scalar.cmpi .ne v205 c0_i32_294
  let v210 : BitVec 1 := Scalar.andi v209 v206
  let v211 : BitVec 32 := Scalar.addi v205 v204
  let v212 : BitVec 32 := Scalar.select v210 v211 v205
  let c0_i32_396 : BitVec 32 := 0#32
  let c0_i32_397 : BitVec 32 := 0#32
  ![v202.toNat, 7, v212.toNat, 0, 0]
def k1_cond2 (k1_t2 : Fin k1_t2_loop.trips) : BitVec 1 :=
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let c0_i32_268 : BitVec 32 := 0#32
  let v176 : BitVec 32 := Scalar.addi v175 c0_i32_268
  let c2_i32_404 : BitVec 32 := 2#32
  let v293 : BitVec 32 := Scalar.addi v176 c2_i32_404
  let c104_i32_405 : BitVec 32 := 104#32
  let v294 : BitVec 1 := Scalar.cmpi .slt v293 c104_i32_405
  let v295 : BitVec 32 := Scalar.extui v294
  let c0_i32_406 : BitVec 32 := 0#32
  let v296 : BitVec 1 := Scalar.cmpi .ne v295 c0_i32_406
  v296

def k1_off12 (k1_t2 : Fin k1_t2_loop.trips) : Fin 1 → Nat :=
  let c0_i32_15 : BitVec 32 := 0#32
  let c1_i32_16 : BitVec 32 := 1#32
  let arg13 : BitVec 32 := Scf.iv c0_i32_15 c1_i32_16 k1_t2
  let c2_i32_267 : BitVec 32 := 2#32
  let v175 : BitVec 32 := Scalar.muli arg13 c2_i32_267
  let c0_i32_268 : BitVec 32 := 0#32
  let v176 : BitVec 32 := Scalar.addi v175 c0_i32_268
  let c2_i32_552 : BitVec 32 := 2#32
  let v419 : BitVec 32 := Scalar.addi v176 c2_i32_552
  let c128_i32_553 : BitVec 32 := 128#32
  let v420 : BitVec 32 := Scalar.muli v419 c128_i32_553
  ![v420.toNat]
@[reducible] def k1_t4_loop : Scf.Loop 32 :=
  let c0_i32_420 : BitVec 32 := 0#32
  let c32_i32_421 : BitVec 32 := 32#32
  let v306 : BitVec 32 := Scalar.addi c0_i32_420 c32_i32_421
  let c1_i32_422 : BitVec 32 := 1#32
  ⟨c0_i32_420, v306, c1_i32_422⟩
def k1_off13 (k1_t2 : Fin k1_t2_loop.trips) (k1_t4 : Fin k1_t4_loop.trips) : Fin 1 → Nat :=
  let c0_i32_15 : BitVec 32 := 0#32
  let c1_i32_16 : BitVec 32 := 1#32
  let arg13 : BitVec 32 := Scf.iv c0_i32_15 c1_i32_16 k1_t2
  let c2_i32_407 : BitVec 32 := 2#32
  let v297 : BitVec 32 := Scalar.muli arg13 c2_i32_407
  let c1_i32_408 : BitVec 32 := 1#32
  let v298 : BitVec 32 := Scalar.addi v297 c1_i32_408
  let c128_i32_567 : BitVec 32 := 128#32
  let v450 : BitVec 32 := Scalar.muli v298 c128_i32_567
  let c0_i32_420 : BitVec 32 := 0#32
  let c1_i32_422 : BitVec 32 := 1#32
  let arg14 : BitVec 32 := Scf.iv c0_i32_420 c1_i32_422 k1_t4
  let c0_i32_553 : BitVec 32 := 0#32
  let v420 : BitVec 1 := Scalar.cmpi .sgt arg14 c0_i32_553
  let v421 : BitVec 32 := Scalar.extui v420
  let c0_i32_554 : BitVec 32 := 0#32
  let v422 : BitVec 1 := Scalar.cmpi .slt arg14 c0_i32_554
  let v423 : BitVec 32 := Scalar.extui v422
  let v424 : BitVec 32 := Scalar.subi v421 v423
  let c4_i32_552 : BitVec 32 := 4#32
  let c0_i32_555 : BitVec 32 := 0#32
  let v425 : BitVec 1 := Scalar.cmpi .sgt c4_i32_552 c0_i32_555
  let v426 : BitVec 32 := Scalar.extui v425
  let c0_i32_556 : BitVec 32 := 0#32
  let v427 : BitVec 1 := Scalar.cmpi .slt c4_i32_552 c0_i32_556
  let v428 : BitVec 32 := Scalar.extui v427
  let v429 : BitVec 32 := Scalar.subi v426 v428
  let v430 : BitVec 1 := Scalar.cmpi .ne v424 v429
  let v431 : BitVec 32 := Scalar.remsi arg14 c4_i32_552
  let c0_i32_557 : BitVec 32 := 0#32
  let v432 : BitVec 1 := Scalar.cmpi .ne v431 c0_i32_557
  let v433 : BitVec 1 := Scalar.andi v430 v432
  let v419 : BitVec 32 := Scalar.divsi arg14 c4_i32_552
  let c1_i32_558 : BitVec 32 := 1#32
  let v434 : BitVec 32 := Scalar.subi v419 c1_i32_558
  let v435 : BitVec 32 := Scalar.select v433 v434 v419
  let c16_i32_568 : BitVec 32 := 16#32
  let v451 : BitVec 32 := Scalar.muli v435 c16_i32_568
  let v452 : BitVec 32 := Scalar.addi v450 v451
  let v453 : Index := Scalar.indexCast v452
  ![v453.toNat]

def k1_chk33 (v449 : IVec S16 32) (v465 : IVec S16 32) : Prop :=
  (∀ a x, ((![v449, v465] : Fin 2 → IVec S16 32) a x).toNat < S128x128.size a)
instance k1_chk33.dec : ∀ (v449 : IVec S16 32) (v465 : IVec S16 32), Decidable (k1_chk33 v449 v465) := fun v449 v465 => decidable_of_iff' _ (Iff.of_eq (k1_chk33.eq_1 v449 v465))
theorem k1_idx33_inb : ∀ (v449 : IVec S16 32) (v465 : IVec S16 32) (k1_hw33 : k1_chk33 v449 v465), ∀ a x, ((![v449, v465] : Fin 2 → IVec S16 32) a x).toNat < S128x128.size a := fun v449 v465 k1_hw33 => k1_hw33

def k1_chk34 (v449 : IVec S16 32) (v464 : IVec S16 32) : Prop :=
  (∀ a x, ((![v464, v449] : Fin 2 → IVec S16 32) a x).toNat < S64x128.size a)
instance k1_chk34.dec : ∀ (v449 : IVec S16 32) (v464 : IVec S16 32), Decidable (k1_chk34 v449 v464) := fun v449 v464 => decidable_of_iff' _ (Iff.of_eq (k1_chk34.eq_1 v449 v464))
theorem k1_idx34_inb : ∀ (v449 : IVec S16 32) (v464 : IVec S16 32) (k1_hw34 : k1_chk34 v449 v464), ∀ a x, ((![v464, v449] : Fin 2 → IVec S16 32) a x).toNat < S64x128.size a := fun v449 v464 k1_hw34 => k1_hw34

def k1_chk35 (v449 : IVec S16 32) (v477 : IVec S16 32) : Prop :=
  (∀ a x, ((![v449, v477] : Fin 2 → IVec S16 32) a x).toNat < S128x128.size a)
instance k1_chk35.dec : ∀ (v449 : IVec S16 32) (v477 : IVec S16 32), Decidable (k1_chk35 v449 v477) := fun v449 v477 => decidable_of_iff' _ (Iff.of_eq (k1_chk35.eq_1 v449 v477))
theorem k1_idx35_inb : ∀ (v449 : IVec S16 32) (v477 : IVec S16 32) (k1_hw35 : k1_chk35 v449 v477), ∀ a x, ((![v449, v477] : Fin 2 → IVec S16 32) a x).toNat < S128x128.size a := fun v449 v477 k1_hw35 => k1_hw35

def k1_chk36 (v449 : IVec S16 32) (v476 : IVec S16 32) : Prop :=
  (∀ a x, ((![v476, v449] : Fin 2 → IVec S16 32) a x).toNat < S64x128.size a)
instance k1_chk36.dec : ∀ (v449 : IVec S16 32) (v476 : IVec S16 32), Decidable (k1_chk36 v449 v476) := fun v449 v476 => decidable_of_iff' _ (Iff.of_eq (k1_chk36.eq_1 v449 v476))
theorem k1_idx36_inb : ∀ (v449 : IVec S16 32) (v476 : IVec S16 32) (k1_hw36 : k1_chk36 v449 v476), ∀ a x, ((![v476, v449] : Fin 2 → IVec S16 32) a x).toNat < S64x128.size a := fun v449 v476 k1_hw36 => k1_hw36

def k1_chk37 (v449 : IVec S16 32) (v489 : IVec S16 32) : Prop :=
  (∀ a x, ((![v449, v489] : Fin 2 → IVec S16 32) a x).toNat < S128x128.size a)
instance k1_chk37.dec : ∀ (v449 : IVec S16 32) (v489 : IVec S16 32), Decidable (k1_chk37 v449 v489) := fun v449 v489 => decidable_of_iff' _ (Iff.of_eq (k1_chk37.eq_1 v449 v489))
theorem k1_idx37_inb : ∀ (v449 : IVec S16 32) (v489 : IVec S16 32) (k1_hw37 : k1_chk37 v449 v489), ∀ a x, ((![v449, v489] : Fin 2 → IVec S16 32) a x).toNat < S128x128.size a := fun v449 v489 k1_hw37 => k1_hw37

def k1_chk38 (v449 : IVec S16 32) (v488 : IVec S16 32) : Prop :=
  (∀ a x, ((![v488, v449] : Fin 2 → IVec S16 32) a x).toNat < S64x128.size a)
instance k1_chk38.dec : ∀ (v449 : IVec S16 32) (v488 : IVec S16 32), Decidable (k1_chk38 v449 v488) := fun v449 v488 => decidable_of_iff' _ (Iff.of_eq (k1_chk38.eq_1 v449 v488))
theorem k1_idx38_inb : ∀ (v449 : IVec S16 32) (v488 : IVec S16 32) (k1_hw38 : k1_chk38 v449 v488), ∀ a x, ((![v488, v449] : Fin 2 → IVec S16 32) a x).toNat < S64x128.size a := fun v449 v488 k1_hw38 => k1_hw38

def k1_chk39 (v449 : IVec S16 32) (v501 : IVec S16 32) : Prop :=
  (∀ a x, ((![v449, v501] : Fin 2 → IVec S16 32) a x).toNat < S128x128.size a)
instance k1_chk39.dec : ∀ (v449 : IVec S16 32) (v501 : IVec S16 32), Decidable (k1_chk39 v449 v501) := fun v449 v501 => decidable_of_iff' _ (Iff.of_eq (k1_chk39.eq_1 v449 v501))
theorem k1_idx39_inb : ∀ (v449 : IVec S16 32) (v501 : IVec S16 32) (k1_hw39 : k1_chk39 v449 v501), ∀ a x, ((![v449, v501] : Fin 2 → IVec S16 32) a x).toNat < S128x128.size a := fun v449 v501 k1_hw39 => k1_hw39

def k1_chk40 (v449 : IVec S16 32) (v500 : IVec S16 32) : Prop :=
  (∀ a x, ((![v500, v449] : Fin 2 → IVec S16 32) a x).toNat < S64x128.size a)
instance k1_chk40.dec : ∀ (v449 : IVec S16 32) (v500 : IVec S16 32), Decidable (k1_chk40 v449 v500) := fun v449 v500 => decidable_of_iff' _ (Iff.of_eq (k1_chk40.eq_1 v449 v500))
theorem k1_idx40_inb : ∀ (v449 : IVec S16 32) (v500 : IVec S16 32) (k1_hw40 : k1_chk40 v449 v500), ∀ a x, ((![v500, v449] : Fin 2 → IVec S16 32) a x).toNat < S64x128.size a := fun v449 v500 k1_hw40 => k1_hw40

def k1_chk41 (v449 : IVec S16 32) (v513 : IVec S16 32) : Prop :=
  (∀ a x, ((![v449, v513] : Fin 2 → IVec S16 32) a x).toNat < S128x128.size a)
instance k1_chk41.dec : ∀ (v449 : IVec S16 32) (v513 : IVec S16 32), Decidable (k1_chk41 v449 v513) := fun v449 v513 => decidable_of_iff' _ (Iff.of_eq (k1_chk41.eq_1 v449 v513))
theorem k1_idx41_inb : ∀ (v449 : IVec S16 32) (v513 : IVec S16 32) (k1_hw41 : k1_chk41 v449 v513), ∀ a x, ((![v449, v513] : Fin 2 → IVec S16 32) a x).toNat < S128x128.size a := fun v449 v513 k1_hw41 => k1_hw41

def k1_chk42 (v449 : IVec S16 32) (v512 : IVec S16 32) : Prop :=
  (∀ a x, ((![v512, v449] : Fin 2 → IVec S16 32) a x).toNat < S64x128.size a)
instance k1_chk42.dec : ∀ (v449 : IVec S16 32) (v512 : IVec S16 32), Decidable (k1_chk42 v449 v512) := fun v449 v512 => decidable_of_iff' _ (Iff.of_eq (k1_chk42.eq_1 v449 v512))
theorem k1_idx42_inb : ∀ (v449 : IVec S16 32) (v512 : IVec S16 32) (k1_hw42 : k1_chk42 v449 v512), ∀ a x, ((![v512, v449] : Fin 2 → IVec S16 32) a x).toNat < S64x128.size a := fun v449 v512 k1_hw42 => k1_hw42

def k1_chk43 (v449 : IVec S16 32) (v525 : IVec S16 32) : Prop :=
  (∀ a x, ((![v449, v525] : Fin 2 → IVec S16 32) a x).toNat < S128x128.size a)
instance k1_chk43.dec : ∀ (v449 : IVec S16 32) (v525 : IVec S16 32), Decidable (k1_chk43 v449 v525) := fun v449 v525 => decidable_of_iff' _ (Iff.of_eq (k1_chk43.eq_1 v449 v525))
theorem k1_idx43_inb : ∀ (v449 : IVec S16 32) (v525 : IVec S16 32) (k1_hw43 : k1_chk43 v449 v525), ∀ a x, ((![v449, v525] : Fin 2 → IVec S16 32) a x).toNat < S128x128.size a := fun v449 v525 k1_hw43 => k1_hw43

def k1_chk44 (v449 : IVec S16 32) (v524 : IVec S16 32) : Prop :=
  (∀ a x, ((![v524, v449] : Fin 2 → IVec S16 32) a x).toNat < S64x128.size a)
instance k1_chk44.dec : ∀ (v449 : IVec S16 32) (v524 : IVec S16 32), Decidable (k1_chk44 v449 v524) := fun v449 v524 => decidable_of_iff' _ (Iff.of_eq (k1_chk44.eq_1 v449 v524))
theorem k1_idx44_inb : ∀ (v449 : IVec S16 32) (v524 : IVec S16 32) (k1_hw44 : k1_chk44 v449 v524), ∀ a x, ((![v524, v449] : Fin 2 → IVec S16 32) a x).toNat < S64x128.size a := fun v449 v524 k1_hw44 => k1_hw44

def k1_chk45 (v449 : IVec S16 32) (v537 : IVec S16 32) : Prop :=
  (∀ a x, ((![v449, v537] : Fin 2 → IVec S16 32) a x).toNat < S128x128.size a)
instance k1_chk45.dec : ∀ (v449 : IVec S16 32) (v537 : IVec S16 32), Decidable (k1_chk45 v449 v537) := fun v449 v537 => decidable_of_iff' _ (Iff.of_eq (k1_chk45.eq_1 v449 v537))
theorem k1_idx45_inb : ∀ (v449 : IVec S16 32) (v537 : IVec S16 32) (k1_hw45 : k1_chk45 v449 v537), ∀ a x, ((![v449, v537] : Fin 2 → IVec S16 32) a x).toNat < S128x128.size a := fun v449 v537 k1_hw45 => k1_hw45

def k1_chk46 (v449 : IVec S16 32) (v536 : IVec S16 32) : Prop :=
  (∀ a x, ((![v536, v449] : Fin 2 → IVec S16 32) a x).toNat < S64x128.size a)
instance k1_chk46.dec : ∀ (v449 : IVec S16 32) (v536 : IVec S16 32), Decidable (k1_chk46 v449 v536) := fun v449 v536 => decidable_of_iff' _ (Iff.of_eq (k1_chk46.eq_1 v449 v536))
theorem k1_idx46_inb : ∀ (v449 : IVec S16 32) (v536 : IVec S16 32) (k1_hw46 : k1_chk46 v449 v536), ∀ a x, ((![v536, v449] : Fin 2 → IVec S16 32) a x).toNat < S64x128.size a := fun v449 v536 k1_hw46 => k1_hw46

def k1_chk47 (v449 : IVec S16 32) (v549 : IVec S16 32) : Prop :=
  (∀ a x, ((![v449, v549] : Fin 2 → IVec S16 32) a x).toNat < S128x128.size a)
instance k1_chk47.dec : ∀ (v449 : IVec S16 32) (v549 : IVec S16 32), Decidable (k1_chk47 v449 v549) := fun v449 v549 => decidable_of_iff' _ (Iff.of_eq (k1_chk47.eq_1 v449 v549))
theorem k1_idx47_inb : ∀ (v449 : IVec S16 32) (v549 : IVec S16 32) (k1_hw47 : k1_chk47 v449 v549), ∀ a x, ((![v449, v549] : Fin 2 → IVec S16 32) a x).toNat < S128x128.size a := fun v449 v549 k1_hw47 => k1_hw47

def k1_chk48 (v449 : IVec S16 32) (v548 : IVec S16 32) : Prop :=
  (∀ a x, ((![v548, v449] : Fin 2 → IVec S16 32) a x).toNat < S64x128.size a)
instance k1_chk48.dec : ∀ (v449 : IVec S16 32) (v548 : IVec S16 32), Decidable (k1_chk48 v449 v548) := fun v449 v548 => decidable_of_iff' _ (Iff.of_eq (k1_chk48.eq_1 v449 v548))
theorem k1_idx48_inb : ∀ (v449 : IVec S16 32) (v548 : IVec S16 32) (k1_hw48 : k1_chk48 v449 v548), ∀ a x, ((![v548, v449] : Fin 2 → IVec S16 32) a x).toNat < S64x128.size a := fun v449 v548 k1_hw48 => k1_hw48

def k1_chk49 (v449 : IVec S16 32) (v561 : IVec S16 32) : Prop :=
  (∀ a x, ((![v449, v561] : Fin 2 → IVec S16 32) a x).toNat < S128x128.size a)
instance k1_chk49.dec : ∀ (v449 : IVec S16 32) (v561 : IVec S16 32), Decidable (k1_chk49 v449 v561) := fun v449 v561 => decidable_of_iff' _ (Iff.of_eq (k1_chk49.eq_1 v449 v561))
theorem k1_idx49_inb : ∀ (v449 : IVec S16 32) (v561 : IVec S16 32) (k1_hw49 : k1_chk49 v449 v561), ∀ a x, ((![v449, v561] : Fin 2 → IVec S16 32) a x).toNat < S128x128.size a := fun v449 v561 k1_hw49 => k1_hw49

def k1_chk50 (v449 : IVec S16 32) (v560 : IVec S16 32) : Prop :=
  (∀ a x, ((![v560, v449] : Fin 2 → IVec S16 32) a x).toNat < S64x128.size a)
instance k1_chk50.dec : ∀ (v449 : IVec S16 32) (v560 : IVec S16 32), Decidable (k1_chk50 v449 v560) := fun v449 v560 => decidable_of_iff' _ (Iff.of_eq (k1_chk50.eq_1 v449 v560))
theorem k1_idx50_inb : ∀ (v449 : IVec S16 32) (v560 : IVec S16 32) (k1_hw50 : k1_chk50 v449 v560), ∀ a x, ((![v560, v449] : Fin 2 → IVec S16 32) a x).toNat < S64x128.size a := fun v449 v560 k1_hw50 => k1_hw50

def k1_chk51 (v449 : IVec S16 32) (v573 : IVec S16 32) : Prop :=
  (∀ a x, ((![v449, v573] : Fin 2 → IVec S16 32) a x).toNat < S128x128.size a)
instance k1_chk51.dec : ∀ (v449 : IVec S16 32) (v573 : IVec S16 32), Decidable (k1_chk51 v449 v573) := fun v449 v573 => decidable_of_iff' _ (Iff.of_eq (k1_chk51.eq_1 v449 v573))
theorem k1_idx51_inb : ∀ (v449 : IVec S16 32) (v573 : IVec S16 32) (k1_hw51 : k1_chk51 v449 v573), ∀ a x, ((![v449, v573] : Fin 2 → IVec S16 32) a x).toNat < S128x128.size a := fun v449 v573 k1_hw51 => k1_hw51

def k1_chk52 (v449 : IVec S16 32) (v572 : IVec S16 32) : Prop :=
  (∀ a x, ((![v572, v449] : Fin 2 → IVec S16 32) a x).toNat < S64x128.size a)
instance k1_chk52.dec : ∀ (v449 : IVec S16 32) (v572 : IVec S16 32), Decidable (k1_chk52 v449 v572) := fun v449 v572 => decidable_of_iff' _ (Iff.of_eq (k1_chk52.eq_1 v449 v572))
theorem k1_idx52_inb : ∀ (v449 : IVec S16 32) (v572 : IVec S16 32) (k1_hw52 : k1_chk52 v449 v572), ∀ a x, ((![v572, v449] : Fin 2 → IVec S16 32) a x).toNat < S64x128.size a := fun v449 v572 k1_hw52 => k1_hw52

def k1_chk53 (v449 : IVec S16 32) (v585 : IVec S16 32) : Prop :=
  (∀ a x, ((![v449, v585] : Fin 2 → IVec S16 32) a x).toNat < S128x128.size a)
instance k1_chk53.dec : ∀ (v449 : IVec S16 32) (v585 : IVec S16 32), Decidable (k1_chk53 v449 v585) := fun v449 v585 => decidable_of_iff' _ (Iff.of_eq (k1_chk53.eq_1 v449 v585))
theorem k1_idx53_inb : ∀ (v449 : IVec S16 32) (v585 : IVec S16 32) (k1_hw53 : k1_chk53 v449 v585), ∀ a x, ((![v449, v585] : Fin 2 → IVec S16 32) a x).toNat < S128x128.size a := fun v449 v585 k1_hw53 => k1_hw53

def k1_chk54 (v449 : IVec S16 32) (v584 : IVec S16 32) : Prop :=
  (∀ a x, ((![v584, v449] : Fin 2 → IVec S16 32) a x).toNat < S64x128.size a)
instance k1_chk54.dec : ∀ (v449 : IVec S16 32) (v584 : IVec S16 32), Decidable (k1_chk54 v449 v584) := fun v449 v584 => decidable_of_iff' _ (Iff.of_eq (k1_chk54.eq_1 v449 v584))
theorem k1_idx54_inb : ∀ (v449 : IVec S16 32) (v584 : IVec S16 32) (k1_hw54 : k1_chk54 v449 v584), ∀ a x, ((![v584, v449] : Fin 2 → IVec S16 32) a x).toNat < S64x128.size a := fun v449 v584 k1_hw54 => k1_hw54

def k1_chk55 (v449 : IVec S16 32) (v597 : IVec S16 32) : Prop :=
  (∀ a x, ((![v449, v597] : Fin 2 → IVec S16 32) a x).toNat < S128x128.size a)
instance k1_chk55.dec : ∀ (v449 : IVec S16 32) (v597 : IVec S16 32), Decidable (k1_chk55 v449 v597) := fun v449 v597 => decidable_of_iff' _ (Iff.of_eq (k1_chk55.eq_1 v449 v597))
theorem k1_idx55_inb : ∀ (v449 : IVec S16 32) (v597 : IVec S16 32) (k1_hw55 : k1_chk55 v449 v597), ∀ a x, ((![v449, v597] : Fin 2 → IVec S16 32) a x).toNat < S128x128.size a := fun v449 v597 k1_hw55 => k1_hw55

def k1_chk56 (v449 : IVec S16 32) (v596 : IVec S16 32) : Prop :=
  (∀ a x, ((![v596, v449] : Fin 2 → IVec S16 32) a x).toNat < S64x128.size a)
instance k1_chk56.dec : ∀ (v449 : IVec S16 32) (v596 : IVec S16 32), Decidable (k1_chk56 v449 v596) := fun v449 v596 => decidable_of_iff' _ (Iff.of_eq (k1_chk56.eq_1 v449 v596))
theorem k1_idx56_inb : ∀ (v449 : IVec S16 32) (v596 : IVec S16 32) (k1_hw56 : k1_chk56 v449 v596), ∀ a x, ((![v596, v449] : Fin 2 → IVec S16 32) a x).toNat < S64x128.size a := fun v449 v596 k1_hw56 => k1_hw56

def k1_chk57 (v449 : IVec S16 32) (v609 : IVec S16 32) : Prop :=
  (∀ a x, ((![v449, v609] : Fin 2 → IVec S16 32) a x).toNat < S128x128.size a)
instance k1_chk57.dec : ∀ (v449 : IVec S16 32) (v609 : IVec S16 32), Decidable (k1_chk57 v449 v609) := fun v449 v609 => decidable_of_iff' _ (Iff.of_eq (k1_chk57.eq_1 v449 v609))
theorem k1_idx57_inb : ∀ (v449 : IVec S16 32) (v609 : IVec S16 32) (k1_hw57 : k1_chk57 v449 v609), ∀ a x, ((![v449, v609] : Fin 2 → IVec S16 32) a x).toNat < S128x128.size a := fun v449 v609 k1_hw57 => k1_hw57

def k1_chk58 (v449 : IVec S16 32) (v608 : IVec S16 32) : Prop :=
  (∀ a x, ((![v608, v449] : Fin 2 → IVec S16 32) a x).toNat < S64x128.size a)
instance k1_chk58.dec : ∀ (v449 : IVec S16 32) (v608 : IVec S16 32), Decidable (k1_chk58 v449 v608) := fun v449 v608 => decidable_of_iff' _ (Iff.of_eq (k1_chk58.eq_1 v449 v608))
theorem k1_idx58_inb : ∀ (v449 : IVec S16 32) (v608 : IVec S16 32) (k1_hw58 : k1_chk58 v449 v608), ∀ a x, ((![v608, v449] : Fin 2 → IVec S16 32) a x).toNat < S64x128.size a := fun v449 v608 k1_hw58 => k1_hw58

def k1_chk59 (v449 : IVec S16 32) (v621 : IVec S16 32) : Prop :=
  (∀ a x, ((![v449, v621] : Fin 2 → IVec S16 32) a x).toNat < S128x128.size a)
instance k1_chk59.dec : ∀ (v449 : IVec S16 32) (v621 : IVec S16 32), Decidable (k1_chk59 v449 v621) := fun v449 v621 => decidable_of_iff' _ (Iff.of_eq (k1_chk59.eq_1 v449 v621))
theorem k1_idx59_inb : ∀ (v449 : IVec S16 32) (v621 : IVec S16 32) (k1_hw59 : k1_chk59 v449 v621), ∀ a x, ((![v449, v621] : Fin 2 → IVec S16 32) a x).toNat < S128x128.size a := fun v449 v621 k1_hw59 => k1_hw59

def k1_chk60 (v449 : IVec S16 32) (v620 : IVec S16 32) : Prop :=
  (∀ a x, ((![v620, v449] : Fin 2 → IVec S16 32) a x).toNat < S64x128.size a)
instance k1_chk60.dec : ∀ (v449 : IVec S16 32) (v620 : IVec S16 32), Decidable (k1_chk60 v449 v620) := fun v449 v620 => decidable_of_iff' _ (Iff.of_eq (k1_chk60.eq_1 v449 v620))
theorem k1_idx60_inb : ∀ (v449 : IVec S16 32) (v620 : IVec S16 32) (k1_hw60 : k1_chk60 v449 v620), ∀ a x, ((![v620, v449] : Fin 2 → IVec S16 32) a x).toNat < S64x128.size a := fun v449 v620 k1_hw60 => k1_hw60

def k1_chk61 (v449 : IVec S16 32) (v633 : IVec S16 32) : Prop :=
  (∀ a x, ((![v449, v633] : Fin 2 → IVec S16 32) a x).toNat < S128x128.size a)
instance k1_chk61.dec : ∀ (v449 : IVec S16 32) (v633 : IVec S16 32), Decidable (k1_chk61 v449 v633) := fun v449 v633 => decidable_of_iff' _ (Iff.of_eq (k1_chk61.eq_1 v449 v633))
theorem k1_idx61_inb : ∀ (v449 : IVec S16 32) (v633 : IVec S16 32) (k1_hw61 : k1_chk61 v449 v633), ∀ a x, ((![v449, v633] : Fin 2 → IVec S16 32) a x).toNat < S128x128.size a := fun v449 v633 k1_hw61 => k1_hw61

def k1_chk62 (v449 : IVec S16 32) (v632 : IVec S16 32) : Prop :=
  (∀ a x, ((![v632, v449] : Fin 2 → IVec S16 32) a x).toNat < S64x128.size a)
instance k1_chk62.dec : ∀ (v449 : IVec S16 32) (v632 : IVec S16 32), Decidable (k1_chk62 v449 v632) := fun v449 v632 => decidable_of_iff' _ (Iff.of_eq (k1_chk62.eq_1 v449 v632))
theorem k1_idx62_inb : ∀ (v449 : IVec S16 32) (v632 : IVec S16 32) (k1_hw62 : k1_chk62 v449 v632), ∀ a x, ((![v632, v449] : Fin 2 → IVec S16 32) a x).toNat < S64x128.size a := fun v449 v632 k1_hw62 => k1_hw62

def k1_chk63 (v449 : IVec S16 32) (v645 : IVec S16 32) : Prop :=
  (∀ a x, ((![v449, v645] : Fin 2 → IVec S16 32) a x).toNat < S128x128.size a)
instance k1_chk63.dec : ∀ (v449 : IVec S16 32) (v645 : IVec S16 32), Decidable (k1_chk63 v449 v645) := fun v449 v645 => decidable_of_iff' _ (Iff.of_eq (k1_chk63.eq_1 v449 v645))
theorem k1_idx63_inb : ∀ (v449 : IVec S16 32) (v645 : IVec S16 32) (k1_hw63 : k1_chk63 v449 v645), ∀ a x, ((![v449, v645] : Fin 2 → IVec S16 32) a x).toNat < S128x128.size a := fun v449 v645 k1_hw63 => k1_hw63

def k1_chk64 (v449 : IVec S16 32) (v644 : IVec S16 32) : Prop :=
  (∀ a x, ((![v644, v449] : Fin 2 → IVec S16 32) a x).toNat < S64x128.size a)
instance k1_chk64.dec : ∀ (v449 : IVec S16 32) (v644 : IVec S16 32), Decidable (k1_chk64 v449 v644) := fun v449 v644 => decidable_of_iff' _ (Iff.of_eq (k1_chk64.eq_1 v449 v644))
theorem k1_idx64_inb : ∀ (v449 : IVec S16 32) (v644 : IVec S16 32) (k1_hw64 : k1_chk64 v449 v644), ∀ a x, ((![v644, v449] : Fin 2 → IVec S16 32) a x).toNat < S64x128.size a := fun v449 v644 k1_hw64 => k1_hw64
def k1_cond4 (k1_t2 : Fin k1_t2_loop.trips) : BitVec 1 :=
  let c0_i32_15 : BitVec 32 := 0#32
  let c1_i32_16 : BitVec 32 := 1#32
  let arg13 : BitVec 32 := Scf.iv c0_i32_15 c1_i32_16 k1_t2
  let c2_i32_407 : BitVec 32 := 2#32
  let v297 : BitVec 32 := Scalar.muli arg13 c2_i32_407
  let c1_i32_408 : BitVec 32 := 1#32
  let v298 : BitVec 32 := Scalar.addi v297 c1_i32_408
  let c2_i32_549 : BitVec 32 := 2#32
  let v415 : BitVec 32 := Scalar.addi v298 c2_i32_549
  let c104_i32_550 : BitVec 32 := 104#32
  let v416 : BitVec 1 := Scalar.cmpi .slt v415 c104_i32_550
  let v417 : BitVec 32 := Scalar.extui v416
  let c0_i32_551 : BitVec 32 := 0#32
  let v418 : BitVec 1 := Scalar.cmpi .ne v417 c0_i32_551
  v418

def k1_off14 (k1_t2 : Fin k1_t2_loop.trips) : Fin 1 → Nat :=
  let c0_i32_15 : BitVec 32 := 0#32
  let c1_i32_16 : BitVec 32 := 1#32
  let arg13 : BitVec 32 := Scf.iv c0_i32_15 c1_i32_16 k1_t2
  let c2_i32_407 : BitVec 32 := 2#32
  let v297 : BitVec 32 := Scalar.muli arg13 c2_i32_407
  let c1_i32_408 : BitVec 32 := 1#32
  let v298 : BitVec 32 := Scalar.addi v297 c1_i32_408
  let c2_i32_552 : BitVec 32 := 2#32
  let v419 : BitVec 32 := Scalar.addi v298 c2_i32_552
  let c128_i32_553 : BitVec 32 := 128#32
  let v420 : BitVec 32 := Scalar.muli v419 c128_i32_553
  ![v420.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S16384x26_S26x16384_1_0 : S16384x26.Transposes [1, 0] S26x16384
  shapeCasts_S26x16384_S425984 : S26x16384.ShapeCasts S425984
  transposes_S1000000x64_S64x1000000_1_0 : S1000000x64.Transposes [1, 0] S64x1000000
  slices_S1000000x64_S64x64_999936_0 : S1000000x64.Slices ![999936, 0] S64x64
  transposes_S64x64_S64x64_1_0 : S64x64.Transposes [1, 0] S64x64
  iota_S16_d0_w32_scVector : S16.Iotas .scVector 32 [0]
  inb_S2x64x256_S1x64x256_0_0_0 : ∀ a, (![0, 0, 0] : Fin 3 → Nat) a + S1x64x256.size a ≤ S2x64x256.size a
  squeezes_S1x64x256_S64x256 : S1x64x256.Squeezes S64x256
  inb_S2x64x256_S1x64x256_1_0_0 : ∀ a, (![1, 0, 0] : Fin 3 → Nat) a + S1x64x256.size a ≤ S2x64x256.size a
  inb_S64x1000000_S64x256_0_0 : ∀ a, (![0, 0] : Fin 2 → Nat) a + S64x256.size a ≤ S64x1000000.size a
  inb_S2x128x128_S1x128x128_0_0_0 : ∀ a, (![0, 0, 0] : Fin 3 → Nat) a + S1x128x128.size a ≤ S2x128x128.size a
  squeezes_S1x128x128_S128x128 : S1x128x128.Squeezes S128x128
  inb_S500000x128_S128x128_0_0 : ∀ a, (![0, 0] : Fin 2 → Nat) a + S128x128.size a ≤ S500000x128.size a
  h_S64x256 : 0 < S64x256.numel
  h_S128x128 : 0 < S128x128.numel
  inb_S2x128x128_S1x128x128_1_0_0 : ∀ a, (![1, 0, 0] : Fin 3 → Nat) a + S1x128x128.size a ≤ S2x128x128.size a
  h_S64x64 : 0 < S64x64.numel
  h_S32x128 : 0 < S32x128.numel
  inb_S500000x128_S32x128_499968_0 : ∀ a, (![499968, 0] : Fin 2 → Nat) a + S32x128.size a ≤ S500000x128.size a
  h_S16 : 0 < S16.numel
  inb_S13312_S128_0 : ∀ a, (![0] : Fin 1 → Nat) a + S128.size a ≤ S13312.size a
  inb_S500000x128_S500000x128_0_0 : ∀ a, (![0, 0] : Fin 2 → Nat) a + S500000x128.size a ≤ S500000x128.size a
  gathers_S500000x128_S128x128 : S500000x128.Gathers 0 S128x128
  inb_S13312_S128_128 : ∀ a, (![128] : Fin 1 → Nat) a + S128.size a ≤ S13312.size a
  inb_S2x64x128_S1x64x128_0_0_0 : ∀ a, (![0, 0, 0] : Fin 3 → Nat) a + S1x64x128.size a ≤ S2x64x128.size a
  squeezes_S1x64x128_S64x128 : S1x64x128.Squeezes S64x128
  inb_S64x128_S8x128_0_0 : ∀ a, (![0, 0] : Fin 2 → Nat) a + S8x128.size a ≤ S64x128.size a
  inb_S26x8x128x8x128_S1x1x1x8x128_0_0_0_0_0 : ∀ a, (![0, 0, 0, 0, 0] : Fin 5 → Nat) a + S1x1x1x8x128.size a ≤ S26x8x128x8x128.size a
  squeezes_S1x1x1x8x128_S8x128 : S1x1x1x8x128.Squeezes S8x128
  inb_S64x128_S8x128_8_0 : ∀ a, (![8, 0] : Fin 2 → Nat) a + S8x128.size a ≤ S64x128.size a
  inb_S64x128_S8x128_16_0 : ∀ a, (![16, 0] : Fin 2 → Nat) a + S8x128.size a ≤ S64x128.size a
  inb_S64x128_S8x128_24_0 : ∀ a, (![24, 0] : Fin 2 → Nat) a + S8x128.size a ≤ S64x128.size a
  inb_S64x128_S8x128_32_0 : ∀ a, (![32, 0] : Fin 2 → Nat) a + S8x128.size a ≤ S64x128.size a
  inb_S64x128_S8x128_40_0 : ∀ a, (![40, 0] : Fin 2 → Nat) a + S8x128.size a ≤ S64x128.size a
  inb_S64x128_S8x128_48_0 : ∀ a, (![48, 0] : Fin 2 → Nat) a + S8x128.size a ≤ S64x128.size a
  inb_S64x128_S8x128_56_0 : ∀ a, (![56, 0] : Fin 2 → Nat) a + S8x128.size a ≤ S64x128.size a
  h_S64x128 : 0 < S64x128.numel
  inb_S2x64x128_S1x64x128_1_0_0 : ∀ a, (![1, 0, 0] : Fin 3 → Nat) a + S1x64x128.size a ≤ S2x64x128.size a
  transposes_S26x8x128x8x128_S128x128x26x8x8_2_4_0_1_3 : S26x8x128x8x128.Transposes [2, 4, 0, 1, 3] S128x128x26x8x8
  shapeCasts_S128x128x26x8x8_S16384x26x64 : S128x128x26x8x8.ShapeCasts S16384x26x64
  hcc0_scratch4 : 0 + S_.numel ≤ 11
  hcc0_scratch5 : 1 + S_.numel ≤ 11
  hcc0_scratch6 : 2 + S_.numel ≤ 11
  hcc0_scratch7 : 3 + S_.numel ≤ 11
  hcc0_scoped0 : 4 + S_.numel ≤ 11
  hcc0_scoped1 : 5 + S_.numel ≤ 11
  hcc1_scratch4 : 6 + S_.numel ≤ 11
  hcc1_scratch5 : 7 + S_.numel ≤ 11
  hcc1_scratch6 : 8 + S_.numel ≤ 11
  hcc1_scratch7 : 9 + S_.numel ≤ 11
  hcc1_scoped0 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S64x256.size a ≤ S64x1000000.size a
  k0_off2_inb : ∀ i : grid0.Coords, ∀ (k0_h2 : k0_cond2 i = 1#1), ∀ a, (k0_off2 i) a + S64x256.size a ≤ S64x1000000.size a
  k0_t1_ok : k0_t1_loop.OK
  k0_t2_ok : ∀ (i : grid0.Coords) (k0_t1 : Fin k0_t1_loop.trips), ∀ (k0_h6 : k0_cond6 i k0_t1 = 1#1), k0_t2_loop.OK
  k0_off3_inb : ∀ (i : grid0.Coords) (k0_t1 : Fin k0_t1_loop.trips), ∀ (k0_h7 : k0_cond7 i k0_t1 = 1#1), ∀ a, (k0_off3 i k0_t1) a + S128x128.size a ≤ S500000x128.size a
  k0_off4_inb : ∀ (i : grid0.Coords) (k0_t1 : Fin k0_t1_loop.trips), ∀ (k0_h8 : k0_cond8 i k0_t1 = 1#1), ∀ a, (k0_off4 i k0_t1) a + S64x256.size a ≤ S64x1000000.size a
  k0_t3_ok : ∀ (i : grid0.Coords) (k0_t1 : Fin k0_t1_loop.trips), ∀ (k0_h12 : k0_cond12 i k0_t1 = 1#1), k0_t3_loop.OK
  k0_off5_inb : ∀ (i : grid0.Coords) (k0_t1 : Fin k0_t1_loop.trips), ∀ (k0_h13 : k0_cond13 i k0_t1 = 1#1), ∀ a, (k0_off5 i k0_t1) a + S128x128.size a ≤ S500000x128.size a
  k0_off6_inb : ∀ (i : grid0.Coords) (k0_t1 : Fin k0_t1_loop.trips), ∀ (k0_h14 : k0_cond14 i k0_t1 = 1#1), ∀ a, (k0_off6 i k0_t1) a + S64x256.size a ≤ S64x1000000.size a
  k0_t4_ok : ∀ i : grid0.Coords, ∀ (k0_h17 : k0_cond17 i = 1#1), k0_t4_loop.OK
  hcore1 : grid1.bound 0 ≤ τ.nSC
  hsub1 : grid1.bound 1 ≤ τ.nSub
  k1_off1_inb : ∀ i : grid1.Coords, ∀ a, (k1_off1 i) a + S13312.size a ≤ S425984.size a
  k1_t1_ok : k1_t1_loop.OK
  k1_off2_inb : ∀ k1_t1 : Fin k1_t1_loop.trips, ∀ a, (k1_off2 k1_t1) a + S16.size a ≤ S13312.size a
  k1_t2_ok : k1_t2_loop.OK
  k1_t3_ok : k1_t3_loop.OK
  k1_off3_inb : ∀ (k1_t2 : Fin k1_t2_loop.trips) (k1_t3 : Fin k1_t3_loop.trips), ∀ a, (k1_off3 k1_t2 k1_t3) a + S16.size a ≤ S13312.size a
  k1_off4_inb : ∀ (i : grid1.Coords) (k1_t2 : Fin k1_t2_loop.trips), ∀ (r : Fin 2), ∀ a, (k1_off4 i k1_t2 (BitVec.ofNat 32 r.val)) a + S1x1x1x8x128.size a ≤ S26x8x128x8x128.size a
  k1_off5_inb : ∀ (i : grid1.Coords) (k1_t2 : Fin k1_t2_loop.trips), ∀ (r : Fin 2), ∀ a, (k1_off5 i k1_t2 (BitVec.ofNat 32 r.val)) a + S1x1x1x8x128.size a ≤ S26x8x128x8x128.size a
  k1_off6_inb : ∀ (i : grid1.Coords) (k1_t2 : Fin k1_t2_loop.trips), ∀ (r : Fin 2), ∀ a, (k1_off6 i k1_t2 (BitVec.ofNat 32 r.val)) a + S1x1x1x8x128.size a ≤ S26x8x128x8x128.size a
  k1_off7_inb : ∀ (i : grid1.Coords) (k1_t2 : Fin k1_t2_loop.trips), ∀ (r : Fin 2), ∀ a, (k1_off7 i k1_t2 (BitVec.ofNat 32 r.val)) a + S1x1x1x8x128.size a ≤ S26x8x128x8x128.size a
  k1_off8_inb : ∀ (i : grid1.Coords) (k1_t2 : Fin k1_t2_loop.trips), ∀ (r : Fin 2), ∀ a, (k1_off8 i k1_t2 (BitVec.ofNat 32 r.val)) a + S1x1x1x8x128.size a ≤ S26x8x128x8x128.size a
  k1_off9_inb : ∀ (i : grid1.Coords) (k1_t2 : Fin k1_t2_loop.trips), ∀ (r : Fin 2), ∀ a, (k1_off9 i k1_t2 (BitVec.ofNat 32 r.val)) a + S1x1x1x8x128.size a ≤ S26x8x128x8x128.size a
  k1_off10_inb : ∀ (i : grid1.Coords) (k1_t2 : Fin k1_t2_loop.trips), ∀ (r : Fin 2), ∀ a, (k1_off10 i k1_t2 (BitVec.ofNat 32 r.val)) a + S1x1x1x8x128.size a ≤ S26x8x128x8x128.size a
  k1_off11_inb : ∀ (i : grid1.Coords) (k1_t2 : Fin k1_t2_loop.trips), ∀ (r : Fin 2), ∀ a, (k1_off11 i k1_t2 (BitVec.ofNat 32 r.val)) a + S1x1x1x8x128.size a ≤ S26x8x128x8x128.size a
  k1_off12_inb : ∀ k1_t2 : Fin k1_t2_loop.trips, ∀ (k1_h2 : k1_cond2 k1_t2 = 1#1), ∀ a, (k1_off12 k1_t2) a + S128.size a ≤ S13312.size a
  k1_t4_ok : k1_t4_loop.OK
  k1_off13_inb : ∀ (k1_t2 : Fin k1_t2_loop.trips) (k1_t4 : Fin k1_t4_loop.trips), ∀ a, (k1_off13 k1_t2 k1_t4) a + S16.size a ≤ S13312.size a
  k1_off14_inb : ∀ k1_t2 : Fin k1_t2_loop.trips, ∀ (k1_h4 : k1_cond4 k1_t2 = 1#1), ∀ a, (k1_off14 k1_t2) a + S128.size a ≤ S13312.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1
abbrev cc1_scratch4 : DmaSems sig S_ := SemArray.consecutive 6 S_ hcc1_scratch4
abbrev cc1_scratch5 : DmaSems sig S_ := SemArray.consecutive 7 S_ hcc1_scratch5
abbrev cc1_scratch6 : DmaSems sig S_ := SemArray.consecutive 8 S_ hcc1_scratch6
abbrev cc1_scratch7 : DmaSems sig S_ := SemArray.consecutive 9 S_ hcc1_scratch7
abbrev cc1_scoped0 : DmaSems sig S_ := SemArray.consecutive 10 S_ hcc1_scoped0

class Facts : Prop extends Facts₀ where

variable [Facts]
-- ==== ReferenceIdeal.lean ====
abbrev S16384x26 : Shape := ⟨2, ![16384, 26]⟩
abbrev S1000000x64 : Shape := ⟨2, ![1000000, 64]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x64 : Shape := ⟨3, ![16384, 26, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S1000000x64, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S16384x26x1, .i32⟩
  | .hbm, ⟨10, _⟩ => ⟨S1, .i32⟩
  | .hbm, ⟨11, _⟩ => ⟨S_, .i32⟩
  | .hbm, ⟨12, _⟩ => ⟨S16384x26x1, .i32⟩
  | .hbm, ⟨13, _⟩ => ⟨S16384x26x1, .i1⟩
  | .hbm, ⟨14, _⟩ => ⟨S1x1x1, .i32⟩
  | .hbm, ⟨15, _⟩ => ⟨S16384x26x1, .i32⟩
  | .hbm, ⟨16, _⟩ => ⟨S16384x26x1, .i1⟩
  | .hbm, ⟨17, _⟩ => ⟨S16384x26x1, .i1⟩
  | .hbm, ⟨18, _⟩ => ⟨S_, .i1⟩
  | .hbm, ⟨19, _⟩ => ⟨S16384x26, .i1⟩
  | .hbm, ⟨20, _⟩ => ⟨S16384x26x64, .f32⟩
  | .hbm, ⟨21, _⟩ => ⟨S16384x26x64, .i1⟩
  | .hbm, ⟨22, _⟩ => ⟨S_, .f32⟩
  | .hbm, ⟨23, _⟩ => ⟨S16384x26x64, .f32⟩
  | .hbm, ⟨24, _⟩ => ⟨S16384x26x64, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x64_0_1 : S16384x26.BroadcastsInDim S16384x26x64 (![0, 1] : Fin 2 → Fin S16384x26x64.rank)
  bcast_S_S16384x26x64 : S_.BroadcastsInDim S16384x26x64 (![] : Fin 0 → Fin S16384x26x64.rank)
  gather_S1000000x64_S16384x26x1_S16384x26x64_2_0_n_n_0_2_164_wf : GatherDims.WF S1000000x64 S16384x26x1 S16384x26x64 [2] [0] [] [0] [] 2 ![1, 64]

variable [Facts₀]

def gather_S1000000x64_S16384x26x1_S16384x26x64_2_0_n_n_0_2_164 : GatherDims S1000000x64 S16384x26x1 S16384x26x64 where
  offsetDims := [2]
  collapsedSliceDims := [0]
  operandBatchingDims := []
  startIndicesBatchingDims := []
  startIndexMap := [0]
  indexVectorDim := 2
  sliceSizes := ![1, 64]
  wf := gather_S1000000x64_S16384x26x1_S16384x26x64_2_0_n_n_0_2_164_wf

class Facts : Prop extends Facts₀ where

variable [Facts]
-- ==== Proof.Spec.lean ====
/-
  The embedding lookup as ONE function of its two argument arrays, and the layouts the table and the
  indices pass through on the way: out[b, f, d] = table[ids[b, f], d] over ids : i32[16384, 26] and
  table : [1000000, 64].

  * the indices are read field-major as one flat list: entry f·16384 + b is ids[b, f];
  * the table is repacked two rows to a line: line r of the pair table holds rows 2r and 2r + 1 side by
    side, so entry (r, h·64 + d) is table[2r + h, d]; row w of the table is line w / 2, half w % 2;
  * the gathered rows are written feature-major in blocks of 128 batch entries:
    out5[f, d8, bc, dd, r] = table[ids[bc·128 + r, f], d8·8 + dd];
  * the result is that array with its axes reordered to (bc, r, f, d8, dd) and read as [16384, 26, 64].
  Every function here is data movement only: it is stated for any element type.
-/
import Idealize.ShloMosaic.Lib.ValueIdx
import Idealize.ShloMosaic.PureOps

noncomputable section

namespace Cert.Lookup

open Idealize.ShloMosaic Idealize.ShloMosaic.ValueIdx

abbrev SIds : Shape := ⟨2, ![16384, 26]⟩
abbrev STab : Shape := ⟨2, ![1000000, 64]⟩
abbrev SOut : Shape := ⟨3, ![16384, 26, 64]⟩
abbrev SFlat : Shape := ⟨1, ![425984]⟩
abbrev STabT : Shape := ⟨2, ![64, 1000000]⟩
abbrev STail : Shape := ⟨2, ![64, 64]⟩
abbrev SPairs : Shape := ⟨2, ![500000, 128]⟩
abbrev SOut5 : Shape := ⟨5, ![26, 8, 128, 8, 128]⟩

/-- The table row an index word names: the word read unsigned, kept inside the table (a word in
    0 … 999999 names itself). -/
def rowOf (w : BitVec 32) : Fin 1000000 := ⟨min w.toNat 999999, by omega⟩

theorem rowOf_val {w : BitVec 32} (h : w.toNat ≤ 999999) : (rowOf w).val = w.toNat := by
  show min w.toNat 999999 = w.toNat; omega

/-- The lookup: out[b, f, d] = table[ids[b, f], d]. -/
def lookup {α : Type} (ids : SIds.Idx → BitVec 32) (tab : STab.Idx → α) : SOut.Idx → α :=
  fun i => tab (ix2 (rowOf (ids (ix2 (i 0) (i 1)))) (i 2))

/-- The indices field-major, flat: entry n is ids[n % 16384, n / 16384]. -/
def flatIds (ids : SIds.Idx → BitVec 32) : SFlat.Idx → BitVec 32 :=
  fun n => ids (ix2 (⟨(n 0).val % 16384, Nat.mod_lt _ (by decide)⟩ : Fin 16384)
    (⟨(n 0).val / 16384, by have := (show (n 0).val < 425984 from (n 0).isLt); omega⟩ : Fin 26))

/-- The table transposed: entry (d, w) is table[w, d]. -/
def tabT {α : Type} (tab : STab.Idx → α) : STabT.Idx → α := fun j => tab (ix2 (j 1) (j 0))

/-- The table's last 64 rows transposed: entry (d, k) is table[999936 + k, d]. -/
def tailT {α : Type} (tab : STab.Idx → α) : STail.Idx → α :=
  fun j => tab (ix2 (⟨999936 + (j 1).val, by have := (show (j 1).val < 64 from (j 1).isLt); omega⟩ : Fin 1000000) (j 0))

/-- The pair table: entry (r, q) is table[2r + q / 64, q % 64]. -/
def pairs {α : Type} (tab : STab.Idx → α) : SPairs.Idx → α :=
  fun j => tab (ix2 (⟨2 * (j 0).val + (j 1).val / 64, by
      have := (show (j 0).val < 500000 from (j 0).isLt); have := (show (j 1).val < 128 from (j 1).isLt); omega⟩ : Fin 1000000)
    (⟨(j 1).val % 64, Nat.mod_lt _ (by decide)⟩ : Fin 64))

/-- The gathered rows, feature-major in blocks of 128 batch entries:
    entry (f, d8, bc, dd, r) is table[ids[bc·128 + r, f], d8·8 + dd]. -/
def out5 {α : Type} (ids : SIds.Idx → BitVec 32) (tab : STab.Idx → α) : SOut5.Idx → α :=
  fun j => tab (ix2 (rowOf (ids (ix2 (⟨(j 2).val * 128 + (j 4).val, by
        have := (show (j 2).val < 128 from (j 2).isLt); have := (show (j 4).val < 128 from (j 4).isLt); omega⟩ : Fin 16384) (j 0))))
    (⟨(j 1).val * 8 + (j 3).val, by
        have := (show (j 1).val < 8 from (j 1).isLt); have := (show (j 3).val < 8 from (j 3).isLt); omega⟩ : Fin 64))

end Cert.Lookup

end
-- ==== Proof.RefSide.lean ====
/-
  The reference's side of the embedding lookup, and the integer half of the precondition.

  * The precondition ends in a conjunction of two "all" reductions; its second says every index word w
    satisfies 0 ≤ w ≤ 999999 read signed, hence w read unsigned is at most 999999.
  * The reference computes, per (b, f): the word w = ids[b, f]; w' = w + 1000000 if w < 0, else w; the
    mask 0 ≤ w' ≤ 999999; the gather of one table row at the clamped w'; and the select of that row
    against a NaN splat under the mask.  Under the precondition w' = w, the mask is true, and the
    clamp is the identity, so the result is table[w, d].
-/
import proofs.«204055_g19524921328135_cont_8to1_763_20_alg».proof.Defs
import proofs.«204055_g19524921328135_cont_8to1_763_20_alg».proof.Proof.Gen.ReferenceIdeal
import proofs.«204055_g19524921328135_cont_8to1_763_20_alg».proof.Proof.Gen.Pre_input_domain
import proofs.«204055_g19524921328135_cont_8to1_763_20_alg».proof.Proof.Spec
import Idealize.ShloMosaic.Lib.ReduceAll
import Idealize.ShloMosaic.Lib.StableHlo.Run

noncomputable section

namespace Cert.RefSide

open Idealize.ShloMosaic Idealize.SL.Sem

/-- The scalar shape has one index. -/
instance : Subsingleton Cert.Pre_input_domain.S_.Idx := ⟨fun a b => funext fun d => d.elim0⟩

/-- A word that is nonnegative and at most 999999 read signed is at most 999999 read unsigned. -/
theorem toNat_le_of_signed {w : BitVec 32} (h0 : (0#32 : BitVec 32).toInt ≤ w.toInt)
    (h1 : w.toInt ≤ (999999#32 : BitVec 32).toInt) : w.toNat ≤ 999999 := by
  have e0 : (0#32 : BitVec 32).toInt = 0 := by decide
  have e1 : (999999#32 : BitVec 32).toInt = 999999 := by decide
  rw [e0] at h0; rw [e1] at h1
  have hlt : 2 * w.toNat < 2 ^ 32 := BitVec.toInt_pos_iff.1 h0
  rw [BitVec.toInt_eq_toNat_of_lt hlt] at h1
  omega

/-- the precondition's integer half, for any float instance: every index word, read unsigned, is at most 999999 -/
theorem ids_le {F : FTy → Type} [FloatOps F] [Cert.Pre_input_domain.Facts]
    (ids : IVec Cert.Pre_input_domain.S16384x26 32) (tab : FVec F Cert.Pre_input_domain.S1000000x64 .f32)
    (h : Cert.Pre_input_domain.fn (F := F) ids tab = fun _ => 1#1) : ∀ i, (ids i).toNat ≤ 999999 := by
  intro i
  have h0 := congrFun h ValueIdx.ix0
  dsimp only [Cert.Pre_input_domain.fn] at h0
  obtain ⟨-, h9⟩ := IntOp.andi_eq_one.1 h0
  have h8 := Host.reduce_andi_all _ _ _ _ _ h9 i
  obtain ⟨h5, h7⟩ := IntOp.andi_eq_one.1 h8
  exact toNat_le_of_signed (IntOp.cmpi_sge.1 h5) (IntOp.cmpi_sle.1 h7)

/-! ## Words and folds -/

/-- A word at most 999999 read unsigned reads the same signed. -/
theorem toInt_of_le {w : BitVec 32} (h : w.toNat ≤ 999999) : w.toInt = (w.toNat : Int) :=
  BitVec.toInt_eq_toNat_of_lt (by omega)

/-- Such a word is not negative: the signed "less than zero" test fails. -/
theorem slt_zero_of_le {w : BitVec 32} (h : w.toNat ≤ 999999) : IntOp.cmpi .slt w 0#32 = 0#1 := by
  apply ValueIdx.eq_zero_of_ne_one
  rw [IntOp.cmpi_slt, toInt_of_le h, show (0#32 : BitVec 32).toInt = 0 from by decide]
  omega

/-- Such a word passes the signed "at least zero" test. -/
theorem sge_zero_of_le {w : BitVec 32} (h : w.toNat ≤ 999999) : IntOp.cmpi .sge w 0#32 = 1#1 := by
  rw [IntOp.cmpi_sge, toInt_of_le h, show (0#32 : BitVec 32).toInt = 0 from by decide]
  omega

/-- Such a word passes the signed "at most 999999" test. -/
theorem sle_max_of_le {w : BitVec 32} (h : w.toNat ≤ 999999) : IntOp.cmpi .sle w 999999#32 = 1#1 := by
  rw [IntOp.cmpi_sle, toInt_of_le h, show (999999#32 : BitVec 32).toInt = 999999 from by decide]
  omega

/-- A left fold by "and" from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-- An "and" reduction from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

/-! ## The reference's run -/

section Run

open Cert.ReferenceIdeal Cert.ReferenceIdeal.Facts₀ Idealize.ShloMosaic.TcCoe Idealize.ShloMosaic.StableHlo

variable {F : FTy → Type} [FloatOps F] [Cert.ReferenceIdeal.Facts]

/-- The reference's operations in order: the body of the lookup function over the buffers of its one
    call, the select of the nested "where" in its place. -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg0) main_call0.v0 main_call0.v1 (cmpi .slt),
    TRef.nullary main_call0.c_0 (constantI S_ 32 1000000#32),
    TRef.unary main_call0.c_0 main_call0.v2 (broadcastInDim S16384x26 ![] bcast_S_S16384x26),
    TRef.binary (.of main_arg0) main_call0.v2 main_call0.v3 addi,
    TRef.ternary main_call0.v1 main_call0.v3 (.of main_arg0) main_call0.call0.v0 select,
    TRef.unary main_call0.call0.v0 main_call0.v5 (broadcastInDim S16384x26x1 ![0, 1] bcast_S16384x26_S16384x26x1_0_1),
    TRef.nullary main_call0.c_1 (constantI S1 32 999999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S1000000x64_S16384x26x1_S16384x26x64_2_0_n_n_0_2_164 x i),
    TRef.unary main_call0.v12 main_call0.v14 (broadcastInDim S16384x26x64 ![0, 1] bcast_S16384x26_S16384x26x64_0_1),
    TRef.nullary main_call0.cst (constant S_ .f32 0x7FC00000#32),
    TRef.unary main_call0.cst main_call0.v15 (broadcastInDim S16384x26x64 ![] bcast_S_S16384x26x64),
    TRef.ternary main_call0.v14 main_call0.v13 main_call0.v15 main_call0.v16 select ]

set_option maxRecDepth 1024 in
/-- The program is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of the reference terminates with each buffer at the operations' fold over the
    launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

/-! ## The result as one term of the arguments, and its value -/

section Value

open Cert.ReferenceIdeal Cert.ReferenceIdeal.Facts₀ Idealize.ShloMosaic.TcCoe Idealize.ShloMosaic.StableHlo
open Idealize.ShloMosaic.ValueIdx

variable {F : FTy → Type} [FloatOps F] [Cert.ReferenceIdeal.Facts]

local notation "G" => gather_S1000000x64_S16384x26x1_S16384x26x64_2_0_n_n_0_2_164

/-- The index words after the wrap: a negative word moved up by the table's height. -/
def wrapped (ids : IVec S16384x26 32) : IVec S16384x26 32 :=
  select (cmpi .slt ids (broadcastInDim S16384x26 ![] bcast_S_S16384x26 (constantI S_ 32 0#32)))
    (addi ids (broadcastInDim S16384x26 ![] bcast_S_S16384x26 (constantI S_ 32 1000000#32))) ids

/-- The start indices of the gather: the wrapped words with a trailing axis of one. -/
def starts (ids : IVec S16384x26 32) : IVec S16384x26x1 32 :=
  broadcastInDim S16384x26x1 ![0, 1] bcast_S16384x26_S16384x26x1_0_1 (wrapped ids)

/-- The mask: per (b, f), whether the wrapped word is inside the table. -/
def inRange (ids : IVec S16384x26 32) : IVec S16384x26 1 :=
  Host.reduce IntOp.andi
    (andi (cmpi .sge (starts ids) (broadcastInDim S16384x26x1 ![] bcast_S_S16384x26x1 (constantI S_ 32 0#32)))
      (cmpi .sle (starts ids) (broadcastInDim S16384x26x1 ![0, 1, 2] bcast_S1x1x1_S16384x26x1_0_1_2
        (broadcastInDim S1x1x1 ![2] bcast_S1_S1x1x1_2 (constantI S1 32 999999#32)))))
    (constantI S_ 1 1#1) reducesTo_S16384x26x1_S16384x26_d2 h_S_

/-- The reference's result: the gathered rows where the mask holds, the fill elsewhere. -/
def refTerm (ids : IVec S16384x26 32) (tab : FVec F S1000000x64 .f32) : FVec F S16384x26x64 .f32 :=
  select (broadcastInDim S16384x26x64 ![0, 1] bcast_S16384x26_S16384x26x64_0_1 (inRange ids))
    (Host.gather G tab (starts ids))
    (broadcastInDim S16384x26x64 ![] bcast_S_S16384x26x64 (constant S_ .f32 0x7FC00000#32))

attribute [local irreducible] Host.reduce Host.gather in
set_option maxRecDepth 8192 in
/-- The fold of the operations at the result buffer is that term of the two argument buffers. -/
theorem after_out (V : Valuation τ sig (Elt F)) :
    after ops V (main_v0 : DevRef τ sig) = refTerm (V (main_arg0 : DevRef τ sig)) (V (main_arg1 : DevRef τ sig)) := by
  unfold refTerm inRange starts wrapped
  after_results_simp
  rfl

theorem after_arg0 (V : Valuation τ sig (Elt F)) :
    after ops V (main_arg0 : DevRef τ sig) = V (main_arg0 : DevRef τ sig) := by
  simp only [after_cons, after_nil]
  rfl

theorem after_arg1 (V : Valuation τ sig (Elt F)) :
    after ops V (main_arg1 : DevRef τ sig) = V (main_arg1 : DevRef τ sig) := by
  simp only [after_cons, after_nil]
  rfl

/-- The gather read at (b, f, d): the table at the row the start index names, read signed and kept
    inside the table, column d. -/
theorem gather_apply {α : Type} (tab : S1000000x64.Idx → α) (st : IVec S16384x26x1 32) (b : Fin 16384) (f : Fin 26) (d : Fin 64) :
    Host.gather G tab st (ix3 b f d)
      = tab (ix2 (⟨min (st (ix3 b f (0 : Fin 1))).toInt.toNat 999999, by omega⟩ : Fin 1000000) d) := by
  unfold Host.gather
  congr 1
  funext a
  match a with
  | ⟨0, _⟩ =>
    refine Fin.ext ?_
    show GatherDims.start G (ix3 b f d) st 0 + GatherDims.batchCoord G (ix3 b f d) 0 + GatherDims.offCoord G (ix3 b f d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap G) from List.mem_singleton.mpr rfl)]
    have hsi : GatherDims.siIdx G (ix3 b f d) ⟨List.idxOf (0 : Fin 2) (GatherDims.startIndexMap G),
        List.idxOf_lt_length_iff.2 (List.mem_singleton.mpr rfl)⟩ = ix3 b f (0 : Fin 1) := by
      funext c; refine Fin.ext ?_
      match c with
      | ⟨0, _⟩ => rfl
      | ⟨1, _⟩ => rfl
      | ⟨2, _⟩ => rfl
    rw [hsi]
    rfl
  | ⟨1, _⟩ =>
    refine Fin.ext ?_
    show GatherDims.start G (ix3 b f d) st 1 + GatherDims.batchCoord G (ix3 b f d) 1 + GatherDims.offCoord G (ix3 b f d) 1 = d.val
    rw [GatherDims.batchCoord_eq_zero _ _ _ List.not_mem_nil]
    have hs : GatherDims.start G (ix3 b f d) st 1 = 0 := by
      unfold GatherDims.start
      rw [dif_neg (show ¬ (1 : Fin 2) ∈ (GatherDims.startIndexMap G) from by decide)]
    have ho : GatherDims.offCoord G (ix3 b f d) 1 = d.val := by
      unfold GatherDims.offCoord
      rw [dif_pos (show (1 : Fin 2) ∈ (GatherDims.sKept G) from by decide)]
      rfl
    rw [hs, ho]; omega

/-- Words inside the table are not wrapped. -/
theorem wrapped_eq (ids : IVec S16384x26 32) (h : ∀ i, (ids i).toNat ≤ 999999) : wrapped ids = ids := by
  funext j
  show Scalar.select (IntOp.cmpi .slt (ids j) 0#32) _ _ = _
  rw [slt_zero_of_le (h j)]
  exact select_zero _ _

/-- The start index at (b, f, k) is the wrapped word at (b, f). -/
theorem starts_apply (ids : IVec S16384x26 32) (b : Fin 16384) (f : Fin 26) (k : Fin 1) :
    starts ids (ix3 b f k) = wrapped ids (ix2 b f) := by
  unfold starts broadcastInDim
  congr 1
  funext a
  match a with
  | ⟨0, _⟩ => rfl
  | ⟨1, _⟩ => rfl

/-- With every word inside the table the mask holds everywhere. -/
theorem inRange_apply (ids : IVec S16384x26 32) (h : ∀ i, (ids i).toNat ≤ 999999) (j : S16384x26.Idx) :
    inRange ids j = 1#1 := by
  unfold inRange
  refine reduce_andi_one _ _ _ _ (fun i => ?_) (fun _ => rfl) j
  obtain ⟨b, f, k, rfl⟩ : ∃ (b : Fin 16384) (f : Fin 26) (k : Fin 1), i = ix3 b f k := ⟨i 0, i 1, i 2, eq_ix3 i⟩
  show IntOp.andi (IntOp.cmpi .sge (starts ids (ix3 b f k)) 0#32) (IntOp.cmpi .sle (starts ids (ix3 b f k)) 999999#32) = 1#1
  rw [starts_apply, wrapped_eq ids h, sge_zero_of_le (h _), sle_max_of_le (h _)]
  decide

/-- With every index word inside the table the reference's result is the lookup. -/
theorem refTerm_eq (ids : IVec S16384x26 32) (tab : FVec F S1000000x64 .f32) (h : ∀ i, (ids i).toNat ≤ 999999) :
    refTerm ids tab = Cert.Lookup.lookup ids tab := by
  funext i
  obtain ⟨b, f, d, rfl⟩ : ∃ (b : Fin 16384) (f : Fin 26) (d : Fin 64), i = ix3 b f d := ⟨i 0, i 1, i 2, eq_ix3 i⟩
  have hmask : broadcastInDim S16384x26x64 ![0, 1] bcast_S16384x26_S16384x26x64_0_1 (inRange ids) = fun _ => 1#1 :=
    funext fun j => inRange_apply ids h _
  unfold refTerm
  rw [hmask, select_apply, select_one, gather_apply]
  refine congrArg (fun r : Fin 1000000 => tab (ix2 r d)) (Fin.ext ?_)
  show min (starts ids (ix3 b f 0)).toInt.toNat 999999 = min (ids (ix2 b f)).toNat 999999
  rw [starts_apply, wrapped_eq ids h, toInt_of_le (h _), Int.toNat_natCast]

end Value

/-! ## The run and the frame -/

section Final

open Cert.ReferenceIdeal Idealize.ShloMosaic.TcCoe Idealize.ShloMosaic.StableHlo

/-- the reference's run: it ends with its result array at the lookup of its arguments, the arguments unchanged -/
theorem run [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0)
          = Cert.Lookup.lookup (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono (fun _ h c =>
      ⟨(h c main_v0).trans ((after_out (F := Ideal) (launchContents m c)).trans
          (refTerm_eq (F := Ideal) (m ((c.tc : Thread nD τ).loc main_arg0)) (m ((c.tc : Thread nD τ).loc main_arg1))
            (ids_le (F := Ideal) (m ((c.tc : Thread nD τ).loc main_arg0)) (m ((c.tc : Thread nD τ).loc main_arg1)) (hpre c)))),
        (h c main_arg0).trans (after_arg0 (F := Ideal) (launchContents m c)),
        (h c main_arg1).trans (after_arg1 (F := Ideal) (launchContents m c))⟩)
    (run_ops (F := Ideal) m g)

/-- the reference's frame -/
theorem frame : Cert.frame_ReferenceIdeal := fun m g hpre =>
  (θ_run _ _ _).mono (fun _ h c => (h c).2) (run m g hpre)

end Final

end Cert.RefSide

end
-- ==== Proof.SetupKI.lean ====
/-
  The kernel program as the launch theorem for programs with SparseCore calls reads it: its two calls (the
  repacking of the table two rows to a line, then the gather), the body table, and the ghost state the
  proof runs over — the handshakes' rounds beside the counters of the tiles' own copies (every copy of
  either kernel is local to the tile that issues it and is waited for by that tile).
-/
import proofs.«204055_g19524921328135_cont_8to1_763_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204055_g19524921328135_cont_8to1_763_20_alg».proof.Proof.Gen.KernelIdeal
import proofs.«204055_g19524921328135_cont_8to1_763_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 2) : (K (F := F)).nSub q = 16 := by
  match q with | 0 => rfl | 1 => rfl
theorem nCore_eq (q : Fin 2) : (K (F := F)).nCore q = 2 := by
  match q with | 0 => rfl | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds, the left factor of the ghost state; the copies' counters are the right. -/
abbrev EH : Emb UH (MT nD τ sig (HIx 2) (Elt F) ℕ UU ℕ) := embL

end Cert.Proof.KI

end
-- ==== Proof.Tiles.lean ====
/-
  What each vector subcore is handed for its task in each of the two calls, and what it hands back:
  the launch deals the arrays to the thirty-two tiles exactly as the two kernels divide the work.
  Tile (c, s) has the number w = 2·s + c.
  * Repacking call: it reads the transposed table and the transposed tail (read shares) and owns, of the
    pair table, the 128-line slabs number w + 32·t that exist (below 3906), tile 0 also the last 32 lines;
    it hands them back holding the pair table's entries.
  * Gather call: it reads the flat index list and the pair table (read shares) and owns, of the
    feature-major result, the blocks number 104·w … 104·w + 103 (block b is feature b / 128, batch
    chunk b % 128), each as its eight 8×128 windows; it hands them back holding the gathered rows.
-/
import proofs.«204055_g19524921328135_cont_8to1_763_20_alg».proof.Proof.SetupKI
import proofs.«204055_g19524921328135_cont_8to1_763_20_alg».proof.Proof.Spec

noncomputable section

namespace Cert.Proof.KI.Tiles

open Cert.KernelIdeal Cert.KernelIdeal.Gen Cert.Proof.KI
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## The arrays, as locations of device `d` -/

abbrev idsLoc (d : Dev nD) : Loc nD τ sig := (SparseCore.T d).loc main_arg0
abbrev tabLoc (d : Dev nD) : Loc nD τ sig := (SparseCore.T d).loc main_arg1
abbrev flatLoc (d : Dev nD) : Loc nD τ sig := (SparseCore.T d).loc main_v1
abbrev tabTLoc (d : Dev nD) : Loc nD τ sig := (SparseCore.T d).loc main_v2
abbrev tailLoc (d : Dev nD) : Loc nD τ sig := (SparseCore.T d).loc main_v4
abbrev pairsLoc (d : Dev nD) : Loc nD τ sig := (SparseCore.T d).loc main_v5
abbrev out5Loc (d : Dev nD) : Loc nD τ sig := (SparseCore.T d).loc main_v6

/-! ## Read shares: one per tile, halved where a tile has two copies reading one array at once -/

def coreShare (c : Fin 2) : PosShare TreeShare := if c = 0 then fullShare.left else fullShare.right
def tileShare (c : Fin 2) (s : Fin 16) : PosShare TreeShare := Transfers.shareTok (coreShare c) 16 s

/-- The tile's number. -/
def wid (c : Fin 2) (s : Fin 16) : Nat := 2 * s.val + c.val
theorem wid_lt (c : Fin 2) (s : Fin 16) : wid c s < 32 := by unfold wid; omega

/-- A tile's pair (c, s) from its coordinates in the repacking call's grid and in the gather call's. -/
def c0Of (L : grid0.Coords) : Fin 2 := Fin.cast (rfl : grid0.bound 0 = 2) (L 0)
def s0Of (L : grid0.Coords) : Fin 16 := Fin.cast (rfl : grid0.bound 1 = 16) (L 1)
def c1Of (L : grid1.Coords) : Fin 2 := Fin.cast (rfl : grid1.bound 0 = 2) (L 0)
def s1Of (L : grid1.Coords) : Fin 16 := Fin.cast (rfl : grid1.bound 1 = 16) (L 1)

/-! ## The pair table's slabs -/

theorem pairRect_inb (cc : Fin 3906) : ∀ a, (![128 * cc.val, 0] : Fin 2 → Nat) a + S128x128.size a ≤ S500000x128.size a := by
  have := cc.isLt
  intro a; match a with
  | ⟨0, _⟩ => show 128 * cc.val + 128 ≤ 500000; omega
  | ⟨1, _⟩ => show 0 + 128 ≤ 128; omega
/-- Slab `cc`: lines 128·cc … 128·cc + 127 of the pair table. -/
abbrev pairRect (cc : Fin 3906) : Rect S500000x128 := Rect.unit ![128 * cc.val, 0] S128x128.size (pairRect_inb cc)
abbrev pairSet (cc : Fin 3906) : Finset S500000x128.Idx := ((Memref.whole main_v5_scv : Memref sig .scVector .hbm S500000x128 .f32).view.slice (pairRect cc)).set
/-- The last 32 lines of the pair table. -/
abbrev tailRect : Rect S500000x128 := Rect.unit ![499968, 0] S32x128.size inb_S500000x128_S32x128_499968_0
abbrev tailSet : Finset S500000x128.Idx := ((Memref.whole main_v5_scv : Memref sig .scVector .hbm S500000x128 .f32).view.slice tailRect).set

/-! ## The result's blocks -/

theorem outRect_inb (blk : Fin 3328) (d8 : Fin 8) :
    ∀ a, (![blk.val / 128, d8.val, blk.val % 128, 0, 0] : Fin 5 → Nat) a + S1x1x1x8x128.size a ≤ S26x8x128x8x128.size a := by
  have := blk.isLt; have := d8.isLt
  intro a; match a with
  | ⟨0, _⟩ => show blk.val / 128 + 1 ≤ 26; omega
  | ⟨1, _⟩ => show d8.val + 1 ≤ 8; omega
  | ⟨2, _⟩ => show blk.val % 128 + 1 ≤ 128; omega
  | ⟨3, _⟩ => show 0 + 8 ≤ 8; omega
  | ⟨4, _⟩ => show 0 + 128 ≤ 128; omega
/-- Window `d8` of block `blk`: feature blk / 128, batch chunk blk % 128, features 8·d8 … 8·d8 + 7 of the row. -/
abbrev outRect (blk : Fin 3328) (d8 : Fin 8) : Rect S26x8x128x8x128 :=
  Rect.unit ![blk.val / 128, d8.val, blk.val % 128, 0, 0] S1x1x1x8x128.size (outRect_inb blk d8)
abbrev outSet (blk : Fin 3328) (d8 : Fin 8) : Finset S26x8x128x8x128.Idx :=
  ((Memref.whole main_v6_scv : Memref sig .scVector .hbm S26x8x128x8x128 .f32).view.slice (outRect blk d8)).set
/-- Block number `kk` of tile (c, s). -/
def blkOf (c : Fin 2) (s : Fin 16) (kk : Fin 104) : Fin 3328 := ⟨104 * wid c s + kk.val, by have := wid_lt c s; have := kk.isLt; omega⟩

/-! ## What a tile is handed and hands back -/

variable (m : (ℓ : Loc nD τ sig) → Buf (Elt F) ℓ)

/-- The launch contents of the two arguments, read as the specification's arrays. -/
abbrev IDS (d : Dev nD) : Cert.Lookup.SIds.Idx → BitVec 32 := m (idsLoc d)
abbrev TAB (d : Dev nD) : Cert.Lookup.STab.Idx → F .f32 := m (tabLoc d)

/-- The slabs of tile (c, s): number w + 32·t for t below 123, those that exist. -/
def slabOwn (own : (cc : Fin 3906) → sProp 𝕄) (c : Fin 2) (s : Fin 16) : sProp 𝕄 :=
  bigSep (Finset.univ : Finset (Fin 123)) fun t => if h : wid c s + 32 * t.val < 3906 then own ⟨wid c s + 32 * t.val, h⟩ else iprop(emp)

/-- The repacking call: what tile (c, s) is handed. -/
def go0 (d : Dev nD) (c : Fin 2) (s : Fin 16) : sProp 𝕄 :=
  iprop((tabTLoc d ↦{(tileShare c s).left} (Cert.Lookup.tabT (TAB m d) : Buf (Elt F) (tabTLoc d)))
    ∗ (tabTLoc d ↦{(tileShare c s).right} (Cert.Lookup.tabT (TAB m d) : Buf (Elt F) (tabTLoc d)))
    ∗ (tailLoc d ↦{tileShare c s} (Cert.Lookup.tailT (TAB m d) : Buf (Elt F) (tailLoc d)))
    ∗ slabOwn (fun cc => iprop(∃ f, pairsLoc d ↦[pairSet cc]{fullShare} f)) c s
    ∗ (if wid c s = 0 then iprop(∃ f, pairsLoc d ↦[tailSet]{fullShare} f) else iprop(emp)))

/-- The repacking call: what tile (c, s) hands back — its slabs at the pair table's entries. -/
def td0 (d : Dev nD) (c : Fin 2) (s : Fin 16) : sProp 𝕄 :=
  iprop((tabTLoc d ↦{(tileShare c s).left} (Cert.Lookup.tabT (TAB m d) : Buf (Elt F) (tabTLoc d)))
    ∗ (tabTLoc d ↦{(tileShare c s).right} (Cert.Lookup.tabT (TAB m d) : Buf (Elt F) (tabTLoc d)))
    ∗ (tailLoc d ↦{tileShare c s} (Cert.Lookup.tailT (TAB m d) : Buf (Elt F) (tailLoc d)))
    ∗ slabOwn (fun cc => pairsLoc d ↦[pairSet cc]{fullShare} (Cert.Lookup.pairs (TAB m d) : Buf (Elt F) (pairsLoc d))) c s
    ∗ (if wid c s = 0 then (pairsLoc d ↦[tailSet]{fullShare} (Cert.Lookup.pairs (TAB m d) : Buf (Elt F) (pairsLoc d))) else iprop(emp)))

/-- The gather call: what tile (c, s) is handed. -/
def go1 (d : Dev nD) (c : Fin 2) (s : Fin 16) : sProp 𝕄 :=
  iprop((flatLoc d ↦{tileShare c s} (Cert.Lookup.flatIds (IDS m d) : Buf (Elt F) (flatLoc d)))
    ∗ (pairsLoc d ↦{(tileShare c s).left} (Cert.Lookup.pairs (TAB m d) : Buf (Elt F) (pairsLoc d)))
    ∗ (pairsLoc d ↦{(tileShare c s).right} (Cert.Lookup.pairs (TAB m d) : Buf (Elt F) (pairsLoc d)))
    ∗ bigSep (Finset.univ : Finset (Fin 104 × Fin 8)) fun p => iprop(∃ f, out5Loc d ↦[outSet (blkOf c s p.1) p.2]{fullShare} f))

/-- The gather call: what tile (c, s) hands back — its blocks at the gathered rows. -/
def td1 (d : Dev nD) (c : Fin 2) (s : Fin 16) : sProp 𝕄 :=
  iprop((flatLoc d ↦{tileShare c s} (Cert.Lookup.flatIds (IDS m d) : Buf (Elt F) (flatLoc d)))
    ∗ (pairsLoc d ↦{(tileShare c s).left} (Cert.Lookup.pairs (TAB m d) : Buf (Elt F) (pairsLoc d)))
    ∗ (pairsLoc d ↦{(tileShare c s).right} (Cert.Lookup.pairs (TAB m d) : Buf (Elt F) (pairsLoc d)))
    ∗ bigSep (Finset.univ : Finset (Fin 104 × Fin 8)) fun p =>
        (out5Loc d ↦[outSet (blkOf c s p.1) p.2]{fullShare} (Cert.Lookup.out5 (IDS m d) (TAB m d) : Buf (Elt F) (out5Loc d))))

end Cert.Proof.KI.Tiles

end
-- ==== Proof.HostSide.lean ====
/-
  The host operations of the program read as the specification's layouts.

  The program's host steps only move data: they transpose the index array and read it as one flat
  list, transpose the table, cut the table's last 64 rows and transpose them, and at the end reorder
  the axes of the gathered rows and read them as the result array. Each of these is one of the
  specification's functions; the two index identities at the end say which table entry a pair-table
  entry is and which index a flat-list entry is.
-/
import proofs.«204055_g19524921328135_cont_8to1_763_20_alg».proof.Proof.Spec
import proofs.«204055_g19524921328135_cont_8to1_763_20_alg».proof.Proof.Gen.KernelIdeal
import Idealize.ShloMosaic.Lib.Pipeline.Value
import Idealize.ShloMosaic.Lib.ValueLayout

noncomputable section

namespace Cert.HostSide

open Idealize.ShloMosaic Idealize.ShloMosaic.ValueIdx
open Cert.KernelIdeal Cert.KernelIdeal.Facts₀

variable {F : FTy → Type} [FloatOps F] [Cert.KernelIdeal.Facts]

/-! ## Two index identities -/

/-- Row `w` of the table is line `w / 2` of the pair table, half `w % 2`:
    entry `(w / 2, (w % 2)·64 + d)` of the pair table is `table[w, d]`. -/
theorem pairs_row {α : Type} (tab : Cert.Lookup.STab.Idx → α) (w : Fin 1000000) (d : Fin 64) :
    Cert.Lookup.pairs tab (ix2 (⟨w.val / 2, by omega⟩ : Fin 500000) (⟨(w.val % 2) * 64 + d.val, by omega⟩ : Fin 128))
      = tab (ix2 w d) := by
  unfold Cert.Lookup.pairs
  refine congrArg tab ?_
  funext a
  match a with
  | ⟨0, _⟩ => exact Fin.ext (by show 2 * (w.val / 2) + ((w.val % 2) * 64 + d.val) / 64 = w.val; omega)
  | ⟨1, _⟩ => exact Fin.ext (by show ((w.val % 2) * 64 + d.val) % 64 = d.val; omega)

/-- Entry `f·16384 + b` of the flat index list is `ids[b, f]`. -/
theorem flatIds_at (ids : Cert.Lookup.SIds.Idx → BitVec 32) (f : Fin 26) (b : Fin 16384) :
    Cert.Lookup.flatIds ids (ix1 (⟨f.val * 16384 + b.val, by omega⟩ : Fin 425984)) = ids (ix2 b f) := by
  unfold Cert.Lookup.flatIds
  refine congrArg ids ?_
  funext a
  match a with
  | ⟨0, _⟩ => exact Fin.ext (by show (f.val * 16384 + b.val) % 16384 = b.val; omega)
  | ⟨1, _⟩ => exact Fin.ext (by show (f.val * 16384 + b.val) / 16384 = f.val; omega)

/-! ## The host operations -/

/-- The table transposed by the program is the specification's transposed table. -/
theorem tabT_eq (tab : FVec F S1000000x64 .f32) :
    transpose S64x1000000 [1, 0] tab transposes_S1000000x64_S64x1000000_1_0 = Cert.Lookup.tabT tab := by
  funext j
  obtain ⟨a, b, rfl⟩ : ∃ (a : Fin 64) (b : Fin 1000000), j = ix2 a b := ⟨j 0, j 1, eq_ix2 j⟩
  exact transpose_ix2_apply tab _ a b

/-- The table's last 64 rows, cut out and transposed by the program, are the specification's
    transposed tail: entry `(d, k)` is `table[999936 + k, d]`. -/
theorem tailT_eq (tab : FVec F S1000000x64 .f32) :
    transpose S64x64 [1, 0] (extractStridedSlice S64x64 ![999936, 0] tab slices_S1000000x64_S64x64_999936_0)
        transposes_S64x64_S64x64_1_0 = Cert.Lookup.tailT tab := by
  funext j
  obtain ⟨a, b, rfl⟩ : ∃ (a : Fin 64) (b : Fin 64), j = ix2 a b := ⟨j 0, j 1, eq_ix2 j⟩
  refine (transpose_ix2_apply _ _ a b).trans ?_
  refine (extractStridedSlice_apply _ tab _ (ix2 b a)
    (ix2 (⟨999936 + b.val, by omega⟩ : Fin 1000000) a) fun c => ?_).trans rfl
  match c with
  | ⟨0, _⟩ => rfl
  | ⟨1, _⟩ => show a.val = 0 + a.val; omega

/-- The index array transposed and read as one flat list by the program is the specification's
    flat list: entry `n` is `ids[n % 16384, n / 16384]`. -/
theorem flat_eq (ids : IVec S16384x26 32) :
    shapeCast S425984 (transpose S26x16384 [1, 0] ids transposes_S16384x26_S26x16384_1_0)
        shapeCasts_S26x16384_S425984 = Cert.Lookup.flatIds ids := by
  funext n
  obtain ⟨m, rfl⟩ : ∃ m : Fin 425984, n = ix1 m := ⟨n 0, eq_ix1 n⟩
  refine (shapeCast_apply _ _ (ix1 m)
    (ix2 (⟨m.val / 16384, by omega⟩ : Fin 26) (⟨m.val % 16384, by omega⟩ : Fin 16384)) ?_).trans ?_
  · rw [Shape.rowMajor_val_two, Shape.rowMajor_val_one]
    show m.val / 16384 * 16384 + m.val % 16384 = m.val
    omega
  · exact transpose_ix2_apply ids _ _ _

/-- Entry `(f, d / 8, b / 128, d % 8, b % 128)` of the gathered rows is `table[ids[b, f], d]`. -/
theorem out5_at {α : Type} (ids : Cert.Lookup.SIds.Idx → BitVec 32) (tab : Cert.Lookup.STab.Idx → α)
    (b : Fin 16384) (f : Fin 26) (d : Fin 64) :
    Cert.Lookup.out5 ids tab (ix5 f (⟨d.val / 8, by omega⟩ : Fin 8) (⟨b.val / 128, by omega⟩ : Fin 128)
        (⟨d.val % 8, by omega⟩ : Fin 8) (⟨b.val % 128, by omega⟩ : Fin 128))
      = tab (ix2 (Cert.Lookup.rowOf (ids (ix2 b f))) d) := by
  unfold Cert.Lookup.out5
  have e1 : ∀ h, (⟨b.val / 128 * 128 + b.val % 128, h⟩ : Fin 16384) = b := fun h => Fin.ext (by
    show b.val / 128 * 128 + b.val % 128 = b.val; omega)
  have e2 : ∀ h, (⟨d.val / 8 * 8 + d.val % 8, h⟩ : Fin 64) = d := fun h => Fin.ext (by
    show d.val / 8 * 8 + d.val % 8 = d.val; omega)
  show tab (ix2 (Cert.Lookup.rowOf (ids (ix2 (⟨b.val / 128 * 128 + b.val % 128, _⟩ : Fin 16384) f)))
    (⟨d.val / 8 * 8 + d.val % 8, _⟩ : Fin 64)) = _
  rw [e1, e2]

/-- The gathered rows with their axes reordered to (block, entry in block, feature, d / 8, d % 8)
    and read as a `[16384, 26, 64]` array are the lookup: 16384 = 128·128 and 64 = 8·8 in
    row-major order. -/
theorem out_eq {α : Type} (ids : Cert.Lookup.SIds.Idx → BitVec 32) (tab : Cert.Lookup.STab.Idx → α) :
    shapeCast S16384x26x64
        (transpose S128x128x26x8x8 [2, 4, 0, 1, 3] (Cert.Lookup.out5 ids tab)
          transposes_S26x8x128x8x128_S128x128x26x8x8_2_4_0_1_3)
        shapeCasts_S128x128x26x8x8_S16384x26x64 = Cert.Lookup.lookup ids tab := by
  funext i
  obtain ⟨b, f, d, rfl⟩ : ∃ (b : Fin 16384) (f : Fin 26) (d : Fin 64), i = ix3 b f d := ⟨i 0, i 1, i 2, eq_ix3 i⟩
  refine (shapeCast_apply _ _ (ix3 b f d)
    (ix5 (⟨b.val / 128, by omega⟩ : Fin 128) (⟨b.val % 128, by omega⟩ : Fin 128) f
      (⟨d.val / 8, by omega⟩ : Fin 8) (⟨d.val % 8, by omega⟩ : Fin 8)) ?_).trans ?_
  · rw [Shape.rowMajor_val_five, Shape.rowMajor_val_three]
    show (((b.val / 128 * 128 + b.val % 128) * 26 + f.val) * 8 + d.val / 8) * 8 + d.val % 8
      = (b.val * 26 + f.val) * 64 + d.val
    omega
  refine (transpose_apply _ _ _ _
    (ix5 f (⟨d.val / 8, by omega⟩ : Fin 8) (⟨b.val / 128, by omega⟩ : Fin 128)
      (⟨d.val % 8, by omega⟩ : Fin 8) (⟨b.val % 128, by omega⟩ : Fin 128)) fun c => ?_).trans ?_
  · match c with
    | ⟨0, _⟩ => rfl
    | ⟨1, _⟩ => rfl
    | ⟨2, _⟩ => rfl
    | ⟨3, _⟩ => rfl
    | ⟨4, _⟩ => rfl
  · exact out5_at ids tab b f d

end Cert.HostSide

end
-- ==== Proof.Parts.lean ====
/-
  The two arrays the kernels write, cut into the pieces the tiles own: the pair table is its 3906
  slabs of 128 lines and its last 32 lines (3906·128 = 499968), the feature-major result is its
  3328 blocks' eight windows each (block b at feature b / 128, batch chunk b % 128). The pieces are
  pairwise disjoint and cover the arrays.
-/
import proofs.«204055_g19524921328135_cont_8to1_763_20_alg».proof.Proof.Tiles

namespace Cert.Proof.KI.Parts

open Cert.KernelIdeal Cert.KernelIdeal.Gen Cert.Proof.KI
open Idealize.ShloMosaic

theorem pairSet_eq (cc : Fin 3906) : Tiles.pairSet cc = (Tiles.pairRect cc).set := by
  show ((View.whole (main_v5_scv : Ref sig .scVector)).slice (Tiles.pairRect cc)).set = _
  rw [View.set_slice]; exact Finset.map_refl
theorem tailSet_eq : Tiles.tailSet = Tiles.tailRect.set := by
  show ((View.whole (main_v5_scv : Ref sig .scVector)).slice Tiles.tailRect).set = _
  rw [View.set_slice]; exact Finset.map_refl
theorem outSet_eq (blk : Fin 3328) (d8 : Fin 8) : Tiles.outSet blk d8 = (Tiles.outRect blk d8).set := by
  show ((View.whole (main_v6_scv : Ref sig .scVector)).slice (Tiles.outRect blk d8)).set = _
  rw [View.set_slice]; exact Finset.map_refl

/-- A line of the pair table is in slab `cc` exactly when its number is in 128·cc … 128·cc + 127. -/
theorem mem_pairSet (cc : Fin 3906) (i : S500000x128.Idx) :
    i ∈ Tiles.pairSet cc ↔ 128 * cc.val ≤ (i 0).val ∧ (i 0).val < 128 * cc.val + 128 := by
  rw [pairSet_eq, Rect.mem_set_unit]
  constructor
  · intro h; exact h 0
  · intro h a
    match a with
    | ⟨0, _⟩ => exact h
    | ⟨1, _⟩ =>
      have := (show (i 1).val < 128 from (i 1).isLt)
      exact ⟨Nat.zero_le _, by show (i 1).val < 0 + 128; omega⟩
theorem mem_tailSet (i : S500000x128.Idx) : i ∈ Tiles.tailSet ↔ 499968 ≤ (i 0).val := by
  rw [tailSet_eq, Rect.mem_set_unit]
  constructor
  · intro h; exact (h 0).1
  · intro h a
    match a with
    | ⟨0, _⟩ =>
      have := (show (i 0).val < 500000 from (i 0).isLt)
      exact ⟨h, by show (i 0).val < 499968 + 32; omega⟩
    | ⟨1, _⟩ =>
      have := (show (i 1).val < 128 from (i 1).isLt)
      exact ⟨Nat.zero_le _, by show (i 1).val < 0 + 128; omega⟩

theorem pairSet_disjoint : ∀ cc cc' : Fin 3906, cc ≠ cc' → Disjoint (Tiles.pairSet cc) (Tiles.pairSet cc') := by
  intro cc cc' hne
  rw [Finset.disjoint_left]
  intro i hi hi'
  rw [mem_pairSet] at hi hi'
  exact hne (Fin.ext (by omega))

theorem pairSet_tail_disjoint : ∀ cc : Fin 3906, Disjoint (Tiles.pairSet cc) Tiles.tailSet := by
  intro cc
  rw [Finset.disjoint_left]
  intro i hi hi'
  rw [mem_pairSet] at hi
  rw [mem_tailSet] at hi'
  have := cc.isLt
  omega

theorem pair_cover : (Finset.univ : Finset (Fin 3906)).biUnion Tiles.pairSet ∪ Tiles.tailSet = Finset.univ := by
  ext i
  simp only [Finset.mem_union, Finset.mem_biUnion, Finset.mem_univ, true_and, iff_true]
  by_cases h : (i 0).val < 499968
  · left
    refine ⟨⟨(i 0).val / 128, by omega⟩, ?_⟩
    rw [mem_pairSet]
    show 128 * ((i 0).val / 128) ≤ (i 0).val ∧ (i 0).val < 128 * ((i 0).val / 128) + 128
    omega
  · right
    rw [mem_tailSet]; omega

/-- An entry of the result is in window `d8` of block `blk` exactly when its feature is blk / 128, its
    batch chunk blk % 128 and its second coordinate d8. -/
theorem mem_outSet (blk : Fin 3328) (d8 : Fin 8) (i : S26x8x128x8x128.Idx) :
    i ∈ Tiles.outSet blk d8 ↔ (i 0).val = blk.val / 128 ∧ (i 1).val = d8.val ∧ (i 2).val = blk.val % 128 := by
  rw [outSet_eq, Rect.mem_set_unit]
  constructor
  · intro h
    have h0 := h 0; have h1 := h 1; have h2 := h 2
    have e0 : blk.val / 128 ≤ (i 0).val ∧ (i 0).val < blk.val / 128 + 1 := h0
    have e1 : d8.val ≤ (i 1).val ∧ (i 1).val < d8.val + 1 := h1
    have e2 : blk.val % 128 ≤ (i 2).val ∧ (i 2).val < blk.val % 128 + 1 := h2
    omega
  · intro ⟨e0, e1, e2⟩ a
    match a with
    | ⟨0, _⟩ => exact ⟨by show blk.val / 128 ≤ (i 0).val; omega, by show (i 0).val < blk.val / 128 + 1; omega⟩
    | ⟨1, _⟩ => exact ⟨by show d8.val ≤ (i 1).val; omega, by show (i 1).val < d8.val + 1; omega⟩
    | ⟨2, _⟩ => exact ⟨by show blk.val % 128 ≤ (i 2).val; omega, by show (i 2).val < blk.val % 128 + 1; omega⟩
    | ⟨3, _⟩ =>
      have := (show (i 3).val < 8 from (i 3).isLt)
      exact ⟨Nat.zero_le _, by show (i 3).val < 0 + 8; omega⟩
    | ⟨4, _⟩ =>
      have := (show (i 4).val < 128 from (i 4).isLt)
      exact ⟨Nat.zero_le _, by show (i 4).val < 0 + 128; omega⟩

theorem outSet_disjoint : ∀ p p' : Fin 3328 × Fin 8, p ≠ p' → Disjoint (Tiles.outSet p.1 p.2) (Tiles.outSet p'.1 p'.2) := by
  intro p p' hne
  rw [Finset.disjoint_left]
  intro i hi hi'
  rw [mem_outSet] at hi hi'
  apply hne
  have hb : p.1.val = p'.1.val := by
    have := Nat.div_add_mod p.1.val 128; have := Nat.div_add_mod p'.1.val 128; omega
  exact Prod.ext (Fin.ext hb) (Fin.ext (by omega))

theorem out_cover : (Finset.univ : Finset (Fin 3328 × Fin 8)).biUnion (fun p => Tiles.outSet p.1 p.2) = Finset.univ := by
  ext i
  simp only [Finset.mem_biUnion, Finset.mem_univ, true_and, iff_true]
  have h0 := (show (i 0).val < 26 from (i 0).isLt)
  have h1 := (show (i 1).val < 8 from (i 1).isLt)
  have h2 := (show (i 2).val < 128 from (i 2).isLt)
  refine ⟨(⟨(i 0).val * 128 + (i 2).val, by omega⟩, ⟨(i 1).val, h1⟩), ?_⟩
  rw [mem_outSet]
  show (i 0).val = ((i 0).val * 128 + (i 2).val) / 128 ∧ (i 1).val = (i 1).val ∧ (i 2).val = ((i 0).val * 128 + (i 2).val) % 128
  omega

end Cert.Proof.KI.Parts
-- ==== Proof.LaunchKI.lean ====
/-
  The launch of the kernel program: what each SparseCore is handed in each of the two calls and hands
  back, how a SparseCore's share divides among its sixteen vector subcores, the obligations of the two
  tile kernels from their bodies, and the main program on the TensorCore — the host operations, the two
  calls, and between them the partitions of the pair table into its slabs and of the feature-major
  result into its windows.
-/
import proofs.«204055_g19524921328135_cont_8to1_763_20_alg».proof.Proof.Tiles
import proofs.«204055_g19524921328135_cont_8to1_763_20_alg».proof.Proof.HostSide
import proofs.«204055_g19524921328135_cont_8to1_763_20_alg».proof.Proof.Parts

noncomputable section

namespace Cert.Proof.KI.Launch

open Cert.KernelIdeal Cert.KernelIdeal.Gen Cert.Proof.KI
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

/-! ## What a SparseCore is handed and hands back -/

open Tiles in
/-- The repacking call, tile (c, s): the parts of the pair table it owns, holding anything. -/
def own0 (d : Dev nD) (c : Fin 2) (s : Fin 16) : sProp 𝕄 :=
  iprop(slabOwn (fun cc => iprop(∃ f, pairsLoc d ↦[pairSet cc]{fullShare} f)) c s
    ∗ (if wid c s = 0 then iprop(∃ f, pairsLoc d ↦[tailSet]{fullShare} f) else iprop(emp)))

open Tiles in
/-- The repacking call, tile (c, s): the parts of the pair table it owns, holding the pair table's entries. -/
def ret0 (d : Dev nD) (c : Fin 2) (s : Fin 16) : sProp 𝕄 :=
  iprop(slabOwn (fun cc => pairsLoc d ↦[pairSet cc]{fullShare} (Cert.Lookup.pairs (TAB m d) : Buf (Elt F) (pairsLoc d))) c s
    ∗ (if wid c s = 0 then (pairsLoc d ↦[tailSet]{fullShare} (Cert.Lookup.pairs (TAB m d) : Buf (Elt F) (pairsLoc d))) else iprop(emp)))

open Tiles in
/-- The gather call, tile (c, s): its windows of the result, holding anything. -/
def own1 (d : Dev nD) (c : Fin 2) (s : Fin 16) : sProp 𝕄 :=
  bigSep (Finset.univ : Finset (Fin 104 × Fin 8)) fun p => iprop(∃ f, out5Loc d ↦[outSet (blkOf c s p.1) p.2]{fullShare} f)

open Tiles in
/-- The gather call, tile (c, s): its windows of the result, holding the gathered rows. -/
def ret1 (d : Dev nD) (c : Fin 2) (s : Fin 16) : sProp 𝕄 :=
  bigSep (Finset.univ : Finset (Fin 104 × Fin 8)) fun p =>
    (out5Loc d ↦[outSet (blkOf c s p.1) p.2]{fullShare} (Cert.Lookup.out5 (IDS m d) (TAB m d) : Buf (Elt F) (out5Loc d)))

open Tiles in
/-- The repacking call: SparseCore c reads the transposed table and the transposed tail at its half share and
    owns its sixteen tiles' parts of the pair table. -/
def st0 (d : Dev nD) (c : Fin 2) : sProp 𝕄 :=
  iprop((tabTLoc d ↦{coreShare c} (Cert.Lookup.tabT (TAB m d) : Buf (Elt F) (tabTLoc d)))
    ∗ (tailLoc d ↦{coreShare c} (Cert.Lookup.tailT (TAB m d) : Buf (Elt F) (tailLoc d)))
    ∗ bigSep (Finset.univ : Finset (Fin 16)) fun s => own0 d c s)

open Tiles in
def dn0 (d : Dev nD) (c : Fin 2) : sProp 𝕄 :=
  iprop((tabTLoc d ↦{coreShare c} (Cert.Lookup.tabT (TAB m d) : Buf (Elt F) (tabTLoc d)))
    ∗ (tailLoc d ↦{coreShare c} (Cert.Lookup.tailT (TAB m d) : Buf (Elt F) (tailLoc d)))
    ∗ bigSep (Finset.univ : Finset (Fin 16)) fun s => ret0 m d c s)

open Tiles in
/-- The gather call: SparseCore c reads the flat index list and the pair table at its half share and owns its
    sixteen tiles' windows of the result. -/
def st1 (d : Dev nD) (c : Fin 2) : sProp 𝕄 :=
  iprop((flatLoc d ↦{coreShare c} (Cert.Lookup.flatIds (IDS m d) : Buf (Elt F) (flatLoc d)))
    ∗ (pairsLoc d ↦{coreShare c} (Cert.Lookup.pairs (TAB m d) : Buf (Elt F) (pairsLoc d)))
    ∗ bigSep (Finset.univ : Finset (Fin 16)) fun s => own1 d c s)

open Tiles in
def dn1 (d : Dev nD) (c : Fin 2) : sProp 𝕄 :=
  iprop((flatLoc d ↦{coreShare c} (Cert.Lookup.flatIds (IDS m d) : Buf (Elt F) (flatLoc d)))
    ∗ (pairsLoc d ↦{coreShare c} (Cert.Lookup.pairs (TAB m d) : Buf (Elt F) (pairsLoc d)))
    ∗ bigSep (Finset.univ : Finset (Fin 16)) fun s => ret1 m d c s)

/-- The two calls' payloads. -/
def P : (K (F := F)).Pay (nD := nD) (Val := Elt F) (Name := ℕ) (U := UU) where
  st := fun q d c => match q, c with
    | 0, c => st0 m d (Fin.cast (nCore_eq 0) c)
    | 1, c => st1 m d (Fin.cast (nCore_eq 1) c)
  dn := fun q d c => match q, c with
    | 0, c => dn0 m d (Fin.cast (nCore_eq 0) c)
    | 1, c => dn1 m d (Fin.cast (nCore_eq 1) c)
  go := fun q d c i => match q, c, i with
    | 0, c, i => Tiles.go0 m d (Fin.cast (nCore_eq 0) c) (Fin.cast (nSub_eq 0) i)
    | 1, c, i => Tiles.go1 m d (Fin.cast (nCore_eq 1) c) (Fin.cast (nSub_eq 1) i)
  td := fun q d c i => match q, c, i with
    | 0, c, i => Tiles.td0 m d (Fin.cast (nCore_eq 0) c) (Fin.cast (nSub_eq 0) i)
    | 1, c, i => Tiles.td1 m d (Fin.cast (nCore_eq 1) c) (Fin.cast (nSub_eq 1) i)
  x := fun _ _ => iprop(emp)

instance dite_storable {c : Prop} [Decidable c] {X : c → sProp 𝕄} {Y : ¬ c → sProp 𝕄}
    [∀ h, BI.Storable (upEmb : UEmb _ 𝕄) (X h)] [∀ h, BI.Storable (upEmb : UEmb _ 𝕄) (Y h)] :
    BI.Storable (upEmb : UEmb _ 𝕄) (dite c X Y) := by
  split <;> infer_instance
instance ite_storable {c : Prop} [Decidable c] {X Y : sProp 𝕄}
    [BI.Storable (upEmb : UEmb _ 𝕄) X] [BI.Storable (upEmb : UEmb _ 𝕄) Y] :
    BI.Storable (upEmb : UEmb _ 𝕄) (ite c X Y) := by
  split <;> infer_instance

instance P_storable : (P (F := F) m).IsStorable where
  st q d c := match q, c with
    | 0, c => by show BI.Storable _ (st0 m d _); unfold st0 own0 Tiles.slabOwn; infer_instance
    | 1, c => by show BI.Storable _ (st1 m d _); unfold st1 own1; infer_instance
  dn q d c := match q, c with
    | 0, c => by show BI.Storable _ (dn0 m d _); unfold dn0 ret0 Tiles.slabOwn; infer_instance
    | 1, c => by show BI.Storable _ (dn1 m d _); unfold dn1 ret1; infer_instance
  go q d c i := match q, c, i with
    | 0, c, i => by show BI.Storable _ (Tiles.go0 m d _ _); unfold Tiles.go0 Tiles.slabOwn; infer_instance
    | 1, c, i => by show BI.Storable _ (Tiles.go1 m d _ _); unfold Tiles.go1; infer_instance
  td q d c i := match q, c, i with
    | 0, c, i => by show BI.Storable _ (Tiles.td0 m d _ _); unfold Tiles.td0 Tiles.slabOwn; infer_instance
    | 1, c, i => by show BI.Storable _ (Tiles.td1 m d _ _); unfold Tiles.td1; infer_instance

/-! ## The two tile kernels' obligations, from their bodies -/

variable [FloatOps F]

/-- The vector subcore at coordinates L of the repacking call's grid, and of the gather call's. -/
abbrev thr0 (d : Dev nD) (L : grid0.Coords) : Thread nD τ := V d ((L 0).castLE hcore0) ((L 1).castLE hsub0)
abbrev thr1 (d : Dev nD) (L : grid1.Coords) : Thread nD τ := V d ((L 0).castLE hcore1) ((L 1).castLE hsub1)

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

/-- The repacking kernel's body at a symbolic tile: from what the tile is handed to what it hands back. -/
def TB0 : Prop :=
  ∀ (d : Dev nD) (L : grid0.Coords) (O : CellTallies nD τ sig (HIx 2)) (W : Waits sig (HIx 2)), (∀ g, O g none = 0) →
    iprop(levAts (K (F := F)).L (K (F := F)).lev ∗ Tiles.go0 m d (Tiles.c0Of L) (Tiles.s0Of L) ∗ scopedBufs (thr0 d L) ∗ scopedSems0 (thr0 d L)
        ∗ owes (thr0 d L) O W)
      ⊢ wp frame (wpE (defs₀ (F := F)) 𝒱₀ (thr0 d L) none) Set.univ
          (cc0_k L (Memref.whole main_v2_scv) (Memref.isWhole_whole _) (Memref.whole main_v4_scv) (Memref.isWhole_whole _)
            (Memref.whole main_v5_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scoped0 cc0_scoped1)
          fun _ => iprop(Tiles.td0 m d (Tiles.c0Of L) (Tiles.s0Of L) ∗ scopedBufs (thr0 d L) ∗ scopedSems0 (thr0 d L)
            ∗ ∃ W', ⌜∀ p ∈ W', p ∈ W ∨ p.2 = none⌝ ∗ owes (thr0 d L) O W')

/-- The gather kernel's body at a symbolic tile. -/
def TB1 : Prop :=
  ∀ (d : Dev nD) (L : grid1.Coords) (O : CellTallies nD τ sig (HIx 2)) (W : Waits sig (HIx 2)), (∀ g, O g none = 0) →
    iprop(levAts (K (F := F)).L (K (F := F)).lev ∗ Tiles.go1 m d (Tiles.c1Of L) (Tiles.s1Of L) ∗ scopedBufs (thr1 d L) ∗ scopedSems0 (thr1 d L)
        ∗ owes (thr1 d L) O W)
      ⊢ wp frame (wpE (defs₀ (F := F)) 𝒱₀ (thr1 d L) none) Set.univ
          (cc1_k L (Memref.whole main_v1_scv) (Memref.isWhole_whole _) (Memref.whole main_v5_scv) (Memref.isWhole_whole _)
            (Memref.whole main_v6_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6 cc1_scratch7 cc1_scoped0)
          fun _ => iprop(Tiles.td1 m d (Tiles.c1Of L) (Tiles.s1Of L) ∗ scopedBufs (thr1 d L) ∗ scopedSems0 (thr1 d L)
            ∗ ∃ W', ⌜∀ p ∈ W', p ∈ W ∨ p.2 = none⌝ ∗ owes (thr1 d L) O W')

theorem defs₀_vector0 (c : Fin τ.nSC) (s : Fin τ.nSub) :
    defs₀ (F := F) (.scVector c s) 0 ()
      = SparseCore.onTile hcore0 hsub0 (fun c s => cc0_k (coords0 c s)
          (Memref.whole main_v2_scv) (Memref.isWhole_whole _) (Memref.whole main_v4_scv) (Memref.isWhole_whole _)
          (Memref.whole main_v5_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scoped0 cc0_scoped1) ⟨⟩ c s := rfl

theorem defs₀_vector1 (c : Fin τ.nSC) (s : Fin τ.nSub) :
    defs₀ (F := F) (.scVector c s) 1 ()
      = SparseCore.onTile hcore1 hsub1 (fun c s => cc1_k (coords1 c s)
          (Memref.whole main_v1_scv) (Memref.isWhole_whole _) (Memref.whole main_v5_scv) (Memref.isWhole_whole _)
          (Memref.whole main_v6_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scratch6 cc1_scratch7 cc1_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (tb0 : TB0 (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  refine BIBase.Entails.trans ?_ ((tb0 d (coords0 ⟨_, hc.1⟩ ⟨_, hc.2⟩) O W hO).trans (wp_mono frame _ _ fun _ => obl_post))
  iintro ⟨Hl, -, H⟩
  isplitl [Hl]; · iexact Hl
  iexact H

theorem tileObl1 (tb1 : TB1 (F := F) m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  refine BIBase.Entails.trans ?_ ((tb1 d (coords1 ⟨_, hc.1⟩ ⟨_, hc.2⟩) O W hO).trans (wp_mono frame _ _ fun _ => obl_post))
  iintro ⟨Hl, -, H⟩
  isplitl [Hl]; · iexact Hl
  iexact H

/-! ## A SparseCore's share among its sixteen tiles -/

omit [FloatOps F] in
theorem toks_halve {ℓ : Loc nD τ sig} (f : Buf (Elt F) ℓ) (c : Fin 2) :
    (bigSep Finset.univ fun s : Fin 16 => (ℓ ↦{Tiles.tileShare c s} f : sProp 𝕄))
      ⊢ iprop((bigSep Finset.univ fun s : Fin 16 => ℓ ↦{(Tiles.tileShare c s).left} f)
          ∗ bigSep Finset.univ fun s : Fin 16 => ℓ ↦{(Tiles.tileShare c s).right} f) := by
  rw [← bigSep_sep']
  exact bigSep_mono fun s _ => (pointsTo_share (PosShare.mem_left_op_right _)).1

omit [FloatOps F] in
theorem toks_unhalve {ℓ : Loc nD τ sig} (f : Buf (Elt F) ℓ) (c : Fin 2) :
    iprop((bigSep Finset.univ fun s : Fin 16 => ℓ ↦{(Tiles.tileShare c s).left} f)
          ∗ bigSep Finset.univ fun s : Fin 16 => ℓ ↦{(Tiles.tileShare c s).right} f)
      ⊢ (bigSep Finset.univ fun s : Fin 16 => (ℓ ↦{Tiles.tileShare c s} f : sProp 𝕄)) := by
  rw [← bigSep_sep']
  exact bigSep_mono fun s _ => (pointsTo_share (PosShare.mem_left_op_right _)).2

omit [FloatOps F] in
/-- A SparseCore's share of an array it only reads: one token per tile, and a remainder that stays with the core. -/
theorem core_toks {ℓ : Loc nD τ sig} (f : Buf (Elt F) ℓ) (c : Fin 2) :
    (ℓ ↦{Tiles.coreShare c} f : sProp 𝕄)
      ⊣⊢ iprop((ℓ ↦{Transfers.shareDrop (Tiles.coreShare c) 16} f) ∗ bigSep Finset.univ fun s : Fin 16 => ℓ ↦{Tiles.tileShare c s} f) :=
  Transfers.pointsTo_toks (Tiles.coreShare c) 16

omit [FloatOps F] in
theorem bigSep_tiles (q : Fin 2) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)

open Tiles in
omit [FloatOps F] in
theorem go0_eq (d : Dev nD) (c : Fin 2) (s : Fin 16) : go0 m d c s
    = iprop((tabTLoc d ↦{(tileShare c s).left} (Cert.Lookup.tabT (TAB m d) : Buf (Elt F) (tabTLoc d)))
      ∗ (tabTLoc d ↦{(tileShare c s).right} (Cert.Lookup.tabT (TAB m d) : Buf (Elt F) (tabTLoc d)))
      ∗ (tailLoc d ↦{tileShare c s} (Cert.Lookup.tailT (TAB m d) : Buf (Elt F) (tailLoc d)))
      ∗ own0 d c s) := rfl
open Tiles in
omit [FloatOps F] in
theorem td0_eq (d : Dev nD) (c : Fin 2) (s : Fin 16) : td0 m d c s
    = iprop((tabTLoc d ↦{(tileShare c s).left} (Cert.Lookup.tabT (TAB m d) : Buf (Elt F) (tabTLoc d)))
      ∗ (tabTLoc d ↦{(tileShare c s).right} (Cert.Lookup.tabT (TAB m d) : Buf (Elt F) (tabTLoc d)))
      ∗ (tailLoc d ↦{tileShare c s} (Cert.Lookup.tailT (TAB m d) : Buf (Elt F) (tailLoc d)))
      ∗ ret0 m d c s) := rfl
open Tiles in
omit [FloatOps F] in
theorem go1_eq (d : Dev nD) (c : Fin 2) (s : Fin 16) : go1 m d c s
    = iprop((flatLoc d ↦{tileShare c s} (Cert.Lookup.flatIds (IDS m d) : Buf (Elt F) (flatLoc d)))
      ∗ (pairsLoc d ↦{(tileShare c s).left} (Cert.Lookup.pairs (TAB m d) : Buf (Elt F) (pairsLoc d)))
      ∗ (pairsLoc d ↦{(tileShare c s).right} (Cert.Lookup.pairs (TAB m d) : Buf (Elt F) (pairsLoc d)))
      ∗ own1 d c s) := rfl
open Tiles in
omit [FloatOps F] in
theorem td1_eq (d : Dev nD) (c : Fin 2) (s : Fin 16) : td1 m d c s
    = iprop((flatLoc d ↦{tileShare c s} (Cert.Lookup.flatIds (IDS m d) : Buf (Elt F) (flatLoc d)))
      ∗ (pairsLoc d ↦{(tileShare c s).left} (Cert.Lookup.pairs (TAB m d) : Buf (Elt F) (pairsLoc d)))
      ∗ (pairsLoc d ↦{(tileShare c s).right} (Cert.Lookup.pairs (TAB m d) : Buf (Elt F) (pairsLoc d)))
      ∗ ret1 m d c s) := rfl

open Tiles in
omit [FloatOps F] in
/-- The repacking call: a SparseCore's read shares are dealt to its tiles (the table's halved again, for the two
    copies a tile keeps in flight), the owned parts go to their tiles; handed back, they rejoin. -/
theorem core_split0 (d : Dev nD) (c : Fin 2) :
    st0 m d c ⊢ |={Set.univ}=> iprop((bigSep Finset.univ fun s : Fin 16 => go0 m d c s)
      ∗ ((bigSep Finset.univ fun s : Fin 16 => td0 m d c s) -∗ dn0 m d c)) := by
  rw [bigSep_congr (fun s _ => go0_eq m d c s), bigSep_congr (fun s _ => td0_eq m d c s),
    bigSep_sep', bigSep_sep', bigSep_sep', bigSep_sep', bigSep_sep', bigSep_sep']
  unfold st0 dn0
  have hh := toks_halve (ℓ := tabTLoc d) (Cert.Lookup.tabT (TAB m d) : Buf (Elt F) (tabTLoc d)) c
  have hu := toks_unhalve (ℓ := tabTLoc d) (Cert.Lookup.tabT (TAB m d) : Buf (Elt F) (tabTLoc d)) c
  have hT := core_toks (ℓ := tabTLoc d) (Cert.Lookup.tabT (TAB m d) : Buf (Elt F) (tabTLoc d)) c
  have hL := core_toks (ℓ := tailLoc d) (Cert.Lookup.tailT (TAB m d) : Buf (Elt F) (tailLoc d)) c
  iintro ⟨HT, HL, Hown⟩
  ihave HT' := hT.1 $$ HT
  icases HT' with ⟨HTd, HTt⟩
  ihave HT2 := hh $$ HTt
  icases HT2 with ⟨HTl, HTr⟩
  ihave HL' := hL.1 $$ HL
  icases HL' with ⟨HLd, HLt⟩
  imodintro
  isplitl [HTl HTr HLt Hown]
  · isplitl [HTl]; · iexact HTl
    isplitl [HTr]; · iexact HTr
    isplitl [HLt]; · iexact HLt
    iexact Hown
  iintro ⟨HTl, HTr, HLt, Hret⟩
  isplitl [HTd HTl HTr]
  · iapply hT.2
    isplitl [HTd]; · iexact HTd
    iapply hu
    isplitl [HTl]; · iexact HTl
    iexact HTr
  isplitl [HLd HLt]
  · iapply hL.2
    isplitl [HLd]; · iexact HLd
    iexact HLt
  iexact Hret

open Tiles in
omit [FloatOps F] in
/-- The gather call: likewise, the pair table's share halved for a tile's two gathers in flight. -/
theorem core_split1 (d : Dev nD) (c : Fin 2) :
    st1 m d c ⊢ |={Set.univ}=> iprop((bigSep Finset.univ fun s : Fin 16 => go1 m d c s)
      ∗ ((bigSep Finset.univ fun s : Fin 16 => td1 m d c s) -∗ dn1 m d c)) := by
  rw [bigSep_congr (fun s _ => go1_eq m d c s), bigSep_congr (fun s _ => td1_eq m d c s),
    bigSep_sep', bigSep_sep', bigSep_sep', bigSep_sep', bigSep_sep', bigSep_sep']
  unfold st1 dn1
  have hh := toks_halve (ℓ := pairsLoc d) (Cert.Lookup.pairs (TAB m d) : Buf (Elt F) (pairsLoc d)) c
  have hu := toks_unhalve (ℓ := pairsLoc d) (Cert.Lookup.pairs (TAB m d) : Buf (Elt F) (pairsLoc d)) c
  have hT := core_toks (ℓ := pairsLoc d) (Cert.Lookup.pairs (TAB m d) : Buf (Elt F) (pairsLoc d)) c
  have hL := core_toks (F := F) (ℓ := flatLoc d) (Cert.Lookup.flatIds (IDS m d) : Buf (Elt F) (flatLoc d)) c
  iintro ⟨HL, HT, Hown⟩
  ihave HT' := hT.1 $$ HT
  icases HT' with ⟨HTd, HTt⟩
  ihave HT2 := hh $$ HTt
  icases HT2 with ⟨HTl, HTr⟩
  ihave HL' := hL.1 $$ HL
  icases HL' with ⟨HLd, HLt⟩
  imodintro
  isplitl [HTl HTr HLt Hown]
  · isplitl [HLt]; · iexact HLt
    isplitl [HTl]; · iexact HTl
    isplitl [HTr]; · iexact HTr
    iexact Hown
  iintro ⟨HLt, HTl, HTr, Hret⟩
  isplitl [HLd HLt]
  · iapply hL.2
    isplitl [HLd]; · iexact HLd
    iexact HLt
  isplitl [HTd HTl HTr]
  · iapply hT.2
    isplitl [HTd]; · iexact HTd
    iapply hu
    isplitl [HTl]; · iexact HTl
    iexact HTr
  iexact Hret

omit [FloatOps F] in
theorem vecSplit0 : (K (F := F)).VecSplit' (P m) 0 := by
  intro d c
  show st0 m d (Fin.cast (nCore_eq 0) c) ⊢ |={Set.univ}=> iprop(
      (bigSep Finset.univ fun i : Fin ((K (F := F)).nSub 0) => Tiles.go0 m d (Fin.cast (nCore_eq 0) c) (Fin.cast (nSub_eq 0) i))
      ∗ ((bigSep Finset.univ fun i : Fin ((K (F := F)).nSub 0) => Tiles.td0 m d (Fin.cast (nCore_eq 0) c) (Fin.cast (nSub_eq 0) i))
          -∗ dn0 m d (Fin.cast (nCore_eq 0) c)))
  rw [bigSep_tiles (F := F) 0 (fun s => Tiles.go0 m d (Fin.cast (nCore_eq 0) c) s),
    bigSep_tiles (F := F) 0 (fun s => Tiles.td0 m d (Fin.cast (nCore_eq 0) c) s)]
  exact core_split0 m d _

omit [FloatOps F] in
theorem vecSplit1 : (K (F := F)).VecSplit' (P m) 1 := by
  intro d c
  show st1 m d (Fin.cast (nCore_eq 1) c) ⊢ |={Set.univ}=> iprop(
      (bigSep Finset.univ fun i : Fin ((K (F := F)).nSub 1) => Tiles.go1 m d (Fin.cast (nCore_eq 1) c) (Fin.cast (nSub_eq 1) i))
      ∗ ((bigSep Finset.univ fun i : Fin ((K (F := F)).nSub 1) => Tiles.td1 m d (Fin.cast (nCore_eq 1) c) (Fin.cast (nSub_eq 1) i))
          -∗ dn1 m d (Fin.cast (nCore_eq 1) c)))
  rw [bigSep_tiles (F := F) 1 (fun s => Tiles.go1 m d (Fin.cast (nCore_eq 1) c) s),
    bigSep_tiles (F := F) 1 (fun s => Tiles.td1 m d (Fin.cast (nCore_eq 1) c) s)]
  exact core_split1 m d _

/-! ## Sums over the tiles, reindexed -/

omit [FloatOps F] in
/-- A sum over a finite type whose terms are trivial off the range of an injection is the sum along it. -/
theorem bigSep_univ_inj {I J : Type} [Fintype I] [Fintype J] [DecidableEq I] [DecidableEq J] (g : J → I)
    (hg : Function.Injective g) (Ψ : I → sProp 𝕄) (h0 : ∀ x, (∀ j, g j ≠ x) → Ψ x = iprop(emp)) :
    bigSep Finset.univ Ψ = bigSep Finset.univ fun j => Ψ (g j) := by
  rw [BI.bigSep_sdiff_split (Finset.subset_univ (Finset.univ.image g)), BI.bigSep_image_of_injOn hg.injOn,
    bigSep_congr (s := Finset.univ \ Finset.univ.image g) (Ψ := fun _ => iprop(emp))
      (fun x hx => h0 x fun j e => (Finset.mem_sdiff.mp hx).2 (Finset.mem_image.mpr ⟨j, Finset.mem_univ j, e⟩)),
    show (bigSep (Finset.univ \ Finset.univ.image g) fun _ : I => (iprop(emp) : sProp 𝕄)) = iprop(emp) from bigSep_emp_const _]
  exact BI.equiv_iff.mp sep_emp

/-- Slab number cc belongs to tile (cc % 2, cc % 32 / 2), as its slab number cc / 32. -/
def slabIx (cc : Fin 3906) : Fin 2 × Fin 16 × Fin 123 :=
  (⟨cc.val % 2, Nat.mod_lt _ (by decide)⟩, ⟨cc.val % 32 / 2, by omega⟩, ⟨cc.val / 32, by have := cc.isLt; omega⟩)

theorem slabIx_inj : Function.Injective slabIx := by
  intro a b e
  have h1 : a.val % 2 = b.val % 2 := congrArg (fun x => x.1.val) e
  have h2 : a.val % 32 / 2 = b.val % 32 / 2 := congrArg (fun x => x.2.1.val) e
  have h3 : a.val / 32 = b.val / 32 := congrArg (fun x => x.2.2.val) e
  exact Fin.ext (by omega)

open Tiles in
omit [FloatOps F] in
/-- Every slab belongs to exactly one tile: the tiles' slabs together are all the slabs. -/
theorem slab_reindex (Φ : Fin 3906 → sProp 𝕄) :
    (bigSep Finset.univ fun c : Fin 2 => bigSep Finset.univ fun s : Fin 16 => slabOwn Φ c s) = bigSep Finset.univ Φ := by
  let Ψ : Fin 2 × Fin 16 × Fin 123 → sProp 𝕄 := fun x =>
    if h : wid x.1 x.2.1 + 32 * x.2.2.val < 3906 then Φ ⟨wid x.1 x.2.1 + 32 * x.2.2.val, h⟩ else iprop(emp)
  have e1 : (bigSep Finset.univ fun c : Fin 2 => bigSep Finset.univ fun s : Fin 16 => slabOwn Φ c s) = bigSep Finset.univ Ψ :=
    ((BI.bigSep_univ_prod Ψ).trans (bigSep_congr fun c _ => BI.bigSep_univ_prod (fun y : Fin 16 × Fin 123 => Ψ (c, y)))).symm
  have h0 : ∀ x, (∀ j, slabIx j ≠ x) → Ψ x = iprop(emp) := by
    intro x hx
    show (if h : _ then _ else _) = _
    rw [dif_neg]
    intro h
    refine hx ⟨wid x.1 x.2.1 + 32 * x.2.2.val, h⟩ ?_
    obtain ⟨c, s, t⟩ := x
    have := c.isLt; have := s.isLt
    refine Prod.ext (Fin.ext ?_) (Prod.ext (Fin.ext ?_) (Fin.ext ?_))
    · show (2 * s.val + c.val + 32 * t.val) % 2 = c.val; omega
    · show (2 * s.val + c.val + 32 * t.val) % 32 / 2 = s.val; omega
    · show (2 * s.val + c.val + 32 * t.val) / 32 = t.val; omega
  rw [e1, bigSep_univ_inj slabIx slabIx_inj Ψ h0]
  refine bigSep_congr fun cc _ => ?_
  have h : wid (slabIx cc).1 (slabIx cc).2.1 + 32 * (slabIx cc).2.2.val = cc.val := by
    show 2 * (cc.val % 32 / 2) + cc.val % 2 + 32 * (cc.val / 32) = cc.val; omega
  show (if h : _ then _ else _) = _
  rw [dif_pos (by rw [h]; exact cc.isLt)]
  exact congrArg Φ (Fin.ext h)

open Tiles in
omit [FloatOps F] in
/-- Only tile (0, 0) has the number 0. -/
theorem tail_reindex (X : sProp 𝕄) :
    (bigSep Finset.univ fun c : Fin 2 => bigSep Finset.univ fun s : Fin 16 => if wid c s = 0 then X else iprop(emp)) = X := by
  let Ψ : Fin 2 × Fin 16 → sProp 𝕄 := fun x => if wid x.1 x.2 = 0 then X else iprop(emp)
  have e1 : (bigSep Finset.univ fun c : Fin 2 => bigSep Finset.univ fun s : Fin 16 => if wid c s = 0 then X else iprop(emp))
      = bigSep Finset.univ Ψ := (BI.bigSep_univ_prod Ψ).symm
  have h0 : ∀ x, (∀ j : Unit, ((0 : Fin 2), (0 : Fin 16)) ≠ x) → Ψ x = iprop(emp) := by
    intro x hx
    show (if _ then _ else _) = _
    rw [if_neg]
    intro h
    refine hx () ?_
    obtain ⟨c, s⟩ := x
    have h' : 2 * s.val + c.val = 0 := h
    exact Prod.ext (Fin.ext (by show 0 = c.val; omega)) (Fin.ext (by show 0 = s.val; omega))
  rw [e1, bigSep_univ_inj (fun _ : Unit => ((0 : Fin 2), (0 : Fin 16))) (fun _ _ _ => rfl) Ψ h0, Finset.univ_unique, bigSep_singleton]
  exact if_pos rfl

/-- Block number blk belongs to tile (blk / 104 % 2, blk / 104 / 2), as its block number blk % 104. -/
def blkIx (x : Fin 2 × Fin 16 × Fin 104) : Fin 3328 := Tiles.blkOf x.1 x.2.1 x.2.2

theorem blkIx_bij : Function.Bijective blkIx := by
  refine (Fintype.bijective_iff_injective_and_card _).2 ⟨?_, by simp⟩
  intro a b e
  obtain ⟨c, s, k⟩ := a; obtain ⟨c', s', k'⟩ := b
  have h : 104 * (2 * s.val + c.val) + k.val = 104 * (2 * s'.val + c'.val) + k'.val := congrArg Fin.val e
  have := c.isLt; have := c'.isLt; have := k.isLt; have := k'.isLt
  refine Prod.ext (Fin.ext ?_) (Prod.ext (Fin.ext ?_) (Fin.ext ?_))
  · show c.val = c'.val; omega
  · show s.val = s'.val; omega
  · show k.val = k'.val; omega

open Tiles in
omit [FloatOps F] in
/-- Every block belongs to exactly one tile: the tiles' windows together are all the windows. -/
theorem blk_reindex (Φ : Fin 3328 × Fin 8 → sProp 𝕄) :
    (bigSep Finset.univ fun c : Fin 2 => bigSep Finset.univ fun s : Fin 16 =>
        bigSep (Finset.univ : Finset (Fin 104 × Fin 8)) fun p => Φ (blkOf c s p.1, p.2))
      = bigSep Finset.univ Φ := by
  let Ψ : Fin 3328 → sProp 𝕄 := fun blk => bigSep Finset.univ fun d8 : Fin 8 => Φ (blk, d8)
  have e1 : (bigSep Finset.univ fun c : Fin 2 => bigSep Finset.univ fun s : Fin 16 =>
        bigSep (Finset.univ : Finset (Fin 104 × Fin 8)) fun p => Φ (blkOf c s p.1, p.2))
      = bigSep Finset.univ fun x : Fin 2 × Fin 16 × Fin 104 => Ψ (blkIx x) :=
    ((BI.bigSep_univ_prod (fun x : Fin 2 × Fin 16 × Fin 104 => Ψ (blkIx x))).trans (bigSep_congr fun c _ =>
      (BI.bigSep_univ_prod (fun y : Fin 16 × Fin 104 => Ψ (blkIx (c, y)))).trans (bigSep_congr fun s _ =>
        (BI.bigSep_univ_prod (fun p : Fin 104 × Fin 8 => Φ (blkOf c s p.1, p.2))).symm))).symm
  rw [e1]
  exact (BI.bigSep_univ_equiv (Equiv.ofBijective blkIx blkIx_bij) Ψ).symm.trans (BI.bigSep_univ_prod Φ).symm

omit [FloatOps F] in
/-- One choice serves every term of a sum of existentials. -/
theorem bigSep_exists_intro {I B : Type} (s : Finset I) (Φ : I → B → sProp 𝕄) (f : B) :
    (bigSep s fun i => Φ i f) ⊢ bigSep s fun i => iprop(∃ f, Φ i f) :=
  bigSep_mono fun i _ => exists_intro (Φ := Φ i) f

/-! ## The two arrays the tiles own parts of, whole and in parts -/

open Tiles in
omit [FloatOps F] in
/-- The pair table whole is its 3906 slabs and its last 32 lines. -/
theorem pairs_parts (d : Dev nD) (g : Buf (Elt F) (pairsLoc d)) :
    (pairsLoc d ↦{fullShare} g : sProp 𝕄)
      = iprop((bigSep Finset.univ fun cc : Fin 3906 => pairsLoc d ↦[pairSet cc]{fullShare} g) ∗ pairsLoc d ↦[tailSet]{fullShare} g) := by
  have hd : Disjoint ((Finset.univ : Finset (Fin 3906)).biUnion pairSet) tailSet :=
    (Finset.disjoint_biUnion_left _ _ _).mpr fun cc _ => Parts.pairSet_tail_disjoint cc
  have hu : (pairsLoc d ↦[(Finset.univ : Finset (Fin 3906)).biUnion pairSet ∪ tailSet]{fullShare} g : sProp 𝕄)
      ⊣⊢ iprop((pairsLoc d ↦[(Finset.univ : Finset (Fin 3906)).biUnion pairSet]{fullShare} g) ∗ pairsLoc d ↦[tailSet]{fullShare} g) :=
    pointsTo_union hd
  rw [← pointsTo_biUnion Finset.univ (ℓ := pairsLoc d) pairSet (fun a _ b _ h => Parts.pairSet_disjoint a b h),
    ← BI.equiv_iff.mp ⟨hu.1, hu.2⟩, Parts.pair_cover]
  try rfl

open Tiles in
omit [FloatOps F] in
/-- The feature-major result whole is its 3328 × 8 windows. -/
theorem out_parts (d : Dev nD) (g : Buf (Elt F) (out5Loc d)) :
    (out5Loc d ↦{fullShare} g : sProp 𝕄)
      = bigSep Finset.univ fun p : Fin 3328 × Fin 8 => out5Loc d ↦[outSet p.1 p.2]{fullShare} g := by
  rw [← pointsTo_biUnion Finset.univ (ℓ := out5Loc d) (fun p : Fin 3328 × Fin 8 => outSet p.1 p.2)
    (fun a _ b _ h => Parts.outSet_disjoint a b h), Parts.out_cover]
  try rfl

open Tiles in
omit [FloatOps F] in
theorem own0_all (d : Dev nD) :
    (bigSep Finset.univ fun c : Fin 2 => bigSep Finset.univ fun s : Fin 16 => own0 (F := F) d c s)
      = iprop((bigSep Finset.univ fun cc : Fin 3906 => iprop(∃ f, pairsLoc d ↦[pairSet cc]{fullShare} f))
          ∗ ∃ f, pairsLoc d ↦[tailSet]{fullShare} f) := by
  unfold own0
  rw [bigSep_congr (fun c _ => bigSep_sep' Finset.univ
      (fun s : Fin 16 => slabOwn (fun cc => iprop(∃ f, pairsLoc d ↦[pairSet cc]{fullShare} f)) c s)
      (fun s : Fin 16 => if wid c s = 0 then iprop(∃ f, pairsLoc d ↦[tailSet]{fullShare} f) else iprop(emp))),
    bigSep_sep', slab_reindex, tail_reindex]

open Tiles in
omit [FloatOps F] in
theorem ret0_all (d : Dev nD) :
    (bigSep Finset.univ fun c : Fin 2 => bigSep Finset.univ fun s : Fin 16 => ret0 m d c s)
      = (pairsLoc d ↦{fullShare} (Cert.Lookup.pairs (TAB m d) : Buf (Elt F) (pairsLoc d)) : sProp 𝕄) := by
  unfold ret0
  rw [bigSep_congr (fun c _ => bigSep_sep' Finset.univ
      (fun s : Fin 16 => slabOwn (fun cc => pairsLoc d ↦[pairSet cc]{fullShare} (Cert.Lookup.pairs (TAB m d) : Buf (Elt F) (pairsLoc d))) c s)
      (fun s : Fin 16 => if wid c s = 0 then (pairsLoc d ↦[tailSet]{fullShare} (Cert.Lookup.pairs (TAB m d) : Buf (Elt F) (pairsLoc d))) else iprop(emp))),
    bigSep_sep', slab_reindex, tail_reindex, ← pairs_parts]

open Tiles in
omit [FloatOps F] in
theorem own1_all (d : Dev nD) :
    (bigSep Finset.univ fun c : Fin 2 => bigSep Finset.univ fun s : Fin 16 => own1 (F := F) d c s)
      = bigSep Finset.univ fun p : Fin 3328 × Fin 8 => iprop(∃ f, out5Loc d ↦[outSet p.1 p.2]{fullShare} f) :=
  blk_reindex (fun p : Fin 3328 × Fin 8 => iprop(∃ f, out5Loc d ↦[outSet p.1 p.2]{fullShare} f))

open Tiles in
omit [FloatOps F] in
theorem ret1_all (d : Dev nD) :
    (bigSep Finset.univ fun c : Fin 2 => bigSep Finset.univ fun s : Fin 16 => ret1 m d c s)
      = (out5Loc d ↦{fullShare} (Cert.Lookup.out5 (IDS m d) (TAB m d) : Buf (Elt F) (out5Loc d)) : sProp 𝕄) :=
  (blk_reindex (fun p : Fin 3328 × Fin 8 =>
    (out5Loc d ↦[outSet p.1 p.2]{fullShare} (Cert.Lookup.out5 (IDS m d) (TAB m d) : Buf (Elt F) (out5Loc d))))).trans (out_parts d _).symm

open Tiles in
omit [FloatOps F] in
/-- The full share of an array both SparseCores read is the two cores' halves. -/
theorem cores_share {ℓ : Loc nD τ sig} (f : Buf (Elt F) ℓ) :
    (ℓ ↦{fullShare} f : sProp 𝕄) ⊣⊢ bigSep Finset.univ fun c : Fin 2 => ℓ ↦{coreShare c} f := by
  rw [BI.bigSep_univ_two]
  exact pointsTo_share (PosShare.mem_left_op_right fullShare)

open Tiles in
omit [FloatOps F] in
/-- Into the repacking call: the transposed table and tail whole, the pair table whole holding anything. -/
theorem call0_in (d : Dev nD) (f : Buf (Elt F) (pairsLoc d)) :
    iprop((tabTLoc d ↦{fullShare} (Cert.Lookup.tabT (TAB m d) : Buf (Elt F) (tabTLoc d)))
        ∗ (tailLoc d ↦{fullShare} (Cert.Lookup.tailT (TAB m d) : Buf (Elt F) (tailLoc d)))
        ∗ pairsLoc d ↦{fullShare} f)
      ⊢ (bigSep Finset.univ fun c : Fin 2 => st0 m d c : sProp 𝕄) := by
  unfold st0
  rw [bigSep_sep', bigSep_sep', own0_all]
  have h1 := cores_share (ℓ := tabTLoc d) (Cert.Lookup.tabT (TAB m d) : Buf (Elt F) (tabTLoc d))
  have h2 := cores_share (ℓ := tailLoc d) (Cert.Lookup.tailT (TAB m d) : Buf (Elt F) (tailLoc d))
  have hm : (bigSep Finset.univ fun cc : Fin 3906 => (pairsLoc d ↦[pairSet cc]{fullShare} f : sProp 𝕄))
      ⊢ bigSep Finset.univ fun cc : Fin 3906 => iprop(∃ f, pairsLoc d ↦[pairSet cc]{fullShare} f) :=
    bigSep_exists_intro Finset.univ (fun (cc : Fin 3906) (f : Buf (Elt F) (pairsLoc d)) => (pairsLoc d ↦[pairSet cc]{fullShare} f : sProp 𝕄)) f
  rw [pairs_parts d f]
  exact BIClass.sep_mono h1.1 (BIClass.sep_mono h2.1
    (BIClass.sep_mono hm (exists_intro (Φ := fun f => (pairsLoc d ↦[tailSet]{fullShare} f : sProp 𝕄)) f)))

open Tiles in
omit [FloatOps F] in
/-- Out of the repacking call: the pair table whole, holding the pair table's entries. -/
theorem call0_out (d : Dev nD) :
    (bigSep Finset.univ fun c : Fin 2 => dn0 m d c : sProp 𝕄)
      ⊢ iprop((tabTLoc d ↦{fullShare} (Cert.Lookup.tabT (TAB m d) : Buf (Elt F) (tabTLoc d)))
        ∗ (tailLoc d ↦{fullShare} (Cert.Lookup.tailT (TAB m d) : Buf (Elt F) (tailLoc d)))
        ∗ pairsLoc d ↦{fullShare} (Cert.Lookup.pairs (TAB m d) : Buf (Elt F) (pairsLoc d))) := by
  unfold dn0
  rw [bigSep_sep', bigSep_sep', ret0_all]
  have h1 := cores_share (ℓ := tabTLoc d) (Cert.Lookup.tabT (TAB m d) : Buf (Elt F) (tabTLoc d))
  have h2 := cores_share (ℓ := tailLoc d) (Cert.Lookup.tailT (TAB m d) : Buf (Elt F) (tailLoc d))
  iintro ⟨HT, HL, HP⟩
  isplitl [HT]; · iapply h1.2; iexact HT
  isplitl [HL]; · iapply h2.2; iexact HL
  iexact HP

open Tiles in
omit [FloatOps F] in
/-- Into the gather call: the flat index list and the pair table whole, the result whole holding anything. -/
theorem call1_in (d : Dev nD) (f : Buf (Elt F) (out5Loc d)) :
    iprop((flatLoc d ↦{fullShare} (Cert.Lookup.flatIds (IDS m d) : Buf (Elt F) (flatLoc d)))
        ∗ (pairsLoc d ↦{fullShare} (Cert.Lookup.pairs (TAB m d) : Buf (Elt F) (pairsLoc d)))
        ∗ out5Loc d ↦{fullShare} f)
      ⊢ (bigSep Finset.univ fun c : Fin 2 => st1 m d c : sProp 𝕄) := by
  unfold st1
  rw [bigSep_sep', bigSep_sep', own1_all]
  have h1 := cores_share (F := F) (ℓ := flatLoc d) (Cert.Lookup.flatIds (IDS m d) : Buf (Elt F) (flatLoc d))
  have h2 := cores_share (ℓ := pairsLoc d) (Cert.Lookup.pairs (TAB m d) : Buf (Elt F) (pairsLoc d))
  have hm : (bigSep Finset.univ fun p : Fin 3328 × Fin 8 => (out5Loc d ↦[outSet p.1 p.2]{fullShare} f : sProp 𝕄))
      ⊢ bigSep Finset.univ fun p : Fin 3328 × Fin 8 => iprop(∃ f, out5Loc d ↦[outSet p.1 p.2]{fullShare} f) :=
    bigSep_exists_intro Finset.univ (fun (p : Fin 3328 × Fin 8) (f : Buf (Elt F) (out5Loc d)) => (out5Loc d ↦[outSet p.1 p.2]{fullShare} f : sProp 𝕄)) f
  rw [out_parts d f]
  generalize (Finset.univ : Finset (Fin 3328 × Fin 8)) = S at hm ⊢
  exact BIClass.sep_mono h1.1 (BIClass.sep_mono h2.1 hm)

open Tiles in
omit [FloatOps F] in
/-- Out of the gather call: the result whole, holding the gathered rows. -/
theorem call1_out (d : Dev nD) :
    (bigSep Finset.univ fun c : Fin 2 => dn1 m d c : sProp 𝕄)
      ⊢ iprop((flatLoc d ↦{fullShare} (Cert.Lookup.flatIds (IDS m d) : Buf (Elt F) (flatLoc d)))
        ∗ (pairsLoc d ↦{fullShare} (Cert.Lookup.pairs (TAB m d) : Buf (Elt F) (pairsLoc d)))
        ∗ out5Loc d ↦{fullShare} (Cert.Lookup.out5 (IDS m d) (TAB m d) : Buf (Elt F) (out5Loc d))) := by
  unfold dn1
  rw [bigSep_sep', bigSep_sep', ret1_all]
  have h1 := cores_share (F := F) (ℓ := flatLoc d) (Cert.Lookup.flatIds (IDS m d) : Buf (Elt F) (flatLoc d))
  have h2 := cores_share (ℓ := pairsLoc d) (Cert.Lookup.pairs (TAB m d) : Buf (Elt F) (pairsLoc d))
  iintro ⟨HL, HT, HP⟩
  isplitl [HL]; · iapply h1.2; iexact HL
  isplitl [HT]; · iapply h2.2; iexact HT
  iexact HP

/-! ## The launch element: the handshakes' rounds; the copies' counters are not needed -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The main program on the TensorCore -/

abbrev r_arg0 : DevRef τ sig := Proc.devRef .tc (main_arg0 : Ref sig .tc)
abbrev r_arg1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)

abbrev v0Loc (d : Dev nD) : Loc nD τ sig := (SparseCore.T d).loc main_v0
abbrev v3Loc (d : Dev nD) : Loc nD τ sig := (SparseCore.T d).loc main_v3
abbrev v7Loc (d : Dev nD) : Loc nD τ sig := (SparseCore.T d).loc main_v7
abbrev v8Loc (d : Dev nD) : Loc nD τ sig := (SparseCore.T d).loc main_v8

/-- The seven host operations, as the program states them. -/
abbrev op1 : HloOp τ sig (Elt F) := StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev op2 : HloOp τ sig (Elt F) := StableHlo.reshape main_v0 main_v1 rfl shapeCasts_S26x16384_S425984
abbrev op3 : HloOp τ sig (Elt F) := StableHlo.unary main_arg1 main_v2 ((transpose S64x1000000 [1, 0] · transposes_S1000000x64_S64x1000000_1_0) : (⟨S1000000x64, .f32⟩ : BufTy).Contents (Elt F) → (⟨S64x1000000, .f32⟩ : BufTy).Contents (Elt F))
abbrev op4 : HloOp τ sig (Elt F) := StableHlo.unary main_arg1 main_v3 ((extractStridedSlice S64x64 ![999936, 0] · slices_S1000000x64_S64x64_999936_0) : (⟨S1000000x64, .f32⟩ : BufTy).Contents (Elt F) → (⟨S64x64, .f32⟩ : BufTy).Contents (Elt F))
abbrev op5 : HloOp τ sig (Elt F) := StableHlo.unary main_v3 main_v4 ((transpose S64x64 [1, 0] · transposes_S64x64_S64x64_1_0) : (⟨S64x64, .f32⟩ : BufTy).Contents (Elt F) → (⟨S64x64, .f32⟩ : BufTy).Contents (Elt F))
abbrev op6 : HloOp τ sig (Elt F) := StableHlo.unary main_v6 main_v7 ((transpose S128x128x26x8x8 [2, 4, 0, 1, 3] · transposes_S26x8x128x8x128_S128x128x26x8x8_2_4_0_1_3) : (⟨S26x8x128x8x128, .f32⟩ : BufTy).Contents (Elt F) → (⟨S128x128x26x8x8, .f32⟩ : BufTy).Contents (Elt F))
abbrev op7 : HloOp τ sig (Elt F) := StableHlo.reshape main_v7 main_v8 rfl shapeCasts_S128x128x26x8x8_S16384x26x64

/-- The TensorCore's arrays, all unscoped. -/
abbrev S11 : Finset (DevRef τ sig) := {r_arg0, r_arg1, r_v0, r_v1, r_v2, r_v3, r_v4, r_v5, r_v6, r_v7, r_v8}
/-- The arrays of the last two host operations. -/
abbrev S3 : Finset (DevRef τ sig) := {r_v6, r_v7, r_v8}

omit [FloatOps F] in
theorem held_S11 (d : Dev nD) (W : Valuation τ sig (Elt F)) :
    (held (T d) S11 W : sProp 𝕄) = iprop((Tiles.idsLoc d ↦{fullShare} W r_arg0) ∗ (Tiles.tabLoc d ↦{fullShare} W r_arg1)
      ∗ (v0Loc d ↦{fullShare} W r_v0) ∗ (Tiles.flatLoc d ↦{fullShare} W r_v1) ∗ (Tiles.tabTLoc d ↦{fullShare} W r_v2)
      ∗ (v3Loc d ↦{fullShare} W r_v3) ∗ (Tiles.tailLoc d ↦{fullShare} W r_v4) ∗ (Tiles.pairsLoc d ↦{fullShare} W r_v5)
      ∗ (Tiles.out5Loc d ↦{fullShare} W r_v6) ∗ (v7Loc d ↦{fullShare} W r_v7) ∗ v8Loc d ↦{fullShare} W r_v8) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem held_S3 (d : Dev nD) (W : Valuation τ sig (Elt F)) :
    (held (T d) S3 W : sProp 𝕄) = iprop((Tiles.out5Loc d ↦{fullShare} W r_v6) ∗ (v7Loc d ↦{fullShare} W r_v7) ∗ v8Loc d ↦{fullShare} W r_v8) := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((Tiles.idsLoc d ↦{fullShare} W main_arg0) ∗ (Tiles.tabLoc d ↦{fullShare} W main_arg1)
      ∗ (v0Loc d ↦{fullShare} W main_v0) ∗ (Tiles.flatLoc d ↦{fullShare} W main_v1) ∗ (Tiles.tabTLoc d ↦{fullShare} W main_v2)
      ∗ (v3Loc d ↦{fullShare} W main_v3) ∗ (Tiles.tailLoc d ↦{fullShare} W main_v4) ∗ (Tiles.pairsLoc d ↦{fullShare} W main_v5)
      ∗ (Tiles.out5Loc d ↦{fullShare} W main_v6) ∗ (v7Loc d ↦{fullShare} W main_v7) ∗ v8Loc d ↦{fullShare} W main_v8) := by
  unfold unscopedBufs
  rw [show (Finset.univ.filter fun b : Ref sig .tc => ¬ b.isScoped)
      = {main_arg0, main_arg1, main_v0, main_v1, main_v2, main_v3, main_v4, main_v5, main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; after the five host operations before the calls; the three last arrays after the calls;
    after the two host operations that follow. -/
def V0 (d : Dev nD) : Valuation τ sig (Elt F) := fun b => m (d, b)
def V5 (d : Dev nD) : Valuation τ sig (Elt F) := StableHlo.after [op1 (F := F), op2, op3, op4, op5] (V0 m d)
def W6 (d : Dev nD) : Valuation τ sig (Elt F) :=
  Function.update (V5 m d) r_v6 (Cert.Lookup.out5 (Tiles.IDS m d) (Tiles.TAB m d) : Buf (Elt F) (Tiles.out5Loc d))
def V8 (d : Dev nD) : Valuation τ sig (Elt F) := StableHlo.after [op6 (F := F), op7] (W6 m d)

theorem unscoped_held (d : Dev nD) : (unscopedBufs d (fun b => m ((SparseCore.T d).loc b)) : sProp 𝕄) = held (T d) S11 (V0 m d) := by
  rw [unscopedBufs_eq, held_S11]; rfl

theorem V5_arg0 (d : Dev nD) : V5 m d r_arg0 = m (Tiles.idsLoc d) := by
  unfold V5; after_results; rfl
theorem V5_arg1 (d : Dev nD) : V5 m d r_arg1 = m (Tiles.tabLoc d) := by
  unfold V5; after_results; rfl
theorem V5_v1 (d : Dev nD) : V5 m d r_v1 = (Cert.Lookup.flatIds (Tiles.IDS m d) : Buf (Elt F) (Tiles.flatLoc d)) := by
  unfold V5; after_results; exact Cert.HostSide.flat_eq _
theorem V5_v2 (d : Dev nD) : V5 m d r_v2 = (Cert.Lookup.tabT (Tiles.TAB m d) : Buf (Elt F) (Tiles.tabTLoc d)) := by
  unfold V5; after_results; exact Cert.HostSide.tabT_eq (F := F) _
theorem V5_v4 (d : Dev nD) : V5 m d r_v4 = (Cert.Lookup.tailT (Tiles.TAB m d) : Buf (Elt F) (Tiles.tailLoc d)) := by
  unfold V5; after_results; exact Cert.HostSide.tailT_eq (F := F) _
theorem V8_v8 (d : Dev nD) : V8 m d r_v8 = (Cert.Lookup.lookup (Tiles.IDS m d) (Tiles.TAB m d) : Buf (Elt F) (v8Loc d)) := by
  unfold V8; after_results; unfold W6; rw [Function.update_self]; exact Cert.HostSide.out_eq _ _

theorem hop1 : (op1 (F := F)).bufs ⊆ S11 := show ({r_arg0, r_v0} : Finset (DevRef τ sig)) ⊆ S11 by decide
theorem hop2 : (op2 (F := F)).bufs ⊆ S11 := show ({r_v0, r_v1} : Finset (DevRef τ sig)) ⊆ S11 by decide
theorem hop3 : (op3 (F := F)).bufs ⊆ S11 := show ({r_arg1, r_v2} : Finset (DevRef τ sig)) ⊆ S11 by decide
theorem hop4 : (op4 (F := F)).bufs ⊆ S11 := show ({r_arg1, r_v3} : Finset (DevRef τ sig)) ⊆ S11 by decide
theorem hop5 : (op5 (F := F)).bufs ⊆ S11 := show ({r_v3, r_v4} : Finset (DevRef τ sig)) ⊆ S11 by decide
theorem hop6 : (op6 (F := F)).bufs ⊆ S3 := show ({r_v6, r_v7} : Finset (DevRef τ sig)) ⊆ S3 by decide
theorem hop7 : (op7 (F := F)).bufs ⊆ S3 := show ({r_v7, r_v8} : Finset (DevRef τ sig)) ⊆ S3 by decide

omit [FloatOps F] in
theorem st0_eq (d : Dev nD) : (bigSep Finset.univ fun c : Fin ((K (F := F)).nCore 0) => (P m).st 0 d c) = bigSep Finset.univ fun c : Fin 2 => st0 m d c :=
  bigSep_congr fun _ _ => congrArg (st0 m d) (Fin.ext rfl)
omit [FloatOps F] in
theorem dn0_eq (d : Dev nD) : (bigSep Finset.univ fun c : Fin ((K (F := F)).nCore 0) => (P m).dn 0 d c) = bigSep Finset.univ fun c : Fin 2 => dn0 m d c :=
  bigSep_congr fun _ _ => congrArg (dn0 m d) (Fin.ext rfl)
omit [FloatOps F] in
theorem st1_eq (d : Dev nD) : (bigSep Finset.univ fun c : Fin ((K (F := F)).nCore 1) => (P m).st 1 d c) = bigSep Finset.univ fun c : Fin 2 => st1 m d c :=
  bigSep_congr fun _ _ => congrArg (st1 m d) (Fin.ext rfl)
omit [FloatOps F] in
theorem dn1_eq (d : Dev nD) : (bigSep Finset.univ fun c : Fin ((K (F := F)).nCore 1) => (P m).dn 1 d c) = bigSep Finset.univ fun c : Fin 2 => dn1 m d c :=
  bigSep_congr fun _ _ => congrArg (dn1 m d) (Fin.ext rfl)

/-- What the main program leaves the claim: the result array at the lookup, the two arguments at their launch contents. -/
abbrev FIN (d : Dev nD) : sProp 𝕄 :=
  iprop((v8Loc d ↦{fullShare} (Cert.Lookup.lookup (Tiles.IDS m d) (Tiles.TAB m d) : Buf (Elt F) (v8Loc d)))
    ∗ (Tiles.idsLoc d ↦{fullShare} m (Tiles.idsLoc d)) ∗ (Tiles.tabLoc d ↦{fullShare} m (Tiles.tabLoc d)))

/-- The main program on device d's TensorCore: five host operations lay the index list and the table out, the repacking
    call builds the pair table, the gather call the feature-major result, two host operations read it as the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held]
  simp only [main, wp_bind, wp_pure]
  iintro ⟨#Hctx, Hst, ⟨Hb, Hheld, -, -⟩, -⟩
  -- the five host operations
  iapply (wp_hlo_within 𝒱 (SparseCore.T d) none Set.univ (op := op1) (S := S11) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S11) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S11) hop3
    (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S11) hop4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S11) hop5
    (V := (op4 (F := F)).result ((op3 (F := F)).result ((op2 (F := F)).result ((op1 (F := F)).result (V0 m d)))))) $$ [Hb Hheld]
  · isplitl [Hb]; · iexact Hb
    iexact Hheld
  iintro ⟨Hb, Hheld⟩
  rw [wp_ret]; imodintro
  rw [show (op5 (F := F)).result ((op4 (F := F)).result ((op3 (F := F)).result ((op2 (F := F)).result ((op1 (F := F)).result (V0 m d)))))
    = V5 m d from rfl]
  ihave Hh := (Entails.of_eq (held_S11 (F := F) d (V5 m d))) $$ Hheld
  rw [V5_arg0, V5_arg1, V5_v1, V5_v2, V5_v4]
  icases Hh with ⟨Ha0, Ha1, -, Hv1, Hv2, -, Hv4, Hv5, Hv6, Hv7, Hv8⟩
  -- the repacking call
  iapply ((K (F := F)).wp_run (D (F := F)) 𝒱 (EH := EH) (P := P m) κ d 0) $$ [Hst Hv2 Hv4 Hv5 Hb Ha0 Ha1 Hv1 Hv6 Hv7 Hv8]
  isplitr; · iexact Hctx
  isplitl [Hst]; · iexact Hst
  isplitl [Hv2 Hv4 Hv5]
  · rw [st0_eq]
    iapply (call0_in m d _)
    isplitl [Hv2]; · iexact Hv2
    isplitl [Hv4]; · iexact Hv4
    iexact Hv5
  iintro ⟨Hst, Hdn⟩
  ihave Hdn' := (Entails.of_eq (dn0_eq m d)) $$ Hdn
  ihave Hdn'' := (call0_out m d) $$ Hdn'
  icases Hdn'' with ⟨-, -, Hv5⟩
  -- the gather call
  iapply ((K (F := F)).wp_run (D (F := F)) 𝒱 (EH := EH) (P := P m) κ d 1) $$ [Hst Hv1 Hv5 Hv6 Hb Ha0 Ha1 Hv7 Hv8]
  isplitr; · iexact Hctx
  isplitl [Hst]; · iexact Hst
  isplitl [Hv1 Hv5 Hv6]
  · rw [st1_eq]
    iapply (call1_in m d _)
    isplitl [Hv1]; · iexact Hv1
    isplitl [Hv5]; · iexact Hv5
    iexact Hv6
  iintro ⟨Hst, Hdn⟩
  ihave Hdn' := (Entails.of_eq (dn1_eq m d)) $$ Hdn
  ihave Hdn'' := (call1_out m d) $$ Hdn'
  icases Hdn'' with ⟨-, -, Hv6⟩
  -- the two host operations that read the gathered rows as the result
  iapply (wp_hlo_within 𝒱 (SparseCore.T d) none Set.univ (op := op6) (S := S3) hop6 (V := W6 m d)) $$ [Hb Hv6 Hv7 Hv8]
  · isplitl [Hb]; · iexact Hb
    rw [held_S3]
    rw [show W6 m d r_v6 = (Cert.Lookup.out5 (Tiles.IDS m d) (Tiles.TAB m d) : Buf (Elt F) (Tiles.out5Loc d)) from Function.update_self _ _ _,
      show W6 m d r_v7 = V5 m d r_v7 from Function.update_of_ne (show r_v7 ≠ r_v6 by decide) _ _,
      show W6 m d r_v8 = V5 m d r_v8 from Function.update_of_ne (show r_v8 ≠ r_v6 by decide) _ _]
    isplitl [Hv6]; · iexact Hv6
    isplitl [Hv7]; · iexact Hv7
    iexact Hv8
  iintro ⟨Hb, Hheld⟩
  rw [wp_ret]; imodintro
  iapply (wp_hlo_within 𝒱 (SparseCore.T d) none Set.univ (op := op7) (S := S3) hop7 (V := (op6 (F := F)).result (W6 m d))) $$ [Hb Hheld]
  · isplitl [Hb]; · iexact Hb
    iexact Hheld
  iintro ⟨Hb, Hheld⟩
  rw [show (op7 (F := F)).result ((op6 (F := F)).result (W6 m d)) = V8 m d from rfl]
  ihave Hh := (Entails.of_eq (held_S3 (F := F) d (V8 m d))) $$ Hheld
  rw [V8_v8]
  icases Hh with ⟨-, -, Hv8⟩
  rw [wp_ret]; imodintro; imodintro
  isplitl [Hst]; · iexact Hst
  isplitl [Hv8]; · iexact Hv8
  isplitl [Ha0]; · iexact Ha0
  iexact Ha1

def fq (d : Dev nD) (s' : Phys nD τ sig (Elt F)) : Prop :=
  s'.mem.mem (v8Loc d) = (Cert.Lookup.lookup (Tiles.IDS m d) (Tiles.TAB m d) : Buf (Elt F) (v8Loc d))
    ∧ s'.mem.mem (Tiles.idsLoc d) = m (Tiles.idsLoc d) ∧ s'.mem.mem (Tiles.tabLoc d) = m (Tiles.tabLoc d)

theorem hfin (d : Dev nD) (s' : Phys nD τ sig (Elt F)) : iprop(FIN m d ∗ SI s') ⊢ (⌜fq m d s'⌝ : sProp 𝕄) := by
  iintro ⟨⟨Ho, Hi, Hx⟩, HSI⟩
  ihave H := (persistent_entails_right (SI_pointsTo_agree (st := s') (ℓ := v8Loc d) (I := Finset.univ) (q := fullShare)
    (f := (Cert.Lookup.lookup (Tiles.IDS m d) (Tiles.TAB m d) : Buf (Elt F) (v8Loc d))))) $$ [HSI Ho]
  · isplitl [HSI] <;> iassumption
  icases H with ⟨%h0, HSI, -⟩
  ihave H := (persistent_entails_right (SI_pointsTo_agree (st := s') (ℓ := Tiles.idsLoc d) (I := Finset.univ) (q := fullShare) (f := m (Tiles.idsLoc d)))) $$ [HSI Hi]
  · isplitl [HSI] <;> iassumption
  icases H with ⟨%h1, HSI, -⟩
  ihave H := (SI_pointsTo_agree (st := s') (ℓ := Tiles.tabLoc d) (I := Finset.univ) (q := fullShare) (f := m (Tiles.tabLoc d))) $$ [HSI Hx]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem ((c.tc : Thread nD τ).loc main_v8) = Cert.Lookup.lookup (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The kernel program's run: from the two tile kernels' bodies, every execution ends with the result array at the
    lookup of the arguments' launch contents and the arguments unchanged. -/
theorem run_main [∀ e, Nonempty (Elt F e)] (_hpre : ∀ d i, (Tiles.IDS m d i).toNat ≤ 999999)
    (tb0 : TB0 (F := F) m) (tb1 : TB1 (F := F) m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) Cert.Proof.KI.facts v₀
    (fun q hq => match q with | 0 => nomatch hq | 1 => nomatch hq)
    (fun q _ => match q with | 0 => tileObl0 m tb0 | 1 => tileObl1 m tb1)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h => h)

end Cert.Proof.KI.Launch

end
-- ==== Proof.SetupKI_b.lean ====
/-
  The kernel program as the launch theorem for programs with SparseCore calls reads it: its two calls (the
  repacking of the table two rows to a line, then the gather), the body table, and the ghost state the
  proof runs over — the handshakes' rounds beside the counters of the tiles' own copies (every copy of
  either kernel is local to the tile that issues it and is waited for by that tile).
-/
import proofs.«204055_g19524921328135_cont_8to1_763_20_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204055_g19524921328135_cont_8to1_763_20_alg».proof.Proof.Gen.Kernel
import proofs.«204055_g19524921328135_cont_8to1_763_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 2) : (K (F := F)).nSub q = 16 := by
  match q with | 0 => rfl | 1 => rfl
theorem nCore_eq (q : Fin 2) : (K (F := F)).nCore q = 2 := by
  match q with | 0 => rfl | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds, the left factor of the ghost state; the copies' counters are the right. -/
abbrev EH : Emb UH (MT nD τ sig (HIx 2) (Elt F) ℕ UU ℕ) := embL

end Cert.Proof.KB

end
-- ==== Proof.Tiles_b.lean ====
/-
  What each vector subcore is handed for its task in each of the two calls, and what it hands back:
  the launch deals the arrays to the thirty-two tiles exactly as the two kernels divide the work.
  Tile (c, s) has the number w = 2·s + c.
  * Repacking call: it reads the transposed table and the transposed tail (read shares) and owns, of the
    pair table, the 128-line slabs number w + 32·t that exist (below 3906), tile 0 also the last 32 lines;
    it hands them back holding the pair table's entries.
  * Gather call: it reads the flat index list and the pair table (read shares) and owns, of the
    feature-major result, the blocks number 104·w … 104·w + 103 (block b is feature b / 128, batch
    chunk b % 128), each as its eight 8×128 windows; it hands them back holding the gathered rows.
-/
import proofs.«204055_g19524921328135_cont_8to1_763_20_alg».proof.Proof.SetupKI_b
import proofs.«204055_g19524921328135_cont_8to1_763_20_alg».proof.Proof.Spec

noncomputable section

namespace Cert.Proof.KB.Tiles

open Cert.Kernel Cert.Kernel.Gen Cert.Proof.KB
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## The arrays, as locations of device `d` -/

abbrev idsLoc (d : Dev nD) : Loc nD τ sig := (SparseCore.T d).loc main_arg0
abbrev tabLoc (d : Dev nD) : Loc nD τ sig := (SparseCore.T d).loc main_arg1
abbrev flatLoc (d : Dev nD) : Loc nD τ sig := (SparseCore.T d).loc main_v1
abbrev tabTLoc (d : Dev nD) : Loc nD τ sig := (SparseCore.T d).loc main_v2
abbrev tailLoc (d : Dev nD) : Loc nD τ sig := (SparseCore.T d).loc main_v4
abbrev pairsLoc (d : Dev nD) : Loc nD τ sig := (SparseCore.T d).loc main_v5
abbrev out5Loc (d : Dev nD) : Loc nD τ sig := (SparseCore.T d).loc main_v6

/-! ## Read shares: one per tile, halved where a tile has two copies reading one array at once -/

def coreShare (c : Fin 2) : PosShare TreeShare := if c = 0 then fullShare.left else fullShare.right
def tileShare (c : Fin 2) (s : Fin 16) : PosShare TreeShare := Transfers.shareTok (coreShare c) 16 s

/-- The tile's number. -/
def wid (c : Fin 2) (s : Fin 16) : Nat := 2 * s.val + c.val
theorem wid_lt (c : Fin 2) (s : Fin 16) : wid c s < 32 := by unfold wid; omega

/-- A tile's pair (c, s) from its coordinates in the repacking call's grid and in the gather call's. -/
def c0Of (L : grid0.Coords) : Fin 2 := Fin.cast (rfl : grid0.bound 0 = 2) (L 0)
def s0Of (L : grid0.Coords) : Fin 16 := Fin.cast (rfl : grid0.bound 1 = 16) (L 1)
def c1Of (L : grid1.Coords) : Fin 2 := Fin.cast (rfl : grid1.bound 0 = 2) (L 0)
def s1Of (L : grid1.Coords) : Fin 16 := Fin.cast (rfl : grid1.bound 1 = 16) (L 1)

/-! ## The pair table's slabs -/

theorem pairRect_inb (cc : Fin 3906) : ∀ a, (![128 * cc.val, 0] : Fin 2 → Nat) a + S128x128.size a ≤ S500000x128.size a := by
  have := cc.isLt
  intro a; match a with
  | ⟨0, _⟩ => show 128 * cc.val + 128 ≤ 500000; omega
  | ⟨1, _⟩ => show 0 + 128 ≤ 128; omega
/-- Slab `cc`: lines 128·cc … 128·cc + 127 of the pair table. -/
abbrev pairRect (cc : Fin 3906) : Rect S500000x128 := Rect.unit ![128 * cc.val, 0] S128x128.size (pairRect_inb cc)
abbrev pairSet (cc : Fin 3906) : Finset S500000x128.Idx := ((Memref.whole main_v5_scv : Memref sig .scVector .hbm S500000x128 .f32).view.slice (pairRect cc)).set
/-- The last 32 lines of the pair table. -/
abbrev tailRect : Rect S500000x128 := Rect.unit ![499968, 0] S32x128.size inb_S500000x128_S32x128_499968_0
abbrev tailSet : Finset S500000x128.Idx := ((Memref.whole main_v5_scv : Memref sig .scVector .hbm S500000x128 .f32).view.slice tailRect).set

/-! ## The result's blocks -/

theorem outRect_inb (blk : Fin 3328) (d8 : Fin 8) :
    ∀ a, (![blk.val / 128, d8.val, blk.val % 128, 0, 0] : Fin 5 → Nat) a + S1x1x1x8x128.size a ≤ S26x8x128x8x128.size a := by
  have := blk.isLt; have := d8.isLt
  intro a; match a with
  | ⟨0, _⟩ => show blk.val / 128 + 1 ≤ 26; omega
  | ⟨1, _⟩ => show d8.val + 1 ≤ 8; omega
  | ⟨2, _⟩ => show blk.val % 128 + 1 ≤ 128; omega
  | ⟨3, _⟩ => show 0 + 8 ≤ 8; omega
  | ⟨4, _⟩ => show 0 + 128 ≤ 128; omega
/-- Window `d8` of block `blk`: feature blk / 128, batch chunk blk % 128, features 8·d8 … 8·d8 + 7 of the row. -/
abbrev outRect (blk : Fin 3328) (d8 : Fin 8) : Rect S26x8x128x8x128 :=
  Rect.unit ![blk.val / 128, d8.val, blk.val % 128, 0, 0] S1x1x1x8x128.size (outRect_inb blk d8)
abbrev outSet (blk : Fin 3328) (d8 : Fin 8) : Finset S26x8x128x8x128.Idx :=
  ((Memref.whole main_v6_scv : Memref sig .scVector .hbm S26x8x128x8x128 .f32).view.slice (outRect blk d8)).set
/-- Block number `kk` of tile (c, s). -/
def blkOf (c : Fin 2) (s : Fin 16) (kk : Fin 104) : Fin 3328 := ⟨104 * wid c s + kk.val, by have := wid_lt c s; have := kk.isLt; omega⟩

/-! ## What a tile is handed and hands back -/

variable (m : (ℓ : Loc nD τ sig) → Buf (Elt F) ℓ)

/-- The launch contents of the two arguments, read as the specification's arrays. -/
abbrev IDS (d : Dev nD) : Cert.Lookup.SIds.Idx → BitVec 32 := m (idsLoc d)
abbrev TAB (d : Dev nD) : Cert.Lookup.STab.Idx → F .f32 := m (tabLoc d)

/-- The slabs of tile (c, s): number w + 32·t for t below 123, those that exist. -/
def slabOwn (own : (cc : Fin 3906) → sProp 𝕄) (c : Fin 2) (s : Fin 16) : sProp 𝕄 :=
  bigSep (Finset.univ : Finset (Fin 123)) fun t => if h : wid c s + 32 * t.val < 3906 then own ⟨wid c s + 32 * t.val, h⟩ else iprop(emp)

/-- The repacking call: what tile (c, s) is handed. -/
def go0 (d : Dev nD) (c : Fin 2) (s : Fin 16) : sProp 𝕄 :=
  iprop((tabTLoc d ↦{(tileShare c s).left} (Cert.Lookup.tabT (TAB m d) : Buf (Elt F) (tabTLoc d)))
    ∗ (tabTLoc d ↦{(tileShare c s).right} (Cert.Lookup.tabT (TAB m d) : Buf (Elt F) (tabTLoc d)))
    ∗ (tailLoc d ↦{tileShare c s} (Cert.Lookup.tailT (TAB m d) : Buf (Elt F) (tailLoc d)))
    ∗ slabOwn (fun cc => iprop(∃ f, pairsLoc d ↦[pairSet cc]{fullShare} f)) c s
    ∗ (if wid c s = 0 then iprop(∃ f, pairsLoc d ↦[tailSet]{fullShare} f) else iprop(emp)))

/-- The repacking call: what tile (c, s) hands back — its slabs at the pair table's entries. -/
def td0 (d : Dev nD) (c : Fin 2) (s : Fin 16) : sProp 𝕄 :=
  iprop((tabTLoc d ↦{(tileShare c s).left} (Cert.Lookup.tabT (TAB m d) : Buf (Elt F) (tabTLoc d)))
    ∗ (tabTLoc d ↦{(tileShare c s).right} (Cert.Lookup.tabT (TAB m d) : Buf (Elt F) (tabTLoc d)))
    ∗ (tailLoc d ↦{tileShare c s} (Cert.Lookup.tailT (TAB m d) : Buf (Elt F) (tailLoc d)))
    ∗ slabOwn (fun cc => pairsLoc d ↦[pairSet cc]{fullShare} (Cert.Lookup.pairs (TAB m d) : Buf (Elt F) (pairsLoc d))) c s
    ∗ (if wid c s = 0 then (pairsLoc d ↦[tailSet]{fullShare} (Cert.Lookup.pairs (TAB m d) : Buf (Elt F) (pairsLoc d))) else iprop(emp)))

/-- The gather call: what tile (c, s) is handed. -/
def go1 (d : Dev nD) (c : Fin 2) (s : Fin 16) : sProp 𝕄 :=
  iprop((flatLoc d ↦{tileShare c s} (Cert.Lookup.flatIds (IDS m d) : Buf (Elt F) (flatLoc d)))
    ∗ (pairsLoc d ↦{(tileShare c s).left} (Cert.Lookup.pairs (TAB m d) : Buf (Elt F) (pairsLoc d)))
    ∗ (pairsLoc d ↦{(tileShare c s).right} (Cert.Lookup.pairs (TAB m d) : Buf (Elt F) (pairsLoc d)))
    ∗ bigSep (Finset.univ : Finset (Fin 104 × Fin 8)) fun p => iprop(∃ f, out5Loc d ↦[outSet (blkOf c s p.1) p.2]{fullShare} f))

/-- The gather call: what tile (c, s) hands back — its blocks at the gathered rows. -/
def td1 (d : Dev nD) (c : Fin 2) (s : Fin 16) : sProp 𝕄 :=
  iprop((flatLoc d ↦{tileShare c s} (Cert.Lookup.flatIds (IDS m d) : Buf (Elt F) (flatLoc d)))
    ∗ (pairsLoc d ↦{(tileShare c s).left} (Cert.Lookup.pairs (TAB m d) : Buf (Elt F) (pairsLoc d)))
    ∗ (pairsLoc d ↦{(tileShare c s).right} (Cert.Lookup.pairs (TAB m d) : Buf (Elt F) (pairsLoc d)))
    ∗ bigSep (Finset.univ : Finset (Fin 104 × Fin 8)) fun p =>
        (out5Loc d ↦[outSet (blkOf c s p.1) p.2]{fullShare} (Cert.Lookup.out5 (IDS m d) (TAB m d) : Buf (Elt F) (out5Loc d))))

end Cert.Proof.KB.Tiles

end
-- ==== Proof.HostSide_b.lean ====
/-
  The host operations of the program read as the specification's layouts.

  The program's host steps only move data: they transpose the index array and read it as one flat
  list, transpose the table, cut the table's last 64 rows and transpose them, and at the end reorder
  the axes of the gathered rows and read them as the result array. Each of these is one of the
  specification's functions; the two index identities at the end say which table entry a pair-table
  entry is and which index a flat-list entry is.
-/
import proofs.«204055_g19524921328135_cont_8to1_763_20_alg».proof.Proof.Spec
import proofs.«204055_g19524921328135_cont_8to1_763_20_alg».proof.Proof.Gen.Kernel
import Idealize.ShloMosaic.Lib.Pipeline.Value
import Idealize.ShloMosaic.Lib.ValueLayout

noncomputable section

namespace Cert.HostSideB

open Idealize.ShloMosaic Idealize.ShloMosaic.ValueIdx
open Cert.Kernel Cert.Kernel.Facts₀

variable {F : FTy → Type} [FloatOps F] [Cert.Kernel.Facts]

/-! ## Two index identities -/

/-- Row `w` of the table is line `w / 2` of the pair table, half `w % 2`:
    entry `(w / 2, (w % 2)·64 + d)` of the pair table is `table[w, d]`. -/
theorem pairs_row {α : Type} (tab : Cert.Lookup.STab.Idx → α) (w : Fin 1000000) (d : Fin 64) :
    Cert.Lookup.pairs tab (ix2 (⟨w.val / 2, by omega⟩ : Fin 500000) (⟨(w.val % 2) * 64 + d.val, by omega⟩ : Fin 128))
      = tab (ix2 w d) := by
  unfold Cert.Lookup.pairs
  refine congrArg tab ?_
  funext a
  match a with
  | ⟨0, _⟩ => exact Fin.ext (by show 2 * (w.val / 2) + ((w.val % 2) * 64 + d.val) / 64 = w.val; omega)
  | ⟨1, _⟩ => exact Fin.ext (by show ((w.val % 2) * 64 + d.val) % 64 = d.val; omega)

/-- Entry `f·16384 + b` of the flat index list is `ids[b, f]`. -/
theorem flatIds_at (ids : Cert.Lookup.SIds.Idx → BitVec 32) (f : Fin 26) (b : Fin 16384) :
    Cert.Lookup.flatIds ids (ix1 (⟨f.val * 16384 + b.val, by omega⟩ : Fin 425984)) = ids (ix2 b f) := by
  unfold Cert.Lookup.flatIds
  refine congrArg ids ?_
  funext a
  match a with
  | ⟨0, _⟩ => exact Fin.ext (by show (f.val * 16384 + b.val) % 16384 = b.val; omega)
  | ⟨1, _⟩ => exact Fin.ext (by show (f.val * 16384 + b.val) / 16384 = f.val; omega)

/-! ## The host operations -/

/-- The table transposed by the program is the specification's transposed table. -/
theorem tabT_eq (tab : FVec F S1000000x64 .f32) :
    transpose S64x1000000 [1, 0] tab transposes_S1000000x64_S64x1000000_1_0 = Cert.Lookup.tabT tab := by
  funext j
  obtain ⟨a, b, rfl⟩ : ∃ (a : Fin 64) (b : Fin 1000000), j = ix2 a b := ⟨j 0, j 1, eq_ix2 j⟩
  exact transpose_ix2_apply tab _ a b

/-- The table's last 64 rows, cut out and transposed by the program, are the specification's
    transposed tail: entry `(d, k)` is `table[999936 + k, d]`. -/
theorem tailT_eq (tab : FVec F S1000000x64 .f32) :
    transpose S64x64 [1, 0] (extractStridedSlice S64x64 ![999936, 0] tab slices_S1000000x64_S64x64_999936_0)
        transposes_S64x64_S64x64_1_0 = Cert.Lookup.tailT tab := by
  funext j
  obtain ⟨a, b, rfl⟩ : ∃ (a : Fin 64) (b : Fin 64), j = ix2 a b := ⟨j 0, j 1, eq_ix2 j⟩
  refine (transpose_ix2_apply _ _ a b).trans ?_
  refine (extractStridedSlice_apply _ tab _ (ix2 b a)
    (ix2 (⟨999936 + b.val, by omega⟩ : Fin 1000000) a) fun c => ?_).trans rfl
  match c with
  | ⟨0, _⟩ => rfl
  | ⟨1, _⟩ => show a.val = 0 + a.val; omega

/-- The index array transposed and read as one flat list by the program is the specification's
    flat list: entry `n` is `ids[n % 16384, n / 16384]`. -/
theorem flat_eq (ids : IVec S16384x26 32) :
    shapeCast S425984 (transpose S26x16384 [1, 0] ids transposes_S16384x26_S26x16384_1_0)
        shapeCasts_S26x16384_S425984 = Cert.Lookup.flatIds ids := by
  funext n
  obtain ⟨m, rfl⟩ : ∃ m : Fin 425984, n = ix1 m := ⟨n 0, eq_ix1 n⟩
  refine (shapeCast_apply _ _ (ix1 m)
    (ix2 (⟨m.val / 16384, by omega⟩ : Fin 26) (⟨m.val % 16384, by omega⟩ : Fin 16384)) ?_).trans ?_
  · rw [Shape.rowMajor_val_two, Shape.rowMajor_val_one]
    show m.val / 16384 * 16384 + m.val % 16384 = m.val
    omega
  · exact transpose_ix2_apply ids _ _ _

/-- Entry `(f, d / 8, b / 128, d % 8, b % 128)` of the gathered rows is `table[ids[b, f], d]`. -/
theorem out5_at {α : Type} (ids : Cert.Lookup.SIds.Idx → BitVec 32) (tab : Cert.Lookup.STab.Idx → α)
    (b : Fin 16384) (f : Fin 26) (d : Fin 64) :
    Cert.Lookup.out5 ids tab (ix5 f (⟨d.val / 8, by omega⟩ : Fin 8) (⟨b.val / 128, by omega⟩ : Fin 128)
        (⟨d.val % 8, by omega⟩ : Fin 8) (⟨b.val % 128, by omega⟩ : Fin 128))
      = tab (ix2 (Cert.Lookup.rowOf (ids (ix2 b f))) d) := by
  unfold Cert.Lookup.out5
  have e1 : ∀ h, (⟨b.val / 128 * 128 + b.val % 128, h⟩ : Fin 16384) = b := fun h => Fin.ext (by
    show b.val / 128 * 128 + b.val % 128 = b.val; omega)
  have e2 : ∀ h, (⟨d.val / 8 * 8 + d.val % 8, h⟩ : Fin 64) = d := fun h => Fin.ext (by
    show d.val / 8 * 8 + d.val % 8 = d.val; omega)
  show tab (ix2 (Cert.Lookup.rowOf (ids (ix2 (⟨b.val / 128 * 128 + b.val % 128, _⟩ : Fin 16384) f)))
    (⟨d.val / 8 * 8 + d.val % 8, _⟩ : Fin 64)) = _
  rw [e1, e2]

/-- The gathered rows with their axes reordered to (block, entry in block, feature, d / 8, d % 8)
    and read as a `[16384, 26, 64]` array are the lookup: 16384 = 128·128 and 64 = 8·8 in
    row-major order. -/
theorem out_eq {α : Type} (ids : Cert.Lookup.SIds.Idx → BitVec 32) (tab : Cert.Lookup.STab.Idx → α) :
    shapeCast S16384x26x64
        (transpose S128x128x26x8x8 [2, 4, 0, 1, 3] (Cert.Lookup.out5 ids tab)
          transposes_S26x8x128x8x128_S128x128x26x8x8_2_4_0_1_3)
        shapeCasts_S128x128x26x8x8_S16384x26x64 = Cert.Lookup.lookup ids tab := by
  funext i
  obtain ⟨b, f, d, rfl⟩ : ∃ (b : Fin 16384) (f : Fin 26) (d : Fin 64), i = ix3 b f d := ⟨i 0, i 1, i 2, eq_ix3 i⟩
  refine (shapeCast_apply _ _ (ix3 b f d)
    (ix5 (⟨b.val / 128, by omega⟩ : Fin 128) (⟨b.val % 128, by omega⟩ : Fin 128) f
      (⟨d.val / 8, by omega⟩ : Fin 8) (⟨d.val % 8, by omega⟩ : Fin 8)) ?_).trans ?_
  · rw [Shape.rowMajor_val_five, Shape.rowMajor_val_three]
    show (((b.val / 128 * 128 + b.val % 128) * 26 + f.val) * 8 + d.val / 8) * 8 + d.val % 8
      = (b.val * 26 + f.val) * 64 + d.val
    omega
  refine (transpose_apply _ _ _ _
    (ix5 f (⟨d.val / 8, by omega⟩ : Fin 8) (⟨b.val / 128, by omega⟩ : Fin 128)
      (⟨d.val % 8, by omega⟩ : Fin 8) (⟨b.val % 128, by omega⟩ : Fin 128)) fun c => ?_).trans ?_
  · match c with
    | ⟨0, _⟩ => rfl
    | ⟨1, _⟩ => rfl
    | ⟨2, _⟩ => rfl
    | ⟨3, _⟩ => rfl
    | ⟨4, _⟩ => rfl
  · exact out5_at ids tab b f d

end Cert.HostSideB

end
-- ==== Proof.Parts_b.lean ====
/-
  The two arrays the kernels write, cut into the pieces the tiles own: the pair table is its 3906
  slabs of 128 lines and its last 32 lines (3906·128 = 499968), the feature-major result is its
  3328 blocks' eight windows each (block b at feature b / 128, batch chunk b % 128). The pieces are
  pairwise disjoint and cover the arrays.
-/
import proofs.«204055_g19524921328135_cont_8to1_763_20_alg».proof.Proof.Tiles_b

namespace Cert.Proof.KB.Parts

open Cert.Kernel Cert.Kernel.Gen Cert.Proof.KB
open Idealize.ShloMosaic

theorem pairSet_eq (cc : Fin 3906) : Tiles.pairSet cc = (Tiles.pairRect cc).set := by
  show ((View.whole (main_v5_scv : Ref sig .scVector)).slice (Tiles.pairRect cc)).set = _
  rw [View.set_slice]; exact Finset.map_refl
theorem tailSet_eq : Tiles.tailSet = Tiles.tailRect.set := by
  show ((View.whole (main_v5_scv : Ref sig .scVector)).slice Tiles.tailRect).set = _
  rw [View.set_slice]; exact Finset.map_refl
theorem outSet_eq (blk : Fin 3328) (d8 : Fin 8) : Tiles.outSet blk d8 = (Tiles.outRect blk d8).set := by
  show ((View.whole (main_v6_scv : Ref sig .scVector)).slice (Tiles.outRect blk d8)).set = _
  rw [View.set_slice]; exact Finset.map_refl

/-- A line of the pair table is in slab `cc` exactly when its number is in 128·cc … 128·cc + 127. -/
theorem mem_pairSet (cc : Fin 3906) (i : S500000x128.Idx) :
    i ∈ Tiles.pairSet cc ↔ 128 * cc.val ≤ (i 0).val ∧ (i 0).val < 128 * cc.val + 128 := by
  rw [pairSet_eq, Rect.mem_set_unit]
  constructor
  · intro h; exact h 0
  · intro h a
    match a with
    | ⟨0, _⟩ => exact h
    | ⟨1, _⟩ =>
      have := (show (i 1).val < 128 from (i 1).isLt)
      exact ⟨Nat.zero_le _, by show (i 1).val < 0 + 128; omega⟩
theorem mem_tailSet (i : S500000x128.Idx) : i ∈ Tiles.tailSet ↔ 499968 ≤ (i 0).val := by
  rw [tailSet_eq, Rect.mem_set_unit]
  constructor
  · intro h; exact (h 0).1
  · intro h a
    match a with
    | ⟨0, _⟩ =>
      have := (show (i 0).val < 500000 from (i 0).isLt)
      exact ⟨h, by show (i 0).val < 499968 + 32; omega⟩
    | ⟨1, _⟩ =>
      have := (show (i 1).val < 128 from (i 1).isLt)
      exact ⟨Nat.zero_le _, by show (i 1).val < 0 + 128; omega⟩

theorem pairSet_disjoint : ∀ cc cc' : Fin 3906, cc ≠ cc' → Disjoint (Tiles.pairSet cc) (Tiles.pairSet cc') := by
  intro cc cc' hne
  rw [Finset.disjoint_left]
  intro i hi hi'
  rw [mem_pairSet] at hi hi'
  exact hne (Fin.ext (by omega))

theorem pairSet_tail_disjoint : ∀ cc : Fin 3906, Disjoint (Tiles.pairSet cc) Tiles.tailSet := by
  intro cc
  rw [Finset.disjoint_left]
  intro i hi hi'
  rw [mem_pairSet] at hi
  rw [mem_tailSet] at hi'
  have := cc.isLt
  omega

theorem pair_cover : (Finset.univ : Finset (Fin 3906)).biUnion Tiles.pairSet ∪ Tiles.tailSet = Finset.univ := by
  ext i
  simp only [Finset.mem_union, Finset.mem_biUnion, Finset.mem_univ, true_and, iff_true]
  by_cases h : (i 0).val < 499968
  · left
    refine ⟨⟨(i 0).val / 128, by omega⟩, ?_⟩
    rw [mem_pairSet]
    show 128 * ((i 0).val / 128) ≤ (i 0).val ∧ (i 0).val < 128 * ((i 0).val / 128) + 128
    omega
  · right
    rw [mem_tailSet]; omega

/-- An entry of the result is in window `d8` of block `blk` exactly when its feature is blk / 128, its
    batch chunk blk % 128 and its second coordinate d8. -/
theorem mem_outSet (blk : Fin 3328) (d8 : Fin 8) (i : S26x8x128x8x128.Idx) :
    i ∈ Tiles.outSet blk d8 ↔ (i 0).val = blk.val / 128 ∧ (i 1).val = d8.val ∧ (i 2).val = blk.val % 128 := by
  rw [outSet_eq, Rect.mem_set_unit]
  constructor
  · intro h
    have h0 := h 0; have h1 := h 1; have h2 := h 2
    have e0 : blk.val / 128 ≤ (i 0).val ∧ (i 0).val < blk.val / 128 + 1 := h0
    have e1 : d8.val ≤ (i 1).val ∧ (i 1).val < d8.val + 1 := h1
    have e2 : blk.val % 128 ≤ (i 2).val ∧ (i 2).val < blk.val % 128 + 1 := h2
    omega
  · intro ⟨e0, e1, e2⟩ a
    match a with
    | ⟨0, _⟩ => exact ⟨by show blk.val / 128 ≤ (i 0).val; omega, by show (i 0).val < blk.val / 128 + 1; omega⟩
    | ⟨1, _⟩ => exact ⟨by show d8.val ≤ (i 1).val; omega, by show (i 1).val < d8.val + 1; omega⟩
    | ⟨2, _⟩ => exact ⟨by show blk.val % 128 ≤ (i 2).val; omega, by show (i 2).val < blk.val % 128 + 1; omega⟩
    | ⟨3, _⟩ =>
      have := (show (i 3).val < 8 from (i 3).isLt)
      exact ⟨Nat.zero_le _, by show (i 3).val < 0 + 8; omega⟩
    | ⟨4, _⟩ =>
      have := (show (i 4).val < 128 from (i 4).isLt)
      exact ⟨Nat.zero_le _, by show (i 4).val < 0 + 128; omega⟩

theorem outSet_disjoint : ∀ p p' : Fin 3328 × Fin 8, p ≠ p' → Disjoint (Tiles.outSet p.1 p.2) (Tiles.outSet p'.1 p'.2) := by
  intro p p' hne
  rw [Finset.disjoint_left]
  intro i hi hi'
  rw [mem_outSet] at hi hi'
  apply hne
  have hb : p.1.val = p'.1.val := by
    have := Nat.div_add_mod p.1.val 128; have := Nat.div_add_mod p'.1.val 128; omega
  exact Prod.ext (Fin.ext hb) (Fin.ext (by omega))

theorem out_cover : (Finset.univ : Finset (Fin 3328 × Fin 8)).biUnion (fun p => Tiles.outSet p.1 p.2) = Finset.univ := by
  ext i
  simp only [Finset.mem_biUnion, Finset.mem_univ, true_and, iff_true]
  have h0 := (show (i 0).val < 26 from (i 0).isLt)
  have h1 := (show (i 1).val < 8 from (i 1).isLt)
  have h2 := (show (i 2).val < 128 from (i 2).isLt)
  refine ⟨(⟨(i 0).val * 128 + (i 2).val, by omega⟩, ⟨(i 1).val, h1⟩), ?_⟩
  rw [mem_outSet]
  show (i 0).val = ((i 0).val * 128 + (i 2).val) / 128 ∧ (i 1).val = (i 1).val ∧ (i 2).val = ((i 0).val * 128 + (i 2).val) % 128
  omega

end Cert.Proof.KB.Parts
-- ==== Proof.LaunchKI_b.lean ====
/-
  The launch of the kernel program: what each SparseCore is handed in each of the two calls and hands
  back, how a SparseCore's share divides among its sixteen vector subcores, the obligations of the two
  tile kernels from their bodies, and the main program on the TensorCore — the host operations, the two
  calls, and between them the partitions of the pair table into its slabs and of the feature-major
  result into its windows.
-/
import proofs.«204055_g19524921328135_cont_8to1_763_20_alg».proof.Proof.Tiles_b
import proofs.«204055_g19524921328135_cont_8to1_763_20_alg».proof.Proof.HostSide_b
import proofs.«204055_g19524921328135_cont_8to1_763_20_alg».proof.Proof.Parts_b

noncomputable section

namespace Cert.Proof.KB.Launch

open Cert.Kernel Cert.Kernel.Gen Cert.Proof.KB
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 2) (Elt F) ℕ UU ℕ

variable (m : (ℓ : Loc nD τ sig) → Buf (Elt F) ℓ) (ρ : Dev nD → PrngReg)

/-! ## What a SparseCore is handed and hands back -/

open Tiles in
/-- The repacking call, tile (c, s): the parts of the pair table it owns, holding anything. -/
def own0 (d : Dev nD) (c : Fin 2) (s : Fin 16) : sProp 𝕄 :=
  iprop(slabOwn (fun cc => iprop(∃ f, pairsLoc d ↦[pairSet cc]{fullShare} f)) c s
    ∗ (if wid c s = 0 then iprop(∃ f, pairsLoc d ↦[tailSet]{fullShare} f) else iprop(emp)))

open Tiles in
/-- The repacking call, tile (c, s): the parts of the pair table it owns, holding the pair table's entries. -/
def ret0 (d : Dev nD) (c : Fin 2) (s : Fin 16) : sProp 𝕄 :=
  iprop(slabOwn (fun cc => pairsLoc d ↦[pairSet cc]{fullShare} (Cert.Lookup.pairs (TAB m d) : Buf (Elt F) (pairsLoc d))) c s
    ∗ (if wid c s = 0 then (pairsLoc d ↦[tailSet]{fullShare} (Cert.Lookup.pairs (TAB m d) : Buf (Elt F) (pairsLoc d))) else iprop(emp)))

open Tiles in
/-- The gather call, tile (c, s): its windows of the result, holding anything. -/
def own1 (d : Dev nD) (c : Fin 2) (s : Fin 16) : sProp 𝕄 :=
  bigSep (Finset.univ : Finset (Fin 104 × Fin 8)) fun p => iprop(∃ f, out5Loc d ↦[outSet (blkOf c s p.1) p.2]{fullShare} f)

open Tiles in
/-- The gather call, tile (c, s): its windows of the result, holding the gathered rows. -/
def ret1 (d : Dev nD) (c : Fin 2) (s : Fin 16) : sProp 𝕄 :=
  bigSep (Finset.univ : Finset (Fin 104 × Fin 8)) fun p =>
    (out5Loc d ↦[outSet (blkOf c s p.1) p.2]{fullShare} (Cert.Lookup.out5 (IDS m d) (TAB m d) : Buf (Elt F) (out5Loc d)))

open Tiles in
/-- The repacking call: SparseCore c reads the transposed table and the transposed tail at its half share and
    owns its sixteen tiles' parts of the pair table. -/
def st0 (d : Dev nD) (c : Fin 2) : sProp 𝕄 :=
  iprop((tabTLoc d ↦{coreShare c} (Cert.Lookup.tabT (TAB m d) : Buf (Elt F) (tabTLoc d)))
    ∗ (tailLoc d ↦{coreShare c} (Cert.Lookup.tailT (TAB m d) : Buf (Elt F) (tailLoc d)))
    ∗ bigSep (Finset.univ : Finset (Fin 16)) fun s => own0 d c s)

open Tiles in
def dn0 (d : Dev nD) (c : Fin 2) : sProp 𝕄 :=
  iprop((tabTLoc d ↦{coreShare c} (Cert.Lookup.tabT (TAB m d) : Buf (Elt F) (tabTLoc d)))
    ∗ (tailLoc d ↦{coreShare c} (Cert.Lookup.tailT (TAB m d) : Buf (Elt F) (tailLoc d)))
    ∗ bigSep (Finset.univ : Finset (Fin 16)) fun s => ret0 m d c s)

open Tiles in
/-- The gather call: SparseCore c reads the flat index list and the pair table at its half share and owns its
    sixteen tiles' windows of the result. -/
def st1 (d : Dev nD) (c : Fin 2) : sProp 𝕄 :=
  iprop((flatLoc d ↦{coreShare c} (Cert.Lookup.flatIds (IDS m d) : Buf (Elt F) (flatLoc d)))
    ∗ (pairsLoc d ↦{coreShare c} (Cert.Lookup.pairs (TAB m d) : Buf (Elt F) (pairsLoc d)))
    ∗ bigSep (Finset.univ : Finset (Fin 16)) fun s => own1 d c s)

open Tiles in
def dn1 (d : Dev nD) (c : Fin 2) : sProp 𝕄 :=
  iprop((flatLoc d ↦{coreShare c} (Cert.Lookup.flatIds (IDS m d) : Buf (Elt F) (flatLoc d)))
    ∗ (pairsLoc d ↦{coreShare c} (Cert.Lookup.pairs (TAB m d) : Buf (Elt F) (pairsLoc d)))
    ∗ bigSep (Finset.univ : Finset (Fin 16)) fun s => ret1 m d c s)

/-- The two calls' payloads. -/
def P : (K (F := F)).Pay (nD := nD) (Val := Elt F) (Name := ℕ) (U := UU) where
  st := fun q d c => match q, c with
    | 0, c => st0 m d (Fin.cast (nCore_eq 0) c)
    | 1, c => st1 m d (Fin.cast (nCore_eq 1) c)
  dn := fun q d c => match q, c with
    | 0, c => dn0 m d (Fin.cast (nCore_eq 0) c)
    | 1, c => dn1 m d (Fin.cast (nCore_eq 1) c)
  go := fun q d c i => match q, c, i with
    | 0, c, i => Tiles.go0 m d (Fin.cast (nCore_eq 0) c) (Fin.cast (nSub_eq 0) i)
    | 1, c, i => Tiles.go1 m d (Fin.cast (nCore_eq 1) c) (Fin.cast (nSub_eq 1) i)
  td := fun q d c i => match q, c, i with
    | 0, c, i => Tiles.td0 m d (Fin.cast (nCore_eq 0) c) (Fin.cast (nSub_eq 0) i)
    | 1, c, i => Tiles.td1 m d (Fin.cast (nCore_eq 1) c) (Fin.cast (nSub_eq 1) i)
  x := fun _ _ => iprop(emp)

instance dite_storable {c : Prop} [Decidable c] {X : c → sProp 𝕄} {Y : ¬ c → sProp 𝕄}
    [∀ h, BI.Storable (upEmb : UEmb _ 𝕄) (X h)] [∀ h, BI.Storable (upEmb : UEmb _ 𝕄) (Y h)] :
    BI.Storable (upEmb : UEmb _ 𝕄) (dite c X Y) := by
  split <;> infer_instance
instance ite_storable {c : Prop} [Decidable c] {X Y : sProp 𝕄}
    [BI.Storable (upEmb : UEmb _ 𝕄) X] [BI.Storable (upEmb : UEmb _ 𝕄) Y] :
    BI.Storable (upEmb : UEmb _ 𝕄) (ite c X Y) := by
  split <;> infer_instance

instance P_storable : (P (F := F) m).IsStorable where
  st q d c := match q, c with
    | 0, c => by show BI.Storable _ (st0 m d _); unfold st0 own0 Tiles.slabOwn; infer_instance
    | 1, c => by show BI.Storable _ (st1 m d _); unfold st1 own1; infer_instance
  dn q d c := match q, c with
    | 0, c => by show BI.Storable _ (dn0 m d _); unfold dn0 ret0 Tiles.slabOwn; infer_instance
    | 1, c => by show BI.Storable _ (dn1 m d _); unfold dn1 ret1; infer_instance
  go q d c i := match q, c, i with
    | 0, c, i => by show BI.Storable _ (Tiles.go0 m d _ _); unfold Tiles.go0 Tiles.slabOwn; infer_instance
    | 1, c, i => by show BI.Storable _ (Tiles.go1 m d _ _); unfold Tiles.go1; infer_instance
  td q d c i := match q, c, i with
    | 0, c, i => by show BI.Storable _ (Tiles.td0 m d _ _); unfold Tiles.td0 Tiles.slabOwn; infer_instance
    | 1, c, i => by show BI.Storable _ (Tiles.td1 m d _ _); unfold Tiles.td1; infer_instance

/-! ## The two tile kernels' obligations, from their bodies -/

variable [FloatOps F]

/-- The vector subcore at coordinates L of the repacking call's grid, and of the gather call's. -/
abbrev thr0 (d : Dev nD) (L : grid0.Coords) : Thread nD τ := V d ((L 0).castLE hcore0) ((L 1).castLE hsub0)
abbrev thr1 (d : Dev nD) (L : grid1.Coords) : Thread nD τ := V d ((L 0).castLE hcore1) ((L 1).castLE hsub1)

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

/-- The repacking kernel's body at a symbolic tile: from what the tile is handed to what it hands back. -/
def TB0 : Prop :=
  ∀ (d : Dev nD) (L : grid0.Coords) (O : CellTallies nD τ sig (HIx 2)) (W : Waits sig (HIx 2)), (∀ g, O g none = 0) →
    iprop(levAts (K (F := F)).L (K (F := F)).lev ∗ Tiles.go0 m d (Tiles.c0Of L) (Tiles.s0Of L) ∗ scopedBufs (thr0 d L) ∗ scopedSems0 (thr0 d L)
        ∗ owes (thr0 d L) O W)
      ⊢ wp frame (wpE (defs₀ (F := F)) 𝒱₀ (thr0 d L) none) Set.univ
          (cc0_k L (Memref.whole main_v2_scv) (Memref.isWhole_whole _) (Memref.whole main_v4_scv) (Memref.isWhole_whole _)
            (Memref.whole main_v5_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scoped0 cc0_scoped1)
          fun _ => iprop(Tiles.td0 m d (Tiles.c0Of L) (Tiles.s0Of L) ∗ scopedBufs (thr0 d L) ∗ scopedSems0 (thr0 d L)
            ∗ ∃ W', ⌜∀ p ∈ W', p ∈ W ∨ p.2 = none⌝ ∗ owes (thr0 d L) O W')

/-- The gather kernel's body at a symbolic tile. -/
def TB1 : Prop :=
  ∀ (d : Dev nD) (L : grid1.Coords) (O : CellTallies nD τ sig (HIx 2)) (W : Waits sig (HIx 2)), (∀ g, O g none = 0) →
    iprop(levAts (K (F := F)).L (K (F := F)).lev ∗ Tiles.go1 m d (Tiles.c1Of L) (Tiles.s1Of L) ∗ scopedBufs (thr1 d L) ∗ scopedSems0 (thr1 d L)
        ∗ owes (thr1 d L) O W)
      ⊢ wp frame (wpE (defs₀ (F := F)) 𝒱₀ (thr1 d L) none) Set.univ
          (cc1_k L (Memref.whole main_v1_scv) (Memref.isWhole_whole _) (Memref.whole main_v5_scv) (Memref.isWhole_whole _)
            (Memref.whole main_v6_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6 cc1_scratch7 cc1_scoped0)
          fun _ => iprop(Tiles.td1 m d (Tiles.c1Of L) (Tiles.s1Of L) ∗ scopedBufs (thr1 d L) ∗ scopedSems0 (thr1 d L)
            ∗ ∃ W', ⌜∀ p ∈ W', p ∈ W ∨ p.2 = none⌝ ∗ owes (thr1 d L) O W')

theorem defs₀_vector0 (c : Fin τ.nSC) (s : Fin τ.nSub) :
    defs₀ (F := F) (.scVector c s) 0 ()
      = SparseCore.onTile hcore0 hsub0 (fun c s => cc0_k (coords0 c s)
          (Memref.whole main_v2_scv) (Memref.isWhole_whole _) (Memref.whole main_v4_scv) (Memref.isWhole_whole _)
          (Memref.whole main_v5_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scoped0 cc0_scoped1) ⟨⟩ c s := rfl

theorem defs₀_vector1 (c : Fin τ.nSC) (s : Fin τ.nSub) :
    defs₀ (F := F) (.scVector c s) 1 ()
      = SparseCore.onTile hcore1 hsub1 (fun c s => cc1_k (coords1 c s)
          (Memref.whole main_v1_scv) (Memref.isWhole_whole _) (Memref.whole main_v5_scv) (Memref.isWhole_whole _)
          (Memref.whole main_v6_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scratch6 cc1_scratch7 cc1_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (tb0 : TB0 (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  refine BIBase.Entails.trans ?_ ((tb0 d (coords0 ⟨_, hc.1⟩ ⟨_, hc.2⟩) O W hO).trans (wp_mono frame _ _ fun _ => obl_post))
  iintro ⟨Hl, -, H⟩
  isplitl [Hl]; · iexact Hl
  iexact H

theorem tileObl1 (tb1 : TB1 (F := F) m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  refine BIBase.Entails.trans ?_ ((tb1 d (coords1 ⟨_, hc.1⟩ ⟨_, hc.2⟩) O W hO).trans (wp_mono frame _ _ fun _ => obl_post))
  iintro ⟨Hl, -, H⟩
  isplitl [Hl]; · iexact Hl
  iexact H

/-! ## A SparseCore's share among its sixteen tiles -/

omit [FloatOps F] in
theorem toks_halve {ℓ : Loc nD τ sig} (f : Buf (Elt F) ℓ) (c : Fin 2) :
    (bigSep Finset.univ fun s : Fin 16 => (ℓ ↦{Tiles.tileShare c s} f : sProp 𝕄))
      ⊢ iprop((bigSep Finset.univ fun s : Fin 16 => ℓ ↦{(Tiles.tileShare c s).left} f)
          ∗ bigSep Finset.univ fun s : Fin 16 => ℓ ↦{(Tiles.tileShare c s).right} f) := by
  rw [← bigSep_sep']
  exact bigSep_mono fun s _ => (pointsTo_share (PosShare.mem_left_op_right _)).1

omit [FloatOps F] in
theorem toks_unhalve {ℓ : Loc nD τ sig} (f : Buf (Elt F) ℓ) (c : Fin 2) :
    iprop((bigSep Finset.univ fun s : Fin 16 => ℓ ↦{(Tiles.tileShare c s).left} f)
          ∗ bigSep Finset.univ fun s : Fin 16 => ℓ ↦{(Tiles.tileShare c s).right} f)
      ⊢ (bigSep Finset.univ fun s : Fin 16 => (ℓ ↦{Tiles.tileShare c s} f : sProp 𝕄)) := by
  rw [← bigSep_sep']
  exact bigSep_mono fun s _ => (pointsTo_share (PosShare.mem_left_op_right _)).2

omit [FloatOps F] in
/-- A SparseCore's share of an array it only reads: one token per tile, and a remainder that stays with the core. -/
theorem core_toks {ℓ : Loc nD τ sig} (f : Buf (Elt F) ℓ) (c : Fin 2) :
    (ℓ ↦{Tiles.coreShare c} f : sProp 𝕄)
      ⊣⊢ iprop((ℓ ↦{Transfers.shareDrop (Tiles.coreShare c) 16} f) ∗ bigSep Finset.univ fun s : Fin 16 => ℓ ↦{Tiles.tileShare c s} f) :=
  Transfers.pointsTo_toks (Tiles.coreShare c) 16

omit [FloatOps F] in
theorem bigSep_tiles (q : Fin 2) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)

open Tiles in
omit [FloatOps F] in
theorem go0_eq (d : Dev nD) (c : Fin 2) (s : Fin 16) : go0 m d c s
    = iprop((tabTLoc d ↦{(tileShare c s).left} (Cert.Lookup.tabT (TAB m d) : Buf (Elt F) (tabTLoc d)))
      ∗ (tabTLoc d ↦{(tileShare c s).right} (Cert.Lookup.tabT (TAB m d) : Buf (Elt F) (tabTLoc d)))
      ∗ (tailLoc d ↦{tileShare c s} (Cert.Lookup.tailT (TAB m d) : Buf (Elt F) (tailLoc d)))
      ∗ own0 d c s) := rfl
open Tiles in
omit [FloatOps F] in
theorem td0_eq (d : Dev nD) (c : Fin 2) (s : Fin 16) : td0 m d c s
    = iprop((tabTLoc d ↦{(tileShare c s).left} (Cert.Lookup.tabT (TAB m d) : Buf (Elt F) (tabTLoc d)))
      ∗ (tabTLoc d ↦{(tileShare c s).right} (Cert.Lookup.tabT (TAB m d) : Buf (Elt F) (tabTLoc d)))
      ∗ (tailLoc d ↦{tileShare c s} (Cert.Lookup.tailT (TAB m d) : Buf (Elt F) (tailLoc d)))
      ∗ ret0 m d c s) := rfl
open Tiles in
omit [FloatOps F] in
theorem go1_eq (d : Dev nD) (c : Fin 2) (s : Fin 16) : go1 m d c s
    = iprop((flatLoc d ↦{tileShare c s} (Cert.Lookup.flatIds (IDS m d) : Buf (Elt F) (flatLoc d)))
      ∗ (pairsLoc d ↦{(tileShare c s).left} (Cert.Lookup.pairs (TAB m d) : Buf (Elt F) (pairsLoc d)))
      ∗ (pairsLoc d ↦{(tileShare c s).right} (Cert.Lookup.pairs (TAB m d) : Buf (Elt F) (pairsLoc d)))
      ∗ own1 d c s) := rfl
open Tiles in
omit [FloatOps F] in
theorem td1_eq (d : Dev nD) (c : Fin 2) (s : Fin 16) : td1 m d c s
    = iprop((flatLoc d ↦{tileShare c s} (Cert.Lookup.flatIds (IDS m d) : Buf (Elt F) (flatLoc d)))
      ∗ (pairsLoc d ↦{(tileShare c s).left} (Cert.Lookup.pairs (TAB m d) : Buf (Elt F) (pairsLoc d)))
      ∗ (pairsLoc d ↦{(tileShare c s).right} (Cert.Lookup.pairs (TAB m d) : Buf (Elt F) (pairsLoc d)))
      ∗ ret1 m d c s) := rfl

open Tiles in
omit [FloatOps F] in
/-- The repacking call: a SparseCore's read shares are dealt to its tiles (the table's halved again, for the two
    copies a tile keeps in flight), the owned parts go to their tiles; handed back, they rejoin. -/
theorem core_split0 (d : Dev nD) (c : Fin 2) :
    st0 m d c ⊢ |={Set.univ}=> iprop((bigSep Finset.univ fun s : Fin 16 => go0 m d c s)
      ∗ ((bigSep Finset.univ fun s : Fin 16 => td0 m d c s) -∗ dn0 m d c)) := by
  rw [bigSep_congr (fun s _ => go0_eq m d c s), bigSep_congr (fun s _ => td0_eq m d c s),
    bigSep_sep', bigSep_sep', bigSep_sep', bigSep_sep', bigSep_sep', bigSep_sep']
  unfold st0 dn0
  have hh := toks_halve (ℓ := tabTLoc d) (Cert.Lookup.tabT (TAB m d) : Buf (Elt F) (tabTLoc d)) c
  have hu := toks_unhalve (ℓ := tabTLoc d) (Cert.Lookup.tabT (TAB m d) : Buf (Elt F) (tabTLoc d)) c
  have hT := core_toks (ℓ := tabTLoc d) (Cert.Lookup.tabT (TAB m d) : Buf (Elt F) (tabTLoc d)) c
  have hL := core_toks (ℓ := tailLoc d) (Cert.Lookup.tailT (TAB m d) : Buf (Elt F) (tailLoc d)) c
  iintro ⟨HT, HL, Hown⟩
  ihave HT' := hT.1 $$ HT
  icases HT' with ⟨HTd, HTt⟩
  ihave HT2 := hh $$ HTt
  icases HT2 with ⟨HTl, HTr⟩
  ihave HL' := hL.1 $$ HL
  icases HL' with ⟨HLd, HLt⟩
  imodintro
  isplitl [HTl HTr HLt Hown]
  · isplitl [HTl]; · iexact HTl
    isplitl [HTr]; · iexact HTr
    isplitl [HLt]; · iexact HLt
    iexact Hown
  iintro ⟨HTl, HTr, HLt, Hret⟩
  isplitl [HTd HTl HTr]
  · iapply hT.2
    isplitl [HTd]; · iexact HTd
    iapply hu
    isplitl [HTl]; · iexact HTl
    iexact HTr
  isplitl [HLd HLt]
  · iapply hL.2
    isplitl [HLd]; · iexact HLd
    iexact HLt
  iexact Hret

open Tiles in
omit [FloatOps F] in
/-- The gather call: likewise, the pair table's share halved for a tile's two gathers in flight. -/
theorem core_split1 (d : Dev nD) (c : Fin 2) :
    st1 m d c ⊢ |={Set.univ}=> iprop((bigSep Finset.univ fun s : Fin 16 => go1 m d c s)
      ∗ ((bigSep Finset.univ fun s : Fin 16 => td1 m d c s) -∗ dn1 m d c)) := by
  rw [bigSep_congr (fun s _ => go1_eq m d c s), bigSep_congr (fun s _ => td1_eq m d c s),
    bigSep_sep', bigSep_sep', bigSep_sep', bigSep_sep', bigSep_sep', bigSep_sep']
  unfold st1 dn1
  have hh := toks_halve (ℓ := pairsLoc d) (Cert.Lookup.pairs (TAB m d) : Buf (Elt F) (pairsLoc d)) c
  have hu := toks_unhalve (ℓ := pairsLoc d) (Cert.Lookup.pairs (TAB m d) : Buf (Elt F) (pairsLoc d)) c
  have hT := core_toks (ℓ := pairsLoc d) (Cert.Lookup.pairs (TAB m d) : Buf (Elt F) (pairsLoc d)) c
  have hL := core_toks (F := F) (ℓ := flatLoc d) (Cert.Lookup.flatIds (IDS m d) : Buf (Elt F) (flatLoc d)) c
  iintro ⟨HL, HT, Hown⟩
  ihave HT' := hT.1 $$ HT
  icases HT' with ⟨HTd, HTt⟩
  ihave HT2 := hh $$ HTt
  icases HT2 with ⟨HTl, HTr⟩
  ihave HL' := hL.1 $$ HL
  icases HL' with ⟨HLd, HLt⟩
  imodintro
  isplitl [HTl HTr HLt Hown]
  · isplitl [HLt]; · iexact HLt
    isplitl [HTl]; · iexact HTl
    isplitl [HTr]; · iexact HTr
    iexact Hown
  iintro ⟨HLt, HTl, HTr, Hret⟩
  isplitl [HLd HLt]
  · iapply hL.2
    isplitl [HLd]; · iexact HLd
    iexact HLt
  isplitl [HTd HTl HTr]
  · iapply hT.2
    isplitl [HTd]; · iexact HTd
    iapply hu
    isplitl [HTl]; · iexact HTl
    iexact HTr
  iexact Hret

omit [FloatOps F] in
theorem vecSplit0 : (K (F := F)).VecSplit' (P m) 0 := by
  intro d c
  show st0 m d (Fin.cast (nCore_eq 0) c) ⊢ |={Set.univ}=> iprop(
      (bigSep Finset.univ fun i : Fin ((K (F := F)).nSub 0) => Tiles.go0 m d (Fin.cast (nCore_eq 0) c) (Fin.cast (nSub_eq 0) i))
      ∗ ((bigSep Finset.univ fun i : Fin ((K (F := F)).nSub 0) => Tiles.td0 m d (Fin.cast (nCore_eq 0) c) (Fin.cast (nSub_eq 0) i))
          -∗ dn0 m d (Fin.cast (nCore_eq 0) c)))
  rw [bigSep_tiles (F := F) 0 (fun s => Tiles.go0 m d (Fin.cast (nCore_eq 0) c) s),
    bigSep_tiles (F := F) 0 (fun s => Tiles.td0 m d (Fin.cast (nCore_eq 0) c) s)]
  exact core_split0 m d _

omit [FloatOps F] in
theorem vecSplit1 : (K (F := F)).VecSplit' (P m) 1 := by
  intro d c
  show st1 m d (Fin.cast (nCore_eq 1) c) ⊢ |={Set.univ}=> iprop(
      (bigSep Finset.univ fun i : Fin ((K (F := F)).nSub 1) => Tiles.go1 m d (Fin.cast (nCore_eq 1) c) (Fin.cast (nSub_eq 1) i))
      ∗ ((bigSep Finset.univ fun i : Fin ((K (F := F)).nSub 1) => Tiles.td1 m d (Fin.cast (nCore_eq 1) c) (Fin.cast (nSub_eq 1) i))
          -∗ dn1 m d (Fin.cast (nCore_eq 1) c)))
  rw [bigSep_tiles (F := F) 1 (fun s => Tiles.go1 m d (Fin.cast (nCore_eq 1) c) s),
    bigSep_tiles (F := F) 1 (fun s => Tiles.td1 m d (Fin.cast (nCore_eq 1) c) s)]
  exact core_split1 m d _

/-! ## Sums over the tiles, reindexed -/

omit [FloatOps F] in
/-- A sum over a finite type whose terms are trivial off the range of an injection is the sum along it. -/
theorem bigSep_univ_inj {I J : Type} [Fintype I] [Fintype J] [DecidableEq I] [DecidableEq J] (g : J → I)
    (hg : Function.Injective g) (Ψ : I → sProp 𝕄) (h0 : ∀ x, (∀ j, g j ≠ x) → Ψ x = iprop(emp)) :
    bigSep Finset.univ Ψ = bigSep Finset.univ fun j => Ψ (g j) := by
  rw [BI.bigSep_sdiff_split (Finset.subset_univ (Finset.univ.image g)), BI.bigSep_image_of_injOn hg.injOn,
    bigSep_congr (s := Finset.univ \ Finset.univ.image g) (Ψ := fun _ => iprop(emp))
      (fun x hx => h0 x fun j e => (Finset.mem_sdiff.mp hx).2 (Finset.mem_image.mpr ⟨j, Finset.mem_univ j, e⟩)),
    show (bigSep (Finset.univ \ Finset.univ.image g) fun _ : I => (iprop(emp) : sProp 𝕄)) = iprop(emp) from bigSep_emp_const _]
  exact BI.equiv_iff.mp sep_emp

/-- Slab number cc belongs to tile (cc % 2, cc % 32 / 2), as its slab number cc / 32. -/
def slabIx (cc : Fin 3906) : Fin 2 × Fin 16 × Fin 123 :=
  (⟨cc.val % 2, Nat.mod_lt _ (by decide)⟩, ⟨cc.val % 32 / 2, by omega⟩, ⟨cc.val / 32, by have := cc.isLt; omega⟩)

theorem slabIx_inj : Function.Injective slabIx := by
  intro a b e
  have h1 : a.val % 2 = b.val % 2 := congrArg (fun x => x.1.val) e
  have h2 : a.val % 32 / 2 = b.val % 32 / 2 := congrArg (fun x => x.2.1.val) e
  have h3 : a.val / 32 = b.val / 32 := congrArg (fun x => x.2.2.val) e
  exact Fin.ext (by omega)

open Tiles in
omit [FloatOps F] in
/-- Every slab belongs to exactly one tile: the tiles' slabs together are all the slabs. -/
theorem slab_reindex (Φ : Fin 3906 → sProp 𝕄) :
    (bigSep Finset.univ fun c : Fin 2 => bigSep Finset.univ fun s : Fin 16 => slabOwn Φ c s) = bigSep Finset.univ Φ := by
  let Ψ : Fin 2 × Fin 16 × Fin 123 → sProp 𝕄 := fun x =>
    if h : wid x.1 x.2.1 + 32 * x.2.2.val < 3906 then Φ ⟨wid x.1 x.2.1 + 32 * x.2.2.val, h⟩ else iprop(emp)
  have e1 : (bigSep Finset.univ fun c : Fin 2 => bigSep Finset.univ fun s : Fin 16 => slabOwn Φ c s) = bigSep Finset.univ Ψ :=
    ((BI.bigSep_univ_prod Ψ).trans (bigSep_congr fun c _ => BI.bigSep_univ_prod (fun y : Fin 16 × Fin 123 => Ψ (c, y)))).symm
  have h0 : ∀ x, (∀ j, slabIx j ≠ x) → Ψ x = iprop(emp) := by
    intro x hx
    show (if h : _ then _ else _) = _
    rw [dif_neg]
    intro h
    refine hx ⟨wid x.1 x.2.1 + 32 * x.2.2.val, h⟩ ?_
    obtain ⟨c, s, t⟩ := x
    have := c.isLt; have := s.isLt
    refine Prod.ext (Fin.ext ?_) (Prod.ext (Fin.ext ?_) (Fin.ext ?_))
    · show (2 * s.val + c.val + 32 * t.val) % 2 = c.val; omega
    · show (2 * s.val + c.val + 32 * t.val) % 32 / 2 = s.val; omega
    · show (2 * s.val + c.val + 32 * t.val) / 32 = t.val; omega
  rw [e1, bigSep_univ_inj slabIx slabIx_inj Ψ h0]
  refine bigSep_congr fun cc _ => ?_
  have h : wid (slabIx cc).1 (slabIx cc).2.1 + 32 * (slabIx cc).2.2.val = cc.val := by
    show 2 * (cc.val % 32 / 2) + cc.val % 2 + 32 * (cc.val / 32) = cc.val; omega
  show (if h : _ then _ else _) = _
  rw [dif_pos (by rw [h]; exact cc.isLt)]
  exact congrArg Φ (Fin.ext h)

open Tiles in
omit [FloatOps F] in
/-- Only tile (0, 0) has the number 0. -/
theorem tail_reindex (X : sProp 𝕄) :
    (bigSep Finset.univ fun c : Fin 2 => bigSep Finset.univ fun s : Fin 16 => if wid c s = 0 then X else iprop(emp)) = X := by
  let Ψ : Fin 2 × Fin 16 → sProp 𝕄 := fun x => if wid x.1 x.2 = 0 then X else iprop(emp)
  have e1 : (bigSep Finset.univ fun c : Fin 2 => bigSep Finset.univ fun s : Fin 16 => if wid c s = 0 then X else iprop(emp))
      = bigSep Finset.univ Ψ := (BI.bigSep_univ_prod Ψ).symm
  have h0 : ∀ x, (∀ j : Unit, ((0 : Fin 2), (0 : Fin 16)) ≠ x) → Ψ x = iprop(emp) := by
    intro x hx
    show (if _ then _ else _) = _
    rw [if_neg]
    intro h
    refine hx () ?_
    obtain ⟨c, s⟩ := x
    have h' : 2 * s.val + c.val = 0 := h
    exact Prod.ext (Fin.ext (by show 0 = c.val; omega)) (Fin.ext (by show 0 = s.val; omega))
  rw [e1, bigSep_univ_inj (fun _ : Unit => ((0 : Fin 2), (0 : Fin 16))) (fun _ _ _ => rfl) Ψ h0, Finset.univ_unique, bigSep_singleton]
  exact if_pos rfl

/-- Block number blk belongs to tile (blk / 104 % 2, blk / 104 / 2), as its block number blk % 104. -/
def blkIx (x : Fin 2 × Fin 16 × Fin 104) : Fin 3328 := Tiles.blkOf x.1 x.2.1 x.2.2

theorem blkIx_bij : Function.Bijective blkIx := by
  refine (Fintype.bijective_iff_injective_and_card _).2 ⟨?_, by simp⟩
  intro a b e
  obtain ⟨c, s, k⟩ := a; obtain ⟨c', s', k'⟩ := b
  have h : 104 * (2 * s.val + c.val) + k.val = 104 * (2 * s'.val + c'.val) + k'.val := congrArg Fin.val e
  have := c.isLt; have := c'.isLt; have := k.isLt; have := k'.isLt
  refine Prod.ext (Fin.ext ?_) (Prod.ext (Fin.ext ?_) (Fin.ext ?_))
  · show c.val = c'.val; omega
  · show s.val = s'.val; omega
  · show k.val = k'.val; omega

open Tiles in
omit [FloatOps F] in
/-- Every block belongs to exactly one tile: the tiles' windows together are all the windows. -/
theorem blk_reindex (Φ : Fin 3328 × Fin 8 → sProp 𝕄) :
    (bigSep Finset.univ fun c : Fin 2 => bigSep Finset.univ fun s : Fin 16 =>
        bigSep (Finset.univ : Finset (Fin 104 × Fin 8)) fun p => Φ (blkOf c s p.1, p.2))
      = bigSep Finset.univ Φ := by
  let Ψ : Fin 3328 → sProp 𝕄 := fun blk => bigSep Finset.univ fun d8 : Fin 8 => Φ (blk, d8)
  have e1 : (bigSep Finset.univ fun c : Fin 2 => bigSep Finset.univ fun s : Fin 16 =>
        bigSep (Finset.univ : Finset (Fin 104 × Fin 8)) fun p => Φ (blkOf c s p.1, p.2))
      = bigSep Finset.univ fun x : Fin 2 × Fin 16 × Fin 104 => Ψ (blkIx x) :=
    ((BI.bigSep_univ_prod (fun x : Fin 2 × Fin 16 × Fin 104 => Ψ (blkIx x))).trans (bigSep_congr fun c _ =>
      (BI.bigSep_univ_prod (fun y : Fin 16 × Fin 104 => Ψ (blkIx (c, y)))).trans (bigSep_congr fun s _ =>
        (BI.bigSep_univ_prod (fun p : Fin 104 × Fin 8 => Φ (blkOf c s p.1, p.2))).symm))).symm
  rw [e1]
  exact (BI.bigSep_univ_equiv (Equiv.ofBijective blkIx blkIx_bij) Ψ).symm.trans (BI.bigSep_univ_prod Φ).symm

omit [FloatOps F] in
/-- One choice serves every term of a sum of existentials. -/
theorem bigSep_exists_intro {I B : Type} (s : Finset I) (Φ : I → B → sProp 𝕄) (f : B) :
    (bigSep s fun i => Φ i f) ⊢ bigSep s fun i => iprop(∃ f, Φ i f) :=
  bigSep_mono fun i _ => exists_intro (Φ := Φ i) f

/-! ## The two arrays the tiles own parts of, whole and in parts -/

open Tiles in
omit [FloatOps F] in
/-- The pair table whole is its 3906 slabs and its last 32 lines. -/
theorem pairs_parts (d : Dev nD) (g : Buf (Elt F) (pairsLoc d)) :
    (pairsLoc d ↦{fullShare} g : sProp 𝕄)
      = iprop((bigSep Finset.univ fun cc : Fin 3906 => pairsLoc d ↦[pairSet cc]{fullShare} g) ∗ pairsLoc d ↦[tailSet]{fullShare} g) := by
  have hd : Disjoint ((Finset.univ : Finset (Fin 3906)).biUnion pairSet) tailSet :=
    (Finset.disjoint_biUnion_left _ _ _).mpr fun cc _ => Parts.pairSet_tail_disjoint cc
  have hu : (pairsLoc d ↦[(Finset.univ : Finset (Fin 3906)).biUnion pairSet ∪ tailSet]{fullShare} g : sProp 𝕄)
      ⊣⊢ iprop((pairsLoc d ↦[(Finset.univ : Finset (Fin 3906)).biUnion pairSet]{fullShare} g) ∗ pairsLoc d ↦[tailSet]{fullShare} g) :=
    pointsTo_union hd
  rw [← pointsTo_biUnion Finset.univ (ℓ := pairsLoc d) pairSet (fun a _ b _ h => Parts.pairSet_disjoint a b h),
    ← BI.equiv_iff.mp ⟨hu.1, hu.2⟩, Parts.pair_cover]
  try rfl

open Tiles in
omit [FloatOps F] in
/-- The feature-major result whole is its 3328 × 8 windows. -/
theorem out_parts (d : Dev nD) (g : Buf (Elt F) (out5Loc d)) :
    (out5Loc d ↦{fullShare} g : sProp 𝕄)
      = bigSep Finset.univ fun p : Fin 3328 × Fin 8 => out5Loc d ↦[outSet p.1 p.2]{fullShare} g := by
  rw [← pointsTo_biUnion Finset.univ (ℓ := out5Loc d) (fun p : Fin 3328 × Fin 8 => outSet p.1 p.2)
    (fun a _ b _ h => Parts.outSet_disjoint a b h), Parts.out_cover]
  try rfl

open Tiles in
omit [FloatOps F] in
theorem own0_all (d : Dev nD) :
    (bigSep Finset.univ fun c : Fin 2 => bigSep Finset.univ fun s : Fin 16 => own0 (F := F) d c s)
      = iprop((bigSep Finset.univ fun cc : Fin 3906 => iprop(∃ f, pairsLoc d ↦[pairSet cc]{fullShare} f))
          ∗ ∃ f, pairsLoc d ↦[tailSet]{fullShare} f) := by
  unfold own0
  rw [bigSep_congr (fun c _ => bigSep_sep' Finset.univ
      (fun s : Fin 16 => slabOwn (fun cc => iprop(∃ f, pairsLoc d ↦[pairSet cc]{fullShare} f)) c s)
      (fun s : Fin 16 => if wid c s = 0 then iprop(∃ f, pairsLoc d ↦[tailSet]{fullShare} f) else iprop(emp))),
    bigSep_sep', slab_reindex, tail_reindex]

open Tiles in
omit [FloatOps F] in
theorem ret0_all (d : Dev nD) :
    (bigSep Finset.univ fun c : Fin 2 => bigSep Finset.univ fun s : Fin 16 => ret0 m d c s)
      = (pairsLoc d ↦{fullShare} (Cert.Lookup.pairs (TAB m d) : Buf (Elt F) (pairsLoc d)) : sProp 𝕄) := by
  unfold ret0
  rw [bigSep_congr (fun c _ => bigSep_sep' Finset.univ
      (fun s : Fin 16 => slabOwn (fun cc => pairsLoc d ↦[pairSet cc]{fullShare} (Cert.Lookup.pairs (TAB m d) : Buf (Elt F) (pairsLoc d))) c s)
      (fun s : Fin 16 => if wid c s = 0 then (pairsLoc d ↦[tailSet]{fullShare} (Cert.Lookup.pairs (TAB m d) : Buf (Elt F) (pairsLoc d))) else iprop(emp))),
    bigSep_sep', slab_reindex, tail_reindex, ← pairs_parts]

open Tiles in
omit [FloatOps F] in
theorem own1_all (d : Dev nD) :
    (bigSep Finset.univ fun c : Fin 2 => bigSep Finset.univ fun s : Fin 16 => own1 (F := F) d c s)
      = bigSep Finset.univ fun p : Fin 3328 × Fin 8 => iprop(∃ f, out5Loc d ↦[outSet p.1 p.2]{fullShare} f) :=
  blk_reindex (fun p : Fin 3328 × Fin 8 => iprop(∃ f, out5Loc d ↦[outSet p.1 p.2]{fullShare} f))

open Tiles in
omit [FloatOps F] in
theorem ret1_all (d : Dev nD) :
    (bigSep Finset.univ fun c : Fin 2 => bigSep Finset.univ fun s : Fin 16 => ret1 m d c s)
      = (out5Loc d ↦{fullShare} (Cert.Lookup.out5 (IDS m d) (TAB m d) : Buf (Elt F) (out5Loc d)) : sProp 𝕄) :=
  (blk_reindex (fun p : Fin 3328 × Fin 8 =>
    (out5Loc d ↦[outSet p.1 p.2]{fullShare} (Cert.Lookup.out5 (IDS m d) (TAB m d) : Buf (Elt F) (out5Loc d))))).trans (out_parts d _).symm

open Tiles in
omit [FloatOps F] in
/-- The full share of an array both SparseCores read is the two cores' halves. -/
theorem cores_share {ℓ : Loc nD τ sig} (f : Buf (Elt F) ℓ) :
    (ℓ ↦{fullShare} f : sProp 𝕄) ⊣⊢ bigSep Finset.univ fun c : Fin 2 => ℓ ↦{coreShare c} f := by
  rw [BI.bigSep_univ_two]
  exact pointsTo_share (PosShare.mem_left_op_right fullShare)

open Tiles in
omit [FloatOps F] in
/-- Into the repacking call: the transposed table and tail whole, the pair table whole holding anything. -/
theorem call0_in (d : Dev nD) (f : Buf (Elt F) (pairsLoc d)) :
    iprop((tabTLoc d ↦{fullShare} (Cert.Lookup.tabT (TAB m d) : Buf (Elt F) (tabTLoc d)))
        ∗ (tailLoc d ↦{fullShare} (Cert.Lookup.tailT (TAB m d) : Buf (Elt F) (tailLoc d)))
        ∗ pairsLoc d ↦{fullShare} f)
      ⊢ (bigSep Finset.univ fun c : Fin 2 => st0 m d c : sProp 𝕄) := by
  unfold st0
  rw [bigSep_sep', bigSep_sep', own0_all]
  have h1 := cores_share (ℓ := tabTLoc d) (Cert.Lookup.tabT (TAB m d) : Buf (Elt F) (tabTLoc d))
  have h2 := cores_share (ℓ := tailLoc d) (Cert.Lookup.tailT (TAB m d) : Buf (Elt F) (tailLoc d))
  have hm : (bigSep Finset.univ fun cc : Fin 3906 => (pairsLoc d ↦[pairSet cc]{fullShare} f : sProp 𝕄))
      ⊢ bigSep Finset.univ fun cc : Fin 3906 => iprop(∃ f, pairsLoc d ↦[pairSet cc]{fullShare} f) :=
    bigSep_exists_intro Finset.univ (fun (cc : Fin 3906) (f : Buf (Elt F) (pairsLoc d)) => (pairsLoc d ↦[pairSet cc]{fullShare} f : sProp 𝕄)) f
  rw [pairs_parts d f]
  exact BIClass.sep_mono h1.1 (BIClass.sep_mono h2.1
    (BIClass.sep_mono hm (exists_intro (Φ := fun f => (pairsLoc d ↦[tailSet]{fullShare} f : sProp 𝕄)) f)))

open Tiles in
omit [FloatOps F] in
/-- Out of the repacking call: the pair table whole, holding the pair table's entries. -/
theorem call0_out (d : Dev nD) :
    (bigSep Finset.univ fun c : Fin 2 => dn0 m d c : sProp 𝕄)
      ⊢ iprop((tabTLoc d ↦{fullShare} (Cert.Lookup.tabT (TAB m d) : Buf (Elt F) (tabTLoc d)))
        ∗ (tailLoc d ↦{fullShare} (Cert.Lookup.tailT (TAB m d) : Buf (Elt F) (tailLoc d)))
        ∗ pairsLoc d ↦{fullShare} (Cert.Lookup.pairs (TAB m d) : Buf (Elt F) (pairsLoc d))) := by
  unfold dn0
  rw [bigSep_sep', bigSep_sep', ret0_all]
  have h1 := cores_share (ℓ := tabTLoc d) (Cert.Lookup.tabT (TAB m d) : Buf (Elt F) (tabTLoc d))
  have h2 := cores_share (ℓ := tailLoc d) (Cert.Lookup.tailT (TAB m d) : Buf (Elt F) (tailLoc d))
  iintro ⟨HT, HL, HP⟩
  isplitl [HT]; · iapply h1.2; iexact HT
  isplitl [HL]; · iapply h2.2; iexact HL
  iexact HP

open Tiles in
omit [FloatOps F] in
/-- Into the gather call: the flat index list and the pair table whole, the result whole holding anything. -/
theorem call1_in (d : Dev nD) (f : Buf (Elt F) (out5Loc d)) :
    iprop((flatLoc d ↦{fullShare} (Cert.Lookup.flatIds (IDS m d) : Buf (Elt F) (flatLoc d)))
        ∗ (pairsLoc d ↦{fullShare} (Cert.Lookup.pairs (TAB m d) : Buf (Elt F) (pairsLoc d)))
        ∗ out5Loc d ↦{fullShare} f)
      ⊢ (bigSep Finset.univ fun c : Fin 2 => st1 m d c : sProp 𝕄) := by
  unfold st1
  rw [bigSep_sep', bigSep_sep', own1_all]
  have h1 := cores_share (F := F) (ℓ := flatLoc d) (Cert.Lookup.flatIds (IDS m d) : Buf (Elt F) (flatLoc d))
  have h2 := cores_share (ℓ := pairsLoc d) (Cert.Lookup.pairs (TAB m d) : Buf (Elt F) (pairsLoc d))
  have hm : (bigSep Finset.univ fun p : Fin 3328 × Fin 8 => (out5Loc d ↦[outSet p.1 p.2]{fullShare} f : sProp 𝕄))
      ⊢ bigSep Finset.univ fun p : Fin 3328 × Fin 8 => iprop(∃ f, out5Loc d ↦[outSet p.1 p.2]{fullShare} f) :=
    bigSep_exists_intro Finset.univ (fun (p : Fin 3328 × Fin 8) (f : Buf (Elt F) (out5Loc d)) => (out5Loc d ↦[outSet p.1 p.2]{fullShare} f : sProp 𝕄)) f
  rw [out_parts d f]
  generalize (Finset.univ : Finset (Fin 3328 × Fin 8)) = S at hm ⊢
  exact BIClass.sep_mono h1.1 (BIClass.sep_mono h2.1 hm)

open Tiles in
omit [FloatOps F] in
/-- Out of the gather call: the result whole, holding the gathered rows. -/
theorem call1_out (d : Dev nD) :
    (bigSep Finset.univ fun c : Fin 2 => dn1 m d c : sProp 𝕄)
      ⊢ iprop((flatLoc d ↦{fullShare} (Cert.Lookup.flatIds (IDS m d) : Buf (Elt F) (flatLoc d)))
        ∗ (pairsLoc d ↦{fullShare} (Cert.Lookup.pairs (TAB m d) : Buf (Elt F) (pairsLoc d)))
        ∗ out5Loc d ↦{fullShare} (Cert.Lookup.out5 (IDS m d) (TAB m d) : Buf (Elt F) (out5Loc d))) := by
  unfold dn1
  rw [bigSep_sep', bigSep_sep', ret1_all]
  have h1 := cores_share (F := F) (ℓ := flatLoc d) (Cert.Lookup.flatIds (IDS m d) : Buf (Elt F) (flatLoc d))
  have h2 := cores_share (ℓ := pairsLoc d) (Cert.Lookup.pairs (TAB m d) : Buf (Elt F) (pairsLoc d))
  iintro ⟨HL, HT, HP⟩
  isplitl [HL]; · iapply h1.2; iexact HL
  isplitl [HT]; · iapply h2.2; iexact HT
  iexact HP

/-! ## The launch element: the handshakes' rounds; the copies' counters are not needed -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The main program on the TensorCore -/

abbrev r_arg0 : DevRef τ sig := Proc.devRef .tc (main_arg0 : Ref sig .tc)
abbrev r_arg1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)

abbrev v0Loc (d : Dev nD) : Loc nD τ sig := (SparseCore.T d).loc main_v0
abbrev v3Loc (d : Dev nD) : Loc nD τ sig := (SparseCore.T d).loc main_v3
abbrev v7Loc (d : Dev nD) : Loc nD τ sig := (SparseCore.T d).loc main_v7
abbrev v8Loc (d : Dev nD) : Loc nD τ sig := (SparseCore.T d).loc main_v8

/-- The seven host operations, as the program states them. -/
abbrev op1 : HloOp τ sig (Elt F) := StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev op2 : HloOp τ sig (Elt F) := StableHlo.reshape main_v0 main_v1 rfl shapeCasts_S26x16384_S425984
abbrev op3 : HloOp τ sig (Elt F) := StableHlo.unary main_arg1 main_v2 ((transpose S64x1000000 [1, 0] · transposes_S1000000x64_S64x1000000_1_0) : (⟨S1000000x64, .f32⟩ : BufTy).Contents (Elt F) → (⟨S64x1000000, .f32⟩ : BufTy).Contents (Elt F))
abbrev op4 : HloOp τ sig (Elt F) := StableHlo.unary main_arg1 main_v3 ((extractStridedSlice S64x64 ![999936, 0] · slices_S1000000x64_S64x64_999936_0) : (⟨S1000000x64, .f32⟩ : BufTy).Contents (Elt F) → (⟨S64x64, .f32⟩ : BufTy).Contents (Elt F))
abbrev op5 : HloOp τ sig (Elt F) := StableHlo.unary main_v3 main_v4 ((transpose S64x64 [1, 0] · transposes_S64x64_S64x64_1_0) : (⟨S64x64, .f32⟩ : BufTy).Contents (Elt F) → (⟨S64x64, .f32⟩ : BufTy).Contents (Elt F))
abbrev op6 : HloOp τ sig (Elt F) := StableHlo.unary main_v6 main_v7 ((transpose S128x128x26x8x8 [2, 4, 0, 1, 3] · transposes_S26x8x128x8x128_S128x128x26x8x8_2_4_0_1_3) : (⟨S26x8x128x8x128, .f32⟩ : BufTy).Contents (Elt F) → (⟨S128x128x26x8x8, .f32⟩ : BufTy).Contents (Elt F))
abbrev op7 : HloOp τ sig (Elt F) := StableHlo.reshape main_v7 main_v8 rfl shapeCasts_S128x128x26x8x8_S16384x26x64

/-- The TensorCore's arrays, all unscoped. -/
abbrev S11 : Finset (DevRef τ sig) := {r_arg0, r_arg1, r_v0, r_v1, r_v2, r_v3, r_v4, r_v5, r_v6, r_v7, r_v8}
/-- The arrays of the last two host operations. -/
abbrev S3 : Finset (DevRef τ sig) := {r_v6, r_v7, r_v8}

omit [FloatOps F] in
theorem held_S11 (d : Dev nD) (W : Valuation τ sig (Elt F)) :
    (held (T d) S11 W : sProp 𝕄) = iprop((Tiles.idsLoc d ↦{fullShare} W r_arg0) ∗ (Tiles.tabLoc d ↦{fullShare} W r_arg1)
      ∗ (v0Loc d ↦{fullShare} W r_v0) ∗ (Tiles.flatLoc d ↦{fullShare} W r_v1) ∗ (Tiles.tabTLoc d ↦{fullShare} W r_v2)
      ∗ (v3Loc d ↦{fullShare} W r_v3) ∗ (Tiles.tailLoc d ↦{fullShare} W r_v4) ∗ (Tiles.pairsLoc d ↦{fullShare} W r_v5)
      ∗ (Tiles.out5Loc d ↦{fullShare} W r_v6) ∗ (v7Loc d ↦{fullShare} W r_v7) ∗ v8Loc d ↦{fullShare} W r_v8) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem held_S3 (d : Dev nD) (W : Valuation τ sig (Elt F)) :
    (held (T d) S3 W : sProp 𝕄) = iprop((Tiles.out5Loc d ↦{fullShare} W r_v6) ∗ (v7Loc d ↦{fullShare} W r_v7) ∗ v8Loc d ↦{fullShare} W r_v8) := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((Tiles.idsLoc d ↦{fullShare} W main_arg0) ∗ (Tiles.tabLoc d ↦{fullShare} W main_arg1)
      ∗ (v0Loc d ↦{fullShare} W main_v0) ∗ (Tiles.flatLoc d ↦{fullShare} W main_v1) ∗ (Tiles.tabTLoc d ↦{fullShare} W main_v2)
      ∗ (v3Loc d ↦{fullShare} W main_v3) ∗ (Tiles.tailLoc d ↦{fullShare} W main_v4) ∗ (Tiles.pairsLoc d ↦{fullShare} W main_v5)
      ∗ (Tiles.out5Loc d ↦{fullShare} W main_v6) ∗ (v7Loc d ↦{fullShare} W main_v7) ∗ v8Loc d ↦{fullShare} W main_v8) := by
  unfold unscopedBufs
  rw [show (Finset.univ.filter fun b : Ref sig .tc => ¬ b.isScoped)
      = {main_arg0, main_arg1, main_v0, main_v1, main_v2, main_v3, main_v4, main_v5, main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; after the five host operations before the calls; the three last arrays after the calls;
    after the two host operations that follow. -/
def V0 (d : Dev nD) : Valuation τ sig (Elt F) := fun b => m (d, b)
def V5 (d : Dev nD) : Valuation τ sig (Elt F) := StableHlo.after [op1 (F := F), op2, op3, op4, op5] (V0 m d)
def W6 (d : Dev nD) : Valuation τ sig (Elt F) :=
  Function.update (V5 m d) r_v6 (Cert.Lookup.out5 (Tiles.IDS m d) (Tiles.TAB m d) : Buf (Elt F) (Tiles.out5Loc d))
def V8 (d : Dev nD) : Valuation τ sig (Elt F) := StableHlo.after [op6 (F := F), op7] (W6 m d)

theorem unscoped_held (d : Dev nD) : (unscopedBufs d (fun b => m ((SparseCore.T d).loc b)) : sProp 𝕄) = held (T d) S11 (V0 m d) := by
  rw [unscopedBufs_eq, held_S11]; rfl

theorem V5_arg0 (d : Dev nD) : V5 m d r_arg0 = m (Tiles.idsLoc d) := by
  unfold V5; after_results; rfl
theorem V5_arg1 (d : Dev nD) : V5 m d r_arg1 = m (Tiles.tabLoc d) := by
  unfold V5; after_results; rfl
theorem V5_v1 (d : Dev nD) : V5 m d r_v1 = (Cert.Lookup.flatIds (Tiles.IDS m d) : Buf (Elt F) (Tiles.flatLoc d)) := by
  unfold V5; after_results; exact Cert.HostSideB.flat_eq _
theorem V5_v2 (d : Dev nD) : V5 m d r_v2 = (Cert.Lookup.tabT (Tiles.TAB m d) : Buf (Elt F) (Tiles.tabTLoc d)) := by
  unfold V5; after_results; exact Cert.HostSideB.tabT_eq (F := F) _
theorem V5_v4 (d : Dev nD) : V5 m d r_v4 = (Cert.Lookup.tailT (Tiles.TAB m d) : Buf (Elt F) (Tiles.tailLoc d)) := by
  unfold V5; after_results; exact Cert.HostSideB.tailT_eq (F := F) _
theorem V8_v8 (d : Dev nD) : V8 m d r_v8 = (Cert.Lookup.lookup (Tiles.IDS m d) (Tiles.TAB m d) : Buf (Elt F) (v8Loc d)) := by
  unfold V8; after_results; unfold W6; rw [Function.update_self]; exact Cert.HostSideB.out_eq _ _

theorem hop1 : (op1 (F := F)).bufs ⊆ S11 := show ({r_arg0, r_v0} : Finset (DevRef τ sig)) ⊆ S11 by decide
theorem hop2 : (op2 (F := F)).bufs ⊆ S11 := show ({r_v0, r_v1} : Finset (DevRef τ sig)) ⊆ S11 by decide
theorem hop3 : (op3 (F := F)).bufs ⊆ S11 := show ({r_arg1, r_v2} : Finset (DevRef τ sig)) ⊆ S11 by decide
theorem hop4 : (op4 (F := F)).bufs ⊆ S11 := show ({r_arg1, r_v3} : Finset (DevRef τ sig)) ⊆ S11 by decide
theorem hop5 : (op5 (F := F)).bufs ⊆ S11 := show ({r_v3, r_v4} : Finset (DevRef τ sig)) ⊆ S11 by decide
theorem hop6 : (op6 (F := F)).bufs ⊆ S3 := show ({r_v6, r_v7} : Finset (DevRef τ sig)) ⊆ S3 by decide
theorem hop7 : (op7 (F := F)).bufs ⊆ S3 := show ({r_v7, r_v8} : Finset (DevRef τ sig)) ⊆ S3 by decide

omit [FloatOps F] in
theorem st0_eq (d : Dev nD) : (bigSep Finset.univ fun c : Fin ((K (F := F)).nCore 0) => (P m).st 0 d c) = bigSep Finset.univ fun c : Fin 2 => st0 m d c :=
  bigSep_congr fun _ _ => congrArg (st0 m d) (Fin.ext rfl)
omit [FloatOps F] in
theorem dn0_eq (d : Dev nD) : (bigSep Finset.univ fun c : Fin ((K (F := F)).nCore 0) => (P m).dn 0 d c) = bigSep Finset.univ fun c : Fin 2 => dn0 m d c :=
  bigSep_congr fun _ _ => congrArg (dn0 m d) (Fin.ext rfl)
omit [FloatOps F] in
theorem st1_eq (d : Dev nD) : (bigSep Finset.univ fun c : Fin ((K (F := F)).nCore 1) => (P m).st 1 d c) = bigSep Finset.univ fun c : Fin 2 => st1 m d c :=
  bigSep_congr fun _ _ => congrArg (st1 m d) (Fin.ext rfl)
omit [FloatOps F] in
theorem dn1_eq (d : Dev nD) : (bigSep Finset.univ fun c : Fin ((K (F := F)).nCore 1) => (P m).dn 1 d c) = bigSep Finset.univ fun c : Fin 2 => dn1 m d c :=
  bigSep_congr fun _ _ => congrArg (dn1 m d) (Fin.ext rfl)

/-- What the main program leaves the claim: the result array at the lookup, the two arguments at their launch contents. -/
abbrev FIN (d : Dev nD) : sProp 𝕄 :=
  iprop((v8Loc d ↦{fullShare} (Cert.Lookup.lookup (Tiles.IDS m d) (Tiles.TAB m d) : Buf (Elt F) (v8Loc d)))
    ∗ (Tiles.idsLoc d ↦{fullShare} m (Tiles.idsLoc d)) ∗ (Tiles.tabLoc d ↦{fullShare} m (Tiles.tabLoc d)))

/-- The main program on device d's TensorCore: five host operations lay the index list and the table out, the repacking
    call builds the pair table, the gather call the feature-major result, two host operations read it as the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held]
  simp only [main, wp_bind, wp_pure]
  iintro ⟨#Hctx, Hst, ⟨Hb, Hheld, -, -⟩, -⟩
  -- the five host operations
  iapply (wp_hlo_within 𝒱 (SparseCore.T d) none Set.univ (op := op1) (S := S11) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S11) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S11) hop3
    (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S11) hop4
    (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S11) hop5
    (V := (op4 (F := F)).result ((op3 (F := F)).result ((op2 (F := F)).result ((op1 (F := F)).result (V0 m d)))))) $$ [Hb Hheld]
  · isplitl [Hb]; · iexact Hb
    iexact Hheld
  iintro ⟨Hb, Hheld⟩
  rw [wp_ret]; imodintro
  rw [show (op5 (F := F)).result ((op4 (F := F)).result ((op3 (F := F)).result ((op2 (F := F)).result ((op1 (F := F)).result (V0 m d)))))
    = V5 m d from rfl]
  ihave Hh := (Entails.of_eq (held_S11 (F := F) d (V5 m d))) $$ Hheld
  rw [V5_arg0, V5_arg1, V5_v1, V5_v2, V5_v4]
  icases Hh with ⟨Ha0, Ha1, -, Hv1, Hv2, -, Hv4, Hv5, Hv6, Hv7, Hv8⟩
  -- the repacking call
  iapply ((K (F := F)).wp_run (D (F := F)) 𝒱 (EH := EH) (P := P m) κ d 0) $$ [Hst Hv2 Hv4 Hv5 Hb Ha0 Ha1 Hv1 Hv6 Hv7 Hv8]
  isplitr; · iexact Hctx
  isplitl [Hst]; · iexact Hst
  isplitl [Hv2 Hv4 Hv5]
  · rw [st0_eq]
    iapply (call0_in m d _)
    isplitl [Hv2]; · iexact Hv2
    isplitl [Hv4]; · iexact Hv4
    iexact Hv5
  iintro ⟨Hst, Hdn⟩
  ihave Hdn' := (Entails.of_eq (dn0_eq m d)) $$ Hdn
  ihave Hdn'' := (call0_out m d) $$ Hdn'
  icases Hdn'' with ⟨-, -, Hv5⟩
  -- the gather call
  iapply ((K (F := F)).wp_run (D (F := F)) 𝒱 (EH := EH) (P := P m) κ d 1) $$ [Hst Hv1 Hv5 Hv6 Hb Ha0 Ha1 Hv7 Hv8]
  isplitr; · iexact Hctx
  isplitl [Hst]; · iexact Hst
  isplitl [Hv1 Hv5 Hv6]
  · rw [st1_eq]
    iapply (call1_in m d _)
    isplitl [Hv1]; · iexact Hv1
    isplitl [Hv5]; · iexact Hv5
    iexact Hv6
  iintro ⟨Hst, Hdn⟩
  ihave Hdn' := (Entails.of_eq (dn1_eq m d)) $$ Hdn
  ihave Hdn'' := (call1_out m d) $$ Hdn'
  icases Hdn'' with ⟨-, -, Hv6⟩
  -- the two host operations that read the gathered rows as the result
  iapply (wp_hlo_within 𝒱 (SparseCore.T d) none Set.univ (op := op6) (S := S3) hop6 (V := W6 m d)) $$ [Hb Hv6 Hv7 Hv8]
  · isplitl [Hb]; · iexact Hb
    rw [held_S3]
    rw [show W6 m d r_v6 = (Cert.Lookup.out5 (Tiles.IDS m d) (Tiles.TAB m d) : Buf (Elt F) (Tiles.out5Loc d)) from Function.update_self _ _ _,
      show W6 m d r_v7 = V5 m d r_v7 from Function.update_of_ne (show r_v7 ≠ r_v6 by decide) _ _,
      show W6 m d r_v8 = V5 m d r_v8 from Function.update_of_ne (show r_v8 ≠ r_v6 by decide) _ _]
    isplitl [Hv6]; · iexact Hv6
    isplitl [Hv7]; · iexact Hv7
    iexact Hv8
  iintro ⟨Hb, Hheld⟩
  rw [wp_ret]; imodintro
  iapply (wp_hlo_within 𝒱 (SparseCore.T d) none Set.univ (op := op7) (S := S3) hop7 (V := (op6 (F := F)).result (W6 m d))) $$ [Hb Hheld]
  · isplitl [Hb]; · iexact Hb
    iexact Hheld
  iintro ⟨Hb, Hheld⟩
  rw [show (op7 (F := F)).result ((op6 (F := F)).result (W6 m d)) = V8 m d from rfl]
  ihave Hh := (Entails.of_eq (held_S3 (F := F) d (V8 m d))) $$ Hheld
  rw [V8_v8]
  icases Hh with ⟨-, -, Hv8⟩
  rw [wp_ret]; imodintro; imodintro
  isplitl [Hst]; · iexact Hst
  isplitl [Hv8]; · iexact Hv8
  isplitl [Ha0]; · iexact Ha0
  iexact Ha1

def fq (d : Dev nD) (s' : Phys nD τ sig (Elt F)) : Prop :=
  s'.mem.mem (v8Loc d) = (Cert.Lookup.lookup (Tiles.IDS m d) (Tiles.TAB m d) : Buf (Elt F) (v8Loc d))
    ∧ s'.mem.mem (Tiles.idsLoc d) = m (Tiles.idsLoc d) ∧ s'.mem.mem (Tiles.tabLoc d) = m (Tiles.tabLoc d)

theorem hfin (d : Dev nD) (s' : Phys nD τ sig (Elt F)) : iprop(FIN m d ∗ SI s') ⊢ (⌜fq m d s'⌝ : sProp 𝕄) := by
  iintro ⟨⟨Ho, Hi, Hx⟩, HSI⟩
  ihave H := (persistent_entails_right (SI_pointsTo_agree (st := s') (ℓ := v8Loc d) (I := Finset.univ) (q := fullShare)
    (f := (Cert.Lookup.lookup (Tiles.IDS m d) (Tiles.TAB m d) : Buf (Elt F) (v8Loc d))))) $$ [HSI Ho]
  · isplitl [HSI] <;> iassumption
  icases H with ⟨%h0, HSI, -⟩
  ihave H := (persistent_entails_right (SI_pointsTo_agree (st := s') (ℓ := Tiles.idsLoc d) (I := Finset.univ) (q := fullShare) (f := m (Tiles.idsLoc d)))) $$ [HSI Hi]
  · isplitl [HSI] <;> iassumption
  icases H with ⟨%h1, HSI, -⟩
  ihave H := (SI_pointsTo_agree (st := s') (ℓ := Tiles.tabLoc d) (I := Finset.univ) (q := fullShare) (f := m (Tiles.tabLoc d))) $$ [HSI Hx]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem ((c.tc : Thread nD τ).loc main_v8) = Cert.Lookup.lookup (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The kernel program's run: from the two tile kernels' bodies, every execution ends with the result array at the
    lookup of the arguments' launch contents and the arguments unchanged. -/
theorem run_main [∀ e, Nonempty (Elt F e)] (_hpre : ∀ d i, (Tiles.IDS m d i).toNat ≤ 999999)
    (tb0 : TB0 (F := F) m) (tb1 : TB1 (F := F) m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) Cert.Proof.KB.facts v₀
    (fun q hq => match q with | 0 => nomatch hq | 1 => nomatch hq)
    (fun q _ => match q with | 0 => tileObl0 m tb0 | 1 => tileObl1 m tb1)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h => h)

end Cert.Proof.KB.Launch

end
-- ==== Proof.Body0Inner.lean ====
/-
  The inner transposing trips of the repacking kernel, one trip at a time.

  A trip t of 64 over one half of the slab scratch (64 x 256 words) moves its 16 x 16 block — columns
  16·⌊t/4⌋ … + 15, rows 16·(t mod 4) … + 15 — into the matching half of the pair scratch (128 x 128
  words): lane x takes column c = 16·⌊t/4⌋ + x and, in step s of 16, row r = 16·(t mod 4) + ((x + s) mod 16),
  and writes the word read at (r, c) to line c / 2, column (c mod 2)·64 + r. The sixteen steps write 256
  different cells, one for every cell of the block, so after the trip the pair half holds, on the blocks
  done so far, the slab half with two columns to a line. The tail's trips do the same for the last 64 rows
  of the table: word (q mod 64, 2·jj + q / 64) of the tail scratch goes to (jj, q) of the tail's pair lines.
-/
import proofs.«204055_g19524921328135_cont_8to1_763_20_alg».proof.Proof.SetupKI
import Idealize.ShloMosaic.Lib.ValueIdx
import Idealize.ShloMosaic.Lib.ValueLayout

noncomputable section

namespace Cert.Proof.KI.Body0Inner

open Cert.KernelIdeal Cert.KernelIdeal.Gen Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## An indexed read and an indexed write of a memref held by its own elements -/

section Rules

variable {κ : Kind} {sp : Space} {s t : Shape} {e : EltTy}

omit [FloatOps F] in
/-- An access through a memref's whole rectangle goes through exactly the memref's own elements. -/
theorem set_access_whole (m : Memref sig κ sp s e) : (m.access (Rect.whole s)).set = m.view.set := by
  show (m.view.slice (Rect.whole s)).set = m.view.set
  rw [View.set_slice, Rect.set_whole]
  rfl

omit [FloatOps F] in
/-- Reading through a memref's whole rectangle reads what the memref reads. -/
theorem read_access_whole' (Val : EltTy → Type) (m : Memref sig κ sp s e) (f : m.view.ty.Contents Val) :
    (m.access (Rect.whole s)).read Val f = m.view.read Val f := by
  funext x
  show _root_.cast _ (f (m.view.emb ((Rect.whole s).emb x))) = _root_.cast _ (f (m.view.emb x))
  rw [Rect.emb_whole_apply]

variable {c : Thread nD τ} {α : Type}

/-- The indexed read of a memref whose own elements are held: it continues at the gathered vector, the elements
    still held. -/
theorem wp_loadIdx_own {base : Memref sig c.2.kind .vmem s e} {idxs : Fin s.rank → IVec t 32}
    {h : ∀ a x, (idxs a x).toNat < s.size a} {hl : base.view.Loads}
    {k : Vec F t e → Prog (TpuEff nD τ sig (Elt F) Λ₀ c.2) α} {q : PosShare TreeShare}
    {f : Buf (Elt F) ((base.access (.whole s)).loc c)} {Q : α → sProp 𝕄} :
    ((base.access (.whole s)).loc c ↦[base.view.set]{q} f : sProp 𝕄)
      ⊢ iprop((((base.access (.whole s)).loc c ↦[base.view.set]{q} f)
          -∗ wp frame (wpE (defs₀ (F := F)) 𝒱₀ c none) Set.univ (k (loadIdx ((base.access (.whole s)).read (Elt F) f) idxs h)) Q)
        -∗ wp frame (wpE (defs₀ (F := F)) 𝒱₀ c none) Set.univ (SparseCore.vectorLoadIdx base idxs h hl >>= k) Q) :=
  SparseCore.wp_vectorLoadIdx 𝒱₀ c none Set.univ (Finset.subset_of_eq (set_access_whole base))

/-- The indexed write of a memref whose own elements are held at contents that, read through the memref, satisfy P:
    it continues holding them at contents that satisfy P', when the write takes every array of P to one of P'. -/
theorem wp_storeIdx_val {dd : Fin 1 → Nat} {base : Memref sig c.2.kind .vmem s e} {idxs : Fin s.rank → IVec ⟨1, dd⟩ 32}
    {v : Vec F ⟨1, dd⟩ e} {mask : IVec ⟨1, dd⟩ 1} {add : Bool} {h : ∀ a x, (idxs a x).toNat < s.size a}
    {hs : (base.access (.whole s)).Stores Finset.univ} {k : PUnit → Prog (TpuEff nD τ sig (Elt F) Λ₀ c.2) α}
    {Q : α → sProp 𝕄} (P P' : Vec F s e → Prop) (hPP' : ∀ G, P G → P' (storeIdx G idxs v mask add h)) :
    iprop(∃ f, ((base.access (.whole s)).loc c ↦[base.view.set]{fullShare} f : sProp 𝕄) ∗ ⌜P (base.view.read (Elt F) f)⌝)
      ⊢ iprop(((∃ f, ((base.access (.whole s)).loc c ↦[base.view.set]{fullShare} f : sProp 𝕄) ∗ ⌜P' (base.view.read (Elt F) f)⌝)
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro ⟨%f, H, %hP⟩ Hk
  ihave H' := (Entails.of_eq (show ((base.access (.whole s)).loc c ↦[base.view.set]{fullShare} f : sProp 𝕄)
      = ((base.access (.whole s)).loc c ↦[(base.access (.whole s)).set]{fullShare} f) from by rw [set_access_whole])) $$ H
  iapply (SparseCore.wp_vectorStoreIdx 𝒱₀ c none Set.univ (base := base) (f := f)) $$ H'
  iintro H'
  iapply Hk
  iexists _
  isplitl [H']
  · ihave H := (Entails.of_eq (show ((base.access (.whole s)).loc c ↦[(base.access (.whole s)).set]{fullShare} _ : sProp 𝕄)
        = ((base.access (.whole s)).loc c ↦[base.view.set]{fullShare} _) from by rw [set_access_whole])) $$ H'
    iexact H
  · ipureintro
    have e1 := (read_access_whole' (Elt F) base
        ((base.access (.whole s)).write (Elt F) f
          (storeIdx ((base.access (.whole s)).read (Elt F) f) idxs v mask add h) Finset.univ)).symm.trans
      ((View.read_write_univ _ _).trans
        (congrArg (fun g => storeIdx g idxs v mask add h) (read_access_whole' (Elt F) base f)))
    rw [e1]
    exact hPP' _ hP

/-- Held contents that satisfy P, as "some contents that satisfy P". -/
theorem held_val_intro {base : Memref sig c.2.kind .vmem s e} (P : Vec F s e → Prop)
    (f : Buf (Elt F) ((base.access (.whole s)).loc c)) (hP : P (base.view.read (Elt F) f)) :
    ((base.access (.whole s)).loc c ↦[base.view.set]{fullShare} f : sProp 𝕄)
      ⊢ iprop(∃ f, ((base.access (.whole s)).loc c ↦[base.view.set]{fullShare} f : sProp 𝕄) ∗ ⌜P (base.view.read (Elt F) f)⌝) := by
  iintro H
  iexists f
  isplitl [H]
  · iexact H
  · ipureintro; exact hP

end Rules

/-! ## An unmasked indexed write, read back -/

section ReadBack

/-- A left fold of point updates read back at j, when every update at j carries the same value a: a if some update
    is at j, the starting value otherwise. -/
theorem foldl_update_apply {ι σ β : Type} [DecidableEq σ] (idx : ι → σ) (val : ι → β) (j : σ) (a : β)
    (hv : ∀ k, idx k = j → val k = a) :
    ∀ (l : List ι) (g : σ → β),
      (l.foldl (fun g k j' => if idx k = j' then val k else g j') g) j = if ∃ k ∈ l, idx k = j then a else g j := by
  intro l
  induction l with
  | nil => intro g; simp
  | cons k l ih =>
    intro g
    rw [List.foldl_cons, ih]
    by_cases h1 : ∃ k' ∈ l, idx k' = j
    · have h3 : ∃ k'' ∈ k :: l, idx k'' = j := let ⟨k', hk', e'⟩ := h1; ⟨k', List.mem_cons_of_mem _ hk', e'⟩
      rw [if_pos h1, if_pos h3]
    · rw [if_neg h1]
      by_cases h2 : idx k = j
      · have h3 : ∃ k'' ∈ k :: l, idx k'' = j := ⟨k, List.mem_cons_self, h2⟩
        rw [if_pos h3]
        show (if idx k = j then val k else g j) = a
        rw [if_pos h2]
        exact hv k h2
      · have h3 : ¬ ∃ k'' ∈ k :: l, idx k'' = j := by
          rintro ⟨k', hk', e'⟩
          rcases List.mem_cons.1 hk' with rfl | hk'
          · exact h2 e'
          · exact h1 ⟨k', hk', e'⟩
        rw [if_neg h3]
        show (if idx k = j then val k else g j) = g j
        rw [if_neg h2]

variable {s : Shape} {e : EltTy} {dd : Fin 1 → Nat}

/-- An unmasked indexed write read back at an index j, when every lane that names j carries the same value a:
    a if some lane names j, the old value otherwise. -/
theorem storeIdx_apply (f : Vec F s e) (idxs : Fin s.rank → IVec ⟨1, dd⟩ 32) (v : Vec F ⟨1, dd⟩ e)
    (h : ∀ a x, (idxs a x).toNat < s.size a) (j : s.Idx) (a : Elt F e)
    (hv : ∀ k : Fin (dd 0), idxAt idxs h (Shape.ofLane k) = j → v (Shape.ofLane k) = a) :
    storeIdx f idxs v (fun _ => 1#1) false h j
      = if ∃ k : Fin (dd 0), idxAt idxs h (Shape.ofLane k) = j then a else f j := by
  have hfold : storeIdx f idxs v (fun _ => 1#1) false h
      = (List.finRange (dd 0)).foldl (fun g k j' => if idxAt idxs h (Shape.ofLane k) = j' then v (Shape.ofLane k) else g j') f := by
    unfold storeIdx
    congr 1
    funext g k j'
    have hiff : (∀ a, (j' a).val = (idxAt idxs h (Shape.ofLane k) a).val) ↔ idxAt idxs h (Shape.ofLane k) = j' :=
      ⟨fun hh => funext fun a => Fin.ext (hh a).symm, fun hh a => by rw [hh]⟩
    dsimp only
    rw [if_pos (show (1#1 : BitVec 1) = 1 from rfl)]
    rw [if_neg (show ¬ (false = true) from by decide)]
    by_cases hc : idxAt idxs h (Shape.ofLane k) = j'
    · rw [if_pos hc, if_pos (hiff.2 hc)]
    · rw [if_neg hc, if_neg (fun hh => hc (hiff.1 hh))]
  rw [hfold, foldl_update_apply (fun k : Fin (dd 0) => idxAt idxs h (Shape.ofLane k)) (fun k => v (Shape.ofLane k)) j a hv]
  by_cases hex : ∃ k : Fin (dd 0), idxAt idxs h (Shape.ofLane k) = j
  · have hex' : ∃ k ∈ List.finRange (dd 0), idxAt idxs h (Shape.ofLane k) = j :=
      let ⟨k, hk⟩ := hex; ⟨k, List.mem_finRange k, hk⟩
    rw [if_pos hex, if_pos hex']
  · have hex' : ¬ ∃ k ∈ List.finRange (dd 0), idxAt idxs h (Shape.ofLane k) = j :=
      fun ⟨k, _, hk⟩ => hex ⟨k, hk⟩
    rw [if_neg hex, if_neg hex']

end ReadBack

/-! ## The index words of a transposing trip -/

section Words

/-- The lane numbering of a 16-lane vector. -/
abbrev lanes : IVec S16 32 := iota .scVector S16 32 [0] iota_S16_d0_w32_scVector

/-- Lane x of the lane numbering is the word x. -/
theorem lane_eq (x : S16.Idx) : (lanes x).toNat = (x 0).val := by
  have hx : (x 0).val < 16 := (x 0).isLt
  have hs : S16.size 0 = 16 := rfl
  unfold lanes iota
  simp only [List.foldl_cons, List.foldl_nil, BitVec.toNat_ofNat]
  omega

/-- The column block of trip t, 16·⌊t/4⌋, as the kernel computes it: floor division over signed words. -/
def i0W (t : Nat) : BitVec 32 :=
  let arg14 : BitVec 32 := Scf.iv 0#32 1#32 t
  let v76 : BitVec 32 := Scalar.divsi arg14 4#32
  let v77 : BitVec 1 := Scalar.cmpi .sgt arg14 0#32
  let v78 : BitVec 32 := Scalar.extui v77
  let v79 : BitVec 1 := Scalar.cmpi .slt arg14 0#32
  let v80 : BitVec 32 := Scalar.extui v79
  let v81 : BitVec 32 := Scalar.subi v78 v80
  let v82 : BitVec 1 := Scalar.cmpi .sgt 4#32 0#32
  let v83 : BitVec 32 := Scalar.extui v82
  let v84 : BitVec 1 := Scalar.cmpi .slt 4#32 0#32
  let v85 : BitVec 32 := Scalar.extui v84
  let v86 : BitVec 32 := Scalar.subi v83 v85
  let v87 : BitVec 1 := Scalar.cmpi .ne v81 v86
  let v88 : BitVec 32 := Scalar.remsi arg14 4#32
  let v89 : BitVec 1 := Scalar.cmpi .ne v88 0#32
  let v90 : BitVec 1 := Scalar.andi v87 v89
  let v91 : BitVec 32 := Scalar.subi v76 1#32
  let v92 : BitVec 32 := Scalar.select v90 v91 v76
  Scalar.muli v92 16#32

/-- The row block of trip t, 16·(t mod 4), as the kernel computes it: floor remainder over signed words. -/
def d0W (t : Nat) : BitVec 32 :=
  let arg14 : BitVec 32 := Scf.iv 0#32 1#32 t
  let v94 : BitVec 1 := Scalar.cmpi .eq 4#32 0#32
  let v95 : BitVec 32 := Scalar.select v94 1#32 4#32
  let v96 : BitVec 32 := Scalar.remsi arg14 v95
  let v97 : BitVec 1 := Scalar.cmpi .ne v96 0#32
  let v98 : BitVec 1 := Scalar.cmpi .slt v96 0#32
  let v99 : BitVec 1 := Scalar.cmpi .slt v95 0#32
  let v100 : BitVec 1 := Scalar.xori v98 v99
  let v101 : BitVec 1 := Scalar.andi v100 v97
  let v102 : BitVec 32 := Scalar.addi v96 v95
  let v103 : BitVec 32 := Scalar.select v101 v102 v96
  Scalar.muli v103 16#32

theorem i0W_eq : ∀ t : Fin 64, (i0W t.val).toNat = 16 * (t.val / 4) := by decide +kernel
theorem d0W_eq : ∀ t : Fin 64, (d0W t.val).toNat = 16 * (t.val % 4) := by decide +kernel

/-- The column a lane takes in trip t. -/
def colv (t : Nat) : IVec S16 32 := addi (broadcast S16 (i0W t)) lanes
/-- The diagonal of step s: lane x is sent to (x + s) mod 16. -/
def perm (s : BitVec 32) : IVec S16 32 := andi (addi lanes (broadcast S16 s)) (broadcast S16 15#32)
/-- The row a lane reads in step s of trip t. -/
def rowv (t : Nat) (s : BitVec 32) : IVec S16 32 := addi (broadcast S16 (d0W t)) (perm s)
/-- The line a lane writes in trip t: half its column. -/
def r2 (t : Nat) : IVec S16 32 := shrui (colv t) (broadcast S16 1#32)
/-- Where the row block starts in the line a lane writes: 64 further for an odd column. -/
def c2d (t : Nat) : IVec S16 32 :=
  addi (shli (andi (colv t) (broadcast S16 1#32)) (broadcast S16 6#32)) (broadcast S16 (d0W t))
/-- The column of the line a lane writes in step s of trip t. -/
def wcol (t : Nat) (s : BitVec 32) : IVec S16 32 := addi (c2d t) (perm s)

theorem colv_eq (t : Fin 64) (x : S16.Idx) : (colv t.val x).toNat = 16 * (t.val / 4) + (x 0).val := by
  have hx : (x 0).val < 16 := (x 0).isLt
  have ht := t.isLt
  show (IntOp.addi (i0W t.val) (lanes x)).toNat = _
  unfold IntOp.addi
  rw [BitVec.toNat_add, i0W_eq, lane_eq]
  omega

theorem perm_eq (s : Fin 16) (x : S16.Idx) : (perm (BitVec.ofNat 32 s.val) x).toNat = ((x 0).val + s.val) % 16 := by
  have hx : (x 0).val < 16 := (x 0).isLt
  have hs := s.isLt
  show (IntOp.andi (IntOp.addi (lanes x) (BitVec.ofNat 32 s.val)) 15#32).toNat = _
  unfold IntOp.andi IntOp.addi
  rw [BitVec.toNat_and, BitVec.toNat_add, lane_eq, BitVec.toNat_ofNat,
    show (15#32 : BitVec 32).toNat = 2 ^ 4 - 1 from rfl, Nat.and_two_pow_sub_one_eq_mod]
  omega

theorem rowv_eq (t : Fin 64) (s : Fin 16) (x : S16.Idx) :
    (rowv t.val (BitVec.ofNat 32 s.val) x).toNat = 16 * (t.val % 4) + ((x 0).val + s.val) % 16 := by
  have ht := t.isLt
  show (IntOp.addi (d0W t.val) (perm (BitVec.ofNat 32 s.val) x)).toNat = _
  unfold IntOp.addi
  rw [BitVec.toNat_add, d0W_eq, perm_eq]
  omega

theorem r2_eq (t : Fin 64) (x : S16.Idx) : (r2 t.val x).toNat = (16 * (t.val / 4) + (x 0).val) / 2 := by
  show (IntOp.shrui .vector (colv t.val x) 1#32).toNat = _
  unfold IntOp.shrui
  rw [if_pos (by decide), BitVec.ushiftRight_eq', BitVec.toNat_ushiftRight, colv_eq]
  rfl

theorem c2d_eq (t : Fin 64) (x : S16.Idx) :
    (c2d t.val x).toNat = ((16 * (t.val / 4) + (x 0).val) % 2) * 64 + 16 * (t.val % 4) := by
  have ht := t.isLt
  show (IntOp.addi (IntOp.shli .vector (IntOp.andi (colv t.val x) 1#32) 6#32) (d0W t.val)).toNat = _
  unfold IntOp.addi IntOp.shli IntOp.andi
  rw [if_pos (by decide), BitVec.toNat_add, BitVec.shiftLeft_eq', BitVec.toNat_shiftLeft, BitVec.toNat_and, colv_eq, d0W_eq,
    show (1#32 : BitVec 32).toNat = 2 ^ 1 - 1 from rfl, Nat.and_two_pow_sub_one_eq_mod,
    show (6#32 : BitVec 32).toNat = 6 from rfl, Nat.shiftLeft_eq]
  omega

theorem wcol_eq (t : Fin 64) (s : Fin 16) (x : S16.Idx) :
    (wcol t.val (BitVec.ofNat 32 s.val) x).toNat
      = ((16 * (t.val / 4) + (x 0).val) % 2) * 64 + 16 * (t.val % 4) + ((x 0).val + s.val) % 16 := by
  have ht := t.isLt
  show (IntOp.addi (c2d t.val x) (perm (BitVec.ofNat 32 s.val) x)).toNat = _
  unfold IntOp.addi
  rw [BitVec.toNat_add, c2d_eq, perm_eq]
  omega

end Words

/-! ## What the sixteen steps of a trip leave, as a fact about the two arrays -/

section Pure

/-- Cell (dd, col) of a slab half goes to line col / 2, column (col mod 2)·64 + dd of the pair half. -/
def dstOf (dd : Fin 64) (col : Fin 256) : S128x128.Idx :=
  ix2 (⟨col.val / 2, by omega⟩ : Fin 128) (⟨(col.val % 2) * 64 + dd.val, by omega⟩ : Fin 128)

theorem dstOf_inj {dd dd' : Fin 64} {col col' : Fin 256} (h : dstOf dd col = dstOf dd' col') : dd = dd' ∧ col = col' := by
  have h0 : col.val / 2 = col'.val / 2 := congrArg (fun j : S128x128.Idx => (j 0).val) h
  have h1 : (col.val % 2) * 64 + dd.val = (col'.val % 2) * 64 + dd'.val := congrArg (fun j : S128x128.Idx => (j 1).val) h
  have := dd.isLt; have := dd'.isLt
  exact ⟨Fin.ext (by omega), Fin.ext (by omega)⟩

/-- The row and the column lane k takes in step s of trip t. -/
def rowOfStep (t : Fin 64) (s k : Fin 16) : Fin 64 := ⟨16 * (t.val % 4) + (k.val + s.val) % 16, by omega⟩
def colOfStep (t : Fin 64) (k : Fin 16) : Fin 256 := ⟨16 * (t.val / 4) + k.val, by have := t.isLt; omega⟩

/-- The blocks of the trips before t are in place. -/
def Done (t : Nat) (x : Vec F S64x256 .f32) (G : Vec F S128x128 .f32) : Prop :=
  ∀ (dd : Fin 64) (col : Fin 256), (col.val / 16) * 4 + dd.val / 16 < t → G (dstOf dd col) = x (ix2 dd col)

/-- The steps below n of trip t are in place. -/
def Steps (t : Fin 64) (n : Nat) (x : Vec F S64x256 .f32) (G : Vec F S128x128 .f32) : Prop :=
  ∀ (k s : Fin 16), s.val < n → G (dstOf (rowOfStep t s k) (colOfStep t k)) = x (ix2 (rowOfStep t s k) (colOfStep t k))

def Mid (t : Fin 64) (n : Nat) (x : Vec F S64x256 .f32) (G : Vec F S128x128 .f32) : Prop := Done t.val x G ∧ Steps t n x G

omit [FloatOps F] in
theorem Mid_zero {t : Fin 64} {x : Vec F S64x256 .f32} {G : Vec F S128x128 .f32} (h : Done t.val x G) : Mid t 0 x G :=
  ⟨h, fun _ s hs => absurd hs (Nat.not_lt_zero _)⟩

omit [FloatOps F] in
theorem Done_succ {t : Fin 64} {x : Vec F S64x256 .f32} {G : Vec F S128x128 .f32} (h : Mid t 16 x G) : Done (t.val + 1) x G := by
  intro dd col hlt
  have hd := dd.isLt; have hc := col.isLt; have ht := t.isLt
  by_cases hb : (col.val / 16) * 4 + dd.val / 16 < t.val
  · exact h.1 dd col hb
  · have e1 : col.val / 16 = t.val / 4 := by omega
    have e2 : dd.val / 16 = t.val % 4 := by omega
    have hk : col.val % 16 < 16 := Nat.mod_lt _ (by decide)
    have hs : (dd.val % 16 + 16 - col.val % 16) % 16 < 16 := Nat.mod_lt _ (by decide)
    have hr : rowOfStep t ⟨_, hs⟩ ⟨_, hk⟩ = dd := Fin.ext (by show 16 * (t.val % 4) + (col.val % 16 + (dd.val % 16 + 16 - col.val % 16) % 16) % 16 = dd.val; omega)
    have hcl : colOfStep t ⟨_, hk⟩ = col := Fin.ext (by show 16 * (t.val / 4) + col.val % 16 = col.val; omega)
    have := h.2 ⟨_, hk⟩ ⟨_, hs⟩ hs
    rw [hr, hcl] at this
    exact this

variable (t : Fin 64) (s : Fin 16)
variable (hl : ∀ a y, ((![rowv t.val (BitVec.ofNat 32 s.val), colv t.val] : Fin 2 → IVec S16 32) a y).toNat < S64x256.size a)
variable (hs : ∀ a y, ((![r2 t.val, wcol t.val (BitVec.ofNat 32 s.val)] : Fin 2 → IVec S16 32) a y).toNat < S128x128.size a)

omit [FloatOps F] in
/-- Where lane k writes in step s of trip t. -/
theorem wpos_eq (k : Fin 16) :
    idxAt ![r2 t.val, wcol t.val (BitVec.ofNat 32 s.val)] hs (Shape.ofLane (d := ![16]) k) = dstOf (rowOfStep t s k) (colOfStep t k) := by
  funext a
  match a with
  | ⟨0, _⟩ => exact Fin.ext (by
      show (r2 t.val (Shape.ofLane (d := ![16]) k)).toNat = (16 * (t.val / 4) + k.val) / 2
      rw [r2_eq]; rfl)
  | ⟨1, _⟩ => exact Fin.ext (by
      show (wcol t.val (BitVec.ofNat 32 s.val) (Shape.ofLane (d := ![16]) k)).toNat
        = ((16 * (t.val / 4) + k.val) % 2) * 64 + (16 * (t.val % 4) + (k.val + s.val) % 16)
      rw [wcol_eq]
      show (16 * (t.val / 4) + k.val) % 2 * 64 + 16 * (t.val % 4) + (k.val + s.val) % 16 = _
      omega)

omit [FloatOps F] in
/-- Where lane k reads in step s of trip t. -/
theorem rpos_eq (k : Fin 16) :
    idxAt ![rowv t.val (BitVec.ofNat 32 s.val), colv t.val] hl (Shape.ofLane (d := ![16]) k) = ix2 (rowOfStep t s k) (colOfStep t k) := by
  funext a
  match a with
  | ⟨0, _⟩ => exact Fin.ext (by
      show (rowv t.val (BitVec.ofNat 32 s.val) (Shape.ofLane (d := ![16]) k)).toNat = 16 * (t.val % 4) + (k.val + s.val) % 16
      rw [rowv_eq]; rfl)
  | ⟨1, _⟩ => exact Fin.ext (by
      show (colv t.val (Shape.ofLane (d := ![16]) k)).toNat = 16 * (t.val / 4) + k.val
      rw [colv_eq]; rfl)

/-- One step: the sixteen words read along the diagonal land in sixteen cells of the block not written before. -/
theorem Mid_step (x : Vec F S64x256 .f32) (G : Vec F S128x128 .f32) (h : Mid t s.val x G) :
    Mid t (s.val + 1) x
      (storeIdx G ![r2 t.val, wcol t.val (BitVec.ofNat 32 s.val)]
        (loadIdx x ![rowv t.val (BitVec.ofNat 32 s.val), colv t.val] hl) (fun _ => 1#1) false hs) := by
  have ht := t.isLt
  constructor
  · intro dd col hlt
    rw [storeIdx_apply G _ _ hs (dstOf dd col) (G (dstOf dd col)) (fun k hk => by
      have hk := (wpos_eq t s hs k).symm.trans hk
      obtain ⟨e1, e2⟩ := dstOf_inj hk
      have h1 : dd.val = 16 * (t.val % 4) + (k.val + s.val) % 16 := congrArg Fin.val e1.symm
      have h2 : col.val = 16 * (t.val / 4) + k.val := congrArg Fin.val e2.symm
      have hk16 : k.val < 16 := k.isLt
      omega), ite_self]
    exact h.1 dd col hlt
  · intro k s' hs'
    rcases Nat.lt_succ_iff_lt_or_eq.mp hs' with hlt | heq
    · rw [storeIdx_apply G _ _ hs _ (G (dstOf (rowOfStep t s' k) (colOfStep t k))) (fun k' hk' => by
        have hk' := (wpos_eq t _ hs k').symm.trans hk'
        obtain ⟨e1, e2⟩ := dstOf_inj hk'
        have h1 : 16 * (t.val % 4) + (k'.val + s.val) % 16 = 16 * (t.val % 4) + (k.val + s'.val) % 16 := congrArg Fin.val e1
        have h2 : 16 * (t.val / 4) + k'.val = 16 * (t.val / 4) + k.val := congrArg Fin.val e2
        have := k.isLt; have hk16 : k'.val < 16 := k'.isLt; have := s.isLt; have := s'.isLt
        omega), ite_self]
      exact h.2 k s' hlt
    · have es : s' = s := Fin.ext heq
      subst es
      rw [storeIdx_apply G _ _ hs _ (x (ix2 (rowOfStep t s' k) (colOfStep t k))) (fun k' hk' => by
        have hk' := (wpos_eq t _ hs k').symm.trans hk'
        obtain ⟨e1, e2⟩ := dstOf_inj hk'
        have h2 : 16 * (t.val / 4) + k'.val = 16 * (t.val / 4) + k.val := congrArg Fin.val e2
        have ek : k' = k := Fin.ext (by omega)
        exact (congrArg x (rpos_eq t s' hl k')).trans (by rw [ek]))]
      exact if_pos ⟨k, wpos_eq t s' hs k⟩

end Pure

/-! ## Every index word of a trip is inside the half it addresses -/

section Bounds

theorem perm_le (s : BitVec 32) (x : S16.Idx) : (perm s x).toNat ≤ 15 := by
  show (IntOp.andi (IntOp.addi (lanes x) s) 15#32).toNat ≤ 15
  unfold IntOp.andi
  rw [BitVec.toNat_and]
  exact Nat.and_le_right

theorem colv_lt (t : Fin 64) (x : S16.Idx) : (colv t.val x).toNat < 256 := by
  have hx : (x 0).val < 16 := (x 0).isLt
  have ht := t.isLt
  rw [colv_eq]; omega

theorem rowv_lt (t : Fin 64) (s : BitVec 32) (x : S16.Idx) : (rowv t.val s x).toNat < 64 := by
  have ht := t.isLt
  have hp := perm_le s x
  show (IntOp.addi (d0W t.val) (perm s x)).toNat < 64
  unfold IntOp.addi
  rw [BitVec.toNat_add, d0W_eq]
  omega

theorem r2_lt (t : Fin 64) (x : S16.Idx) : (r2 t.val x).toNat < 128 := by
  have hx : (x 0).val < 16 := (x 0).isLt
  have ht := t.isLt
  rw [r2_eq]; omega

theorem wcol_lt (t : Fin 64) (s : BitVec 32) (x : S16.Idx) : (wcol t.val s x).toNat < 128 := by
  have ht := t.isLt
  have hp := perm_le s x
  show (IntOp.addi (c2d t.val x) (perm s x)).toNat < 128
  unfold IntOp.addi
  rw [BitVec.toNat_add, c2d_eq]
  omega

/-- An indexed read of a 64 x 256 half at (row, column) words that are inside it. -/
theorem chk_ld {r c : IVec S16 32} (hr : ∀ x, (r x).toNat < 64) (hc : ∀ x, (c x).toNat < 256) :
    ∀ a x, ((![r, c] : Fin 2 → IVec S16 32) a x).toNat < S64x256.size a := by
  intro a x
  match a with
  | ⟨0, _⟩ => exact hr x
  | ⟨1, _⟩ => exact hc x

/-- An indexed write of a 128 x 128 half at (line, column) words that are inside it. -/
theorem chk_st {p r : IVec S16 32} (hp : ∀ x, (p x).toNat < 128) (hr : ∀ x, (r x).toNat < 128) :
    ∀ a x, ((![p, r] : Fin 2 → IVec S16 32) a x).toNat < S128x128.size a := by
  intro a x
  match a with
  | ⟨0, _⟩ => exact hp x
  | ⟨1, _⟩ => exact hr x

end Bounds

/-- Discharges the in-range assumption of an indexed read or write of trip t (a term of Fin 64). -/
macro "chk0" t:term : tactic =>
  `(tactic| first
    | (intro _; refine chk_st ?_ ?_; exact fun x => r2_lt $t x; exact fun x => wcol_lt $t _ x)
    | (intro _; refine chk_ld ?_ ?_; exact fun x => rowv_lt $t _ x; exact fun x => colv_lt $t x))

/-! ## The arrays, as the kernel names them -/

abbrev tW : Memref sig .scVector .hbm S64x1000000 .f32 := Memref.whole main_v2_scv
abbrev lW : Memref sig .scVector .hbm S64x64 .f32 := Memref.whole main_v4_scv
abbrev pW : Memref sig .scVector .hbm S500000x128 .f32 := Memref.whole main_v5_scv
abbrev b0 : Memref sig .scVector .vmem S2x64x256 .f32 := Memref.whole cc0_scratch0
abbrev b1 : Memref sig .scVector .vmem S2x128x128 .f32 := Memref.whole cc0_scratch1
abbrev b2 : Memref sig .scVector .vmem S64x64 .f32 := Memref.whole cc0_scratch2
abbrev b3 : Memref sig .scVector .vmem S32x128 .f32 := Memref.whole cc0_scratch3
/-- The two halves of the slab scratch and of the pair scratch. -/
abbrev A0 : Memref sig .scVector .vmem S64x256 .f32 :=
  ((b0).slice (Rect.unit (s := S2x64x256) ![0, 0, 0] S1x64x256.size inb_S2x64x256_S1x64x256_0_0_0) (fun _ => rfl)).squeeze S64x256 squeezes_S1x64x256_S64x256
abbrev A1 : Memref sig .scVector .vmem S64x256 .f32 :=
  ((b0).slice (Rect.unit (s := S2x64x256) ![1, 0, 0] S1x64x256.size inb_S2x64x256_S1x64x256_1_0_0) (fun _ => rfl)).squeeze S64x256 squeezes_S1x64x256_S64x256
abbrev B0 : Memref sig .scVector .vmem S128x128 .f32 :=
  ((b1).slice (Rect.unit (s := S2x128x128) ![0, 0, 0] S1x128x128.size inb_S2x128x128_S1x128x128_0_0_0) (fun _ => rfl)).squeeze S128x128 squeezes_S1x128x128_S128x128
abbrev B1 : Memref sig .scVector .vmem S128x128 .f32 :=
  ((b1).slice (Rect.unit (s := S2x128x128) ![1, 0, 0] S1x128x128.size inb_S2x128x128_S1x128x128_1_0_0) (fun _ => rfl)).squeeze S128x128 squeezes_S1x128x128_S128x128

/-- The tile's thread. -/
abbrev thr (d : Dev nD) (L : grid0.Coords) : Thread nD τ := V d ((L 0).castLE hcore0) ((L 1).castLE hsub0)

/-- After j trips on half p the pair half holds, on the blocks done, the slab half two columns to a line:
    entry (col / 2, (col mod 2)·64 + dd) is entry (dd, col) of the slab half. -/
def TransposedUpTo (p : Fin 2) (j : Nat) (X : S2x64x256.Idx → F .f32) (Y : S2x128x128.Idx → F .f32) : Prop :=
  ∀ (dd : Fin 64) (col : Fin 256), (col.val / 16) * 4 + dd.val / 16 < j →
    Y (ix3 p (⟨col.val / 2, by omega⟩ : Fin 128) (⟨(col.val % 2) * 64 + dd.val, by have := dd.isLt; omega⟩ : Fin 128)) = X (ix3 p dd col)

def innerInv0 (d : Dev nD) (L : grid0.Coords) (X : Buf (Elt F) ((b0).view.loc (thr d L))) (j : Nat) (_ : PUnit) : sProp 𝕄 :=
  iprop(((A0).view.loc (thr d L) ↦[(A0).view.set]{fullShare} X)
    ∗ ∃ Y, ((B0).view.loc (thr d L) ↦[(B0).view.set]{fullShare} Y) ∗ ⌜TransposedUpTo 0 j X Y⌝)

def innerInv1 (d : Dev nD) (L : grid0.Coords) (X : Buf (Elt F) ((b0).view.loc (thr d L))) (j : Nat) (_ : PUnit) : sProp 𝕄 :=
  iprop(((A1).view.loc (thr d L) ↦[(A1).view.set]{fullShare} X)
    ∗ ∃ Y, ((B1).view.loc (thr d L) ↦[(B1).view.set]{fullShare} Y) ∗ ⌜TransposedUpTo 1 j X Y⌝)

omit [FloatOps F] in
theorem embA0 (dd : Fin 64) (col : Fin 256) : (A0).view.emb (ix2 dd col) = ix3 (0 : Fin 2) dd col := by
  show (Rect.unit (s := S2x64x256) ![0, 0, 0] S1x64x256.size inb_S2x64x256_S1x64x256_0_0_0).emb
    (Shape.reshapeEquiv (squeezes_S1x64x256_S64x256).numel_eq (ix2 dd col)) = _
  rw [reshapeEquiv_ix2_1ab]
  funext a
  match a with
  | ⟨0, _⟩ => exact Fin.ext (by rw [Rect.emb_apply]; show 0 + 1 * 0 = 0; rfl)
  | ⟨1, _⟩ => exact Fin.ext (by rw [Rect.emb_apply]; show 0 + 1 * dd.val = dd.val; omega)
  | ⟨2, _⟩ => exact Fin.ext (by rw [Rect.emb_apply]; show 0 + 1 * col.val = col.val; omega)
omit [FloatOps F] in
theorem embA1 (dd : Fin 64) (col : Fin 256) : (A1).view.emb (ix2 dd col) = ix3 (1 : Fin 2) dd col := by
  show (Rect.unit (s := S2x64x256) ![1, 0, 0] S1x64x256.size inb_S2x64x256_S1x64x256_1_0_0).emb
    (Shape.reshapeEquiv (squeezes_S1x64x256_S64x256).numel_eq (ix2 dd col)) = _
  rw [reshapeEquiv_ix2_1ab]
  funext a
  match a with
  | ⟨0, _⟩ => exact Fin.ext (by rw [Rect.emb_apply]; show 1 + 1 * 0 = 1; rfl)
  | ⟨1, _⟩ => exact Fin.ext (by rw [Rect.emb_apply]; show 0 + 1 * dd.val = dd.val; omega)
  | ⟨2, _⟩ => exact Fin.ext (by rw [Rect.emb_apply]; show 0 + 1 * col.val = col.val; omega)
omit [FloatOps F] in
theorem embB0 (a b : Fin 128) : (B0).view.emb (ix2 a b) = ix3 (0 : Fin 2) a b := by
  show (Rect.unit (s := S2x128x128) ![0, 0, 0] S1x128x128.size inb_S2x128x128_S1x128x128_0_0_0).emb
    (Shape.reshapeEquiv (squeezes_S1x128x128_S128x128).numel_eq (ix2 a b)) = _
  rw [reshapeEquiv_ix2_1ab]
  funext c
  match c with
  | ⟨0, _⟩ => exact Fin.ext (by rw [Rect.emb_apply]; show 0 + 1 * 0 = 0; rfl)
  | ⟨1, _⟩ => exact Fin.ext (by rw [Rect.emb_apply]; show 0 + 1 * a.val = a.val; omega)
  | ⟨2, _⟩ => exact Fin.ext (by rw [Rect.emb_apply]; show 0 + 1 * b.val = b.val; omega)
omit [FloatOps F] in
theorem embB1 (a b : Fin 128) : (B1).view.emb (ix2 a b) = ix3 (1 : Fin 2) a b := by
  show (Rect.unit (s := S2x128x128) ![1, 0, 0] S1x128x128.size inb_S2x128x128_S1x128x128_1_0_0).emb
    (Shape.reshapeEquiv (squeezes_S1x128x128_S128x128).numel_eq (ix2 a b)) = _
  rw [reshapeEquiv_ix2_1ab]
  funext c
  match c with
  | ⟨0, _⟩ => exact Fin.ext (by rw [Rect.emb_apply]; show 1 + 1 * 0 = 1; rfl)
  | ⟨1, _⟩ => exact Fin.ext (by rw [Rect.emb_apply]; show 0 + 1 * a.val = a.val; omega)
  | ⟨2, _⟩ => exact Fin.ext (by rw [Rect.emb_apply]; show 0 + 1 * b.val = b.val; omega)

omit [FloatOps F] in
/-- A slab half read through its memref is the slab scratch at that half. -/
theorem readA0 (d : Dev nD) (L : grid0.Coords) (X : Buf (Elt F) ((b0).view.loc (thr d L))) (dd : Fin 64) (col : Fin 256) :
    ((A0).access (.whole S64x256)).read (Elt F) X (ix2 dd col) = (X : S2x64x256.Idx → F .f32) (ix3 (0 : Fin 2) dd col) := by
  rw [read_access_whole', View.read_apply, embA0]; rfl
omit [FloatOps F] in
theorem readA1 (d : Dev nD) (L : grid0.Coords) (X : Buf (Elt F) ((b0).view.loc (thr d L))) (dd : Fin 64) (col : Fin 256) :
    ((A1).access (.whole S64x256)).read (Elt F) X (ix2 dd col) = (X : S2x64x256.Idx → F .f32) (ix3 (1 : Fin 2) dd col) := by
  rw [read_access_whole', View.read_apply, embA1]; rfl
omit [FloatOps F] in
theorem readB0 (d : Dev nD) (L : grid0.Coords) (Y : Buf (Elt F) ((b1).view.loc (thr d L))) (a b : Fin 128) :
    (B0).view.read (Elt F) Y (ix2 a b) = (Y : S2x128x128.Idx → F .f32) (ix3 (0 : Fin 2) a b) := by
  rw [View.read_apply, embB0]; rfl
omit [FloatOps F] in
theorem readB1 (d : Dev nD) (L : grid0.Coords) (Y : Buf (Elt F) ((b1).view.loc (thr d L))) (a b : Fin 128) :
    (B1).view.read (Elt F) Y (ix2 a b) = (Y : S2x128x128.Idx → F .f32) (ix3 (1 : Fin 2) a b) := by
  rw [View.read_apply, embB1]; rfl

/-! ## One trip of the transposing loop -/

section Trips

variable (d : Dev nD) (L : grid0.Coords)

omit [FloatOps F] in
theorem done_of_upTo0 (X : Buf (Elt F) ((b0).view.loc (thr d L))) (Y : Buf (Elt F) ((b1).view.loc (thr d L))) (n : Nat)
    (h : TransposedUpTo 0 n (X : S2x64x256.Idx → F .f32) (Y : S2x128x128.Idx → F .f32)) :
    Done n (((A0).access (.whole S64x256)).read (Elt F) X) ((B0).view.read (Elt F) Y) := by
  intro dd col hlt
  show (B0).view.read (Elt F) Y (ix2 _ _) = _
  rw [readB0 d L, readA0 d L]
  exact h dd col hlt
omit [FloatOps F] in
theorem upTo0_of_done (X : Buf (Elt F) ((b0).view.loc (thr d L))) (Y : Buf (Elt F) ((b1).view.loc (thr d L))) (n : Nat)
    (h : Done n (((A0).access (.whole S64x256)).read (Elt F) X) ((B0).view.read (Elt F) Y)) :
    TransposedUpTo 0 n (X : S2x64x256.Idx → F .f32) (Y : S2x128x128.Idx → F .f32) := by
  intro dd col hlt
  have := h dd col hlt
  rw [readA0 d L] at this
  rw [← this]
  exact (readB0 d L Y _ _).symm
omit [FloatOps F] in
theorem done_of_upTo1 (X : Buf (Elt F) ((b0).view.loc (thr d L))) (Y : Buf (Elt F) ((b1).view.loc (thr d L))) (n : Nat)
    (h : TransposedUpTo 1 n (X : S2x64x256.Idx → F .f32) (Y : S2x128x128.Idx → F .f32)) :
    Done n (((A1).access (.whole S64x256)).read (Elt F) X) ((B1).view.read (Elt F) Y) := by
  intro dd col hlt
  show (B1).view.read (Elt F) Y (ix2 _ _) = _
  rw [readB1 d L, readA1 d L]
  exact h dd col hlt
omit [FloatOps F] in
theorem upTo1_of_done (X : Buf (Elt F) ((b0).view.loc (thr d L))) (Y : Buf (Elt F) ((b1).view.loc (thr d L))) (n : Nat)
    (h : Done n (((A1).access (.whole S64x256)).read (Elt F) X) ((B1).view.read (Elt F) Y)) :
    TransposedUpTo 1 n (X : S2x64x256.Idx → F .f32) (Y : S2x128x128.Idx → F .f32) := by
  intro dd col hlt
  have := h dd col hlt
  rw [readA1 d L] at this
  rw [← this]
  exact (readB1 d L Y _ _).symm

set_option hygiene false in
/-- One step of a trip on the first halves: the indexed read of the slab half (held as HR), then the indexed write of
    the pair half (held as HT, its contents followed), each followed by the plain steps up to the next one. -/
macro "pair0" c:term:max t:term:max x:term:max n:num : tactic =>
  `(tactic| (
    iapply (wp_loadIdx_own (c := $c) (base := A0) (q := fullShare)) $$ HR
    iintro HR
    try sl_exec (disch := chk0 $t)
    iapply (wp_storeIdx_val (c := $c) (base := B0) (Mid $t $n $x) (Mid $t ($n + 1) $x)
      (fun G hG => Mid_step $t (⟨$n, by decide⟩ : Fin 16) _ _ $x G hG)) $$ HT
    iintro HT
    try sl_exec (disch := chk0 $t)))

set_option maxHeartbeats 4000000 in
theorem inner0_step (k : Fin k0_t1_loop.trips) (h6 : k0_cond6 L k = 1#1) (v1 : BitVec 32)
    (X : Buf (Elt F) ((b0).view.loc (thr d L))) (j : Fin k0_t2_loop.trips) (u : Unit) :
    innerInv0 d L X j.val u ⊢ wp frame (wpE (defs₀ (F := F)) 𝒱₀ (thr d L) none) Set.univ
      (k0_t2_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 v1
        (iota .scVector S16 32 [0] iota_S16_d0_w32_scVector) 0#32 1#32 k h6 j u)
      (innerInv0 d L X (j.val + 1)) := by
  obtain ⟨jv, hj⟩ := j
  unfold innerInv0 k0_t2_body
  iintro ⟨HR, %Y, HT, %hY⟩
  ihave HT := (held_val_intro (c := thr d L) (base := B0)
    (Mid (⟨jv, hj⟩ : Fin 64) 0 (((A0).access (.whole S64x256)).read (Elt F) X)) Y
    (Mid_zero (done_of_upTo0 d L X Y jv hY))) $$ HT
  sl_exec (disch := chk0 (⟨jv, hj⟩ : Fin 64))
  pair0 (thr d L) (⟨jv, hj⟩ : Fin 64) (((A0).access (.whole S64x256)).read (Elt F) X) 0
  pair0 (thr d L) (⟨jv, hj⟩ : Fin 64) (((A0).access (.whole S64x256)).read (Elt F) X) 1
  pair0 (thr d L) (⟨jv, hj⟩ : Fin 64) (((A0).access (.whole S64x256)).read (Elt F) X) 2
  pair0 (thr d L) (⟨jv, hj⟩ : Fin 64) (((A0).access (.whole S64x256)).read (Elt F) X) 3
  pair0 (thr d L) (⟨jv, hj⟩ : Fin 64) (((A0).access (.whole S64x256)).read (Elt F) X) 4
  pair0 (thr d L) (⟨jv, hj⟩ : Fin 64) (((A0).access (.whole S64x256)).read (Elt F) X) 5
  pair0 (thr d L) (⟨jv, hj⟩ : Fin 64) (((A0).access (.whole S64x256)).read (Elt F) X) 6
  pair0 (thr d L) (⟨jv, hj⟩ : Fin 64) (((A0).access (.whole S64x256)).read (Elt F) X) 7
  pair0 (thr d L) (⟨jv, hj⟩ : Fin 64) (((A0).access (.whole S64x256)).read (Elt F) X) 8
  pair0 (thr d L) (⟨jv, hj⟩ : Fin 64) (((A0).access (.whole S64x256)).read (Elt F) X) 9
  pair0 (thr d L) (⟨jv, hj⟩ : Fin 64) (((A0).access (.whole S64x256)).read (Elt F) X) 10
  pair0 (thr d L) (⟨jv, hj⟩ : Fin 64) (((A0).access (.whole S64x256)).read (Elt F) X) 11
  pair0 (thr d L) (⟨jv, hj⟩ : Fin 64) (((A0).access (.whole S64x256)).read (Elt F) X) 12
  pair0 (thr d L) (⟨jv, hj⟩ : Fin 64) (((A0).access (.whole S64x256)).read (Elt F) X) 13
  pair0 (thr d L) (⟨jv, hj⟩ : Fin 64) (((A0).access (.whole S64x256)).read (Elt F) X) 14
  pair0 (thr d L) (⟨jv, hj⟩ : Fin 64) (((A0).access (.whole S64x256)).read (Elt F) X) 15
  rw [wp_ret]
  imodintro
  icases HT with ⟨%Y', HT, %hY'⟩
  isplitl [HR]
  · iexact HR
  iexists Y'
  isplitl [HT]
  · iexact HT
  ipureintro
  exact upTo0_of_done d L X Y' (jv + 1) (Done_succ (t := (⟨jv, hj⟩ : Fin 64)) hY')

end Trips

section Trips1

variable (d : Dev nD) (L : grid0.Coords)

set_option hygiene false in
/-- One step of a trip on the second halves. -/
macro "pair1" c:term:max t:term:max x:term:max n:num : tactic =>
  `(tactic| (
    iapply (wp_loadIdx_own (c := $c) (base := A1) (q := fullShare)) $$ HR
    iintro HR
    try sl_exec (disch := chk0 $t)
    iapply (wp_storeIdx_val (c := $c) (base := B1) (Mid $t $n $x) (Mid $t ($n + 1) $x)
      (fun G hG => Mid_step $t (⟨$n, by decide⟩ : Fin 16) _ _ $x G hG)) $$ HT
    iintro HT
    try sl_exec (disch := chk0 $t)))

set_option maxHeartbeats 4000000 in
theorem inner1_step (k : Fin k0_t1_loop.trips) (h12 : k0_cond12 L k = 1#1)
    (X : Buf (Elt F) ((b0).view.loc (thr d L))) (j : Fin k0_t3_loop.trips) (u : Unit) :
    innerInv1 d L X j.val u ⊢ wp frame (wpE (defs₀ (F := F)) 𝒱₀ (thr d L) none) Set.univ
      (k0_t3_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1
        (iota .scVector S16 32 [0] iota_S16_d0_w32_scVector) k h12 j u)
      (innerInv1 d L X (j.val + 1)) := by
  obtain ⟨jv, hj⟩ := j
  unfold innerInv1 k0_t3_body
  iintro ⟨HR, %Y, HT, %hY⟩
  ihave HT := (held_val_intro (c := thr d L) (base := B1)
    (Mid (⟨jv, hj⟩ : Fin 64) 0 (((A1).access (.whole S64x256)).read (Elt F) X)) Y
    (Mid_zero (done_of_upTo1 d L X Y jv hY))) $$ HT
  sl_exec (disch := chk0 (⟨jv, hj⟩ : Fin 64))
  pair1 (thr d L) (⟨jv, hj⟩ : Fin 64) (((A1).access (.whole S64x256)).read (Elt F) X) 0
  pair1 (thr d L) (⟨jv, hj⟩ : Fin 64) (((A1).access (.whole S64x256)).read (Elt F) X) 1
  pair1 (thr d L) (⟨jv, hj⟩ : Fin 64) (((A1).access (.whole S64x256)).read (Elt F) X) 2
  pair1 (thr d L) (⟨jv, hj⟩ : Fin 64) (((A1).access (.whole S64x256)).read (Elt F) X) 3
  pair1 (thr d L) (⟨jv, hj⟩ : Fin 64) (((A1).access (.whole S64x256)).read (Elt F) X) 4
  pair1 (thr d L) (⟨jv, hj⟩ : Fin 64) (((A1).access (.whole S64x256)).read (Elt F) X) 5
  pair1 (thr d L) (⟨jv, hj⟩ : Fin 64) (((A1).access (.whole S64x256)).read (Elt F) X) 6
  pair1 (thr d L) (⟨jv, hj⟩ : Fin 64) (((A1).access (.whole S64x256)).read (Elt F) X) 7
  pair1 (thr d L) (⟨jv, hj⟩ : Fin 64) (((A1).access (.whole S64x256)).read (Elt F) X) 8
  pair1 (thr d L) (⟨jv, hj⟩ : Fin 64) (((A1).access (.whole S64x256)).read (Elt F) X) 9
  pair1 (thr d L) (⟨jv, hj⟩ : Fin 64) (((A1).access (.whole S64x256)).read (Elt F) X) 10
  pair1 (thr d L) (⟨jv, hj⟩ : Fin 64) (((A1).access (.whole S64x256)).read (Elt F) X) 11
  pair1 (thr d L) (⟨jv, hj⟩ : Fin 64) (((A1).access (.whole S64x256)).read (Elt F) X) 12
  pair1 (thr d L) (⟨jv, hj⟩ : Fin 64) (((A1).access (.whole S64x256)).read (Elt F) X) 13
  pair1 (thr d L) (⟨jv, hj⟩ : Fin 64) (((A1).access (.whole S64x256)).read (Elt F) X) 14
  pair1 (thr d L) (⟨jv, hj⟩ : Fin 64) (((A1).access (.whole S64x256)).read (Elt F) X) 15
  rw [wp_ret]
  imodintro
  icases HT with ⟨%Y', HT, %hY'⟩
  isplitl [HR]
  · iexact HR
  iexists Y'
  isplitl [HT]
  · iexact HT
  ipureintro
  exact upTo1_of_done d L X Y' (jv + 1) (Done_succ (t := (⟨jv, hj⟩ : Fin 64)) hY')

end Trips1

/-! ## The tail's trips: the last 64 rows of the table, two to a line

  Trip t of 16 moves the block q = 16·⌊t/2⌋ … + 15, jj = 16·(t mod 2) … + 15: lane x takes q = 16·⌊t/2⌋ + x and, in
  step s, jj = 16·(t mod 2) + ((x + s) mod 16); it reads the tail scratch at (q mod 64, 2·jj + q / 64) and writes the
  tail's pair lines at (jj, q). -/

section TailWords

def q0W (t : Nat) : BitVec 32 :=
  let arg13 : BitVec 32 := Scf.iv 0#32 1#32 t
  let v24 : BitVec 32 := Scalar.divsi arg13 2#32
  let v25 : BitVec 1 := Scalar.cmpi .sgt arg13 0#32
  let v26 : BitVec 32 := Scalar.extui v25
  let v27 : BitVec 1 := Scalar.cmpi .slt arg13 0#32
  let v28 : BitVec 32 := Scalar.extui v27
  let v29 : BitVec 32 := Scalar.subi v26 v28
  let v30 : BitVec 1 := Scalar.cmpi .sgt 2#32 0#32
  let v31 : BitVec 32 := Scalar.extui v30
  let v32 : BitVec 1 := Scalar.cmpi .slt 2#32 0#32
  let v33 : BitVec 32 := Scalar.extui v32
  let v34 : BitVec 32 := Scalar.subi v31 v33
  let v35 : BitVec 1 := Scalar.cmpi .ne v29 v34
  let v36 : BitVec 32 := Scalar.remsi arg13 2#32
  let v37 : BitVec 1 := Scalar.cmpi .ne v36 0#32
  let v38 : BitVec 1 := Scalar.andi v35 v37
  let v39 : BitVec 32 := Scalar.subi v24 1#32
  let v40 : BitVec 32 := Scalar.select v38 v39 v24
  Scalar.muli v40 16#32

def j0W (t : Nat) : BitVec 32 :=
  let arg13 : BitVec 32 := Scf.iv 0#32 1#32 t
  let v42 : BitVec 1 := Scalar.cmpi .eq 2#32 0#32
  let v43 : BitVec 32 := Scalar.select v42 1#32 2#32
  let v44 : BitVec 32 := Scalar.remsi arg13 v43
  let v45 : BitVec 1 := Scalar.cmpi .ne v44 0#32
  let v46 : BitVec 1 := Scalar.cmpi .slt v44 0#32
  let v47 : BitVec 1 := Scalar.cmpi .slt v43 0#32
  let v48 : BitVec 1 := Scalar.xori v46 v47
  let v49 : BitVec 1 := Scalar.andi v48 v45
  let v50 : BitVec 32 := Scalar.addi v44 v43
  let v51 : BitVec 32 := Scalar.select v49 v50 v44
  Scalar.muli v51 16#32

theorem q0W_eq : ∀ t : Fin 16, (q0W t.val).toNat = 16 * (t.val / 2) := by decide +kernel
theorem j0W_eq : ∀ t : Fin 16, (j0W t.val).toNat = 16 * (t.val % 2) := by decide +kernel

/-- The entry of a line a lane takes in trip t. -/
def qv (t : Nat) : IVec S16 32 := addi (broadcast S16 (q0W t)) lanes
/-- The row of the tail scratch a lane reads in trip t. -/
def trow (t : Nat) : IVec S16 32 := andi (qv t) (broadcast S16 63#32)
/-- Which of a line's two rows a lane's entry belongs to. -/
def hpv (t : Nat) : IVec S16 32 := shrui (qv t) (broadcast S16 6#32)
/-- The line a lane writes in step s of trip t. -/
def jjv (t : Nat) (s : BitVec 32) : IVec S16 32 := addi (broadcast S16 (j0W t)) (perm s)
/-- The column of the tail scratch a lane reads in step s of trip t. -/
def tcol (t : Nat) (s : BitVec 32) : IVec S16 32 := addi (muli (jjv t s) (broadcast S16 2#32)) (hpv t)

theorem qv_eq (t : Fin 16) (x : S16.Idx) : (qv t.val x).toNat = 16 * (t.val / 2) + (x 0).val := by
  have hx : (x 0).val < 16 := (x 0).isLt
  have ht := t.isLt
  show (IntOp.addi (q0W t.val) (lanes x)).toNat = _
  unfold IntOp.addi
  rw [BitVec.toNat_add, q0W_eq, lane_eq]
  omega

theorem trow_eq (t : Fin 16) (x : S16.Idx) : (trow t.val x).toNat = (16 * (t.val / 2) + (x 0).val) % 64 := by
  show (IntOp.andi (qv t.val x) 63#32).toNat = _
  unfold IntOp.andi
  rw [BitVec.toNat_and, qv_eq, show (63#32 : BitVec 32).toNat = 2 ^ 6 - 1 from rfl, Nat.and_two_pow_sub_one_eq_mod]

theorem hpv_eq (t : Fin 16) (x : S16.Idx) : (hpv t.val x).toNat = (16 * (t.val / 2) + (x 0).val) / 64 := by
  show (IntOp.shrui .vector (qv t.val x) 6#32).toNat = _
  unfold IntOp.shrui
  rw [if_pos (by decide), BitVec.ushiftRight_eq', BitVec.toNat_ushiftRight, qv_eq,
    show (6#32 : BitVec 32).toNat = 6 from rfl, Nat.shiftRight_eq_div_pow]

theorem jjv_eq (t : Fin 16) (s : Fin 16) (x : S16.Idx) :
    (jjv t.val (BitVec.ofNat 32 s.val) x).toNat = 16 * (t.val % 2) + ((x 0).val + s.val) % 16 := by
  have ht := t.isLt
  show (IntOp.addi (j0W t.val) (perm (BitVec.ofNat 32 s.val) x)).toNat = _
  unfold IntOp.addi
  rw [BitVec.toNat_add, j0W_eq, perm_eq]
  omega

theorem jjv_lt (t : Fin 16) (s : BitVec 32) (x : S16.Idx) : (jjv t.val s x).toNat < 32 := by
  have ht := t.isLt
  have hp := perm_le s x
  show (IntOp.addi (j0W t.val) (perm s x)).toNat < 32
  unfold IntOp.addi
  rw [BitVec.toNat_add, j0W_eq]
  omega

theorem tcol_val (t : Fin 16) (s : BitVec 32) (x : S16.Idx) :
    (tcol t.val s x).toNat = 2 * (jjv t.val s x).toNat + (16 * (t.val / 2) + (x 0).val) / 64 := by
  have hx : (x 0).val < 16 := (x 0).isLt
  have ht := t.isLt
  have hj := jjv_lt t s x
  show (IntOp.addi (IntOp.muli (jjv t.val s x) 2#32) (hpv t.val x)).toNat = _
  unfold IntOp.addi IntOp.muli
  rw [BitVec.toNat_add, BitVec.toNat_mul, hpv_eq, show (2#32 : BitVec 32).toNat = 2 from rfl]
  omega

theorem qv_lt (t : Fin 16) (x : S16.Idx) : (qv t.val x).toNat < 128 := by
  have hx : (x 0).val < 16 := (x 0).isLt
  have ht := t.isLt
  rw [qv_eq]; omega
theorem trow_lt (t : Fin 16) (x : S16.Idx) : (trow t.val x).toNat < 64 := by
  rw [trow_eq]; exact Nat.mod_lt _ (by decide)
theorem tcol_lt (t : Fin 16) (s : BitVec 32) (x : S16.Idx) : (tcol t.val s x).toNat < 64 := by
  have hx : (x 0).val < 16 := (x 0).isLt
  have ht := t.isLt
  have hj := jjv_lt t s x
  rw [tcol_val]; omega

/-- An indexed read of the 64 x 64 tail scratch at words inside it. -/
theorem chk_tl {r c : IVec S16 32} (hr : ∀ x, (r x).toNat < 64) (hc : ∀ x, (c x).toNat < 64) :
    ∀ a x, ((![r, c] : Fin 2 → IVec S16 32) a x).toNat < S64x64.size a := by
  intro a x
  match a with
  | ⟨0, _⟩ => exact hr x
  | ⟨1, _⟩ => exact hc x
/-- An indexed write of the 32 x 128 tail pair lines at words inside them. -/
theorem chk_ts {p r : IVec S16 32} (hp : ∀ x, (p x).toNat < 32) (hr : ∀ x, (r x).toNat < 128) :
    ∀ a x, ((![p, r] : Fin 2 → IVec S16 32) a x).toNat < S32x128.size a := by
  intro a x
  match a with
  | ⟨0, _⟩ => exact hp x
  | ⟨1, _⟩ => exact hr x

end TailWords

/-- Discharges the in-range assumption of an indexed read or write of the tail's trip t (a term of Fin 16). -/
macro "chkT" t:term : tactic =>
  `(tactic| first
    | (intro _; refine chk_ts ?_ ?_; exact fun x => jjv_lt $t _ x; exact fun x => qv_lt $t x)
    | (intro _; refine chk_tl ?_ ?_; exact fun x => trow_lt $t x; exact fun x => tcol_lt $t _ x))

section TailPure

/-- Entry (jj, q) of the tail's pair lines comes from row q mod 64, column 2·jj + q / 64 of the tail scratch. -/
def srcOfT (jj : Fin 32) (q : Fin 128) : S64x64.Idx :=
  ix2 (⟨q.val % 64, Nat.mod_lt _ (by decide)⟩ : Fin 64) (⟨2 * jj.val + q.val / 64, by have := jj.isLt; have := q.isLt; omega⟩ : Fin 64)

def jjOfStep (t : Fin 16) (s k : Fin 16) : Fin 32 := ⟨16 * (t.val % 2) + (k.val + s.val) % 16, by omega⟩
def qOfStep (t : Fin 16) (k : Fin 16) : Fin 128 := ⟨16 * (t.val / 2) + k.val, by have := t.isLt; omega⟩

def TDone (t : Nat) (z : Vec F S64x64 .f32) (R : Vec F S32x128 .f32) : Prop :=
  ∀ (jj : Fin 32) (q : Fin 128), (q.val / 16) * 2 + jj.val / 16 < t → R (ix2 jj q) = z (srcOfT jj q)
def TSteps (t : Fin 16) (n : Nat) (z : Vec F S64x64 .f32) (R : Vec F S32x128 .f32) : Prop :=
  ∀ (k s : Fin 16), s.val < n → R (ix2 (jjOfStep t s k) (qOfStep t k)) = z (srcOfT (jjOfStep t s k) (qOfStep t k))
def TMid (t : Fin 16) (n : Nat) (z : Vec F S64x64 .f32) (R : Vec F S32x128 .f32) : Prop := TDone t.val z R ∧ TSteps t n z R

omit [FloatOps F] in
theorem TMid_zero {t : Fin 16} {z : Vec F S64x64 .f32} {R : Vec F S32x128 .f32} (h : TDone t.val z R) : TMid t 0 z R :=
  ⟨h, fun _ s hs => absurd hs (Nat.not_lt_zero _)⟩

omit [FloatOps F] in
theorem TDone_succ {t : Fin 16} {z : Vec F S64x64 .f32} {R : Vec F S32x128 .f32} (h : TMid t 16 z R) : TDone (t.val + 1) z R := by
  intro jj q hlt
  have hd := jj.isLt; have hc := q.isLt; have ht := t.isLt
  by_cases hb : (q.val / 16) * 2 + jj.val / 16 < t.val
  · exact h.1 jj q hb
  · have e1 : q.val / 16 = t.val / 2 := by omega
    have e2 : jj.val / 16 = t.val % 2 := by omega
    have hk : q.val % 16 < 16 := Nat.mod_lt _ (by decide)
    have hs : (jj.val % 16 + 16 - q.val % 16) % 16 < 16 := Nat.mod_lt _ (by decide)
    have hr : jjOfStep t ⟨_, hs⟩ ⟨_, hk⟩ = jj := Fin.ext (by show 16 * (t.val % 2) + (q.val % 16 + (jj.val % 16 + 16 - q.val % 16) % 16) % 16 = jj.val; omega)
    have hcl : qOfStep t ⟨_, hk⟩ = q := Fin.ext (by show 16 * (t.val / 2) + q.val % 16 = q.val; omega)
    have := h.2 ⟨_, hk⟩ ⟨_, hs⟩ hs
    rw [hr, hcl] at this
    exact this

omit [FloatOps F] in
theorem ix2_inj32 {a a' : Fin 32} {b b' : Fin 128} (h : (ix2 a b : S32x128.Idx) = ix2 a' b') : a = a' ∧ b = b' :=
  ⟨Fin.ext (congrArg (fun j : S32x128.Idx => (j 0).val) h), Fin.ext (congrArg (fun j : S32x128.Idx => (j 1).val) h)⟩

variable (t : Fin 16) (s : Fin 16)
variable (hl : ∀ a y, ((![trow t.val, tcol t.val (BitVec.ofNat 32 s.val)] : Fin 2 → IVec S16 32) a y).toNat < S64x64.size a)
variable (hs : ∀ a y, ((![jjv t.val (BitVec.ofNat 32 s.val), qv t.val] : Fin 2 → IVec S16 32) a y).toNat < S32x128.size a)

omit [FloatOps F] in
theorem twpos_eq (k : Fin 16) :
    idxAt ![jjv t.val (BitVec.ofNat 32 s.val), qv t.val] hs (Shape.ofLane (d := ![16]) k) = ix2 (jjOfStep t s k) (qOfStep t k) := by
  funext a
  match a with
  | ⟨0, _⟩ => exact Fin.ext (by
      show (jjv t.val (BitVec.ofNat 32 s.val) (Shape.ofLane (d := ![16]) k)).toNat = 16 * (t.val % 2) + (k.val + s.val) % 16
      rw [jjv_eq]; rfl)
  | ⟨1, _⟩ => exact Fin.ext (by
      show (qv t.val (Shape.ofLane (d := ![16]) k)).toNat = 16 * (t.val / 2) + k.val
      rw [qv_eq]; rfl)

omit [FloatOps F] in
theorem trpos_eq (k : Fin 16) :
    idxAt ![trow t.val, tcol t.val (BitVec.ofNat 32 s.val)] hl (Shape.ofLane (d := ![16]) k) = srcOfT (jjOfStep t s k) (qOfStep t k) := by
  funext a
  match a with
  | ⟨0, _⟩ => exact Fin.ext (by
      show (trow t.val (Shape.ofLane (d := ![16]) k)).toNat = (16 * (t.val / 2) + k.val) % 64
      rw [trow_eq]; rfl)
  | ⟨1, _⟩ => exact Fin.ext (by
      show (tcol t.val (BitVec.ofNat 32 s.val) (Shape.ofLane (d := ![16]) k)).toNat
        = 2 * (16 * (t.val % 2) + (k.val + s.val) % 16) + (16 * (t.val / 2) + k.val) / 64
      rw [tcol_val, jjv_eq]; rfl)

theorem TMid_step (z : Vec F S64x64 .f32) (R : Vec F S32x128 .f32) (h : TMid t s.val z R) :
    TMid t (s.val + 1) z
      (storeIdx R ![jjv t.val (BitVec.ofNat 32 s.val), qv t.val]
        (loadIdx z ![trow t.val, tcol t.val (BitVec.ofNat 32 s.val)] hl) (fun _ => 1#1) false hs) := by
  have ht := t.isLt
  constructor
  · intro jj q hlt
    rw [storeIdx_apply R _ _ hs (ix2 jj q) (R (ix2 jj q)) (fun k hk => by
      have hk := (twpos_eq t s hs k).symm.trans hk
      obtain ⟨e1, e2⟩ := ix2_inj32 hk
      have h1 : jj.val = 16 * (t.val % 2) + (k.val + s.val) % 16 := congrArg Fin.val e1.symm
      have h2 : q.val = 16 * (t.val / 2) + k.val := congrArg Fin.val e2.symm
      have hk16 : k.val < 16 := k.isLt
      omega), ite_self]
    exact h.1 jj q hlt
  · intro k s' hs'
    rcases Nat.lt_succ_iff_lt_or_eq.mp hs' with hlt | heq
    · rw [storeIdx_apply R _ _ hs _ (R (ix2 (jjOfStep t s' k) (qOfStep t k))) (fun k' hk' => by
        have hk' := (twpos_eq t _ hs k').symm.trans hk'
        obtain ⟨e1, e2⟩ := ix2_inj32 hk'
        have h1 : 16 * (t.val % 2) + (k'.val + s.val) % 16 = 16 * (t.val % 2) + (k.val + s'.val) % 16 := congrArg Fin.val e1
        have h2 : 16 * (t.val / 2) + k'.val = 16 * (t.val / 2) + k.val := congrArg Fin.val e2
        have := k.isLt; have hk16 : k'.val < 16 := k'.isLt; have := s.isLt; have := s'.isLt
        omega), ite_self]
      exact h.2 k s' hlt
    · have es : s' = s := Fin.ext heq
      subst es
      rw [storeIdx_apply R _ _ hs _ (z (srcOfT (jjOfStep t s' k) (qOfStep t k))) (fun k' hk' => by
        have hk' := (twpos_eq t _ hs k').symm.trans hk'
        obtain ⟨e1, e2⟩ := ix2_inj32 hk'
        have h2 : 16 * (t.val / 2) + k'.val = 16 * (t.val / 2) + k.val := congrArg Fin.val e2
        have ek : k' = k := Fin.ext (by omega)
        exact (congrArg z (trpos_eq t s' hl k')).trans (by rw [ek]))]
      exact if_pos ⟨k, twpos_eq t s' hs k⟩

end TailPure

section TripsT

variable (d : Dev nD) (L : grid0.Coords)

/-- After j trips the tail's pair lines hold, on the blocks done, the tail scratch two rows to a line. -/
def innerInvT (d : Dev nD) (L : grid0.Coords) (Z : Buf (Elt F) ((b2).view.loc (thr d L))) (j : Nat) (_ : PUnit) : sProp 𝕄 :=
  iprop(((b2).view.loc (thr d L) ↦{fullShare} Z)
    ∗ ∃ R, ((b3).view.loc (thr d L) ↦{fullShare} R)
      ∗ ⌜∀ (jj : Fin 32) (q : Fin 128), (q.val / 16) * 2 + jj.val / 16 < j →
          (R : S32x128.Idx → F .f32) (ix2 jj q)
            = (Z : S64x64.Idx → F .f32) (ix2 (⟨q.val % 64, Nat.mod_lt _ (by decide)⟩ : Fin 64)
                (⟨2 * jj.val + q.val / 64, by have := jj.isLt; have := q.isLt; omega⟩ : Fin 64))⌝)

omit [FloatOps F] in
theorem set_b2 : (b2).view.set = Finset.univ := (set_access_whole b2).symm.trans (Memref.set_access_whole _)
omit [FloatOps F] in
theorem set_b3 : (b3).view.set = Finset.univ := (set_access_whole b3).symm.trans (Memref.set_access_whole _)
omit [FloatOps F] in
theorem held_b2 (Z : Buf (Elt F) ((b2).view.loc (thr d L))) :
    ((b2).view.loc (thr d L) ↦{fullShare} Z : sProp 𝕄) = ((b2).view.loc (thr d L) ↦[(b2).view.set]{fullShare} Z) := by
  rw [set_b2]
omit [FloatOps F] in
theorem held_b3 (R : Buf (Elt F) ((b3).view.loc (thr d L))) :
    ((b3).view.loc (thr d L) ↦{fullShare} R : sProp 𝕄) = ((b3).view.loc (thr d L) ↦[(b3).view.set]{fullShare} R) := by
  rw [set_b3]
omit [FloatOps F] in
theorem read_b2 (Z : Buf (Elt F) ((b2).view.loc (thr d L))) : ((b2).access (.whole S64x64)).read (Elt F) Z = Z :=
  Memref.read_access_whole (Elt F) cc0_scratch2 Z
omit [FloatOps F] in
theorem read_b3 (R : Buf (Elt F) ((b3).view.loc (thr d L))) : (b3).view.read (Elt F) R = R :=
  (read_access_whole' (Elt F) b3 R).symm.trans (Memref.read_access_whole (Elt F) cc0_scratch3 R)

set_option hygiene false in
/-- One step of a tail trip. -/
macro "pairT" c:term:max t:term:max z:term:max n:num : tactic =>
  `(tactic| (
    iapply (wp_loadIdx_own (c := $c) (base := b2) (q := fullShare)) $$ HR
    iintro HR
    try sl_exec (disch := chkT $t)
    iapply (wp_storeIdx_val (c := $c) (base := b3) (TMid $t $n $z) (TMid $t ($n + 1) $z)
      (fun G hG => TMid_step $t (⟨$n, by decide⟩ : Fin 16) _ _ $z G hG)) $$ HT
    iintro HT
    try sl_exec (disch := chkT $t)))

set_option maxHeartbeats 4000000 in
theorem innerT_step (h17 : k0_cond17 L = 1#1) (Z : Buf (Elt F) ((b2).view.loc (thr d L)))
    (j : Fin k0_t4_loop.trips) (u : Unit) :
    innerInvT d L Z j.val u ⊢ wp frame (wpE (defs₀ (F := F)) 𝒱₀ (thr d L) none) Set.univ
      (k0_t4_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1
        (iota .scVector S16 32 [0] iota_S16_d0_w32_scVector) h17 j u)
      (innerInvT d L Z (j.val + 1)) := by
  obtain ⟨jv, hj⟩ := j
  unfold innerInvT k0_t4_body
  rw [held_b2 d L Z]
  iintro ⟨HR, %R, HT, %hR⟩
  ihave HT := (Entails.of_eq (held_b3 d L R)) $$ HT
  ihave HT := (held_val_intro (c := thr d L) (base := b3)
    (TMid (⟨jv, hj⟩ : Fin 16) 0 (((b2).access (.whole S64x64)).read (Elt F) Z)) R
    (TMid_zero (by rw [read_b2 d L Z, read_b3 d L R]; exact hR))) $$ HT
  sl_exec (disch := chkT (⟨jv, hj⟩ : Fin 16))
  pairT (thr d L) (⟨jv, hj⟩ : Fin 16) (((b2).access (.whole S64x64)).read (Elt F) Z) 0
  pairT (thr d L) (⟨jv, hj⟩ : Fin 16) (((b2).access (.whole S64x64)).read (Elt F) Z) 1
  pairT (thr d L) (⟨jv, hj⟩ : Fin 16) (((b2).access (.whole S64x64)).read (Elt F) Z) 2
  pairT (thr d L) (⟨jv, hj⟩ : Fin 16) (((b2).access (.whole S64x64)).read (Elt F) Z) 3
  pairT (thr d L) (⟨jv, hj⟩ : Fin 16) (((b2).access (.whole S64x64)).read (Elt F) Z) 4
  pairT (thr d L) (⟨jv, hj⟩ : Fin 16) (((b2).access (.whole S64x64)).read (Elt F) Z) 5
  pairT (thr d L) (⟨jv, hj⟩ : Fin 16) (((b2).access (.whole S64x64)).read (Elt F) Z) 6
  pairT (thr d L) (⟨jv, hj⟩ : Fin 16) (((b2).access (.whole S64x64)).read (Elt F) Z) 7
  pairT (thr d L) (⟨jv, hj⟩ : Fin 16) (((b2).access (.whole S64x64)).read (Elt F) Z) 8
  pairT (thr d L) (⟨jv, hj⟩ : Fin 16) (((b2).access (.whole S64x64)).read (Elt F) Z) 9
  pairT (thr d L) (⟨jv, hj⟩ : Fin 16) (((b2).access (.whole S64x64)).read (Elt F) Z) 10
  pairT (thr d L) (⟨jv, hj⟩ : Fin 16) (((b2).access (.whole S64x64)).read (Elt F) Z) 11
  pairT (thr d L) (⟨jv, hj⟩ : Fin 16) (((b2).access (.whole S64x64)).read (Elt F) Z) 12
  pairT (thr d L) (⟨jv, hj⟩ : Fin 16) (((b2).access (.whole S64x64)).read (Elt F) Z) 13
  pairT (thr d L) (⟨jv, hj⟩ : Fin 16) (((b2).access (.whole S64x64)).read (Elt F) Z) 14
  pairT (thr d L) (⟨jv, hj⟩ : Fin 16) (((b2).access (.whole S64x64)).read (Elt F) Z) 15
  rw [wp_ret]
  imodintro
  icases HT with ⟨%R', HT, %hR'⟩
  isplitl [HR]
  · iexact HR
  iexists R'
  isplitl [HT]
  · iapply (Entails.of_eq (held_b3 d L R').symm); iexact HT
  ipureintro
  have hd := TDone_succ (t := (⟨jv, hj⟩ : Fin 16)) hR'
  rw [read_b2 d L Z, read_b3 d L R'] at hd
  exact hd

omit [FloatOps F] in
theorem trips2 : k0_t2_loop.trips = 64 := by decide
omit [FloatOps F] in
theorem trips3 : k0_t3_loop.trips = 64 := by decide
omit [FloatOps F] in
theorem trips4 : k0_t4_loop.trips = 16 := by decide

end TripsT

end Cert.Proof.KI.Body0Inner

end
-- ==== Proof.Body0TailVal.lean ====
/-
  The tail's pair lines hold the pair table's last 32 lines.

  The last 64 rows of the table are kept transposed: entry (d, k) of the tail is table[999936 + k, d]. Entry
  (jj, q) of the tail's pair lines is entry (q mod 64, 2·jj + q / 64) of the tail, that is
  table[999936 + 2·jj + q / 64, q mod 64] = table[2·(499968 + jj) + q / 64, q mod 64]: entry (499968 + jj, q) of
  the pair table.
-/
import proofs.«204055_g19524921328135_cont_8to1_763_20_alg».proof.Proof.Spec
import Idealize.ShloMosaic.Lib.ValueIdx

namespace Cert.Proof.KI.Body0TailVal

open Idealize.ShloMosaic Idealize.ShloMosaic.ValueIdx Cert.Lookup

theorem tail_pairs {α : Type} (TAB : STab.Idx → α) (Z : (⟨2, ![64, 64]⟩ : Shape).Idx → α) (R : (⟨2, ![32, 128]⟩ : Shape).Idx → α)
    (hZ : ∀ (r c : Fin 64), Z (ix2 r c) = tailT TAB (ix2 r c))
    (hR : ∀ (jj : Fin 32) (q : Fin 128), R (ix2 jj q) = Z (ix2 (⟨q.val % 64, by omega⟩ : Fin 64)
      (⟨2 * jj.val + q.val / 64, by have := jj.isLt; have := q.isLt; omega⟩ : Fin 64)))
    (jj : Fin 32) (q : Fin 128) :
    R (ix2 jj q) = pairs TAB (ix2 (⟨499968 + jj.val, by have := jj.isLt; omega⟩ : Fin 500000) q) := by
  have hj := jj.isLt
  have hq := q.isLt
  rw [hR, hZ]
  unfold tailT pairs
  refine congrArg TAB ?_
  funext a
  match a with
  | ⟨0, _⟩ => exact Fin.ext (by show 999936 + (2 * jj.val + q.val / 64) = 2 * (499968 + jj.val) + q.val / 64; omega)
  | ⟨1, _⟩ => exact Fin.ext (by show q.val % 64 = q.val % 64; rfl)

end Cert.Proof.KI.Body0TailVal
-- ==== Proof.Body0.lean ====
/-
  The repacking kernel on one vector subcore.

  Tile w = 2·s + c of the thirty-two handles the 256-column slabs number w + 32·t of the transposed
  table (t = 0, 1, …: those below 3906), two at a time: slab t is copied into half t % 2 of a
  64 × 256 scratch, transposed there two columns to a line into half t % 2 of a 128 × 128 scratch
  (line r, entry h·64 + d, is entry (d, 2r + h) of the slab), and that half is copied out to lines
  128·(w + 32·t) … of the pair table. The copy in of slab t + 2 is issued as soon as slab t is
  transposed, the copy out of slab t is awaited before half t % 2 is written again, or after the
  last trip. Tile 0 then repacks the table's last 64 rows from their transposed copy the same way
  into the pair table's last 32 lines.

  The loop over the trips is run by its invariant. Before trip g: for each half p, the copy in of
  slab 2g + p is in flight if that slab exists (else the half and its semaphore are free), the copy
  out of slab 2g + p − 2 is in flight if g > 0 and it exists; the slabs of the pair table below
  2g − 2 hold the pair table's entries, those from 2g on are still owned unwritten.
-/
import proofs.«204055_g19524921328135_cont_8to1_763_20_alg».proof.Proof.Tiles
import proofs.«204055_g19524921328135_cont_8to1_763_20_alg».proof.Proof.HostSide
import Idealize.ShloMosaic.Lib.Ring
import Idealize.ShloMosaic.Lib.ValueLayout
import proofs.«204055_g19524921328135_cont_8to1_763_20_alg».proof.Proof.Body0Inner
import proofs.«204055_g19524921328135_cont_8to1_763_20_alg».proof.Proof.Body0TailVal

noncomputable section

namespace Cert.Proof.KI.Body0

open Cert.KernelIdeal Cert.KernelIdeal.Gen Cert.Proof.KI
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F]

scoped notation "tW" => (Memref.whole Cert.KernelIdeal.main_v2_scv : Memref Cert.KernelIdeal.sig Kind.scVector Space.hbm Cert.KernelIdeal.S64x1000000 EltTy.f32)
scoped notation "lW" => (Memref.whole Cert.KernelIdeal.main_v4_scv : Memref Cert.KernelIdeal.sig Kind.scVector Space.hbm Cert.KernelIdeal.S64x64 EltTy.f32)
scoped notation "pW" => (Memref.whole Cert.KernelIdeal.main_v5_scv : Memref Cert.KernelIdeal.sig Kind.scVector Space.hbm Cert.KernelIdeal.S500000x128 EltTy.f32)
scoped notation "b0" => (Memref.whole Cert.KernelIdeal.cc0_scratch0 : Memref Cert.KernelIdeal.sig Kind.scVector Space.vmem Cert.KernelIdeal.S2x64x256 EltTy.f32)
scoped notation "b1" => (Memref.whole Cert.KernelIdeal.cc0_scratch1 : Memref Cert.KernelIdeal.sig Kind.scVector Space.vmem Cert.KernelIdeal.S2x128x128 EltTy.f32)
scoped notation "b2" => (Memref.whole Cert.KernelIdeal.cc0_scratch2 : Memref Cert.KernelIdeal.sig Kind.scVector Space.vmem Cert.KernelIdeal.S64x64 EltTy.f32)
scoped notation "b3" => (Memref.whole Cert.KernelIdeal.cc0_scratch3 : Memref Cert.KernelIdeal.sig Kind.scVector Space.vmem Cert.KernelIdeal.S32x128 EltTy.f32)

/-- The tile's SparseCore. -/
abbrev cV (L : grid0.Coords) : Fin τ.nSC := (L 0).castLE hcore0
/-- The tile's vector subcore. -/
abbrev jV (L : grid0.Coords) : Fin τ.nSub := (L 1).castLE hsub0
/-- The tile's thread. -/
abbrev thr (d : Dev nD) (L : grid0.Coords) : Thread nD τ := V d (cV L) (jV L)

/-- The two halves of the slab scratch and of the pair scratch, as the kernel names them. -/
abbrev A0 : Memref sig .scVector .vmem S64x256 .f32 :=
  ((b0).slice (Rect.unit (s := S2x64x256) ![0, 0, 0] S1x64x256.size inb_S2x64x256_S1x64x256_0_0_0) (fun _ => rfl)).squeeze S64x256 squeezes_S1x64x256_S64x256
abbrev A1 : Memref sig .scVector .vmem S64x256 .f32 :=
  ((b0).slice (Rect.unit (s := S2x64x256) ![1, 0, 0] S1x64x256.size inb_S2x64x256_S1x64x256_1_0_0) (fun _ => rfl)).squeeze S64x256 squeezes_S1x64x256_S64x256
abbrev B0 : Memref sig .scVector .vmem S128x128 .f32 :=
  ((b1).slice (Rect.unit (s := S2x128x128) ![0, 0, 0] S1x128x128.size inb_S2x128x128_S1x128x128_0_0_0) (fun _ => rfl)).squeeze S128x128 squeezes_S1x128x128_S128x128
abbrev B1 : Memref sig .scVector .vmem S128x128 .f32 :=
  ((b1).slice (Rect.unit (s := S2x128x128) ![1, 0, 0] S1x128x128.size inb_S2x128x128_S1x128x128_1_0_0) (fun _ => rfl)).squeeze S128x128 squeezes_S1x128x128_S128x128

/-! ## A two-slot scratch buffer is its two slots -/

def offA (p : Fin 2) : Fin 3 → Nat := ![p.val, 0, 0]
theorem offA_inb (p : Fin 2) : ∀ a, offA p a + S1x64x256.size a ≤ S2x64x256.size a := by
  intro a; fin_cases p <;> fin_cases a <;> decide
theorem offB_inb (p : Fin 2) : ∀ a, offA p a + S1x128x128.size a ≤ S2x128x128.size a := by
  intro a; fin_cases p <;> fin_cases a <;> decide
def JA (p : Fin 2) : Finset S2x64x256.Idx := (Rect.unit (s := S2x64x256) (offA p) S1x64x256.size (offA_inb p)).set
def JB (p : Fin 2) : Finset S2x128x128.Idx := (Rect.unit (s := S2x128x128) (offA p) S1x128x128.size (offB_inb p)).set

theorem JA_disj : ∀ s s', s ≠ s' → Disjoint (JA s) (JA s') :=
  Ring.lead_disjoint (s := S2x64x256) (NB := 2) 0 1 offA S1x64x256.size offA_inb (fun b => by simp [offA]) rfl
theorem JA_cover : Finset.univ.biUnion JA = Finset.univ :=
  Ring.lead_cover (s := S2x64x256) (NB := 2) 0 1 offA S1x64x256.size offA_inb (fun b => by simp [offA])
    (fun b a ha => by fin_cases a <;> first | exact absurd rfl ha | rfl) rfl
    (fun a ha => by fin_cases a <;> first | exact absurd rfl ha | rfl) rfl
theorem JB_disj : ∀ s s', s ≠ s' → Disjoint (JB s) (JB s') :=
  Ring.lead_disjoint (s := S2x128x128) (NB := 2) 0 1 offA S1x128x128.size offB_inb (fun b => by simp [offA]) rfl
theorem JB_cover : Finset.univ.biUnion JB = Finset.univ :=
  Ring.lead_cover (s := S2x128x128) (NB := 2) 0 1 offA S1x128x128.size offB_inb (fun b => by simp [offA])
    (fun b a ha => by fin_cases a <;> first | exact absurd rfl ha | rfl) rfl
    (fun a ha => by fin_cases a <;> first | exact absurd rfl ha | rfl) rfl

theorem A0_set : (A0).view.set = JA 0 := by
  simp only [Memref.view_squeeze, Memref.view_slice, Memref.view_whole, View.set_reshape, View.set_slice_whole]; rfl
theorem A1_set : (A1).view.set = JA 1 := by
  simp only [Memref.view_squeeze, Memref.view_slice, Memref.view_whole, View.set_reshape, View.set_slice_whole]; rfl
theorem B0_set : (B0).view.set = JB 0 := by
  simp only [Memref.view_squeeze, Memref.view_slice, Memref.view_whole, View.set_reshape, View.set_slice_whole]; rfl
theorem B1_set : (B1).view.set = JB 1 := by
  simp only [Memref.view_squeeze, Memref.view_slice, Memref.view_whole, View.set_reshape, View.set_slice_whole]; rfl

/-! ## The kernel's conditions, decided over every tile and trip -/

/-- The tile's number as the kernel computes it. -/
def v1Of (i : grid0.Coords) : BitVec 32 := Scalar.addi (Scalar.muli (BitVec.ofNat 32 (i 1).val) 2#32) (BitVec.ofNat 32 (i 0).val)
/-- The tile's number. -/
def wOf (i : grid0.Coords) : Nat := 2 * (i 1).val + (i 0).val

theorem cond1_true : ∀ i : grid0.Coords, k0_cond1 i = 1#1 := by decide +kernel
theorem cond2_true : ∀ i : grid0.Coords, k0_cond2 i = 1#1 := by decide +kernel
theorem cond6_iff : ∀ (i : grid0.Coords) (g : Fin k0_t1_loop.trips), k0_cond6 i g = 1#1 ↔ wOf i + 64 * g.val < 3906 := by decide +kernel
theorem cond7_iff : ∀ (i : grid0.Coords) (g : Fin k0_t1_loop.trips), k0_cond7 i g = 1#1 ↔ wOf i + 64 * g.val < 3906 := by decide +kernel
theorem cond8_iff : ∀ (i : grid0.Coords) (g : Fin k0_t1_loop.trips), k0_cond8 i g = 1#1 ↔ wOf i + 64 * g.val + 64 < 3906 := by decide +kernel
theorem cond12_iff : ∀ (i : grid0.Coords) (g : Fin k0_t1_loop.trips), k0_cond12 i g = 1#1 ↔ wOf i + 64 * g.val + 32 < 3906 := by decide +kernel
theorem cond13_iff : ∀ (i : grid0.Coords) (g : Fin k0_t1_loop.trips), k0_cond13 i g = 1#1 ↔ wOf i + 64 * g.val + 32 < 3906 := by decide +kernel
theorem cond14_iff : ∀ (i : grid0.Coords) (g : Fin k0_t1_loop.trips), k0_cond14 i g = 1#1 ↔ wOf i + 64 * g.val + 96 < 3906 := by decide +kernel
theorem cond17_iff : ∀ (i : grid0.Coords), k0_cond17 i = 1#1 ↔ wOf i = 0 := by decide +kernel
theorem trips_eq : k0_t1_loop.trips = 62 := by decide +kernel

/-! ### The conditions the kernel computes inline -/

/-- "This is not the first trip", as the kernel computes it. -/
def cG (k : Fin k0_t1_loop.trips) : BitVec 1 :=
  Scalar.cmpi .ne (Scalar.extui (Scalar.cmpi .sgt (Scf.iv 0#32 1#32 k) 0#32)) 0#32
/-- "Slab 2g + p exists", as the kernel computes it before the wait for its copy in. -/
def cIn0 (i : grid0.Coords) (k : Fin k0_t1_loop.trips) : BitVec 1 :=
  Scalar.cmpi .ne (Scalar.extui (Scalar.cmpi .slt (Scalar.addi (v1Of i) (Scalar.muli 32#32 (Scalar.addi (Scalar.muli (Scf.iv 0#32 1#32 k) 2#32) 0#32))) 3906#32)) 0#32
def cIn1 (i : grid0.Coords) (k : Fin k0_t1_loop.trips) : BitVec 1 :=
  Scalar.cmpi .ne (Scalar.extui (Scalar.cmpi .slt (Scalar.addi (v1Of i) (Scalar.muli 32#32 (Scalar.addi (Scalar.muli (Scf.iv 0#32 1#32 k) 2#32) 1#32))) 3906#32)) 0#32
/-- "Slab 2g + p − 2 exists", as the kernel computes it before the wait for its copy out. -/
def cOut0 (i : grid0.Coords) (k : Fin k0_t1_loop.trips) : BitVec 1 :=
  Scalar.cmpi .ne (Scalar.extui (Scalar.cmpi .slt (Scalar.addi (v1Of i) (Scalar.muli 32#32 (Scalar.subi (Scalar.addi (Scalar.muli (Scf.iv 0#32 1#32 k) 2#32) 0#32) 2#32))) 3906#32)) 0#32
def cOut1 (i : grid0.Coords) (k : Fin k0_t1_loop.trips) : BitVec 1 :=
  Scalar.cmpi .ne (Scalar.extui (Scalar.cmpi .slt (Scalar.addi (v1Of i) (Scalar.muli 32#32 (Scalar.subi (Scalar.addi (Scalar.muli (Scf.iv 0#32 1#32 k) 2#32) 1#32) 2#32))) 3906#32)) 0#32
/-- "Slab 122 exists" and "slab 123 exists", as the kernel computes them after the loop. -/
def cEnd0 (i : grid0.Coords) : BitVec 1 :=
  Scalar.cmpi .ne (Scalar.extui (Scalar.cmpi .slt (Scalar.addi (v1Of i) 3904#32) 3906#32)) 0#32
def cEnd1 (i : grid0.Coords) : BitVec 1 :=
  Scalar.cmpi .ne (Scalar.extui (Scalar.cmpi .slt (Scalar.addi (v1Of i) 3936#32) 3906#32)) 0#32

theorem cG_iff : ∀ k : Fin k0_t1_loop.trips, cG k = 1#1 ↔ 0 < k.val := by decide +kernel
theorem cIn0_iff : ∀ (i : grid0.Coords) (k : Fin k0_t1_loop.trips), cIn0 i k = 1#1 ↔ wOf i + 64 * k.val < 3906 := by decide +kernel
theorem cIn1_iff : ∀ (i : grid0.Coords) (k : Fin k0_t1_loop.trips), cIn1 i k = 1#1 ↔ wOf i + 64 * k.val + 32 < 3906 := by decide +kernel
theorem cOut0_true : ∀ (i : grid0.Coords) (k : Fin k0_t1_loop.trips), cOut0 i k = 1#1 := by decide +kernel
theorem cOut1_true : ∀ (i : grid0.Coords) (k : Fin k0_t1_loop.trips), cOut1 i k = 1#1 := by decide +kernel
theorem cEnd0_iff : ∀ (i : grid0.Coords), cEnd0 i = 1#1 ↔ wOf i < 2 := by decide +kernel
theorem cEnd1_false : ∀ (i : grid0.Coords), ¬ cEnd1 i = 1#1 := by decide +kernel
theorem wOf_lt : ∀ (i : grid0.Coords), wOf i < 32 := by decide +kernel

section Split
variable (d : Dev nD) (L : grid0.Coords)

/-- The slab scratch held whole is its two halves, each at some contents. -/
theorem splitA :
    (iprop(∃ f, (b0).view.loc (thr d L) ↦{fullShare} f) : sProp 𝕄)
      ⊢ iprop((∃ f, (b0).view.loc (thr d L) ↦[(A0).view.set]{fullShare} f) ∗ ∃ f, (b0).view.loc (thr d L) ↦[(A1).view.set]{fullShare} f) :=
  Ring.slots2_split (ℓ := (b0).view.loc (thr d L)) JA JA_disj JA_cover _ _ (fun f => by rw [A0_set]) (fun f => by rw [A1_set])
/-- The pair scratch held whole is its two halves, each at some contents. -/
theorem splitB :
    (iprop(∃ f, (b1).view.loc (thr d L) ↦{fullShare} f) : sProp 𝕄)
      ⊢ iprop((∃ f, (b1).view.loc (thr d L) ↦[(B0).view.set]{fullShare} f) ∗ ∃ f, (b1).view.loc (thr d L) ↦[(B1).view.set]{fullShare} f) :=
  Ring.slots2_split (ℓ := (b1).view.loc (thr d L)) JB JB_disj JB_cover _ _ (fun f => by rw [B0_set]) (fun f => by rw [B1_set])
/-- The two halves of the slab scratch, each at some contents, are the scratch held whole. -/
theorem joinA :
    (iprop((∃ f, (b0).view.loc (thr d L) ↦[(A0).view.set]{fullShare} f) ∗ ∃ f, (b0).view.loc (thr d L) ↦[(A1).view.set]{fullShare} f) : sProp 𝕄)
      ⊢ iprop(∃ f, (b0).view.loc (thr d L) ↦{fullShare} f) :=
  Ring.slots2_join (ℓ := (b0).view.loc (thr d L)) JA JA_disj JA_cover _ _ (fun f => by rw [A0_set]) (fun f => by rw [A1_set])
/-- The two halves of the pair scratch, each at some contents, are the scratch held whole. -/
theorem joinB :
    (iprop((∃ f, (b1).view.loc (thr d L) ↦[(B0).view.set]{fullShare} f) ∗ ∃ f, (b1).view.loc (thr d L) ↦[(B1).view.set]{fullShare} f) : sProp 𝕄)
      ⊢ iprop(∃ f, (b1).view.loc (thr d L) ↦{fullShare} f) :=
  Ring.slots2_join (ℓ := (b1).view.loc (thr d L)) JB JB_disj JB_cover _ _ (fun f => by rw [B0_set]) (fun f => by rw [B1_set])
end Split

/-! ## The invariant's parts -/

section Inv
variable (m : (ℓ : Loc nD τ sig) → Buf (Elt F) ℓ) (d : Dev nD) (L : grid0.Coords)

/-- The transposed table and the pair table of the launch contents, at the tile's view of the arrays. -/
abbrev TT : Buf (Elt F) ((tW).view.loc (thr d L)) := (Cert.Lookup.tabT (Tiles.TAB m d) : Buf (Elt F) (Tiles.tabTLoc d))
abbrev PP : Buf (Elt F) ((pW).view.loc (thr d L)) := (Cert.Lookup.pairs (Tiles.TAB m d) : Buf (Elt F) (Tiles.pairsLoc d))

/-- Slab `cc` of the pair table at the pair table's entries, and at some contents. -/
def slabDone (cc : Fin 3906) : sProp 𝕄 :=
  Tiles.pairsLoc d ↦[Tiles.pairSet cc]{fullShare} (Cert.Lookup.pairs (Tiles.TAB m d) : Buf (Elt F) (Tiles.pairsLoc d))
def slabPend (cc : Fin 3906) : sProp 𝕄 := iprop(∃ f, Tiles.pairsLoc d ↦[Tiles.pairSet cc]{fullShare} f)

/-- Slab number `t` of the tile when the slabs below `a` are written and those from `b` on unwritten
    (those between are out of hand: their copies out are in flight). -/
def ent (a b : Nat) (t : Fin 123) : sProp 𝕄 :=
  if h : wOf L + 32 * t.val < 3906 then
    (if t.val < a then slabDone m d ⟨wOf L + 32 * t.val, h⟩ else if b ≤ t.val then slabPend (F := F) d ⟨wOf L + 32 * t.val, h⟩ else iprop(emp))
  else iprop(emp)
/-- The tile's slabs. -/
def Pend (a b : Nat) : sProp 𝕄 := bigSep (Finset.univ : Finset (Fin 123)) (ent m d L a b)

/-- Slab `a`, written, joins the written ones. -/
theorem Pend_put (a b : Nat) (hab : a < b) (ha : a < 123) :
    iprop((if h : wOf L + 32 * a < 3906 then slabDone m d ⟨wOf L + 32 * a, h⟩ else iprop(emp)) ∗ Pend m d L a b) ⊢ Pend m d L (a + 1) b := by
  have e1 : ∀ t ∈ (Finset.univ : Finset (Fin 123)).erase ⟨a, ha⟩, ent m d L a b t = ent m d L (a + 1) b t := by
    intro t ht
    have hne : t.val ≠ a := fun e => (Finset.ne_of_mem_erase ht) (Fin.ext e)
    unfold ent
    have h1 : (t.val < a) ↔ (t.val < a + 1) := by omega
    simp only [h1]
  unfold Pend
  rw [BI.bigSep_erase (Φ := ent m d L a b) (Finset.mem_univ (⟨a, ha⟩ : Fin 123)),
    BI.bigSep_erase (Φ := ent m d L (a + 1) b) (Finset.mem_univ (⟨a, ha⟩ : Fin 123)), BI.bigSep_congr e1]
  have hE : ent m d L a b ⟨a, ha⟩ = iprop(emp) := by
    unfold ent
    by_cases h : wOf L + 32 * a < 3906
    · simp only [dif_pos h, Nat.lt_irrefl, if_false, show ¬ (b ≤ a) by omega]
    · simp only [dif_neg h]
  have hX : ent m d L (a + 1) b ⟨a, ha⟩ = (if h : wOf L + 32 * a < 3906 then slabDone m d ⟨wOf L + 32 * a, h⟩ else iprop(emp)) := by
    unfold ent
    simp only [Nat.lt_succ_self, if_true]
  rw [hE, hX]
  exact BI.sep_mono (Idealize.SL.BI.Entails.refl _) BI.emp_sep.1

/-- Slab `b`, unwritten, is taken out of the unwritten ones. -/
theorem Pend_take (a b : Nat) (hab : a ≤ b) (hb : b < 123) :
    Pend m d L a b ⊢ iprop((if h : wOf L + 32 * b < 3906 then slabPend (F := F) d ⟨wOf L + 32 * b, h⟩ else iprop(emp)) ∗ Pend m d L a (b + 1)) := by
  have e1 : ∀ t ∈ (Finset.univ : Finset (Fin 123)).erase ⟨b, hb⟩, ent m d L a b t = ent m d L a (b + 1) t := by
    intro t ht
    have hne : t.val ≠ b := fun e => (Finset.ne_of_mem_erase ht) (Fin.ext e)
    unfold ent
    have h1 : (b ≤ t.val) ↔ (b + 1 ≤ t.val) := by omega
    simp only [h1]
  unfold Pend
  rw [BI.bigSep_erase (Φ := ent m d L a b) (Finset.mem_univ (⟨b, hb⟩ : Fin 123)),
    BI.bigSep_erase (Φ := ent m d L a (b + 1)) (Finset.mem_univ (⟨b, hb⟩ : Fin 123)), BI.bigSep_congr e1]
  have hE : ent m d L a (b + 1) ⟨b, hb⟩ = iprop(emp) := by
    unfold ent
    by_cases h : wOf L + 32 * b < 3906
    · simp only [dif_pos h, show ¬ (b < a) by omega, if_false, show ¬ (b + 1 ≤ b) by omega]
    · simp only [dif_neg h]
  have hX : ent m d L a b ⟨b, hb⟩ = (if h : wOf L + 32 * b < 3906 then slabPend (F := F) d ⟨wOf L + 32 * b, h⟩ else iprop(emp)) := by
    unfold ent
    simp only [show ¬ (b < a) by omega, if_false, Nat.le_refl, if_true]
  rw [hE, hX]
  exact BI.sep_mono (Idealize.SL.BI.Entails.refl _) BI.emp_sep.2

/-- What the tile is handed: every slab unwritten. -/
theorem Pend_init :
    Tiles.slabOwn (F := F) (fun cc => iprop(∃ f, Tiles.pairsLoc d ↦[Tiles.pairSet cc]{fullShare} f)) (Tiles.c0Of L) (Tiles.s0Of L) = Pend m d L 0 0 := by
  unfold Tiles.slabOwn Pend
  refine BI.bigSep_congr fun t _ => ?_
  unfold ent slabPend
  show (if h : wOf L + 32 * t.val < 3906 then _ else _) = _
  simp only [Nat.not_lt_zero, if_false, Nat.zero_le, if_true]
  rfl

/-- What the tile hands back: every slab written. -/
theorem Pend_exit (b : Nat) :
    Pend m d L 123 b = Tiles.slabOwn (F := F) (fun cc => Tiles.pairsLoc d ↦[Tiles.pairSet cc]{fullShare} (Cert.Lookup.pairs (Tiles.TAB m d) : Buf (Elt F) (Tiles.pairsLoc d))) (Tiles.c0Of L) (Tiles.s0Of L) := by
  unfold Tiles.slabOwn Pend
  refine BI.bigSep_congr fun t _ => ?_
  unfold ent slabDone
  show _ = (if h : wOf L + 32 * t.val < 3906 then _ else _)
  simp only [t.isLt, if_true]
  rfl

end Inv

section Inv2
variable (m : (ℓ : Loc nD τ sig) → Buf (Elt F) ℓ) (d : Dev nD) (L : grid0.Coords)

/-- The two read shares of the transposed table the tile holds. -/
abbrev qL (L : grid0.Coords) : PosShare TreeShare := (Tiles.tileShare (Tiles.c0Of L) (Tiles.s0Of L)).left
abbrev qR (L : grid0.Coords) : PosShare TreeShare := (Tiles.tileShare (Tiles.c0Of L) (Tiles.s0Of L)).right

/-- Half `p` of the slab scratch holds slab `cc` of the transposed table: entry (d, col) is entry (d, 256·cc + col). -/
def SlabHolds (p : Fin 2) (cc : Nat) (X : Buf (Elt F) ((b0).view.loc (thr d L))) : Prop :=
  ∀ (dd : Fin 64) (col : Fin 256) (h : 256 * cc + col.val < 1000000),
    (X : S2x64x256.Idx → F .f32) (ix3 p dd col) = Cert.Lookup.tabT (Tiles.TAB m d) (ix2 dd (⟨256 * cc + col.val, h⟩ : Fin 1000000))

/-- Half `p` of the pair scratch holds slab `cc` of the pair table. -/
def PbHolds (p : Fin 2) (cc : Nat) (Y : Buf (Elt F) ((b1).view.loc (thr d L))) : Prop :=
  ∀ (r : Fin 128) (q : Fin 128) (h : 128 * cc + r.val < 500000),
    (Y : S2x128x128.Idx → F .f32) (ix3 p r q) = Cert.Lookup.pairs (Tiles.TAB m d) (ix2 (⟨128 * cc + r.val, h⟩ : Fin 500000) q)

/-- Half 0 of the slab scratch landed: it holds slab `cc` of the transposed table. -/
def InLanded0 (cc : Nat) : sProp 𝕄 :=
  iprop(∃ X, ((A0).view.loc (thr d L) ↦[(A0).view.set]{fullShare} X) ∗ ⌜SlabHolds m d L 0 cc X⌝)
/-- Half 0 before the wait for slab `t`'s copy in: in flight if the slab exists, else free. -/
def InSt0 (t : Nat) : sProp 𝕄 :=
  if wOf L + 32 * t < 3906 then
    iprop(∃ Wn, Transfers.Flight countersEmb (thr d L) (SemLoc.dma cc0_scratch4.sem) default 524288
        iprop(InLanded0 m d L (wOf L + 32 * t) ∗ ((tW).view.loc (thr d L) ↦[Wn]{qL L} TT m d L))
      ∗ ((tW).view.loc (thr d L) ↦[Finset.univ \ Wn]{qL L} TT m d L))
  else iprop((∃ X, (A0).view.loc (thr d L) ↦[(A0).view.set]{fullShare} X) ∗ semVal (thr d L, SemLoc.dma cc0_scratch4.sem) 0
      ∗ ((tW).view.loc (thr d L) ↦{qL L} TT m d L))
/-- Half 0 before the wait for slab `t − 2`'s copy out: in flight if there is such a slab, else free. -/
def OutSt0 (t : Nat) : sProp 𝕄 :=
  if h : 2 ≤ t ∧ wOf L + 32 * (t - 2) < 3906 then
    iprop(∃ Y, Transfers.Flight countersEmb (thr d L) (SemLoc.dma cc0_scratch6.sem) default 524288
        iprop(slabDone m d ⟨wOf L + 32 * (t - 2), h.2⟩ ∗ ((B0).view.loc (thr d L) ↦[(B0).view.set]{fullShare} Y)))
  else iprop((∃ Y, (B0).view.loc (thr d L) ↦[(B0).view.set]{fullShare} Y) ∗ semVal (thr d L, SemLoc.dma cc0_scratch6.sem) 0)

/-- Half 1 of the slab scratch landed: it holds slab `cc` of the transposed table. -/
def InLanded1 (cc : Nat) : sProp 𝕄 :=
  iprop(∃ X, ((A1).view.loc (thr d L) ↦[(A1).view.set]{fullShare} X) ∗ ⌜SlabHolds m d L 1 cc X⌝)
/-- Half 1 before the wait for slab `t`'s copy in: in flight if the slab exists, else free. -/
def InSt1 (t : Nat) : sProp 𝕄 :=
  if wOf L + 32 * t < 3906 then
    iprop(∃ Wn, Transfers.Flight countersEmb (thr d L) (SemLoc.dma cc0_scratch5.sem) default 524288
        iprop(InLanded1 m d L (wOf L + 32 * t) ∗ ((tW).view.loc (thr d L) ↦[Wn]{qR L} TT m d L))
      ∗ ((tW).view.loc (thr d L) ↦[Finset.univ \ Wn]{qR L} TT m d L))
  else iprop((∃ X, (A1).view.loc (thr d L) ↦[(A1).view.set]{fullShare} X) ∗ semVal (thr d L, SemLoc.dma cc0_scratch5.sem) 0
      ∗ ((tW).view.loc (thr d L) ↦{qR L} TT m d L))
/-- Half 1 before the wait for slab `t − 2`'s copy out: in flight if there is such a slab, else free. -/
def OutSt1 (t : Nat) : sProp 𝕄 :=
  if h : 2 ≤ t ∧ wOf L + 32 * (t - 2) < 3906 then
    iprop(∃ Y, Transfers.Flight countersEmb (thr d L) (SemLoc.dma cc0_scratch7.sem) default 524288
        iprop(slabDone m d ⟨wOf L + 32 * (t - 2), h.2⟩ ∗ ((B1).view.loc (thr d L) ↦[(B1).view.set]{fullShare} Y)))
  else iprop((∃ Y, (B1).view.loc (thr d L) ↦[(B1).view.set]{fullShare} Y) ∗ semVal (thr d L, SemLoc.dma cc0_scratch7.sem) 0)

/-- What the tile owes, up to waits of its own copies. -/
def OwesSt (O : CellTallies nD τ sig (HIx 2)) (W : Waits sig (HIx 2)) : sProp 𝕄 :=
  iprop(∃ W', ⌜∀ p ∈ W', p ∈ W ∨ p.2 = none⌝ ∗ owes (thr d L) O W')

/-- Before trip `g`. -/
def inv (O : CellTallies nD τ sig (HIx 2)) (W : Waits sig (HIx 2)) (g : Nat) (_ : PUnit) : sProp 𝕄 :=
  iprop(Transfers.MayWaits (thr d L) (none : HIx 2) O ∗ InSt0 m d L (2 * g) ∗ OutSt0 m d L (2 * g) ∗ InSt1 m d L (2 * g + 1) ∗ OutSt1 m d L (2 * g + 1)
    ∗ Pend m d L (2 * g - 2) (2 * g) ∗ OwesSt d L O W)
/-- In the middle of trip `g`: half 0 done. -/
def Mid (O : CellTallies nD τ sig (HIx 2)) (W : Waits sig (HIx 2)) (g : Nat) : sProp 𝕄 :=
  iprop(Transfers.MayWaits (thr d L) (none : HIx 2) O ∗ InSt0 m d L (2 * g + 2) ∗ OutSt0 m d L (2 * g + 2) ∗ InSt1 m d L (2 * g + 1) ∗ OutSt1 m d L (2 * g + 1)
    ∗ Pend m d L (2 * g - 1) (2 * g + 1) ∗ OwesSt d L O W)

/-- What the first half of trip `k` returns: the trip number, 2k + 1, and the words the second half tests. -/
def R0 (L : grid0.Coords) (k : Fin k0_t1_loop.trips) : Σ' (_ : BitVec 32) (_ : BitVec 32) (_ : BitVec 32), BitVec 32 :=
  ⟨Scf.iv 0#32 1#32 k, Scalar.addi (Scalar.muli (Scf.iv 0#32 1#32 k) 2#32) 1#32,
    Scalar.extui (Scalar.cmpi .slt (Scalar.addi (v1Of L) (Scalar.muli 32#32 (Scalar.addi (Scalar.muli (Scf.iv 0#32 1#32 k) 2#32) 1#32))) 3906#32), 0#32⟩

end Inv2

section Win
variable (m : (ℓ : Loc nD τ sig) → Buf (Elt F) ℓ) (d : Dev nD) (L : grid0.Coords)

theorem rect_unit_congr {s : Shape} {off off' : Fin s.rank → Nat} (h : off = off') (sz : Fin s.rank → Nat)
    (inb : ∀ a, off a + sz a ≤ s.size a) (inb' : ∀ a, off' a + sz a ≤ s.size a) :
    Rect.unit off sz inb = Rect.unit off' sz inb' := by subst h; rfl

/-- The windows of the pair table the two copies out of trip `k` write. -/
abbrev win3 (L : grid0.Coords) (k : Fin k0_t1_loop.trips) (h7 : k0_cond7 L k = 1#1) : Memref sig .scVector .hbm S128x128 .f32 :=
  (pW).slice (Rect.unit (s := S500000x128) (k0_off3 L k) S128x128.size (k0_off3_inb L k h7)) (fun _ => rfl)
abbrev win5 (L : grid0.Coords) (k : Fin k0_t1_loop.trips) (h13 : k0_cond13 L k = 1#1) : Memref sig .scVector .hbm S128x128 .f32 :=
  (pW).slice (Rect.unit (s := S500000x128) (k0_off5 L k) S128x128.size (k0_off5_inb L k h13)) (fun _ => rfl)

theorem off3_eq (k : Fin k0_t1_loop.trips) : k0_off3 L k = ![128 * (wOf L + 32 * (2 * k.val)), 0] := by
  rw [k0_off3_eq]; unfold wOf
  rw [show 256 * (L 1).val + 128 * (L 0).val + 8192 * k.val = 128 * (2 * (L 1).val + (L 0).val + 32 * (2 * k.val)) by omega]
theorem off5_eq (k : Fin k0_t1_loop.trips) : k0_off5 L k = ![128 * (wOf L + 32 * (2 * k.val + 1)), 0] := by
  rw [k0_off5_eq]; unfold wOf
  rw [show 256 * (L 1).val + 128 * (L 0).val + 8192 * k.val + 4096 = 128 * (2 * (L 1).val + (L 0).val + 32 * (2 * k.val + 1)) by omega]

theorem win3_set (k : Fin k0_t1_loop.trips) (h7 : k0_cond7 L k = 1#1) (hcc : wOf L + 32 * (2 * k.val) < 3906) :
    (win3 L k h7).view.set = Tiles.pairSet ⟨wOf L + 32 * (2 * k.val), hcc⟩ := by
  show ((pW).view.slice (Rect.unit (s := S500000x128) (k0_off3 L k) S128x128.size (k0_off3_inb L k h7))).set = ((pW).view.slice (Tiles.pairRect ⟨_, hcc⟩)).set
  rw [rect_unit_congr (s := S500000x128) (off3_eq L k) S128x128.size (k0_off3_inb L k h7) (Tiles.pairRect_inb ⟨_, hcc⟩)]
theorem win5_set (k : Fin k0_t1_loop.trips) (h13 : k0_cond13 L k = 1#1) (hcc : wOf L + 32 * (2 * k.val + 1) < 3906) :
    (win5 L k h13).view.set = Tiles.pairSet ⟨wOf L + 32 * (2 * k.val + 1), hcc⟩ := by
  show ((pW).view.slice (Rect.unit (s := S500000x128) (k0_off5 L k) S128x128.size (k0_off5_inb L k h13))).set = ((pW).view.slice (Tiles.pairRect ⟨_, hcc⟩)).set
  rw [rect_unit_congr (s := S500000x128) (off5_eq L k) S128x128.size (k0_off5_inb L k h13) (Tiles.pairRect_inb ⟨_, hcc⟩)]

/-- An unwritten slab, as the program's window spells it. -/
theorem pend_win3 (k : Fin k0_t1_loop.trips) (h7 : k0_cond7 L k = 1#1) (hcc : wOf L + 32 * (2 * k.val) < 3906) (fp : Buf (Elt F) (Tiles.pairsLoc d)) :
    (Tiles.pairsLoc d ↦[Tiles.pairSet ⟨wOf L + 32 * (2 * k.val), hcc⟩]{fullShare} fp : sProp 𝕄)
      = ((win3 L k h7).view.loc (thr d L) ↦[(win3 L k h7).view.set]{fullShare} fp) := by
  rw [win3_set L k h7 hcc]
theorem pend_win5 (k : Fin k0_t1_loop.trips) (h13 : k0_cond13 L k = 1#1) (hcc : wOf L + 32 * (2 * k.val + 1) < 3906) (fp : Buf (Elt F) (Tiles.pairsLoc d)) :
    (Tiles.pairsLoc d ↦[Tiles.pairSet ⟨wOf L + 32 * (2 * k.val + 1), hcc⟩]{fullShare} fp : sProp 𝕄)
      = ((win5 L k h13).view.loc (thr d L) ↦[(win5 L k h13).view.set]{fullShare} fp) := by
  rw [win5_set L k h13 hcc]
end Win

section Win2
variable (L : grid0.Coords)
/-- The offsets of the four copies in, in closed form over the slab's number. -/
theorem off1_eq' (cc : Nat) (h : cc = wOf L) : k0_off1 L = ![0, 256 * cc] := by
  subst h; rw [k0_off1_eq]; unfold wOf
  rw [show 512 * (L 1).val + 256 * (L 0).val = 256 * (2 * (L 1).val + (L 0).val) by omega]
theorem off2_eq' (cc : Nat) (h : cc = wOf L + 32) : k0_off2 L = ![0, 256 * cc] := by
  subst h; rw [k0_off2_eq]; unfold wOf
  rw [show 512 * (L 1).val + 256 * (L 0).val + 8192 = 256 * (2 * (L 1).val + (L 0).val + 32) by omega]
theorem off4_eq' (k : Fin k0_t1_loop.trips) (cc : Nat) (h : cc = wOf L + 64 * k.val + 64) : k0_off4 L k = ![0, 256 * cc] := by
  subst h; rw [k0_off4_eq]; unfold wOf
  rw [show 512 * (L 1).val + 256 * (L 0).val + 16384 * k.val + 16384 = 256 * (2 * (L 1).val + (L 0).val + 64 * k.val + 64) by omega]
theorem off6_eq' (k : Fin k0_t1_loop.trips) (cc : Nat) (h : cc = wOf L + 64 * k.val + 96) : k0_off6 L k = ![0, 256 * cc] := by
  subst h; rw [k0_off6_eq]; unfold wOf
  rw [show 512 * (L 1).val + 256 * (L 0).val + 16384 * k.val + 24576 = 256 * (2 * (L 1).val + (L 0).val + 64 * k.val + 96) by omega]
/-- A wait of one of the tile's own copies is recorded at no handshake. -/
theorem owes_ins {W W' : Waits sig (HIx 2)} (h : ∀ p ∈ W', p ∈ W ∨ p.2 = none) (sm : SemLoc sig) :
    ∀ p ∈ insert (sm, (default : HIx 2)) W', p ∈ W ∨ p.2 = none := by
  intro p hp
  rcases Finset.mem_insert.mp hp with rfl | hp
  · exact Or.inr rfl
  · exact h p hp
end Win2

section PendTop
variable (m : (ℓ : Loc nD τ sig) → Buf (Elt F) ℓ) (d : Dev nD) (L : grid0.Coords)
/-- Past the last slab the second threshold does not matter. -/
theorem Pend_top (a b b' : Nat) (hb : 123 ≤ b) (hb' : 123 ≤ b') : Pend m d L a b = Pend m d L a b' := by
  unfold Pend
  refine BI.bigSep_congr fun t _ => ?_
  unfold ent
  have := t.isLt
  simp only [show ¬ (b ≤ t.val) by omega, show ¬ (b' ≤ t.val) by omega]
end PendTop

section Pure
variable (m : (ℓ : Loc nD τ sig) → Buf (Elt F) ℓ) (d : Dev nD) (L : grid0.Coords)
/-! ## Values: where the copies land -/

theorem A0_emb (dd : Fin 64) (col : Fin 256) : ((A0).view.emb (ix2 dd col) : S2x64x256.Idx) = ix3 (0 : Fin 2) dd col := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 0 + 1 * 0 = 0; rfl
  | ⟨1, _⟩ => show 0 + 1 * dd.val = dd.val; omega
  | ⟨2, _⟩ => show 0 + 1 * col.val = col.val; omega
theorem B0_emb (r : Fin 128) (q : Fin 128) : ((B0).view.emb (ix2 r q) : S2x128x128.Idx) = ix3 (0 : Fin 2) r q := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 0 + 1 * 0 = 0; rfl
  | ⟨1, _⟩ => show 0 + 1 * r.val = r.val; omega
  | ⟨2, _⟩ => show 0 + 1 * q.val = q.val; omega

theorem A1_emb (dd : Fin 64) (col : Fin 256) : ((A1).view.emb (ix2 dd col) : S2x64x256.Idx) = ix3 (1 : Fin 2) dd col := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 1 + 1 * 0 = 1; rfl
  | ⟨1, _⟩ => show 0 + 1 * dd.val = dd.val; omega
  | ⟨2, _⟩ => show 0 + 1 * col.val = col.val; omega
theorem B1_emb (r : Fin 128) (q : Fin 128) : ((B1).view.emb (ix2 r q) : S2x128x128.Idx) = ix3 (1 : Fin 2) r q := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 1 + 1 * 0 = 1; rfl
  | ⟨1, _⟩ => show 0 + 1 * r.val = r.val; omega
  | ⟨2, _⟩ => show 0 + 1 * q.val = q.val; omega

/-- A copy in landed: the flight's delivery, as the invariant states it. -/
theorem in_mono0 (cc : Nat) (off : Fin 2 → Nat) (inb : ∀ a, off a + S64x256.size a ≤ S64x1000000.size a) (hoff : off = ![0, 256 * cc])
    (X : Buf (Elt F) ((b0).view.loc (thr d L))) (q : PosShare TreeShare) :
    (iprop((((A0).view.loc (thr d L) ↦[(A0).view.set]{fullShare}
          (A0).view.writes (Elt F) X [⟨Rect.whole S64x256, ReadAs.same.apply (View.read (Elt F) ((tW).slice (Rect.unit (s := S64x1000000) off S64x256.size inb) (fun _ => rfl)).view (TT m d L))⟩]))
        ∗ ((tW).view.loc (thr d L) ↦[((tW).slice (Rect.unit (s := S64x1000000) off S64x256.size inb) (fun _ => rfl)).view.set]{q} TT m d L)) : sProp 𝕄)
      ⊢ iprop(InLanded0 m d L cc ∗ ((tW).view.loc (thr d L) ↦[((tW).slice (Rect.unit (s := S64x1000000) off S64x256.size inb) (fun _ => rfl)).view.set]{q} TT m d L)) := by
  subst hoff
  unfold InLanded0
  iintro ⟨H, HR⟩
  isplitl [H]
  swap; · iexact HR
  iexists _
  isplitl [H]; · iexact H
  ipureintro
  intro dd col h
  rw [← A0_emb dd col, ← View.write_univ_eq_writes_whole, View.writes_nil, View.write_emb_of_mem _ _ (Finset.mem_univ _)]
  show View.read (Elt F) ((tW).slice (Rect.unit (s := S64x1000000) ![0, 256 * cc] S64x256.size inb) (fun _ => rfl)).view (TT m d L) (ix2 dd col) = _
  rw [View.read_apply]
  show Cert.Lookup.tabT (Tiles.TAB m d) (((tW).slice (Rect.unit (s := S64x1000000) ![0, 256 * cc] S64x256.size inb) (fun _ => rfl)).view.emb (ix2 dd col)) = Cert.Lookup.tabT (Tiles.TAB m d) _
  congr 1
  funext a
  apply Fin.ext
  simp only [Memref.view_slice, Memref.view_whole, View.emb_slice, View.emb_whole, Function.Embedding.trans_apply, Function.Embedding.refl_apply, Rect.emb_apply]
  match a with
  | ⟨0, _⟩ => show 0 + 1 * dd.val = dd.val; omega
  | ⟨1, _⟩ => show 256 * cc + 1 * col.val = 256 * cc + col.val; omega
/-- A copy out landed: the slab of the pair table holds the pair table's entries. -/
theorem out_mono0 (k : Fin k0_t1_loop.trips) (h7 : k0_cond7 L k = 1#1) (cc : Fin 3906) (hcc : cc.val = wOf L + 32 * (2 * k.val))
    (Y : Buf (Elt F) ((b1).view.loc (thr d L))) (hY : PbHolds m d L 0 cc.val Y) (fp : Buf (Elt F) (Tiles.pairsLoc d)) :
    (iprop((((win3 L k h7).view.loc (thr d L) ↦[(win3 L k h7).view.set]{fullShare}
          (win3 L k h7).view.writes (Elt F) fp [⟨Rect.whole _, ReadAs.same.apply (View.read (Elt F) (B0).view Y)⟩]))
        ∗ ((B0).view.loc (thr d L) ↦[(B0).view.set]{fullShare} Y)) : sProp 𝕄)
      ⊢ iprop(slabDone m d cc ∗ ((B0).view.loc (thr d L) ↦[(B0).view.set]{fullShare} Y)) := by
  iintro ⟨H, HR⟩
  isplitl [H]
  swap; · iexact HR
  iapply (Entails.of_eq ?_) $$ H
  unfold slabDone
  have hcc' : wOf L + 32 * (2 * k.val) < 3906 := hcc ▸ cc.isLt
  have ecc : cc = ⟨wOf L + 32 * (2 * k.val), hcc'⟩ := Fin.ext hcc
  rw [ecc, ← win3_set L k h7 hcc']
  refine pointsTo_congr fun i hi => ?_
  obtain ⟨z, -, rfl⟩ := Finset.mem_map.mp hi
  rw [← View.write_univ_eq_writes_whole, View.writes_nil, View.write_emb_of_mem _ _ (Finset.mem_univ _)]
  show View.read (Elt F) (B0).view Y z = _
  rw [View.read_apply]
  have eB : ((B0).view.emb z : S2x128x128.Idx) = ix3 (0 : Fin 2) (z 0) (z 1) := by
    exact (congrArg (fun x => ((B0).view.emb x : S2x128x128.Idx)) (ValueIdx.eq_ix2 z)).trans (B0_emb (z 0) (z 1))
  show (Y : S2x128x128.Idx → F .f32) ((B0).view.emb z) = _
  rw [eB]
  have hz0 : (z 0).val < 128 := (z 0).isLt
  refine (hY (z 0) (z 1) (by rw [hcc]; omega)).trans ?_
  show Cert.Lookup.pairs (Tiles.TAB m d) _ = Cert.Lookup.pairs (Tiles.TAB m d) _
  congr 1
  have hemb : ∀ a, (((win3 L k h7).view.emb z : S500000x128.Idx) a).val = k0_off3 L k a + 1 * (z a).val := fun a => Rect.emb_apply (Rect.unit (s := S500000x128) (k0_off3 L k) S128x128.size (k0_off3_inb L k h7)) z a
  funext a
  apply Fin.ext
  match a with
  | ⟨0, _⟩ =>
    exact (show 128 * cc.val + (z 0).val = k0_off3 L k 0 + 1 * (z 0).val by
      rw [off3_eq L k, hcc]; show _ = 128 * (wOf L + 32 * (2 * k.val)) + 1 * (z 0).val; omega).trans (hemb 0).symm
  | ⟨1, _⟩ =>
    exact (show (z 1).val = k0_off3 L k 1 + 1 * (z 1).val by
      rw [off3_eq L k]; show _ = 0 + 1 * (z 1).val; omega).trans (hemb 1).symm

/-- A copy in landed: the flight's delivery, as the invariant states it. -/
theorem in_mono1 (cc : Nat) (off : Fin 2 → Nat) (inb : ∀ a, off a + S64x256.size a ≤ S64x1000000.size a) (hoff : off = ![0, 256 * cc])
    (X : Buf (Elt F) ((b0).view.loc (thr d L))) (q : PosShare TreeShare) :
    (iprop((((A1).view.loc (thr d L) ↦[(A1).view.set]{fullShare}
          (A1).view.writes (Elt F) X [⟨Rect.whole S64x256, ReadAs.same.apply (View.read (Elt F) ((tW).slice (Rect.unit (s := S64x1000000) off S64x256.size inb) (fun _ => rfl)).view (TT m d L))⟩]))
        ∗ ((tW).view.loc (thr d L) ↦[((tW).slice (Rect.unit (s := S64x1000000) off S64x256.size inb) (fun _ => rfl)).view.set]{q} TT m d L)) : sProp 𝕄)
      ⊢ iprop(InLanded1 m d L cc ∗ ((tW).view.loc (thr d L) ↦[((tW).slice (Rect.unit (s := S64x1000000) off S64x256.size inb) (fun _ => rfl)).view.set]{q} TT m d L)) := by
  subst hoff
  unfold InLanded1
  iintro ⟨H, HR⟩
  isplitl [H]
  swap; · iexact HR
  iexists _
  isplitl [H]; · iexact H
  ipureintro
  intro dd col h
  rw [← A1_emb dd col, ← View.write_univ_eq_writes_whole, View.writes_nil, View.write_emb_of_mem _ _ (Finset.mem_univ _)]
  show View.read (Elt F) ((tW).slice (Rect.unit (s := S64x1000000) ![0, 256 * cc] S64x256.size inb) (fun _ => rfl)).view (TT m d L) (ix2 dd col) = _
  rw [View.read_apply]
  show Cert.Lookup.tabT (Tiles.TAB m d) (((tW).slice (Rect.unit (s := S64x1000000) ![0, 256 * cc] S64x256.size inb) (fun _ => rfl)).view.emb (ix2 dd col)) = Cert.Lookup.tabT (Tiles.TAB m d) _
  congr 1
  funext a
  apply Fin.ext
  simp only [Memref.view_slice, Memref.view_whole, View.emb_slice, View.emb_whole, Function.Embedding.trans_apply, Function.Embedding.refl_apply, Rect.emb_apply]
  match a with
  | ⟨0, _⟩ => show 0 + 1 * dd.val = dd.val; omega
  | ⟨1, _⟩ => show 256 * cc + 1 * col.val = 256 * cc + col.val; omega
/-- A copy out landed: the slab of the pair table holds the pair table's entries. -/
theorem out_mono1 (k : Fin k0_t1_loop.trips) (h13 : k0_cond13 L k = 1#1) (cc : Fin 3906) (hcc : cc.val = wOf L + 32 * (2 * k.val + 1))
    (Y : Buf (Elt F) ((b1).view.loc (thr d L))) (hY : PbHolds m d L 1 cc.val Y) (fp : Buf (Elt F) (Tiles.pairsLoc d)) :
    (iprop((((win5 L k h13).view.loc (thr d L) ↦[(win5 L k h13).view.set]{fullShare}
          (win5 L k h13).view.writes (Elt F) fp [⟨Rect.whole _, ReadAs.same.apply (View.read (Elt F) (B1).view Y)⟩]))
        ∗ ((B1).view.loc (thr d L) ↦[(B1).view.set]{fullShare} Y)) : sProp 𝕄)
      ⊢ iprop(slabDone m d cc ∗ ((B1).view.loc (thr d L) ↦[(B1).view.set]{fullShare} Y)) := by
  iintro ⟨H, HR⟩
  isplitl [H]
  swap; · iexact HR
  iapply (Entails.of_eq ?_) $$ H
  unfold slabDone
  have hcc' : wOf L + 32 * (2 * k.val + 1) < 3906 := hcc ▸ cc.isLt
  have ecc : cc = ⟨wOf L + 32 * (2 * k.val + 1), hcc'⟩ := Fin.ext hcc
  rw [ecc, ← win5_set L k h13 hcc']
  refine pointsTo_congr fun i hi => ?_
  obtain ⟨z, -, rfl⟩ := Finset.mem_map.mp hi
  rw [← View.write_univ_eq_writes_whole, View.writes_nil, View.write_emb_of_mem _ _ (Finset.mem_univ _)]
  show View.read (Elt F) (B1).view Y z = _
  rw [View.read_apply]
  have eB : ((B1).view.emb z : S2x128x128.Idx) = ix3 (1 : Fin 2) (z 0) (z 1) := by
    exact (congrArg (fun x => ((B1).view.emb x : S2x128x128.Idx)) (ValueIdx.eq_ix2 z)).trans (B1_emb (z 0) (z 1))
  show (Y : S2x128x128.Idx → F .f32) ((B1).view.emb z) = _
  rw [eB]
  have hz0 : (z 0).val < 128 := (z 0).isLt
  refine (hY (z 0) (z 1) (by rw [hcc]; omega)).trans ?_
  show Cert.Lookup.pairs (Tiles.TAB m d) _ = Cert.Lookup.pairs (Tiles.TAB m d) _
  congr 1
  have hemb : ∀ a, (((win5 L k h13).view.emb z : S500000x128.Idx) a).val = k0_off5 L k a + 1 * (z a).val := fun a => Rect.emb_apply (Rect.unit (s := S500000x128) (k0_off5 L k) S128x128.size (k0_off5_inb L k h13)) z a
  funext a
  apply Fin.ext
  match a with
  | ⟨0, _⟩ =>
    exact (show 128 * cc.val + (z 0).val = k0_off5 L k 0 + 1 * (z 0).val by
      rw [off5_eq L k, hcc]; show _ = 128 * (wOf L + 32 * (2 * k.val + 1)) + 1 * (z 0).val; omega).trans (hemb 0).symm
  | ⟨1, _⟩ =>
    exact (show (z 1).val = k0_off5 L k 1 + 1 * (z 1).val by
      rw [off5_eq L k]; show _ = 0 + 1 * (z 1).val; omega).trans (hemb 1).symm

end Pure

section Help
variable (m : (ℓ : Loc nD τ sig) → Buf (Elt F) ℓ) (d : Dev nD) (L : grid0.Coords)
/-- The transposed slab is the pair table's slab. -/
theorem pb_of_slab (p : Fin 2) (cc : Nat) (hcc : cc < 3906) (X : Buf (Elt F) ((b0).view.loc (thr d L))) (Y : Buf (Elt F) ((b1).view.loc (thr d L)))
    (hX : SlabHolds m d L p cc X) (hT : Body0Inner.TransposedUpTo (F := F) p 64 X Y) : PbHolds m d L p cc Y := by
  intro r q h
  have hr := r.isLt
  have hq := q.isLt
  have h1 := hT (⟨q.val % 64, by omega⟩ : Fin 64) (⟨2 * r.val + q.val / 64, by omega⟩ : Fin 256)
    (by show (2 * r.val + q.val / 64) / 16 * 4 + (q.val % 64) / 16 < 64; omega)
  have e1 : (⟨(2 * r.val + q.val / 64) / 2, by omega⟩ : Fin 128) = r := Fin.ext (by show (2 * r.val + q.val / 64) / 2 = r.val; omega)
  have e2 : (⟨(2 * r.val + q.val / 64) % 2 * 64 + q.val % 64, by omega⟩ : Fin 128) = q :=
    Fin.ext (by show (2 * r.val + q.val / 64) % 2 * 64 + q.val % 64 = q.val; omega)
  have h2 := hX (⟨q.val % 64, by omega⟩ : Fin 64) (⟨2 * r.val + q.val / 64, by omega⟩ : Fin 256)
    (by show 256 * cc + (2 * r.val + q.val / 64) < 1000000; omega)
  have h3 : (Y : S2x128x128.Idx → F .f32) (ix3 p r q) = (X : S2x64x256.Idx → F .f32) (ix3 p (⟨q.val % 64, by omega⟩ : Fin 64) (⟨2 * r.val + q.val / 64, by omega⟩ : Fin 256)) := by
    rw [← h1]; congr 2 <;> first | exact e1.symm | exact e2.symm
  rw [h3, h2]
  unfold Cert.Lookup.tabT Cert.Lookup.pairs
  congr 1
  funext a
  match a with
  | ⟨0, _⟩ => exact Fin.ext (by show 256 * cc + (2 * r.val + q.val / 64) = 2 * (128 * cc + r.val) + q.val / 64; omega)
  | ⟨1, _⟩ => rfl

theorem pb_of_slab0 (cc : Nat) (hcc : cc < 3906) (X : Buf (Elt F) ((b0).view.loc (thr d L))) (Y : Buf (Elt F) ((b1).view.loc (thr d L)))
    (hX : SlabHolds m d L 0 cc X) (hT : Body0Inner.TransposedUpTo (F := F) 0 64 X Y) : PbHolds m d L 0 cc Y :=
  pb_of_slab m d L 0 cc hcc X Y hX hT
theorem pb_of_slab1 (cc : Nat) (hcc : cc < 3906) (X : Buf (Elt F) ((b0).view.loc (thr d L))) (Y : Buf (Elt F) ((b1).view.loc (thr d L)))
    (hX : SlabHolds m d L 1 cc X) (hT : Body0Inner.TransposedUpTo (F := F) 1 64 X Y) : PbHolds m d L 1 cc Y :=
  pb_of_slab m d L 1 cc hcc X Y hX hT
end Help

section Wrap
variable (m : (ℓ : Loc nD τ sig) → Buf (Elt F) ℓ) (d : Dev nD) (L : grid0.Coords)

omit [FloatOps F] in
/-- The tile's own semaphores at zero: this kernel's six, and the rest. -/
theorem ownSems0_V :
    (ownSems0 (thr d L) : sProp 𝕄)
      = iprop(semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scoped0.sem) 0 ∗ semVal (thr d L, SemLoc.dma cc0_scoped1.sem) 0
          ∗ bigSep (((((((ownCells (thr d L)).erase (thr d L, SemLoc.dma cc0_scratch4.sem)).erase (thr d L, SemLoc.dma cc0_scratch5.sem)).erase (thr d L, SemLoc.dma cc0_scratch6.sem)).erase (thr d L, SemLoc.dma cc0_scratch7.sem)).erase (thr d L, SemLoc.dma cc0_scoped0.sem)).erase (thr d L, SemLoc.dma cc0_scoped1.sem)) fun g => semVal g 0) := by
  unfold SparseCore.Cfg.ownSems0
  rw [SparseCore.bigSep_erase' ((mem_ownCells (g := (thr d L, SemLoc.dma cc0_scratch4.sem))).mpr ⟨rfl, by show (SemLoc.dma cc0_scratch4.sem : SemLoc sig).isScoped .scVector = true; decide⟩),
    SparseCore.bigSep_erase' (Finset.mem_erase.mpr ⟨(fun e => absurd (congrArg Prod.snd e) (show (SemLoc.dma cc0_scratch5.sem : SemLoc sig) ≠ SemLoc.dma cc0_scratch4.sem by decide)), (mem_ownCells (g := (thr d L, SemLoc.dma cc0_scratch5.sem))).mpr ⟨rfl, by show (SemLoc.dma cc0_scratch5.sem : SemLoc sig).isScoped .scVector = true; decide⟩⟩),
    SparseCore.bigSep_erase' (Finset.mem_erase.mpr ⟨(fun e => absurd (congrArg Prod.snd e) (show (SemLoc.dma cc0_scratch6.sem : SemLoc sig) ≠ SemLoc.dma cc0_scratch5.sem by decide)), Finset.mem_erase.mpr ⟨(fun e => absurd (congrArg Prod.snd e) (show (SemLoc.dma cc0_scratch6.sem : SemLoc sig) ≠ SemLoc.dma cc0_scratch4.sem by decide)), (mem_ownCells (g := (thr d L, SemLoc.dma cc0_scratch6.sem))).mpr ⟨rfl, by show (SemLoc.dma cc0_scratch6.sem : SemLoc sig).isScoped .scVector = true; decide⟩⟩⟩),
    SparseCore.bigSep_erase' (Finset.mem_erase.mpr ⟨(fun e => absurd (congrArg Prod.snd e) (show (SemLoc.dma cc0_scratch7.sem : SemLoc sig) ≠ SemLoc.dma cc0_scratch6.sem by decide)), Finset.mem_erase.mpr ⟨(fun e => absurd (congrArg Prod.snd e) (show (SemLoc.dma cc0_scratch7.sem : SemLoc sig) ≠ SemLoc.dma cc0_scratch5.sem by decide)), Finset.mem_erase.mpr ⟨(fun e => absurd (congrArg Prod.snd e) (show (SemLoc.dma cc0_scratch7.sem : SemLoc sig) ≠ SemLoc.dma cc0_scratch4.sem by decide)), (mem_ownCells (g := (thr d L, SemLoc.dma cc0_scratch7.sem))).mpr ⟨rfl, by show (SemLoc.dma cc0_scratch7.sem : SemLoc sig).isScoped .scVector = true; decide⟩⟩⟩⟩),
    SparseCore.bigSep_erase' (Finset.mem_erase.mpr ⟨(fun e => absurd (congrArg Prod.snd e) (show (SemLoc.dma cc0_scoped0.sem : SemLoc sig) ≠ SemLoc.dma cc0_scratch7.sem by decide)), Finset.mem_erase.mpr ⟨(fun e => absurd (congrArg Prod.snd e) (show (SemLoc.dma cc0_scoped0.sem : SemLoc sig) ≠ SemLoc.dma cc0_scratch6.sem by decide)), Finset.mem_erase.mpr ⟨(fun e => absurd (congrArg Prod.snd e) (show (SemLoc.dma cc0_scoped0.sem : SemLoc sig) ≠ SemLoc.dma cc0_scratch5.sem by decide)), Finset.mem_erase.mpr ⟨(fun e => absurd (congrArg Prod.snd e) (show (SemLoc.dma cc0_scoped0.sem : SemLoc sig) ≠ SemLoc.dma cc0_scratch4.sem by decide)), (mem_ownCells (g := (thr d L, SemLoc.dma cc0_scoped0.sem))).mpr ⟨rfl, by show (SemLoc.dma cc0_scoped0.sem : SemLoc sig).isScoped .scVector = true; decide⟩⟩⟩⟩⟩),
    SparseCore.bigSep_erase' (Finset.mem_erase.mpr ⟨(fun e => absurd (congrArg Prod.snd e) (show (SemLoc.dma cc0_scoped1.sem : SemLoc sig) ≠ SemLoc.dma cc0_scoped0.sem by decide)), Finset.mem_erase.mpr ⟨(fun e => absurd (congrArg Prod.snd e) (show (SemLoc.dma cc0_scoped1.sem : SemLoc sig) ≠ SemLoc.dma cc0_scratch7.sem by decide)), Finset.mem_erase.mpr ⟨(fun e => absurd (congrArg Prod.snd e) (show (SemLoc.dma cc0_scoped1.sem : SemLoc sig) ≠ SemLoc.dma cc0_scratch6.sem by decide)), Finset.mem_erase.mpr ⟨(fun e => absurd (congrArg Prod.snd e) (show (SemLoc.dma cc0_scoped1.sem : SemLoc sig) ≠ SemLoc.dma cc0_scratch5.sem by decide)), Finset.mem_erase.mpr ⟨(fun e => absurd (congrArg Prod.snd e) (show (SemLoc.dma cc0_scoped1.sem : SemLoc sig) ≠ SemLoc.dma cc0_scratch4.sem by decide)), (mem_ownCells (g := (thr d L, SemLoc.dma cc0_scoped1.sem))).mpr ⟨rfl, by show (SemLoc.dma cc0_scoped1.sem : SemLoc sig).isScoped .scVector = true; decide⟩⟩⟩⟩⟩⟩)]

omit [FloatOps F] in
/-- The tile's own scratch buffers at some contents: this kernel's four, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩)]

end Wrap

section Half0
variable (m : (ℓ : Loc nD τ sig) → Buf (Elt F) ℓ) (d : Dev nD) (L : grid0.Coords)

set_option maxHeartbeats 4000000 in
theorem half0_TTT (O : CellTallies nD τ sig (HIx 2)) (W : Waits sig (HIx 2)) (k : Fin k0_t1_loop.trips)
    (hin : wOf L + 64 * k.val < 3906) (hg : 0 < k.val) (h8 : wOf L + 64 * k.val + 64 < 3906) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := (cond6_iff L k).mpr hin
  have c7 := (cond7_iff L k).mpr hin
  have c8 := (cond8_iff L k).mpr h8
  have c3 : cIn0 L k = 1#1 := (cIn0_iff L k).mpr hin
  have c4 : cG k = 1#1 := (cG_iff k).mpr hg
  have c5 : cOut0 L k = 1#1 := cOut0_true L k
  unfold cIn0 at c3; unfold cG at c4; unfold cOut0 at c5
  have hccI : wOf L + 32 * (2 * k.val) < 3906 := by omega
  have hccO : 2 ≤ 2 * k.val ∧ wOf L + 32 * (2 * k.val - 2) < 3906 := by omega
  unfold Body0.inv InSt0 OutSt0 OwesSt
  rw [if_pos hccI, dif_pos hccO]
  iintro ⟨#Hmw, ⟨%Wn, Hf4, Ht⟩, ⟨%Y, Hf6⟩, HI1, HO1, HP, %W', %hW', HO⟩
  -- the waits of this half: slab 2k's copy in and slab 2k − 2's copy out, each if it was issued
  sl_exec
  unfold InLanded0
  icases Hf4_dst with ⟨%X, HA0, %hX⟩
  -- the transposition of the slab, sixty-four trips, by its own invariant
  sl_for (Body0Inner.innerInv0 d L X) $$ [HA0 Hf6_src]
  case region =>
    intro j u
    exact Body0Inner.inner0_step d L k c6 (v1Of L) X j u
  · unfold Body0Inner.innerInv0
    isplitl [HA0]; · iexact HA0
    iexists Y; isplitl [Hf6_src]; · iexact Hf6_src
    ipureintro; intro dd col h; exact absurd h (by omega)
  iintro %_ HI
  unfold Body0Inner.innerInv0
  icases HI with ⟨HA0, %Y', Hf6_src, %hT⟩
  have hT64 : Body0Inner.TransposedUpTo (F := F) 0 64 X Y' := by
    have h := hT; rwa [show Scf.trips k0_t2_loop.lb k0_t2_loop.ub k0_t2_loop.st = 64 from Body0Inner.trips2] at h
  have hY' := pb_of_slab0 m d L _ hccI X Y' hX hT64
  -- the slab whose copy out was awaited joins the written ones
  ihave HP := (Pend_put m d L (2 * k.val - 2) (2 * k.val) (by omega) (by omega)) $$ [Hf6_dst HP]
  · isplitl [Hf6_dst]
    · rw [dif_pos hccO.2]; iexact Hf6_dst
    · iexact HP
  rw [show 2 * k.val - 2 + 1 = 2 * k.val - 1 by omega]
  -- this half's slab leaves the unwritten ones: its copy out is issued next
  ihave HP := (Pend_take m d L (2 * k.val - 1) (2 * k.val) (by omega) (by omega)) $$ HP
  rw [dif_pos hccI]
  unfold slabPend
  icases HP with ⟨⟨%fp, Hp⟩, HP⟩
  ihave Hp' := (Entails.of_eq (pend_win3 d L k c7 hccI fp)) $$ Hp
  sl_exec
  sl_step
  try unfold half0_TTT.sl.dma0_1
  try unfold half0_TTT.sl.dma0
  isplitr; · ipureintro; rfl
  unfold Mid InSt0 OutSt0 OwesSt
  rw [if_pos (show wOf L + 32 * (2 * k.val + 2) < 3906 by omega), dif_pos (show 2 ≤ 2 * k.val + 2 ∧ wOf L + 32 * (2 * k.val + 2 - 2) < 3906 by omega)]
  isplitr; · iexact Hmw
  isplitl [Hf4 Ht]
  · iexists _
    isplitl [Hf4]
    · iapply (Transfers.Flight_mono countersEmb (thr d L) (in_mono0 m d L (wOf L + 32 * (2 * k.val + 2)) (k0_off4 L k) (k0_off4_inb L k c8) (off4_eq' L k _ (by omega)) X (qL L))) $$ Hf4
    · iexact Ht
  isplitl [Hf6]
  · iexists Y'
    iapply (Transfers.Flight_mono countersEmb (thr d L) (out_mono0 m d L k c7 ⟨wOf L + 32 * (2 * k.val + 2 - 2), by omega⟩ (by show wOf L + 32 * (2 * k.val + 2 - 2) = _; omega) Y' (by show PbHolds m d L 0 (wOf L + 32 * (2 * k.val + 2 - 2)) Y'; rw [Nat.add_sub_cancel]; exact hY') fp)) $$ Hf6
  isplitl [HI1]; · iexact HI1
  isplitl [HO1]; · iexact HO1
  isplitl [HP]; · iexact HP
  iexists _; isplitr
  swap; · iexact HO
  ipureintro; exact (owes_ins (owes_ins hW' _) _)

set_option maxHeartbeats 4000000 in
theorem half0_TTF (O : CellTallies nD τ sig (HIx 2)) (W : Waits sig (HIx 2)) (k : Fin k0_t1_loop.trips)
    (hin : wOf L + 64 * k.val < 3906) (hg : 0 < k.val) (h8 : ¬ (wOf L + 64 * k.val + 64 < 3906)) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := (cond6_iff L k).mpr hin
  have c7 := (cond7_iff L k).mpr hin
  have c8 := fun h => h8 ((cond8_iff L k).mp h)
  have c3 : cIn0 L k = 1#1 := (cIn0_iff L k).mpr hin
  have c4 : cG k = 1#1 := (cG_iff k).mpr hg
  have c5 : cOut0 L k = 1#1 := cOut0_true L k
  unfold cIn0 at c3; unfold cG at c4; unfold cOut0 at c5
  have hccI : wOf L + 32 * (2 * k.val) < 3906 := by omega
  have hccO : 2 ≤ 2 * k.val ∧ wOf L + 32 * (2 * k.val - 2) < 3906 := by omega
  unfold Body0.inv InSt0 OutSt0 OwesSt
  rw [if_pos hccI, dif_pos hccO]
  iintro ⟨#Hmw, ⟨%Wn, Hf4, Ht⟩, ⟨%Y, Hf6⟩, HI1, HO1, HP, %W', %hW', HO⟩
  -- the waits of this half: slab 2k's copy in and slab 2k − 2's copy out, each if it was issued
  sl_exec
  unfold InLanded0
  icases Hf4_dst with ⟨%X, HA0, %hX⟩
  -- the transposition of the slab, sixty-four trips, by its own invariant
  sl_for (Body0Inner.innerInv0 d L X) $$ [HA0 Hf6_src]
  case region =>
    intro j u
    exact Body0Inner.inner0_step d L k c6 (v1Of L) X j u
  · unfold Body0Inner.innerInv0
    isplitl [HA0]; · iexact HA0
    iexists Y; isplitl [Hf6_src]; · iexact Hf6_src
    ipureintro; intro dd col h; exact absurd h (by omega)
  iintro %_ HI
  unfold Body0Inner.innerInv0
  icases HI with ⟨HA0, %Y', Hf6_src, %hT⟩
  have hT64 : Body0Inner.TransposedUpTo (F := F) 0 64 X Y' := by
    have h := hT; rwa [show Scf.trips k0_t2_loop.lb k0_t2_loop.ub k0_t2_loop.st = 64 from Body0Inner.trips2] at h
  have hY' := pb_of_slab0 m d L _ hccI X Y' hX hT64
  -- the slab whose copy out was awaited joins the written ones
  ihave HP := (Pend_put m d L (2 * k.val - 2) (2 * k.val) (by omega) (by omega)) $$ [Hf6_dst HP]
  · isplitl [Hf6_dst]
    · rw [dif_pos hccO.2]; iexact Hf6_dst
    · iexact HP
  rw [show 2 * k.val - 2 + 1 = 2 * k.val - 1 by omega]
  -- this half's slab leaves the unwritten ones: its copy out is issued next
  ihave HP := (Pend_take m d L (2 * k.val - 1) (2 * k.val) (by omega) (by omega)) $$ HP
  rw [dif_pos hccI]
  unfold slabPend
  icases HP with ⟨⟨%fp, Hp⟩, HP⟩
  ihave Hp' := (Entails.of_eq (pend_win3 d L k c7 hccI fp)) $$ Hp
  sl_exec
  sl_step
  try unfold half0_TTF.sl.dma0_1
  try unfold half0_TTF.sl.dma0
  isplitr; · ipureintro; rfl
  unfold Mid InSt0 OutSt0 OwesSt
  rw [if_neg (show ¬ (wOf L + 32 * (2 * k.val + 2) < 3906) by omega), dif_pos (show 2 ≤ 2 * k.val + 2 ∧ wOf L + 32 * (2 * k.val + 2 - 2) < 3906 by omega)]
  isplitr; · iexact Hmw
  isplitl [HA0 Hf4 Ht]
  · isplitl [HA0]; · iexists _; iexact HA0
    isplitl [Hf4]; · iexact Hf4
    iexact Ht
  isplitl [Hf6]
  · iexists Y'
    iapply (Transfers.Flight_mono countersEmb (thr d L) (out_mono0 m d L k c7 ⟨wOf L + 32 * (2 * k.val + 2 - 2), by omega⟩ (by show wOf L + 32 * (2 * k.val + 2 - 2) = _; omega) Y' (by show PbHolds m d L 0 (wOf L + 32 * (2 * k.val + 2 - 2)) Y'; rw [Nat.add_sub_cancel]; exact hY') fp)) $$ Hf6
  isplitl [HI1]; · iexact HI1
  isplitl [HO1]; · iexact HO1
  isplitl [HP]; · iexact HP
  iexists _; isplitr
  swap; · iexact HO
  ipureintro; exact (owes_ins (owes_ins hW' _) _)

set_option maxHeartbeats 4000000 in
theorem half0_TFT (O : CellTallies nD τ sig (HIx 2)) (W : Waits sig (HIx 2)) (k : Fin k0_t1_loop.trips)
    (hin : wOf L + 64 * k.val < 3906) (hg : ¬ (0 < k.val)) (h8 : wOf L + 64 * k.val + 64 < 3906) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := (cond6_iff L k).mpr hin
  have c7 := (cond7_iff L k).mpr hin
  have c8 := (cond8_iff L k).mpr h8
  have c3 : cIn0 L k = 1#1 := (cIn0_iff L k).mpr hin
  have c4 : ¬ cG k = 1#1 := fun h => hg ((cG_iff k).mp h)
  have c5 : cOut0 L k = 1#1 := cOut0_true L k
  unfold cIn0 at c3; unfold cG at c4; unfold cOut0 at c5
  have hccI : wOf L + 32 * (2 * k.val) < 3906 := by omega
  have hccO : ¬ (2 ≤ 2 * k.val ∧ wOf L + 32 * (2 * k.val - 2) < 3906) := by omega
  unfold Body0.inv InSt0 OutSt0 OwesSt
  rw [if_pos hccI, dif_neg hccO]
  iintro ⟨#Hmw, ⟨%Wn, Hf4, Ht⟩, ⟨⟨%Y, Hf6_src⟩, Hf6⟩, HI1, HO1, HP, %W', %hW', HO⟩
  -- the waits of this half: slab 2k's copy in and slab 2k − 2's copy out, each if it was issued
  sl_exec
  unfold InLanded0
  icases Hf4_dst with ⟨%X, HA0, %hX⟩
  -- the transposition of the slab, sixty-four trips, by its own invariant
  sl_for (Body0Inner.innerInv0 d L X) $$ [HA0 Hf6_src]
  case region =>
    intro j u
    exact Body0Inner.inner0_step d L k c6 (v1Of L) X j u
  · unfold Body0Inner.innerInv0
    isplitl [HA0]; · iexact HA0
    iexists Y; isplitl [Hf6_src]; · iexact Hf6_src
    ipureintro; intro dd col h; exact absurd h (by omega)
  iintro %_ HI
  unfold Body0Inner.innerInv0
  icases HI with ⟨HA0, %Y', Hf6_src, %hT⟩
  have hT64 : Body0Inner.TransposedUpTo (F := F) 0 64 X Y' := by
    have h := hT; rwa [show Scf.trips k0_t2_loop.lb k0_t2_loop.ub k0_t2_loop.st = 64 from Body0Inner.trips2] at h
  have hY' := pb_of_slab0 m d L _ hccI X Y' hX hT64
  rw [show 2 * k.val - 2 = 2 * k.val - 1 by omega]
  -- this half's slab leaves the unwritten ones: its copy out is issued next
  ihave HP := (Pend_take m d L (2 * k.val - 1) (2 * k.val) (by omega) (by omega)) $$ HP
  rw [dif_pos hccI]
  unfold slabPend
  icases HP with ⟨⟨%fp, Hp⟩, HP⟩
  ihave Hp' := (Entails.of_eq (pend_win3 d L k c7 hccI fp)) $$ Hp
  sl_exec
  sl_step
  try unfold half0_TFT.sl.dma0_1
  try unfold half0_TFT.sl.dma0
  isplitr; · ipureintro; rfl
  unfold Mid InSt0 OutSt0 OwesSt
  rw [if_pos (show wOf L + 32 * (2 * k.val + 2) < 3906 by omega), dif_pos (show 2 ≤ 2 * k.val + 2 ∧ wOf L + 32 * (2 * k.val + 2 - 2) < 3906 by omega)]
  isplitr; · iexact Hmw
  isplitl [Hf4 Ht]
  · iexists _
    isplitl [Hf4]
    · iapply (Transfers.Flight_mono countersEmb (thr d L) (in_mono0 m d L (wOf L + 32 * (2 * k.val + 2)) (k0_off4 L k) (k0_off4_inb L k c8) (off4_eq' L k _ (by omega)) X (qL L))) $$ Hf4
    · iexact Ht
  isplitl [Hf6]
  · iexists Y'
    iapply (Transfers.Flight_mono countersEmb (thr d L) (out_mono0 m d L k c7 ⟨wOf L + 32 * (2 * k.val + 2 - 2), by omega⟩ (by show wOf L + 32 * (2 * k.val + 2 - 2) = _; omega) Y' (by show PbHolds m d L 0 (wOf L + 32 * (2 * k.val + 2 - 2)) Y'; rw [Nat.add_sub_cancel]; exact hY') fp)) $$ Hf6
  isplitl [HI1]; · iexact HI1
  isplitl [HO1]; · iexact HO1
  isplitl [HP]; · iexact HP
  iexists _; isplitr
  swap; · iexact HO
  ipureintro; exact (owes_ins hW' _)

set_option maxHeartbeats 4000000 in
theorem half0_FTF (O : CellTallies nD τ sig (HIx 2)) (W : Waits sig (HIx 2)) (k : Fin k0_t1_loop.trips)
    (hin : ¬ (wOf L + 64 * k.val < 3906)) (hg : 0 < k.val) (h8 : ¬ (wOf L + 64 * k.val + 64 < 3906)) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := fun h => hin ((cond6_iff L k).mp h)
  have c7 := fun h => hin ((cond7_iff L k).mp h)
  have c8 := fun h => h8 ((cond8_iff L k).mp h)
  have c3 : ¬ cIn0 L k = 1#1 := fun h => hin ((cIn0_iff L k).mp h)
  have c4 : cG k = 1#1 := (cG_iff k).mpr hg
  have c5 : cOut0 L k = 1#1 := cOut0_true L k
  unfold cIn0 at c3; unfold cG at c4; unfold cOut0 at c5
  have hccI : ¬ (wOf L + 32 * (2 * k.val) < 3906) := by omega
  have hccO : 2 ≤ 2 * k.val ∧ wOf L + 32 * (2 * k.val - 2) < 3906 := by omega
  unfold Body0.inv InSt0 OutSt0 OwesSt
  rw [if_neg hccI, dif_pos hccO]
  iintro ⟨#Hmw, ⟨⟨%X, HA0⟩, Hf4, Ht⟩, ⟨%Y, Hf6⟩, HI1, HO1, HP, %W', %hW', HO⟩
  -- the waits of this half: slab 2k's copy in and slab 2k − 2's copy out, each if it was issued
  sl_exec
  -- the slab whose copy out was awaited joins the written ones
  ihave HP := (Pend_put m d L (2 * k.val - 2) (2 * k.val) (by omega) (by omega)) $$ [Hf6_dst HP]
  · isplitl [Hf6_dst]
    · rw [dif_pos hccO.2]; iexact Hf6_dst
    · iexact HP
  rw [show 2 * k.val - 2 + 1 = 2 * k.val - 1 by omega]
  -- this half's slab leaves the unwritten ones: its copy out is issued next
  ihave HP := (Pend_take m d L (2 * k.val - 1) (2 * k.val) (by omega) (by omega)) $$ HP
  rw [dif_neg hccI]
  icases HP with ⟨-, HP⟩
  sl_step
  try unfold half0_FTF.sl.dma0_1
  try unfold half0_FTF.sl.dma0
  isplitr; · ipureintro; rfl
  unfold Mid InSt0 OutSt0 OwesSt
  rw [if_neg (show ¬ (wOf L + 32 * (2 * k.val + 2) < 3906) by omega), dif_neg (show ¬ (2 ≤ 2 * k.val + 2 ∧ wOf L + 32 * (2 * k.val + 2 - 2) < 3906) by omega)]
  isplitr; · iexact Hmw
  isplitl [HA0 Hf4 Ht]
  · isplitl [HA0]; · iexists _; iexact HA0
    isplitl [Hf4]; · iexact Hf4
    iexact Ht
  isplitl [Hf6_src Hf6]
  · isplitl [Hf6_src]; · iexists _; iexact Hf6_src
    iexact Hf6
  isplitl [HI1]; · iexact HI1
  isplitl [HO1]; · iexact HO1
  isplitl [HP]; · iexact HP
  iexists _; isplitr
  swap; · iexact HO
  ipureintro; exact (owes_ins hW' _)

set_option maxHeartbeats 4000000 in
/-- The first half of trip `k`: half 0's waits, its transposition, its copy out and the next copy in. -/
theorem half0 (O : CellTallies nD τ sig (HIx 2)) (W : Waits sig (HIx 2)) (k : Fin k0_t1_loop.trips) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  by_cases hin : wOf L + 64 * k.val < 3906 <;> by_cases hg : 0 < k.val <;> by_cases h8 : wOf L + 64 * k.val + 64 < 3906
  · exact half0_TTT m d L O W k hin hg h8
  · exact half0_TTF m d L O W k hin hg h8
  · exact half0_TFT m d L O W k hin hg h8
  · exfalso; omega
  · exfalso; omega
  · exact half0_FTF m d L O W k hin hg h8
  · exfalso; omega
  · exfalso; omega
end Half0

section Step
variable (m : (ℓ : Loc nD τ sig) → Buf (Elt F) ℓ) (d : Dev nD) (L : grid0.Coords)

set_option maxHeartbeats 4000000 in
theorem step_TTT (O : CellTallies nD τ sig (HIx 2)) (W : Waits sig (HIx 2)) (k : Fin k0_t1_loop.trips) (u : Unit)
    (h12 : wOf L + 64 * k.val + 32 < 3906) (hg : 0 < k.val) (h14 : wOf L + 64 * k.val + 96 < 3906) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := (cond12_iff L k).mpr h12
  have c13 := (cond13_iff L k).mpr h12
  have c14 := (cond14_iff L k).mpr h14
  have c9 : cIn1 L k = 1#1 := (cIn1_iff L k).mpr h12
  have c10 : cG k = 1#1 := (cG_iff k).mpr hg
  have c11 : cOut1 L k = 1#1 := cOut1_true L k
  unfold cIn1 at c9; unfold cG at c10; unfold cOut1 at c11
  have hccI : wOf L + 32 * (2 * k.val + 1) < 3906 := by omega
  have hccO : 2 ≤ 2 * k.val + 1 ∧ wOf L + 32 * (2 * k.val + 1 - 2) < 3906 := by omega
  unfold Mid InSt1 OutSt1 OwesSt
  rw [if_pos hccI, dif_pos hccO]
  icases HM with ⟨#Hmw, HI0, HO0, ⟨%Wn, Hf5, Ht⟩, ⟨%Y, Hf7⟩, HP, %W', %hW', HO⟩
  -- the waits of this half: slab 2k + 1's copy in and slab 2k − 1's copy out, each if it was issued
  sl_exec
  unfold InLanded1
  icases Hf5_dst with ⟨%X, HA1, %hX⟩
  -- the transposition of the slab, sixty-four trips, by its own invariant
  sl_for (Body0Inner.innerInv1 d L X) $$ [HA1 Hf7_src]
  case region =>
    intro j u
    exact Body0Inner.inner1_step d L k c12 X j u
  · unfold Body0Inner.innerInv1
    isplitl [HA1]; · iexact HA1
    iexists Y; isplitl [Hf7_src]; · iexact Hf7_src
    ipureintro; intro dd col h; exact absurd h (by omega)
  iintro %_ HI
  unfold Body0Inner.innerInv1
  icases HI with ⟨HA1, %Y', Hf7_src, %hT⟩
  have hT64 : Body0Inner.TransposedUpTo (F := F) 1 64 X Y' := by
    have h := hT; rwa [show Scf.trips k0_t3_loop.lb k0_t3_loop.ub k0_t3_loop.st = 64 from Body0Inner.trips3] at h
  have hY' := pb_of_slab1 m d L _ hccI X Y' hX hT64
  rw [show 2 * k.val - 1 = 2 * k.val + 1 - 2 by omega]
  -- the slab whose copy out was awaited joins the written ones
  ihave HP := (Pend_put m d L (2 * k.val + 1 - 2) (2 * k.val + 1) (by omega) (by omega)) $$ [Hf7_dst HP]
  · isplitl [Hf7_dst]
    · rw [dif_pos hccO.2]; iexact Hf7_dst
    · iexact HP
  rw [show 2 * k.val + 1 - 2 + 1 = 2 * k.val by omega]
  -- this half's slab leaves the unwritten ones: its copy out is issued next
  ihave HP := (Pend_take m d L (2 * k.val) (2 * k.val + 1) (by omega) (by omega)) $$ HP
  rw [dif_pos hccI]
  unfold slabPend
  icases HP with ⟨⟨%fp, Hp⟩, HP⟩
  ihave Hp' := (Entails.of_eq (pend_win5 d L k c13 hccI fp)) $$ Hp
  sl_exec
  sl_step
  try unfold step_TTT.sl.dma0_1
  try unfold step_TTT.sl.dma0
  unfold Body0.inv
  rw [show 2 * (k.val + 1) = 2 * k.val + 2 by omega]
  rw [Nat.add_sub_cancel]
  rw [show 2 * k.val + 1 + 1 = 2 * k.val + 2 by omega]
  unfold InSt1 OutSt1 OwesSt
  rw [if_pos (show wOf L + 32 * (2 * k.val + 2 + 1) < 3906 by omega), dif_pos (show 2 ≤ 2 * k.val + 2 + 1 ∧ wOf L + 32 * (2 * k.val + 2 + 1 - 2) < 3906 by omega)]
  isplitr; · iexact Hmw
  isplitl [HI0]; · iexact HI0
  isplitl [HO0]; · iexact HO0
  isplitl [Hf5 Ht]
  · iexists _
    isplitl [Hf5]
    · iapply (Transfers.Flight_mono countersEmb (thr d L) (in_mono1 m d L (wOf L + 32 * (2 * k.val + 2 + 1)) (k0_off6 L k) (k0_off6_inb L k c14) (off6_eq' L k _ (by omega)) X (qR L))) $$ Hf5
    · iexact Ht
  isplitl [Hf7]
  · iexists Y'
    iapply (Transfers.Flight_mono countersEmb (thr d L) (out_mono1 m d L k c13 ⟨wOf L + 32 * (2 * k.val + 2 + 1 - 2), by omega⟩ (by show wOf L + 32 * (2 * k.val + 2 + 1 - 2) = _; omega) Y' (by show PbHolds m d L 1 (wOf L + 32 * (2 * k.val + 2 + 1 - 2)) Y'; rw [show 2 * k.val + 2 + 1 - 2 = 2 * k.val + 1 by omega]; exact hY') fp)) $$ Hf7
  isplitl [HP]; · iexact HP
  iexists _; isplitr
  swap; · iexact HO
  ipureintro; exact (owes_ins (owes_ins hW' _) _)

set_option maxHeartbeats 4000000 in
theorem step_TTF (O : CellTallies nD τ sig (HIx 2)) (W : Waits sig (HIx 2)) (k : Fin k0_t1_loop.trips) (u : Unit)
    (h12 : wOf L + 64 * k.val + 32 < 3906) (hg : 0 < k.val) (h14 : ¬ (wOf L + 64 * k.val + 96 < 3906)) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := (cond12_iff L k).mpr h12
  have c13 := (cond13_iff L k).mpr h12
  have c14 := fun h => h14 ((cond14_iff L k).mp h)
  have c9 : cIn1 L k = 1#1 := (cIn1_iff L k).mpr h12
  have c10 : cG k = 1#1 := (cG_iff k).mpr hg
  have c11 : cOut1 L k = 1#1 := cOut1_true L k
  unfold cIn1 at c9; unfold cG at c10; unfold cOut1 at c11
  have hccI : wOf L + 32 * (2 * k.val + 1) < 3906 := by omega
  have hccO : 2 ≤ 2 * k.val + 1 ∧ wOf L + 32 * (2 * k.val + 1 - 2) < 3906 := by omega
  unfold Mid InSt1 OutSt1 OwesSt
  rw [if_pos hccI, dif_pos hccO]
  icases HM with ⟨#Hmw, HI0, HO0, ⟨%Wn, Hf5, Ht⟩, ⟨%Y, Hf7⟩, HP, %W', %hW', HO⟩
  -- the waits of this half: slab 2k + 1's copy in and slab 2k − 1's copy out, each if it was issued
  sl_exec
  unfold InLanded1
  icases Hf5_dst with ⟨%X, HA1, %hX⟩
  -- the transposition of the slab, sixty-four trips, by its own invariant
  sl_for (Body0Inner.innerInv1 d L X) $$ [HA1 Hf7_src]
  case region =>
    intro j u
    exact Body0Inner.inner1_step d L k c12 X j u
  · unfold Body0Inner.innerInv1
    isplitl [HA1]; · iexact HA1
    iexists Y; isplitl [Hf7_src]; · iexact Hf7_src
    ipureintro; intro dd col h; exact absurd h (by omega)
  iintro %_ HI
  unfold Body0Inner.innerInv1
  icases HI with ⟨HA1, %Y', Hf7_src, %hT⟩
  have hT64 : Body0Inner.TransposedUpTo (F := F) 1 64 X Y' := by
    have h := hT; rwa [show Scf.trips k0_t3_loop.lb k0_t3_loop.ub k0_t3_loop.st = 64 from Body0Inner.trips3] at h
  have hY' := pb_of_slab1 m d L _ hccI X Y' hX hT64
  rw [show 2 * k.val - 1 = 2 * k.val + 1 - 2 by omega]
  -- the slab whose copy out was awaited joins the written ones
  ihave HP := (Pend_put m d L (2 * k.val + 1 - 2) (2 * k.val + 1) (by omega) (by omega)) $$ [Hf7_dst HP]
  · isplitl [Hf7_dst]
    · rw [dif_pos hccO.2]; iexact Hf7_dst
    · iexact HP
  rw [show 2 * k.val + 1 - 2 + 1 = 2 * k.val by omega]
  -- this half's slab leaves the unwritten ones: its copy out is issued next
  ihave HP := (Pend_take m d L (2 * k.val) (2 * k.val + 1) (by omega) (by omega)) $$ HP
  rw [dif_pos hccI]
  unfold slabPend
  icases HP with ⟨⟨%fp, Hp⟩, HP⟩
  ihave Hp' := (Entails.of_eq (pend_win5 d L k c13 hccI fp)) $$ Hp
  sl_exec
  sl_step
  try unfold step_TTF.sl.dma0_1
  try unfold step_TTF.sl.dma0
  unfold Body0.inv
  rw [show 2 * (k.val + 1) = 2 * k.val + 2 by omega]
  rw [Nat.add_sub_cancel]
  rw [show 2 * k.val + 1 + 1 = 2 * k.val + 2 by omega]
  unfold InSt1 OutSt1 OwesSt
  rw [if_neg (show ¬ (wOf L + 32 * (2 * k.val + 2 + 1) < 3906) by omega), dif_pos (show 2 ≤ 2 * k.val + 2 + 1 ∧ wOf L + 32 * (2 * k.val + 2 + 1 - 2) < 3906 by omega)]
  isplitr; · iexact Hmw
  isplitl [HI0]; · iexact HI0
  isplitl [HO0]; · iexact HO0
  isplitl [HA1 Hf5 Ht]
  · isplitl [HA1]; · iexists _; iexact HA1
    isplitl [Hf5]; · iexact Hf5
    iexact Ht
  isplitl [Hf7]
  · iexists Y'
    iapply (Transfers.Flight_mono countersEmb (thr d L) (out_mono1 m d L k c13 ⟨wOf L + 32 * (2 * k.val + 2 + 1 - 2), by omega⟩ (by show wOf L + 32 * (2 * k.val + 2 + 1 - 2) = _; omega) Y' (by show PbHolds m d L 1 (wOf L + 32 * (2 * k.val + 2 + 1 - 2)) Y'; rw [show 2 * k.val + 2 + 1 - 2 = 2 * k.val + 1 by omega]; exact hY') fp)) $$ Hf7
  isplitl [HP]; · iexact HP
  iexists _; isplitr
  swap; · iexact HO
  ipureintro; exact (owes_ins (owes_ins hW' _) _)

set_option maxHeartbeats 4000000 in
theorem step_TFT (O : CellTallies nD τ sig (HIx 2)) (W : Waits sig (HIx 2)) (k : Fin k0_t1_loop.trips) (u : Unit)
    (h12 : wOf L + 64 * k.val + 32 < 3906) (hg : ¬ (0 < k.val)) (h14 : wOf L + 64 * k.val + 96 < 3906) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := (cond12_iff L k).mpr h12
  have c13 := (cond13_iff L k).mpr h12
  have c14 := (cond14_iff L k).mpr h14
  have c9 : cIn1 L k = 1#1 := (cIn1_iff L k).mpr h12
  have c10 : ¬ cG k = 1#1 := fun h => hg ((cG_iff k).mp h)
  have c11 : cOut1 L k = 1#1 := cOut1_true L k
  unfold cIn1 at c9; unfold cG at c10; unfold cOut1 at c11
  have hccI : wOf L + 32 * (2 * k.val + 1) < 3906 := by omega
  have hccO : ¬ (2 ≤ 2 * k.val + 1 ∧ wOf L + 32 * (2 * k.val + 1 - 2) < 3906) := by omega
  unfold Mid InSt1 OutSt1 OwesSt
  rw [if_pos hccI, dif_neg hccO]
  icases HM with ⟨#Hmw, HI0, HO0, ⟨%Wn, Hf5, Ht⟩, ⟨⟨%Y, Hf7_src⟩, Hf7⟩, HP, %W', %hW', HO⟩
  -- the waits of this half: slab 2k + 1's copy in and slab 2k − 1's copy out, each if it was issued
  sl_exec
  unfold InLanded1
  icases Hf5_dst with ⟨%X, HA1, %hX⟩
  -- the transposition of the slab, sixty-four trips, by its own invariant
  sl_for (Body0Inner.innerInv1 d L X) $$ [HA1 Hf7_src]
  case region =>
    intro j u
    exact Body0Inner.inner1_step d L k c12 X j u
  · unfold Body0Inner.innerInv1
    isplitl [HA1]; · iexact HA1
    iexists Y; isplitl [Hf7_src]; · iexact Hf7_src
    ipureintro; intro dd col h; exact absurd h (by omega)
  iintro %_ HI
  unfold Body0Inner.innerInv1
  icases HI with ⟨HA1, %Y', Hf7_src, %hT⟩
  have hT64 : Body0Inner.TransposedUpTo (F := F) 1 64 X Y' := by
    have h := hT; rwa [show Scf.trips k0_t3_loop.lb k0_t3_loop.ub k0_t3_loop.st = 64 from Body0Inner.trips3] at h
  have hY' := pb_of_slab1 m d L _ hccI X Y' hX hT64
  rw [show 2 * k.val - 1 = 2 * k.val by omega]
  -- this half's slab leaves the unwritten ones: its copy out is issued next
  ihave HP := (Pend_take m d L (2 * k.val) (2 * k.val + 1) (by omega) (by omega)) $$ HP
  rw [dif_pos hccI]
  unfold slabPend
  icases HP with ⟨⟨%fp, Hp⟩, HP⟩
  ihave Hp' := (Entails.of_eq (pend_win5 d L k c13 hccI fp)) $$ Hp
  sl_exec
  sl_step
  try unfold step_TFT.sl.dma0_1
  try unfold step_TFT.sl.dma0
  unfold Body0.inv
  rw [show 2 * (k.val + 1) = 2 * k.val + 2 by omega]
  rw [Nat.add_sub_cancel]
  rw [show 2 * k.val + 1 + 1 = 2 * k.val + 2 by omega]
  unfold InSt1 OutSt1 OwesSt
  rw [if_pos (show wOf L + 32 * (2 * k.val + 2 + 1) < 3906 by omega), dif_pos (show 2 ≤ 2 * k.val + 2 + 1 ∧ wOf L + 32 * (2 * k.val + 2 + 1 - 2) < 3906 by omega)]
  isplitr; · iexact Hmw
  isplitl [HI0]; · iexact HI0
  isplitl [HO0]; · iexact HO0
  isplitl [Hf5 Ht]
  · iexists _
    isplitl [Hf5]
    · iapply (Transfers.Flight_mono countersEmb (thr d L) (in_mono1 m d L (wOf L + 32 * (2 * k.val + 2 + 1)) (k0_off6 L k) (k0_off6_inb L k c14) (off6_eq' L k _ (by omega)) X (qR L))) $$ Hf5
    · iexact Ht
  isplitl [Hf7]
  · iexists Y'
    iapply (Transfers.Flight_mono countersEmb (thr d L) (out_mono1 m d L k c13 ⟨wOf L + 32 * (2 * k.val + 2 + 1 - 2), by omega⟩ (by show wOf L + 32 * (2 * k.val + 2 + 1 - 2) = _; omega) Y' (by show PbHolds m d L 1 (wOf L + 32 * (2 * k.val + 2 + 1 - 2)) Y'; rw [show 2 * k.val + 2 + 1 - 2 = 2 * k.val + 1 by omega]; exact hY') fp)) $$ Hf7
  isplitl [HP]; · iexact HP
  iexists _; isplitr
  swap; · iexact HO
  ipureintro; exact (owes_ins hW' _)

set_option maxHeartbeats 4000000 in
theorem step_FTF (O : CellTallies nD τ sig (HIx 2)) (W : Waits sig (HIx 2)) (k : Fin k0_t1_loop.trips) (u : Unit)
    (h12 : ¬ (wOf L + 64 * k.val + 32 < 3906)) (hg : 0 < k.val) (h14 : ¬ (wOf L + 64 * k.val + 96 < 3906)) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := fun h => h12 ((cond12_iff L k).mp h)
  have c13 := fun h => h12 ((cond13_iff L k).mp h)
  have c14 := fun h => h14 ((cond14_iff L k).mp h)
  have c9 : ¬ cIn1 L k = 1#1 := fun h => h12 ((cIn1_iff L k).mp h)
  have c10 : cG k = 1#1 := (cG_iff k).mpr hg
  have c11 : cOut1 L k = 1#1 := cOut1_true L k
  unfold cIn1 at c9; unfold cG at c10; unfold cOut1 at c11
  have hccI : ¬ (wOf L + 32 * (2 * k.val + 1) < 3906) := by omega
  have hccO : 2 ≤ 2 * k.val + 1 ∧ wOf L + 32 * (2 * k.val + 1 - 2) < 3906 := by omega
  unfold Mid InSt1 OutSt1 OwesSt
  rw [if_neg hccI, dif_pos hccO]
  icases HM with ⟨#Hmw, HI0, HO0, ⟨⟨%X, HA1⟩, Hf5, Ht⟩, ⟨%Y, Hf7⟩, HP, %W', %hW', HO⟩
  -- the waits of this half: slab 2k + 1's copy in and slab 2k − 1's copy out, each if it was issued
  sl_exec
  rw [show 2 * k.val - 1 = 2 * k.val + 1 - 2 by omega]
  -- the slab whose copy out was awaited joins the written ones
  ihave HP := (Pend_put m d L (2 * k.val + 1 - 2) (2 * k.val + 1) (by omega) (by omega)) $$ [Hf7_dst HP]
  · isplitl [Hf7_dst]
    · rw [dif_pos hccO.2]; iexact Hf7_dst
    · iexact HP
  rw [show 2 * k.val + 1 - 2 + 1 = 2 * k.val by omega]
  ihave HP := (Entails.of_eq (Pend_top m d L (2 * k.val) (2 * k.val + 1) (2 * k.val + 2) (by omega) (by omega))) $$ HP
  sl_step
  try unfold step_FTF.sl.dma0_1
  try unfold step_FTF.sl.dma0
  unfold Body0.inv
  rw [show 2 * (k.val + 1) = 2 * k.val + 2 by omega]
  rw [Nat.add_sub_cancel]
  unfold InSt1 OutSt1 OwesSt
  rw [if_neg (show ¬ (wOf L + 32 * (2 * k.val + 2 + 1) < 3906) by omega), dif_neg (show ¬ (2 ≤ 2 * k.val + 2 + 1 ∧ wOf L + 32 * (2 * k.val + 2 + 1 - 2) < 3906) by omega)]
  isplitr; · iexact Hmw
  isplitl [HI0]; · iexact HI0
  isplitl [HO0]; · iexact HO0
  isplitl [HA1 Hf5 Ht]
  · isplitl [HA1]; · iexists _; iexact HA1
    isplitl [Hf5]; · iexact Hf5
    iexact Ht
  isplitl [Hf7_src Hf7]
  · isplitl [Hf7_src]; · iexists _; iexact Hf7_src
    iexact Hf7
  isplitl [HP]; · iexact HP
  iexists _; isplitr
  swap; · iexact HO
  ipureintro; exact (owes_ins hW' _)

set_option maxHeartbeats 4000000 in
/-- Trip `k` of the main loop. -/
theorem step (O : CellTallies nD τ sig (HIx 2)) (W : Waits sig (HIx 2)) (k : Fin k0_t1_loop.trips) (u : Unit) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  by_cases h12 : wOf L + 64 * k.val + 32 < 3906 <;> by_cases hg : 0 < k.val <;> by_cases h14 : wOf L + 64 * k.val + 96 < 3906
  · exact step_TTT m d L O W k u h12 hg h14
  · exact step_TTF m d L O W k u h12 hg h14
  · exact step_TFT m d L O W k u h12 hg h14
  · exfalso; omega
  · exfalso; omega
  · exact step_FTF m d L O W k u h12 hg h14
  · exfalso; omega
  · exfalso; omega
end Step

section StepW
variable (m : (ℓ : Loc nD τ sig) → Buf (Elt F) ℓ) (d : Dev nD) (L : grid0.Coords)
/-- Trip `k`, at any spelling of the tile's number and of the lane numbers. -/
theorem step' (O : CellTallies nD τ sig (HIx 2)) (W : Waits sig (HIx 2)) (k : Fin k0_t1_loop.trips) (u : Unit)
    (v1 : BitVec 32) (v2 : IVec S16 32) (hv1 : v1 = v1Of L) (hv2 : v2 = iota .scVector S16 32 [0] iota_S16_d0_w32_scVector) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 v1 v2 k u)
      (Body0.inv m d L O W (k.val + 1)) := by
  subst hv1 hv2
  exact step m d L O W k u
end StepW

section TailDefs
variable (m : (ℓ : Loc nD τ sig) → Buf (Elt F) ℓ) (d : Dev nD) (L : grid0.Coords)
/-- The table's last 64 rows transposed, at the tile's view of the array. -/
abbrev TL : Buf (Elt F) ((lW).view.loc (thr d L)) := (Cert.Lookup.tailT (Tiles.TAB m d) : Buf (Elt F) (Tiles.tailLoc d))
/-- The last 32 lines of the pair table, as the program's window spells them. -/
abbrev tailWin : Memref sig .scVector .hbm S32x128 .f32 :=
  (pW).slice (Rect.unit (s := S500000x128) ![499968, 0] S32x128.size inb_S500000x128_S32x128_499968_0) (fun _ => rfl)
end TailDefs

section TailL
variable (m : (ℓ : Loc nD τ sig) → Buf (Elt F) ℓ) (d : Dev nD) (L : grid0.Coords)

/-- The tail scratch after the copy in of the transposed tail. -/
def Ztail (f2 : Buf (Elt F) ((b2).view.loc (thr d L))) : Buf (Elt F) ((b2).view.loc (thr d L)) :=
  View.write (Elt F) (b2).view f2 (ReadAs.same.apply (View.read (Elt F) (lW).view (TL m d L))) Finset.univ

/-- It holds the table's last 64 rows transposed. -/
theorem Ztail_holds (f2 : Buf (Elt F) ((b2).view.loc (thr d L))) (r c : Fin 64) :
    (Ztail m d L f2 : S64x64.Idx → F .f32) (ix2 r c) = Cert.Lookup.tailT (Tiles.TAB m d) (ix2 r c) := by
  unfold Ztail
  have e : (ix2 r c : S64x64.Idx) = (b2).view.emb (ix2 r c) := rfl
  rw [e, View.write_emb_of_mem _ _ (Finset.mem_univ _)]
  show View.read (Elt F) (lW).view (TL m d L) (ix2 r c) = _
  rw [View.read_apply]
  rfl

/-- The copy out of the repacked tail landed: the pair table's last 32 lines hold the pair table's entries. -/
theorem tail_out (R : Buf (Elt F) ((b3).view.loc (thr d L)))
    (hR : ∀ (jj : Fin 32) (q : Fin 128), (R : S32x128.Idx → F .f32) (ix2 jj q)
      = Cert.Lookup.pairs (Tiles.TAB m d) (ix2 (⟨499968 + jj.val, by have := jj.isLt; omega⟩ : Fin 500000) q))
    (ft : Buf (Elt F) (Tiles.pairsLoc d)) :
    (((tailWin).view.loc (thr d L) ↦[(tailWin).view.set]{fullShare}
        (tailWin).view.writes (Elt F) ft [⟨Rect.whole _, ReadAs.same.apply (View.read (Elt F) (b3).view R)⟩] : sProp 𝕄))
      = (Tiles.pairsLoc d ↦[Tiles.tailSet]{fullShare} (Cert.Lookup.pairs (Tiles.TAB m d) : Buf (Elt F) (Tiles.pairsLoc d))) := by
  show (Tiles.pairsLoc d ↦[Tiles.tailSet]{fullShare} _ : sProp 𝕄) = _
  refine pointsTo_congr fun i hi => ?_
  obtain ⟨z, -, rfl⟩ := Finset.mem_map.mp hi
  rw [← View.write_univ_eq_writes_whole, View.writes_nil, View.write_emb_of_mem _ _ (Finset.mem_univ _)]
  show View.read (Elt F) (b3).view R z = _
  rw [View.read_apply]
  show (R : S32x128.Idx → F .f32) z = _
  have hz0 : (z 0).val < 32 := (z 0).isLt
  refine ((congrArg (R : S32x128.Idx → F .f32) (ValueIdx.eq_ix2 z)).trans (hR (z 0) (z 1))).trans ?_
  show Cert.Lookup.pairs (Tiles.TAB m d) _ = Cert.Lookup.pairs (Tiles.TAB m d) _
  congr 1
  have hemb : ∀ a, (((tailWin).view.emb z : S500000x128.Idx) a).val = (![499968, 0] : Fin 2 → Nat) a + 1 * (z a).val :=
    fun a => Rect.emb_apply (Rect.unit (s := S500000x128) ![499968, 0] S32x128.size inb_S500000x128_S32x128_499968_0) z a
  funext a
  apply Fin.ext
  match a with
  | ⟨0, _⟩ => exact (show 499968 + (z 0).val = (![499968, 0] : Fin 2 → Nat) 0 + 1 * (z 0).val by show _ = 499968 + 1 * (z 0).val; omega).trans (hemb 0).symm
  | ⟨1, _⟩ => exact (show (z 1).val = (![499968, 0] : Fin 2 → Nat) 1 + 1 * (z 1).val by show _ = 0 + 1 * (z 1).val; omega).trans (hemb 1).symm
end TailL

section Exit
variable (m : (ℓ : Loc nD τ sig) → Buf (Elt F) ℓ) (d : Dev nD) (L : grid0.Coords)
/-! ## The invariant at the loop's exit -/

theorem inv_exit_T (O : CellTallies nD τ sig (HIx 2)) (W : Waits sig (HIx 2)) (u : PUnit) (hw2 : wOf L < 2) :
    Body0.inv m d L O W 62 u ⊢ iprop(Transfers.MayWaits (thr d L) (none : HIx 2) O
      ∗ ((∃ X, (A0).view.loc (thr d L) ↦[(A0).view.set]{fullShare} X) ∗ semVal (thr d L, SemLoc.dma cc0_scratch4.sem) 0 ∗ ((tW).view.loc (thr d L) ↦{qL L} TT m d L))
      ∗ (∃ Y, Transfers.Flight countersEmb (thr d L) (SemLoc.dma cc0_scratch6.sem) default 524288
          iprop(slabDone m d ⟨wOf L + 32 * (2 * 62 - 2), by omega⟩ ∗ ((B0).view.loc (thr d L) ↦[(B0).view.set]{fullShare} Y)))
      ∗ ((∃ X, (A1).view.loc (thr d L) ↦[(A1).view.set]{fullShare} X) ∗ semVal (thr d L, SemLoc.dma cc0_scratch5.sem) 0 ∗ ((tW).view.loc (thr d L) ↦{qR L} TT m d L))
      ∗ ((∃ Y, (B1).view.loc (thr d L) ↦[(B1).view.set]{fullShare} Y) ∗ semVal (thr d L, SemLoc.dma cc0_scratch7.sem) 0)
      ∗ Pend m d L (2 * 62 - 2) (2 * 62) ∗ ∃ W', ⌜∀ p ∈ W', p ∈ W ∨ p.2 = none⌝ ∗ owes (thr d L) O W') := by
  have hw := wOf_lt L
  unfold Body0.inv InSt0 OutSt0 InSt1 OutSt1 OwesSt
  rw [if_neg (show ¬ wOf L + 32 * (2 * 62) < 3906 by omega), dif_pos (show 2 ≤ 2 * 62 ∧ wOf L + 32 * (2 * 62 - 2) < 3906 by omega),
    if_neg (show ¬ wOf L + 32 * (2 * 62 + 1) < 3906 by omega), dif_neg (show ¬ (2 ≤ 2 * 62 + 1 ∧ wOf L + 32 * (2 * 62 + 1 - 2) < 3906) by omega)]

theorem inv_exit_F (O : CellTallies nD τ sig (HIx 2)) (W : Waits sig (HIx 2)) (u : PUnit) (hw2 : ¬ wOf L < 2) :
    Body0.inv m d L O W 62 u ⊢ iprop(Transfers.MayWaits (thr d L) (none : HIx 2) O
      ∗ ((∃ X, (A0).view.loc (thr d L) ↦[(A0).view.set]{fullShare} X) ∗ semVal (thr d L, SemLoc.dma cc0_scratch4.sem) 0 ∗ ((tW).view.loc (thr d L) ↦{qL L} TT m d L))
      ∗ ((∃ Y, (B0).view.loc (thr d L) ↦[(B0).view.set]{fullShare} Y) ∗ semVal (thr d L, SemLoc.dma cc0_scratch6.sem) 0)
      ∗ ((∃ X, (A1).view.loc (thr d L) ↦[(A1).view.set]{fullShare} X) ∗ semVal (thr d L, SemLoc.dma cc0_scratch5.sem) 0 ∗ ((tW).view.loc (thr d L) ↦{qR L} TT m d L))
      ∗ ((∃ Y, (B1).view.loc (thr d L) ↦[(B1).view.set]{fullShare} Y) ∗ semVal (thr d L, SemLoc.dma cc0_scratch7.sem) 0)
      ∗ Pend m d L (2 * 62 - 2) (2 * 62) ∗ ∃ W', ⌜∀ p ∈ W', p ∈ W ∨ p.2 = none⌝ ∗ owes (thr d L) O W') := by
  have hw := wOf_lt L
  unfold Body0.inv InSt0 OutSt0 InSt1 OutSt1 OwesSt
  rw [if_neg (show ¬ wOf L + 32 * (2 * 62) < 3906 by omega), dif_neg (show ¬ (2 ≤ 2 * 62 ∧ wOf L + 32 * (2 * 62 - 2) < 3906) by omega),
    if_neg (show ¬ wOf L + 32 * (2 * 62 + 1) < 3906 by omega), dif_neg (show ¬ (2 ≤ 2 * 62 + 1 ∧ wOf L + 32 * (2 * 62 + 1 - 2) < 3906) by omega)]

end Exit

section Main
variable (m : (ℓ : Loc nD τ sig) → Buf (Elt F) ℓ) (d : Dev nD) (L : grid0.Coords)

set_option maxHeartbeats 4000000 in
theorem body_core_TT (hw2 : wOf L < 2) (hw0 : wOf L = 0) (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  simp only [cc0_k_eq_skeleton]; unfold cc0_k_skel
  have h1 := cond1_true L
  have h2 := cond2_true L
  unfold Tiles.go0
  iintro ⟨#Hlv, ⟨HtL, HtR, Hl, Hslabs, Htail⟩, H0, H1, ⟨%f2, H2⟩, ⟨%f3, H3⟩, Hs4, Hs5, Hs6, Hs7, HsA, HsB, HO⟩
  ihave Hmw := ((K (F := F)).mayWaits_none (thr := thr d L) hO) $$ Hlv
  ihave HA := (splitA (F := F) d L) $$ H0
  icases HA with ⟨⟨%fa0, HA0⟩, ⟨%fa1, HA1⟩⟩
  ihave HB := (splitB (F := F) d L) $$ H1
  icases HB with ⟨⟨%fb0, HB0⟩, ⟨%fb1, HB1⟩⟩
  ihave HA0' := (Entails.of_eq (show (((A0).view.loc (thr d L) ↦[(A0).view.set]{fullShare} fa0 : sProp 𝕄)) = _ from rfl).symm) $$ HA0
  ihave HA1' := (Entails.of_eq (show (((A1).view.loc (thr d L) ↦[(A1).view.set]{fullShare} fa1 : sProp 𝕄)) = _ from rfl).symm) $$ HA1
  ihave Ht1' := (Entails.of_eq (show (((tW).view.loc (thr d L) ↦{qL L} TT m d L : sProp 𝕄)) = _ from rfl).symm) $$ HtL
  ihave Ht2' := (Entails.of_eq (show (((tW).view.loc (thr d L) ↦{qR L} TT m d L : sProp 𝕄)) = _ from rfl).symm) $$ HtR
  sl_exec
  try unfold body_core_TT.sl.dma0
  try unfold body_core_TT.sl.dma0_1
  -- the sixty-two trips, by the invariant: at entry both first copies in are in flight and no slab is written
  sl_for (Body0.inv m d L O W) $$ [Hmw Hs4 Ht1' Hs5 Ht2' HB0 HB1 Hs6 Hs7 Hslabs HO]
  case region =>
    intro k u
    exact step' m d L O W k u _ _ rfl rfl
  · unfold Body0.inv InSt0 OutSt0 InSt1 OutSt1 OwesSt
    rw [if_pos (show wOf L + 32 * (2 * 0) < 3906 by omega), dif_neg (show ¬ (2 ≤ 2 * 0 ∧ wOf L + 32 * (2 * 0 - 2) < 3906) by omega),
      if_pos (show wOf L + 32 * (2 * 0 + 1) < 3906 by omega), dif_neg (show ¬ (2 ≤ 2 * 0 + 1 ∧ wOf L + 32 * (2 * 0 + 1 - 2) < 3906) by omega)]
    isplitr; · iexact Hmw
    isplitl [Hs4 Ht1']
    · iexists _
      isplitl [Hs4]
      · iapply (Transfers.Flight_mono countersEmb (thr d L) (in_mono0 m d L (wOf L + 32 * (2 * 0)) (k0_off1 L) (k0_off1_inb L h1) (off1_eq' L _ (by omega)) fa0 (qL L))) $$ Hs4
      · iexact Ht1'
    isplitl [HB0 Hs6]
    · isplitl [HB0]; · iexists _; iexact HB0
      iexact Hs6
    isplitl [Hs5 Ht2']
    · iexists _
      isplitl [Hs5]
      · iapply (Transfers.Flight_mono countersEmb (thr d L) (in_mono1 m d L (wOf L + 32 * (2 * 0 + 1)) (k0_off2 L) (k0_off2_inb L h2) (off2_eq' L _ (by omega)) fa1 (qR L))) $$ Hs5
      · iexact Ht2'
    isplitl [HB1 Hs7]
    · isplitl [HB1]; · iexists _; iexact HB1
      iexact Hs7
    isplitl [Hslabs]
    · iapply (Entails.of_eq (Pend_init m d L)) $$ Hslabs
    iexists W; isplitr
    · ipureintro; intro p hp; exact Or.inl hp
    · iexact HO
  iintro %uu HI
  ihave HI := (Entails.of_eq (congrArg (fun n => Body0.inv m d L O W n uu) (show Scf.trips k0_t1_loop.lb k0_t1_loop.ub k0_t1_loop.st = 62 from trips_eq))) $$ HI
  have c15 : cEnd0 L = 1#1 := (cEnd0_iff L).mpr hw2
  have c16 := cEnd1_false L
  have c17 : k0_cond17 L = 1#1 := (cond17_iff L).mpr hw0
  unfold cEnd0 at c15; unfold cEnd1 at c16
  ihave HI := (inv_exit_T m d L O W uu hw2) $$ HI
  icases HI with ⟨#Hmw2, ⟨⟨%X0, HA0⟩, Hs4, HtL⟩, ⟨%Y0, Hf6⟩, ⟨⟨%X1, HA1⟩, Hs5, HtR⟩, ⟨⟨%Y1, HB1⟩, Hs7⟩, HP, %W', %hW', HO⟩
  ihave Htail := (Entails.of_eq (if_pos (show Tiles.wid (Tiles.c0Of L) (Tiles.s0Of L) = 0 from hw0))) $$ Htail
  icases Htail with ⟨%ft, Htail⟩
  ihave Hl' := (Entails.of_eq (show (((lW).view.loc (thr d L) ↦{Tiles.tileShare (Tiles.c0Of L) (Tiles.s0Of L)} TL m d L : sProp 𝕄)) = _ from rfl).symm) $$ Hl
  ihave H2' := (Entails.of_eq (show (((b2).view.loc (thr d L) ↦{fullShare} f2 : sProp 𝕄)) = _ from rfl).symm) $$ H2
  ihave H3' := (Entails.of_eq (show (((b3).view.loc (thr d L) ↦{fullShare} f3 : sProp 𝕄)) = _ from rfl).symm) $$ H3
  ihave Htail' := (Entails.of_eq (show ((((tailWin).view.loc (thr d L) ↦[(tailWin).view.set]{fullShare} ft : sProp 𝕄))) = _ from rfl).symm) $$ Htail
  sl_exec
  try unfold body_core_TT.sl.dma0_2
  -- the repacking of the tail, sixteen trips, by its own invariant
  sl_for (Body0Inner.innerInvT d L (Ztail m d L f2)) $$ [H2' H3']
  case region =>
    intro j u
    exact Body0Inner.innerT_step d L c17 (Ztail m d L f2) j u
  · unfold Body0Inner.innerInvT
    isplitl [H2']; · iexact H2'
    iexists f3; isplitl [H3']; · iexact H3'
    ipureintro; intro jj q h; exact absurd h (by omega)
  iintro %_ HI
  unfold Body0Inner.innerInvT
  icases HI with ⟨H2, %R, H3, %hR⟩
  have hR16 : ∀ (jj : Fin 32) (q : Fin 128), (R : S32x128.Idx → F .f32) (ix2 jj q)
      = Cert.Lookup.pairs (Tiles.TAB m d) (ix2 (⟨499968 + jj.val, by have := jj.isLt; omega⟩ : Fin 500000) q) := by
    intro jj q
    have h := hR
    rw [show Scf.trips k0_t4_loop.lb k0_t4_loop.ub k0_t4_loop.st = 16 from Body0Inner.trips4] at h
    exact Body0TailVal.tail_pairs (Tiles.TAB m d) (Ztail m d L f2) R (Ztail_holds m d L f2)
      (fun jj q => h jj q (by have := jj.isLt; have := q.isLt; omega)) jj q
  sl_exec
  sl_step
  try unfold body_core_TT.sl.dma0_3
  ihave HP := (Pend_put m d L (2 * 62 - 2) (2 * 62) (by omega) (by omega)) $$ [Hf6_dst HP]
  · isplitl [Hf6_dst]
    · rw [dif_pos (show wOf L + 32 * (2 * 62 - 2) < 3906 by omega)]; iexact Hf6_dst
    · iexact HP
  ihave HP := (Entails.of_eq (Pend_exit m d L (2 * 62))) $$ HP
  ihave Htl := (Entails.of_eq (tail_out m d L R hR16 ft)) $$ Htail'
  unfold Tiles.td0
  rw [if_pos (show Tiles.wid (Tiles.c0Of L) (Tiles.s0Of L) = 0 from hw0)]
  isplitl [HtL HtR Hl' HP Htl]
  · isplitl [HtL]; · iexact HtL
    isplitl [HtR]; · iexact HtR
    isplitl [Hl']; · iexact Hl'
    isplitl [HP]; · iexact HP
    iexact Htl
  isplitl [HA0 HA1]
  · iapply (joinA (F := F) d L); isplitl [HA0]; · iexists _; iexact HA0
    iexists _; iexact HA1
  isplitl [Hf6_src HB1]
  · iapply (joinB (F := F) d L); isplitl [Hf6_src]; · iexists _; iexact Hf6_src
    iexists _; iexact HB1
  isplitl [H2]; · iexists _; iexact H2
  isplitl [H3]; · iexists _; iexact H3
  isplitl [Hs4]; · iexact Hs4
  isplitl [Hs5]; · iexact Hs5
  isplitl [Hf6]; · iexact Hf6
  isplitl [Hs7]; · iexact Hs7
  isplitl [HsA]; · iexact HsA
  isplitl [HsB]; · iexact HsB
  iexists _; isplitr
  swap; · iexact HO
  ipureintro; exact (owes_ins (owes_ins (owes_ins hW' _) _) _)

set_option maxHeartbeats 4000000 in
theorem body_core_TF (hw2 : wOf L < 2) (hw0 : ¬ wOf L = 0) (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  simp only [cc0_k_eq_skeleton]; unfold cc0_k_skel
  have h1 := cond1_true L
  have h2 := cond2_true L
  unfold Tiles.go0
  iintro ⟨#Hlv, ⟨HtL, HtR, Hl, Hslabs, Htail⟩, H0, H1, ⟨%f2, H2⟩, ⟨%f3, H3⟩, Hs4, Hs5, Hs6, Hs7, HsA, HsB, HO⟩
  ihave Hmw := ((K (F := F)).mayWaits_none (thr := thr d L) hO) $$ Hlv
  ihave HA := (splitA (F := F) d L) $$ H0
  icases HA with ⟨⟨%fa0, HA0⟩, ⟨%fa1, HA1⟩⟩
  ihave HB := (splitB (F := F) d L) $$ H1
  icases HB with ⟨⟨%fb0, HB0⟩, ⟨%fb1, HB1⟩⟩
  ihave HA0' := (Entails.of_eq (show (((A0).view.loc (thr d L) ↦[(A0).view.set]{fullShare} fa0 : sProp 𝕄)) = _ from rfl).symm) $$ HA0
  ihave HA1' := (Entails.of_eq (show (((A1).view.loc (thr d L) ↦[(A1).view.set]{fullShare} fa1 : sProp 𝕄)) = _ from rfl).symm) $$ HA1
  ihave Ht1' := (Entails.of_eq (show (((tW).view.loc (thr d L) ↦{qL L} TT m d L : sProp 𝕄)) = _ from rfl).symm) $$ HtL
  ihave Ht2' := (Entails.of_eq (show (((tW).view.loc (thr d L) ↦{qR L} TT m d L : sProp 𝕄)) = _ from rfl).symm) $$ HtR
  sl_exec
  try unfold body_core_TF.sl.dma0
  try unfold body_core_TF.sl.dma0_1
  -- the sixty-two trips, by the invariant: at entry both first copies in are in flight and no slab is written
  sl_for (Body0.inv m d L O W) $$ [Hmw Hs4 Ht1' Hs5 Ht2' HB0 HB1 Hs6 Hs7 Hslabs HO]
  case region =>
    intro k u
    exact step' m d L O W k u _ _ rfl rfl
  · unfold Body0.inv InSt0 OutSt0 InSt1 OutSt1 OwesSt
    rw [if_pos (show wOf L + 32 * (2 * 0) < 3906 by omega), dif_neg (show ¬ (2 ≤ 2 * 0 ∧ wOf L + 32 * (2 * 0 - 2) < 3906) by omega),
      if_pos (show wOf L + 32 * (2 * 0 + 1) < 3906 by omega), dif_neg (show ¬ (2 ≤ 2 * 0 + 1 ∧ wOf L + 32 * (2 * 0 + 1 - 2) < 3906) by omega)]
    isplitr; · iexact Hmw
    isplitl [Hs4 Ht1']
    · iexists _
      isplitl [Hs4]
      · iapply (Transfers.Flight_mono countersEmb (thr d L) (in_mono0 m d L (wOf L + 32 * (2 * 0)) (k0_off1 L) (k0_off1_inb L h1) (off1_eq' L _ (by omega)) fa0 (qL L))) $$ Hs4
      · iexact Ht1'
    isplitl [HB0 Hs6]
    · isplitl [HB0]; · iexists _; iexact HB0
      iexact Hs6
    isplitl [Hs5 Ht2']
    · iexists _
      isplitl [Hs5]
      · iapply (Transfers.Flight_mono countersEmb (thr d L) (in_mono1 m d L (wOf L + 32 * (2 * 0 + 1)) (k0_off2 L) (k0_off2_inb L h2) (off2_eq' L _ (by omega)) fa1 (qR L))) $$ Hs5
      · iexact Ht2'
    isplitl [HB1 Hs7]
    · isplitl [HB1]; · iexists _; iexact HB1
      iexact Hs7
    isplitl [Hslabs]
    · iapply (Entails.of_eq (Pend_init m d L)) $$ Hslabs
    iexists W; isplitr
    · ipureintro; intro p hp; exact Or.inl hp
    · iexact HO
  iintro %uu HI
  ihave HI := (Entails.of_eq (congrArg (fun n => Body0.inv m d L O W n uu) (show Scf.trips k0_t1_loop.lb k0_t1_loop.ub k0_t1_loop.st = 62 from trips_eq))) $$ HI
  have c15 : cEnd0 L = 1#1 := (cEnd0_iff L).mpr hw2
  have c16 := cEnd1_false L
  have c17 : ¬ (k0_cond17 L = 1#1) := fun h => hw0 ((cond17_iff L).mp h)
  unfold cEnd0 at c15; unfold cEnd1 at c16
  ihave HI := (inv_exit_T m d L O W uu hw2) $$ HI
  icases HI with ⟨#Hmw2, ⟨⟨%X0, HA0⟩, Hs4, HtL⟩, ⟨%Y0, Hf6⟩, ⟨⟨%X1, HA1⟩, Hs5, HtR⟩, ⟨⟨%Y1, HB1⟩, Hs7⟩, HP, %W', %hW', HO⟩
  ihave Htail := (Entails.of_eq (if_neg (show ¬ (Tiles.wid (Tiles.c0Of L) (Tiles.s0Of L) = 0) from hw0))) $$ Htail
  sl_exec
  sl_step
  ihave HP := (Pend_put m d L (2 * 62 - 2) (2 * 62) (by omega) (by omega)) $$ [Hf6_dst HP]
  · isplitl [Hf6_dst]
    · rw [dif_pos (show wOf L + 32 * (2 * 62 - 2) < 3906 by omega)]; iexact Hf6_dst
    · iexact HP
  ihave HP := (Entails.of_eq (Pend_exit m d L (2 * 62))) $$ HP
  unfold Tiles.td0
  rw [if_neg (show ¬ Tiles.wid (Tiles.c0Of L) (Tiles.s0Of L) = 0 from hw0)]
  isplitl [HtL HtR Hl HP Htail]
  · isplitl [HtL]; · iexact HtL
    isplitl [HtR]; · iexact HtR
    isplitl [Hl]; · iexact Hl
    isplitl [HP]; · iexact HP
    iexact Htail
  isplitl [HA0 HA1]
  · iapply (joinA (F := F) d L); isplitl [HA0]; · iexists _; iexact HA0
    iexists _; iexact HA1
  isplitl [Hf6_src HB1]
  · iapply (joinB (F := F) d L); isplitl [Hf6_src]; · iexists _; iexact Hf6_src
    iexists _; iexact HB1
  isplitl [H2]; · iexists _; iexact H2
  isplitl [H3]; · iexists _; iexact H3
  isplitl [Hs4]; · iexact Hs4
  isplitl [Hs5]; · iexact Hs5
  isplitl [Hf6]; · iexact Hf6
  isplitl [Hs7]; · iexact Hs7
  isplitl [HsA]; · iexact HsA
  isplitl [HsB]; · iexact HsB
  iexists _; isplitr
  swap; · iexact HO
  ipureintro; exact (owes_ins hW' _)

set_option maxHeartbeats 4000000 in
theorem body_core_FF (hw2 : ¬ wOf L < 2) (hw0 : ¬ wOf L = 0) (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  simp only [cc0_k_eq_skeleton]; unfold cc0_k_skel
  have h1 := cond1_true L
  have h2 := cond2_true L
  unfold Tiles.go0
  iintro ⟨#Hlv, ⟨HtL, HtR, Hl, Hslabs, Htail⟩, H0, H1, ⟨%f2, H2⟩, ⟨%f3, H3⟩, Hs4, Hs5, Hs6, Hs7, HsA, HsB, HO⟩
  ihave Hmw := ((K (F := F)).mayWaits_none (thr := thr d L) hO) $$ Hlv
  ihave HA := (splitA (F := F) d L) $$ H0
  icases HA with ⟨⟨%fa0, HA0⟩, ⟨%fa1, HA1⟩⟩
  ihave HB := (splitB (F := F) d L) $$ H1
  icases HB with ⟨⟨%fb0, HB0⟩, ⟨%fb1, HB1⟩⟩
  ihave HA0' := (Entails.of_eq (show (((A0).view.loc (thr d L) ↦[(A0).view.set]{fullShare} fa0 : sProp 𝕄)) = _ from rfl).symm) $$ HA0
  ihave HA1' := (Entails.of_eq (show (((A1).view.loc (thr d L) ↦[(A1).view.set]{fullShare} fa1 : sProp 𝕄)) = _ from rfl).symm) $$ HA1
  ihave Ht1' := (Entails.of_eq (show (((tW).view.loc (thr d L) ↦{qL L} TT m d L : sProp 𝕄)) = _ from rfl).symm) $$ HtL
  ihave Ht2' := (Entails.of_eq (show (((tW).view.loc (thr d L) ↦{qR L} TT m d L : sProp 𝕄)) = _ from rfl).symm) $$ HtR
  sl_exec
  try unfold body_core_FF.sl.dma0
  try unfold body_core_FF.sl.dma0_1
  -- the sixty-two trips, by the invariant: at entry both first copies in are in flight and no slab is written
  sl_for (Body0.inv m d L O W) $$ [Hmw Hs4 Ht1' Hs5 Ht2' HB0 HB1 Hs6 Hs7 Hslabs HO]
  case region =>
    intro k u
    exact step' m d L O W k u _ _ rfl rfl
  · unfold Body0.inv InSt0 OutSt0 InSt1 OutSt1 OwesSt
    rw [if_pos (show wOf L + 32 * (2 * 0) < 3906 by omega), dif_neg (show ¬ (2 ≤ 2 * 0 ∧ wOf L + 32 * (2 * 0 - 2) < 3906) by omega),
      if_pos (show wOf L + 32 * (2 * 0 + 1) < 3906 by omega), dif_neg (show ¬ (2 ≤ 2 * 0 + 1 ∧ wOf L + 32 * (2 * 0 + 1 - 2) < 3906) by omega)]
    isplitr; · iexact Hmw
    isplitl [Hs4 Ht1']
    · iexists _
      isplitl [Hs4]
      · iapply (Transfers.Flight_mono countersEmb (thr d L) (in_mono0 m d L (wOf L + 32 * (2 * 0)) (k0_off1 L) (k0_off1_inb L h1) (off1_eq' L _ (by omega)) fa0 (qL L))) $$ Hs4
      · iexact Ht1'
    isplitl [HB0 Hs6]
    · isplitl [HB0]; · iexists _; iexact HB0
      iexact Hs6
    isplitl [Hs5 Ht2']
    · iexists _
      isplitl [Hs5]
      · iapply (Transfers.Flight_mono countersEmb (thr d L) (in_mono1 m d L (wOf L + 32 * (2 * 0 + 1)) (k0_off2 L) (k0_off2_inb L h2) (off2_eq' L _ (by omega)) fa1 (qR L))) $$ Hs5
      · iexact Ht2'
    isplitl [HB1 Hs7]
    · isplitl [HB1]; · iexists _; iexact HB1
      iexact Hs7
    isplitl [Hslabs]
    · iapply (Entails.of_eq (Pend_init m d L)) $$ Hslabs
    iexists W; isplitr
    · ipureintro; intro p hp; exact Or.inl hp
    · iexact HO
  iintro %uu HI
  ihave HI := (Entails.of_eq (congrArg (fun n => Body0.inv m d L O W n uu) (show Scf.trips k0_t1_loop.lb k0_t1_loop.ub k0_t1_loop.st = 62 from trips_eq))) $$ HI
  have c15 : ¬ (cEnd0 L = 1#1) := fun h => hw2 ((cEnd0_iff L).mp h)
  have c16 := cEnd1_false L
  have c17 : ¬ (k0_cond17 L = 1#1) := fun h => hw0 ((cond17_iff L).mp h)
  unfold cEnd0 at c15; unfold cEnd1 at c16
  ihave HI := (inv_exit_F m d L O W uu hw2) $$ HI
  icases HI with ⟨#Hmw2, ⟨⟨%X0, HA0⟩, Hs4, HtL⟩, ⟨⟨%Y0, HB0⟩, Hs6⟩, ⟨⟨%X1, HA1⟩, Hs5, HtR⟩, ⟨⟨%Y1, HB1⟩, Hs7⟩, HP, %W', %hW', HO⟩
  ihave Htail := (Entails.of_eq (if_neg (show ¬ (Tiles.wid (Tiles.c0Of L) (Tiles.s0Of L) = 0) from hw0))) $$ Htail
  sl_exec
  sl_step
  ihave HP := (Pend_put m d L (2 * 62 - 2) (2 * 62) (by omega) (by omega)) $$ [HP]
  · isplitr
    · rw [dif_neg (show ¬ wOf L + 32 * (2 * 62 - 2) < 3906 by omega)]; iempintro
    · iexact HP
  ihave HP := (Entails.of_eq (Pend_exit m d L (2 * 62))) $$ HP
  unfold Tiles.td0
  rw [if_neg (show ¬ Tiles.wid (Tiles.c0Of L) (Tiles.s0Of L) = 0 from hw0)]
  isplitl [HtL HtR Hl HP Htail]
  · isplitl [HtL]; · iexact HtL
    isplitl [HtR]; · iexact HtR
    isplitl [Hl]; · iexact Hl
    isplitl [HP]; · iexact HP
    iexact Htail
  isplitl [HA0 HA1]
  · iapply (joinA (F := F) d L); isplitl [HA0]; · iexists _; iexact HA0
    iexists _; iexact HA1
  isplitl [HB0 HB1]
  · iapply (joinB (F := F) d L); isplitl [HB0]; · iexists _; iexact HB0
    iexists _; iexact HB1
  isplitl [H2]; · iexists _; iexact H2
  isplitl [H3]; · iexists _; iexact H3
  isplitl [Hs4]; · iexact Hs4
  isplitl [Hs5]; · iexact Hs5
  isplitl [Hs6]; · iexact Hs6
  isplitl [Hs7]; · iexact Hs7
  isplitl [HsA]; · iexact HsA
  isplitl [HsB]; · iexact HsB
  iexists _; isplitr
  swap; · iexact HO
  ipureintro; exact hW'

set_option maxHeartbeats 4000000 in
/-- The tile's task over its own four scratch buffers and six semaphores. -/
theorem body_core (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  by_cases hw2 : wOf L < 2 <;> by_cases hw0 : wOf L = 0
  · exact body_core_TT m d L hw2 hw0 O W hO
  · exact body_core_TF m d L hw2 hw0 O W hO
  · exfalso; omega
  · exact body_core_FF m d L hw2 hw0 O W hO
end Main

/-- The repacking kernel's task on one vector subcore: handed its read shares of the transposed table and of
    the transposed tail and its slabs of the pair table unwritten, it hands them back with the slabs at the
    pair table's entries. -/
theorem tile_body0 (hF : (K (F := F)).Facts) (m : (ℓ : Loc nD τ sig) → Buf (Elt F) ℓ) (d : Dev nD) (L : grid0.Coords)
    (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ scopedBufs (thr d L) ∗ scopedSems0 (thr d L) ∗ owes (thr d L) O W)
      ⊢ wp frame (wpE (defs₀ (F := F)) 𝒱₀ (thr d L) none) Set.univ
          (cc0_k L (Memref.whole main_v2_scv) (Memref.isWhole_whole _) (Memref.whole main_v4_scv) (Memref.isWhole_whole _) (Memref.whole main_v5_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1)
          fun _ => iprop(Tiles.td0 m d (Tiles.c0Of L) (Tiles.s0Of L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, Hgo, ⟨H0, H1, H2, H3, Hbufs⟩, ⟨Hs4, Hs5, Hs6, Hs7, HsA, HsB, Hsems⟩, HO⟩
  iapply (wp_wand_r (Fr := frame) (wpE := wpE (defs₀ (F := F)) 𝒱₀ (thr d L) none) (E := Set.univ))
  isplitl [Hgo H0 H1 H2 H3 Hs4 Hs5 Hs6 Hs7 HsA HsB HO]
  · iapply (body_core m d L O W hO)
    isplitr; · iexact Hlv
    isplitl [Hgo]; · iexact Hgo
    isplitl [H0]; · iexact H0
    isplitl [H1]; · iexact H1
    isplitl [H2]; · iexact H2
    isplitl [H3]; · iexact H3
    isplitl [Hs4]; · iexact Hs4
    isplitl [Hs5]; · iexact Hs5
    isplitl [Hs6]; · iexact Hs6
    isplitl [Hs7]; · iexact Hs7
    isplitl [HsA]; · iexact HsA
    isplitl [HsB]; · iexact HsB
    iexact HO
  · iintro %x ⟨Htd, H0, H1, H2, H3, Hs4, Hs5, Hs6, Hs7, HsA, HsB, HO⟩
    isplitl [Htd]; · iexact Htd
    isplitl [H0 H1 H2 H3 Hbufs]
    · isplitl [H0]; · iexact H0
      isplitl [H1]; · iexact H1
      isplitl [H2]; · iexact H2
      isplitl [H3]; · iexact H3
      iexact Hbufs
    isplitl [Hs4 Hs5 Hs6 Hs7 HsA HsB Hsems]
    · isplitl [Hs4]; · iexact Hs4
      isplitl [Hs5]; · iexact Hs5
      isplitl [Hs6]; · iexact Hs6
      isplitl [Hs7]; · iexact Hs7
      isplitl [HsA]; · iexact HsA
      isplitl [HsB]; · iexact HsB
      iexact Hsems
    iexact HO

end Cert.Proof.KI.Body0

end
-- ==== Proof.Body0Inner_b.lean ====
/-
  The inner transposing trips of the repacking kernel, one trip at a time.

  A trip t of 64 over one half of the slab scratch (64 x 256 words) moves its 16 x 16 block — columns
  16·⌊t/4⌋ … + 15, rows 16·(t mod 4) … + 15 — into the matching half of the pair scratch (128 x 128
  words): lane x takes column c = 16·⌊t/4⌋ + x and, in step s of 16, row r = 16·(t mod 4) + ((x + s) mod 16),
  and writes the word read at (r, c) to line c / 2, column (c mod 2)·64 + r. The sixteen steps write 256
  different cells, one for every cell of the block, so after the trip the pair half holds, on the blocks
  done so far, the slab half with two columns to a line. The tail's trips do the same for the last 64 rows
  of the table: word (q mod 64, 2·jj + q / 64) of the tail scratch goes to (jj, q) of the tail's pair lines.
-/
import proofs.«204055_g19524921328135_cont_8to1_763_20_alg».proof.Proof.SetupKI_b
import Idealize.ShloMosaic.Lib.ValueIdx
import Idealize.ShloMosaic.Lib.ValueLayout

noncomputable section

namespace Cert.Proof.KB.Body0Inner

open Cert.Kernel Cert.Kernel.Gen Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## An indexed read and an indexed write of a memref held by its own elements -/

section Rules

variable {κ : Kind} {sp : Space} {s t : Shape} {e : EltTy}

omit [FloatOps F] in
/-- An access through a memref's whole rectangle goes through exactly the memref's own elements. -/
theorem set_access_whole (m : Memref sig κ sp s e) : (m.access (Rect.whole s)).set = m.view.set := by
  show (m.view.slice (Rect.whole s)).set = m.view.set
  rw [View.set_slice, Rect.set_whole]
  rfl

omit [FloatOps F] in
/-- Reading through a memref's whole rectangle reads what the memref reads. -/
theorem read_access_whole' (Val : EltTy → Type) (m : Memref sig κ sp s e) (f : m.view.ty.Contents Val) :
    (m.access (Rect.whole s)).read Val f = m.view.read Val f := by
  funext x
  show _root_.cast _ (f (m.view.emb ((Rect.whole s).emb x))) = _root_.cast _ (f (m.view.emb x))
  rw [Rect.emb_whole_apply]

variable {c : Thread nD τ} {α : Type}

/-- The indexed read of a memref whose own elements are held: it continues at the gathered vector, the elements
    still held. -/
theorem wp_loadIdx_own {base : Memref sig c.2.kind .vmem s e} {idxs : Fin s.rank → IVec t 32}
    {h : ∀ a x, (idxs a x).toNat < s.size a} {hl : base.view.Loads}
    {k : Vec F t e → Prog (TpuEff nD τ sig (Elt F) Λ₀ c.2) α} {q : PosShare TreeShare}
    {f : Buf (Elt F) ((base.access (.whole s)).loc c)} {Q : α → sProp 𝕄} :
    ((base.access (.whole s)).loc c ↦[base.view.set]{q} f : sProp 𝕄)
      ⊢ iprop((((base.access (.whole s)).loc c ↦[base.view.set]{q} f)
          -∗ wp frame (wpE (defs₀ (F := F)) 𝒱₀ c none) Set.univ (k (loadIdx ((base.access (.whole s)).read (Elt F) f) idxs h)) Q)
        -∗ wp frame (wpE (defs₀ (F := F)) 𝒱₀ c none) Set.univ (SparseCore.vectorLoadIdx base idxs h hl >>= k) Q) :=
  SparseCore.wp_vectorLoadIdx 𝒱₀ c none Set.univ (Finset.subset_of_eq (set_access_whole base))

/-- The indexed write of a memref whose own elements are held at contents that, read through the memref, satisfy P:
    it continues holding them at contents that satisfy P', when the write takes every array of P to one of P'. -/
theorem wp_storeIdx_val {dd : Fin 1 → Nat} {base : Memref sig c.2.kind .vmem s e} {idxs : Fin s.rank → IVec ⟨1, dd⟩ 32}
    {v : Vec F ⟨1, dd⟩ e} {mask : IVec ⟨1, dd⟩ 1} {add : Bool} {h : ∀ a x, (idxs a x).toNat < s.size a}
    {hs : (base.access (.whole s)).Stores Finset.univ} {k : PUnit → Prog (TpuEff nD τ sig (Elt F) Λ₀ c.2) α}
    {Q : α → sProp 𝕄} (P P' : Vec F s e → Prop) (hPP' : ∀ G, P G → P' (storeIdx G idxs v mask add h)) :
    iprop(∃ f, ((base.access (.whole s)).loc c ↦[base.view.set]{fullShare} f : sProp 𝕄) ∗ ⌜P (base.view.read (Elt F) f)⌝)
      ⊢ iprop(((∃ f, ((base.access (.whole s)).loc c ↦[base.view.set]{fullShare} f : sProp 𝕄) ∗ ⌜P' (base.view.read (Elt F) f)⌝)
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro ⟨%f, H, %hP⟩ Hk
  ihave H' := (Entails.of_eq (show ((base.access (.whole s)).loc c ↦[base.view.set]{fullShare} f : sProp 𝕄)
      = ((base.access (.whole s)).loc c ↦[(base.access (.whole s)).set]{fullShare} f) from by rw [set_access_whole])) $$ H
  iapply (SparseCore.wp_vectorStoreIdx 𝒱₀ c none Set.univ (base := base) (f := f)) $$ H'
  iintro H'
  iapply Hk
  iexists _
  isplitl [H']
  · ihave H := (Entails.of_eq (show ((base.access (.whole s)).loc c ↦[(base.access (.whole s)).set]{fullShare} _ : sProp 𝕄)
        = ((base.access (.whole s)).loc c ↦[base.view.set]{fullShare} _) from by rw [set_access_whole])) $$ H'
    iexact H
  · ipureintro
    have e1 := (read_access_whole' (Elt F) base
        ((base.access (.whole s)).write (Elt F) f
          (storeIdx ((base.access (.whole s)).read (Elt F) f) idxs v mask add h) Finset.univ)).symm.trans
      ((View.read_write_univ _ _).trans
        (congrArg (fun g => storeIdx g idxs v mask add h) (read_access_whole' (Elt F) base f)))
    rw [e1]
    exact hPP' _ hP

/-- Held contents that satisfy P, as "some contents that satisfy P". -/
theorem held_val_intro {base : Memref sig c.2.kind .vmem s e} (P : Vec F s e → Prop)
    (f : Buf (Elt F) ((base.access (.whole s)).loc c)) (hP : P (base.view.read (Elt F) f)) :
    ((base.access (.whole s)).loc c ↦[base.view.set]{fullShare} f : sProp 𝕄)
      ⊢ iprop(∃ f, ((base.access (.whole s)).loc c ↦[base.view.set]{fullShare} f : sProp 𝕄) ∗ ⌜P (base.view.read (Elt F) f)⌝) := by
  iintro H
  iexists f
  isplitl [H]
  · iexact H
  · ipureintro; exact hP

end Rules

/-! ## An unmasked indexed write, read back -/

section ReadBack

/-- A left fold of point updates read back at j, when every update at j carries the same value a: a if some update
    is at j, the starting value otherwise. -/
theorem foldl_update_apply {ι σ β : Type} [DecidableEq σ] (idx : ι → σ) (val : ι → β) (j : σ) (a : β)
    (hv : ∀ k, idx k = j → val k = a) :
    ∀ (l : List ι) (g : σ → β),
      (l.foldl (fun g k j' => if idx k = j' then val k else g j') g) j = if ∃ k ∈ l, idx k = j then a else g j := by
  intro l
  induction l with
  | nil => intro g; simp
  | cons k l ih =>
    intro g
    rw [List.foldl_cons, ih]
    by_cases h1 : ∃ k' ∈ l, idx k' = j
    · have h3 : ∃ k'' ∈ k :: l, idx k'' = j := let ⟨k', hk', e'⟩ := h1; ⟨k', List.mem_cons_of_mem _ hk', e'⟩
      rw [if_pos h1, if_pos h3]
    · rw [if_neg h1]
      by_cases h2 : idx k = j
      · have h3 : ∃ k'' ∈ k :: l, idx k'' = j := ⟨k, List.mem_cons_self, h2⟩
        rw [if_pos h3]
        show (if idx k = j then val k else g j) = a
        rw [if_pos h2]
        exact hv k h2
      · have h3 : ¬ ∃ k'' ∈ k :: l, idx k'' = j := by
          rintro ⟨k', hk', e'⟩
          rcases List.mem_cons.1 hk' with rfl | hk'
          · exact h2 e'
          · exact h1 ⟨k', hk', e'⟩
        rw [if_neg h3]
        show (if idx k = j then val k else g j) = g j
        rw [if_neg h2]

variable {s : Shape} {e : EltTy} {dd : Fin 1 → Nat}

/-- An unmasked indexed write read back at an index j, when every lane that names j carries the same value a:
    a if some lane names j, the old value otherwise. -/
theorem storeIdx_apply (f : Vec F s e) (idxs : Fin s.rank → IVec ⟨1, dd⟩ 32) (v : Vec F ⟨1, dd⟩ e)
    (h : ∀ a x, (idxs a x).toNat < s.size a) (j : s.Idx) (a : Elt F e)
    (hv : ∀ k : Fin (dd 0), idxAt idxs h (Shape.ofLane k) = j → v (Shape.ofLane k) = a) :
    storeIdx f idxs v (fun _ => 1#1) false h j
      = if ∃ k : Fin (dd 0), idxAt idxs h (Shape.ofLane k) = j then a else f j := by
  have hfold : storeIdx f idxs v (fun _ => 1#1) false h
      = (List.finRange (dd 0)).foldl (fun g k j' => if idxAt idxs h (Shape.ofLane k) = j' then v (Shape.ofLane k) else g j') f := by
    unfold storeIdx
    congr 1
    funext g k j'
    have hiff : (∀ a, (j' a).val = (idxAt idxs h (Shape.ofLane k) a).val) ↔ idxAt idxs h (Shape.ofLane k) = j' :=
      ⟨fun hh => funext fun a => Fin.ext (hh a).symm, fun hh a => by rw [hh]⟩
    dsimp only
    rw [if_pos (show (1#1 : BitVec 1) = 1 from rfl)]
    rw [if_neg (show ¬ (false = true) from by decide)]
    by_cases hc : idxAt idxs h (Shape.ofLane k) = j'
    · rw [if_pos hc, if_pos (hiff.2 hc)]
    · rw [if_neg hc, if_neg (fun hh => hc (hiff.1 hh))]
  rw [hfold, foldl_update_apply (fun k : Fin (dd 0) => idxAt idxs h (Shape.ofLane k)) (fun k => v (Shape.ofLane k)) j a hv]
  by_cases hex : ∃ k : Fin (dd 0), idxAt idxs h (Shape.ofLane k) = j
  · have hex' : ∃ k ∈ List.finRange (dd 0), idxAt idxs h (Shape.ofLane k) = j :=
      let ⟨k, hk⟩ := hex; ⟨k, List.mem_finRange k, hk⟩
    rw [if_pos hex, if_pos hex']
  · have hex' : ¬ ∃ k ∈ List.finRange (dd 0), idxAt idxs h (Shape.ofLane k) = j :=
      fun ⟨k, _, hk⟩ => hex ⟨k, hk⟩
    rw [if_neg hex, if_neg hex']

end ReadBack

/-! ## The index words of a transposing trip -/

section Words

/-- The lane numbering of a 16-lane vector. -/
abbrev lanes : IVec S16 32 := iota .scVector S16 32 [0] iota_S16_d0_w32_scVector

/-- Lane x of the lane numbering is the word x. -/
theorem lane_eq (x : S16.Idx) : (lanes x).toNat = (x 0).val := by
  have hx : (x 0).val < 16 := (x 0).isLt
  have hs : S16.size 0 = 16 := rfl
  unfold lanes iota
  simp only [List.foldl_cons, List.foldl_nil, BitVec.toNat_ofNat]
  omega

/-- The column block of trip t, 16·⌊t/4⌋, as the kernel computes it: floor division over signed words. -/
def i0W (t : Nat) : BitVec 32 :=
  let arg14 : BitVec 32 := Scf.iv 0#32 1#32 t
  let v76 : BitVec 32 := Scalar.divsi arg14 4#32
  let v77 : BitVec 1 := Scalar.cmpi .sgt arg14 0#32
  let v78 : BitVec 32 := Scalar.extui v77
  let v79 : BitVec 1 := Scalar.cmpi .slt arg14 0#32
  let v80 : BitVec 32 := Scalar.extui v79
  let v81 : BitVec 32 := Scalar.subi v78 v80
  let v82 : BitVec 1 := Scalar.cmpi .sgt 4#32 0#32
  let v83 : BitVec 32 := Scalar.extui v82
  let v84 : BitVec 1 := Scalar.cmpi .slt 4#32 0#32
  let v85 : BitVec 32 := Scalar.extui v84
  let v86 : BitVec 32 := Scalar.subi v83 v85
  let v87 : BitVec 1 := Scalar.cmpi .ne v81 v86
  let v88 : BitVec 32 := Scalar.remsi arg14 4#32
  let v89 : BitVec 1 := Scalar.cmpi .ne v88 0#32
  let v90 : BitVec 1 := Scalar.andi v87 v89
  let v91 : BitVec 32 := Scalar.subi v76 1#32
  let v92 : BitVec 32 := Scalar.select v90 v91 v76
  Scalar.muli v92 16#32

/-- The row block of trip t, 16·(t mod 4), as the kernel computes it: floor remainder over signed words. -/
def d0W (t : Nat) : BitVec 32 :=
  let arg14 : BitVec 32 := Scf.iv 0#32 1#32 t
  let v94 : BitVec 1 := Scalar.cmpi .eq 4#32 0#32
  let v95 : BitVec 32 := Scalar.select v94 1#32 4#32
  let v96 : BitVec 32 := Scalar.remsi arg14 v95
  let v97 : BitVec 1 := Scalar.cmpi .ne v96 0#32
  let v98 : BitVec 1 := Scalar.cmpi .slt v96 0#32
  let v99 : BitVec 1 := Scalar.cmpi .slt v95 0#32
  let v100 : BitVec 1 := Scalar.xori v98 v99
  let v101 : BitVec 1 := Scalar.andi v100 v97
  let v102 : BitVec 32 := Scalar.addi v96 v95
  let v103 : BitVec 32 := Scalar.select v101 v102 v96
  Scalar.muli v103 16#32

theorem i0W_eq : ∀ t : Fin 64, (i0W t.val).toNat = 16 * (t.val / 4) := by decide +kernel
theorem d0W_eq : ∀ t : Fin 64, (d0W t.val).toNat = 16 * (t.val % 4) := by decide +kernel

/-- The column a lane takes in trip t. -/
def colv (t : Nat) : IVec S16 32 := addi (broadcast S16 (i0W t)) lanes
/-- The diagonal of step s: lane x is sent to (x + s) mod 16. -/
def perm (s : BitVec 32) : IVec S16 32 := andi (addi lanes (broadcast S16 s)) (broadcast S16 15#32)
/-- The row a lane reads in step s of trip t. -/
def rowv (t : Nat) (s : BitVec 32) : IVec S16 32 := addi (broadcast S16 (d0W t)) (perm s)
/-- The line a lane writes in trip t: half its column. -/
def r2 (t : Nat) : IVec S16 32 := shrui (colv t) (broadcast S16 1#32)
/-- Where the row block starts in the line a lane writes: 64 further for an odd column. -/
def c2d (t : Nat) : IVec S16 32 :=
  addi (shli (andi (colv t) (broadcast S16 1#32)) (broadcast S16 6#32)) (broadcast S16 (d0W t))
/-- The column of the line a lane writes in step s of trip t. -/
def wcol (t : Nat) (s : BitVec 32) : IVec S16 32 := addi (c2d t) (perm s)

theorem colv_eq (t : Fin 64) (x : S16.Idx) : (colv t.val x).toNat = 16 * (t.val / 4) + (x 0).val := by
  have hx : (x 0).val < 16 := (x 0).isLt
  have ht := t.isLt
  show (IntOp.addi (i0W t.val) (lanes x)).toNat = _
  unfold IntOp.addi
  rw [BitVec.toNat_add, i0W_eq, lane_eq]
  omega

theorem perm_eq (s : Fin 16) (x : S16.Idx) : (perm (BitVec.ofNat 32 s.val) x).toNat = ((x 0).val + s.val) % 16 := by
  have hx : (x 0).val < 16 := (x 0).isLt
  have hs := s.isLt
  show (IntOp.andi (IntOp.addi (lanes x) (BitVec.ofNat 32 s.val)) 15#32).toNat = _
  unfold IntOp.andi IntOp.addi
  rw [BitVec.toNat_and, BitVec.toNat_add, lane_eq, BitVec.toNat_ofNat,
    show (15#32 : BitVec 32).toNat = 2 ^ 4 - 1 from rfl, Nat.and_two_pow_sub_one_eq_mod]
  omega

theorem rowv_eq (t : Fin 64) (s : Fin 16) (x : S16.Idx) :
    (rowv t.val (BitVec.ofNat 32 s.val) x).toNat = 16 * (t.val % 4) + ((x 0).val + s.val) % 16 := by
  have ht := t.isLt
  show (IntOp.addi (d0W t.val) (perm (BitVec.ofNat 32 s.val) x)).toNat = _
  unfold IntOp.addi
  rw [BitVec.toNat_add, d0W_eq, perm_eq]
  omega

theorem r2_eq (t : Fin 64) (x : S16.Idx) : (r2 t.val x).toNat = (16 * (t.val / 4) + (x 0).val) / 2 := by
  show (IntOp.shrui .vector (colv t.val x) 1#32).toNat = _
  unfold IntOp.shrui
  rw [if_pos (by decide), BitVec.ushiftRight_eq', BitVec.toNat_ushiftRight, colv_eq]
  rfl

theorem c2d_eq (t : Fin 64) (x : S16.Idx) :
    (c2d t.val x).toNat = ((16 * (t.val / 4) + (x 0).val) % 2) * 64 + 16 * (t.val % 4) := by
  have ht := t.isLt
  show (IntOp.addi (IntOp.shli .vector (IntOp.andi (colv t.val x) 1#32) 6#32) (d0W t.val)).toNat = _
  unfold IntOp.addi IntOp.shli IntOp.andi
  rw [if_pos (by decide), BitVec.toNat_add, BitVec.shiftLeft_eq', BitVec.toNat_shiftLeft, BitVec.toNat_and, colv_eq, d0W_eq,
    show (1#32 : BitVec 32).toNat = 2 ^ 1 - 1 from rfl, Nat.and_two_pow_sub_one_eq_mod,
    show (6#32 : BitVec 32).toNat = 6 from rfl, Nat.shiftLeft_eq]
  omega

theorem wcol_eq (t : Fin 64) (s : Fin 16) (x : S16.Idx) :
    (wcol t.val (BitVec.ofNat 32 s.val) x).toNat
      = ((16 * (t.val / 4) + (x 0).val) % 2) * 64 + 16 * (t.val % 4) + ((x 0).val + s.val) % 16 := by
  have ht := t.isLt
  show (IntOp.addi (c2d t.val x) (perm (BitVec.ofNat 32 s.val) x)).toNat = _
  unfold IntOp.addi
  rw [BitVec.toNat_add, c2d_eq, perm_eq]
  omega

end Words

/-! ## What the sixteen steps of a trip leave, as a fact about the two arrays -/

section Pure

/-- Cell (dd, col) of a slab half goes to line col / 2, column (col mod 2)·64 + dd of the pair half. -/
def dstOf (dd : Fin 64) (col : Fin 256) : S128x128.Idx :=
  ix2 (⟨col.val / 2, by omega⟩ : Fin 128) (⟨(col.val % 2) * 64 + dd.val, by omega⟩ : Fin 128)

theorem dstOf_inj {dd dd' : Fin 64} {col col' : Fin 256} (h : dstOf dd col = dstOf dd' col') : dd = dd' ∧ col = col' := by
  have h0 : col.val / 2 = col'.val / 2 := congrArg (fun j : S128x128.Idx => (j 0).val) h
  have h1 : (col.val % 2) * 64 + dd.val = (col'.val % 2) * 64 + dd'.val := congrArg (fun j : S128x128.Idx => (j 1).val) h
  have := dd.isLt; have := dd'.isLt
  exact ⟨Fin.ext (by omega), Fin.ext (by omega)⟩

/-- The row and the column lane k takes in step s of trip t. -/
def rowOfStep (t : Fin 64) (s k : Fin 16) : Fin 64 := ⟨16 * (t.val % 4) + (k.val + s.val) % 16, by omega⟩
def colOfStep (t : Fin 64) (k : Fin 16) : Fin 256 := ⟨16 * (t.val / 4) + k.val, by have := t.isLt; omega⟩

/-- The blocks of the trips before t are in place. -/
def Done (t : Nat) (x : Vec F S64x256 .f32) (G : Vec F S128x128 .f32) : Prop :=
  ∀ (dd : Fin 64) (col : Fin 256), (col.val / 16) * 4 + dd.val / 16 < t → G (dstOf dd col) = x (ix2 dd col)

/-- The steps below n of trip t are in place. -/
def Steps (t : Fin 64) (n : Nat) (x : Vec F S64x256 .f32) (G : Vec F S128x128 .f32) : Prop :=
  ∀ (k s : Fin 16), s.val < n → G (dstOf (rowOfStep t s k) (colOfStep t k)) = x (ix2 (rowOfStep t s k) (colOfStep t k))

def Mid (t : Fin 64) (n : Nat) (x : Vec F S64x256 .f32) (G : Vec F S128x128 .f32) : Prop := Done t.val x G ∧ Steps t n x G

omit [FloatOps F] in
theorem Mid_zero {t : Fin 64} {x : Vec F S64x256 .f32} {G : Vec F S128x128 .f32} (h : Done t.val x G) : Mid t 0 x G :=
  ⟨h, fun _ s hs => absurd hs (Nat.not_lt_zero _)⟩

omit [FloatOps F] in
theorem Done_succ {t : Fin 64} {x : Vec F S64x256 .f32} {G : Vec F S128x128 .f32} (h : Mid t 16 x G) : Done (t.val + 1) x G := by
  intro dd col hlt
  have hd := dd.isLt; have hc := col.isLt; have ht := t.isLt
  by_cases hb : (col.val / 16) * 4 + dd.val / 16 < t.val
  · exact h.1 dd col hb
  · have e1 : col.val / 16 = t.val / 4 := by omega
    have e2 : dd.val / 16 = t.val % 4 := by omega
    have hk : col.val % 16 < 16 := Nat.mod_lt _ (by decide)
    have hs : (dd.val % 16 + 16 - col.val % 16) % 16 < 16 := Nat.mod_lt _ (by decide)
    have hr : rowOfStep t ⟨_, hs⟩ ⟨_, hk⟩ = dd := Fin.ext (by show 16 * (t.val % 4) + (col.val % 16 + (dd.val % 16 + 16 - col.val % 16) % 16) % 16 = dd.val; omega)
    have hcl : colOfStep t ⟨_, hk⟩ = col := Fin.ext (by show 16 * (t.val / 4) + col.val % 16 = col.val; omega)
    have := h.2 ⟨_, hk⟩ ⟨_, hs⟩ hs
    rw [hr, hcl] at this
    exact this

variable (t : Fin 64) (s : Fin 16)
variable (hl : ∀ a y, ((![rowv t.val (BitVec.ofNat 32 s.val), colv t.val] : Fin 2 → IVec S16 32) a y).toNat < S64x256.size a)
variable (hs : ∀ a y, ((![r2 t.val, wcol t.val (BitVec.ofNat 32 s.val)] : Fin 2 → IVec S16 32) a y).toNat < S128x128.size a)

omit [FloatOps F] in
/-- Where lane k writes in step s of trip t. -/
theorem wpos_eq (k : Fin 16) :
    idxAt ![r2 t.val, wcol t.val (BitVec.ofNat 32 s.val)] hs (Shape.ofLane (d := ![16]) k) = dstOf (rowOfStep t s k) (colOfStep t k) := by
  funext a
  match a with
  | ⟨0, _⟩ => exact Fin.ext (by
      show (r2 t.val (Shape.ofLane (d := ![16]) k)).toNat = (16 * (t.val / 4) + k.val) / 2
      rw [r2_eq]; rfl)
  | ⟨1, _⟩ => exact Fin.ext (by
      show (wcol t.val (BitVec.ofNat 32 s.val) (Shape.ofLane (d := ![16]) k)).toNat
        = ((16 * (t.val / 4) + k.val) % 2) * 64 + (16 * (t.val % 4) + (k.val + s.val) % 16)
      rw [wcol_eq]
      show (16 * (t.val / 4) + k.val) % 2 * 64 + 16 * (t.val % 4) + (k.val + s.val) % 16 = _
      omega)

omit [FloatOps F] in
/-- Where lane k reads in step s of trip t. -/
theorem rpos_eq (k : Fin 16) :
    idxAt ![rowv t.val (BitVec.ofNat 32 s.val), colv t.val] hl (Shape.ofLane (d := ![16]) k) = ix2 (rowOfStep t s k) (colOfStep t k) := by
  funext a
  match a with
  | ⟨0, _⟩ => exact Fin.ext (by
      show (rowv t.val (BitVec.ofNat 32 s.val) (Shape.ofLane (d := ![16]) k)).toNat = 16 * (t.val % 4) + (k.val + s.val) % 16
      rw [rowv_eq]; rfl)
  | ⟨1, _⟩ => exact Fin.ext (by
      show (colv t.val (Shape.ofLane (d := ![16]) k)).toNat = 16 * (t.val / 4) + k.val
      rw [colv_eq]; rfl)

/-- One step: the sixteen words read along the diagonal land in sixteen cells of the block not written before. -/
theorem Mid_step (x : Vec F S64x256 .f32) (G : Vec F S128x128 .f32) (h : Mid t s.val x G) :
    Mid t (s.val + 1) x
      (storeIdx G ![r2 t.val, wcol t.val (BitVec.ofNat 32 s.val)]
        (loadIdx x ![rowv t.val (BitVec.ofNat 32 s.val), colv t.val] hl) (fun _ => 1#1) false hs) := by
  have ht := t.isLt
  constructor
  · intro dd col hlt
    rw [storeIdx_apply G _ _ hs (dstOf dd col) (G (dstOf dd col)) (fun k hk => by
      have hk := (wpos_eq t s hs k).symm.trans hk
      obtain ⟨e1, e2⟩ := dstOf_inj hk
      have h1 : dd.val = 16 * (t.val % 4) + (k.val + s.val) % 16 := congrArg Fin.val e1.symm
      have h2 : col.val = 16 * (t.val / 4) + k.val := congrArg Fin.val e2.symm
      have hk16 : k.val < 16 := k.isLt
      omega), ite_self]
    exact h.1 dd col hlt
  · intro k s' hs'
    rcases Nat.lt_succ_iff_lt_or_eq.mp hs' with hlt | heq
    · rw [storeIdx_apply G _ _ hs _ (G (dstOf (rowOfStep t s' k) (colOfStep t k))) (fun k' hk' => by
        have hk' := (wpos_eq t _ hs k').symm.trans hk'
        obtain ⟨e1, e2⟩ := dstOf_inj hk'
        have h1 : 16 * (t.val % 4) + (k'.val + s.val) % 16 = 16 * (t.val % 4) + (k.val + s'.val) % 16 := congrArg Fin.val e1
        have h2 : 16 * (t.val / 4) + k'.val = 16 * (t.val / 4) + k.val := congrArg Fin.val e2
        have := k.isLt; have hk16 : k'.val < 16 := k'.isLt; have := s.isLt; have := s'.isLt
        omega), ite_self]
      exact h.2 k s' hlt
    · have es : s' = s := Fin.ext heq
      subst es
      rw [storeIdx_apply G _ _ hs _ (x (ix2 (rowOfStep t s' k) (colOfStep t k))) (fun k' hk' => by
        have hk' := (wpos_eq t _ hs k').symm.trans hk'
        obtain ⟨e1, e2⟩ := dstOf_inj hk'
        have h2 : 16 * (t.val / 4) + k'.val = 16 * (t.val / 4) + k.val := congrArg Fin.val e2
        have ek : k' = k := Fin.ext (by omega)
        exact (congrArg x (rpos_eq t s' hl k')).trans (by rw [ek]))]
      exact if_pos ⟨k, wpos_eq t s' hs k⟩

end Pure

/-! ## Every index word of a trip is inside the half it addresses -/

section Bounds

theorem perm_le (s : BitVec 32) (x : S16.Idx) : (perm s x).toNat ≤ 15 := by
  show (IntOp.andi (IntOp.addi (lanes x) s) 15#32).toNat ≤ 15
  unfold IntOp.andi
  rw [BitVec.toNat_and]
  exact Nat.and_le_right

theorem colv_lt (t : Fin 64) (x : S16.Idx) : (colv t.val x).toNat < 256 := by
  have hx : (x 0).val < 16 := (x 0).isLt
  have ht := t.isLt
  rw [colv_eq]; omega

theorem rowv_lt (t : Fin 64) (s : BitVec 32) (x : S16.Idx) : (rowv t.val s x).toNat < 64 := by
  have ht := t.isLt
  have hp := perm_le s x
  show (IntOp.addi (d0W t.val) (perm s x)).toNat < 64
  unfold IntOp.addi
  rw [BitVec.toNat_add, d0W_eq]
  omega

theorem r2_lt (t : Fin 64) (x : S16.Idx) : (r2 t.val x).toNat < 128 := by
  have hx : (x 0).val < 16 := (x 0).isLt
  have ht := t.isLt
  rw [r2_eq]; omega

theorem wcol_lt (t : Fin 64) (s : BitVec 32) (x : S16.Idx) : (wcol t.val s x).toNat < 128 := by
  have ht := t.isLt
  have hp := perm_le s x
  show (IntOp.addi (c2d t.val x) (perm s x)).toNat < 128
  unfold IntOp.addi
  rw [BitVec.toNat_add, c2d_eq]
  omega

/-- An indexed read of a 64 x 256 half at (row, column) words that are inside it. -/
theorem chk_ld {r c : IVec S16 32} (hr : ∀ x, (r x).toNat < 64) (hc : ∀ x, (c x).toNat < 256) :
    ∀ a x, ((![r, c] : Fin 2 → IVec S16 32) a x).toNat < S64x256.size a := by
  intro a x
  match a with
  | ⟨0, _⟩ => exact hr x
  | ⟨1, _⟩ => exact hc x

/-- An indexed write of a 128 x 128 half at (line, column) words that are inside it. -/
theorem chk_st {p r : IVec S16 32} (hp : ∀ x, (p x).toNat < 128) (hr : ∀ x, (r x).toNat < 128) :
    ∀ a x, ((![p, r] : Fin 2 → IVec S16 32) a x).toNat < S128x128.size a := by
  intro a x
  match a with
  | ⟨0, _⟩ => exact hp x
  | ⟨1, _⟩ => exact hr x

end Bounds

/-- Discharges the in-range assumption of an indexed read or write of trip t (a term of Fin 64). -/
macro "chk0" t:term : tactic =>
  `(tactic| first
    | (intro _; refine chk_st ?_ ?_; exact fun x => r2_lt $t x; exact fun x => wcol_lt $t _ x)
    | (intro _; refine chk_ld ?_ ?_; exact fun x => rowv_lt $t _ x; exact fun x => colv_lt $t x))

/-! ## The arrays, as the kernel names them -/

abbrev tW : Memref sig .scVector .hbm S64x1000000 .f32 := Memref.whole main_v2_scv
abbrev lW : Memref sig .scVector .hbm S64x64 .f32 := Memref.whole main_v4_scv
abbrev pW : Memref sig .scVector .hbm S500000x128 .f32 := Memref.whole main_v5_scv
abbrev b0 : Memref sig .scVector .vmem S2x64x256 .f32 := Memref.whole cc0_scratch0
abbrev b1 : Memref sig .scVector .vmem S2x128x128 .f32 := Memref.whole cc0_scratch1
abbrev b2 : Memref sig .scVector .vmem S64x64 .f32 := Memref.whole cc0_scratch2
abbrev b3 : Memref sig .scVector .vmem S32x128 .f32 := Memref.whole cc0_scratch3
/-- The two halves of the slab scratch and of the pair scratch. -/
abbrev A0 : Memref sig .scVector .vmem S64x256 .f32 :=
  ((b0).slice (Rect.unit (s := S2x64x256) ![0, 0, 0] S1x64x256.size inb_S2x64x256_S1x64x256_0_0_0) (fun _ => rfl)).squeeze S64x256 squeezes_S1x64x256_S64x256
abbrev A1 : Memref sig .scVector .vmem S64x256 .f32 :=
  ((b0).slice (Rect.unit (s := S2x64x256) ![1, 0, 0] S1x64x256.size inb_S2x64x256_S1x64x256_1_0_0) (fun _ => rfl)).squeeze S64x256 squeezes_S1x64x256_S64x256
abbrev B0 : Memref sig .scVector .vmem S128x128 .f32 :=
  ((b1).slice (Rect.unit (s := S2x128x128) ![0, 0, 0] S1x128x128.size inb_S2x128x128_S1x128x128_0_0_0) (fun _ => rfl)).squeeze S128x128 squeezes_S1x128x128_S128x128
abbrev B1 : Memref sig .scVector .vmem S128x128 .f32 :=
  ((b1).slice (Rect.unit (s := S2x128x128) ![1, 0, 0] S1x128x128.size inb_S2x128x128_S1x128x128_1_0_0) (fun _ => rfl)).squeeze S128x128 squeezes_S1x128x128_S128x128

/-- The tile's thread. -/
abbrev thr (d : Dev nD) (L : grid0.Coords) : Thread nD τ := V d ((L 0).castLE hcore0) ((L 1).castLE hsub0)

/-- After j trips on half p the pair half holds, on the blocks done, the slab half two columns to a line:
    entry (col / 2, (col mod 2)·64 + dd) is entry (dd, col) of the slab half. -/
def TransposedUpTo (p : Fin 2) (j : Nat) (X : S2x64x256.Idx → F .f32) (Y : S2x128x128.Idx → F .f32) : Prop :=
  ∀ (dd : Fin 64) (col : Fin 256), (col.val / 16) * 4 + dd.val / 16 < j →
    Y (ix3 p (⟨col.val / 2, by omega⟩ : Fin 128) (⟨(col.val % 2) * 64 + dd.val, by have := dd.isLt; omega⟩ : Fin 128)) = X (ix3 p dd col)

def innerInv0 (d : Dev nD) (L : grid0.Coords) (X : Buf (Elt F) ((b0).view.loc (thr d L))) (j : Nat) (_ : PUnit) : sProp 𝕄 :=
  iprop(((A0).view.loc (thr d L) ↦[(A0).view.set]{fullShare} X)
    ∗ ∃ Y, ((B0).view.loc (thr d L) ↦[(B0).view.set]{fullShare} Y) ∗ ⌜TransposedUpTo 0 j X Y⌝)

def innerInv1 (d : Dev nD) (L : grid0.Coords) (X : Buf (Elt F) ((b0).view.loc (thr d L))) (j : Nat) (_ : PUnit) : sProp 𝕄 :=
  iprop(((A1).view.loc (thr d L) ↦[(A1).view.set]{fullShare} X)
    ∗ ∃ Y, ((B1).view.loc (thr d L) ↦[(B1).view.set]{fullShare} Y) ∗ ⌜TransposedUpTo 1 j X Y⌝)

omit [FloatOps F] in
theorem embA0 (dd : Fin 64) (col : Fin 256) : (A0).view.emb (ix2 dd col) = ix3 (0 : Fin 2) dd col := by
  show (Rect.unit (s := S2x64x256) ![0, 0, 0] S1x64x256.size inb_S2x64x256_S1x64x256_0_0_0).emb
    (Shape.reshapeEquiv (squeezes_S1x64x256_S64x256).numel_eq (ix2 dd col)) = _
  rw [reshapeEquiv_ix2_1ab]
  funext a
  match a with
  | ⟨0, _⟩ => exact Fin.ext (by rw [Rect.emb_apply]; show 0 + 1 * 0 = 0; rfl)
  | ⟨1, _⟩ => exact Fin.ext (by rw [Rect.emb_apply]; show 0 + 1 * dd.val = dd.val; omega)
  | ⟨2, _⟩ => exact Fin.ext (by rw [Rect.emb_apply]; show 0 + 1 * col.val = col.val; omega)
omit [FloatOps F] in
theorem embA1 (dd : Fin 64) (col : Fin 256) : (A1).view.emb (ix2 dd col) = ix3 (1 : Fin 2) dd col := by
  show (Rect.unit (s := S2x64x256) ![1, 0, 0] S1x64x256.size inb_S2x64x256_S1x64x256_1_0_0).emb
    (Shape.reshapeEquiv (squeezes_S1x64x256_S64x256).numel_eq (ix2 dd col)) = _
  rw [reshapeEquiv_ix2_1ab]
  funext a
  match a with
  | ⟨0, _⟩ => exact Fin.ext (by rw [Rect.emb_apply]; show 1 + 1 * 0 = 1; rfl)
  | ⟨1, _⟩ => exact Fin.ext (by rw [Rect.emb_apply]; show 0 + 1 * dd.val = dd.val; omega)
  | ⟨2, _⟩ => exact Fin.ext (by rw [Rect.emb_apply]; show 0 + 1 * col.val = col.val; omega)
omit [FloatOps F] in
theorem embB0 (a b : Fin 128) : (B0).view.emb (ix2 a b) = ix3 (0 : Fin 2) a b := by
  show (Rect.unit (s := S2x128x128) ![0, 0, 0] S1x128x128.size inb_S2x128x128_S1x128x128_0_0_0).emb
    (Shape.reshapeEquiv (squeezes_S1x128x128_S128x128).numel_eq (ix2 a b)) = _
  rw [reshapeEquiv_ix2_1ab]
  funext c
  match c with
  | ⟨0, _⟩ => exact Fin.ext (by rw [Rect.emb_apply]; show 0 + 1 * 0 = 0; rfl)
  | ⟨1, _⟩ => exact Fin.ext (by rw [Rect.emb_apply]; show 0 + 1 * a.val = a.val; omega)
  | ⟨2, _⟩ => exact Fin.ext (by rw [Rect.emb_apply]; show 0 + 1 * b.val = b.val; omega)
omit [FloatOps F] in
theorem embB1 (a b : Fin 128) : (B1).view.emb (ix2 a b) = ix3 (1 : Fin 2) a b := by
  show (Rect.unit (s := S2x128x128) ![1, 0, 0] S1x128x128.size inb_S2x128x128_S1x128x128_1_0_0).emb
    (Shape.reshapeEquiv (squeezes_S1x128x128_S128x128).numel_eq (ix2 a b)) = _
  rw [reshapeEquiv_ix2_1ab]
  funext c
  match c with
  | ⟨0, _⟩ => exact Fin.ext (by rw [Rect.emb_apply]; show 1 + 1 * 0 = 1; rfl)
  | ⟨1, _⟩ => exact Fin.ext (by rw [Rect.emb_apply]; show 0 + 1 * a.val = a.val; omega)
  | ⟨2, _⟩ => exact Fin.ext (by rw [Rect.emb_apply]; show 0 + 1 * b.val = b.val; omega)

omit [FloatOps F] in
/-- A slab half read through its memref is the slab scratch at that half. -/
theorem readA0 (d : Dev nD) (L : grid0.Coords) (X : Buf (Elt F) ((b0).view.loc (thr d L))) (dd : Fin 64) (col : Fin 256) :
    ((A0).access (.whole S64x256)).read (Elt F) X (ix2 dd col) = (X : S2x64x256.Idx → F .f32) (ix3 (0 : Fin 2) dd col) := by
  rw [read_access_whole', View.read_apply, embA0]; rfl
omit [FloatOps F] in
theorem readA1 (d : Dev nD) (L : grid0.Coords) (X : Buf (Elt F) ((b0).view.loc (thr d L))) (dd : Fin 64) (col : Fin 256) :
    ((A1).access (.whole S64x256)).read (Elt F) X (ix2 dd col) = (X : S2x64x256.Idx → F .f32) (ix3 (1 : Fin 2) dd col) := by
  rw [read_access_whole', View.read_apply, embA1]; rfl
omit [FloatOps F] in
theorem readB0 (d : Dev nD) (L : grid0.Coords) (Y : Buf (Elt F) ((b1).view.loc (thr d L))) (a b : Fin 128) :
    (B0).view.read (Elt F) Y (ix2 a b) = (Y : S2x128x128.Idx → F .f32) (ix3 (0 : Fin 2) a b) := by
  rw [View.read_apply, embB0]; rfl
omit [FloatOps F] in
theorem readB1 (d : Dev nD) (L : grid0.Coords) (Y : Buf (Elt F) ((b1).view.loc (thr d L))) (a b : Fin 128) :
    (B1).view.read (Elt F) Y (ix2 a b) = (Y : S2x128x128.Idx → F .f32) (ix3 (1 : Fin 2) a b) := by
  rw [View.read_apply, embB1]; rfl

/-! ## One trip of the transposing loop -/

section Trips

variable (d : Dev nD) (L : grid0.Coords)

omit [FloatOps F] in
theorem done_of_upTo0 (X : Buf (Elt F) ((b0).view.loc (thr d L))) (Y : Buf (Elt F) ((b1).view.loc (thr d L))) (n : Nat)
    (h : TransposedUpTo 0 n (X : S2x64x256.Idx → F .f32) (Y : S2x128x128.Idx → F .f32)) :
    Done n (((A0).access (.whole S64x256)).read (Elt F) X) ((B0).view.read (Elt F) Y) := by
  intro dd col hlt
  show (B0).view.read (Elt F) Y (ix2 _ _) = _
  rw [readB0 d L, readA0 d L]
  exact h dd col hlt
omit [FloatOps F] in
theorem upTo0_of_done (X : Buf (Elt F) ((b0).view.loc (thr d L))) (Y : Buf (Elt F) ((b1).view.loc (thr d L))) (n : Nat)
    (h : Done n (((A0).access (.whole S64x256)).read (Elt F) X) ((B0).view.read (Elt F) Y)) :
    TransposedUpTo 0 n (X : S2x64x256.Idx → F .f32) (Y : S2x128x128.Idx → F .f32) := by
  intro dd col hlt
  have := h dd col hlt
  rw [readA0 d L] at this
  rw [← this]
  exact (readB0 d L Y _ _).symm
omit [FloatOps F] in
theorem done_of_upTo1 (X : Buf (Elt F) ((b0).view.loc (thr d L))) (Y : Buf (Elt F) ((b1).view.loc (thr d L))) (n : Nat)
    (h : TransposedUpTo 1 n (X : S2x64x256.Idx → F .f32) (Y : S2x128x128.Idx → F .f32)) :
    Done n (((A1).access (.whole S64x256)).read (Elt F) X) ((B1).view.read (Elt F) Y) := by
  intro dd col hlt
  show (B1).view.read (Elt F) Y (ix2 _ _) = _
  rw [readB1 d L, readA1 d L]
  exact h dd col hlt
omit [FloatOps F] in
theorem upTo1_of_done (X : Buf (Elt F) ((b0).view.loc (thr d L))) (Y : Buf (Elt F) ((b1).view.loc (thr d L))) (n : Nat)
    (h : Done n (((A1).access (.whole S64x256)).read (Elt F) X) ((B1).view.read (Elt F) Y)) :
    TransposedUpTo 1 n (X : S2x64x256.Idx → F .f32) (Y : S2x128x128.Idx → F .f32) := by
  intro dd col hlt
  have := h dd col hlt
  rw [readA1 d L] at this
  rw [← this]
  exact (readB1 d L Y _ _).symm

set_option hygiene false in
/-- One step of a trip on the first halves: the indexed read of the slab half (held as HR), then the indexed write of
    the pair half (held as HT, its contents followed), each followed by the plain steps up to the next one. -/
macro "pair0" c:term:max t:term:max x:term:max n:num : tactic =>
  `(tactic| (
    iapply (wp_loadIdx_own (c := $c) (base := A0) (q := fullShare)) $$ HR
    iintro HR
    try sl_exec (disch := chk0 $t)
    iapply (wp_storeIdx_val (c := $c) (base := B0) (Mid $t $n $x) (Mid $t ($n + 1) $x)
      (fun G hG => Mid_step $t (⟨$n, by decide⟩ : Fin 16) _ _ $x G hG)) $$ HT
    iintro HT
    try sl_exec (disch := chk0 $t)))

set_option maxHeartbeats 4000000 in
theorem inner0_step (k : Fin k0_t1_loop.trips) (h6 : k0_cond6 L k = 1#1) (v1 : BitVec 32)
    (X : Buf (Elt F) ((b0).view.loc (thr d L))) (j : Fin k0_t2_loop.trips) (u : Unit) :
    innerInv0 d L X j.val u ⊢ wp frame (wpE (defs₀ (F := F)) 𝒱₀ (thr d L) none) Set.univ
      (k0_t2_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 v1
        (iota .scVector S16 32 [0] iota_S16_d0_w32_scVector) 0#32 1#32 k h6 j u)
      (innerInv0 d L X (j.val + 1)) := by
  obtain ⟨jv, hj⟩ := j
  unfold innerInv0 k0_t2_body
  iintro ⟨HR, %Y, HT, %hY⟩
  ihave HT := (held_val_intro (c := thr d L) (base := B0)
    (Mid (⟨jv, hj⟩ : Fin 64) 0 (((A0).access (.whole S64x256)).read (Elt F) X)) Y
    (Mid_zero (done_of_upTo0 d L X Y jv hY))) $$ HT
  sl_exec (disch := chk0 (⟨jv, hj⟩ : Fin 64))
  pair0 (thr d L) (⟨jv, hj⟩ : Fin 64) (((A0).access (.whole S64x256)).read (Elt F) X) 0
  pair0 (thr d L) (⟨jv, hj⟩ : Fin 64) (((A0).access (.whole S64x256)).read (Elt F) X) 1
  pair0 (thr d L) (⟨jv, hj⟩ : Fin 64) (((A0).access (.whole S64x256)).read (Elt F) X) 2
  pair0 (thr d L) (⟨jv, hj⟩ : Fin 64) (((A0).access (.whole S64x256)).read (Elt F) X) 3
  pair0 (thr d L) (⟨jv, hj⟩ : Fin 64) (((A0).access (.whole S64x256)).read (Elt F) X) 4
  pair0 (thr d L) (⟨jv, hj⟩ : Fin 64) (((A0).access (.whole S64x256)).read (Elt F) X) 5
  pair0 (thr d L) (⟨jv, hj⟩ : Fin 64) (((A0).access (.whole S64x256)).read (Elt F) X) 6
  pair0 (thr d L) (⟨jv, hj⟩ : Fin 64) (((A0).access (.whole S64x256)).read (Elt F) X) 7
  pair0 (thr d L) (⟨jv, hj⟩ : Fin 64) (((A0).access (.whole S64x256)).read (Elt F) X) 8
  pair0 (thr d L) (⟨jv, hj⟩ : Fin 64) (((A0).access (.whole S64x256)).read (Elt F) X) 9
  pair0 (thr d L) (⟨jv, hj⟩ : Fin 64) (((A0).access (.whole S64x256)).read (Elt F) X) 10
  pair0 (thr d L) (⟨jv, hj⟩ : Fin 64) (((A0).access (.whole S64x256)).read (Elt F) X) 11
  pair0 (thr d L) (⟨jv, hj⟩ : Fin 64) (((A0).access (.whole S64x256)).read (Elt F) X) 12
  pair0 (thr d L) (⟨jv, hj⟩ : Fin 64) (((A0).access (.whole S64x256)).read (Elt F) X) 13
  pair0 (thr d L) (⟨jv, hj⟩ : Fin 64) (((A0).access (.whole S64x256)).read (Elt F) X) 14
  pair0 (thr d L) (⟨jv, hj⟩ : Fin 64) (((A0).access (.whole S64x256)).read (Elt F) X) 15
  rw [wp_ret]
  imodintro
  icases HT with ⟨%Y', HT, %hY'⟩
  isplitl [HR]
  · iexact HR
  iexists Y'
  isplitl [HT]
  · iexact HT
  ipureintro
  exact upTo0_of_done d L X Y' (jv + 1) (Done_succ (t := (⟨jv, hj⟩ : Fin 64)) hY')

end Trips

section Trips1

variable (d : Dev nD) (L : grid0.Coords)

set_option hygiene false in
/-- One step of a trip on the second halves. -/
macro "pair1" c:term:max t:term:max x:term:max n:num : tactic =>
  `(tactic| (
    iapply (wp_loadIdx_own (c := $c) (base := A1) (q := fullShare)) $$ HR
    iintro HR
    try sl_exec (disch := chk0 $t)
    iapply (wp_storeIdx_val (c := $c) (base := B1) (Mid $t $n $x) (Mid $t ($n + 1) $x)
      (fun G hG => Mid_step $t (⟨$n, by decide⟩ : Fin 16) _ _ $x G hG)) $$ HT
    iintro HT
    try sl_exec (disch := chk0 $t)))

set_option maxHeartbeats 4000000 in
theorem inner1_step (k : Fin k0_t1_loop.trips) (h12 : k0_cond12 L k = 1#1)
    (X : Buf (Elt F) ((b0).view.loc (thr d L))) (j : Fin k0_t3_loop.trips) (u : Unit) :
    innerInv1 d L X j.val u ⊢ wp frame (wpE (defs₀ (F := F)) 𝒱₀ (thr d L) none) Set.univ
      (k0_t3_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1
        (iota .scVector S16 32 [0] iota_S16_d0_w32_scVector) k h12 j u)
      (innerInv1 d L X (j.val + 1)) := by
  obtain ⟨jv, hj⟩ := j
  unfold innerInv1 k0_t3_body
  iintro ⟨HR, %Y, HT, %hY⟩
  ihave HT := (held_val_intro (c := thr d L) (base := B1)
    (Mid (⟨jv, hj⟩ : Fin 64) 0 (((A1).access (.whole S64x256)).read (Elt F) X)) Y
    (Mid_zero (done_of_upTo1 d L X Y jv hY))) $$ HT
  sl_exec (disch := chk0 (⟨jv, hj⟩ : Fin 64))
  pair1 (thr d L) (⟨jv, hj⟩ : Fin 64) (((A1).access (.whole S64x256)).read (Elt F) X) 0
  pair1 (thr d L) (⟨jv, hj⟩ : Fin 64) (((A1).access (.whole S64x256)).read (Elt F) X) 1
  pair1 (thr d L) (⟨jv, hj⟩ : Fin 64) (((A1).access (.whole S64x256)).read (Elt F) X) 2
  pair1 (thr d L) (⟨jv, hj⟩ : Fin 64) (((A1).access (.whole S64x256)).read (Elt F) X) 3
  pair1 (thr d L) (⟨jv, hj⟩ : Fin 64) (((A1).access (.whole S64x256)).read (Elt F) X) 4
  pair1 (thr d L) (⟨jv, hj⟩ : Fin 64) (((A1).access (.whole S64x256)).read (Elt F) X) 5
  pair1 (thr d L) (⟨jv, hj⟩ : Fin 64) (((A1).access (.whole S64x256)).read (Elt F) X) 6
  pair1 (thr d L) (⟨jv, hj⟩ : Fin 64) (((A1).access (.whole S64x256)).read (Elt F) X) 7
  pair1 (thr d L) (⟨jv, hj⟩ : Fin 64) (((A1).access (.whole S64x256)).read (Elt F) X) 8
  pair1 (thr d L) (⟨jv, hj⟩ : Fin 64) (((A1).access (.whole S64x256)).read (Elt F) X) 9
  pair1 (thr d L) (⟨jv, hj⟩ : Fin 64) (((A1).access (.whole S64x256)).read (Elt F) X) 10
  pair1 (thr d L) (⟨jv, hj⟩ : Fin 64) (((A1).access (.whole S64x256)).read (Elt F) X) 11
  pair1 (thr d L) (⟨jv, hj⟩ : Fin 64) (((A1).access (.whole S64x256)).read (Elt F) X) 12
  pair1 (thr d L) (⟨jv, hj⟩ : Fin 64) (((A1).access (.whole S64x256)).read (Elt F) X) 13
  pair1 (thr d L) (⟨jv, hj⟩ : Fin 64) (((A1).access (.whole S64x256)).read (Elt F) X) 14
  pair1 (thr d L) (⟨jv, hj⟩ : Fin 64) (((A1).access (.whole S64x256)).read (Elt F) X) 15
  rw [wp_ret]
  imodintro
  icases HT with ⟨%Y', HT, %hY'⟩
  isplitl [HR]
  · iexact HR
  iexists Y'
  isplitl [HT]
  · iexact HT
  ipureintro
  exact upTo1_of_done d L X Y' (jv + 1) (Done_succ (t := (⟨jv, hj⟩ : Fin 64)) hY')

end Trips1

/-! ## The tail's trips: the last 64 rows of the table, two to a line

  Trip t of 16 moves the block q = 16·⌊t/2⌋ … + 15, jj = 16·(t mod 2) … + 15: lane x takes q = 16·⌊t/2⌋ + x and, in
  step s, jj = 16·(t mod 2) + ((x + s) mod 16); it reads the tail scratch at (q mod 64, 2·jj + q / 64) and writes the
  tail's pair lines at (jj, q). -/

section TailWords

def q0W (t : Nat) : BitVec 32 :=
  let arg13 : BitVec 32 := Scf.iv 0#32 1#32 t
  let v24 : BitVec 32 := Scalar.divsi arg13 2#32
  let v25 : BitVec 1 := Scalar.cmpi .sgt arg13 0#32
  let v26 : BitVec 32 := Scalar.extui v25
  let v27 : BitVec 1 := Scalar.cmpi .slt arg13 0#32
  let v28 : BitVec 32 := Scalar.extui v27
  let v29 : BitVec 32 := Scalar.subi v26 v28
  let v30 : BitVec 1 := Scalar.cmpi .sgt 2#32 0#32
  let v31 : BitVec 32 := Scalar.extui v30
  let v32 : BitVec 1 := Scalar.cmpi .slt 2#32 0#32
  let v33 : BitVec 32 := Scalar.extui v32
  let v34 : BitVec 32 := Scalar.subi v31 v33
  let v35 : BitVec 1 := Scalar.cmpi .ne v29 v34
  let v36 : BitVec 32 := Scalar.remsi arg13 2#32
  let v37 : BitVec 1 := Scalar.cmpi .ne v36 0#32
  let v38 : BitVec 1 := Scalar.andi v35 v37
  let v39 : BitVec 32 := Scalar.subi v24 1#32
  let v40 : BitVec 32 := Scalar.select v38 v39 v24
  Scalar.muli v40 16#32

def j0W (t : Nat) : BitVec 32 :=
  let arg13 : BitVec 32 := Scf.iv 0#32 1#32 t
  let v42 : BitVec 1 := Scalar.cmpi .eq 2#32 0#32
  let v43 : BitVec 32 := Scalar.select v42 1#32 2#32
  let v44 : BitVec 32 := Scalar.remsi arg13 v43
  let v45 : BitVec 1 := Scalar.cmpi .ne v44 0#32
  let v46 : BitVec 1 := Scalar.cmpi .slt v44 0#32
  let v47 : BitVec 1 := Scalar.cmpi .slt v43 0#32
  let v48 : BitVec 1 := Scalar.xori v46 v47
  let v49 : BitVec 1 := Scalar.andi v48 v45
  let v50 : BitVec 32 := Scalar.addi v44 v43
  let v51 : BitVec 32 := Scalar.select v49 v50 v44
  Scalar.muli v51 16#32

theorem q0W_eq : ∀ t : Fin 16, (q0W t.val).toNat = 16 * (t.val / 2) := by decide +kernel
theorem j0W_eq : ∀ t : Fin 16, (j0W t.val).toNat = 16 * (t.val % 2) := by decide +kernel

/-- The entry of a line a lane takes in trip t. -/
def qv (t : Nat) : IVec S16 32 := addi (broadcast S16 (q0W t)) lanes
/-- The row of the tail scratch a lane reads in trip t. -/
def trow (t : Nat) : IVec S16 32 := andi (qv t) (broadcast S16 63#32)
/-- Which of a line's two rows a lane's entry belongs to. -/
def hpv (t : Nat) : IVec S16 32 := shrui (qv t) (broadcast S16 6#32)
/-- The line a lane writes in step s of trip t. -/
def jjv (t : Nat) (s : BitVec 32) : IVec S16 32 := addi (broadcast S16 (j0W t)) (perm s)
/-- The column of the tail scratch a lane reads in step s of trip t. -/
def tcol (t : Nat) (s : BitVec 32) : IVec S16 32 := addi (muli (jjv t s) (broadcast S16 2#32)) (hpv t)

theorem qv_eq (t : Fin 16) (x : S16.Idx) : (qv t.val x).toNat = 16 * (t.val / 2) + (x 0).val := by
  have hx : (x 0).val < 16 := (x 0).isLt
  have ht := t.isLt
  show (IntOp.addi (q0W t.val) (lanes x)).toNat = _
  unfold IntOp.addi
  rw [BitVec.toNat_add, q0W_eq, lane_eq]
  omega

theorem trow_eq (t : Fin 16) (x : S16.Idx) : (trow t.val x).toNat = (16 * (t.val / 2) + (x 0).val) % 64 := by
  show (IntOp.andi (qv t.val x) 63#32).toNat = _
  unfold IntOp.andi
  rw [BitVec.toNat_and, qv_eq, show (63#32 : BitVec 32).toNat = 2 ^ 6 - 1 from rfl, Nat.and_two_pow_sub_one_eq_mod]

theorem hpv_eq (t : Fin 16) (x : S16.Idx) : (hpv t.val x).toNat = (16 * (t.val / 2) + (x 0).val) / 64 := by
  show (IntOp.shrui .vector (qv t.val x) 6#32).toNat = _
  unfold IntOp.shrui
  rw [if_pos (by decide), BitVec.ushiftRight_eq', BitVec.toNat_ushiftRight, qv_eq,
    show (6#32 : BitVec 32).toNat = 6 from rfl, Nat.shiftRight_eq_div_pow]

theorem jjv_eq (t : Fin 16) (s : Fin 16) (x : S16.Idx) :
    (jjv t.val (BitVec.ofNat 32 s.val) x).toNat = 16 * (t.val % 2) + ((x 0).val + s.val) % 16 := by
  have ht := t.isLt
  show (IntOp.addi (j0W t.val) (perm (BitVec.ofNat 32 s.val) x)).toNat = _
  unfold IntOp.addi
  rw [BitVec.toNat_add, j0W_eq, perm_eq]
  omega

theorem jjv_lt (t : Fin 16) (s : BitVec 32) (x : S16.Idx) : (jjv t.val s x).toNat < 32 := by
  have ht := t.isLt
  have hp := perm_le s x
  show (IntOp.addi (j0W t.val) (perm s x)).toNat < 32
  unfold IntOp.addi
  rw [BitVec.toNat_add, j0W_eq]
  omega

theorem tcol_val (t : Fin 16) (s : BitVec 32) (x : S16.Idx) :
    (tcol t.val s x).toNat = 2 * (jjv t.val s x).toNat + (16 * (t.val / 2) + (x 0).val) / 64 := by
  have hx : (x 0).val < 16 := (x 0).isLt
  have ht := t.isLt
  have hj := jjv_lt t s x
  show (IntOp.addi (IntOp.muli (jjv t.val s x) 2#32) (hpv t.val x)).toNat = _
  unfold IntOp.addi IntOp.muli
  rw [BitVec.toNat_add, BitVec.toNat_mul, hpv_eq, show (2#32 : BitVec 32).toNat = 2 from rfl]
  omega

theorem qv_lt (t : Fin 16) (x : S16.Idx) : (qv t.val x).toNat < 128 := by
  have hx : (x 0).val < 16 := (x 0).isLt
  have ht := t.isLt
  rw [qv_eq]; omega
theorem trow_lt (t : Fin 16) (x : S16.Idx) : (trow t.val x).toNat < 64 := by
  rw [trow_eq]; exact Nat.mod_lt _ (by decide)
theorem tcol_lt (t : Fin 16) (s : BitVec 32) (x : S16.Idx) : (tcol t.val s x).toNat < 64 := by
  have hx : (x 0).val < 16 := (x 0).isLt
  have ht := t.isLt
  have hj := jjv_lt t s x
  rw [tcol_val]; omega

/-- An indexed read of the 64 x 64 tail scratch at words inside it. -/
theorem chk_tl {r c : IVec S16 32} (hr : ∀ x, (r x).toNat < 64) (hc : ∀ x, (c x).toNat < 64) :
    ∀ a x, ((![r, c] : Fin 2 → IVec S16 32) a x).toNat < S64x64.size a := by
  intro a x
  match a with
  | ⟨0, _⟩ => exact hr x
  | ⟨1, _⟩ => exact hc x
/-- An indexed write of the 32 x 128 tail pair lines at words inside them. -/
theorem chk_ts {p r : IVec S16 32} (hp : ∀ x, (p x).toNat < 32) (hr : ∀ x, (r x).toNat < 128) :
    ∀ a x, ((![p, r] : Fin 2 → IVec S16 32) a x).toNat < S32x128.size a := by
  intro a x
  match a with
  | ⟨0, _⟩ => exact hp x
  | ⟨1, _⟩ => exact hr x

end TailWords

/-- Discharges the in-range assumption of an indexed read or write of the tail's trip t (a term of Fin 16). -/
macro "chkT" t:term : tactic =>
  `(tactic| first
    | (intro _; refine chk_ts ?_ ?_; exact fun x => jjv_lt $t _ x; exact fun x => qv_lt $t x)
    | (intro _; refine chk_tl ?_ ?_; exact fun x => trow_lt $t x; exact fun x => tcol_lt $t _ x))

section TailPure

/-- Entry (jj, q) of the tail's pair lines comes from row q mod 64, column 2·jj + q / 64 of the tail scratch. -/
def srcOfT (jj : Fin 32) (q : Fin 128) : S64x64.Idx :=
  ix2 (⟨q.val % 64, Nat.mod_lt _ (by decide)⟩ : Fin 64) (⟨2 * jj.val + q.val / 64, by have := jj.isLt; have := q.isLt; omega⟩ : Fin 64)

def jjOfStep (t : Fin 16) (s k : Fin 16) : Fin 32 := ⟨16 * (t.val % 2) + (k.val + s.val) % 16, by omega⟩
def qOfStep (t : Fin 16) (k : Fin 16) : Fin 128 := ⟨16 * (t.val / 2) + k.val, by have := t.isLt; omega⟩

def TDone (t : Nat) (z : Vec F S64x64 .f32) (R : Vec F S32x128 .f32) : Prop :=
  ∀ (jj : Fin 32) (q : Fin 128), (q.val / 16) * 2 + jj.val / 16 < t → R (ix2 jj q) = z (srcOfT jj q)
def TSteps (t : Fin 16) (n : Nat) (z : Vec F S64x64 .f32) (R : Vec F S32x128 .f32) : Prop :=
  ∀ (k s : Fin 16), s.val < n → R (ix2 (jjOfStep t s k) (qOfStep t k)) = z (srcOfT (jjOfStep t s k) (qOfStep t k))
def TMid (t : Fin 16) (n : Nat) (z : Vec F S64x64 .f32) (R : Vec F S32x128 .f32) : Prop := TDone t.val z R ∧ TSteps t n z R

omit [FloatOps F] in
theorem TMid_zero {t : Fin 16} {z : Vec F S64x64 .f32} {R : Vec F S32x128 .f32} (h : TDone t.val z R) : TMid t 0 z R :=
  ⟨h, fun _ s hs => absurd hs (Nat.not_lt_zero _)⟩

omit [FloatOps F] in
theorem TDone_succ {t : Fin 16} {z : Vec F S64x64 .f32} {R : Vec F S32x128 .f32} (h : TMid t 16 z R) : TDone (t.val + 1) z R := by
  intro jj q hlt
  have hd := jj.isLt; have hc := q.isLt; have ht := t.isLt
  by_cases hb : (q.val / 16) * 2 + jj.val / 16 < t.val
  · exact h.1 jj q hb
  · have e1 : q.val / 16 = t.val / 2 := by omega
    have e2 : jj.val / 16 = t.val % 2 := by omega
    have hk : q.val % 16 < 16 := Nat.mod_lt _ (by decide)
    have hs : (jj.val % 16 + 16 - q.val % 16) % 16 < 16 := Nat.mod_lt _ (by decide)
    have hr : jjOfStep t ⟨_, hs⟩ ⟨_, hk⟩ = jj := Fin.ext (by show 16 * (t.val % 2) + (q.val % 16 + (jj.val % 16 + 16 - q.val % 16) % 16) % 16 = jj.val; omega)
    have hcl : qOfStep t ⟨_, hk⟩ = q := Fin.ext (by show 16 * (t.val / 2) + q.val % 16 = q.val; omega)
    have := h.2 ⟨_, hk⟩ ⟨_, hs⟩ hs
    rw [hr, hcl] at this
    exact this

omit [FloatOps F] in
theorem ix2_inj32 {a a' : Fin 32} {b b' : Fin 128} (h : (ix2 a b : S32x128.Idx) = ix2 a' b') : a = a' ∧ b = b' :=
  ⟨Fin.ext (congrArg (fun j : S32x128.Idx => (j 0).val) h), Fin.ext (congrArg (fun j : S32x128.Idx => (j 1).val) h)⟩

variable (t : Fin 16) (s : Fin 16)
variable (hl : ∀ a y, ((![trow t.val, tcol t.val (BitVec.ofNat 32 s.val)] : Fin 2 → IVec S16 32) a y).toNat < S64x64.size a)
variable (hs : ∀ a y, ((![jjv t.val (BitVec.ofNat 32 s.val), qv t.val] : Fin 2 → IVec S16 32) a y).toNat < S32x128.size a)

omit [FloatOps F] in
theorem twpos_eq (k : Fin 16) :
    idxAt ![jjv t.val (BitVec.ofNat 32 s.val), qv t.val] hs (Shape.ofLane (d := ![16]) k) = ix2 (jjOfStep t s k) (qOfStep t k) := by
  funext a
  match a with
  | ⟨0, _⟩ => exact Fin.ext (by
      show (jjv t.val (BitVec.ofNat 32 s.val) (Shape.ofLane (d := ![16]) k)).toNat = 16 * (t.val % 2) + (k.val + s.val) % 16
      rw [jjv_eq]; rfl)
  | ⟨1, _⟩ => exact Fin.ext (by
      show (qv t.val (Shape.ofLane (d := ![16]) k)).toNat = 16 * (t.val / 2) + k.val
      rw [qv_eq]; rfl)

omit [FloatOps F] in
theorem trpos_eq (k : Fin 16) :
    idxAt ![trow t.val, tcol t.val (BitVec.ofNat 32 s.val)] hl (Shape.ofLane (d := ![16]) k) = srcOfT (jjOfStep t s k) (qOfStep t k) := by
  funext a
  match a with
  | ⟨0, _⟩ => exact Fin.ext (by
      show (trow t.val (Shape.ofLane (d := ![16]) k)).toNat = (16 * (t.val / 2) + k.val) % 64
      rw [trow_eq]; rfl)
  | ⟨1, _⟩ => exact Fin.ext (by
      show (tcol t.val (BitVec.ofNat 32 s.val) (Shape.ofLane (d := ![16]) k)).toNat
        = 2 * (16 * (t.val % 2) + (k.val + s.val) % 16) + (16 * (t.val / 2) + k.val) / 64
      rw [tcol_val, jjv_eq]; rfl)

theorem TMid_step (z : Vec F S64x64 .f32) (R : Vec F S32x128 .f32) (h : TMid t s.val z R) :
    TMid t (s.val + 1) z
      (storeIdx R ![jjv t.val (BitVec.ofNat 32 s.val), qv t.val]
        (loadIdx z ![trow t.val, tcol t.val (BitVec.ofNat 32 s.val)] hl) (fun _ => 1#1) false hs) := by
  have ht := t.isLt
  constructor
  · intro jj q hlt
    rw [storeIdx_apply R _ _ hs (ix2 jj q) (R (ix2 jj q)) (fun k hk => by
      have hk := (twpos_eq t s hs k).symm.trans hk
      obtain ⟨e1, e2⟩ := ix2_inj32 hk
      have h1 : jj.val = 16 * (t.val % 2) + (k.val + s.val) % 16 := congrArg Fin.val e1.symm
      have h2 : q.val = 16 * (t.val / 2) + k.val := congrArg Fin.val e2.symm
      have hk16 : k.val < 16 := k.isLt
      omega), ite_self]
    exact h.1 jj q hlt
  · intro k s' hs'
    rcases Nat.lt_succ_iff_lt_or_eq.mp hs' with hlt | heq
    · rw [storeIdx_apply R _ _ hs _ (R (ix2 (jjOfStep t s' k) (qOfStep t k))) (fun k' hk' => by
        have hk' := (twpos_eq t _ hs k').symm.trans hk'
        obtain ⟨e1, e2⟩ := ix2_inj32 hk'
        have h1 : 16 * (t.val % 2) + (k'.val + s.val) % 16 = 16 * (t.val % 2) + (k.val + s'.val) % 16 := congrArg Fin.val e1
        have h2 : 16 * (t.val / 2) + k'.val = 16 * (t.val / 2) + k.val := congrArg Fin.val e2
        have := k.isLt; have hk16 : k'.val < 16 := k'.isLt; have := s.isLt; have := s'.isLt
        omega), ite_self]
      exact h.2 k s' hlt
    · have es : s' = s := Fin.ext heq
      subst es
      rw [storeIdx_apply R _ _ hs _ (z (srcOfT (jjOfStep t s' k) (qOfStep t k))) (fun k' hk' => by
        have hk' := (twpos_eq t _ hs k').symm.trans hk'
        obtain ⟨e1, e2⟩ := ix2_inj32 hk'
        have h2 : 16 * (t.val / 2) + k'.val = 16 * (t.val / 2) + k.val := congrArg Fin.val e2
        have ek : k' = k := Fin.ext (by omega)
        exact (congrArg z (trpos_eq t s' hl k')).trans (by rw [ek]))]
      exact if_pos ⟨k, twpos_eq t s' hs k⟩

end TailPure

section TripsT

variable (d : Dev nD) (L : grid0.Coords)

/-- After j trips the tail's pair lines hold, on the blocks done, the tail scratch two rows to a line. -/
def innerInvT (d : Dev nD) (L : grid0.Coords) (Z : Buf (Elt F) ((b2).view.loc (thr d L))) (j : Nat) (_ : PUnit) : sProp 𝕄 :=
  iprop(((b2).view.loc (thr d L) ↦{fullShare} Z)
    ∗ ∃ R, ((b3).view.loc (thr d L) ↦{fullShare} R)
      ∗ ⌜∀ (jj : Fin 32) (q : Fin 128), (q.val / 16) * 2 + jj.val / 16 < j →
          (R : S32x128.Idx → F .f32) (ix2 jj q)
            = (Z : S64x64.Idx → F .f32) (ix2 (⟨q.val % 64, Nat.mod_lt _ (by decide)⟩ : Fin 64)
                (⟨2 * jj.val + q.val / 64, by have := jj.isLt; have := q.isLt; omega⟩ : Fin 64))⌝)

omit [FloatOps F] in
theorem set_b2 : (b2).view.set = Finset.univ := (set_access_whole b2).symm.trans (Memref.set_access_whole _)
omit [FloatOps F] in
theorem set_b3 : (b3).view.set = Finset.univ := (set_access_whole b3).symm.trans (Memref.set_access_whole _)
omit [FloatOps F] in
theorem held_b2 (Z : Buf (Elt F) ((b2).view.loc (thr d L))) :
    ((b2).view.loc (thr d L) ↦{fullShare} Z : sProp 𝕄) = ((b2).view.loc (thr d L) ↦[(b2).view.set]{fullShare} Z) := by
  rw [set_b2]
omit [FloatOps F] in
theorem held_b3 (R : Buf (Elt F) ((b3).view.loc (thr d L))) :
    ((b3).view.loc (thr d L) ↦{fullShare} R : sProp 𝕄) = ((b3).view.loc (thr d L) ↦[(b3).view.set]{fullShare} R) := by
  rw [set_b3]
omit [FloatOps F] in
theorem read_b2 (Z : Buf (Elt F) ((b2).view.loc (thr d L))) : ((b2).access (.whole S64x64)).read (Elt F) Z = Z :=
  Memref.read_access_whole (Elt F) cc0_scratch2 Z
omit [FloatOps F] in
theorem read_b3 (R : Buf (Elt F) ((b3).view.loc (thr d L))) : (b3).view.read (Elt F) R = R :=
  (read_access_whole' (Elt F) b3 R).symm.trans (Memref.read_access_whole (Elt F) cc0_scratch3 R)

set_option hygiene false in
/-- One step of a tail trip. -/
macro "pairT" c:term:max t:term:max z:term:max n:num : tactic =>
  `(tactic| (
    iapply (wp_loadIdx_own (c := $c) (base := b2) (q := fullShare)) $$ HR
    iintro HR
    try sl_exec (disch := chkT $t)
    iapply (wp_storeIdx_val (c := $c) (base := b3) (TMid $t $n $z) (TMid $t ($n + 1) $z)
      (fun G hG => TMid_step $t (⟨$n, by decide⟩ : Fin 16) _ _ $z G hG)) $$ HT
    iintro HT
    try sl_exec (disch := chkT $t)))

set_option maxHeartbeats 4000000 in
theorem innerT_step (h17 : k0_cond17 L = 1#1) (Z : Buf (Elt F) ((b2).view.loc (thr d L)))
    (j : Fin k0_t4_loop.trips) (u : Unit) :
    innerInvT d L Z j.val u ⊢ wp frame (wpE (defs₀ (F := F)) 𝒱₀ (thr d L) none) Set.univ
      (k0_t4_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1
        (iota .scVector S16 32 [0] iota_S16_d0_w32_scVector) h17 j u)
      (innerInvT d L Z (j.val + 1)) := by
  obtain ⟨jv, hj⟩ := j
  unfold innerInvT k0_t4_body
  rw [held_b2 d L Z]
  iintro ⟨HR, %R, HT, %hR⟩
  ihave HT := (Entails.of_eq (held_b3 d L R)) $$ HT
  ihave HT := (held_val_intro (c := thr d L) (base := b3)
    (TMid (⟨jv, hj⟩ : Fin 16) 0 (((b2).access (.whole S64x64)).read (Elt F) Z)) R
    (TMid_zero (by rw [read_b2 d L Z, read_b3 d L R]; exact hR))) $$ HT
  sl_exec (disch := chkT (⟨jv, hj⟩ : Fin 16))
  pairT (thr d L) (⟨jv, hj⟩ : Fin 16) (((b2).access (.whole S64x64)).read (Elt F) Z) 0
  pairT (thr d L) (⟨jv, hj⟩ : Fin 16) (((b2).access (.whole S64x64)).read (Elt F) Z) 1
  pairT (thr d L) (⟨jv, hj⟩ : Fin 16) (((b2).access (.whole S64x64)).read (Elt F) Z) 2
  pairT (thr d L) (⟨jv, hj⟩ : Fin 16) (((b2).access (.whole S64x64)).read (Elt F) Z) 3
  pairT (thr d L) (⟨jv, hj⟩ : Fin 16) (((b2).access (.whole S64x64)).read (Elt F) Z) 4
  pairT (thr d L) (⟨jv, hj⟩ : Fin 16) (((b2).access (.whole S64x64)).read (Elt F) Z) 5
  pairT (thr d L) (⟨jv, hj⟩ : Fin 16) (((b2).access (.whole S64x64)).read (Elt F) Z) 6
  pairT (thr d L) (⟨jv, hj⟩ : Fin 16) (((b2).access (.whole S64x64)).read (Elt F) Z) 7
  pairT (thr d L) (⟨jv, hj⟩ : Fin 16) (((b2).access (.whole S64x64)).read (Elt F) Z) 8
  pairT (thr d L) (⟨jv, hj⟩ : Fin 16) (((b2).access (.whole S64x64)).read (Elt F) Z) 9
  pairT (thr d L) (⟨jv, hj⟩ : Fin 16) (((b2).access (.whole S64x64)).read (Elt F) Z) 10
  pairT (thr d L) (⟨jv, hj⟩ : Fin 16) (((b2).access (.whole S64x64)).read (Elt F) Z) 11
  pairT (thr d L) (⟨jv, hj⟩ : Fin 16) (((b2).access (.whole S64x64)).read (Elt F) Z) 12
  pairT (thr d L) (⟨jv, hj⟩ : Fin 16) (((b2).access (.whole S64x64)).read (Elt F) Z) 13
  pairT (thr d L) (⟨jv, hj⟩ : Fin 16) (((b2).access (.whole S64x64)).read (Elt F) Z) 14
  pairT (thr d L) (⟨jv, hj⟩ : Fin 16) (((b2).access (.whole S64x64)).read (Elt F) Z) 15
  rw [wp_ret]
  imodintro
  icases HT with ⟨%R', HT, %hR'⟩
  isplitl [HR]
  · iexact HR
  iexists R'
  isplitl [HT]
  · iapply (Entails.of_eq (held_b3 d L R').symm); iexact HT
  ipureintro
  have hd := TDone_succ (t := (⟨jv, hj⟩ : Fin 16)) hR'
  rw [read_b2 d L Z, read_b3 d L R'] at hd
  exact hd

omit [FloatOps F] in
theorem trips2 : k0_t2_loop.trips = 64 := by decide
omit [FloatOps F] in
theorem trips3 : k0_t3_loop.trips = 64 := by decide
omit [FloatOps F] in
theorem trips4 : k0_t4_loop.trips = 16 := by decide

end TripsT

end Cert.Proof.KB.Body0Inner

end
-- ==== Proof.Body0TailVal_b.lean ====
/-
  The tail's pair lines hold the pair table's last 32 lines.

  The last 64 rows of the table are kept transposed: entry (d, k) of the tail is table[999936 + k, d]. Entry
  (jj, q) of the tail's pair lines is entry (q mod 64, 2·jj + q / 64) of the tail, that is
  table[999936 + 2·jj + q / 64, q mod 64] = table[2·(499968 + jj) + q / 64, q mod 64]: entry (499968 + jj, q) of
  the pair table.
-/
import proofs.«204055_g19524921328135_cont_8to1_763_20_alg».proof.Proof.Spec
import Idealize.ShloMosaic.Lib.ValueIdx

namespace Cert.Proof.KB.Body0TailVal

open Idealize.ShloMosaic Idealize.ShloMosaic.ValueIdx Cert.Lookup

theorem tail_pairs {α : Type} (TAB : STab.Idx → α) (Z : (⟨2, ![64, 64]⟩ : Shape).Idx → α) (R : (⟨2, ![32, 128]⟩ : Shape).Idx → α)
    (hZ : ∀ (r c : Fin 64), Z (ix2 r c) = tailT TAB (ix2 r c))
    (hR : ∀ (jj : Fin 32) (q : Fin 128), R (ix2 jj q) = Z (ix2 (⟨q.val % 64, by omega⟩ : Fin 64)
      (⟨2 * jj.val + q.val / 64, by have := jj.isLt; have := q.isLt; omega⟩ : Fin 64)))
    (jj : Fin 32) (q : Fin 128) :
    R (ix2 jj q) = pairs TAB (ix2 (⟨499968 + jj.val, by have := jj.isLt; omega⟩ : Fin 500000) q) := by
  have hj := jj.isLt
  have hq := q.isLt
  rw [hR, hZ]
  unfold tailT pairs
  refine congrArg TAB ?_
  funext a
  match a with
  | ⟨0, _⟩ => exact Fin.ext (by show 999936 + (2 * jj.val + q.val / 64) = 2 * (499968 + jj.val) + q.val / 64; omega)
  | ⟨1, _⟩ => exact Fin.ext (by show q.val % 64 = q.val % 64; rfl)

end Cert.Proof.KB.Body0TailVal
-- ==== Proof.Body0_b.lean ====
/-
  The repacking kernel on one vector subcore.

  Tile w = 2·s + c of the thirty-two handles the 256-column slabs number w + 32·t of the transposed
  table (t = 0, 1, …: those below 3906), two at a time: slab t is copied into half t % 2 of a
  64 × 256 scratch, transposed there two columns to a line into half t % 2 of a 128 × 128 scratch
  (line r, entry h·64 + d, is entry (d, 2r + h) of the slab), and that half is copied out to lines
  128·(w + 32·t) … of the pair table. The copy in of slab t + 2 is issued as soon as slab t is
  transposed, the copy out of slab t is awaited before half t % 2 is written again, or after the
  last trip. Tile 0 then repacks the table's last 64 rows from their transposed copy the same way
  into the pair table's last 32 lines.

  The loop over the trips is run by its invariant. Before trip g: for each half p, the copy in of
  slab 2g + p is in flight if that slab exists (else the half and its semaphore are free), the copy
  out of slab 2g + p − 2 is in flight if g > 0 and it exists; the slabs of the pair table below
  2g − 2 hold the pair table's entries, those from 2g on are still owned unwritten.
-/
import proofs.«204055_g19524921328135_cont_8to1_763_20_alg».proof.Proof.Tiles_b
import proofs.«204055_g19524921328135_cont_8to1_763_20_alg».proof.Proof.HostSide_b
import Idealize.ShloMosaic.Lib.Ring
import Idealize.ShloMosaic.Lib.ValueLayout
import proofs.«204055_g19524921328135_cont_8to1_763_20_alg».proof.Proof.Body0Inner_b
import proofs.«204055_g19524921328135_cont_8to1_763_20_alg».proof.Proof.Body0TailVal_b

noncomputable section

namespace Cert.Proof.KB.Body0

open Cert.Kernel Cert.Kernel.Gen Cert.Proof.KB
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F]

scoped notation "tW" => (Memref.whole Cert.Kernel.main_v2_scv : Memref Cert.Kernel.sig Kind.scVector Space.hbm Cert.Kernel.S64x1000000 EltTy.f32)
scoped notation "lW" => (Memref.whole Cert.Kernel.main_v4_scv : Memref Cert.Kernel.sig Kind.scVector Space.hbm Cert.Kernel.S64x64 EltTy.f32)
scoped notation "pW" => (Memref.whole Cert.Kernel.main_v5_scv : Memref Cert.Kernel.sig Kind.scVector Space.hbm Cert.Kernel.S500000x128 EltTy.f32)
scoped notation "b0" => (Memref.whole Cert.Kernel.cc0_scratch0 : Memref Cert.Kernel.sig Kind.scVector Space.vmem Cert.Kernel.S2x64x256 EltTy.f32)
scoped notation "b1" => (Memref.whole Cert.Kernel.cc0_scratch1 : Memref Cert.Kernel.sig Kind.scVector Space.vmem Cert.Kernel.S2x128x128 EltTy.f32)
scoped notation "b2" => (Memref.whole Cert.Kernel.cc0_scratch2 : Memref Cert.Kernel.sig Kind.scVector Space.vmem Cert.Kernel.S64x64 EltTy.f32)
scoped notation "b3" => (Memref.whole Cert.Kernel.cc0_scratch3 : Memref Cert.Kernel.sig Kind.scVector Space.vmem Cert.Kernel.S32x128 EltTy.f32)

/-- The tile's SparseCore. -/
abbrev cV (L : grid0.Coords) : Fin τ.nSC := (L 0).castLE hcore0
/-- The tile's vector subcore. -/
abbrev jV (L : grid0.Coords) : Fin τ.nSub := (L 1).castLE hsub0
/-- The tile's thread. -/
abbrev thr (d : Dev nD) (L : grid0.Coords) : Thread nD τ := V d (cV L) (jV L)

/-- The two halves of the slab scratch and of the pair scratch, as the kernel names them. -/
abbrev A0 : Memref sig .scVector .vmem S64x256 .f32 :=
  ((b0).slice (Rect.unit (s := S2x64x256) ![0, 0, 0] S1x64x256.size inb_S2x64x256_S1x64x256_0_0_0) (fun _ => rfl)).squeeze S64x256 squeezes_S1x64x256_S64x256
abbrev A1 : Memref sig .scVector .vmem S64x256 .f32 :=
  ((b0).slice (Rect.unit (s := S2x64x256) ![1, 0, 0] S1x64x256.size inb_S2x64x256_S1x64x256_1_0_0) (fun _ => rfl)).squeeze S64x256 squeezes_S1x64x256_S64x256
abbrev B0 : Memref sig .scVector .vmem S128x128 .f32 :=
  ((b1).slice (Rect.unit (s := S2x128x128) ![0, 0, 0] S1x128x128.size inb_S2x128x128_S1x128x128_0_0_0) (fun _ => rfl)).squeeze S128x128 squeezes_S1x128x128_S128x128
abbrev B1 : Memref sig .scVector .vmem S128x128 .f32 :=
  ((b1).slice (Rect.unit (s := S2x128x128) ![1, 0, 0] S1x128x128.size inb_S2x128x128_S1x128x128_1_0_0) (fun _ => rfl)).squeeze S128x128 squeezes_S1x128x128_S128x128

/-! ## A two-slot scratch buffer is its two slots -/

def offA (p : Fin 2) : Fin 3 → Nat := ![p.val, 0, 0]
theorem offA_inb (p : Fin 2) : ∀ a, offA p a + S1x64x256.size a ≤ S2x64x256.size a := by
  intro a; fin_cases p <;> fin_cases a <;> decide
theorem offB_inb (p : Fin 2) : ∀ a, offA p a + S1x128x128.size a ≤ S2x128x128.size a := by
  intro a; fin_cases p <;> fin_cases a <;> decide
def JA (p : Fin 2) : Finset S2x64x256.Idx := (Rect.unit (s := S2x64x256) (offA p) S1x64x256.size (offA_inb p)).set
def JB (p : Fin 2) : Finset S2x128x128.Idx := (Rect.unit (s := S2x128x128) (offA p) S1x128x128.size (offB_inb p)).set

theorem JA_disj : ∀ s s', s ≠ s' → Disjoint (JA s) (JA s') :=
  Ring.lead_disjoint (s := S2x64x256) (NB := 2) 0 1 offA S1x64x256.size offA_inb (fun b => by simp [offA]) rfl
theorem JA_cover : Finset.univ.biUnion JA = Finset.univ :=
  Ring.lead_cover (s := S2x64x256) (NB := 2) 0 1 offA S1x64x256.size offA_inb (fun b => by simp [offA])
    (fun b a ha => by fin_cases a <;> first | exact absurd rfl ha | rfl) rfl
    (fun a ha => by fin_cases a <;> first | exact absurd rfl ha | rfl) rfl
theorem JB_disj : ∀ s s', s ≠ s' → Disjoint (JB s) (JB s') :=
  Ring.lead_disjoint (s := S2x128x128) (NB := 2) 0 1 offA S1x128x128.size offB_inb (fun b => by simp [offA]) rfl
theorem JB_cover : Finset.univ.biUnion JB = Finset.univ :=
  Ring.lead_cover (s := S2x128x128) (NB := 2) 0 1 offA S1x128x128.size offB_inb (fun b => by simp [offA])
    (fun b a ha => by fin_cases a <;> first | exact absurd rfl ha | rfl) rfl
    (fun a ha => by fin_cases a <;> first | exact absurd rfl ha | rfl) rfl

theorem A0_set : (A0).view.set = JA 0 := by
  simp only [Memref.view_squeeze, Memref.view_slice, Memref.view_whole, View.set_reshape, View.set_slice_whole]; rfl
theorem A1_set : (A1).view.set = JA 1 := by
  simp only [Memref.view_squeeze, Memref.view_slice, Memref.view_whole, View.set_reshape, View.set_slice_whole]; rfl
theorem B0_set : (B0).view.set = JB 0 := by
  simp only [Memref.view_squeeze, Memref.view_slice, Memref.view_whole, View.set_reshape, View.set_slice_whole]; rfl
theorem B1_set : (B1).view.set = JB 1 := by
  simp only [Memref.view_squeeze, Memref.view_slice, Memref.view_whole, View.set_reshape, View.set_slice_whole]; rfl

/-! ## The kernel's conditions, decided over every tile and trip -/

/-- The tile's number as the kernel computes it. -/
def v1Of (i : grid0.Coords) : BitVec 32 := Scalar.addi (Scalar.muli (BitVec.ofNat 32 (i 1).val) 2#32) (BitVec.ofNat 32 (i 0).val)
/-- The tile's number. -/
def wOf (i : grid0.Coords) : Nat := 2 * (i 1).val + (i 0).val

theorem cond1_true : ∀ i : grid0.Coords, k0_cond1 i = 1#1 := by decide +kernel
theorem cond2_true : ∀ i : grid0.Coords, k0_cond2 i = 1#1 := by decide +kernel
theorem cond6_iff : ∀ (i : grid0.Coords) (g : Fin k0_t1_loop.trips), k0_cond6 i g = 1#1 ↔ wOf i + 64 * g.val < 3906 := by decide +kernel
theorem cond7_iff : ∀ (i : grid0.Coords) (g : Fin k0_t1_loop.trips), k0_cond7 i g = 1#1 ↔ wOf i + 64 * g.val < 3906 := by decide +kernel
theorem cond8_iff : ∀ (i : grid0.Coords) (g : Fin k0_t1_loop.trips), k0_cond8 i g = 1#1 ↔ wOf i + 64 * g.val + 64 < 3906 := by decide +kernel
theorem cond12_iff : ∀ (i : grid0.Coords) (g : Fin k0_t1_loop.trips), k0_cond12 i g = 1#1 ↔ wOf i + 64 * g.val + 32 < 3906 := by decide +kernel
theorem cond13_iff : ∀ (i : grid0.Coords) (g : Fin k0_t1_loop.trips), k0_cond13 i g = 1#1 ↔ wOf i + 64 * g.val + 32 < 3906 := by decide +kernel
theorem cond14_iff : ∀ (i : grid0.Coords) (g : Fin k0_t1_loop.trips), k0_cond14 i g = 1#1 ↔ wOf i + 64 * g.val + 96 < 3906 := by decide +kernel
theorem cond17_iff : ∀ (i : grid0.Coords), k0_cond17 i = 1#1 ↔ wOf i = 0 := by decide +kernel
theorem trips_eq : k0_t1_loop.trips = 62 := by decide +kernel

/-! ### The conditions the kernel computes inline -/

/-- "This is not the first trip", as the kernel computes it. -/
def cG (k : Fin k0_t1_loop.trips) : BitVec 1 :=
  Scalar.cmpi .ne (Scalar.extui (Scalar.cmpi .sgt (Scf.iv 0#32 1#32 k) 0#32)) 0#32
/-- "Slab 2g + p exists", as the kernel computes it before the wait for its copy in. -/
def cIn0 (i : grid0.Coords) (k : Fin k0_t1_loop.trips) : BitVec 1 :=
  Scalar.cmpi .ne (Scalar.extui (Scalar.cmpi .slt (Scalar.addi (v1Of i) (Scalar.muli 32#32 (Scalar.addi (Scalar.muli (Scf.iv 0#32 1#32 k) 2#32) 0#32))) 3906#32)) 0#32
def cIn1 (i : grid0.Coords) (k : Fin k0_t1_loop.trips) : BitVec 1 :=
  Scalar.cmpi .ne (Scalar.extui (Scalar.cmpi .slt (Scalar.addi (v1Of i) (Scalar.muli 32#32 (Scalar.addi (Scalar.muli (Scf.iv 0#32 1#32 k) 2#32) 1#32))) 3906#32)) 0#32
/-- "Slab 2g + p − 2 exists", as the kernel computes it before the wait for its copy out. -/
def cOut0 (i : grid0.Coords) (k : Fin k0_t1_loop.trips) : BitVec 1 :=
  Scalar.cmpi .ne (Scalar.extui (Scalar.cmpi .slt (Scalar.addi (v1Of i) (Scalar.muli 32#32 (Scalar.subi (Scalar.addi (Scalar.muli (Scf.iv 0#32 1#32 k) 2#32) 0#32) 2#32))) 3906#32)) 0#32
def cOut1 (i : grid0.Coords) (k : Fin k0_t1_loop.trips) : BitVec 1 :=
  Scalar.cmpi .ne (Scalar.extui (Scalar.cmpi .slt (Scalar.addi (v1Of i) (Scalar.muli 32#32 (Scalar.subi (Scalar.addi (Scalar.muli (Scf.iv 0#32 1#32 k) 2#32) 1#32) 2#32))) 3906#32)) 0#32
/-- "Slab 122 exists" and "slab 123 exists", as the kernel computes them after the loop. -/
def cEnd0 (i : grid0.Coords) : BitVec 1 :=
  Scalar.cmpi .ne (Scalar.extui (Scalar.cmpi .slt (Scalar.addi (v1Of i) 3904#32) 3906#32)) 0#32
def cEnd1 (i : grid0.Coords) : BitVec 1 :=
  Scalar.cmpi .ne (Scalar.extui (Scalar.cmpi .slt (Scalar.addi (v1Of i) 3936#32) 3906#32)) 0#32

theorem cG_iff : ∀ k : Fin k0_t1_loop.trips, cG k = 1#1 ↔ 0 < k.val := by decide +kernel
theorem cIn0_iff : ∀ (i : grid0.Coords) (k : Fin k0_t1_loop.trips), cIn0 i k = 1#1 ↔ wOf i + 64 * k.val < 3906 := by decide +kernel
theorem cIn1_iff : ∀ (i : grid0.Coords) (k : Fin k0_t1_loop.trips), cIn1 i k = 1#1 ↔ wOf i + 64 * k.val + 32 < 3906 := by decide +kernel
theorem cOut0_true : ∀ (i : grid0.Coords) (k : Fin k0_t1_loop.trips), cOut0 i k = 1#1 := by decide +kernel
theorem cOut1_true : ∀ (i : grid0.Coords) (k : Fin k0_t1_loop.trips), cOut1 i k = 1#1 := by decide +kernel
theorem cEnd0_iff : ∀ (i : grid0.Coords), cEnd0 i = 1#1 ↔ wOf i < 2 := by decide +kernel
theorem cEnd1_false : ∀ (i : grid0.Coords), ¬ cEnd1 i = 1#1 := by decide +kernel
theorem wOf_lt : ∀ (i : grid0.Coords), wOf i < 32 := by decide +kernel

section Split
variable (d : Dev nD) (L : grid0.Coords)

/-- The slab scratch held whole is its two halves, each at some contents. -/
theorem splitA :
    (iprop(∃ f, (b0).view.loc (thr d L) ↦{fullShare} f) : sProp 𝕄)
      ⊢ iprop((∃ f, (b0).view.loc (thr d L) ↦[(A0).view.set]{fullShare} f) ∗ ∃ f, (b0).view.loc (thr d L) ↦[(A1).view.set]{fullShare} f) :=
  Ring.slots2_split (ℓ := (b0).view.loc (thr d L)) JA JA_disj JA_cover _ _ (fun f => by rw [A0_set]) (fun f => by rw [A1_set])
/-- The pair scratch held whole is its two halves, each at some contents. -/
theorem splitB :
    (iprop(∃ f, (b1).view.loc (thr d L) ↦{fullShare} f) : sProp 𝕄)
      ⊢ iprop((∃ f, (b1).view.loc (thr d L) ↦[(B0).view.set]{fullShare} f) ∗ ∃ f, (b1).view.loc (thr d L) ↦[(B1).view.set]{fullShare} f) :=
  Ring.slots2_split (ℓ := (b1).view.loc (thr d L)) JB JB_disj JB_cover _ _ (fun f => by rw [B0_set]) (fun f => by rw [B1_set])
/-- The two halves of the slab scratch, each at some contents, are the scratch held whole. -/
theorem joinA :
    (iprop((∃ f, (b0).view.loc (thr d L) ↦[(A0).view.set]{fullShare} f) ∗ ∃ f, (b0).view.loc (thr d L) ↦[(A1).view.set]{fullShare} f) : sProp 𝕄)
      ⊢ iprop(∃ f, (b0).view.loc (thr d L) ↦{fullShare} f) :=
  Ring.slots2_join (ℓ := (b0).view.loc (thr d L)) JA JA_disj JA_cover _ _ (fun f => by rw [A0_set]) (fun f => by rw [A1_set])
/-- The two halves of the pair scratch, each at some contents, are the scratch held whole. -/
theorem joinB :
    (iprop((∃ f, (b1).view.loc (thr d L) ↦[(B0).view.set]{fullShare} f) ∗ ∃ f, (b1).view.loc (thr d L) ↦[(B1).view.set]{fullShare} f) : sProp 𝕄)
      ⊢ iprop(∃ f, (b1).view.loc (thr d L) ↦{fullShare} f) :=
  Ring.slots2_join (ℓ := (b1).view.loc (thr d L)) JB JB_disj JB_cover _ _ (fun f => by rw [B0_set]) (fun f => by rw [B1_set])
end Split

/-! ## The invariant's parts -/

section Inv
variable (m : (ℓ : Loc nD τ sig) → Buf (Elt F) ℓ) (d : Dev nD) (L : grid0.Coords)

/-- The transposed table and the pair table of the launch contents, at the tile's view of the arrays. -/
abbrev TT : Buf (Elt F) ((tW).view.loc (thr d L)) := (Cert.Lookup.tabT (Tiles.TAB m d) : Buf (Elt F) (Tiles.tabTLoc d))
abbrev PP : Buf (Elt F) ((pW).view.loc (thr d L)) := (Cert.Lookup.pairs (Tiles.TAB m d) : Buf (Elt F) (Tiles.pairsLoc d))

/-- Slab `cc` of the pair table at the pair table's entries, and at some contents. -/
def slabDone (cc : Fin 3906) : sProp 𝕄 :=
  Tiles.pairsLoc d ↦[Tiles.pairSet cc]{fullShare} (Cert.Lookup.pairs (Tiles.TAB m d) : Buf (Elt F) (Tiles.pairsLoc d))
def slabPend (cc : Fin 3906) : sProp 𝕄 := iprop(∃ f, Tiles.pairsLoc d ↦[Tiles.pairSet cc]{fullShare} f)

/-- Slab number `t` of the tile when the slabs below `a` are written and those from `b` on unwritten
    (those between are out of hand: their copies out are in flight). -/
def ent (a b : Nat) (t : Fin 123) : sProp 𝕄 :=
  if h : wOf L + 32 * t.val < 3906 then
    (if t.val < a then slabDone m d ⟨wOf L + 32 * t.val, h⟩ else if b ≤ t.val then slabPend (F := F) d ⟨wOf L + 32 * t.val, h⟩ else iprop(emp))
  else iprop(emp)
/-- The tile's slabs. -/
def Pend (a b : Nat) : sProp 𝕄 := bigSep (Finset.univ : Finset (Fin 123)) (ent m d L a b)

/-- Slab `a`, written, joins the written ones. -/
theorem Pend_put (a b : Nat) (hab : a < b) (ha : a < 123) :
    iprop((if h : wOf L + 32 * a < 3906 then slabDone m d ⟨wOf L + 32 * a, h⟩ else iprop(emp)) ∗ Pend m d L a b) ⊢ Pend m d L (a + 1) b := by
  have e1 : ∀ t ∈ (Finset.univ : Finset (Fin 123)).erase ⟨a, ha⟩, ent m d L a b t = ent m d L (a + 1) b t := by
    intro t ht
    have hne : t.val ≠ a := fun e => (Finset.ne_of_mem_erase ht) (Fin.ext e)
    unfold ent
    have h1 : (t.val < a) ↔ (t.val < a + 1) := by omega
    simp only [h1]
  unfold Pend
  rw [BI.bigSep_erase (Φ := ent m d L a b) (Finset.mem_univ (⟨a, ha⟩ : Fin 123)),
    BI.bigSep_erase (Φ := ent m d L (a + 1) b) (Finset.mem_univ (⟨a, ha⟩ : Fin 123)), BI.bigSep_congr e1]
  have hE : ent m d L a b ⟨a, ha⟩ = iprop(emp) := by
    unfold ent
    by_cases h : wOf L + 32 * a < 3906
    · simp only [dif_pos h, Nat.lt_irrefl, if_false, show ¬ (b ≤ a) by omega]
    · simp only [dif_neg h]
  have hX : ent m d L (a + 1) b ⟨a, ha⟩ = (if h : wOf L + 32 * a < 3906 then slabDone m d ⟨wOf L + 32 * a, h⟩ else iprop(emp)) := by
    unfold ent
    simp only [Nat.lt_succ_self, if_true]
  rw [hE, hX]
  exact BI.sep_mono (Idealize.SL.BI.Entails.refl _) BI.emp_sep.1

/-- Slab `b`, unwritten, is taken out of the unwritten ones. -/
theorem Pend_take (a b : Nat) (hab : a ≤ b) (hb : b < 123) :
    Pend m d L a b ⊢ iprop((if h : wOf L + 32 * b < 3906 then slabPend (F := F) d ⟨wOf L + 32 * b, h⟩ else iprop(emp)) ∗ Pend m d L a (b + 1)) := by
  have e1 : ∀ t ∈ (Finset.univ : Finset (Fin 123)).erase ⟨b, hb⟩, ent m d L a b t = ent m d L a (b + 1) t := by
    intro t ht
    have hne : t.val ≠ b := fun e => (Finset.ne_of_mem_erase ht) (Fin.ext e)
    unfold ent
    have h1 : (b ≤ t.val) ↔ (b + 1 ≤ t.val) := by omega
    simp only [h1]
  unfold Pend
  rw [BI.bigSep_erase (Φ := ent m d L a b) (Finset.mem_univ (⟨b, hb⟩ : Fin 123)),
    BI.bigSep_erase (Φ := ent m d L a (b + 1)) (Finset.mem_univ (⟨b, hb⟩ : Fin 123)), BI.bigSep_congr e1]
  have hE : ent m d L a (b + 1) ⟨b, hb⟩ = iprop(emp) := by
    unfold ent
    by_cases h : wOf L + 32 * b < 3906
    · simp only [dif_pos h, show ¬ (b < a) by omega, if_false, show ¬ (b + 1 ≤ b) by omega]
    · simp only [dif_neg h]
  have hX : ent m d L a b ⟨b, hb⟩ = (if h : wOf L + 32 * b < 3906 then slabPend (F := F) d ⟨wOf L + 32 * b, h⟩ else iprop(emp)) := by
    unfold ent
    simp only [show ¬ (b < a) by omega, if_false, Nat.le_refl, if_true]
  rw [hE, hX]
  exact BI.sep_mono (Idealize.SL.BI.Entails.refl _) BI.emp_sep.2

/-- What the tile is handed: every slab unwritten. -/
theorem Pend_init :
    Tiles.slabOwn (F := F) (fun cc => iprop(∃ f, Tiles.pairsLoc d ↦[Tiles.pairSet cc]{fullShare} f)) (Tiles.c0Of L) (Tiles.s0Of L) = Pend m d L 0 0 := by
  unfold Tiles.slabOwn Pend
  refine BI.bigSep_congr fun t _ => ?_
  unfold ent slabPend
  show (if h : wOf L + 32 * t.val < 3906 then _ else _) = _
  simp only [Nat.not_lt_zero, if_false, Nat.zero_le, if_true]
  rfl

/-- What the tile hands back: every slab written. -/
theorem Pend_exit (b : Nat) :
    Pend m d L 123 b = Tiles.slabOwn (F := F) (fun cc => Tiles.pairsLoc d ↦[Tiles.pairSet cc]{fullShare} (Cert.Lookup.pairs (Tiles.TAB m d) : Buf (Elt F) (Tiles.pairsLoc d))) (Tiles.c0Of L) (Tiles.s0Of L) := by
  unfold Tiles.slabOwn Pend
  refine BI.bigSep_congr fun t _ => ?_
  unfold ent slabDone
  show _ = (if h : wOf L + 32 * t.val < 3906 then _ else _)
  simp only [t.isLt, if_true]
  rfl

end Inv

section Inv2
variable (m : (ℓ : Loc nD τ sig) → Buf (Elt F) ℓ) (d : Dev nD) (L : grid0.Coords)

/-- The two read shares of the transposed table the tile holds. -/
abbrev qL (L : grid0.Coords) : PosShare TreeShare := (Tiles.tileShare (Tiles.c0Of L) (Tiles.s0Of L)).left
abbrev qR (L : grid0.Coords) : PosShare TreeShare := (Tiles.tileShare (Tiles.c0Of L) (Tiles.s0Of L)).right

/-- Half `p` of the slab scratch holds slab `cc` of the transposed table: entry (d, col) is entry (d, 256·cc + col). -/
def SlabHolds (p : Fin 2) (cc : Nat) (X : Buf (Elt F) ((b0).view.loc (thr d L))) : Prop :=
  ∀ (dd : Fin 64) (col : Fin 256) (h : 256 * cc + col.val < 1000000),
    (X : S2x64x256.Idx → F .f32) (ix3 p dd col) = Cert.Lookup.tabT (Tiles.TAB m d) (ix2 dd (⟨256 * cc + col.val, h⟩ : Fin 1000000))

/-- Half `p` of the pair scratch holds slab `cc` of the pair table. -/
def PbHolds (p : Fin 2) (cc : Nat) (Y : Buf (Elt F) ((b1).view.loc (thr d L))) : Prop :=
  ∀ (r : Fin 128) (q : Fin 128) (h : 128 * cc + r.val < 500000),
    (Y : S2x128x128.Idx → F .f32) (ix3 p r q) = Cert.Lookup.pairs (Tiles.TAB m d) (ix2 (⟨128 * cc + r.val, h⟩ : Fin 500000) q)

/-- Half 0 of the slab scratch landed: it holds slab `cc` of the transposed table. -/
def InLanded0 (cc : Nat) : sProp 𝕄 :=
  iprop(∃ X, ((A0).view.loc (thr d L) ↦[(A0).view.set]{fullShare} X) ∗ ⌜SlabHolds m d L 0 cc X⌝)
/-- Half 0 before the wait for slab `t`'s copy in: in flight if the slab exists, else free. -/
def InSt0 (t : Nat) : sProp 𝕄 :=
  if wOf L + 32 * t < 3906 then
    iprop(∃ Wn, Transfers.Flight countersEmb (thr d L) (SemLoc.dma cc0_scratch4.sem) default 524288
        iprop(InLanded0 m d L (wOf L + 32 * t) ∗ ((tW).view.loc (thr d L) ↦[Wn]{qL L} TT m d L))
      ∗ ((tW).view.loc (thr d L) ↦[Finset.univ \ Wn]{qL L} TT m d L))
  else iprop((∃ X, (A0).view.loc (thr d L) ↦[(A0).view.set]{fullShare} X) ∗ semVal (thr d L, SemLoc.dma cc0_scratch4.sem) 0
      ∗ ((tW).view.loc (thr d L) ↦{qL L} TT m d L))
/-- Half 0 before the wait for slab `t − 2`'s copy out: in flight if there is such a slab, else free. -/
def OutSt0 (t : Nat) : sProp 𝕄 :=
  if h : 2 ≤ t ∧ wOf L + 32 * (t - 2) < 3906 then
    iprop(∃ Y, Transfers.Flight countersEmb (thr d L) (SemLoc.dma cc0_scratch6.sem) default 524288
        iprop(slabDone m d ⟨wOf L + 32 * (t - 2), h.2⟩ ∗ ((B0).view.loc (thr d L) ↦[(B0).view.set]{fullShare} Y)))
  else iprop((∃ Y, (B0).view.loc (thr d L) ↦[(B0).view.set]{fullShare} Y) ∗ semVal (thr d L, SemLoc.dma cc0_scratch6.sem) 0)

/-- Half 1 of the slab scratch landed: it holds slab `cc` of the transposed table. -/
def InLanded1 (cc : Nat) : sProp 𝕄 :=
  iprop(∃ X, ((A1).view.loc (thr d L) ↦[(A1).view.set]{fullShare} X) ∗ ⌜SlabHolds m d L 1 cc X⌝)
/-- Half 1 before the wait for slab `t`'s copy in: in flight if the slab exists, else free. -/
def InSt1 (t : Nat) : sProp 𝕄 :=
  if wOf L + 32 * t < 3906 then
    iprop(∃ Wn, Transfers.Flight countersEmb (thr d L) (SemLoc.dma cc0_scratch5.sem) default 524288
        iprop(InLanded1 m d L (wOf L + 32 * t) ∗ ((tW).view.loc (thr d L) ↦[Wn]{qR L} TT m d L))
      ∗ ((tW).view.loc (thr d L) ↦[Finset.univ \ Wn]{qR L} TT m d L))
  else iprop((∃ X, (A1).view.loc (thr d L) ↦[(A1).view.set]{fullShare} X) ∗ semVal (thr d L, SemLoc.dma cc0_scratch5.sem) 0
      ∗ ((tW).view.loc (thr d L) ↦{qR L} TT m d L))
/-- Half 1 before the wait for slab `t − 2`'s copy out: in flight if there is such a slab, else free. -/
def OutSt1 (t : Nat) : sProp 𝕄 :=
  if h : 2 ≤ t ∧ wOf L + 32 * (t - 2) < 3906 then
    iprop(∃ Y, Transfers.Flight countersEmb (thr d L) (SemLoc.dma cc0_scratch7.sem) default 524288
        iprop(slabDone m d ⟨wOf L + 32 * (t - 2), h.2⟩ ∗ ((B1).view.loc (thr d L) ↦[(B1).view.set]{fullShare} Y)))
  else iprop((∃ Y, (B1).view.loc (thr d L) ↦[(B1).view.set]{fullShare} Y) ∗ semVal (thr d L, SemLoc.dma cc0_scratch7.sem) 0)

/-- What the tile owes, up to waits of its own copies. -/
def OwesSt (O : CellTallies nD τ sig (HIx 2)) (W : Waits sig (HIx 2)) : sProp 𝕄 :=
  iprop(∃ W', ⌜∀ p ∈ W', p ∈ W ∨ p.2 = none⌝ ∗ owes (thr d L) O W')

/-- Before trip `g`. -/
def inv (O : CellTallies nD τ sig (HIx 2)) (W : Waits sig (HIx 2)) (g : Nat) (_ : PUnit) : sProp 𝕄 :=
  iprop(Transfers.MayWaits (thr d L) (none : HIx 2) O ∗ InSt0 m d L (2 * g) ∗ OutSt0 m d L (2 * g) ∗ InSt1 m d L (2 * g + 1) ∗ OutSt1 m d L (2 * g + 1)
    ∗ Pend m d L (2 * g - 2) (2 * g) ∗ OwesSt d L O W)
/-- In the middle of trip `g`: half 0 done. -/
def Mid (O : CellTallies nD τ sig (HIx 2)) (W : Waits sig (HIx 2)) (g : Nat) : sProp 𝕄 :=
  iprop(Transfers.MayWaits (thr d L) (none : HIx 2) O ∗ InSt0 m d L (2 * g + 2) ∗ OutSt0 m d L (2 * g + 2) ∗ InSt1 m d L (2 * g + 1) ∗ OutSt1 m d L (2 * g + 1)
    ∗ Pend m d L (2 * g - 1) (2 * g + 1) ∗ OwesSt d L O W)

/-- What the first half of trip `k` returns: the trip number, 2k + 1, and the words the second half tests. -/
def R0 (L : grid0.Coords) (k : Fin k0_t1_loop.trips) : Σ' (_ : BitVec 32) (_ : BitVec 32) (_ : BitVec 32), BitVec 32 :=
  ⟨Scf.iv 0#32 1#32 k, Scalar.addi (Scalar.muli (Scf.iv 0#32 1#32 k) 2#32) 1#32,
    Scalar.extui (Scalar.cmpi .slt (Scalar.addi (v1Of L) (Scalar.muli 32#32 (Scalar.addi (Scalar.muli (Scf.iv 0#32 1#32 k) 2#32) 1#32))) 3906#32), 0#32⟩

end Inv2

section Win
variable (m : (ℓ : Loc nD τ sig) → Buf (Elt F) ℓ) (d : Dev nD) (L : grid0.Coords)

theorem rect_unit_congr {s : Shape} {off off' : Fin s.rank → Nat} (h : off = off') (sz : Fin s.rank → Nat)
    (inb : ∀ a, off a + sz a ≤ s.size a) (inb' : ∀ a, off' a + sz a ≤ s.size a) :
    Rect.unit off sz inb = Rect.unit off' sz inb' := by subst h; rfl

/-- The windows of the pair table the two copies out of trip `k` write. -/
abbrev win3 (L : grid0.Coords) (k : Fin k0_t1_loop.trips) (h7 : k0_cond7 L k = 1#1) : Memref sig .scVector .hbm S128x128 .f32 :=
  (pW).slice (Rect.unit (s := S500000x128) (k0_off3 L k) S128x128.size (k0_off3_inb L k h7)) (fun _ => rfl)
abbrev win5 (L : grid0.Coords) (k : Fin k0_t1_loop.trips) (h13 : k0_cond13 L k = 1#1) : Memref sig .scVector .hbm S128x128 .f32 :=
  (pW).slice (Rect.unit (s := S500000x128) (k0_off5 L k) S128x128.size (k0_off5_inb L k h13)) (fun _ => rfl)

theorem off3_eq (k : Fin k0_t1_loop.trips) : k0_off3 L k = ![128 * (wOf L + 32 * (2 * k.val)), 0] := by
  rw [k0_off3_eq]; unfold wOf
  rw [show 256 * (L 1).val + 128 * (L 0).val + 8192 * k.val = 128 * (2 * (L 1).val + (L 0).val + 32 * (2 * k.val)) by omega]
theorem off5_eq (k : Fin k0_t1_loop.trips) : k0_off5 L k = ![128 * (wOf L + 32 * (2 * k.val + 1)), 0] := by
  rw [k0_off5_eq]; unfold wOf
  rw [show 256 * (L 1).val + 128 * (L 0).val + 8192 * k.val + 4096 = 128 * (2 * (L 1).val + (L 0).val + 32 * (2 * k.val + 1)) by omega]

theorem win3_set (k : Fin k0_t1_loop.trips) (h7 : k0_cond7 L k = 1#1) (hcc : wOf L + 32 * (2 * k.val) < 3906) :
    (win3 L k h7).view.set = Tiles.pairSet ⟨wOf L + 32 * (2 * k.val), hcc⟩ := by
  show ((pW).view.slice (Rect.unit (s := S500000x128) (k0_off3 L k) S128x128.size (k0_off3_inb L k h7))).set = ((pW).view.slice (Tiles.pairRect ⟨_, hcc⟩)).set
  rw [rect_unit_congr (s := S500000x128) (off3_eq L k) S128x128.size (k0_off3_inb L k h7) (Tiles.pairRect_inb ⟨_, hcc⟩)]
theorem win5_set (k : Fin k0_t1_loop.trips) (h13 : k0_cond13 L k = 1#1) (hcc : wOf L + 32 * (2 * k.val + 1) < 3906) :
    (win5 L k h13).view.set = Tiles.pairSet ⟨wOf L + 32 * (2 * k.val + 1), hcc⟩ := by
  show ((pW).view.slice (Rect.unit (s := S500000x128) (k0_off5 L k) S128x128.size (k0_off5_inb L k h13))).set = ((pW).view.slice (Tiles.pairRect ⟨_, hcc⟩)).set
  rw [rect_unit_congr (s := S500000x128) (off5_eq L k) S128x128.size (k0_off5_inb L k h13) (Tiles.pairRect_inb ⟨_, hcc⟩)]

/-- An unwritten slab, as the program's window spells it. -/
theorem pend_win3 (k : Fin k0_t1_loop.trips) (h7 : k0_cond7 L k = 1#1) (hcc : wOf L + 32 * (2 * k.val) < 3906) (fp : Buf (Elt F) (Tiles.pairsLoc d)) :
    (Tiles.pairsLoc d ↦[Tiles.pairSet ⟨wOf L + 32 * (2 * k.val), hcc⟩]{fullShare} fp : sProp 𝕄)
      = ((win3 L k h7).view.loc (thr d L) ↦[(win3 L k h7).view.set]{fullShare} fp) := by
  rw [win3_set L k h7 hcc]
theorem pend_win5 (k : Fin k0_t1_loop.trips) (h13 : k0_cond13 L k = 1#1) (hcc : wOf L + 32 * (2 * k.val + 1) < 3906) (fp : Buf (Elt F) (Tiles.pairsLoc d)) :
    (Tiles.pairsLoc d ↦[Tiles.pairSet ⟨wOf L + 32 * (2 * k.val + 1), hcc⟩]{fullShare} fp : sProp 𝕄)
      = ((win5 L k h13).view.loc (thr d L) ↦[(win5 L k h13).view.set]{fullShare} fp) := by
  rw [win5_set L k h13 hcc]
end Win

section Win2
variable (L : grid0.Coords)
/-- The offsets of the four copies in, in closed form over the slab's number. -/
theorem off1_eq' (cc : Nat) (h : cc = wOf L) : k0_off1 L = ![0, 256 * cc] := by
  subst h; rw [k0_off1_eq]; unfold wOf
  rw [show 512 * (L 1).val + 256 * (L 0).val = 256 * (2 * (L 1).val + (L 0).val) by omega]
theorem off2_eq' (cc : Nat) (h : cc = wOf L + 32) : k0_off2 L = ![0, 256 * cc] := by
  subst h; rw [k0_off2_eq]; unfold wOf
  rw [show 512 * (L 1).val + 256 * (L 0).val + 8192 = 256 * (2 * (L 1).val + (L 0).val + 32) by omega]
theorem off4_eq' (k : Fin k0_t1_loop.trips) (cc : Nat) (h : cc = wOf L + 64 * k.val + 64) : k0_off4 L k = ![0, 256 * cc] := by
  subst h; rw [k0_off4_eq]; unfold wOf
  rw [show 512 * (L 1).val + 256 * (L 0).val + 16384 * k.val + 16384 = 256 * (2 * (L 1).val + (L 0).val + 64 * k.val + 64) by omega]
theorem off6_eq' (k : Fin k0_t1_loop.trips) (cc : Nat) (h : cc = wOf L + 64 * k.val + 96) : k0_off6 L k = ![0, 256 * cc] := by
  subst h; rw [k0_off6_eq]; unfold wOf
  rw [show 512 * (L 1).val + 256 * (L 0).val + 16384 * k.val + 24576 = 256 * (2 * (L 1).val + (L 0).val + 64 * k.val + 96) by omega]
/-- A wait of one of the tile's own copies is recorded at no handshake. -/
theorem owes_ins {W W' : Waits sig (HIx 2)} (h : ∀ p ∈ W', p ∈ W ∨ p.2 = none) (sm : SemLoc sig) :
    ∀ p ∈ insert (sm, (default : HIx 2)) W', p ∈ W ∨ p.2 = none := by
  intro p hp
  rcases Finset.mem_insert.mp hp with rfl | hp
  · exact Or.inr rfl
  · exact h p hp
end Win2

section PendTop
variable (m : (ℓ : Loc nD τ sig) → Buf (Elt F) ℓ) (d : Dev nD) (L : grid0.Coords)
/-- Past the last slab the second threshold does not matter. -/
theorem Pend_top (a b b' : Nat) (hb : 123 ≤ b) (hb' : 123 ≤ b') : Pend m d L a b = Pend m d L a b' := by
  unfold Pend
  refine BI.bigSep_congr fun t _ => ?_
  unfold ent
  have := t.isLt
  simp only [show ¬ (b ≤ t.val) by omega, show ¬ (b' ≤ t.val) by omega]
end PendTop

section Pure
variable (m : (ℓ : Loc nD τ sig) → Buf (Elt F) ℓ) (d : Dev nD) (L : grid0.Coords)
/-! ## Values: where the copies land -/

theorem A0_emb (dd : Fin 64) (col : Fin 256) : ((A0).view.emb (ix2 dd col) : S2x64x256.Idx) = ix3 (0 : Fin 2) dd col := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 0 + 1 * 0 = 0; rfl
  | ⟨1, _⟩ => show 0 + 1 * dd.val = dd.val; omega
  | ⟨2, _⟩ => show 0 + 1 * col.val = col.val; omega
theorem B0_emb (r : Fin 128) (q : Fin 128) : ((B0).view.emb (ix2 r q) : S2x128x128.Idx) = ix3 (0 : Fin 2) r q := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 0 + 1 * 0 = 0; rfl
  | ⟨1, _⟩ => show 0 + 1 * r.val = r.val; omega
  | ⟨2, _⟩ => show 0 + 1 * q.val = q.val; omega

theorem A1_emb (dd : Fin 64) (col : Fin 256) : ((A1).view.emb (ix2 dd col) : S2x64x256.Idx) = ix3 (1 : Fin 2) dd col := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 1 + 1 * 0 = 1; rfl
  | ⟨1, _⟩ => show 0 + 1 * dd.val = dd.val; omega
  | ⟨2, _⟩ => show 0 + 1 * col.val = col.val; omega
theorem B1_emb (r : Fin 128) (q : Fin 128) : ((B1).view.emb (ix2 r q) : S2x128x128.Idx) = ix3 (1 : Fin 2) r q := by
  funext a
  apply Fin.ext
  simp only [Memref.view_squeeze, Memref.view_slice, Memref.view_whole, View.emb_reshape, View.emb_slice, View.emb_whole,
    Function.Embedding.trans_apply, Equiv.coe_toEmbedding, Function.Embedding.refl_apply, Rect.emb_apply]
  rw [reshapeEquiv_ix2_1ab]
  match a with
  | ⟨0, _⟩ => show 1 + 1 * 0 = 1; rfl
  | ⟨1, _⟩ => show 0 + 1 * r.val = r.val; omega
  | ⟨2, _⟩ => show 0 + 1 * q.val = q.val; omega

/-- A copy in landed: the flight's delivery, as the invariant states it. -/
theorem in_mono0 (cc : Nat) (off : Fin 2 → Nat) (inb : ∀ a, off a + S64x256.size a ≤ S64x1000000.size a) (hoff : off = ![0, 256 * cc])
    (X : Buf (Elt F) ((b0).view.loc (thr d L))) (q : PosShare TreeShare) :
    (iprop((((A0).view.loc (thr d L) ↦[(A0).view.set]{fullShare}
          (A0).view.writes (Elt F) X [⟨Rect.whole S64x256, ReadAs.same.apply (View.read (Elt F) ((tW).slice (Rect.unit (s := S64x1000000) off S64x256.size inb) (fun _ => rfl)).view (TT m d L))⟩]))
        ∗ ((tW).view.loc (thr d L) ↦[((tW).slice (Rect.unit (s := S64x1000000) off S64x256.size inb) (fun _ => rfl)).view.set]{q} TT m d L)) : sProp 𝕄)
      ⊢ iprop(InLanded0 m d L cc ∗ ((tW).view.loc (thr d L) ↦[((tW).slice (Rect.unit (s := S64x1000000) off S64x256.size inb) (fun _ => rfl)).view.set]{q} TT m d L)) := by
  subst hoff
  unfold InLanded0
  iintro ⟨H, HR⟩
  isplitl [H]
  swap; · iexact HR
  iexists _
  isplitl [H]; · iexact H
  ipureintro
  intro dd col h
  rw [← A0_emb dd col, ← View.write_univ_eq_writes_whole, View.writes_nil, View.write_emb_of_mem _ _ (Finset.mem_univ _)]
  show View.read (Elt F) ((tW).slice (Rect.unit (s := S64x1000000) ![0, 256 * cc] S64x256.size inb) (fun _ => rfl)).view (TT m d L) (ix2 dd col) = _
  rw [View.read_apply]
  show Cert.Lookup.tabT (Tiles.TAB m d) (((tW).slice (Rect.unit (s := S64x1000000) ![0, 256 * cc] S64x256.size inb) (fun _ => rfl)).view.emb (ix2 dd col)) = Cert.Lookup.tabT (Tiles.TAB m d) _
  congr 1
  funext a
  apply Fin.ext
  simp only [Memref.view_slice, Memref.view_whole, View.emb_slice, View.emb_whole, Function.Embedding.trans_apply, Function.Embedding.refl_apply, Rect.emb_apply]
  match a with
  | ⟨0, _⟩ => show 0 + 1 * dd.val = dd.val; omega
  | ⟨1, _⟩ => show 256 * cc + 1 * col.val = 256 * cc + col.val; omega
/-- A copy out landed: the slab of the pair table holds the pair table's entries. -/
theorem out_mono0 (k : Fin k0_t1_loop.trips) (h7 : k0_cond7 L k = 1#1) (cc : Fin 3906) (hcc : cc.val = wOf L + 32 * (2 * k.val))
    (Y : Buf (Elt F) ((b1).view.loc (thr d L))) (hY : PbHolds m d L 0 cc.val Y) (fp : Buf (Elt F) (Tiles.pairsLoc d)) :
    (iprop((((win3 L k h7).view.loc (thr d L) ↦[(win3 L k h7).view.set]{fullShare}
          (win3 L k h7).view.writes (Elt F) fp [⟨Rect.whole _, ReadAs.same.apply (View.read (Elt F) (B0).view Y)⟩]))
        ∗ ((B0).view.loc (thr d L) ↦[(B0).view.set]{fullShare} Y)) : sProp 𝕄)
      ⊢ iprop(slabDone m d cc ∗ ((B0).view.loc (thr d L) ↦[(B0).view.set]{fullShare} Y)) := by
  iintro ⟨H, HR⟩
  isplitl [H]
  swap; · iexact HR
  iapply (Entails.of_eq ?_) $$ H
  unfold slabDone
  have hcc' : wOf L + 32 * (2 * k.val) < 3906 := hcc ▸ cc.isLt
  have ecc : cc = ⟨wOf L + 32 * (2 * k.val), hcc'⟩ := Fin.ext hcc
  rw [ecc, ← win3_set L k h7 hcc']
  refine pointsTo_congr fun i hi => ?_
  obtain ⟨z, -, rfl⟩ := Finset.mem_map.mp hi
  rw [← View.write_univ_eq_writes_whole, View.writes_nil, View.write_emb_of_mem _ _ (Finset.mem_univ _)]
  show View.read (Elt F) (B0).view Y z = _
  rw [View.read_apply]
  have eB : ((B0).view.emb z : S2x128x128.Idx) = ix3 (0 : Fin 2) (z 0) (z 1) := by
    exact (congrArg (fun x => ((B0).view.emb x : S2x128x128.Idx)) (ValueIdx.eq_ix2 z)).trans (B0_emb (z 0) (z 1))
  show (Y : S2x128x128.Idx → F .f32) ((B0).view.emb z) = _
  rw [eB]
  have hz0 : (z 0).val < 128 := (z 0).isLt
  refine (hY (z 0) (z 1) (by rw [hcc]; omega)).trans ?_
  show Cert.Lookup.pairs (Tiles.TAB m d) _ = Cert.Lookup.pairs (Tiles.TAB m d) _
  congr 1
  have hemb : ∀ a, (((win3 L k h7).view.emb z : S500000x128.Idx) a).val = k0_off3 L k a + 1 * (z a).val := fun a => Rect.emb_apply (Rect.unit (s := S500000x128) (k0_off3 L k) S128x128.size (k0_off3_inb L k h7)) z a
  funext a
  apply Fin.ext
  match a with
  | ⟨0, _⟩ =>
    exact (show 128 * cc.val + (z 0).val = k0_off3 L k 0 + 1 * (z 0).val by
      rw [off3_eq L k, hcc]; show _ = 128 * (wOf L + 32 * (2 * k.val)) + 1 * (z 0).val; omega).trans (hemb 0).symm
  | ⟨1, _⟩ =>
    exact (show (z 1).val = k0_off3 L k 1 + 1 * (z 1).val by
      rw [off3_eq L k]; show _ = 0 + 1 * (z 1).val; omega).trans (hemb 1).symm

/-- A copy in landed: the flight's delivery, as the invariant states it. -/
theorem in_mono1 (cc : Nat) (off : Fin 2 → Nat) (inb : ∀ a, off a + S64x256.size a ≤ S64x1000000.size a) (hoff : off = ![0, 256 * cc])
    (X : Buf (Elt F) ((b0).view.loc (thr d L))) (q : PosShare TreeShare) :
    (iprop((((A1).view.loc (thr d L) ↦[(A1).view.set]{fullShare}
          (A1).view.writes (Elt F) X [⟨Rect.whole S64x256, ReadAs.same.apply (View.read (Elt F) ((tW).slice (Rect.unit (s := S64x1000000) off S64x256.size inb) (fun _ => rfl)).view (TT m d L))⟩]))
        ∗ ((tW).view.loc (thr d L) ↦[((tW).slice (Rect.unit (s := S64x1000000) off S64x256.size inb) (fun _ => rfl)).view.set]{q} TT m d L)) : sProp 𝕄)
      ⊢ iprop(InLanded1 m d L cc ∗ ((tW).view.loc (thr d L) ↦[((tW).slice (Rect.unit (s := S64x1000000) off S64x256.size inb) (fun _ => rfl)).view.set]{q} TT m d L)) := by
  subst hoff
  unfold InLanded1
  iintro ⟨H, HR⟩
  isplitl [H]
  swap; · iexact HR
  iexists _
  isplitl [H]; · iexact H
  ipureintro
  intro dd col h
  rw [← A1_emb dd col, ← View.write_univ_eq_writes_whole, View.writes_nil, View.write_emb_of_mem _ _ (Finset.mem_univ _)]
  show View.read (Elt F) ((tW).slice (Rect.unit (s := S64x1000000) ![0, 256 * cc] S64x256.size inb) (fun _ => rfl)).view (TT m d L) (ix2 dd col) = _
  rw [View.read_apply]
  show Cert.Lookup.tabT (Tiles.TAB m d) (((tW).slice (Rect.unit (s := S64x1000000) ![0, 256 * cc] S64x256.size inb) (fun _ => rfl)).view.emb (ix2 dd col)) = Cert.Lookup.tabT (Tiles.TAB m d) _
  congr 1
  funext a
  apply Fin.ext
  simp only [Memref.view_slice, Memref.view_whole, View.emb_slice, View.emb_whole, Function.Embedding.trans_apply, Function.Embedding.refl_apply, Rect.emb_apply]
  match a with
  | ⟨0, _⟩ => show 0 + 1 * dd.val = dd.val; omega
  | ⟨1, _⟩ => show 256 * cc + 1 * col.val = 256 * cc + col.val; omega
/-- A copy out landed: the slab of the pair table holds the pair table's entries. -/
theorem out_mono1 (k : Fin k0_t1_loop.trips) (h13 : k0_cond13 L k = 1#1) (cc : Fin 3906) (hcc : cc.val = wOf L + 32 * (2 * k.val + 1))
    (Y : Buf (Elt F) ((b1).view.loc (thr d L))) (hY : PbHolds m d L 1 cc.val Y) (fp : Buf (Elt F) (Tiles.pairsLoc d)) :
    (iprop((((win5 L k h13).view.loc (thr d L) ↦[(win5 L k h13).view.set]{fullShare}
          (win5 L k h13).view.writes (Elt F) fp [⟨Rect.whole _, ReadAs.same.apply (View.read (Elt F) (B1).view Y)⟩]))
        ∗ ((B1).view.loc (thr d L) ↦[(B1).view.set]{fullShare} Y)) : sProp 𝕄)
      ⊢ iprop(slabDone m d cc ∗ ((B1).view.loc (thr d L) ↦[(B1).view.set]{fullShare} Y)) := by
  iintro ⟨H, HR⟩
  isplitl [H]
  swap; · iexact HR
  iapply (Entails.of_eq ?_) $$ H
  unfold slabDone
  have hcc' : wOf L + 32 * (2 * k.val + 1) < 3906 := hcc ▸ cc.isLt
  have ecc : cc = ⟨wOf L + 32 * (2 * k.val + 1), hcc'⟩ := Fin.ext hcc
  rw [ecc, ← win5_set L k h13 hcc']
  refine pointsTo_congr fun i hi => ?_
  obtain ⟨z, -, rfl⟩ := Finset.mem_map.mp hi
  rw [← View.write_univ_eq_writes_whole, View.writes_nil, View.write_emb_of_mem _ _ (Finset.mem_univ _)]
  show View.read (Elt F) (B1).view Y z = _
  rw [View.read_apply]
  have eB : ((B1).view.emb z : S2x128x128.Idx) = ix3 (1 : Fin 2) (z 0) (z 1) := by
    exact (congrArg (fun x => ((B1).view.emb x : S2x128x128.Idx)) (ValueIdx.eq_ix2 z)).trans (B1_emb (z 0) (z 1))
  show (Y : S2x128x128.Idx → F .f32) ((B1).view.emb z) = _
  rw [eB]
  have hz0 : (z 0).val < 128 := (z 0).isLt
  refine (hY (z 0) (z 1) (by rw [hcc]; omega)).trans ?_
  show Cert.Lookup.pairs (Tiles.TAB m d) _ = Cert.Lookup.pairs (Tiles.TAB m d) _
  congr 1
  have hemb : ∀ a, (((win5 L k h13).view.emb z : S500000x128.Idx) a).val = k0_off5 L k a + 1 * (z a).val := fun a => Rect.emb_apply (Rect.unit (s := S500000x128) (k0_off5 L k) S128x128.size (k0_off5_inb L k h13)) z a
  funext a
  apply Fin.ext
  match a with
  | ⟨0, _⟩ =>
    exact (show 128 * cc.val + (z 0).val = k0_off5 L k 0 + 1 * (z 0).val by
      rw [off5_eq L k, hcc]; show _ = 128 * (wOf L + 32 * (2 * k.val + 1)) + 1 * (z 0).val; omega).trans (hemb 0).symm
  | ⟨1, _⟩ =>
    exact (show (z 1).val = k0_off5 L k 1 + 1 * (z 1).val by
      rw [off5_eq L k]; show _ = 0 + 1 * (z 1).val; omega).trans (hemb 1).symm

end Pure

section Help
variable (m : (ℓ : Loc nD τ sig) → Buf (Elt F) ℓ) (d : Dev nD) (L : grid0.Coords)
/-- The transposed slab is the pair table's slab. -/
theorem pb_of_slab (p : Fin 2) (cc : Nat) (hcc : cc < 3906) (X : Buf (Elt F) ((b0).view.loc (thr d L))) (Y : Buf (Elt F) ((b1).view.loc (thr d L)))
    (hX : SlabHolds m d L p cc X) (hT : Body0Inner.TransposedUpTo (F := F) p 64 X Y) : PbHolds m d L p cc Y := by
  intro r q h
  have hr := r.isLt
  have hq := q.isLt
  have h1 := hT (⟨q.val % 64, by omega⟩ : Fin 64) (⟨2 * r.val + q.val / 64, by omega⟩ : Fin 256)
    (by show (2 * r.val + q.val / 64) / 16 * 4 + (q.val % 64) / 16 < 64; omega)
  have e1 : (⟨(2 * r.val + q.val / 64) / 2, by omega⟩ : Fin 128) = r := Fin.ext (by show (2 * r.val + q.val / 64) / 2 = r.val; omega)
  have e2 : (⟨(2 * r.val + q.val / 64) % 2 * 64 + q.val % 64, by omega⟩ : Fin 128) = q :=
    Fin.ext (by show (2 * r.val + q.val / 64) % 2 * 64 + q.val % 64 = q.val; omega)
  have h2 := hX (⟨q.val % 64, by omega⟩ : Fin 64) (⟨2 * r.val + q.val / 64, by omega⟩ : Fin 256)
    (by show 256 * cc + (2 * r.val + q.val / 64) < 1000000; omega)
  have h3 : (Y : S2x128x128.Idx → F .f32) (ix3 p r q) = (X : S2x64x256.Idx → F .f32) (ix3 p (⟨q.val % 64, by omega⟩ : Fin 64) (⟨2 * r.val + q.val / 64, by omega⟩ : Fin 256)) := by
    rw [← h1]; congr 2 <;> first | exact e1.symm | exact e2.symm
  rw [h3, h2]
  unfold Cert.Lookup.tabT Cert.Lookup.pairs
  congr 1
  funext a
  match a with
  | ⟨0, _⟩ => exact Fin.ext (by show 256 * cc + (2 * r.val + q.val / 64) = 2 * (128 * cc + r.val) + q.val / 64; omega)
  | ⟨1, _⟩ => rfl

theorem pb_of_slab0 (cc : Nat) (hcc : cc < 3906) (X : Buf (Elt F) ((b0).view.loc (thr d L))) (Y : Buf (Elt F) ((b1).view.loc (thr d L)))
    (hX : SlabHolds m d L 0 cc X) (hT : Body0Inner.TransposedUpTo (F := F) 0 64 X Y) : PbHolds m d L 0 cc Y :=
  pb_of_slab m d L 0 cc hcc X Y hX hT
theorem pb_of_slab1 (cc : Nat) (hcc : cc < 3906) (X : Buf (Elt F) ((b0).view.loc (thr d L))) (Y : Buf (Elt F) ((b1).view.loc (thr d L)))
    (hX : SlabHolds m d L 1 cc X) (hT : Body0Inner.TransposedUpTo (F := F) 1 64 X Y) : PbHolds m d L 1 cc Y :=
  pb_of_slab m d L 1 cc hcc X Y hX hT
end Help

section Wrap
variable (m : (ℓ : Loc nD τ sig) → Buf (Elt F) ℓ) (d : Dev nD) (L : grid0.Coords)

omit [FloatOps F] in
/-- The tile's own semaphores at zero: this kernel's six, and the rest. -/
theorem ownSems0_V :
    (ownSems0 (thr d L) : sProp 𝕄)
      = iprop(semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scoped0.sem) 0 ∗ semVal (thr d L, SemLoc.dma cc0_scoped1.sem) 0
          ∗ bigSep (((((((ownCells (thr d L)).erase (thr d L, SemLoc.dma cc0_scratch4.sem)).erase (thr d L, SemLoc.dma cc0_scratch5.sem)).erase (thr d L, SemLoc.dma cc0_scratch6.sem)).erase (thr d L, SemLoc.dma cc0_scratch7.sem)).erase (thr d L, SemLoc.dma cc0_scoped0.sem)).erase (thr d L, SemLoc.dma cc0_scoped1.sem)) fun g => semVal g 0) := by
  unfold SparseCore.Cfg.ownSems0
  rw [SparseCore.bigSep_erase' ((mem_ownCells (g := (thr d L, SemLoc.dma cc0_scratch4.sem))).mpr ⟨rfl, by show (SemLoc.dma cc0_scratch4.sem : SemLoc sig).isScoped .scVector = true; decide⟩),
    SparseCore.bigSep_erase' (Finset.mem_erase.mpr ⟨(fun e => absurd (congrArg Prod.snd e) (show (SemLoc.dma cc0_scratch5.sem : SemLoc sig) ≠ SemLoc.dma cc0_scratch4.sem by decide)), (mem_ownCells (g := (thr d L, SemLoc.dma cc0_scratch5.sem))).mpr ⟨rfl, by show (SemLoc.dma cc0_scratch5.sem : SemLoc sig).isScoped .scVector = true; decide⟩⟩),
    SparseCore.bigSep_erase' (Finset.mem_erase.mpr ⟨(fun e => absurd (congrArg Prod.snd e) (show (SemLoc.dma cc0_scratch6.sem : SemLoc sig) ≠ SemLoc.dma cc0_scratch5.sem by decide)), Finset.mem_erase.mpr ⟨(fun e => absurd (congrArg Prod.snd e) (show (SemLoc.dma cc0_scratch6.sem : SemLoc sig) ≠ SemLoc.dma cc0_scratch4.sem by decide)), (mem_ownCells (g := (thr d L, SemLoc.dma cc0_scratch6.sem))).mpr ⟨rfl, by show (SemLoc.dma cc0_scratch6.sem : SemLoc sig).isScoped .scVector = true; decide⟩⟩⟩),
    SparseCore.bigSep_erase' (Finset.mem_erase.mpr ⟨(fun e => absurd (congrArg Prod.snd e) (show (SemLoc.dma cc0_scratch7.sem : SemLoc sig) ≠ SemLoc.dma cc0_scratch6.sem by decide)), Finset.mem_erase.mpr ⟨(fun e => absurd (congrArg Prod.snd e) (show (SemLoc.dma cc0_scratch7.sem : SemLoc sig) ≠ SemLoc.dma cc0_scratch5.sem by decide)), Finset.mem_erase.mpr ⟨(fun e => absurd (congrArg Prod.snd e) (show (SemLoc.dma cc0_scratch7.sem : SemLoc sig) ≠ SemLoc.dma cc0_scratch4.sem by decide)), (mem_ownCells (g := (thr d L, SemLoc.dma cc0_scratch7.sem))).mpr ⟨rfl, by show (SemLoc.dma cc0_scratch7.sem : SemLoc sig).isScoped .scVector = true; decide⟩⟩⟩⟩),
    SparseCore.bigSep_erase' (Finset.mem_erase.mpr ⟨(fun e => absurd (congrArg Prod.snd e) (show (SemLoc.dma cc0_scoped0.sem : SemLoc sig) ≠ SemLoc.dma cc0_scratch7.sem by decide)), Finset.mem_erase.mpr ⟨(fun e => absurd (congrArg Prod.snd e) (show (SemLoc.dma cc0_scoped0.sem : SemLoc sig) ≠ SemLoc.dma cc0_scratch6.sem by decide)), Finset.mem_erase.mpr ⟨(fun e => absurd (congrArg Prod.snd e) (show (SemLoc.dma cc0_scoped0.sem : SemLoc sig) ≠ SemLoc.dma cc0_scratch5.sem by decide)), Finset.mem_erase.mpr ⟨(fun e => absurd (congrArg Prod.snd e) (show (SemLoc.dma cc0_scoped0.sem : SemLoc sig) ≠ SemLoc.dma cc0_scratch4.sem by decide)), (mem_ownCells (g := (thr d L, SemLoc.dma cc0_scoped0.sem))).mpr ⟨rfl, by show (SemLoc.dma cc0_scoped0.sem : SemLoc sig).isScoped .scVector = true; decide⟩⟩⟩⟩⟩),
    SparseCore.bigSep_erase' (Finset.mem_erase.mpr ⟨(fun e => absurd (congrArg Prod.snd e) (show (SemLoc.dma cc0_scoped1.sem : SemLoc sig) ≠ SemLoc.dma cc0_scoped0.sem by decide)), Finset.mem_erase.mpr ⟨(fun e => absurd (congrArg Prod.snd e) (show (SemLoc.dma cc0_scoped1.sem : SemLoc sig) ≠ SemLoc.dma cc0_scratch7.sem by decide)), Finset.mem_erase.mpr ⟨(fun e => absurd (congrArg Prod.snd e) (show (SemLoc.dma cc0_scoped1.sem : SemLoc sig) ≠ SemLoc.dma cc0_scratch6.sem by decide)), Finset.mem_erase.mpr ⟨(fun e => absurd (congrArg Prod.snd e) (show (SemLoc.dma cc0_scoped1.sem : SemLoc sig) ≠ SemLoc.dma cc0_scratch5.sem by decide)), Finset.mem_erase.mpr ⟨(fun e => absurd (congrArg Prod.snd e) (show (SemLoc.dma cc0_scoped1.sem : SemLoc sig) ≠ SemLoc.dma cc0_scratch4.sem by decide)), (mem_ownCells (g := (thr d L, SemLoc.dma cc0_scoped1.sem))).mpr ⟨rfl, by show (SemLoc.dma cc0_scoped1.sem : SemLoc sig).isScoped .scVector = true; decide⟩⟩⟩⟩⟩⟩)]

omit [FloatOps F] in
/-- The tile's own scratch buffers at some contents: this kernel's four, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩)]

end Wrap

section Half0
variable (m : (ℓ : Loc nD τ sig) → Buf (Elt F) ℓ) (d : Dev nD) (L : grid0.Coords)

set_option maxHeartbeats 4000000 in
theorem half0_TTT (O : CellTallies nD τ sig (HIx 2)) (W : Waits sig (HIx 2)) (k : Fin k0_t1_loop.trips)
    (hin : wOf L + 64 * k.val < 3906) (hg : 0 < k.val) (h8 : wOf L + 64 * k.val + 64 < 3906) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := (cond6_iff L k).mpr hin
  have c7 := (cond7_iff L k).mpr hin
  have c8 := (cond8_iff L k).mpr h8
  have c3 : cIn0 L k = 1#1 := (cIn0_iff L k).mpr hin
  have c4 : cG k = 1#1 := (cG_iff k).mpr hg
  have c5 : cOut0 L k = 1#1 := cOut0_true L k
  unfold cIn0 at c3; unfold cG at c4; unfold cOut0 at c5
  have hccI : wOf L + 32 * (2 * k.val) < 3906 := by omega
  have hccO : 2 ≤ 2 * k.val ∧ wOf L + 32 * (2 * k.val - 2) < 3906 := by omega
  unfold Body0.inv InSt0 OutSt0 OwesSt
  rw [if_pos hccI, dif_pos hccO]
  iintro ⟨#Hmw, ⟨%Wn, Hf4, Ht⟩, ⟨%Y, Hf6⟩, HI1, HO1, HP, %W', %hW', HO⟩
  -- the waits of this half: slab 2k's copy in and slab 2k − 2's copy out, each if it was issued
  sl_exec
  unfold InLanded0
  icases Hf4_dst with ⟨%X, HA0, %hX⟩
  -- the transposition of the slab, sixty-four trips, by its own invariant
  sl_for (Body0Inner.innerInv0 d L X) $$ [HA0 Hf6_src]
  case region =>
    intro j u
    exact Body0Inner.inner0_step d L k c6 (v1Of L) X j u
  · unfold Body0Inner.innerInv0
    isplitl [HA0]; · iexact HA0
    iexists Y; isplitl [Hf6_src]; · iexact Hf6_src
    ipureintro; intro dd col h; exact absurd h (by omega)
  iintro %_ HI
  unfold Body0Inner.innerInv0
  icases HI with ⟨HA0, %Y', Hf6_src, %hT⟩
  have hT64 : Body0Inner.TransposedUpTo (F := F) 0 64 X Y' := by
    have h := hT; rwa [show Scf.trips k0_t2_loop.lb k0_t2_loop.ub k0_t2_loop.st = 64 from Body0Inner.trips2] at h
  have hY' := pb_of_slab0 m d L _ hccI X Y' hX hT64
  -- the slab whose copy out was awaited joins the written ones
  ihave HP := (Pend_put m d L (2 * k.val - 2) (2 * k.val) (by omega) (by omega)) $$ [Hf6_dst HP]
  · isplitl [Hf6_dst]
    · rw [dif_pos hccO.2]; iexact Hf6_dst
    · iexact HP
  rw [show 2 * k.val - 2 + 1 = 2 * k.val - 1 by omega]
  -- this half's slab leaves the unwritten ones: its copy out is issued next
  ihave HP := (Pend_take m d L (2 * k.val - 1) (2 * k.val) (by omega) (by omega)) $$ HP
  rw [dif_pos hccI]
  unfold slabPend
  icases HP with ⟨⟨%fp, Hp⟩, HP⟩
  ihave Hp' := (Entails.of_eq (pend_win3 d L k c7 hccI fp)) $$ Hp
  sl_exec
  sl_step
  try unfold half0_TTT.sl.dma0_1
  try unfold half0_TTT.sl.dma0
  isplitr; · ipureintro; rfl
  unfold Mid InSt0 OutSt0 OwesSt
  rw [if_pos (show wOf L + 32 * (2 * k.val + 2) < 3906 by omega), dif_pos (show 2 ≤ 2 * k.val + 2 ∧ wOf L + 32 * (2 * k.val + 2 - 2) < 3906 by omega)]
  isplitr; · iexact Hmw
  isplitl [Hf4 Ht]
  · iexists _
    isplitl [Hf4]
    · iapply (Transfers.Flight_mono countersEmb (thr d L) (in_mono0 m d L (wOf L + 32 * (2 * k.val + 2)) (k0_off4 L k) (k0_off4_inb L k c8) (off4_eq' L k _ (by omega)) X (qL L))) $$ Hf4
    · iexact Ht
  isplitl [Hf6]
  · iexists Y'
    iapply (Transfers.Flight_mono countersEmb (thr d L) (out_mono0 m d L k c7 ⟨wOf L + 32 * (2 * k.val + 2 - 2), by omega⟩ (by show wOf L + 32 * (2 * k.val + 2 - 2) = _; omega) Y' (by show PbHolds m d L 0 (wOf L + 32 * (2 * k.val + 2 - 2)) Y'; rw [Nat.add_sub_cancel]; exact hY') fp)) $$ Hf6
  isplitl [HI1]; · iexact HI1
  isplitl [HO1]; · iexact HO1
  isplitl [HP]; · iexact HP
  iexists _; isplitr
  swap; · iexact HO
  ipureintro; exact (owes_ins (owes_ins hW' _) _)

set_option maxHeartbeats 4000000 in
theorem half0_TTF (O : CellTallies nD τ sig (HIx 2)) (W : Waits sig (HIx 2)) (k : Fin k0_t1_loop.trips)
    (hin : wOf L + 64 * k.val < 3906) (hg : 0 < k.val) (h8 : ¬ (wOf L + 64 * k.val + 64 < 3906)) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := (cond6_iff L k).mpr hin
  have c7 := (cond7_iff L k).mpr hin
  have c8 := fun h => h8 ((cond8_iff L k).mp h)
  have c3 : cIn0 L k = 1#1 := (cIn0_iff L k).mpr hin
  have c4 : cG k = 1#1 := (cG_iff k).mpr hg
  have c5 : cOut0 L k = 1#1 := cOut0_true L k
  unfold cIn0 at c3; unfold cG at c4; unfold cOut0 at c5
  have hccI : wOf L + 32 * (2 * k.val) < 3906 := by omega
  have hccO : 2 ≤ 2 * k.val ∧ wOf L + 32 * (2 * k.val - 2) < 3906 := by omega
  unfold Body0.inv InSt0 OutSt0 OwesSt
  rw [if_pos hccI, dif_pos hccO]
  iintro ⟨#Hmw, ⟨%Wn, Hf4, Ht⟩, ⟨%Y, Hf6⟩, HI1, HO1, HP, %W', %hW', HO⟩
  -- the waits of this half: slab 2k's copy in and slab 2k − 2's copy out, each if it was issued
  sl_exec
  unfold InLanded0
  icases Hf4_dst with ⟨%X, HA0, %hX⟩
  -- the transposition of the slab, sixty-four trips, by its own invariant
  sl_for (Body0Inner.innerInv0 d L X) $$ [HA0 Hf6_src]
  case region =>
    intro j u
    exact Body0Inner.inner0_step d L k c6 (v1Of L) X j u
  · unfold Body0Inner.innerInv0
    isplitl [HA0]; · iexact HA0
    iexists Y; isplitl [Hf6_src]; · iexact Hf6_src
    ipureintro; intro dd col h; exact absurd h (by omega)
  iintro %_ HI
  unfold Body0Inner.innerInv0
  icases HI with ⟨HA0, %Y', Hf6_src, %hT⟩
  have hT64 : Body0Inner.TransposedUpTo (F := F) 0 64 X Y' := by
    have h := hT; rwa [show Scf.trips k0_t2_loop.lb k0_t2_loop.ub k0_t2_loop.st = 64 from Body0Inner.trips2] at h
  have hY' := pb_of_slab0 m d L _ hccI X Y' hX hT64
  -- the slab whose copy out was awaited joins the written ones
  ihave HP := (Pend_put m d L (2 * k.val - 2) (2 * k.val) (by omega) (by omega)) $$ [Hf6_dst HP]
  · isplitl [Hf6_dst]
    · rw [dif_pos hccO.2]; iexact Hf6_dst
    · iexact HP
  rw [show 2 * k.val - 2 + 1 = 2 * k.val - 1 by omega]
  -- this half's slab leaves the unwritten ones: its copy out is issued next
  ihave HP := (Pend_take m d L (2 * k.val - 1) (2 * k.val) (by omega) (by omega)) $$ HP
  rw [dif_pos hccI]
  unfold slabPend
  icases HP with ⟨⟨%fp, Hp⟩, HP⟩
  ihave Hp' := (Entails.of_eq (pend_win3 d L k c7 hccI fp)) $$ Hp
  sl_exec
  sl_step
  try unfold half0_TTF.sl.dma0_1
  try unfold half0_TTF.sl.dma0
  isplitr; · ipureintro; rfl
  unfold Mid InSt0 OutSt0 OwesSt
  rw [if_neg (show ¬ (wOf L + 32 * (2 * k.val + 2) < 3906) by omega), dif_pos (show 2 ≤ 2 * k.val + 2 ∧ wOf L + 32 * (2 * k.val + 2 - 2) < 3906 by omega)]
  isplitr; · iexact Hmw
  isplitl [HA0 Hf4 Ht]
  · isplitl [HA0]; · iexists _; iexact HA0
    isplitl [Hf4]; · iexact Hf4
    iexact Ht
  isplitl [Hf6]
  · iexists Y'
    iapply (Transfers.Flight_mono countersEmb (thr d L) (out_mono0 m d L k c7 ⟨wOf L + 32 * (2 * k.val + 2 - 2), by omega⟩ (by show wOf L + 32 * (2 * k.val + 2 - 2) = _; omega) Y' (by show PbHolds m d L 0 (wOf L + 32 * (2 * k.val + 2 - 2)) Y'; rw [Nat.add_sub_cancel]; exact hY') fp)) $$ Hf6
  isplitl [HI1]; · iexact HI1
  isplitl [HO1]; · iexact HO1
  isplitl [HP]; · iexact HP
  iexists _; isplitr
  swap; · iexact HO
  ipureintro; exact (owes_ins (owes_ins hW' _) _)

set_option maxHeartbeats 4000000 in
theorem half0_TFT (O : CellTallies nD τ sig (HIx 2)) (W : Waits sig (HIx 2)) (k : Fin k0_t1_loop.trips)
    (hin : wOf L + 64 * k.val < 3906) (hg : ¬ (0 < k.val)) (h8 : wOf L + 64 * k.val + 64 < 3906) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := (cond6_iff L k).mpr hin
  have c7 := (cond7_iff L k).mpr hin
  have c8 := (cond8_iff L k).mpr h8
  have c3 : cIn0 L k = 1#1 := (cIn0_iff L k).mpr hin
  have c4 : ¬ cG k = 1#1 := fun h => hg ((cG_iff k).mp h)
  have c5 : cOut0 L k = 1#1 := cOut0_true L k
  unfold cIn0 at c3; unfold cG at c4; unfold cOut0 at c5
  have hccI : wOf L + 32 * (2 * k.val) < 3906 := by omega
  have hccO : ¬ (2 ≤ 2 * k.val ∧ wOf L + 32 * (2 * k.val - 2) < 3906) := by omega
  unfold Body0.inv InSt0 OutSt0 OwesSt
  rw [if_pos hccI, dif_neg hccO]
  iintro ⟨#Hmw, ⟨%Wn, Hf4, Ht⟩, ⟨⟨%Y, Hf6_src⟩, Hf6⟩, HI1, HO1, HP, %W', %hW', HO⟩
  -- the waits of this half: slab 2k's copy in and slab 2k − 2's copy out, each if it was issued
  sl_exec
  unfold InLanded0
  icases Hf4_dst with ⟨%X, HA0, %hX⟩
  -- the transposition of the slab, sixty-four trips, by its own invariant
  sl_for (Body0Inner.innerInv0 d L X) $$ [HA0 Hf6_src]
  case region =>
    intro j u
    exact Body0Inner.inner0_step d L k c6 (v1Of L) X j u
  · unfold Body0Inner.innerInv0
    isplitl [HA0]; · iexact HA0
    iexists Y; isplitl [Hf6_src]; · iexact Hf6_src
    ipureintro; intro dd col h; exact absurd h (by omega)
  iintro %_ HI
  unfold Body0Inner.innerInv0
  icases HI with ⟨HA0, %Y', Hf6_src, %hT⟩
  have hT64 : Body0Inner.TransposedUpTo (F := F) 0 64 X Y' := by
    have h := hT; rwa [show Scf.trips k0_t2_loop.lb k0_t2_loop.ub k0_t2_loop.st = 64 from Body0Inner.trips2] at h
  have hY' := pb_of_slab0 m d L _ hccI X Y' hX hT64
  rw [show 2 * k.val - 2 = 2 * k.val - 1 by omega]
  -- this half's slab leaves the unwritten ones: its copy out is issued next
  ihave HP := (Pend_take m d L (2 * k.val - 1) (2 * k.val) (by omega) (by omega)) $$ HP
  rw [dif_pos hccI]
  unfold slabPend
  icases HP with ⟨⟨%fp, Hp⟩, HP⟩
  ihave Hp' := (Entails.of_eq (pend_win3 d L k c7 hccI fp)) $$ Hp
  sl_exec
  sl_step
  try unfold half0_TFT.sl.dma0_1
  try unfold half0_TFT.sl.dma0
  isplitr; · ipureintro; rfl
  unfold Mid InSt0 OutSt0 OwesSt
  rw [if_pos (show wOf L + 32 * (2 * k.val + 2) < 3906 by omega), dif_pos (show 2 ≤ 2 * k.val + 2 ∧ wOf L + 32 * (2 * k.val + 2 - 2) < 3906 by omega)]
  isplitr; · iexact Hmw
  isplitl [Hf4 Ht]
  · iexists _
    isplitl [Hf4]
    · iapply (Transfers.Flight_mono countersEmb (thr d L) (in_mono0 m d L (wOf L + 32 * (2 * k.val + 2)) (k0_off4 L k) (k0_off4_inb L k c8) (off4_eq' L k _ (by omega)) X (qL L))) $$ Hf4
    · iexact Ht
  isplitl [Hf6]
  · iexists Y'
    iapply (Transfers.Flight_mono countersEmb (thr d L) (out_mono0 m d L k c7 ⟨wOf L + 32 * (2 * k.val + 2 - 2), by omega⟩ (by show wOf L + 32 * (2 * k.val + 2 - 2) = _; omega) Y' (by show PbHolds m d L 0 (wOf L + 32 * (2 * k.val + 2 - 2)) Y'; rw [Nat.add_sub_cancel]; exact hY') fp)) $$ Hf6
  isplitl [HI1]; · iexact HI1
  isplitl [HO1]; · iexact HO1
  isplitl [HP]; · iexact HP
  iexists _; isplitr
  swap; · iexact HO
  ipureintro; exact (owes_ins hW' _)

set_option maxHeartbeats 4000000 in
theorem half0_FTF (O : CellTallies nD τ sig (HIx 2)) (W : Waits sig (HIx 2)) (k : Fin k0_t1_loop.trips)
    (hin : ¬ (wOf L + 64 * k.val < 3906)) (hg : 0 < k.val) (h8 : ¬ (wOf L + 64 * k.val + 64 < 3906)) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  rw [k0_part13_eq_skeleton]; unfold k0_part13_skel
  have c6 := fun h => hin ((cond6_iff L k).mp h)
  have c7 := fun h => hin ((cond7_iff L k).mp h)
  have c8 := fun h => h8 ((cond8_iff L k).mp h)
  have c3 : ¬ cIn0 L k = 1#1 := fun h => hin ((cIn0_iff L k).mp h)
  have c4 : cG k = 1#1 := (cG_iff k).mpr hg
  have c5 : cOut0 L k = 1#1 := cOut0_true L k
  unfold cIn0 at c3; unfold cG at c4; unfold cOut0 at c5
  have hccI : ¬ (wOf L + 32 * (2 * k.val) < 3906) := by omega
  have hccO : 2 ≤ 2 * k.val ∧ wOf L + 32 * (2 * k.val - 2) < 3906 := by omega
  unfold Body0.inv InSt0 OutSt0 OwesSt
  rw [if_neg hccI, dif_pos hccO]
  iintro ⟨#Hmw, ⟨⟨%X, HA0⟩, Hf4, Ht⟩, ⟨%Y, Hf6⟩, HI1, HO1, HP, %W', %hW', HO⟩
  -- the waits of this half: slab 2k's copy in and slab 2k − 2's copy out, each if it was issued
  sl_exec
  -- the slab whose copy out was awaited joins the written ones
  ihave HP := (Pend_put m d L (2 * k.val - 2) (2 * k.val) (by omega) (by omega)) $$ [Hf6_dst HP]
  · isplitl [Hf6_dst]
    · rw [dif_pos hccO.2]; iexact Hf6_dst
    · iexact HP
  rw [show 2 * k.val - 2 + 1 = 2 * k.val - 1 by omega]
  -- this half's slab leaves the unwritten ones: its copy out is issued next
  ihave HP := (Pend_take m d L (2 * k.val - 1) (2 * k.val) (by omega) (by omega)) $$ HP
  rw [dif_neg hccI]
  icases HP with ⟨-, HP⟩
  sl_step
  try unfold half0_FTF.sl.dma0_1
  try unfold half0_FTF.sl.dma0
  isplitr; · ipureintro; rfl
  unfold Mid InSt0 OutSt0 OwesSt
  rw [if_neg (show ¬ (wOf L + 32 * (2 * k.val + 2) < 3906) by omega), dif_neg (show ¬ (2 ≤ 2 * k.val + 2 ∧ wOf L + 32 * (2 * k.val + 2 - 2) < 3906) by omega)]
  isplitr; · iexact Hmw
  isplitl [HA0 Hf4 Ht]
  · isplitl [HA0]; · iexists _; iexact HA0
    isplitl [Hf4]; · iexact Hf4
    iexact Ht
  isplitl [Hf6_src Hf6]
  · isplitl [Hf6_src]; · iexists _; iexact Hf6_src
    iexact Hf6
  isplitl [HI1]; · iexact HI1
  isplitl [HO1]; · iexact HO1
  isplitl [HP]; · iexact HP
  iexists _; isplitr
  swap; · iexact HO
  ipureintro; exact (owes_ins hW' _)

set_option maxHeartbeats 4000000 in
/-- The first half of trip `k`: half 0's waits, its transposition, its copy out and the next copy in. -/
theorem half0 (O : CellTallies nD τ sig (HIx 2)) (W : Waits sig (HIx 2)) (k : Fin k0_t1_loop.trips) :
    Body0.inv m d L O W k.val ⟨⟩ ⊢ wp frame (wpE (defs₀ (F := F)) 𝒱₀ (thr d L) none) Set.univ
      (k0_part13 L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) 0#32 1#32 k)
      (fun r => iprop(⌜r = R0 L k⌝ ∗ Mid m d L O W k.val)) := by
  have hk : k.val < 62 := trips_eq ▸ k.isLt
  have hw := wOf_lt L
  by_cases hin : wOf L + 64 * k.val < 3906 <;> by_cases hg : 0 < k.val <;> by_cases h8 : wOf L + 64 * k.val + 64 < 3906
  · exact half0_TTT m d L O W k hin hg h8
  · exact half0_TTF m d L O W k hin hg h8
  · exact half0_TFT m d L O W k hin hg h8
  · exfalso; omega
  · exfalso; omega
  · exact half0_FTF m d L O W k hin hg h8
  · exfalso; omega
  · exfalso; omega
end Half0

section Step
variable (m : (ℓ : Loc nD τ sig) → Buf (Elt F) ℓ) (d : Dev nD) (L : grid0.Coords)

set_option maxHeartbeats 4000000 in
theorem step_TTT (O : CellTallies nD τ sig (HIx 2)) (W : Waits sig (HIx 2)) (k : Fin k0_t1_loop.trips) (u : Unit)
    (h12 : wOf L + 64 * k.val + 32 < 3906) (hg : 0 < k.val) (h14 : wOf L + 64 * k.val + 96 < 3906) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := (cond12_iff L k).mpr h12
  have c13 := (cond13_iff L k).mpr h12
  have c14 := (cond14_iff L k).mpr h14
  have c9 : cIn1 L k = 1#1 := (cIn1_iff L k).mpr h12
  have c10 : cG k = 1#1 := (cG_iff k).mpr hg
  have c11 : cOut1 L k = 1#1 := cOut1_true L k
  unfold cIn1 at c9; unfold cG at c10; unfold cOut1 at c11
  have hccI : wOf L + 32 * (2 * k.val + 1) < 3906 := by omega
  have hccO : 2 ≤ 2 * k.val + 1 ∧ wOf L + 32 * (2 * k.val + 1 - 2) < 3906 := by omega
  unfold Mid InSt1 OutSt1 OwesSt
  rw [if_pos hccI, dif_pos hccO]
  icases HM with ⟨#Hmw, HI0, HO0, ⟨%Wn, Hf5, Ht⟩, ⟨%Y, Hf7⟩, HP, %W', %hW', HO⟩
  -- the waits of this half: slab 2k + 1's copy in and slab 2k − 1's copy out, each if it was issued
  sl_exec
  unfold InLanded1
  icases Hf5_dst with ⟨%X, HA1, %hX⟩
  -- the transposition of the slab, sixty-four trips, by its own invariant
  sl_for (Body0Inner.innerInv1 d L X) $$ [HA1 Hf7_src]
  case region =>
    intro j u
    exact Body0Inner.inner1_step d L k c12 X j u
  · unfold Body0Inner.innerInv1
    isplitl [HA1]; · iexact HA1
    iexists Y; isplitl [Hf7_src]; · iexact Hf7_src
    ipureintro; intro dd col h; exact absurd h (by omega)
  iintro %_ HI
  unfold Body0Inner.innerInv1
  icases HI with ⟨HA1, %Y', Hf7_src, %hT⟩
  have hT64 : Body0Inner.TransposedUpTo (F := F) 1 64 X Y' := by
    have h := hT; rwa [show Scf.trips k0_t3_loop.lb k0_t3_loop.ub k0_t3_loop.st = 64 from Body0Inner.trips3] at h
  have hY' := pb_of_slab1 m d L _ hccI X Y' hX hT64
  rw [show 2 * k.val - 1 = 2 * k.val + 1 - 2 by omega]
  -- the slab whose copy out was awaited joins the written ones
  ihave HP := (Pend_put m d L (2 * k.val + 1 - 2) (2 * k.val + 1) (by omega) (by omega)) $$ [Hf7_dst HP]
  · isplitl [Hf7_dst]
    · rw [dif_pos hccO.2]; iexact Hf7_dst
    · iexact HP
  rw [show 2 * k.val + 1 - 2 + 1 = 2 * k.val by omega]
  -- this half's slab leaves the unwritten ones: its copy out is issued next
  ihave HP := (Pend_take m d L (2 * k.val) (2 * k.val + 1) (by omega) (by omega)) $$ HP
  rw [dif_pos hccI]
  unfold slabPend
  icases HP with ⟨⟨%fp, Hp⟩, HP⟩
  ihave Hp' := (Entails.of_eq (pend_win5 d L k c13 hccI fp)) $$ Hp
  sl_exec
  sl_step
  try unfold step_TTT.sl.dma0_1
  try unfold step_TTT.sl.dma0
  unfold Body0.inv
  rw [show 2 * (k.val + 1) = 2 * k.val + 2 by omega]
  rw [Nat.add_sub_cancel]
  rw [show 2 * k.val + 1 + 1 = 2 * k.val + 2 by omega]
  unfold InSt1 OutSt1 OwesSt
  rw [if_pos (show wOf L + 32 * (2 * k.val + 2 + 1) < 3906 by omega), dif_pos (show 2 ≤ 2 * k.val + 2 + 1 ∧ wOf L + 32 * (2 * k.val + 2 + 1 - 2) < 3906 by omega)]
  isplitr; · iexact Hmw
  isplitl [HI0]; · iexact HI0
  isplitl [HO0]; · iexact HO0
  isplitl [Hf5 Ht]
  · iexists _
    isplitl [Hf5]
    · iapply (Transfers.Flight_mono countersEmb (thr d L) (in_mono1 m d L (wOf L + 32 * (2 * k.val + 2 + 1)) (k0_off6 L k) (k0_off6_inb L k c14) (off6_eq' L k _ (by omega)) X (qR L))) $$ Hf5
    · iexact Ht
  isplitl [Hf7]
  · iexists Y'
    iapply (Transfers.Flight_mono countersEmb (thr d L) (out_mono1 m d L k c13 ⟨wOf L + 32 * (2 * k.val + 2 + 1 - 2), by omega⟩ (by show wOf L + 32 * (2 * k.val + 2 + 1 - 2) = _; omega) Y' (by show PbHolds m d L 1 (wOf L + 32 * (2 * k.val + 2 + 1 - 2)) Y'; rw [show 2 * k.val + 2 + 1 - 2 = 2 * k.val + 1 by omega]; exact hY') fp)) $$ Hf7
  isplitl [HP]; · iexact HP
  iexists _; isplitr
  swap; · iexact HO
  ipureintro; exact (owes_ins (owes_ins hW' _) _)

set_option maxHeartbeats 4000000 in
theorem step_TTF (O : CellTallies nD τ sig (HIx 2)) (W : Waits sig (HIx 2)) (k : Fin k0_t1_loop.trips) (u : Unit)
    (h12 : wOf L + 64 * k.val + 32 < 3906) (hg : 0 < k.val) (h14 : ¬ (wOf L + 64 * k.val + 96 < 3906)) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := (cond12_iff L k).mpr h12
  have c13 := (cond13_iff L k).mpr h12
  have c14 := fun h => h14 ((cond14_iff L k).mp h)
  have c9 : cIn1 L k = 1#1 := (cIn1_iff L k).mpr h12
  have c10 : cG k = 1#1 := (cG_iff k).mpr hg
  have c11 : cOut1 L k = 1#1 := cOut1_true L k
  unfold cIn1 at c9; unfold cG at c10; unfold cOut1 at c11
  have hccI : wOf L + 32 * (2 * k.val + 1) < 3906 := by omega
  have hccO : 2 ≤ 2 * k.val + 1 ∧ wOf L + 32 * (2 * k.val + 1 - 2) < 3906 := by omega
  unfold Mid InSt1 OutSt1 OwesSt
  rw [if_pos hccI, dif_pos hccO]
  icases HM with ⟨#Hmw, HI0, HO0, ⟨%Wn, Hf5, Ht⟩, ⟨%Y, Hf7⟩, HP, %W', %hW', HO⟩
  -- the waits of this half: slab 2k + 1's copy in and slab 2k − 1's copy out, each if it was issued
  sl_exec
  unfold InLanded1
  icases Hf5_dst with ⟨%X, HA1, %hX⟩
  -- the transposition of the slab, sixty-four trips, by its own invariant
  sl_for (Body0Inner.innerInv1 d L X) $$ [HA1 Hf7_src]
  case region =>
    intro j u
    exact Body0Inner.inner1_step d L k c12 X j u
  · unfold Body0Inner.innerInv1
    isplitl [HA1]; · iexact HA1
    iexists Y; isplitl [Hf7_src]; · iexact Hf7_src
    ipureintro; intro dd col h; exact absurd h (by omega)
  iintro %_ HI
  unfold Body0Inner.innerInv1
  icases HI with ⟨HA1, %Y', Hf7_src, %hT⟩
  have hT64 : Body0Inner.TransposedUpTo (F := F) 1 64 X Y' := by
    have h := hT; rwa [show Scf.trips k0_t3_loop.lb k0_t3_loop.ub k0_t3_loop.st = 64 from Body0Inner.trips3] at h
  have hY' := pb_of_slab1 m d L _ hccI X Y' hX hT64
  rw [show 2 * k.val - 1 = 2 * k.val + 1 - 2 by omega]
  -- the slab whose copy out was awaited joins the written ones
  ihave HP := (Pend_put m d L (2 * k.val + 1 - 2) (2 * k.val + 1) (by omega) (by omega)) $$ [Hf7_dst HP]
  · isplitl [Hf7_dst]
    · rw [dif_pos hccO.2]; iexact Hf7_dst
    · iexact HP
  rw [show 2 * k.val + 1 - 2 + 1 = 2 * k.val by omega]
  -- this half's slab leaves the unwritten ones: its copy out is issued next
  ihave HP := (Pend_take m d L (2 * k.val) (2 * k.val + 1) (by omega) (by omega)) $$ HP
  rw [dif_pos hccI]
  unfold slabPend
  icases HP with ⟨⟨%fp, Hp⟩, HP⟩
  ihave Hp' := (Entails.of_eq (pend_win5 d L k c13 hccI fp)) $$ Hp
  sl_exec
  sl_step
  try unfold step_TTF.sl.dma0_1
  try unfold step_TTF.sl.dma0
  unfold Body0.inv
  rw [show 2 * (k.val + 1) = 2 * k.val + 2 by omega]
  rw [Nat.add_sub_cancel]
  rw [show 2 * k.val + 1 + 1 = 2 * k.val + 2 by omega]
  unfold InSt1 OutSt1 OwesSt
  rw [if_neg (show ¬ (wOf L + 32 * (2 * k.val + 2 + 1) < 3906) by omega), dif_pos (show 2 ≤ 2 * k.val + 2 + 1 ∧ wOf L + 32 * (2 * k.val + 2 + 1 - 2) < 3906 by omega)]
  isplitr; · iexact Hmw
  isplitl [HI0]; · iexact HI0
  isplitl [HO0]; · iexact HO0
  isplitl [HA1 Hf5 Ht]
  · isplitl [HA1]; · iexists _; iexact HA1
    isplitl [Hf5]; · iexact Hf5
    iexact Ht
  isplitl [Hf7]
  · iexists Y'
    iapply (Transfers.Flight_mono countersEmb (thr d L) (out_mono1 m d L k c13 ⟨wOf L + 32 * (2 * k.val + 2 + 1 - 2), by omega⟩ (by show wOf L + 32 * (2 * k.val + 2 + 1 - 2) = _; omega) Y' (by show PbHolds m d L 1 (wOf L + 32 * (2 * k.val + 2 + 1 - 2)) Y'; rw [show 2 * k.val + 2 + 1 - 2 = 2 * k.val + 1 by omega]; exact hY') fp)) $$ Hf7
  isplitl [HP]; · iexact HP
  iexists _; isplitr
  swap; · iexact HO
  ipureintro; exact (owes_ins (owes_ins hW' _) _)

set_option maxHeartbeats 4000000 in
theorem step_TFT (O : CellTallies nD τ sig (HIx 2)) (W : Waits sig (HIx 2)) (k : Fin k0_t1_loop.trips) (u : Unit)
    (h12 : wOf L + 64 * k.val + 32 < 3906) (hg : ¬ (0 < k.val)) (h14 : wOf L + 64 * k.val + 96 < 3906) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := (cond12_iff L k).mpr h12
  have c13 := (cond13_iff L k).mpr h12
  have c14 := (cond14_iff L k).mpr h14
  have c9 : cIn1 L k = 1#1 := (cIn1_iff L k).mpr h12
  have c10 : ¬ cG k = 1#1 := fun h => hg ((cG_iff k).mp h)
  have c11 : cOut1 L k = 1#1 := cOut1_true L k
  unfold cIn1 at c9; unfold cG at c10; unfold cOut1 at c11
  have hccI : wOf L + 32 * (2 * k.val + 1) < 3906 := by omega
  have hccO : ¬ (2 ≤ 2 * k.val + 1 ∧ wOf L + 32 * (2 * k.val + 1 - 2) < 3906) := by omega
  unfold Mid InSt1 OutSt1 OwesSt
  rw [if_pos hccI, dif_neg hccO]
  icases HM with ⟨#Hmw, HI0, HO0, ⟨%Wn, Hf5, Ht⟩, ⟨⟨%Y, Hf7_src⟩, Hf7⟩, HP, %W', %hW', HO⟩
  -- the waits of this half: slab 2k + 1's copy in and slab 2k − 1's copy out, each if it was issued
  sl_exec
  unfold InLanded1
  icases Hf5_dst with ⟨%X, HA1, %hX⟩
  -- the transposition of the slab, sixty-four trips, by its own invariant
  sl_for (Body0Inner.innerInv1 d L X) $$ [HA1 Hf7_src]
  case region =>
    intro j u
    exact Body0Inner.inner1_step d L k c12 X j u
  · unfold Body0Inner.innerInv1
    isplitl [HA1]; · iexact HA1
    iexists Y; isplitl [Hf7_src]; · iexact Hf7_src
    ipureintro; intro dd col h; exact absurd h (by omega)
  iintro %_ HI
  unfold Body0Inner.innerInv1
  icases HI with ⟨HA1, %Y', Hf7_src, %hT⟩
  have hT64 : Body0Inner.TransposedUpTo (F := F) 1 64 X Y' := by
    have h := hT; rwa [show Scf.trips k0_t3_loop.lb k0_t3_loop.ub k0_t3_loop.st = 64 from Body0Inner.trips3] at h
  have hY' := pb_of_slab1 m d L _ hccI X Y' hX hT64
  rw [show 2 * k.val - 1 = 2 * k.val by omega]
  -- this half's slab leaves the unwritten ones: its copy out is issued next
  ihave HP := (Pend_take m d L (2 * k.val) (2 * k.val + 1) (by omega) (by omega)) $$ HP
  rw [dif_pos hccI]
  unfold slabPend
  icases HP with ⟨⟨%fp, Hp⟩, HP⟩
  ihave Hp' := (Entails.of_eq (pend_win5 d L k c13 hccI fp)) $$ Hp
  sl_exec
  sl_step
  try unfold step_TFT.sl.dma0_1
  try unfold step_TFT.sl.dma0
  unfold Body0.inv
  rw [show 2 * (k.val + 1) = 2 * k.val + 2 by omega]
  rw [Nat.add_sub_cancel]
  rw [show 2 * k.val + 1 + 1 = 2 * k.val + 2 by omega]
  unfold InSt1 OutSt1 OwesSt
  rw [if_pos (show wOf L + 32 * (2 * k.val + 2 + 1) < 3906 by omega), dif_pos (show 2 ≤ 2 * k.val + 2 + 1 ∧ wOf L + 32 * (2 * k.val + 2 + 1 - 2) < 3906 by omega)]
  isplitr; · iexact Hmw
  isplitl [HI0]; · iexact HI0
  isplitl [HO0]; · iexact HO0
  isplitl [Hf5 Ht]
  · iexists _
    isplitl [Hf5]
    · iapply (Transfers.Flight_mono countersEmb (thr d L) (in_mono1 m d L (wOf L + 32 * (2 * k.val + 2 + 1)) (k0_off6 L k) (k0_off6_inb L k c14) (off6_eq' L k _ (by omega)) X (qR L))) $$ Hf5
    · iexact Ht
  isplitl [Hf7]
  · iexists Y'
    iapply (Transfers.Flight_mono countersEmb (thr d L) (out_mono1 m d L k c13 ⟨wOf L + 32 * (2 * k.val + 2 + 1 - 2), by omega⟩ (by show wOf L + 32 * (2 * k.val + 2 + 1 - 2) = _; omega) Y' (by show PbHolds m d L 1 (wOf L + 32 * (2 * k.val + 2 + 1 - 2)) Y'; rw [show 2 * k.val + 2 + 1 - 2 = 2 * k.val + 1 by omega]; exact hY') fp)) $$ Hf7
  isplitl [HP]; · iexact HP
  iexists _; isplitr
  swap; · iexact HO
  ipureintro; exact (owes_ins hW' _)

set_option maxHeartbeats 4000000 in
theorem step_FTF (O : CellTallies nD τ sig (HIx 2)) (W : Waits sig (HIx 2)) (k : Fin k0_t1_loop.trips) (u : Unit)
    (h12 : ¬ (wOf L + 64 * k.val + 32 < 3906)) (hg : 0 < k.val) (h14 : ¬ (wOf L + 64 * k.val + 96 < 3906)) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  unfold k0_t1_body
  beta_reduce
  rw [wp_bind]
  refine (half0 m d L O W k).trans (wp_mono _ _ _ fun r => ?_)
  iintro ⟨%hr, HM⟩
  subst hr
  unfold R0
  have c12 := fun h => h12 ((cond12_iff L k).mp h)
  have c13 := fun h => h12 ((cond13_iff L k).mp h)
  have c14 := fun h => h14 ((cond14_iff L k).mp h)
  have c9 : ¬ cIn1 L k = 1#1 := fun h => h12 ((cIn1_iff L k).mp h)
  have c10 : cG k = 1#1 := (cG_iff k).mpr hg
  have c11 : cOut1 L k = 1#1 := cOut1_true L k
  unfold cIn1 at c9; unfold cG at c10; unfold cOut1 at c11
  have hccI : ¬ (wOf L + 32 * (2 * k.val + 1) < 3906) := by omega
  have hccO : 2 ≤ 2 * k.val + 1 ∧ wOf L + 32 * (2 * k.val + 1 - 2) < 3906 := by omega
  unfold Mid InSt1 OutSt1 OwesSt
  rw [if_neg hccI, dif_pos hccO]
  icases HM with ⟨#Hmw, HI0, HO0, ⟨⟨%X, HA1⟩, Hf5, Ht⟩, ⟨%Y, Hf7⟩, HP, %W', %hW', HO⟩
  -- the waits of this half: slab 2k + 1's copy in and slab 2k − 1's copy out, each if it was issued
  sl_exec
  rw [show 2 * k.val - 1 = 2 * k.val + 1 - 2 by omega]
  -- the slab whose copy out was awaited joins the written ones
  ihave HP := (Pend_put m d L (2 * k.val + 1 - 2) (2 * k.val + 1) (by omega) (by omega)) $$ [Hf7_dst HP]
  · isplitl [Hf7_dst]
    · rw [dif_pos hccO.2]; iexact Hf7_dst
    · iexact HP
  rw [show 2 * k.val + 1 - 2 + 1 = 2 * k.val by omega]
  ihave HP := (Entails.of_eq (Pend_top m d L (2 * k.val) (2 * k.val + 1) (2 * k.val + 2) (by omega) (by omega))) $$ HP
  sl_step
  try unfold step_FTF.sl.dma0_1
  try unfold step_FTF.sl.dma0
  unfold Body0.inv
  rw [show 2 * (k.val + 1) = 2 * k.val + 2 by omega]
  rw [Nat.add_sub_cancel]
  unfold InSt1 OutSt1 OwesSt
  rw [if_neg (show ¬ (wOf L + 32 * (2 * k.val + 2 + 1) < 3906) by omega), dif_neg (show ¬ (2 ≤ 2 * k.val + 2 + 1 ∧ wOf L + 32 * (2 * k.val + 2 + 1 - 2) < 3906) by omega)]
  isplitr; · iexact Hmw
  isplitl [HI0]; · iexact HI0
  isplitl [HO0]; · iexact HO0
  isplitl [HA1 Hf5 Ht]
  · isplitl [HA1]; · iexists _; iexact HA1
    isplitl [Hf5]; · iexact Hf5
    iexact Ht
  isplitl [Hf7_src Hf7]
  · isplitl [Hf7_src]; · iexists _; iexact Hf7_src
    iexact Hf7
  isplitl [HP]; · iexact HP
  iexists _; isplitr
  swap; · iexact HO
  ipureintro; exact (owes_ins hW' _)

set_option maxHeartbeats 4000000 in
/-- Trip `k` of the main loop. -/
theorem step (O : CellTallies nD τ sig (HIx 2)) (W : Waits sig (HIx 2)) (k : Fin k0_t1_loop.trips) (u : Unit) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 (v1Of L)
        (iota .scVector S16 32 [0] iota_S16_d0_w32_scVector) k u)
      (Body0.inv m d L O W (k.val + 1)) := by
  have hk : k.val < 62 := trips_eq ▸ k.isLt
  have hw := wOf_lt L
  by_cases h12 : wOf L + 64 * k.val + 32 < 3906 <;> by_cases hg : 0 < k.val <;> by_cases h14 : wOf L + 64 * k.val + 96 < 3906
  · exact step_TTT m d L O W k u h12 hg h14
  · exact step_TTF m d L O W k u h12 hg h14
  · exact step_TFT m d L O W k u h12 hg h14
  · exfalso; omega
  · exfalso; omega
  · exact step_FTF m d L O W k u h12 hg h14
  · exfalso; omega
  · exfalso; omega
end Step

section StepW
variable (m : (ℓ : Loc nD τ sig) → Buf (Elt F) ℓ) (d : Dev nD) (L : grid0.Coords)
/-- Trip `k`, at any spelling of the tile's number and of the lane numbers. -/
theorem step' (O : CellTallies nD τ sig (HIx 2)) (W : Waits sig (HIx 2)) (k : Fin k0_t1_loop.trips) (u : Unit)
    (v1 : BitVec 32) (v2 : IVec S16 32) (hv1 : v1 = v1Of L) (hv2 : v2 = iota .scVector S16 32 [0] iota_S16_d0_w32_scVector) :
    Body0.inv m d L O W k.val u ⊢ wp frame (wpE (defs₀ (F := F)) 𝒱₀ (thr d L) none) Set.univ
      (k0_t1_body L tW (Memref.isWhole_whole _) lW (Memref.isWhole_whole _) pW (Memref.isWhole_whole _)
        b0 (Memref.isWhole_whole _) b1 (Memref.isWhole_whole _) b2 (Memref.isWhole_whole _) b3 (Memref.isWhole_whole _)
        cc0_scratch4 cc0_scratch5 cc0_scratch6 cc0_scratch7 cc0_scoped0 cc0_scoped1 v1 v2 k u)
      (Body0.inv m d L O W (k.val + 1)) := by
  subst hv1 hv2
  exact step m d L O W k u
end StepW

section TailDefs
variable (m : (ℓ : Loc nD τ sig) → Buf (Elt F) ℓ) (d : Dev nD) (L : grid0.Coords)
/-- The table's last 64 rows transposed, at the tile's view of the array. -/
abbrev TL : Buf (Elt F) ((lW).view.loc (thr d L)) := (Cert.Lookup.tailT (Tiles.TAB m d) : Buf (Elt F) (Tiles.tailLoc d))
/-- The last 32 lines of the pair table, as the program's window spells them. -/
abbrev tailWin : Memref sig .scVector .hbm S32x128 .f32 :=
  (pW).slice (Rect.unit (s := S500000x128) ![499968, 0] S32x128.size inb_S500000x128_S32x128_499968_0) (fun _ => rfl)
end TailDefs

section TailL
variable (m : (ℓ : Loc nD τ sig) → Buf (Elt F) ℓ) (d : Dev nD) (L : grid0.Coords)

/-- The tail scratch after the copy in of the transposed tail. -/
def Ztail (f2 : Buf (Elt F) ((b2).view.loc (thr d L))) : Buf (Elt F) ((b2).view.loc (thr d L)) :=
  View.write (Elt F) (b2).view f2 (ReadAs.same.apply (View.read (Elt F) (lW).view (TL m d L))) Finset.univ

/-- It holds the table's last 64 rows transposed. -/
theorem Ztail_holds (f2 : Buf (Elt F) ((b2).view.loc (thr d L))) (r c : Fin 64) :
    (Ztail m d L f2 : S64x64.Idx → F .f32) (ix2 r c) = Cert.Lookup.tailT (Tiles.TAB m d) (ix2 r c) := by
  unfold Ztail
  have e : (ix2 r c : S64x64.Idx) = (b2).view.emb (ix2 r c) := rfl
  rw [e, View.write_emb_of_mem _ _ (Finset.mem_univ _)]
  show View.read (Elt F) (lW).view (TL m d L) (ix2 r c) = _
  rw [View.read_apply]
  rfl

/-- The copy out of the repacked tail landed: the pair table's last 32 lines hold the pair table's entries. -/
theorem tail_out (R : Buf (Elt F) ((b3).view.loc (thr d L)))
    (hR : ∀ (jj : Fin 32) (q : Fin 128), (R : S32x128.Idx → F .f32) (ix2 jj q)
      = Cert.Lookup.pairs (Tiles.TAB m d) (ix2 (⟨499968 + jj.val, by have := jj.isLt; omega⟩ : Fin 500000) q))
    (ft : Buf (Elt F) (Tiles.pairsLoc d)) :
    (((tailWin).view.loc (thr d L) ↦[(tailWin).view.set]{fullShare}
        (tailWin).view.writes (Elt F) ft [⟨Rect.whole _, ReadAs.same.apply (View.read (Elt F) (b3).view R)⟩] : sProp 𝕄))
      = (Tiles.pairsLoc d ↦[Tiles.tailSet]{fullShare} (Cert.Lookup.pairs (Tiles.TAB m d) : Buf (Elt F) (Tiles.pairsLoc d))) := by
  show (Tiles.pairsLoc d ↦[Tiles.tailSet]{fullShare} _ : sProp 𝕄) = _
  refine pointsTo_congr fun i hi => ?_
  obtain ⟨z, -, rfl⟩ := Finset.mem_map.mp hi
  rw [← View.write_univ_eq_writes_whole, View.writes_nil, View.write_emb_of_mem _ _ (Finset.mem_univ _)]
  show View.read (Elt F) (b3).view R z = _
  rw [View.read_apply]
  show (R : S32x128.Idx → F .f32) z = _
  have hz0 : (z 0).val < 32 := (z 0).isLt
  refine ((congrArg (R : S32x128.Idx → F .f32) (ValueIdx.eq_ix2 z)).trans (hR (z 0) (z 1))).trans ?_
  show Cert.Lookup.pairs (Tiles.TAB m d) _ = Cert.Lookup.pairs (Tiles.TAB m d) _
  congr 1
  have hemb : ∀ a, (((tailWin).view.emb z : S500000x128.Idx) a).val = (![499968, 0] : Fin 2 → Nat) a + 1 * (z a).val :=
    fun a => Rect.emb_apply (Rect.unit (s := S500000x128) ![499968, 0] S32x128.size inb_S500000x128_S32x128_499968_0) z a
  funext a
  apply Fin.ext
  match a with
  | ⟨0, _⟩ => exact (show 499968 + (z 0).val = (![499968, 0] : Fin 2 → Nat) 0 + 1 * (z 0).val by show _ = 499968 + 1 * (z 0).val; omega).trans (hemb 0).symm
  | ⟨1, _⟩ => exact (show (z 1).val = (![499968, 0] : Fin 2 → Nat) 1 + 1 * (z 1).val by show _ = 0 + 1 * (z 1).val; omega).trans (hemb 1).symm
end TailL

section Exit
variable (m : (ℓ : Loc nD τ sig) → Buf (Elt F) ℓ) (d : Dev nD) (L : grid0.Coords)
/-! ## The invariant at the loop's exit -/

theorem inv_exit_T (O : CellTallies nD τ sig (HIx 2)) (W : Waits sig (HIx 2)) (u : PUnit) (hw2 : wOf L < 2) :
    Body0.inv m d L O W 62 u ⊢ iprop(Transfers.MayWaits (thr d L) (none : HIx 2) O
      ∗ ((∃ X, (A0).view.loc (thr d L) ↦[(A0).view.set]{fullShare} X) ∗ semVal (thr d L, SemLoc.dma cc0_scratch4.sem) 0 ∗ ((tW).view.loc (thr d L) ↦{qL L} TT m d L))
      ∗ (∃ Y, Transfers.Flight countersEmb (thr d L) (SemLoc.dma cc0_scratch6.sem) default 524288
          iprop(slabDone m d ⟨wOf L + 32 * (2 * 62 - 2), by omega⟩ ∗ ((B0).view.loc (thr d L) ↦[(B0).view.set]{fullShare} Y)))
      ∗ ((∃ X, (A1).view.loc (thr d L) ↦[(A1).view.set]{fullShare} X) ∗ semVal (thr d L, SemLoc.dma cc0_scratch5.sem) 0 ∗ ((tW).view.loc (thr d L) ↦{qR L} TT m d L))
      ∗ ((∃ Y, (B1).view.loc (thr d L) ↦[(B1).view.set]{fullShare} Y) ∗ semVal (thr d L, SemLoc.dma cc0_scratch7.sem) 0)
      ∗ Pend m d L (2 * 62 - 2) (2 * 62) ∗ ∃ W', ⌜∀ p ∈ W', p ∈ W ∨ p.2 = none⌝ ∗ owes (thr d L) O W') := by
  have hw := wOf_lt L
  unfold Body0.inv InSt0 OutSt0 InSt1 OutSt1 OwesSt
  rw [if_neg (show ¬ wOf L + 32 * (2 * 62) < 3906 by omega), dif_pos (show 2 ≤ 2 * 62 ∧ wOf L + 32 * (2 * 62 - 2) < 3906 by omega),
    if_neg (show ¬ wOf L + 32 * (2 * 62 + 1) < 3906 by omega), dif_neg (show ¬ (2 ≤ 2 * 62 + 1 ∧ wOf L + 32 * (2 * 62 + 1 - 2) < 3906) by omega)]

theorem inv_exit_F (O : CellTallies nD τ sig (HIx 2)) (W : Waits sig (HIx 2)) (u : PUnit) (hw2 : ¬ wOf L < 2) :
    Body0.inv m d L O W 62 u ⊢ iprop(Transfers.MayWaits (thr d L) (none : HIx 2) O
      ∗ ((∃ X, (A0).view.loc (thr d L) ↦[(A0).view.set]{fullShare} X) ∗ semVal (thr d L, SemLoc.dma cc0_scratch4.sem) 0 ∗ ((tW).view.loc (thr d L) ↦{qL L} TT m d L))
      ∗ ((∃ Y, (B0).view.loc (thr d L) ↦[(B0).view.set]{fullShare} Y) ∗ semVal (thr d L, SemLoc.dma cc0_scratch6.sem) 0)
      ∗ ((∃ X, (A1).view.loc (thr d L) ↦[(A1).view.set]{fullShare} X) ∗ semVal (thr d L, SemLoc.dma cc0_scratch5.sem) 0 ∗ ((tW).view.loc (thr d L) ↦{qR L} TT m d L))
      ∗ ((∃ Y, (B1).view.loc (thr d L) ↦[(B1).view.set]{fullShare} Y) ∗ semVal (thr d L, SemLoc.dma cc0_scratch7.sem) 0)
      ∗ Pend m d L (2 * 62 - 2) (2 * 62) ∗ ∃ W', ⌜∀ p ∈ W', p ∈ W ∨ p.2 = none⌝ ∗ owes (thr d L) O W') := by
  have hw := wOf_lt L
  unfold Body0.inv InSt0 OutSt0 InSt1 OutSt1 OwesSt
  rw [if_neg (show ¬ wOf L + 32 * (2 * 62) < 3906 by omega), dif_neg (show ¬ (2 ≤ 2 * 62 ∧ wOf L + 32 * (2 * 62 - 2) < 3906) by omega),
    if_neg (show ¬ wOf L + 32 * (2 * 62 + 1) < 3906 by omega), dif_neg (show ¬ (2 ≤ 2 * 62 + 1 ∧ wOf L + 32 * (2 * 62 + 1 - 2) < 3906) by omega)]

end Exit

section Main
variable (m : (ℓ : Loc nD τ sig) → Buf (Elt F) ℓ) (d : Dev nD) (L : grid0.Coords)

set_option maxHeartbeats 4000000 in
theorem body_core_TT (hw2 : wOf L < 2) (hw0 : wOf L = 0) (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  simp only [cc0_k_eq_skeleton]; unfold cc0_k_skel
  have h1 := cond1_true L
  have h2 := cond2_true L
  unfold Tiles.go0
  iintro ⟨#Hlv, ⟨HtL, HtR, Hl, Hslabs, Htail⟩, H0, H1, ⟨%f2, H2⟩, ⟨%f3, H3⟩, Hs4, Hs5, Hs6, Hs7, HsA, HsB, HO⟩
  ihave Hmw := ((K (F := F)).mayWaits_none (thr := thr d L) hO) $$ Hlv
  ihave HA := (splitA (F := F) d L) $$ H0
  icases HA with ⟨⟨%fa0, HA0⟩, ⟨%fa1, HA1⟩⟩
  ihave HB := (splitB (F := F) d L) $$ H1
  icases HB with ⟨⟨%fb0, HB0⟩, ⟨%fb1, HB1⟩⟩
  ihave HA0' := (Entails.of_eq (show (((A0).view.loc (thr d L) ↦[(A0).view.set]{fullShare} fa0 : sProp 𝕄)) = _ from rfl).symm) $$ HA0
  ihave HA1' := (Entails.of_eq (show (((A1).view.loc (thr d L) ↦[(A1).view.set]{fullShare} fa1 : sProp 𝕄)) = _ from rfl).symm) $$ HA1
  ihave Ht1' := (Entails.of_eq (show (((tW).view.loc (thr d L) ↦{qL L} TT m d L : sProp 𝕄)) = _ from rfl).symm) $$ HtL
  ihave Ht2' := (Entails.of_eq (show (((tW).view.loc (thr d L) ↦{qR L} TT m d L : sProp 𝕄)) = _ from rfl).symm) $$ HtR
  sl_exec
  try unfold body_core_TT.sl.dma0
  try unfold body_core_TT.sl.dma0_1
  -- the sixty-two trips, by the invariant: at entry both first copies in are in flight and no slab is written
  sl_for (Body0.inv m d L O W) $$ [Hmw Hs4 Ht1' Hs5 Ht2' HB0 HB1 Hs6 Hs7 Hslabs HO]
  case region =>
    intro k u
    exact step' m d L O W k u _ _ rfl rfl
  · unfold Body0.inv InSt0 OutSt0 InSt1 OutSt1 OwesSt
    rw [if_pos (show wOf L + 32 * (2 * 0) < 3906 by omega), dif_neg (show ¬ (2 ≤ 2 * 0 ∧ wOf L + 32 * (2 * 0 - 2) < 3906) by omega),
      if_pos (show wOf L + 32 * (2 * 0 + 1) < 3906 by omega), dif_neg (show ¬ (2 ≤ 2 * 0 + 1 ∧ wOf L + 32 * (2 * 0 + 1 - 2) < 3906) by omega)]
    isplitr; · iexact Hmw
    isplitl [Hs4 Ht1']
    · iexists _
      isplitl [Hs4]
      · iapply (Transfers.Flight_mono countersEmb (thr d L) (in_mono0 m d L (wOf L + 32 * (2 * 0)) (k0_off1 L) (k0_off1_inb L h1) (off1_eq' L _ (by omega)) fa0 (qL L))) $$ Hs4
      · iexact Ht1'
    isplitl [HB0 Hs6]
    · isplitl [HB0]; · iexists _; iexact HB0
      iexact Hs6
    isplitl [Hs5 Ht2']
    · iexists _
      isplitl [Hs5]
      · iapply (Transfers.Flight_mono countersEmb (thr d L) (in_mono1 m d L (wOf L + 32 * (2 * 0 + 1)) (k0_off2 L) (k0_off2_inb L h2) (off2_eq' L _ (by omega)) fa1 (qR L))) $$ Hs5
      · iexact Ht2'
    isplitl [HB1 Hs7]
    · isplitl [HB1]; · iexists _; iexact HB1
      iexact Hs7
    isplitl [Hslabs]
    · iapply (Entails.of_eq (Pend_init m d L)) $$ Hslabs
    iexists W; isplitr
    · ipureintro; intro p hp; exact Or.inl hp
    · iexact HO
  iintro %uu HI
  ihave HI := (Entails.of_eq (congrArg (fun n => Body0.inv m d L O W n uu) (show Scf.trips k0_t1_loop.lb k0_t1_loop.ub k0_t1_loop.st = 62 from trips_eq))) $$ HI
  have c15 : cEnd0 L = 1#1 := (cEnd0_iff L).mpr hw2
  have c16 := cEnd1_false L
  have c17 : k0_cond17 L = 1#1 := (cond17_iff L).mpr hw0
  unfold cEnd0 at c15; unfold cEnd1 at c16
  ihave HI := (inv_exit_T m d L O W uu hw2) $$ HI
  icases HI with ⟨#Hmw2, ⟨⟨%X0, HA0⟩, Hs4, HtL⟩, ⟨%Y0, Hf6⟩, ⟨⟨%X1, HA1⟩, Hs5, HtR⟩, ⟨⟨%Y1, HB1⟩, Hs7⟩, HP, %W', %hW', HO⟩
  ihave Htail := (Entails.of_eq (if_pos (show Tiles.wid (Tiles.c0Of L) (Tiles.s0Of L) = 0 from hw0))) $$ Htail
  icases Htail with ⟨%ft, Htail⟩
  ihave Hl' := (Entails.of_eq (show (((lW).view.loc (thr d L) ↦{Tiles.tileShare (Tiles.c0Of L) (Tiles.s0Of L)} TL m d L : sProp 𝕄)) = _ from rfl).symm) $$ Hl
  ihave H2' := (Entails.of_eq (show (((b2).view.loc (thr d L) ↦{fullShare} f2 : sProp 𝕄)) = _ from rfl).symm) $$ H2
  ihave H3' := (Entails.of_eq (show (((b3).view.loc (thr d L) ↦{fullShare} f3 : sProp 𝕄)) = _ from rfl).symm) $$ H3
  ihave Htail' := (Entails.of_eq (show ((((tailWin).view.loc (thr d L) ↦[(tailWin).view.set]{fullShare} ft : sProp 𝕄))) = _ from rfl).symm) $$ Htail
  sl_exec
  try unfold body_core_TT.sl.dma0_2
  -- the repacking of the tail, sixteen trips, by its own invariant
  sl_for (Body0Inner.innerInvT d L (Ztail m d L f2)) $$ [H2' H3']
  case region =>
    intro j u
    exact Body0Inner.innerT_step d L c17 (Ztail m d L f2) j u
  · unfold Body0Inner.innerInvT
    isplitl [H2']; · iexact H2'
    iexists f3; isplitl [H3']; · iexact H3'
    ipureintro; intro jj q h; exact absurd h (by omega)
  iintro %_ HI
  unfold Body0Inner.innerInvT
  icases HI with ⟨H2, %R, H3, %hR⟩
  have hR16 : ∀ (jj : Fin 32) (q : Fin 128), (R : S32x128.Idx → F .f32) (ix2 jj q)
      = Cert.Lookup.pairs (Tiles.TAB m d) (ix2 (⟨499968 + jj.val, by have := jj.isLt; omega⟩ : Fin 500000) q) := by
    intro jj q
    have h := hR
    rw [show Scf.trips k0_t4_loop.lb k0_t4_loop.ub k0_t4_loop.st = 16 from Body0Inner.trips4] at h
    exact Body0TailVal.tail_pairs (Tiles.TAB m d) (Ztail m d L f2) R (Ztail_holds m d L f2)
      (fun jj q => h jj q (by have := jj.isLt; have := q.isLt; omega)) jj q
  sl_exec
  sl_step
  try unfold body_core_TT.sl.dma0_3
  ihave HP := (Pend_put m d L (2 * 62 - 2) (2 * 62) (by omega) (by omega)) $$ [Hf6_dst HP]
  · isplitl [Hf6_dst]
    · rw [dif_pos (show wOf L + 32 * (2 * 62 - 2) < 3906 by omega)]; iexact Hf6_dst
    · iexact HP
  ihave HP := (Entails.of_eq (Pend_exit m d L (2 * 62))) $$ HP
  ihave Htl := (Entails.of_eq (tail_out m d L R hR16 ft)) $$ Htail'
  unfold Tiles.td0
  rw [if_pos (show Tiles.wid (Tiles.c0Of L) (Tiles.s0Of L) = 0 from hw0)]
  isplitl [HtL HtR Hl' HP Htl]
  · isplitl [HtL]; · iexact HtL
    isplitl [HtR]; · iexact HtR
    isplitl [Hl']; · iexact Hl'
    isplitl [HP]; · iexact HP
    iexact Htl
  isplitl [HA0 HA1]
  · iapply (joinA (F := F) d L); isplitl [HA0]; · iexists _; iexact HA0
    iexists _; iexact HA1
  isplitl [Hf6_src HB1]
  · iapply (joinB (F := F) d L); isplitl [Hf6_src]; · iexists _; iexact Hf6_src
    iexists _; iexact HB1
  isplitl [H2]; · iexists _; iexact H2
  isplitl [H3]; · iexists _; iexact H3
  isplitl [Hs4]; · iexact Hs4
  isplitl [Hs5]; · iexact Hs5
  isplitl [Hf6]; · iexact Hf6
  isplitl [Hs7]; · iexact Hs7
  isplitl [HsA]; · iexact HsA
  isplitl [HsB]; · iexact HsB
  iexists _; isplitr
  swap; · iexact HO
  ipureintro; exact (owes_ins (owes_ins (owes_ins hW' _) _) _)

set_option maxHeartbeats 4000000 in
theorem body_core_TF (hw2 : wOf L < 2) (hw0 : ¬ wOf L = 0) (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  simp only [cc0_k_eq_skeleton]; unfold cc0_k_skel
  have h1 := cond1_true L
  have h2 := cond2_true L
  unfold Tiles.go0
  iintro ⟨#Hlv, ⟨HtL, HtR, Hl, Hslabs, Htail⟩, H0, H1, ⟨%f2, H2⟩, ⟨%f3, H3⟩, Hs4, Hs5, Hs6, Hs7, HsA, HsB, HO⟩
  ihave Hmw := ((K (F := F)).mayWaits_none (thr := thr d L) hO) $$ Hlv
  ihave HA := (splitA (F := F) d L) $$ H0
  icases HA with ⟨⟨%fa0, HA0⟩, ⟨%fa1, HA1⟩⟩
  ihave HB := (splitB (F := F) d L) $$ H1
  icases HB with ⟨⟨%fb0, HB0⟩, ⟨%fb1, HB1⟩⟩
  ihave HA0' := (Entails.of_eq (show (((A0).view.loc (thr d L) ↦[(A0).view.set]{fullShare} fa0 : sProp 𝕄)) = _ from rfl).symm) $$ HA0
  ihave HA1' := (Entails.of_eq (show (((A1).view.loc (thr d L) ↦[(A1).view.set]{fullShare} fa1 : sProp 𝕄)) = _ from rfl).symm) $$ HA1
  ihave Ht1' := (Entails.of_eq (show (((tW).view.loc (thr d L) ↦{qL L} TT m d L : sProp 𝕄)) = _ from rfl).symm) $$ HtL
  ihave Ht2' := (Entails.of_eq (show (((tW).view.loc (thr d L) ↦{qR L} TT m d L : sProp 𝕄)) = _ from rfl).symm) $$ HtR
  sl_exec
  try unfold body_core_TF.sl.dma0
  try unfold body_core_TF.sl.dma0_1
  -- the sixty-two trips, by the invariant: at entry both first copies in are in flight and no slab is written
  sl_for (Body0.inv m d L O W) $$ [Hmw Hs4 Ht1' Hs5 Ht2' HB0 HB1 Hs6 Hs7 Hslabs HO]
  case region =>
    intro k u
    exact step' m d L O W k u _ _ rfl rfl
  · unfold Body0.inv InSt0 OutSt0 InSt1 OutSt1 OwesSt
    rw [if_pos (show wOf L + 32 * (2 * 0) < 3906 by omega), dif_neg (show ¬ (2 ≤ 2 * 0 ∧ wOf L + 32 * (2 * 0 - 2) < 3906) by omega),
      if_pos (show wOf L + 32 * (2 * 0 + 1) < 3906 by omega), dif_neg (show ¬ (2 ≤ 2 * 0 + 1 ∧ wOf L + 32 * (2 * 0 + 1 - 2) < 3906) by omega)]
    isplitr; · iexact Hmw
    isplitl [Hs4 Ht1']
    · iexists _
      isplitl [Hs4]
      · iapply (Transfers.Flight_mono countersEmb (thr d L) (in_mono0 m d L (wOf L + 32 * (2 * 0)) (k0_off1 L) (k0_off1_inb L h1) (off1_eq' L _ (by omega)) fa0 (qL L))) $$ Hs4
      · iexact Ht1'
    isplitl [HB0 Hs6]
    · isplitl [HB0]; · iexists _; iexact HB0
      iexact Hs6
    isplitl [Hs5 Ht2']
    · iexists _
      isplitl [Hs5]
      · iapply (Transfers.Flight_mono countersEmb (thr d L) (in_mono1 m d L (wOf L + 32 * (2 * 0 + 1)) (k0_off2 L) (k0_off2_inb L h2) (off2_eq' L _ (by omega)) fa1 (qR L))) $$ Hs5
      · iexact Ht2'
    isplitl [HB1 Hs7]
    · isplitl [HB1]; · iexists _; iexact HB1
      iexact Hs7
    isplitl [Hslabs]
    · iapply (Entails.of_eq (Pend_init m d L)) $$ Hslabs
    iexists W; isplitr
    · ipureintro; intro p hp; exact Or.inl hp
    · iexact HO
  iintro %uu HI
  ihave HI := (Entails.of_eq (congrArg (fun n => Body0.inv m d L O W n uu) (show Scf.trips k0_t1_loop.lb k0_t1_loop.ub k0_t1_loop.st = 62 from trips_eq))) $$ HI
  have c15 : cEnd0 L = 1#1 := (cEnd0_iff L).mpr hw2
  have c16 := cEnd1_false L
  have c17 : ¬ (k0_cond17 L = 1#1) := fun h => hw0 ((cond17_iff L).mp h)
  unfold cEnd0 at c15; unfold cEnd1 at c16
  ihave HI := (inv_exit_T m d L O W uu hw2) $$ HI
  icases HI with ⟨#Hmw2, ⟨⟨%X0, HA0⟩, Hs4, HtL⟩, ⟨%Y0, Hf6⟩, ⟨⟨%X1, HA1⟩, Hs5, HtR⟩, ⟨⟨%Y1, HB1⟩, Hs7⟩, HP, %W', %hW', HO⟩
  ihave Htail := (Entails.of_eq (if_neg (show ¬ (Tiles.wid (Tiles.c0Of L) (Tiles.s0Of L) = 0) from hw0))) $$ Htail
  sl_exec
  sl_step
  ihave HP := (Pend_put m d L (2 * 62 - 2) (2 * 62) (by omega) (by omega)) $$ [Hf6_dst HP]
  · isplitl [Hf6_dst]
    · rw [dif_pos (show wOf L + 32 * (2 * 62 - 2) < 3906 by omega)]; iexact Hf6_dst
    · iexact HP
  ihave HP := (Entails.of_eq (Pend_exit m d L (2 * 62))) $$ HP
  unfold Tiles.td0
  rw [if_neg (show ¬ Tiles.wid (Tiles.c0Of L) (Tiles.s0Of L) = 0 from hw0)]
  isplitl [HtL HtR Hl HP Htail]
  · isplitl [HtL]; · iexact HtL
    isplitl [HtR]; · iexact HtR
    isplitl [Hl]; · iexact Hl
    isplitl [HP]; · iexact HP
    iexact Htail
  isplitl [HA0 HA1]
  · iapply (joinA (F := F) d L); isplitl [HA0]; · iexists _; iexact HA0
    iexists _; iexact HA1
  isplitl [Hf6_src HB1]
  · iapply (joinB (F := F) d L); isplitl [Hf6_src]; · iexists _; iexact Hf6_src
    iexists _; iexact HB1
  isplitl [H2]; · iexists _; iexact H2
  isplitl [H3]; · iexists _; iexact H3
  isplitl [Hs4]; · iexact Hs4
  isplitl [Hs5]; · iexact Hs5
  isplitl [Hf6]; · iexact Hf6
  isplitl [Hs7]; · iexact Hs7
  isplitl [HsA]; · iexact HsA
  isplitl [HsB]; · iexact HsB
  iexists _; isplitr
  swap; · iexact HO
  ipureintro; exact (owes_ins hW' _)

set_option maxHeartbeats 4000000 in
theorem body_core_FF (hw2 : ¬ wOf L < 2) (hw0 : ¬ wOf L = 0) (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  simp only [cc0_k_eq_skeleton]; unfold cc0_k_skel
  have h1 := cond1_true L
  have h2 := cond2_true L
  unfold Tiles.go0
  iintro ⟨#Hlv, ⟨HtL, HtR, Hl, Hslabs, Htail⟩, H0, H1, ⟨%f2, H2⟩, ⟨%f3, H3⟩, Hs4, Hs5, Hs6, Hs7, HsA, HsB, HO⟩
  ihave Hmw := ((K (F := F)).mayWaits_none (thr := thr d L) hO) $$ Hlv
  ihave HA := (splitA (F := F) d L) $$ H0
  icases HA with ⟨⟨%fa0, HA0⟩, ⟨%fa1, HA1⟩⟩
  ihave HB := (splitB (F := F) d L) $$ H1
  icases HB with ⟨⟨%fb0, HB0⟩, ⟨%fb1, HB1⟩⟩
  ihave HA0' := (Entails.of_eq (show (((A0).view.loc (thr d L) ↦[(A0).view.set]{fullShare} fa0 : sProp 𝕄)) = _ from rfl).symm) $$ HA0
  ihave HA1' := (Entails.of_eq (show (((A1).view.loc (thr d L) ↦[(A1).view.set]{fullShare} fa1 : sProp 𝕄)) = _ from rfl).symm) $$ HA1
  ihave Ht1' := (Entails.of_eq (show (((tW).view.loc (thr d L) ↦{qL L} TT m d L : sProp 𝕄)) = _ from rfl).symm) $$ HtL
  ihave Ht2' := (Entails.of_eq (show (((tW).view.loc (thr d L) ↦{qR L} TT m d L : sProp 𝕄)) = _ from rfl).symm) $$ HtR
  sl_exec
  try unfold body_core_FF.sl.dma0
  try unfold body_core_FF.sl.dma0_1
  -- the sixty-two trips, by the invariant: at entry both first copies in are in flight and no slab is written
  sl_for (Body0.inv m d L O W) $$ [Hmw Hs4 Ht1' Hs5 Ht2' HB0 HB1 Hs6 Hs7 Hslabs HO]
  case region =>
    intro k u
    exact step' m d L O W k u _ _ rfl rfl
  · unfold Body0.inv InSt0 OutSt0 InSt1 OutSt1 OwesSt
    rw [if_pos (show wOf L + 32 * (2 * 0) < 3906 by omega), dif_neg (show ¬ (2 ≤ 2 * 0 ∧ wOf L + 32 * (2 * 0 - 2) < 3906) by omega),
      if_pos (show wOf L + 32 * (2 * 0 + 1) < 3906 by omega), dif_neg (show ¬ (2 ≤ 2 * 0 + 1 ∧ wOf L + 32 * (2 * 0 + 1 - 2) < 3906) by omega)]
    isplitr; · iexact Hmw
    isplitl [Hs4 Ht1']
    · iexists _
      isplitl [Hs4]
      · iapply (Transfers.Flight_mono countersEmb (thr d L) (in_mono0 m d L (wOf L + 32 * (2 * 0)) (k0_off1 L) (k0_off1_inb L h1) (off1_eq' L _ (by omega)) fa0 (qL L))) $$ Hs4
      · iexact Ht1'
    isplitl [HB0 Hs6]
    · isplitl [HB0]; · iexists _; iexact HB0
      iexact Hs6
    isplitl [Hs5 Ht2']
    · iexists _
      isplitl [Hs5]
      · iapply (Transfers.Flight_mono countersEmb (thr d L) (in_mono1 m d L (wOf L + 32 * (2 * 0 + 1)) (k0_off2 L) (k0_off2_inb L h2) (off2_eq' L _ (by omega)) fa1 (qR L))) $$ Hs5
      · iexact Ht2'
    isplitl [HB1 Hs7]
    · isplitl [HB1]; · iexists _; iexact HB1
      iexact Hs7
    isplitl [Hslabs]
    · iapply (Entails.of_eq (Pend_init m d L)) $$ Hslabs
    iexists W; isplitr
    · ipureintro; intro p hp; exact Or.inl hp
    · iexact HO
  iintro %uu HI
  ihave HI := (Entails.of_eq (congrArg (fun n => Body0.inv m d L O W n uu) (show Scf.trips k0_t1_loop.lb k0_t1_loop.ub k0_t1_loop.st = 62 from trips_eq))) $$ HI
  have c15 : ¬ (cEnd0 L = 1#1) := fun h => hw2 ((cEnd0_iff L).mp h)
  have c16 := cEnd1_false L
  have c17 : ¬ (k0_cond17 L = 1#1) := fun h => hw0 ((cond17_iff L).mp h)
  unfold cEnd0 at c15; unfold cEnd1 at c16
  ihave HI := (inv_exit_F m d L O W uu hw2) $$ HI
  icases HI with ⟨#Hmw2, ⟨⟨%X0, HA0⟩, Hs4, HtL⟩, ⟨⟨%Y0, HB0⟩, Hs6⟩, ⟨⟨%X1, HA1⟩, Hs5, HtR⟩, ⟨⟨%Y1, HB1⟩, Hs7⟩, HP, %W', %hW', HO⟩
  ihave Htail := (Entails.of_eq (if_neg (show ¬ (Tiles.wid (Tiles.c0Of L) (Tiles.s0Of L) = 0) from hw0))) $$ Htail
  sl_exec
  sl_step
  ihave HP := (Pend_put m d L (2 * 62 - 2) (2 * 62) (by omega) (by omega)) $$ [HP]
  · isplitr
    · rw [dif_neg (show ¬ wOf L + 32 * (2 * 62 - 2) < 3906 by omega)]; iempintro
    · iexact HP
  ihave HP := (Entails.of_eq (Pend_exit m d L (2 * 62))) $$ HP
  unfold Tiles.td0
  rw [if_neg (show ¬ Tiles.wid (Tiles.c0Of L) (Tiles.s0Of L) = 0 from hw0)]
  isplitl [HtL HtR Hl HP Htail]
  · isplitl [HtL]; · iexact HtL
    isplitl [HtR]; · iexact HtR
    isplitl [Hl]; · iexact Hl
    isplitl [HP]; · iexact HP
    iexact Htail
  isplitl [HA0 HA1]
  · iapply (joinA (F := F) d L); isplitl [HA0]; · iexists _; iexact HA0
    iexists _; iexact HA1
  isplitl [HB0 HB1]
  · iapply (joinB (F := F) d L); isplitl [HB0]; · iexists _; iexact HB0
    iexists _; iexact HB1
  isplitl [H2]; · iexists _; iexact H2
  isplitl [H3]; · iexists _; iexact H3
  isplitl [Hs4]; · iexact Hs4
  isplitl [Hs5]; · iexact Hs5
  isplitl [Hs6]; · iexact Hs6
  isplitl [Hs7]; · iexact Hs7
  isplitl [HsA]; · iexact HsA
  isplitl [HsB]; · iexact HsB
  iexists _; isplitr
  swap; · iexact HO
  ipureintro; exact hW'

set_option maxHeartbeats 4000000 in
/-- The tile's task over its own four scratch buffers and six semaphores. -/
theorem body_core (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ (∃ f, (b0).view.loc (thr d L) ↦{fullShare} f) ∗ (∃ f, (b1).view.loc (thr d L) ↦{fullShare} f)
        ∗ (∃ f, (b2).view.loc (thr d L) ↦{fullShare} f) ∗ (∃ f, (b3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ semVal (thr d L, SemLoc.dma cc0_scoped1.sem) 0
        ∗ owes (thr d L) O W : sProp 𝕄)
      ⊢ wp frame (wpE (defs₀ (F := F)) 𝒱₀ (thr d L) none) Set.univ
          (cc0_k L tW (Memref.isWhole_whole _) lW (Memref.isWhole_whole _) pW (Memref.isWhole_whole _)
            b0 (Memref.isWhole_whole _) b1 (Memref.isWhole_whole _) b2 (Memref.isWhole_whole _) b3 (Memref.isWhole_whole _)
            cc0_scratch4 cc0_scratch5 cc0_scratch6 cc0_scratch7 cc0_scoped0 cc0_scoped1)
          fun _ => iprop(Tiles.td0 m d (Tiles.c0Of L) (Tiles.s0Of L)
            ∗ (∃ f, (b0).view.loc (thr d L) ↦{fullShare} f) ∗ (∃ f, (b1).view.loc (thr d L) ↦{fullShare} f)
            ∗ (∃ f, (b2).view.loc (thr d L) ↦{fullShare} f) ∗ (∃ f, (b3).view.loc (thr d L) ↦{fullShare} f)
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  have hw := wOf_lt L
  by_cases hw2 : wOf L < 2 <;> by_cases hw0 : wOf L = 0
  · exact body_core_TT m d L hw2 hw0 O W hO
  · exact body_core_TF m d L hw2 hw0 O W hO
  · exfalso; omega
  · exact body_core_FF m d L hw2 hw0 O W hO
end Main

/-- The repacking kernel's task on one vector subcore: handed its read shares of the transposed table and of
    the transposed tail and its slabs of the pair table unwritten, it hands them back with the slabs at the
    pair table's entries. -/
theorem tile_body0 (hF : (K (F := F)).Facts) (m : (ℓ : Loc nD τ sig) → Buf (Elt F) ℓ) (d : Dev nD) (L : grid0.Coords)
    (O : CellTallies nD τ sig (HIx 2)) (W : Waits sig (HIx 2)) (hO : ∀ g, O g none = 0) :
    iprop(levAts (K (F := F)).L (K (F := F)).lev ∗ Tiles.go0 m d (Tiles.c0Of L) (Tiles.s0Of L)
        ∗ scopedBufs (thr d L) ∗ scopedSems0 (thr d L) ∗ owes (thr d L) O W)
      ⊢ wp frame (wpE (defs₀ (F := F)) 𝒱₀ (thr d L) none) Set.univ
          (cc0_k L (Memref.whole main_v2_scv) (Memref.isWhole_whole _) (Memref.whole main_v4_scv) (Memref.isWhole_whole _) (Memref.whole main_v5_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1)
          fun _ => iprop(Tiles.td0 m d (Tiles.c0Of L) (Tiles.s0Of L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, Hgo, ⟨H0, H1, H2, H3, Hbufs⟩, ⟨Hs4, Hs5, Hs6, Hs7, HsA, HsB, Hsems⟩, HO⟩
  iapply (wp_wand_r (Fr := frame) (wpE := wpE (defs₀ (F := F)) 𝒱₀ (thr d L) none) (E := Set.univ))
  isplitl [Hgo H0 H1 H2 H3 Hs4 Hs5 Hs6 Hs7 HsA HsB HO]
  · iapply (body_core m d L O W hO)
    isplitr; · iexact Hlv
    isplitl [Hgo]; · iexact Hgo
    isplitl [H0]; · iexact H0
    isplitl [H1]; · iexact H1
    isplitl [H2]; · iexact H2
    isplitl [H3]; · iexact H3
    isplitl [Hs4]; · iexact Hs4
    isplitl [Hs5]; · iexact Hs5
    isplitl [Hs6]; · iexact Hs6
    isplitl [Hs7]; · iexact Hs7
    isplitl [HsA]; · iexact HsA
    isplitl [HsB]; · iexact HsB
    iexact HO
  · iintro %x ⟨Htd, H0, H1, H2, H3, Hs4, Hs5, Hs6, Hs7, HsA, HsB, HO⟩
    isplitl [Htd]; · iexact Htd
    isplitl [H0 H1 H2 H3 Hbufs]
    · isplitl [H0]; · iexact H0
      isplitl [H1]; · iexact H1
      isplitl [H2]; · iexact H2
      isplitl [H3]; · iexact H3
      iexact Hbufs
    isplitl [Hs4 Hs5 Hs6 Hs7 HsA HsB Hsems]
    · isplitl [Hs4]; · iexact Hs4
      isplitl [Hs5]; · iexact Hs5
      isplitl [Hs6]; · iexact Hs6
      isplitl [Hs7]; · iexact Hs7
      isplitl [HsA]; · iexact HsA
      isplitl [HsB]; · iexact HsB
      iexact Hsems
    iexact HO

end Cert.Proof.KB.Body0

end
-- ==== Proof.Body1Idx.lean ====
/-
  The gather kernel's first loop on one tile: the index words halved in place.

  The tile holds its slice of the flat index list in one scratch array and builds, in a second one,
  the list of pair-table lines to fetch: entry j of the second array is entry j of the first shifted
  right by one bit, sixteen entries a trip, 832 trips. An index word is at most 999999, so a halved
  word is at most 499999: a line of the pair table. The loop's invariant says that the first array
  holds index words in range throughout and that the entries of the second array written so far are
  lines of the pair table.
-/
import proofs.«204055_g19524921328135_cont_8to1_763_20_alg».proof.Proof.SetupKI
import Idealize.ShloMosaic.Lib.Pipeline.Value

noncomputable section

namespace Cert.Proof.KI.Body1

open Cert.KernelIdeal Cert.KernelIdeal.Gen Cert.Proof.KI
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

scoped notation "iW" => (Memref.whole Cert.KernelIdeal.main_v1_scv : Memref Cert.KernelIdeal.sig Kind.scVector Space.hbm Cert.KernelIdeal.S425984 EltTy.i32)
scoped notation "pW" => (Memref.whole Cert.KernelIdeal.main_v5_scv : Memref Cert.KernelIdeal.sig Kind.scVector Space.hbm Cert.KernelIdeal.S500000x128 EltTy.f32)
scoped notation "oW" => (Memref.whole Cert.KernelIdeal.main_v6_scv : Memref Cert.KernelIdeal.sig Kind.scVector Space.hbm Cert.KernelIdeal.S26x8x128x8x128 EltTy.f32)
scoped notation "s0" => (Memref.whole Cert.KernelIdeal.cc1_scratch0 : Memref Cert.KernelIdeal.sig Kind.scVector Space.vmem Cert.KernelIdeal.S13312 EltTy.i32)
scoped notation "s1" => (Memref.whole Cert.KernelIdeal.cc1_scratch1 : Memref Cert.KernelIdeal.sig Kind.scVector Space.vmem Cert.KernelIdeal.S13312 EltTy.i32)
scoped notation "s2" => (Memref.whole Cert.KernelIdeal.cc1_scratch2 : Memref Cert.KernelIdeal.sig Kind.scVector Space.vmem Cert.KernelIdeal.S2x128x128 EltTy.f32)
scoped notation "s3" => (Memref.whole Cert.KernelIdeal.cc1_scratch3 : Memref Cert.KernelIdeal.sig Kind.scVector Space.vmem Cert.KernelIdeal.S2x64x128 EltTy.f32)

variable (d : Dev nD) (L : grid1.Coords)

/-- The tile's SparseCore. -/
abbrev cV (L : grid1.Coords) : Fin τ.nSC := (L 0).castLE hcore1
/-- The tile's vector subcore. -/
abbrev jV (L : grid1.Coords) : Fin τ.nSub := (L 1).castLE hsub1
/-- The tile's thread. -/
abbrev thr (d : Dev nD) (L : grid1.Coords) : Thread nD τ := V d (cV L) (jV L)

/-- Before trip `k`: the first scratch array holds index words, each at most 999999; the entries of
    the second below `16 k` are at most 499999. -/
def inv1 (d : Dev nD) (L : grid1.Coords) (O : CellTallies nD τ sig (HIx 2)) (k : Nat) (_ : PUnit) : sProp 𝕄 :=
  iprop(Transfers.MayWaits (thr d L) (none : HIx 2) O
    ∗ (∃ X, ((s0).view.loc (thr d L) ↦{fullShare} X) ∗ ⌜∀ j : S13312.Idx, ((X j : BitVec 32)).toNat ≤ 999999⌝)
    ∗ (∃ g, ((s1).view.loc (thr d L) ↦{fullShare} g) ∗ ⌜∀ j : S13312.Idx, (j 0).val < 16 * k → ((g j : BitVec 32)).toNat ≤ 499999⌝))

/-! ## The halved words -/

/-- An index word at most 999999, shifted right by one bit, is at most 499999. -/
theorem shr_le (x : BitVec 32) (h : x.toNat ≤ 999999) : (IntOp.shrui .vector x 1#32).toNat ≤ 499999 := by
  have e : IntOp.shrui .vector x 1#32 = x >>> 1 := by simp [IntOp.shrui]
  rw [e, BitVec.toNat_ushiftRight, Nat.shiftRight_eq_div_pow]
  omega

/-- The second scratch array after trip `k`'s store: below `16 (k + 1)` every entry is at most 499999. -/
theorem stored_bound (k : Fin k1_t1_loop.trips)
    (X : S13312.Idx → BitVec 32) (g : S13312.Idx → BitVec 32)
    (hX : ∀ j : S13312.Idx, (X j).toNat ≤ 999999)
    (hg : ∀ j : S13312.Idx, (j 0).val < 16 * k.val → (g j).toNat ≤ 499999)
    (j : S13312.Idx) (hj : (j 0).val < 16 * (k.val + 1)) :
    (((s1).view.writes (Elt F) g
        [⟨Rect.unit (s := S13312) (k1_off2 k) S16.size (k1_off2_inb k),
          k1_pay39 (F := F) ((s0).view.readAt (Elt F) (Rect.unit (s := S13312) (k1_off2 k) S16.size (k1_off2_inb k)).toLoadRect X)⟩] j : BitVec 32)).toNat
      ≤ 499999 := by
  have e := congrFun (View.write_whole_slice_unit (Val := Elt F) cc1_scratch1 (k1_off2 k) S16.size (k1_off2_inb k) g
    (k1_pay39 (F := F) ((s0).view.readAt (Elt F) (Rect.unit (s := S13312) (k1_off2 k) S16.size (k1_off2_inb k)).toLoadRect X))) j
  refine (congrArg (BitVec.toNat (w := 32)) e).trans_le ?_
  unfold updateSlice
  split
  · exact shr_le _ (hX _)
  · next hin =>
    refine hg j ?_
    by_contra hc
    refine hin fun a => ?_
    have h0 : k1_off2 k 0 = 16 * k.val := by rw [k1_off2_eq k]; rfl
    match a with
    | ⟨0, _⟩ =>
      show k1_off2 k 0 ≤ (j 0).val ∧ (j 0).val < k1_off2 k 0 + 16
      omega

/-! ## One trip of the loop -/

/-- One trip: sixteen index words are loaded, halved and stored; the invariant moves from `k` to `k + 1`. -/
theorem step1 (O : CellTallies nD τ sig (HIx 2)) (k : Fin k1_t1_loop.trips) (u : Unit) :
    inv1 (F := F) d L O k.val u
      ⊢ wp frame (wpE (defs₀ (F := F)) 𝒱₀ (thr d L) none) Set.univ
          (k1_t1_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0 k u)
          (inv1 d L O (k.val + 1)) := by
  unfold inv1
  iintro ⟨Hmw, ⟨%X, H0, %hX⟩, %g, H1, %hg⟩
  sl_exec
  sl_step
  isplitl [Hmw]; · iexact Hmw
  isplitl [H0]
  · iexists X; isplitl [H0]
    · iexact H0
    · ipureintro; exact hX
  iexists _; isplitl [H1]
  · iexact H1
  · ipureintro; exact stored_bound (F := F) k X g hX hg

/-! ## After the loop -/

/-- The loop runs 832 trips. -/
theorem trips1 : Scf.trips k1_t1_loop.lb k1_t1_loop.ub k1_t1_loop.st = 832 := by decide

/-- At the loop's exit the bound covers `16 · 832` entries: the whole array. -/
theorem exit1 : 16 * Scf.trips k1_t1_loop.lb k1_t1_loop.ub k1_t1_loop.st = 16 * 832 := by rw [trips1]

/-- When every entry of the second scratch array is at most 499999, every word read through a
    unit-stride slice of it is below 500000: an offset inside the pair table. -/
theorem hin_of (g : S13312.Idx → BitVec 32)
    (hg : ∀ j : S13312.Idx, (j 0).val < 16 * 832 → (g j).toNat ≤ 499999) :
    ∀ (r : Rect S13312) (hr : ∀ a, r.stride a = 1) (x : r.shape.Idx),
      (((s1).slice r hr).view.read (Elt F) g x).toNat < 500000 := by
  intro r hr x
  have h := hg (((s1).slice r hr).view.emb x) (by
    have := (((s1).slice r hr).view.emb x 0).isLt
    exact this)
  exact Nat.lt_succ_of_le h

/-- The same from the invariant at the loop's exit. -/
theorem hin_of_exit (g : S13312.Idx → BitVec 32)
    (hg : ∀ j : S13312.Idx, (j 0).val < 16 * Scf.trips k1_t1_loop.lb k1_t1_loop.ub k1_t1_loop.st → (g j).toNat ≤ 499999) :
    ∀ (r : Rect S13312) (hr : ∀ a, r.stride a = 1) (x : r.shape.Idx),
      (((s1).slice r hr).view.read (Elt F) g x).toNat < 500000 :=
  hin_of (F := F) g (exit1 ▸ hg)

end Cert.Proof.KI.Body1

end
-- ==== Proof.Body1OffC.lean ====
/-
  The remaining closed forms of the gather kernel's chains: windows 6 and 7 of a block, the index words an inner trip reads, the trip counts, and the main loop's two conditions as inequalities on the trip number. Decided over the finitely many cases.
-/
import proofs.«204055_g19524921328135_cont_8to1_763_20_alg».proof.Proof.Tiles

set_option Elab.async false

namespace Cert.Proof.KI.Body1

open Cert.KernelIdeal Cert.KernelIdeal.Gen Cert.Proof.KI
open Idealize.ShloMosaic

/-- Window 6 of block b = 104·w + 2k + p sits at (b / 128, 6, b % 128, 0, 0). -/
theorem k1_off10_eq : ∀ (L : grid1.Coords) (k : Fin k1_t2_loop.trips) (p : Fin 2),
    k1_off10 L k (BitVec.ofNat 32 p.val) = ![(104 * (2 * (L 1).val + (L 0).val) + 2 * k.val + p.val) / 128, 6, (104 * (2 * (L 1).val + (L 0).val) + 2 * k.val + p.val) % 128, 0, 0] := by
  decide +kernel

/-- Window 7 of block b = 104·w + 2k + p sits at (b / 128, 7, b % 128, 0, 0). -/
theorem k1_off11_eq : ∀ (L : grid1.Coords) (k : Fin k1_t2_loop.trips) (p : Fin 2),
    k1_off11 L k (BitVec.ofNat 32 p.val) = ![(104 * (2 * (L 1).val + (L 0).val) + 2 * k.val + p.val) / 128, 7, (104 * (2 * (L 1).val + (L 0).val) + 2 * k.val + p.val) % 128, 0, 0] := by
  decide +kernel

/-- An inner trip t of block 2k reads the sixteen index words at 128·(2k) + 16·(t / 4); of block 2k + 1 likewise. -/
theorem k1_off3_eq : ∀ (k : Fin k1_t2_loop.trips) (t : Fin k1_t3_loop.trips), k1_off3 k t = ![128 * (2 * k.val) + 16 * (t.val / 4)] := by
  decide +kernel
theorem k1_off13_eq : ∀ (k : Fin k1_t2_loop.trips) (t : Fin k1_t4_loop.trips), k1_off13 k t = ![128 * (2 * k.val + 1) + 16 * (t.val / 4)] := by
  decide +kernel

/-- The loops' trip counts. -/
theorem trips2 : k1_t2_loop.trips = 52 := by decide
theorem trips3 : k1_t3_loop.trips = 32 := by decide
theorem trips4 : k1_t4_loop.trips = 32 := by decide

/-- A further gather is started for the first half of trip k, and for the second, exactly when k is not the last trip. -/
theorem k1_cond2_iff : ∀ k : Fin k1_t2_loop.trips, k1_cond2 k = 1#1 ↔ k.val < 51 := by decide +kernel
theorem k1_cond4_iff : ∀ k : Fin k1_t2_loop.trips, k1_cond4 k = 1#1 ↔ k.val < 51 := by decide +kernel
/-- The "not the first trip" test as the body computes it. -/
theorem gt0_iff : ∀ k : Fin k1_t2_loop.trips,
    Scalar.cmpi .ne (Scalar.extui (Scalar.cmpi .sgt (Scf.iv 0#32 1#32 k) 0#32)) 0#32 = 1#1 ↔ 0 < k.val := by decide +kernel

end Cert.Proof.KI.Body1
-- ==== Proof.Body1Inner.lean ====
/-
  The inner transposing loops of the gather kernel's second phase, one trip at a time.

  A trip t of 32 moves one 16 x 16 block of a half of the gathered-lines scratch (128 x 128 words) into the
  matching half of the transposed scratch (64 x 128 words): lane x reads row x + 16·⌊t/4⌋ and, in step s of
  16, column ((x + s) mod 16) + 16·(t mod 4) — in the left or the right 64 columns, as the low bit of the
  lane's index word says — and writes the word read at (that column mod 64, that row). Every index is inside
  the half it addresses, whatever the index words are; a trip leaves the index words and the gathered half
  as they were. First as a frame (the transposed half ends at some contents), then with the contents
  followed: after the 32 trips element (dd, r) of the transposed half is the gathered word of row r at
  column dd of the half that the block's index word r names.
-/
import proofs.«204055_g19524921328135_cont_8to1_763_20_alg».proof.Proof.Body1Idx
import proofs.«204055_g19524921328135_cont_8to1_763_20_alg».proof.Proof.Body1OffC
import Idealize.ShloMosaic.Lib.ValueIdx

noncomputable section

namespace Cert.Proof.KI.Body1

open Cert.KernelIdeal Cert.KernelIdeal.Gen Cert.Proof.KI
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

namespace Inner

/-- The lane numbering of a 16-lane vector. -/
abbrev lanes : IVec S16 32 := iota .scVector S16 32 [0] iota_S16_d0_w32_scVector

/-! ## The index words of the transposing loop

Trip t of 32 moves the 16 x 16 block (row block ⌊t/4⌋, column block t mod 4) of one half of the gathered
lines: lane x reads row x + 16·⌊t/4⌋, and in step s of 16 the column ((x + s) mod 16) + 16·(t mod 4) of
the half a loaded index word's low bit names (0 or 64 columns further). Every such word is inside the
128 x 128 half it reads and the 64 x 128 half it writes. -/

section Words

/-- Lane x of the lane numbering is x, below 16. -/
theorem lane_lt (x : S16.Idx) : (lanes x).toNat < 16 := by
  have hx : (x 0).val < 16 := (x 0).isLt
  have hs : S16.size 0 = 16 := rfl
  unfold lanes iota
  simp only [List.foldl_cons, List.foldl_nil, BitVec.toNat_ofNat]
  omega

/-- The row block of trip t, 16·⌊t/4⌋, as the kernel computes it: floor division over signed words. -/
def rowBase (t : Nat) : BitVec 32 :=
  let arg14 : BitVec 32 := Scf.iv 0#32 1#32 t
  let v419 : BitVec 32 := Scalar.divsi arg14 4#32
  let v420 : BitVec 1 := Scalar.cmpi .sgt arg14 0#32
  let v421 : BitVec 32 := Scalar.extui v420
  let v422 : BitVec 1 := Scalar.cmpi .slt arg14 0#32
  let v423 : BitVec 32 := Scalar.extui v422
  let v424 : BitVec 32 := Scalar.subi v421 v423
  let v425 : BitVec 1 := Scalar.cmpi .sgt 4#32 0#32
  let v426 : BitVec 32 := Scalar.extui v425
  let v427 : BitVec 1 := Scalar.cmpi .slt 4#32 0#32
  let v428 : BitVec 32 := Scalar.extui v427
  let v429 : BitVec 32 := Scalar.subi v426 v428
  let v430 : BitVec 1 := Scalar.cmpi .ne v424 v429
  let v431 : BitVec 32 := Scalar.remsi arg14 4#32
  let v432 : BitVec 1 := Scalar.cmpi .ne v431 0#32
  let v433 : BitVec 1 := Scalar.andi v430 v432
  let v434 : BitVec 32 := Scalar.subi v419 1#32
  let v435 : BitVec 32 := Scalar.select v433 v434 v419
  Scalar.muli v435 16#32

/-- The column block of trip t, 16·(t mod 4), as the kernel computes it: floor remainder over signed words. -/
def colBase (t : Nat) : BitVec 32 :=
  let arg14 : BitVec 32 := Scf.iv 0#32 1#32 t
  let v436 : BitVec 1 := Scalar.cmpi .eq 4#32 0#32
  let v437 : BitVec 32 := Scalar.select v436 1#32 4#32
  let v438 : BitVec 32 := Scalar.remsi arg14 v437
  let v439 : BitVec 1 := Scalar.cmpi .ne v438 0#32
  let v440 : BitVec 1 := Scalar.cmpi .slt v438 0#32
  let v441 : BitVec 1 := Scalar.cmpi .slt v437 0#32
  let v442 : BitVec 1 := Scalar.xori v440 v441
  let v443 : BitVec 1 := Scalar.andi v442 v439
  let v444 : BitVec 32 := Scalar.addi v438 v437
  let v445 : BitVec 32 := Scalar.select v443 v444 v438
  Scalar.muli v445 16#32

theorem rowBase_le : ∀ t : Fin 32, (rowBase t.val).toNat ≤ 112 := by decide +kernel
theorem colBase_le : ∀ t : Fin 32, (colBase t.val).toNat ≤ 48 := by decide +kernel

/-- A sum of two words whose bounds add up below 2³² is bounded by the sum of the bounds. -/
theorem toNat_addi_le {a b : BitVec 32} {m n : Nat} (ha : a.toNat ≤ m) (hb : b.toNat ≤ n) (h : m + n < 2 ^ 32) :
    (IntOp.addi a b).toNat ≤ m + n := by
  unfold IntOp.addi
  rw [BitVec.toNat_add]
  omega

/-- A word masked by 15 is at most 15. -/
theorem toNat_andi15_le (a : BitVec 32) : (IntOp.andi a 15#32).toNat ≤ 15 := by
  unfold IntOp.andi
  rw [BitVec.toNat_and]
  exact Nat.and_le_right

/-- The low bit of any word moved up six places is 0 or 64. -/
theorem toNat_half_le (w : BitVec 32) : (IntOp.shli .vector (IntOp.andi w 1#32) 6#32).toNat ≤ 64 := by
  have h : (IntOp.andi w 1#32).toNat ≤ 1 := by
    unfold IntOp.andi
    rw [BitVec.toNat_and]
    exact Nat.and_le_right
  have h01 : IntOp.andi w 1#32 = 0#32 ∨ IntOp.andi w 1#32 = 1#32 := by
    rcases Nat.le_one_iff_eq_zero_or_eq_one.1 h with h0 | h1
    · exact Or.inl (BitVec.eq_of_toNat_eq h0)
    · exact Or.inr (BitVec.eq_of_toNat_eq h1)
  rcases h01 with h0 | h1
  · rw [h0]; decide
  · rw [h1]; decide

/-- The row a lane reads in trip t is inside the 128 rows. -/
theorem rowv_lt (t : Fin 32) (x : S16.Idx) : (addi lanes (broadcast S16 (rowBase t.val)) x).toNat < 128 := by
  have h := toNat_addi_le (Nat.le_of_lt_succ (lane_lt x)) (rowBase_le t) (by decide)
  show (IntOp.addi (lanes x) (rowBase t.val)).toNat < 128
  omega

/-- The column a lane writes in step s of trip t is inside the 64 columns of a half. -/
theorem perm_lt (s : BitVec 32) (t : Fin 32) (x : S16.Idx) :
    (addi (andi (addi lanes (broadcast S16 s)) (broadcast S16 15#32)) (broadcast S16 (colBase t.val)) x).toNat < 64 := by
  have h := toNat_addi_le (toNat_andi15_le (IntOp.addi (lanes x) s)) (colBase_le t) (by decide)
  show (IntOp.addi (IntOp.andi (IntOp.addi (lanes x) s) 15#32) (colBase t.val)).toNat < 64
  omega

/-- The column a lane reads in step s of trip t, in the half its index word names, is inside the 128 columns. -/
theorem col_lt (s : BitVec 32) (t : Fin 32) (v : IVec S16 32) (x : S16.Idx) :
    (addi (addi (andi (addi lanes (broadcast S16 s)) (broadcast S16 15#32)) (broadcast S16 (colBase t.val)))
      (shli (andi v (broadcast S16 1#32)) (broadcast S16 6#32)) x).toNat < 128 := by
  have h1 := toNat_addi_le (toNat_andi15_le (IntOp.addi (lanes x) s)) (colBase_le t) (by decide)
  have h := toNat_addi_le h1 (toNat_half_le (v x)) (by decide)
  show (IntOp.addi (IntOp.addi (IntOp.andi (IntOp.addi (lanes x) s) 15#32) (colBase t.val))
    (IntOp.shli .vector (IntOp.andi (v x) 1#32) 6#32)).toNat < 128
  omega

/-- An indexed read of a 128 x 128 half at (row, column) words that are inside it. -/
theorem chk_load {r c : IVec S16 32} (hr : ∀ x, (r x).toNat < 128) (hc : ∀ x, (c x).toNat < 128) :
    ∀ a x, ((![r, c] : Fin 2 → IVec S16 32) a x).toNat < S128x128.size a := by
  intro a x
  match a with
  | ⟨0, _⟩ => exact hr x
  | ⟨1, _⟩ => exact hc x

/-- An indexed write of a 64 x 128 half at (column, row) words that are inside it. -/
theorem chk_store {p r : IVec S16 32} (hp : ∀ x, (p x).toNat < 64) (hr : ∀ x, (r x).toNat < 128) :
    ∀ a x, ((![p, r] : Fin 2 → IVec S16 32) a x).toNat < S64x128.size a := by
  intro a x
  match a with
  | ⟨0, _⟩ => exact hp x
  | ⟨1, _⟩ => exact hr x

end Words

/-- Discharges the in-range assumption of an indexed read or write of trip t (a term of Fin 32). -/
macro "inner_chk" t:term : tactic =>
  `(tactic| first
    | (refine chk_store ?_ ?_; exact fun x => perm_lt _ $t x; exact fun x => rowv_lt $t x)
    | (refine chk_load ?_ ?_; exact fun x => rowv_lt $t x; exact fun x => col_lt _ $t _ x))

/-! ## The two halves of the two scratch arrays, and the indexed read and write of a held half -/

section Rules

variable {κ : Kind} {sp : Space} {s t : Shape} {e : EltTy}

omit [FloatOps F] in
/-- An access through a memref's whole rectangle goes through exactly the memref's own elements. -/
theorem set_access_whole (m : Memref sig κ sp s e) : (m.access (Rect.whole s)).set = m.view.set := by
  show (m.view.slice (Rect.whole s)).set = m.view.set
  rw [View.set_slice, Rect.set_whole]
  rfl

variable {c : Thread nD τ} {α : Type}

/-- The indexed read of a memref whose own elements are held: it continues at the gathered vector, the elements
    still held. -/
theorem wp_loadIdx_own {base : Memref sig c.2.kind .vmem s e} {idxs : Fin s.rank → IVec t 32}
    {h : ∀ a x, (idxs a x).toNat < s.size a} {hl : base.view.Loads}
    {k : Vec F t e → Prog (TpuEff nD τ sig (Elt F) Λ₀ c.2) α} {q : PosShare TreeShare}
    {f : Buf (Elt F) ((base.access (.whole s)).loc c)} {Q : α → sProp 𝕄} :
    ((base.access (.whole s)).loc c ↦[base.view.set]{q} f : sProp 𝕄)
      ⊢ iprop((((base.access (.whole s)).loc c ↦[base.view.set]{q} f)
          -∗ wp frame (wpE (defs₀ (F := F)) 𝒱₀ c none) Set.univ (k (loadIdx ((base.access (.whole s)).read (Elt F) f) idxs h)) Q)
        -∗ wp frame (wpE (defs₀ (F := F)) 𝒱₀ c none) Set.univ (SparseCore.vectorLoadIdx base idxs h hl >>= k) Q) :=
  SparseCore.wp_vectorLoadIdx 𝒱₀ c none Set.univ (Finset.subset_of_eq (set_access_whole base))

/-- The indexed write of a memref whose own elements are held at some contents: it continues holding them at some
    contents. -/
theorem wp_storeIdx_own {dd : Fin 1 → Nat} {base : Memref sig c.2.kind .vmem s e} {idxs : Fin s.rank → IVec ⟨1, dd⟩ 32}
    {v : Vec F ⟨1, dd⟩ e} {mask : IVec ⟨1, dd⟩ 1} {add : Bool} {h : ∀ a x, (idxs a x).toNat < s.size a}
    {hs : (base.access (.whole s)).Stores Finset.univ} {k : PUnit → Prog (TpuEff nD τ sig (Elt F) Λ₀ c.2) α} {Q : α → sProp 𝕄} :
    iprop(∃ f, ((base.access (.whole s)).loc c ↦[base.view.set]{fullShare} f : sProp 𝕄))
      ⊢ iprop(((∃ f, ((base.access (.whole s)).loc c ↦[base.view.set]{fullShare} f : sProp 𝕄))
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro ⟨%f, H⟩ Hk
  ihave H' := (Entails.of_eq (show ((base.access (.whole s)).loc c ↦[base.view.set]{fullShare} f : sProp 𝕄)
      = ((base.access (.whole s)).loc c ↦[(base.access (.whole s)).set]{fullShare} f) from by rw [set_access_whole])) $$ H
  iapply (SparseCore.wp_vectorStoreIdx 𝒱₀ c none Set.univ (base := base) (f := f)) $$ H'
  iintro H'
  iapply Hk
  iexists _
  ihave H := (Entails.of_eq (show ((base.access (.whole s)).loc c ↦[(base.access (.whole s)).set]{fullShare} _ : sProp 𝕄)
      = ((base.access (.whole s)).loc c ↦[base.view.set]{fullShare} _) from by rw [set_access_whole])) $$ H'
  iexact H

end Rules

set_option hygiene false in
/-- One step of a trip: the indexed read of the gathered half (held as HR), then the indexed write of the transposed
    half (held as HT), each followed by the plain steps up to the next one. -/
macro "inner_pair" c:term:max rows:term:max tr:term:max t:term:max : tactic =>
  `(tactic| (
    iapply (wp_loadIdx_own (c := $c) (base := $rows) (q := fullShare)) $$ HR
    iintro HR
    try sl_exec (disch := inner_chk $t)
    iapply (wp_storeIdx_own (c := $c) (base := $tr)) $$ HT
    iintro HT
    try sl_exec (disch := inner_chk $t)))

end Inner

/-! ## The halves of the two scratch arrays, as the kernel names them -/

/-- The first half of the gathered-lines scratch. -/
abbrev rows0 : Memref sig .scVector .vmem S128x128 .f32 :=
  ((s2).slice (Rect.unit (s := S2x128x128) ![0, 0, 0] S1x128x128.size inb_S2x128x128_S1x128x128_0_0_0) (fun _ => rfl)).squeeze S128x128 squeezes_S1x128x128_S128x128
/-- The first half of the transposed scratch. -/
abbrev tr0 : Memref sig .scVector .vmem S64x128 .f32 :=
  ((s3).slice (Rect.unit (s := S2x64x128) ![0, 0, 0] S1x64x128.size inb_S2x64x128_S1x64x128_0_0_0) (fun _ => rfl)).squeeze S64x128 squeezes_S1x64x128_S64x128
/-- The second half of the gathered-lines scratch. -/
abbrev rows1 : Memref sig .scVector .vmem S128x128 .f32 :=
  ((s2).slice (Rect.unit (s := S2x128x128) ![1, 0, 0] S1x128x128.size inb_S2x128x128_S1x128x128_1_0_0) (fun _ => rfl)).squeeze S128x128 squeezes_S1x128x128_S128x128
/-- The second half of the transposed scratch. -/
abbrev tr1 : Memref sig .scVector .vmem S64x128 .f32 :=
  ((s3).slice (Rect.unit (s := S2x64x128) ![1, 0, 0] S1x64x128.size inb_S2x64x128_S1x64x128_1_0_0) (fun _ => rfl)).squeeze S64x128 squeezes_S1x64x128_S64x128

/-! ## One trip, as a frame: what it holds before it holds after -/

open Inner

variable (d : Dev nD) (L : grid1.Coords)

/-- One trip of the transposing loop over the first halves: from the index words whole, the gathered half held by its
    own elements at R and the transposed half held at some contents, back to the same. -/
theorem step3F (k : Fin k1_t2_loop.trips) (v2 v176 : BitVec 32) (t : Fin k1_t3_loop.trips) (u : Unit)
    (X : Buf (Elt F) ((s0).view.loc (thr d L))) (R : Buf (Elt F) ((s2).view.loc (thr d L))) :
    iprop(((s0).view.loc (thr d L) ↦{fullShare} X)
        ∗ ((s2).view.loc (thr d L) ↦[(rows0).view.set]{fullShare} R)
        ∗ (∃ Tt, ((s3).view.loc (thr d L) ↦[(tr0).view.set]{fullShare} Tt)) : sProp 𝕄)
      ⊢ wp frame (wpE (defs₀ (F := F)) 𝒱₀ (thr d L) none) Set.univ
          (k1_t3_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) 0#32 1#32 k v176 t u)
          fun _ => iprop(((s0).view.loc (thr d L) ↦{fullShare} X)
            ∗ ((s2).view.loc (thr d L) ↦[(rows0).view.set]{fullShare} R)
            ∗ (∃ Tt, ((s3).view.loc (thr d L) ↦[(tr0).view.set]{fullShare} Tt))) := by
  obtain ⟨j, hj⟩ := t
  unfold k1_t3_body
  iintro ⟨H0, HR, HT⟩
  sl_exec (disch := inner_chk (⟨j, hj⟩ : Fin 32))
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  rw [wp_ret]
  imodintro
  isplitl [H0]
  · iexact H0
  isplitl [HR]
  · iexact HR
  iexact HT

/-- One trip of the transposing loop over the second halves: from the index words whole, the gathered half held by its
    own elements at R and the transposed half held at some contents, back to the same. -/
theorem step4F (k : Fin k1_t2_loop.trips) (v2 v298 : BitVec 32) (v305 : BitVec 1) (t : Fin k1_t4_loop.trips) (u : Unit)
    (X : Buf (Elt F) ((s0).view.loc (thr d L))) (R : Buf (Elt F) ((s2).view.loc (thr d L))) :
    iprop(((s0).view.loc (thr d L) ↦{fullShare} X)
        ∗ ((s2).view.loc (thr d L) ↦[(rows1).view.set]{fullShare} R)
        ∗ (∃ Tt, ((s3).view.loc (thr d L) ↦[(tr1).view.set]{fullShare} Tt)) : sProp 𝕄)
      ⊢ wp frame (wpE (defs₀ (F := F)) 𝒱₀ (thr d L) none) Set.univ
          (k1_t4_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k v298 v305 t u)
          fun _ => iprop(((s0).view.loc (thr d L) ↦{fullShare} X)
            ∗ ((s2).view.loc (thr d L) ↦[(rows1).view.set]{fullShare} R)
            ∗ (∃ Tt, ((s3).view.loc (thr d L) ↦[(tr1).view.set]{fullShare} Tt))) := by
  obtain ⟨j, hj⟩ := t
  unfold k1_t4_body
  iintro ⟨H0, HR, HT⟩
  sl_exec (disch := inner_chk (⟨j, hj⟩ : Fin 32))
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  rw [wp_ret]
  imodintro
  isplitl [H0]
  · iexact H0
  isplitl [HR]
  · iexact HR
  iexact HT

namespace Inner

/-! ## The words exactly, and one indexed write read back -/

section Exact

/-- Lane x of the lane numbering is x. -/
theorem lane_val (x : S16.Idx) : (lanes x).toNat = (x 0).val := by
  have hx : (x 0).val < 16 := (x 0).isLt
  have hs : S16.size 0 = 16 := rfl
  unfold lanes iota
  simp only [List.foldl_cons, List.foldl_nil, BitVec.toNat_ofNat]
  omega

theorem rowBase_val : ∀ t : Fin 32, (rowBase t.val).toNat = 16 * (t.val / 4) := by decide +kernel
theorem colBase_val : ∀ t : Fin 32, (colBase t.val).toNat = 16 * (t.val % 4) := by decide +kernel

/-- The rows the lanes read in trip t. -/
def rowV (t : Nat) : IVec S16 32 := addi lanes (broadcast S16 (rowBase t))
/-- The columns the lanes write in step s of trip t. -/
def permV (s : BitVec 32) (t : Nat) : IVec S16 32 :=
  addi (andi (addi lanes (broadcast S16 s)) (broadcast S16 15#32)) (broadcast S16 (colBase t))
/-- The half of the gathered line each lane's index word names: 0 or 64 columns. -/
def halfV (w : IVec S16 32) : IVec S16 32 := shli (andi w (broadcast S16 1#32)) (broadcast S16 6#32)

theorem rowV_val (t : Fin 32) (x : S16.Idx) : (rowV t.val x).toNat = (x 0).val + 16 * (t.val / 4) := by
  have hx : (x 0).val < 16 := (x 0).isLt
  have h1 := lane_val x
  have h2 := rowBase_val t
  show (IntOp.addi (lanes x) (rowBase t.val)).toNat = _
  unfold IntOp.addi
  rw [BitVec.toNat_add, h1, h2]
  omega

theorem permV_val (s : Nat) (hs : s < 16) (t : Fin 32) (x : S16.Idx) :
    (permV (BitVec.ofNat 32 s) t.val x).toNat = ((x 0).val + s) % 16 + 16 * (t.val % 4) := by
  have hx : (x 0).val < 16 := (x 0).isLt
  have h1 := lane_val x
  have h2 := colBase_val t
  show (IntOp.addi (IntOp.andi (IntOp.addi (lanes x) (BitVec.ofNat 32 s)) 15#32) (colBase t.val)).toNat = _
  unfold IntOp.addi IntOp.andi
  rw [BitVec.toNat_add, BitVec.toNat_and, BitVec.toNat_add, h1, h2, BitVec.toNat_ofNat,
    show (15#32 : BitVec 32).toNat = 2 ^ 4 - 1 from rfl, Nat.and_two_pow_sub_one_eq_mod]
  omega

theorem halfV_val (w : IVec S16 32) (x : S16.Idx) : (halfV w x).toNat = 64 * ((w x).toNat % 2) := by
  show (IntOp.shli .vector (IntOp.andi (w x) 1#32) 6#32).toNat = _
  have h : (IntOp.andi (w x) 1#32).toNat = (w x).toNat % 2 := by
    unfold IntOp.andi
    rw [BitVec.toNat_and, show (1#32 : BitVec 32).toNat = 2 ^ 1 - 1 from rfl, Nat.and_two_pow_sub_one_eq_mod]
  have h01 : IntOp.andi (w x) 1#32 = 0#32 ∨ IntOp.andi (w x) 1#32 = 1#32 := by
    have hlt : (w x).toNat % 2 < 2 := Nat.mod_lt _ (by decide)
    rcases Nat.le_one_iff_eq_zero_or_eq_one.1 (Nat.le_of_lt_succ (h ▸ hlt)) with h0 | h1
    · exact Or.inl (BitVec.eq_of_toNat_eq h0)
    · exact Or.inr (BitVec.eq_of_toNat_eq h1)
  rcases h01 with h0 | h1
  · rw [← h, h0]; decide
  · rw [← h, h1]; decide

/-- A left fold of point updates read back at j, when every update at j carries the same value a: a if some update
    is at j, the starting value otherwise. -/
theorem foldl_update_apply {ι σ β : Type} [DecidableEq σ] (idx : ι → σ) (val : ι → β) (j : σ) (a : β)
    (hv : ∀ k, idx k = j → val k = a) :
    ∀ (l : List ι) (g : σ → β),
      (l.foldl (fun g k j' => if idx k = j' then val k else g j') g) j = if ∃ k ∈ l, idx k = j then a else g j := by
  intro l
  induction l with
  | nil => intro g; simp
  | cons k l ih =>
    intro g
    rw [List.foldl_cons, ih]
    by_cases h1 : ∃ k' ∈ l, idx k' = j
    · have h3 : ∃ k'' ∈ k :: l, idx k'' = j := let ⟨k', hk', e'⟩ := h1; ⟨k', List.mem_cons_of_mem _ hk', e'⟩
      rw [if_pos h1, if_pos h3]
    · rw [if_neg h1]
      by_cases h2 : idx k = j
      · have h3 : ∃ k'' ∈ k :: l, idx k'' = j := ⟨k, List.mem_cons_self, h2⟩
        rw [if_pos h3]
        show (if idx k = j then val k else g j) = a
        rw [if_pos h2]
        exact hv k h2
      · have h3 : ¬ ∃ k'' ∈ k :: l, idx k'' = j := by
          rintro ⟨k', hk', e'⟩
          rcases List.mem_cons.1 hk' with rfl | hk'
          · exact h2 e'
          · exact h1 ⟨k', hk', e'⟩
        rw [if_neg h3]
        show (if idx k = j then val k else g j) = g j
        rw [if_neg h2]

variable {s : Shape} {e : EltTy} {dd : Fin 1 → Nat}

/-- An unmasked indexed write read back at an index j, when every lane that names j carries the same value a:
    a if some lane names j, the old value otherwise. -/
theorem storeIdx_apply (f : Vec F s e) (idxs : Fin s.rank → IVec ⟨1, dd⟩ 32) (v : Vec F ⟨1, dd⟩ e)
    (h : ∀ a x, (idxs a x).toNat < s.size a) (j : s.Idx) (a : Elt F e)
    (hv : ∀ k : Fin (dd 0), idxAt idxs h (Shape.ofLane k) = j → v (Shape.ofLane k) = a) :
    storeIdx f idxs v (fun _ => 1#1) false h j
      = if ∃ k : Fin (dd 0), idxAt idxs h (Shape.ofLane k) = j then a else f j := by
  have hfold : storeIdx f idxs v (fun _ => 1#1) false h
      = (List.finRange (dd 0)).foldl (fun g k j' => if idxAt idxs h (Shape.ofLane k) = j' then v (Shape.ofLane k) else g j') f := by
    unfold storeIdx
    congr 1
    funext g k j'
    have hiff : (∀ a, (j' a).val = (idxAt idxs h (Shape.ofLane k) a).val) ↔ idxAt idxs h (Shape.ofLane k) = j' :=
      ⟨fun hh => funext fun a => Fin.ext (hh a).symm, fun hh a => by rw [hh]⟩
    dsimp only
    rw [if_pos (show (1#1 : BitVec 1) = 1 from rfl)]
    rw [if_neg (show ¬ (false = true) from by decide)]
    by_cases hc : idxAt idxs h (Shape.ofLane k) = j'
    · rw [if_pos hc, if_pos (hiff.2 hc)]
    · rw [if_neg hc, if_neg (fun hh => hc (hiff.1 hh))]
  rw [hfold, foldl_update_apply (fun k : Fin (dd 0) => idxAt idxs h (Shape.ofLane k)) (fun k => v (Shape.ofLane k)) j a hv]
  by_cases hex : ∃ k : Fin (dd 0), idxAt idxs h (Shape.ofLane k) = j
  · have hex' : ∃ k ∈ List.finRange (dd 0), idxAt idxs h (Shape.ofLane k) = j :=
      let ⟨k, hk⟩ := hex; ⟨k, List.mem_finRange k, hk⟩
    rw [if_pos hex, if_pos hex']
  · have hex' : ¬ ∃ k ∈ List.finRange (dd 0), idxAt idxs h (Shape.ofLane k) = j :=
      fun ⟨k, _, hk⟩ => hex ⟨k, hk⟩
    rw [if_neg hex, if_neg hex']

end Exact

/-! ## One trip on the arrays -/

section Trip

open Idealize.ShloMosaic.ValueIdx

/-- Whether element (dd, r) of the transposed half is written by the first n steps of trip t: it lies in the
    trip's 16 x 16 block, and the step that reaches it, (dd − r) mod 16, is among them. -/
def Done (t n : Nat) (dd : Fin 64) (r : Fin 128) : Prop :=
  r.val / 16 = t / 4 ∧ dd.val / 16 = t % 4 ∧ (dd.val % 16 + 16 - r.val % 16) % 16 < n

instance (t n : Nat) (dd : Fin 64) (r : Fin 128) : Decidable (Done t n dd r) := by unfold Done; infer_instance

/-- Column dd of the left or the right 64 columns of a gathered line, as the parity of b says. -/
def colOf (dd : Fin 64) (b : Nat) : Fin 128 := ⟨dd.val + 64 * (b % 2), by have := dd.isLt; omega⟩

/-- What a trip writes at (dd, r): the gathered word of row r at column dd of the half (the left or the right 64
    columns) that the index word of lane r mod 16 names by its low bit. -/
def src (w : IVec S16 32) (Rr : Vec F S128x128 .f32) (dd : Fin 64) (r : Fin 128) : Elt F .f32 :=
  Rr (ix2 r (colOf dd (w (ix1 (⟨r.val % 16, Nat.mod_lt _ (by decide)⟩ : Fin 16))).toNat))

/-- The transposed half after n steps of trip t from G0: the elements written so far hold their gathered words, the
    others what G0 held. -/
def PartDone (t : Nat) (w : IVec S16 32) (Rr : Vec F S128x128 .f32) (G0 : Vec F S64x128 .f32) (n : Nat)
    (G : Vec F S64x128 .f32) : Prop :=
  ∀ (dd : Fin 64) (r : Fin 128), G (ix2 dd r) = if Done t n dd r then src w Rr dd r else G0 (ix2 dd r)

theorem partDone_zero (t : Nat) (w : IVec S16 32) (Rr : Vec F S128x128 .f32) (G0 : Vec F S64x128 .f32) :
    PartDone t w Rr G0 0 G0 := fun dd r => by
  rw [if_neg]
  unfold Done
  omega

/-- The coordinate of a lane. -/
theorem ofLane_val (k : Fin 16) : ((Shape.ofLane (d := ![16]) k) 0).val = k.val := rfl

/-- Which lane of step s of trip t names element (dd, r), if any: lane r mod 16, when (dd, r) is in the trip's block
    and s is the step that reaches it. -/
theorem names_iff (t : Fin 32) (s : Nat) (hs : s < 16) (dd : Fin 64) (r : Fin 128)
    (h2 : ∀ a x, ((![permV (BitVec.ofNat 32 s) t.val, rowV t.val] : Fin 2 → IVec S16 32) a x).toNat < S64x128.size a)
    (k : Fin 16) :
    idxAt ![permV (BitVec.ofNat 32 s) t.val, rowV t.val] h2 (Shape.ofLane (d := ![16]) k) = ix2 dd r
      ↔ k.val + 16 * (t.val / 4) = r.val ∧ (k.val + s) % 16 + 16 * (t.val % 4) = dd.val := by
  constructor
  · intro e
    have e0 : (permV (BitVec.ofNat 32 s) t.val (Shape.ofLane (d := ![16]) k)).toNat = dd.val :=
      congrArg (fun j : S64x128.Idx => (j 0).val) e
    have e1 : (rowV t.val (Shape.ofLane (d := ![16]) k)).toNat = r.val :=
      congrArg (fun j : S64x128.Idx => (j 1).val) e
    rw [permV_val s hs t, ofLane_val] at e0
    rw [rowV_val t, ofLane_val] at e1
    exact ⟨e1, e0⟩
  · rintro ⟨e1, e0⟩
    funext a
    refine Fin.ext ?_
    match a with
    | ⟨0, _⟩ =>
      show (permV (BitVec.ofNat 32 s) t.val (Shape.ofLane (d := ![16]) k)).toNat = dd.val
      rw [permV_val s hs t, ofLane_val]; exact e0
    | ⟨1, _⟩ =>
      show (rowV t.val (Shape.ofLane (d := ![16]) k)).toNat = r.val
      rw [rowV_val t, ofLane_val]; exact e1

/-- One step of a trip: the indexed write of step s, of the words its indexed read gathers, moves the transposed half
    from s steps done to s + 1. -/
theorem step_spec (t : Fin 32) (w : IVec S16 32) (Rr : Vec F S128x128 .f32) (G0 G : Vec F S64x128 .f32)
    (s : Nat) (hs : s < 16)
    (h1 : ∀ a x, ((![rowV t.val, addi (permV (BitVec.ofNat 32 s) t.val) (halfV w)] : Fin 2 → IVec S16 32) a x).toNat < S128x128.size a)
    (h2 : ∀ a x, ((![permV (BitVec.ofNat 32 s) t.val, rowV t.val] : Fin 2 → IVec S16 32) a x).toNat < S64x128.size a)
    (hG : PartDone t.val w Rr G0 s G) :
    PartDone t.val w Rr G0 (s + 1)
      (storeIdx G ![permV (BitVec.ofNat 32 s) t.val, rowV t.val]
        (loadIdx Rr ![rowV t.val, addi (permV (BitVec.ofNat 32 s) t.val) (halfV w)] h1) (fun _ => 1#1) false h2) := by
  intro dd r
  have hdd := dd.isLt
  have hr := r.isLt
  have hv : ∀ k : Fin 16, idxAt ![permV (BitVec.ofNat 32 s) t.val, rowV t.val] h2 (Shape.ofLane (d := ![16]) k) = ix2 dd r →
      loadIdx Rr ![rowV t.val, addi (permV (BitVec.ofNat 32 s) t.val) (halfV w)] h1 (Shape.ofLane (d := ![16]) k) = src w Rr dd r := by
    intro k e
    obtain ⟨e1, e0⟩ := (names_iff t s hs dd r h2 k).1 e
    have hk := k.isLt
    have hx : Shape.ofLane (d := ![16]) k = ix1 (⟨r.val % 16, Nat.mod_lt _ (by decide)⟩ : Fin 16) := by
      funext a
      match a with
      | ⟨0, _⟩ => exact Fin.ext (by show k.val = r.val % 16; omega)
    unfold loadIdx src
    congr 1
    funext a
    refine Fin.ext ?_
    match a with
    | ⟨0, _⟩ =>
      show (rowV t.val (Shape.ofLane (d := ![16]) k)).toNat = r.val
      rw [rowV_val t, ofLane_val]; exact e1
    | ⟨1, _⟩ =>
      show (IntOp.addi (permV (BitVec.ofNat 32 s) t.val (Shape.ofLane (d := ![16]) k)) (halfV w (Shape.ofLane (d := ![16]) k))).toNat
        = dd.val + 64 * ((w (ix1 (⟨r.val % 16, Nat.mod_lt _ (by decide)⟩ : Fin 16))).toNat % 2)
      unfold IntOp.addi
      rw [BitVec.toNat_add, permV_val s hs t, halfV_val, ofLane_val, hx]
      omega
  rw [storeIdx_apply G _ _ h2 (ix2 dd r) (src w Rr dd r) hv, hG dd r]
  by_cases hex : ∃ k : Fin ((![16] : Fin 1 → ℕ) 0), idxAt ![permV (BitVec.ofNat 32 s) t.val, rowV t.val] h2 (Shape.ofLane (d := ![16]) k) = ix2 dd r
  · obtain ⟨k, e⟩ := hex
    obtain ⟨e1, e0⟩ := (names_iff t s hs dd r h2 k).1 e
    have hk := k.isLt
    have hd : Done t.val (s + 1) dd r := by unfold Done; omega
    rw [if_pos ⟨k, e⟩, if_pos hd]
  · rw [if_neg hex]
    by_cases hd : Done t.val s dd r
    · have hd' : Done t.val (s + 1) dd r := by unfold Done at hd ⊢; omega
      rw [if_pos hd, if_pos hd']
    · have hd' : ¬ Done t.val (s + 1) dd r := by
        intro hd'
        unfold Done at hd hd'
        refine hex ⟨⟨r.val % 16, Nat.mod_lt _ (by decide)⟩, (names_iff t s hs dd r h2 _).2 ⟨?_, ?_⟩⟩
        · show r.val % 16 + 16 * (t.val / 4) = r.val; omega
        · show (r.val % 16 + s) % 16 + 16 * (t.val % 4) = dd.val; omega
      rw [if_neg hd, if_neg hd']

/-- A whole trip: sixteen steps done, the trip's block holds its gathered words and every other element what G0 held. -/
theorem partDone_full (t : Nat) (w : IVec S16 32) (Rr : Vec F S128x128 .f32) (G0 G : Vec F S64x128 .f32)
    (h : PartDone t w Rr G0 16 G) (dd : Fin 64) (r : Fin 128) :
    G (ix2 dd r) = if r.val / 16 = t / 4 ∧ dd.val / 16 = t % 4 then src w Rr dd r else G0 (ix2 dd r) := by
  rw [h dd r]
  by_cases hb : r.val / 16 = t / 4 ∧ dd.val / 16 = t % 4
  · rw [if_pos hb, if_pos (by unfold Done; omega)]
  · rw [if_neg hb, if_neg (by unfold Done; omega)]

end Trip

/-! ## The indexed write of a held half, its contents followed -/

section ValueRules

variable {κ : Kind} {sp : Space} {s : Shape} {e : EltTy}

omit [FloatOps F] in
/-- Reading through a memref's whole rectangle reads what the memref reads. -/
theorem read_access_whole' (Val : EltTy → Type) (m : Memref sig κ sp s e) (f : m.view.ty.Contents Val) :
    (m.access (Rect.whole s)).read Val f = m.view.read Val f := by
  funext x
  show _root_.cast _ (f (m.view.emb ((Rect.whole s).emb x))) = _root_.cast _ (f (m.view.emb x))
  rw [Rect.emb_whole_apply]

variable {c : Thread nD τ} {α : Type}

/-- The indexed write of a memref whose own elements are held at contents that, read through the memref, satisfy P:
    it continues holding them at contents that satisfy P', when the write takes every array of P to one of P'. -/
theorem wp_storeIdx_val {dd : Fin 1 → Nat} {base : Memref sig c.2.kind .vmem s e} {idxs : Fin s.rank → IVec ⟨1, dd⟩ 32}
    {v : Vec F ⟨1, dd⟩ e} {mask : IVec ⟨1, dd⟩ 1} {add : Bool} {h : ∀ a x, (idxs a x).toNat < s.size a}
    {hs : (base.access (.whole s)).Stores Finset.univ} {k : PUnit → Prog (TpuEff nD τ sig (Elt F) Λ₀ c.2) α}
    {Q : α → sProp 𝕄} (P P' : Vec F s e → Prop) (hPP' : ∀ G, P G → P' (storeIdx G idxs v mask add h)) :
    iprop(∃ f, ((base.access (.whole s)).loc c ↦[base.view.set]{fullShare} f : sProp 𝕄) ∗ ⌜P (base.view.read (Elt F) f)⌝)
      ⊢ iprop(((∃ f, ((base.access (.whole s)).loc c ↦[base.view.set]{fullShare} f : sProp 𝕄) ∗ ⌜P' (base.view.read (Elt F) f)⌝)
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro ⟨%f, H, %hP⟩ Hk
  ihave H' := (Entails.of_eq (show ((base.access (.whole s)).loc c ↦[base.view.set]{fullShare} f : sProp 𝕄)
      = ((base.access (.whole s)).loc c ↦[(base.access (.whole s)).set]{fullShare} f) from by rw [set_access_whole])) $$ H
  iapply (SparseCore.wp_vectorStoreIdx 𝒱₀ c none Set.univ (base := base) (f := f)) $$ H'
  iintro H'
  iapply Hk
  iexists _
  isplitl [H']
  · ihave H := (Entails.of_eq (show ((base.access (.whole s)).loc c ↦[(base.access (.whole s)).set]{fullShare} _ : sProp 𝕄)
        = ((base.access (.whole s)).loc c ↦[base.view.set]{fullShare} _) from by rw [set_access_whole])) $$ H'
    iexact H
  · ipureintro
    have e1 := (read_access_whole' (Elt F) base
        ((base.access (.whole s)).write (Elt F) f
          (storeIdx ((base.access (.whole s)).read (Elt F) f) idxs v mask add h) Finset.univ)).symm.trans
      ((View.read_write_univ _ _).trans
        (congrArg (fun g => storeIdx g idxs v mask add h) (read_access_whole' (Elt F) base f)))
    rw [e1]
    exact hPP' _ hP

/-- Held contents that satisfy P, as "some contents that satisfy P". -/
theorem held_val_intro {base : Memref sig c.2.kind .vmem s e} (P : Vec F s e → Prop)
    (f : Buf (Elt F) ((base.access (.whole s)).loc c)) (hP : P (base.view.read (Elt F) f)) :
    ((base.access (.whole s)).loc c ↦[base.view.set]{fullShare} f : sProp 𝕄)
      ⊢ iprop(∃ f, ((base.access (.whole s)).loc c ↦[base.view.set]{fullShare} f : sProp 𝕄) ∗ ⌜P (base.view.read (Elt F) f)⌝) := by
  iintro H
  iexists f
  isplitl [H]
  · iexact H
  · ipureintro; exact hP

end ValueRules

/-! ## The trips in sequence -/

section Loop

open Idealize.ShloMosaic.ValueIdx

/-- The 128 index words of a block of the tile lie inside the tile's 13312. -/
theorem blk_le0 (k : Fin k1_t2_loop.trips) : 128 * (2 * k.val) + 128 ≤ 13312 := by
  have h := k.isLt
  have h52 : k1_t2_loop.trips = 52 := trips2
  omega
theorem blk_le1 (k : Fin k1_t2_loop.trips) : 128 * (2 * k.val + 1) + 128 ≤ 13312 := by
  have h := k.isLt
  have h52 : k1_t2_loop.trips = 52 := trips2
  omega

/-- The transposed half before trip t: every element of a block before t holds its gathered word — row r's word at
    column dd of the half that index word B + r names. -/
def Upto (B : Nat) (hB : B + 128 ≤ 13312) (X : S13312.Idx → BitVec 32) (Rr : Vec F S128x128 .f32) (t : Nat)
    (G : Vec F S64x128 .f32) : Prop :=
  ∀ (dd : Fin 64) (r : Fin 128), 4 * (r.val / 16) + dd.val / 16 < t →
    G (ix2 dd r) = Rr (ix2 r (colOf dd (X (ix1 (⟨B + r.val, by have := r.isLt; omega⟩ : Fin 13312))).toNat))

theorem upto_zero (B : Nat) (hB : B + 128 ≤ 13312) (X : S13312.Idx → BitVec 32) (Rr : Vec F S128x128 .f32)
    (G : Vec F S64x128 .f32) : Upto B hB X Rr 0 G := fun _ _ h => absurd h (Nat.not_lt_zero _)

/-- A whole trip, whose index words are the sixteen at B + 16·⌊t/4⌋, moves the transposed half from "before t" to
    "before t + 1". -/
theorem upto_step (B : Nat) (hB : B + 128 ≤ 13312) (X : S13312.Idx → BitVec 32) (Rr : Vec F S128x128 .f32)
    (t : Fin 32) (w : IVec S16 32)
    (hw : ∀ x : Fin 16, w (ix1 x) = X (ix1 (⟨B + 16 * (t.val / 4) + x.val, by have := x.isLt; have := t.isLt; omega⟩ : Fin 13312)))
    (G0 G : Vec F S64x128 .f32) (hU : Upto B hB X Rr t.val G0) (hP : PartDone t.val w Rr G0 16 G) :
    Upto B hB X Rr (t.val + 1) G := by
  intro dd r hlt
  have hdd := dd.isLt
  have hr := r.isLt
  rw [partDone_full t.val w Rr G0 G hP dd r]
  by_cases hb : r.val / 16 = t.val / 4 ∧ dd.val / 16 = t.val % 4
  · rw [if_pos hb]
    unfold src
    rw [hw ⟨r.val % 16, Nat.mod_lt _ (by decide)⟩]
    have hi : (⟨B + 16 * (t.val / 4) + (⟨r.val % 16, Nat.mod_lt _ (by decide)⟩ : Fin 16).val, by
        have := t.isLt; have : r.val % 16 < 16 := Nat.mod_lt _ (by decide); show B + 16 * (t.val / 4) + r.val % 16 < 13312; omega⟩ : Fin 13312)
        = ⟨B + r.val, by omega⟩ := Fin.ext (by show B + 16 * (t.val / 4) + r.val % 16 = B + r.val; omega)
    rw [hi]
  · rw [if_neg hb]
    exact hU dd r (by omega)

/-- Every element of the transposed half lies in a block before trip 32. -/
theorem upto_all (B : Nat) (hB : B + 128 ≤ 13312) (X : S13312.Idx → BitVec 32) (Rr : Vec F S128x128 .f32)
    (G : Vec F S64x128 .f32) (h : Upto B hB X Rr 32 G) (dd : Fin 64) (r : Fin 128) :
    G (ix2 dd r) = Rr (ix2 r (colOf dd (X (ix1 (⟨B + r.val, by have := r.isLt; omega⟩ : Fin 13312))).toNat)) :=
  h dd r (by have := dd.isLt; have := r.isLt; omega)

/-- The sixteen index words a trip of the first half reads. -/
theorem window3 (k : Fin k1_t2_loop.trips) (t : Fin k1_t3_loop.trips) (X : (s0).view.ty.Contents (Elt F)) (x : Fin 16) :
    (s0).view.readAt (Elt F) (Rect.unit (s := S13312) (k1_off3 k t) S16.size (k1_off3_inb k t)).toLoadRect X (ix1 x)
      = X (ix1 (⟨128 * (2 * k.val) + 16 * (t.val / 4) + x.val, by
          have := x.isLt; have := t.isLt; have := blk_le0 k; have h32 : k1_t3_loop.trips = 32 := trips3; omega⟩ : Fin 13312)) := by
  show X ((Rect.unit (s := S13312) (k1_off3 k t) S16.size (k1_off3_inb k t)).toLoadRect.idx (ix1 x)) = _
  congr 1
  funext a
  match a with
  | ⟨0, _⟩ =>
    refine Fin.ext ?_
    show k1_off3 k t 0 + 1 * x.val = 128 * (2 * k.val) + 16 * (t.val / 4) + x.val
    rw [k1_off3_eq k t]
    show 128 * (2 * k.val) + 16 * (t.val / 4) + 1 * x.val = _
    omega

/-- The sixteen index words a trip of the second half reads. -/
theorem window4 (k : Fin k1_t2_loop.trips) (t : Fin k1_t4_loop.trips) (X : (s0).view.ty.Contents (Elt F)) (x : Fin 16) :
    (s0).view.readAt (Elt F) (Rect.unit (s := S13312) (k1_off13 k t) S16.size (k1_off13_inb k t)).toLoadRect X (ix1 x)
      = X (ix1 (⟨128 * (2 * k.val + 1) + 16 * (t.val / 4) + x.val, by
          have := x.isLt; have := t.isLt; have := blk_le1 k; have h32 : k1_t4_loop.trips = 32 := trips4; omega⟩ : Fin 13312)) := by
  show X ((Rect.unit (s := S13312) (k1_off13 k t) S16.size (k1_off13_inb k t)).toLoadRect.idx (ix1 x)) = _
  congr 1
  funext a
  match a with
  | ⟨0, _⟩ =>
    refine Fin.ext ?_
    show k1_off13 k t 0 + 1 * x.val = 128 * (2 * k.val + 1) + 16 * (t.val / 4) + x.val
    rw [k1_off13_eq k t]
    show 128 * (2 * k.val + 1) + 16 * (t.val / 4) + 1 * x.val = _
    omega

end Loop

set_option hygiene false in
/-- One step of a trip with the transposed half's contents followed: the indexed read of the gathered half (held as
    HR), then the indexed write of the transposed half (held as HT at some contents whose array has s steps done). -/
macro "inner_pairV" c:term:max rows:term:max tr:term:max t:term:max j:term:max W:term:max RR:term:max G0:term:max s:term:max : tactic =>
  `(tactic| (
    iapply (wp_loadIdx_own (c := $c) (base := $rows) (q := fullShare)) $$ HR
    iintro HR
    try sl_exec (disch := inner_chk $t)
    iapply (wp_storeIdx_val (c := $c) (base := $tr) (PartDone $j $W $RR $G0 $s) (PartDone $j $W $RR $G0 ($s + 1))
      (fun G hG => step_spec $t $W $RR $G0 G $s (by decide)
        (chk_load (fun x => rowv_lt $t x) (fun x => col_lt (BitVec.ofNat 32 $s) $t $W x))
        (chk_store (fun x => perm_lt (BitVec.ofNat 32 $s) $t x) (fun x => rowv_lt $t x)) hG)) $$ HT
    iintro HT
    try sl_exec (disch := inner_chk $t)))

end Inner

open Inner

/-! ## The transposing loops with the transposed halves' contents followed -/

/-- Before trip t of the first half's loop: the index words X and the gathered half R as they were; the transposed
    half at contents whose blocks before t hold their gathered words. -/
def inv3V (d : Dev nD) (L : grid1.Coords) (k : Fin k1_t2_loop.trips) (X : Buf (Elt F) ((s0).view.loc (thr d L)))
    (R : Buf (Elt F) ((s2).view.loc (thr d L))) (t : Nat) (_ : Unit) : sProp 𝕄 :=
  iprop(((s0).view.loc (thr d L) ↦{fullShare} X)
    ∗ ((s2).view.loc (thr d L) ↦[(rows0).view.set]{fullShare} R)
    ∗ (∃ Tt, ((s3).view.loc (thr d L) ↦[(tr0).view.set]{fullShare} Tt)
        ∗ ⌜Upto (128 * (2 * k.val)) (blk_le0 k) X ((rows0).view.read (Elt F) R) t ((tr0).view.read (Elt F) Tt)⌝))

/-- The same for the second half's loop. -/
def inv4V (d : Dev nD) (L : grid1.Coords) (k : Fin k1_t2_loop.trips) (X : Buf (Elt F) ((s0).view.loc (thr d L)))
    (R : Buf (Elt F) ((s2).view.loc (thr d L))) (t : Nat) (_ : Unit) : sProp 𝕄 :=
  iprop(((s0).view.loc (thr d L) ↦{fullShare} X)
    ∗ ((s2).view.loc (thr d L) ↦[(rows1).view.set]{fullShare} R)
    ∗ (∃ Tt, ((s3).view.loc (thr d L) ↦[(tr1).view.set]{fullShare} Tt)
        ∗ ⌜Upto (128 * (2 * k.val + 1)) (blk_le1 k) X ((rows1).view.read (Elt F) R) t ((tr1).view.read (Elt F) Tt)⌝))

set_option maxHeartbeats 4000000 in
/-- One trip of the first half's loop moves its invariant from t to t + 1. -/
theorem step3V (k : Fin k1_t2_loop.trips) (v2 v176 : BitVec 32)
    (X : Buf (Elt F) ((s0).view.loc (thr d L))) (R : Buf (Elt F) ((s2).view.loc (thr d L)))
    (t : Fin k1_t3_loop.trips) (u : Unit) :
    inv3V (F := F) d L k X R t.val u
      ⊢ wp frame (wpE (defs₀ (F := F)) 𝒱₀ (thr d L) none) Set.univ
          (k1_t3_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) 0#32 1#32 k v176 t u)
          (inv3V (F := F) d L k X R (t.val + 1)) := by
  obtain ⟨j, hj⟩ := t
  unfold inv3V k1_t3_body
  iintro ⟨H0, HR, %Tt, HT, %hU⟩
  sl_exec (disch := inner_chk (⟨j, hj⟩ : Fin 32))
  ihave HT := (held_val_intro (F := F) (c := thr d L) (base := tr0) (PartDone j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 0) Tt
    (partDone_zero j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt))) $$ HT
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 0
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 1
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 2
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 3
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 4
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 5
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 6
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 7
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 8
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 9
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 10
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 11
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 12
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 13
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 14
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 15
  rw [wp_ret]
  imodintro
  isplitl [H0]
  · iexact H0
  isplitl [HR]
  · iexact HR
  icases HT with ⟨%Tt', HT, %hP⟩
  iexists Tt'
  isplitl [HT]
  · iexact HT
  · ipureintro
    have hU' : Upto (128 * (2 * k.val)) (blk_le0 k) X ((rows0.access (Rect.whole S128x128)).read (Elt F) R) j ((tr0).view.read (Elt F) Tt) := by
      rw [read_access_whole' (Elt F) rows0 R]; exact hU
    have h := upto_step (128 * (2 * k.val)) (blk_le0 k) X ((rows0.access (Rect.whole S128x128)).read (Elt F) R) (⟨j, hj⟩ : Fin 32) ((s0).view.readAt (Elt F) (Rect.unit (s := S13312) (k1_off3 k ⟨j, hj⟩) S16.size (k1_off3_inb k ⟨j, hj⟩)).toLoadRect X) (fun x => window3 (F := F) k ⟨j, hj⟩ X x) ((tr0).view.read (Elt F) Tt) _ hU' hP
    rw [read_access_whole' (Elt F) rows0 R] at h
    exact h

set_option maxHeartbeats 4000000 in
/-- One trip of the second half's loop moves its invariant from t to t + 1. -/
theorem step4V (k : Fin k1_t2_loop.trips) (v2 v298 : BitVec 32) (v305 : BitVec 1)
    (X : Buf (Elt F) ((s0).view.loc (thr d L))) (R : Buf (Elt F) ((s2).view.loc (thr d L)))
    (t : Fin k1_t4_loop.trips) (u : Unit) :
    inv4V (F := F) d L k X R t.val u
      ⊢ wp frame (wpE (defs₀ (F := F)) 𝒱₀ (thr d L) none) Set.univ
          (k1_t4_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k v298 v305 t u)
          (inv4V (F := F) d L k X R (t.val + 1)) := by
  obtain ⟨j, hj⟩ := t
  unfold inv4V k1_t4_body
  iintro ⟨H0, HR, %Tt, HT, %hU⟩
  sl_exec (disch := inner_chk (⟨j, hj⟩ : Fin 32))
  ihave HT := (held_val_intro (F := F) (c := thr d L) (base := tr1) (PartDone j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 0) Tt
    (partDone_zero j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt))) $$ HT
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 0
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 1
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 2
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 3
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 4
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 5
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 6
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 7
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 8
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 9
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 10
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 11
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 12
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 13
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 14
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 15
  rw [wp_ret]
  imodintro
  isplitl [H0]
  · iexact H0
  isplitl [HR]
  · iexact HR
  icases HT with ⟨%Tt', HT, %hP⟩
  iexists Tt'
  isplitl [HT]
  · iexact HT
  · ipureintro
    have hU' : Upto (128 * (2 * k.val + 1)) (blk_le1 k) X ((rows1.access (Rect.whole S128x128)).read (Elt F) R) j ((tr1).view.read (Elt F) Tt) := by
      rw [read_access_whole' (Elt F) rows1 R]; exact hU
    have h := upto_step (128 * (2 * k.val + 1)) (blk_le1 k) X ((rows1.access (Rect.whole S128x128)).read (Elt F) R) (⟨j, hj⟩ : Fin 32) ((s0).view.readAt (Elt F) (Rect.unit (s := S13312) (k1_off13 k ⟨j, hj⟩) S16.size (k1_off13_inb k ⟨j, hj⟩)).toLoadRect X) (fun x => window4 (F := F) k ⟨j, hj⟩ X x) ((tr1).view.read (Elt F) Tt) _ hU' hP
    rw [read_access_whole' (Elt F) rows1 R] at h
    exact h

/-- The invariant holds before the first trip, whatever the transposed half holds. -/
theorem inv3V_init (k : Fin k1_t2_loop.trips) (X : Buf (Elt F) ((s0).view.loc (thr d L)))
    (R : Buf (Elt F) ((s2).view.loc (thr d L))) (u : Unit) :
    iprop(((s0).view.loc (thr d L) ↦{fullShare} X)
        ∗ ((s2).view.loc (thr d L) ↦[(rows0).view.set]{fullShare} R)
        ∗ (∃ Tt, ((s3).view.loc (thr d L) ↦[(tr0).view.set]{fullShare} Tt)) : sProp 𝕄)
      ⊢ inv3V (F := F) d L k X R 0 u := by
  unfold inv3V
  iintro ⟨H0, HR, %Tt, HT⟩
  isplitl [H0]
  · iexact H0
  isplitl [HR]
  · iexact HR
  iexists Tt
  isplitl [HT]
  · iexact HT
  · ipureintro
    exact upto_zero _ _ _ _ _

/-- After the last trip every element of the transposed half holds its gathered word: element (dd, r) the word of row r
    at column dd of the left or the right 64 columns, as the low bit of the block's index word r says. -/
theorem inv3V_exit (k : Fin k1_t2_loop.trips) (X : Buf (Elt F) ((s0).view.loc (thr d L)))
    (R : Buf (Elt F) ((s2).view.loc (thr d L))) (u : Unit) :
    inv3V (F := F) d L k X R 32 u
      ⊢ iprop(((s0).view.loc (thr d L) ↦{fullShare} X)
        ∗ ((s2).view.loc (thr d L) ↦[(rows0).view.set]{fullShare} R)
        ∗ (∃ Tt, ((s3).view.loc (thr d L) ↦[(tr0).view.set]{fullShare} Tt)
          ∗ ⌜∀ (dd : Fin 64) (r : Fin 128), (tr0).view.read (Elt F) Tt (ValueIdx.ix2 dd r)
              = (rows0).view.read (Elt F) R (ValueIdx.ix2 r
                  (⟨dd.val + 64 * (((X (ValueIdx.ix1 (⟨128 * (2 * k.val) + r.val, by
                      have := blk_le0 k; have := r.isLt; omega⟩ : Fin 13312)) : BitVec 32)).toNat % 2), by
                    have := dd.isLt; omega⟩ : Fin 128))⌝)) := by
  unfold inv3V
  iintro ⟨H0, HR, %Tt, HT, %hU⟩
  isplitl [H0]
  · iexact H0
  isplitl [HR]
  · iexact HR
  iexists Tt
  isplitl [HT]
  · iexact HT
  · ipureintro
    exact fun dd r => upto_all _ _ _ _ _ hU dd r

/-- The invariant holds before the first trip, whatever the transposed half holds. -/
theorem inv4V_init (k : Fin k1_t2_loop.trips) (X : Buf (Elt F) ((s0).view.loc (thr d L)))
    (R : Buf (Elt F) ((s2).view.loc (thr d L))) (u : Unit) :
    iprop(((s0).view.loc (thr d L) ↦{fullShare} X)
        ∗ ((s2).view.loc (thr d L) ↦[(rows1).view.set]{fullShare} R)
        ∗ (∃ Tt, ((s3).view.loc (thr d L) ↦[(tr1).view.set]{fullShare} Tt)) : sProp 𝕄)
      ⊢ inv4V (F := F) d L k X R 0 u := by
  unfold inv4V
  iintro ⟨H0, HR, %Tt, HT⟩
  isplitl [H0]
  · iexact H0
  isplitl [HR]
  · iexact HR
  iexists Tt
  isplitl [HT]
  · iexact HT
  · ipureintro
    exact upto_zero _ _ _ _ _

/-- After the last trip every element of the transposed half holds its gathered word: element (dd, r) the word of row r
    at column dd of the left or the right 64 columns, as the low bit of the block's index word r says. -/
theorem inv4V_exit (k : Fin k1_t2_loop.trips) (X : Buf (Elt F) ((s0).view.loc (thr d L)))
    (R : Buf (Elt F) ((s2).view.loc (thr d L))) (u : Unit) :
    inv4V (F := F) d L k X R 32 u
      ⊢ iprop(((s0).view.loc (thr d L) ↦{fullShare} X)
        ∗ ((s2).view.loc (thr d L) ↦[(rows1).view.set]{fullShare} R)
        ∗ (∃ Tt, ((s3).view.loc (thr d L) ↦[(tr1).view.set]{fullShare} Tt)
          ∗ ⌜∀ (dd : Fin 64) (r : Fin 128), (tr1).view.read (Elt F) Tt (ValueIdx.ix2 dd r)
              = (rows1).view.read (Elt F) R (ValueIdx.ix2 r
                  (⟨dd.val + 64 * (((X (ValueIdx.ix1 (⟨128 * (2 * k.val + 1) + r.val, by
                      have := blk_le1 k; have := r.isLt; omega⟩ : Fin 13312)) : BitVec 32)).toNat % 2), by
                    have := dd.isLt; omega⟩ : Fin 128))⌝)) := by
  unfold inv4V
  iintro ⟨H0, HR, %Tt, HT, %hU⟩
  isplitl [H0]
  · iexact H0
  isplitl [HR]
  · iexact HR
  iexists Tt
  isplitl [HT]
  · iexact HT
  · ipureintro
    exact fun dd r => upto_all _ _ _ _ _ hU dd r

end Cert.Proof.KI.Body1

end
-- ==== Proof.Body1OffA.lean ====
/-
  The printed offset chains of the gather kernel's write-out windows in closed form: block b = 104·w + 2k + p of tile w = 2·(L 1) + (L 0) is feature b / 128, batch chunk b % 128, and window d8 of it sits at (b / 128, d8, b % 128, 0, 0). Decided over the finitely many tiles, trips and halves.
-/
import proofs.«204055_g19524921328135_cont_8to1_763_20_alg».proof.Proof.Tiles

set_option Elab.async false

namespace Cert.Proof.KI.Body1

open Cert.KernelIdeal Cert.KernelIdeal.Gen Cert.Proof.KI
open Idealize.ShloMosaic

/-- Window 0 of block b = 104·w + 2k + p sits at (b / 128, 0, b % 128, 0, 0). -/
theorem k1_off4_eq : ∀ (L : grid1.Coords) (k : Fin k1_t2_loop.trips) (p : Fin 2),
    k1_off4 L k (BitVec.ofNat 32 p.val) = ![(104 * (2 * (L 1).val + (L 0).val) + 2 * k.val + p.val) / 128, 0, (104 * (2 * (L 1).val + (L 0).val) + 2 * k.val + p.val) % 128, 0, 0] := by
  decide +kernel

/-- Window 1 of block b = 104·w + 2k + p sits at (b / 128, 1, b % 128, 0, 0). -/
theorem k1_off5_eq : ∀ (L : grid1.Coords) (k : Fin k1_t2_loop.trips) (p : Fin 2),
    k1_off5 L k (BitVec.ofNat 32 p.val) = ![(104 * (2 * (L 1).val + (L 0).val) + 2 * k.val + p.val) / 128, 1, (104 * (2 * (L 1).val + (L 0).val) + 2 * k.val + p.val) % 128, 0, 0] := by
  decide +kernel

/-- Window 2 of block b = 104·w + 2k + p sits at (b / 128, 2, b % 128, 0, 0). -/
theorem k1_off6_eq : ∀ (L : grid1.Coords) (k : Fin k1_t2_loop.trips) (p : Fin 2),
    k1_off6 L k (BitVec.ofNat 32 p.val) = ![(104 * (2 * (L 1).val + (L 0).val) + 2 * k.val + p.val) / 128, 2, (104 * (2 * (L 1).val + (L 0).val) + 2 * k.val + p.val) % 128, 0, 0] := by
  decide +kernel

end Cert.Proof.KI.Body1
-- ==== Proof.Body1OffB.lean ====
/-
  The printed offset chains of the gather kernel's write-out windows in closed form: block b = 104·w + 2k + p of tile w = 2·(L 1) + (L 0) is feature b / 128, batch chunk b % 128, and window d8 of it sits at (b / 128, d8, b % 128, 0, 0). Decided over the finitely many tiles, trips and halves.
-/
import proofs.«204055_g19524921328135_cont_8to1_763_20_alg».proof.Proof.Tiles

set_option Elab.async false

namespace Cert.Proof.KI.Body1

open Cert.KernelIdeal Cert.KernelIdeal.Gen Cert.Proof.KI
open Idealize.ShloMosaic

/-- Window 3 of block b = 104·w + 2k + p sits at (b / 128, 3, b % 128, 0, 0). -/
theorem k1_off7_eq : ∀ (L : grid1.Coords) (k : Fin k1_t2_loop.trips) (p : Fin 2),
    k1_off7 L k (BitVec.ofNat 32 p.val) = ![(104 * (2 * (L 1).val + (L 0).val) + 2 * k.val + p.val) / 128, 3, (104 * (2 * (L 1).val + (L 0).val) + 2 * k.val + p.val) % 128, 0, 0] := by
  decide +kernel

/-- Window 4 of block b = 104·w + 2k + p sits at (b / 128, 4, b % 128, 0, 0). -/
theorem k1_off8_eq : ∀ (L : grid1.Coords) (k : Fin k1_t2_loop.trips) (p : Fin 2),
    k1_off8 L k (BitVec.ofNat 32 p.val) = ![(104 * (2 * (L 1).val + (L 0).val) + 2 * k.val + p.val) / 128, 4, (104 * (2 * (L 1).val + (L 0).val) + 2 * k.val + p.val) % 128, 0, 0] := by
  decide +kernel

/-- Window 5 of block b = 104·w + 2k + p sits at (b / 128, 5, b % 128, 0, 0). -/
theorem k1_off9_eq : ∀ (L : grid1.Coords) (k : Fin k1_t2_loop.trips) (p : Fin 2),
    k1_off9 L k (BitVec.ofNat 32 p.val) = ![(104 * (2 * (L 1).val + (L 0).val) + 2 * k.val + p.val) / 128, 5, (104 * (2 * (L 1).val + (L 0).val) + 2 * k.val + p.val) % 128, 0, 0] := by
  decide +kernel

end Cert.Proof.KI.Body1
-- ==== Proof.Body1Off.lean ====
/-
  The gather kernel's printed chains in closed form, collected.
-/
import proofs.«204055_g19524921328135_cont_8to1_763_20_alg».proof.Proof.Body1OffA
import proofs.«204055_g19524921328135_cont_8to1_763_20_alg».proof.Proof.Body1OffB
import proofs.«204055_g19524921328135_cont_8to1_763_20_alg».proof.Proof.Body1OffC
-- ==== Proof.Body1Frame.lean ====
/-
  The gather kernel on one tile, at the level of resources: the tile copies its slice of the flat index list,
  halves the words, and then, two blocks at a time, gathers the pair-table lines the halved words name,
  transposes them and writes each block out as eight windows of the result, the next gathers and the
  previous write-outs in flight meanwhile. This module follows the tile's storage through the whole
  kernel — every window handed back — without yet saying what the result's windows hold.

  The main loop's invariant before trip k: both gathers of blocks 2k and 2k + 1 in flight (each holding
  its own half-share of the halved words and of the pair table), the write-outs of blocks 2k - 2 and
  2k - 1 in flight as two batches of eight, the blocks below 2k - 2 landed, the blocks from 2k on untouched.
-/
import proofs.«204055_g19524921328135_cont_8to1_763_20_alg».proof.Proof.Body1Inner
import proofs.«204055_g19524921328135_cont_8to1_763_20_alg».proof.Proof.Body1Off
import proofs.«204055_g19524921328135_cont_8to1_763_20_alg».proof.Proof.Tiles

noncomputable section

namespace Cert.Proof.KI.Body1

open Cert.KernelIdeal Cert.KernelIdeal.Gen Cert.Proof.KI
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (d : Dev nD) (L : grid1.Coords)

/-- The tile's five cells of this call. -/
abbrev g4 (d : Dev nD) (L : grid1.Coords) : GSem nD τ sig := (thr d L, .dma cc1_scratch4.sem)
abbrev g5 (d : Dev nD) (L : grid1.Coords) : GSem nD τ sig := (thr d L, .dma cc1_scratch5.sem)
abbrev g6 (d : Dev nD) (L : grid1.Coords) : GSem nD τ sig := (thr d L, .dma cc1_scratch6.sem)
abbrev g7 (d : Dev nD) (L : grid1.Coords) : GSem nD τ sig := (thr d L, .dma cc1_scratch7.sem)
abbrev gS (d : Dev nD) (L : grid1.Coords) : GSem nD τ sig := (thr d L, .dma cc1_scoped0.sem)

omit [FloatOps F] in
theorem ownSems0_V1 :
    (ownSems0 (thr d L) : sProp 𝕄)
      = iprop(semVal (g4 d L) 0 ∗ semVal (g5 d L) 0 ∗ semVal (g6 d L) 0 ∗ semVal (g7 d L) 0 ∗ semVal (gS d L) 0
          ∗ bigSep ((((((ownCells (thr d L)).erase (g4 d L)).erase (g5 d L)).erase (g6 d L)).erase (g7 d L)).erase (gS d L))
              fun g => semVal g 0) := by
  unfold SparseCore.Cfg.ownSems0
  have m4 : g4 d L ∈ ownCells (thr d L) := (mem_ownCells (g := g4 d L)).mpr ⟨rfl, by
    show (SemLoc.dma cc1_scratch4.sem : SemLoc sig).isScoped .scVector = true; decide⟩
  have m5 : g5 d L ∈ ownCells (thr d L) := (mem_ownCells (g := g5 d L)).mpr ⟨rfl, by
    show (SemLoc.dma cc1_scratch5.sem : SemLoc sig).isScoped .scVector = true; decide⟩
  have m6 : g6 d L ∈ ownCells (thr d L) := (mem_ownCells (g := g6 d L)).mpr ⟨rfl, by
    show (SemLoc.dma cc1_scratch6.sem : SemLoc sig).isScoped .scVector = true; decide⟩
  have m7 : g7 d L ∈ ownCells (thr d L) := (mem_ownCells (g := g7 d L)).mpr ⟨rfl, by
    show (SemLoc.dma cc1_scratch7.sem : SemLoc sig).isScoped .scVector = true; decide⟩
  have mS : gS d L ∈ ownCells (thr d L) := (mem_ownCells (g := gS d L)).mpr ⟨rfl, by
    show (SemLoc.dma cc1_scoped0.sem : SemLoc sig).isScoped .scVector = true; decide⟩
  have ne : ∀ (a b : DmaSems sig S_), a.sem ≠ b.sem → ((thr d L, SemLoc.dma a.sem) : GSem nD τ sig) ≠ (thr d L, SemLoc.dma b.sem) := by
    intro a b h e; exact h (by injection e with _ e2; injection e2)
  rw [SparseCore.bigSep_erase' m4,
    SparseCore.bigSep_erase' (Finset.mem_erase.mpr ⟨ne _ _ (by decide), m5⟩),
    SparseCore.bigSep_erase' (Finset.mem_erase.mpr ⟨ne _ _ (by decide), Finset.mem_erase.mpr ⟨ne _ _ (by decide), m6⟩⟩),
    SparseCore.bigSep_erase' (Finset.mem_erase.mpr ⟨ne _ _ (by decide), Finset.mem_erase.mpr ⟨ne _ _ (by decide), Finset.mem_erase.mpr ⟨ne _ _ (by decide), m7⟩⟩⟩),
    SparseCore.bigSep_erase' (Finset.mem_erase.mpr ⟨ne _ _ (by decide), Finset.mem_erase.mpr ⟨ne _ _ (by decide), Finset.mem_erase.mpr ⟨ne _ _ (by decide), Finset.mem_erase.mpr ⟨ne _ _ (by decide), mS⟩⟩⟩⟩)]

abbrev r0 (L : grid1.Coords) : DevRef τ sig := (Proc.scVector (cV L) (jV L)).devRef cc1_scratch0
abbrev r1 (L : grid1.Coords) : DevRef τ sig := (Proc.scVector (cV L) (jV L)).devRef cc1_scratch1
abbrev r2 (L : grid1.Coords) : DevRef τ sig := (Proc.scVector (cV L) (jV L)).devRef cc1_scratch2
abbrev r3 (L : grid1.Coords) : DevRef τ sig := (Proc.scVector (cV L) (jV L)).devRef cc1_scratch3

omit [FloatOps F] in
theorem ownBufs_V1 :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase (r0 L)).erase (r1 L)).erase (r2 L)).erase (r3 L))
              fun b => iprop(∃ f, ((d, b) : Loc nD τ sig) ↦{fullShare} f)) := by
  unfold SparseCore.Cfg.ownBufs
  have m0 := SparseCore.Cfg.mem_ownRefs_of_owner (p := Proc.scVector (cV L) (jV L)) (b := r0 L) rfl
  have m1 := SparseCore.Cfg.mem_ownRefs_of_owner (p := Proc.scVector (cV L) (jV L)) (b := r1 L) rfl
  have m2 := SparseCore.Cfg.mem_ownRefs_of_owner (p := Proc.scVector (cV L) (jV L)) (b := r2 L) rfl
  have m3 := SparseCore.Cfg.mem_ownRefs_of_owner (p := Proc.scVector (cV L) (jV L)) (b := r3 L) rfl
  have ne : ∀ (a b : Ref sig .scVector), a ≠ b → (Proc.scVector (cV L) (jV L)).devRef a ≠ (Proc.scVector (cV L) (jV L)).devRef b :=
    fun a b h e => h (Proc.devRef_injective _ e)
  refine (SparseCore.bigSep_erase' m0).trans ?_
  rw [SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩)]

/-! ## The kernel's windows -/

/-- The whole pair table as the gathers name it. -/
abbrev pAll : Memref sig .scVector .hbm S500000x128 .f32 :=
  (pW).slice (Rect.unit (s := S500000x128) ![0, 0] S500000x128.size inb_S500000x128_S500000x128_0_0) (fun _ => rfl)

theorem jw_inb (o : Nat) (h : o + 128 ≤ 13312) : ∀ a, (![o] : Fin 1 → Nat) a + S128.size a ≤ S13312.size a := by
  intro a; match a with | ⟨0, _⟩ => exact h
/-- The window of 128 halved words at offset `o`. -/
abbrev jw (o : Nat) (h : o + 128 ≤ 13312) : Memref sig .scVector .vmem S128 .i32 :=
  (s1).slice (Rect.unit (s := S13312) ![o] S128.size (jw_inb o h)) (fun _ => rfl)

/-- Window `N - 4` of the block that half `p` of trip `k` writes, as the program names it. -/
abbrev ow4 (L : grid1.Coords) (k : Fin k1_t2_loop.trips) (p : Fin 2) : Memref sig .scVector .hbm S8x128 .f32 :=
  ((oW).slice (Rect.unit (s := S26x8x128x8x128) (k1_off4 L k (BitVec.ofNat 32 p.val)) S1x1x1x8x128.size (k1_off4_inb L k p)) (fun _ => rfl)).squeeze S8x128 squeezes_S1x1x1x8x128_S8x128
abbrev ow5 (L : grid1.Coords) (k : Fin k1_t2_loop.trips) (p : Fin 2) : Memref sig .scVector .hbm S8x128 .f32 :=
  ((oW).slice (Rect.unit (s := S26x8x128x8x128) (k1_off5 L k (BitVec.ofNat 32 p.val)) S1x1x1x8x128.size (k1_off5_inb L k p)) (fun _ => rfl)).squeeze S8x128 squeezes_S1x1x1x8x128_S8x128
abbrev ow6 (L : grid1.Coords) (k : Fin k1_t2_loop.trips) (p : Fin 2) : Memref sig .scVector .hbm S8x128 .f32 :=
  ((oW).slice (Rect.unit (s := S26x8x128x8x128) (k1_off6 L k (BitVec.ofNat 32 p.val)) S1x1x1x8x128.size (k1_off6_inb L k p)) (fun _ => rfl)).squeeze S8x128 squeezes_S1x1x1x8x128_S8x128
abbrev ow7 (L : grid1.Coords) (k : Fin k1_t2_loop.trips) (p : Fin 2) : Memref sig .scVector .hbm S8x128 .f32 :=
  ((oW).slice (Rect.unit (s := S26x8x128x8x128) (k1_off7 L k (BitVec.ofNat 32 p.val)) S1x1x1x8x128.size (k1_off7_inb L k p)) (fun _ => rfl)).squeeze S8x128 squeezes_S1x1x1x8x128_S8x128
abbrev ow8 (L : grid1.Coords) (k : Fin k1_t2_loop.trips) (p : Fin 2) : Memref sig .scVector .hbm S8x128 .f32 :=
  ((oW).slice (Rect.unit (s := S26x8x128x8x128) (k1_off8 L k (BitVec.ofNat 32 p.val)) S1x1x1x8x128.size (k1_off8_inb L k p)) (fun _ => rfl)).squeeze S8x128 squeezes_S1x1x1x8x128_S8x128
abbrev ow9 (L : grid1.Coords) (k : Fin k1_t2_loop.trips) (p : Fin 2) : Memref sig .scVector .hbm S8x128 .f32 :=
  ((oW).slice (Rect.unit (s := S26x8x128x8x128) (k1_off9 L k (BitVec.ofNat 32 p.val)) S1x1x1x8x128.size (k1_off9_inb L k p)) (fun _ => rfl)).squeeze S8x128 squeezes_S1x1x1x8x128_S8x128
abbrev ow10 (L : grid1.Coords) (k : Fin k1_t2_loop.trips) (p : Fin 2) : Memref sig .scVector .hbm S8x128 .f32 :=
  ((oW).slice (Rect.unit (s := S26x8x128x8x128) (k1_off10 L k (BitVec.ofNat 32 p.val)) S1x1x1x8x128.size (k1_off10_inb L k p)) (fun _ => rfl)).squeeze S8x128 squeezes_S1x1x1x8x128_S8x128
abbrev ow11 (L : grid1.Coords) (k : Fin k1_t2_loop.trips) (p : Fin 2) : Memref sig .scVector .hbm S8x128 .f32 :=
  ((oW).slice (Rect.unit (s := S26x8x128x8x128) (k1_off11 L k (BitVec.ofNat 32 p.val)) S1x1x1x8x128.size (k1_off11_inb L k p)) (fun _ => rfl)).squeeze S8x128 squeezes_S1x1x1x8x128_S8x128
/-- The eight windows of a block, by number. -/
def ow (L : grid1.Coords) (k : Fin k1_t2_loop.trips) (p : Fin 2) : Fin 8 → Memref sig .scVector .hbm S8x128 .f32
  | 0 => ow4 L k p | 1 => ow5 L k p | 2 => ow6 L k p | 3 => ow7 L k p | 4 => ow8 L k p | 5 => ow9 L k p | 6 => ow10 L k p | 7 => ow11 L k p

/-! ## A buffer half as its eight windows -/

omit [FloatOps F] in
theorem bigSep_fin8 (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) := by
  have e : (Finset.univ : Finset (Fin 8)) = {0, 1, 2, 3, 4, 5, 6, 7} := by decide
  rw [e, bigSep_insert (by decide), bigSep_insert (by decide), bigSep_insert (by decide), bigSep_insert (by decide),
    bigSep_insert (by decide), bigSep_insert (by decide), bigSep_insert (by decide), bigSep_singleton]
  rfl

theorem w8_inb (t : Fin 8) : ∀ a, (![8 * t.val, 0] : Fin 2 → Nat) a + S8x128.size a ≤ S64x128.size a := by
  have := t.isLt
  intro a; match a with
  | ⟨0, _⟩ => show 8 * t.val + 8 ≤ 64; omega
  | ⟨1, _⟩ => show 0 + 128 ≤ 128; omega
/-- Rows `8 t … 8 t + 7` of a 64 × 128 array. -/
abbrev w8 (t : Fin 8) : Rect S64x128 := Rect.unit ![8 * t.val, 0] S8x128.size (w8_inb t)

theorem w8_disj (t t' : Fin 8) (h : t ≠ t') : Disjoint (w8 t).set (w8 t').set := by
  rw [Finset.disjoint_left]; intro x hx hx'
  have a : 8 * t.val ≤ (x 0).val ∧ (x 0).val < 8 * t.val + 8 := (Rect.mem_set_unit.mp hx) 0
  have b : 8 * t'.val ≤ (x 0).val ∧ (x 0).val < 8 * t'.val + 8 := (Rect.mem_set_unit.mp hx') 0
  exact h (Fin.ext (by omega))

theorem w8_cov : (Finset.univ : Finset (Fin 8)).biUnion (fun t => (w8 t).set) = Finset.univ := by
  ext x
  simp only [Finset.mem_biUnion, Finset.mem_univ, true_and, iff_true]
  have hx : (x 0).val < 64 := (x 0).isLt
  have hy : (x 1).val < 128 := (x 1).isLt
  refine ⟨⟨(x 0).val / 8, by omega⟩, Rect.mem_set_unit.mpr fun a => ?_⟩
  match a with
  | ⟨0, _⟩ => show 8 * ((x 0).val / 8) ≤ (x 0).val ∧ (x 0).val < 8 * ((x 0).val / 8) + 8; omega
  | ⟨1, _⟩ => show 0 ≤ (x 1).val ∧ (x 1).val < 0 + 128; omega

omit [FloatOps F] in
/-- A 64 × 128 array held by its own elements is its eight windows of eight rows, each held by its own. -/
theorem half_windows (mm : Memref sig .scVector .vmem S64x128 .f32) (f : Buf (Elt F) (mm.view.loc (thr d L))) :
    (mm.view.loc (thr d L) ↦[mm.view.set]{fullShare} f : sProp 𝕄)
      = bigSep (Finset.univ : Finset (Fin 8)) fun t =>
          (mm.view.loc (thr d L) ↦[(mm.slice (w8 t) (fun _ => rfl)).view.set]{fullShare} f) := by
  rw [pointsTo_rects (thr d L) mm fullShare w8 (fun _ _ => rfl) w8_disj w8_cov f]
  exact BI.bigSep_congr (fun t _ => owns_slice_read (thr d L) mm fullShare (w8 t) (fun _ => rfl) f)

/-! ## The result's windows, as the program names them and as the tile is handed them -/

theorem kkOf_lt (k : Fin k1_t2_loop.trips) (p : Fin 2) : 2 * k.val + p.val < 104 := by
  have h := Nat.lt_of_lt_of_eq k.isLt trips2
  have := p.isLt
  omega
/-- Block `2 k + p` as a block of the tile. -/
def kkOf (k : Fin k1_t2_loop.trips) (p : Fin 2) : Fin 104 := ⟨2 * k.val + p.val, kkOf_lt k p⟩

theorem blk_val (k : Fin k1_t2_loop.trips) (p : Fin 2) :
    (Tiles.blkOf (Tiles.c1Of L) (Tiles.s1Of L) (kkOf k p)).val = 104 * (2 * (L 1).val + (L 0).val) + 2 * k.val + p.val := by
  show 104 * (2 * (L 1).val + (L 0).val) + (2 * k.val + p.val) = _
  omega

theorem unit_congr {s : Shape} (off off' sz : Fin s.rank → Nat) (inb : ∀ a, off a + sz a ≤ s.size a) (inb' : ∀ a, off' a + sz a ≤ s.size a)
    (e : off = off') : Rect.unit off sz inb = Rect.unit off' sz inb' := by subst e; rfl

omit [FloatOps F] in
theorem slice_set_congr (r r' : Rect S26x8x128x8x128) (h : r = r') :
    ((oW).view.slice r).set = ((oW).view.slice r').set := by subst h; rfl

omit [FloatOps F] in
theorem ow4_pts (k : Fin k1_t2_loop.trips) (p : Fin 2) (f : Buf (Elt F) (Tiles.out5Loc d)) :
    ((ow4 L k p).view.loc (thr d L) ↦[(ow4 L k p).view.set]{fullShare} f : sProp 𝕄)
      = (Tiles.out5Loc d ↦[Tiles.outSet (Tiles.blkOf (Tiles.c1Of L) (Tiles.s1Of L) (kkOf k p)) 0]{fullShare} f) := by
  have e : Rect.unit (s := S26x8x128x8x128) (k1_off4 L k (BitVec.ofNat 32 p.val)) S1x1x1x8x128.size (k1_off4_inb L k p)
      = Tiles.outRect (Tiles.blkOf (Tiles.c1Of L) (Tiles.s1Of L) (kkOf k p)) 0 :=
    unit_congr _ _ _ _ _ (by rw [k1_off4_eq L k p, blk_val L k p]; rfl)
  have hs : (ow4 L k p).view.set = Tiles.outSet (Tiles.blkOf (Tiles.c1Of L) (Tiles.s1Of L) (kkOf k p)) 0 := by
    show (((oW).view.slice _).reshape _ _).set = _
    rw [View.set_reshape]
    exact slice_set_congr _ _ e
  rw [hs]

omit [FloatOps F] in
theorem ow5_pts (k : Fin k1_t2_loop.trips) (p : Fin 2) (f : Buf (Elt F) (Tiles.out5Loc d)) :
    ((ow5 L k p).view.loc (thr d L) ↦[(ow5 L k p).view.set]{fullShare} f : sProp 𝕄)
      = (Tiles.out5Loc d ↦[Tiles.outSet (Tiles.blkOf (Tiles.c1Of L) (Tiles.s1Of L) (kkOf k p)) 1]{fullShare} f) := by
  have e : Rect.unit (s := S26x8x128x8x128) (k1_off5 L k (BitVec.ofNat 32 p.val)) S1x1x1x8x128.size (k1_off5_inb L k p)
      = Tiles.outRect (Tiles.blkOf (Tiles.c1Of L) (Tiles.s1Of L) (kkOf k p)) 1 :=
    unit_congr _ _ _ _ _ (by rw [k1_off5_eq L k p, blk_val L k p]; rfl)
  have hs : (ow5 L k p).view.set = Tiles.outSet (Tiles.blkOf (Tiles.c1Of L) (Tiles.s1Of L) (kkOf k p)) 1 := by
    show (((oW).view.slice _).reshape _ _).set = _
    rw [View.set_reshape]
    exact slice_set_congr _ _ e
  rw [hs]

omit [FloatOps F] in
theorem ow6_pts (k : Fin k1_t2_loop.trips) (p : Fin 2) (f : Buf (Elt F) (Tiles.out5Loc d)) :
    ((ow6 L k p).view.loc (thr d L) ↦[(ow6 L k p).view.set]{fullShare} f : sProp 𝕄)
      = (Tiles.out5Loc d ↦[Tiles.outSet (Tiles.blkOf (Tiles.c1Of L) (Tiles.s1Of L) (kkOf k p)) 2]{fullShare} f) := by
  have e : Rect.unit (s := S26x8x128x8x128) (k1_off6 L k (BitVec.ofNat 32 p.val)) S1x1x1x8x128.size (k1_off6_inb L k p)
      = Tiles.outRect (Tiles.blkOf (Tiles.c1Of L) (Tiles.s1Of L) (kkOf k p)) 2 :=
    unit_congr _ _ _ _ _ (by rw [k1_off6_eq L k p, blk_val L k p]; rfl)
  have hs : (ow6 L k p).view.set = Tiles.outSet (Tiles.blkOf (Tiles.c1Of L) (Tiles.s1Of L) (kkOf k p)) 2 := by
    show (((oW).view.slice _).reshape _ _).set = _
    rw [View.set_reshape]
    exact slice_set_congr _ _ e
  rw [hs]

omit [FloatOps F] in
theorem ow7_pts (k : Fin k1_t2_loop.trips) (p : Fin 2) (f : Buf (Elt F) (Tiles.out5Loc d)) :
    ((ow7 L k p).view.loc (thr d L) ↦[(ow7 L k p).view.set]{fullShare} f : sProp 𝕄)
      = (Tiles.out5Loc d ↦[Tiles.outSet (Tiles.blkOf (Tiles.c1Of L) (Tiles.s1Of L) (kkOf k p)) 3]{fullShare} f) := by
  have e : Rect.unit (s := S26x8x128x8x128) (k1_off7 L k (BitVec.ofNat 32 p.val)) S1x1x1x8x128.size (k1_off7_inb L k p)
      = Tiles.outRect (Tiles.blkOf (Tiles.c1Of L) (Tiles.s1Of L) (kkOf k p)) 3 :=
    unit_congr _ _ _ _ _ (by rw [k1_off7_eq L k p, blk_val L k p]; rfl)
  have hs : (ow7 L k p).view.set = Tiles.outSet (Tiles.blkOf (Tiles.c1Of L) (Tiles.s1Of L) (kkOf k p)) 3 := by
    show (((oW).view.slice _).reshape _ _).set = _
    rw [View.set_reshape]
    exact slice_set_congr _ _ e
  rw [hs]

omit [FloatOps F] in
theorem ow8_pts (k : Fin k1_t2_loop.trips) (p : Fin 2) (f : Buf (Elt F) (Tiles.out5Loc d)) :
    ((ow8 L k p).view.loc (thr d L) ↦[(ow8 L k p).view.set]{fullShare} f : sProp 𝕄)
      = (Tiles.out5Loc d ↦[Tiles.outSet (Tiles.blkOf (Tiles.c1Of L) (Tiles.s1Of L) (kkOf k p)) 4]{fullShare} f) := by
  have e : Rect.unit (s := S26x8x128x8x128) (k1_off8 L k (BitVec.ofNat 32 p.val)) S1x1x1x8x128.size (k1_off8_inb L k p)
      = Tiles.outRect (Tiles.blkOf (Tiles.c1Of L) (Tiles.s1Of L) (kkOf k p)) 4 :=
    unit_congr _ _ _ _ _ (by rw [k1_off8_eq L k p, blk_val L k p]; rfl)
  have hs : (ow8 L k p).view.set = Tiles.outSet (Tiles.blkOf (Tiles.c1Of L) (Tiles.s1Of L) (kkOf k p)) 4 := by
    show (((oW).view.slice _).reshape _ _).set = _
    rw [View.set_reshape]
    exact slice_set_congr _ _ e
  rw [hs]

omit [FloatOps F] in
theorem ow9_pts (k : Fin k1_t2_loop.trips) (p : Fin 2) (f : Buf (Elt F) (Tiles.out5Loc d)) :
    ((ow9 L k p).view.loc (thr d L) ↦[(ow9 L k p).view.set]{fullShare} f : sProp 𝕄)
      = (Tiles.out5Loc d ↦[Tiles.outSet (Tiles.blkOf (Tiles.c1Of L) (Tiles.s1Of L) (kkOf k p)) 5]{fullShare} f) := by
  have e : Rect.unit (s := S26x8x128x8x128) (k1_off9 L k (BitVec.ofNat 32 p.val)) S1x1x1x8x128.size (k1_off9_inb L k p)
      = Tiles.outRect (Tiles.blkOf (Tiles.c1Of L) (Tiles.s1Of L) (kkOf k p)) 5 :=
    unit_congr _ _ _ _ _ (by rw [k1_off9_eq L k p, blk_val L k p]; rfl)
  have hs : (ow9 L k p).view.set = Tiles.outSet (Tiles.blkOf (Tiles.c1Of L) (Tiles.s1Of L) (kkOf k p)) 5 := by
    show (((oW).view.slice _).reshape _ _).set = _
    rw [View.set_reshape]
    exact slice_set_congr _ _ e
  rw [hs]

omit [FloatOps F] in
theorem ow10_pts (k : Fin k1_t2_loop.trips) (p : Fin 2) (f : Buf (Elt F) (Tiles.out5Loc d)) :
    ((ow10 L k p).view.loc (thr d L) ↦[(ow10 L k p).view.set]{fullShare} f : sProp 𝕄)
      = (Tiles.out5Loc d ↦[Tiles.outSet (Tiles.blkOf (Tiles.c1Of L) (Tiles.s1Of L) (kkOf k p)) 6]{fullShare} f) := by
  have e : Rect.unit (s := S26x8x128x8x128) (k1_off10 L k (BitVec.ofNat 32 p.val)) S1x1x1x8x128.size (k1_off10_inb L k p)
      = Tiles.outRect (Tiles.blkOf (Tiles.c1Of L) (Tiles.s1Of L) (kkOf k p)) 6 :=
    unit_congr _ _ _ _ _ (by rw [k1_off10_eq L k p, blk_val L k p]; rfl)
  have hs : (ow10 L k p).view.set = Tiles.outSet (Tiles.blkOf (Tiles.c1Of L) (Tiles.s1Of L) (kkOf k p)) 6 := by
    show (((oW).view.slice _).reshape _ _).set = _
    rw [View.set_reshape]
    exact slice_set_congr _ _ e
  rw [hs]

omit [FloatOps F] in
theorem ow11_pts (k : Fin k1_t2_loop.trips) (p : Fin 2) (f : Buf (Elt F) (Tiles.out5Loc d)) :
    ((ow11 L k p).view.loc (thr d L) ↦[(ow11 L k p).view.set]{fullShare} f : sProp 𝕄)
      = (Tiles.out5Loc d ↦[Tiles.outSet (Tiles.blkOf (Tiles.c1Of L) (Tiles.s1Of L) (kkOf k p)) 7]{fullShare} f) := by
  have e : Rect.unit (s := S26x8x128x8x128) (k1_off11 L k (BitVec.ofNat 32 p.val)) S1x1x1x8x128.size (k1_off11_inb L k p)
      = Tiles.outRect (Tiles.blkOf (Tiles.c1Of L) (Tiles.s1Of L) (kkOf k p)) 7 :=
    unit_congr _ _ _ _ _ (by rw [k1_off11_eq L k p, blk_val L k p]; rfl)
  have hs : (ow11 L k p).view.set = Tiles.outSet (Tiles.blkOf (Tiles.c1Of L) (Tiles.s1Of L) (kkOf k p)) 7 := by
    show (((oW).view.slice _).reshape _ _).set = _
    rw [View.set_reshape]
    exact slice_set_congr _ _ e
  rw [hs]

/-- A block of the tile's part of the result, each of its eight windows held at some contents. -/
def blockOwn (kk : Fin 104) : sProp 𝕄 :=
  bigSep (Finset.univ : Finset (Fin 8)) fun d8 =>
    iprop(∃ f, Tiles.out5Loc d ↦[Tiles.outSet (Tiles.blkOf (Tiles.c1Of L) (Tiles.s1Of L) kk) d8]{fullShare} f)

omit [FloatOps F] in
theorem blockOwn_intro (k : Fin k1_t2_loop.trips) (p : Fin 2) (f0 f1 f2 f3 f4 f5 f6 f7 : Buf (Elt F) (Tiles.out5Loc d)) :
    iprop(((ow4 L k p).view.loc (thr d L) ↦[(ow4 L k p).view.set]{fullShare} f0)
        ∗ ((ow5 L k p).view.loc (thr d L) ↦[(ow5 L k p).view.set]{fullShare} f1)
        ∗ ((ow6 L k p).view.loc (thr d L) ↦[(ow6 L k p).view.set]{fullShare} f2)
        ∗ ((ow7 L k p).view.loc (thr d L) ↦[(ow7 L k p).view.set]{fullShare} f3)
        ∗ ((ow8 L k p).view.loc (thr d L) ↦[(ow8 L k p).view.set]{fullShare} f4)
        ∗ ((ow9 L k p).view.loc (thr d L) ↦[(ow9 L k p).view.set]{fullShare} f5)
        ∗ ((ow10 L k p).view.loc (thr d L) ↦[(ow10 L k p).view.set]{fullShare} f6)
        ∗ ((ow11 L k p).view.loc (thr d L) ↦[(ow11 L k p).view.set]{fullShare} f7) : sProp 𝕄)
      ⊢ blockOwn (F := F) d L (kkOf k p) := by
  unfold blockOwn
  rw [bigSep_fin8, ow4_pts, ow5_pts, ow6_pts, ow7_pts, ow8_pts, ow9_pts, ow10_pts, ow11_pts]
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

omit [FloatOps F] in
theorem blockOwn_elim (k : Fin k1_t2_loop.trips) (p : Fin 2) :
    blockOwn (F := F) d L (kkOf k p)
      ⊢ iprop((∃ f, ((ow4 L k p).view.loc (thr d L) ↦[(ow4 L k p).view.set]{fullShare} f))
        ∗ (∃ f, ((ow5 L k p).view.loc (thr d L) ↦[(ow5 L k p).view.set]{fullShare} f))
        ∗ (∃ f, ((ow6 L k p).view.loc (thr d L) ↦[(ow6 L k p).view.set]{fullShare} f))
        ∗ (∃ f, ((ow7 L k p).view.loc (thr d L) ↦[(ow7 L k p).view.set]{fullShare} f))
        ∗ (∃ f, ((ow8 L k p).view.loc (thr d L) ↦[(ow8 L k p).view.set]{fullShare} f))
        ∗ (∃ f, ((ow9 L k p).view.loc (thr d L) ↦[(ow9 L k p).view.set]{fullShare} f))
        ∗ (∃ f, ((ow10 L k p).view.loc (thr d L) ↦[(ow10 L k p).view.set]{fullShare} f))
        ∗ (∃ f, ((ow11 L k p).view.loc (thr d L) ↦[(ow11 L k p).view.set]{fullShare} f)) : sProp 𝕄) := by
  unfold blockOwn
  rw [bigSep_fin8]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  isplitl [H0]; · iexists f0; rw [ow4_pts]; iexact H0
  isplitl [H1]; · iexists f1; rw [ow5_pts]; iexact H1
  isplitl [H2]; · iexists f2; rw [ow6_pts]; iexact H2
  isplitl [H3]; · iexists f3; rw [ow7_pts]; iexact H3
  isplitl [H4]; · iexists f4; rw [ow8_pts]; iexact H4
  isplitl [H5]; · iexists f5; rw [ow9_pts]; iexact H5
  isplitl [H6]; · iexists f6; rw [ow10_pts]; iexact H6
  iexists f7; rw [ow11_pts]; iexact H7

/-! ## Blocks done and blocks to do -/

/-- The blocks written out and landed before trip `k`: those below `2 k - 2`. -/
def doneS (k : Nat) : Finset (Fin 104) := Finset.univ.filter fun b => b.val + 2 < 2 * k
/-- The blocks not yet started before trip `k`: those from `2 k` on. -/
def todoS (k : Nat) : Finset (Fin 104) := Finset.univ.filter fun b => 2 * k ≤ b.val

theorem todoS_split (k : Fin k1_t2_loop.trips) :
    todoS k.val = insert (kkOf k 0) (insert (kkOf k 1) (todoS (k.val + 1))) := by
  ext b
  simp only [todoS, kkOf, Finset.mem_filter, Finset.mem_univ, true_and, Finset.mem_insert, Fin.ext_iff]
  show 2 * k.val ≤ b.val ↔ b.val = 2 * k.val + 0 ∨ b.val = 2 * k.val + 1 ∨ 2 * (k.val + 1) ≤ b.val
  omega
theorem todoS_n0 (k : Fin k1_t2_loop.trips) : kkOf k 0 ∉ insert (kkOf k 1) (todoS (k.val + 1)) := by
  simp only [todoS, kkOf, Finset.mem_filter, Finset.mem_univ, true_and, Finset.mem_insert, Fin.ext_iff, not_or]
  constructor
  · show ¬ (2 * k.val + 0 = 2 * k.val + 1); omega
  · show ¬ (2 * (k.val + 1) ≤ 2 * k.val + 0); omega
theorem todoS_n1 (k : Fin k1_t2_loop.trips) : kkOf k 1 ∉ todoS (k.val + 1) := by
  simp only [todoS, kkOf, Finset.mem_filter, Finset.mem_univ, true_and]
  show ¬ (2 * (k.val + 1) ≤ 2 * k.val + 1); omega
theorem doneS_succ (k : Nat) (km : Fin k1_t2_loop.trips) (hkm : km.val + 1 = k) :
    doneS (k + 1) = insert (kkOf km 1) (insert (kkOf km 0) (doneS k)) := by
  ext b
  simp only [doneS, kkOf, Finset.mem_filter, Finset.mem_univ, true_and, Finset.mem_insert, Fin.ext_iff]
  show b.val + 2 < 2 * (k + 1) ↔ b.val = 2 * km.val + 1 ∨ b.val = 2 * km.val + 0 ∨ b.val + 2 < 2 * k
  omega
theorem doneS_n1 (k : Nat) (km : Fin k1_t2_loop.trips) (hkm : km.val + 1 = k) : kkOf km 1 ∉ insert (kkOf km 0) (doneS k) := by
  simp only [doneS, kkOf, Finset.mem_filter, Finset.mem_univ, true_and, Finset.mem_insert, Fin.ext_iff, not_or]
  constructor
  · show ¬ (2 * km.val + 1 = 2 * km.val + 0); omega
  · show ¬ (2 * km.val + 1 + 2 < 2 * k); omega
theorem doneS_n0 (k : Nat) (km : Fin k1_t2_loop.trips) (hkm : km.val + 1 = k) : kkOf km 0 ∉ doneS k := by
  simp only [doneS, kkOf, Finset.mem_filter, Finset.mem_univ, true_and]
  show ¬ (2 * km.val + 0 + 2 < 2 * k); omega
theorem doneS_one : doneS 1 = doneS 0 := by
  ext b; simp only [doneS, Finset.mem_filter, Finset.mem_univ, true_and]; omega

/-- Rows `o … o + 7` of a 64 × 128 memref, as the program names the window. -/
abbrev trw (mm : Memref sig .scVector .vmem S64x128 .f32) (o : Nat)
    (inb : ∀ a, (![o, 0] : Fin 2 → Nat) a + S8x128.size a ≤ S64x128.size a) : Memref sig .scVector .vmem S8x128 .f32 :=
  mm.slice (Rect.unit (s := S64x128) ![o, 0] S8x128.size inb) (fun _ => rfl)

/-! ## The main loop's invariant -/

/-- The delivery of the write-out of rows `o … o + 7` of the transposed half `mm` (at contents `T`) into the result's
    window `w` (over contents `fo`): the window holding those rows, and the rows back. -/
abbrev D8 (mm : Memref sig .scVector .vmem S64x128 .f32) (o : Nat)
    (inb : ∀ a, (![o, 0] : Fin 2 → Nat) a + S8x128.size a ≤ S64x128.size a)
    (w : Memref sig .scVector .hbm S8x128 .f32) (T : Buf (Elt F) ((trw mm o inb).view.loc (thr d L)))
    (fo : Buf (Elt F) (w.view.loc (thr d L))) : sProp 𝕄 :=
  iprop((w.view.loc (thr d L) ↦[w.view.set]{fullShare}
      w.view.writes (Elt F) fo [⟨Rect.whole S8x128, ReadAs.same.apply ((trw mm o inb).view.read (Elt F) T)⟩])
    ∗ ((trw mm o inb).view.loc (thr d L) ↦[(trw mm o inb).view.set]{fullShare} T))

/-- The eight deliveries of a block's write-out from the first half of the transposed scratch. -/
abbrev Ds8a (k : Fin k1_t2_loop.trips) (T : Buf (Elt F) ((s3).view.loc (thr d L)))
    (f0 f1 f2 f3 f4 f5 f6 f7 : Buf (Elt F) ((oW).view.loc (thr d L))) : List (sProp 𝕄) :=
  [D8 d L tr0 0 inb_S64x128_S8x128_0_0 (ow4 L k 0) T f0,
   D8 d L tr0 8 inb_S64x128_S8x128_8_0 (ow5 L k 0) T f1,
   D8 d L tr0 16 inb_S64x128_S8x128_16_0 (ow6 L k 0) T f2,
   D8 d L tr0 24 inb_S64x128_S8x128_24_0 (ow7 L k 0) T f3,
   D8 d L tr0 32 inb_S64x128_S8x128_32_0 (ow8 L k 0) T f4,
   D8 d L tr0 40 inb_S64x128_S8x128_40_0 (ow9 L k 0) T f5,
   D8 d L tr0 48 inb_S64x128_S8x128_48_0 (ow10 L k 0) T f6,
   D8 d L tr0 56 inb_S64x128_S8x128_56_0 (ow11 L k 0) T f7]
/-- The eight deliveries of a block's write-out from the second half. -/
abbrev Ds8b (k : Fin k1_t2_loop.trips) (T : Buf (Elt F) ((s3).view.loc (thr d L)))
    (f0 f1 f2 f3 f4 f5 f6 f7 : Buf (Elt F) ((oW).view.loc (thr d L))) : List (sProp 𝕄) :=
  [D8 d L tr1 0 inb_S64x128_S8x128_0_0 (ow4 L k 1) T f0,
   D8 d L tr1 8 inb_S64x128_S8x128_8_0 (ow5 L k 1) T f1,
   D8 d L tr1 16 inb_S64x128_S8x128_16_0 (ow6 L k 1) T f2,
   D8 d L tr1 24 inb_S64x128_S8x128_24_0 (ow7 L k 1) T f3,
   D8 d L tr1 32 inb_S64x128_S8x128_32_0 (ow8 L k 1) T f4,
   D8 d L tr1 40 inb_S64x128_S8x128_40_0 (ow9 L k 1) T f5,
   D8 d L tr1 48 inb_S64x128_S8x128_48_0 (ow10 L k 1) T f6,
   D8 d L tr1 56 inb_S64x128_S8x128_56_0 (ow11 L k 1) T f7]

variable (O : CellTallies nD τ sig (HIx 2)) (W : Waits sig (HIx 2))
variable (X : Buf (Elt F) ((s0).view.loc (thr d L))) (g : Buf (Elt F) ((s1).view.loc (thr d L))) (P : Buf (Elt F) ((pW).view.loc (thr d L)))

/-- The shares the two gathers in flight hold of the halved words and of the pair table. -/
abbrev qL : PosShare TreeShare := fullShare.left
abbrev qR : PosShare TreeShare := fullShare.right
abbrev pL (L : grid1.Coords) : PosShare TreeShare := (Tiles.tileShare (Tiles.c1Of L) (Tiles.s1Of L)).left
abbrev pR (L : grid1.Coords) : PosShare TreeShare := (Tiles.tileShare (Tiles.c1Of L) (Tiles.s1Of L)).right

theorem jwh0 (k : Nat) (h : k < 52) : 256 * k + 128 ≤ 13312 := by omega
theorem jwh1 (k : Nat) (h : k < 52) : 256 * k + 128 + 128 ≤ 13312 := by omega

/-- The gathers' part before trip `k`: both in flight (blocks `2 k`, `2 k + 1`) while trips remain, else everything back. -/
def gpart (k : Nat) : sProp 𝕄 :=
  if h : k < 52 then
    iprop(∃ R0 R1, Transfers.Flight countersEmb (thr d L) (SemLoc.dma cc1_scratch4.sem) default 524288
        iprop((((s2).view.loc (thr d L) ↦[(rows0).view.set]{fullShare} R0) ∗ ((s1).view.loc (thr d L) ↦[(jw (256 * k) (jwh0 k h)).view.set]{qL} g))
          ∗ ((pW).view.loc (thr d L) ↦[(pAll).view.set]{pL L} P))
      ∗ ((pW).view.loc (thr d L) ↦[Finset.univ \ (pAll).view.set]{pL L} P)
      ∗ ((s1).view.loc (thr d L) ↦[Finset.univ \ (jw (256 * k) (jwh0 k h)).view.set]{qL} g)
      ∗ Transfers.Flight countersEmb (thr d L) (SemLoc.dma cc1_scratch5.sem) default 524288
        iprop((((s2).view.loc (thr d L) ↦[(rows1).view.set]{fullShare} R1) ∗ ((s1).view.loc (thr d L) ↦[(jw (256 * k + 128) (jwh1 k h)).view.set]{qR} g))
          ∗ ((pW).view.loc (thr d L) ↦[(pAll).view.set]{pR L} P))
      ∗ ((pW).view.loc (thr d L) ↦[Finset.univ \ (pAll).view.set]{pR L} P)
      ∗ ((s1).view.loc (thr d L) ↦[Finset.univ \ (jw (256 * k + 128) (jwh1 k h)).view.set]{qR} g))
  else
    iprop(∃ R0 R1, ((s2).view.loc (thr d L) ↦[(rows0).view.set]{fullShare} R0) ∗ ((s2).view.loc (thr d L) ↦[(rows1).view.set]{fullShare} R1)
      ∗ ((pW).view.loc (thr d L) ↦{pL L} P) ∗ ((pW).view.loc (thr d L) ↦{pR L} P)
      ∗ ((s1).view.loc (thr d L) ↦{qL} g) ∗ ((s1).view.loc (thr d L) ↦{qR} g)
      ∗ semVal (g4 d L) 0 ∗ semVal (g5 d L) 0)

/-- The write-outs' part before trip `k`: nothing in flight before the first trip, else the two batches of the trip before. -/
def wpart (k : Nat) : sProp 𝕄 :=
  if k = 0 then
    iprop((∃ T0, (s3).view.loc (thr d L) ↦[(tr0).view.set]{fullShare} T0) ∗ (∃ T1, (s3).view.loc (thr d L) ↦[(tr1).view.set]{fullShare} T1)
      ∗ semVal (g6 d L) 0 ∗ semVal (g7 d L) 0)
  else
    iprop(∃ (km : Fin k1_t2_loop.trips) (T0 T1 : Buf (Elt F) ((s3).view.loc (thr d L))) (fa0 fa1 fa2 fa3 fa4 fa5 fa6 fa7 fb0 fb1 fb2 fb3 fb4 fb5 fb6 fb7 : Buf (Elt F) ((oW).view.loc (thr d L))),
      ⌜km.val + 1 = k⌝
      ∗ Transfers.Batched countersEmb (thr d L) (SemLoc.dma cc1_scratch6.sem) default 32768 8 (Ds8a d L km T0 fa0 fa1 fa2 fa3 fa4 fa5 fa6 fa7) 0
      ∗ Transfers.Batched countersEmb (thr d L) (SemLoc.dma cc1_scratch7.sem) default 32768 8 (Ds8b d L km T1 fb0 fb1 fb2 fb3 fb4 fb5 fb6 fb7) 0)

/-- The result's blocks before trip `k`: those landed, and those not yet started. -/
def opart (k : Nat) : sProp 𝕄 :=
  iprop(bigSep (doneS k) (blockOwn (F := F) d L) ∗ bigSep (todoS k) (blockOwn (F := F) d L))

/-- Before trip `k` of the main loop. -/
def inv2 (k : Nat) (_ : PUnit) : sProp 𝕄 :=
  iprop(Transfers.MayWaits (thr d L) (none : HIx 2) O
    ∗ ((s0).view.loc (thr d L) ↦{fullShare} X)
    ∗ gpart d L g P k ∗ wpart (F := F) d L k ∗ opart (F := F) d L k
    ∗ ∃ W', ⌜∀ p ∈ W', p ∈ W ∨ p.2 = none⌝ ∗ owes (thr d L) O W')

/-! ## A gather's delivery, restated at the window's closed-form offset -/

theorem doneS_first (k : Nat) (hk : k = 0) : doneS (k + 1) = doneS k := by subst hk; exact doneS_one

omit [FloatOps F] in
theorem flight_std (sem : DmaSem sig) (rows : Memref sig .scVector .vmem S128x128 .f32) (R : Buf (Elt F) (rows.view.loc (thr d L)))
    (off : Fin 1 → Nat) (inb : ∀ a, off a + S128.size a ≤ S13312.size a) (o : Nat) (h : o + 128 ≤ 13312) (e : off = ![o])
    (q p : PosShare TreeShare) :
    (Transfers.Flight countersEmb (thr d L) (SemLoc.dma sem) default 524288
        iprop(((rows.view.loc (thr d L) ↦[rows.view.set]{fullShare} R)
            ∗ ((s1).view.loc (thr d L) ↦[((s1).slice (Rect.unit (s := S13312) off S128.size inb) (fun _ => rfl)).view.set]{q} g))
          ∗ ((pW).view.loc (thr d L) ↦[(pAll).view.set]{p} P)) : sProp 𝕄)
      ⊢ Transfers.Flight countersEmb (thr d L) (SemLoc.dma sem) default 524288
        iprop(((rows.view.loc (thr d L) ↦[rows.view.set]{fullShare} R) ∗ ((s1).view.loc (thr d L) ↦[(jw o h).view.set]{q} g))
          ∗ ((pW).view.loc (thr d L) ↦[(pAll).view.set]{p} P)) := by
  subst e; exact Entails.refl _

omit [FloatOps F] in
theorem rest_std (off : Fin 1 → Nat) (inb : ∀ a, off a + S128.size a ≤ S13312.size a) (o : Nat) (h : o + 128 ≤ 13312) (e : off = ![o])
    (q : PosShare TreeShare) :
    ((s1).view.loc (thr d L) ↦[Finset.univ \ ((s1).slice (Rect.unit (s := S13312) off S128.size inb) (fun _ => rfl)).view.set]{q} g : sProp 𝕄)
      ⊢ (s1).view.loc (thr d L) ↦[Finset.univ \ (jw o h).view.set]{q} g := by
  subst e; exact Entails.refl _

/-! ## A two-half scratch buffer as its halves -/

theorem mem_tr (p : Nat) (hp : ∀ a, (![p, 0, 0] : Fin 3 → Nat) a + S1x64x128.size a ≤ S2x64x128.size a)
    (x : S2x64x128.Idx) :
    x ∈ (((s3).slice (Rect.unit (s := S2x64x128) ![p, 0, 0] S1x64x128.size hp) (fun _ => rfl)).squeeze S64x128 squeezes_S1x64x128_S64x128).view.set
      ↔ (x 0).val = p := by
  have hs : (((s3).slice (Rect.unit (s := S2x64x128) ![p, 0, 0] S1x64x128.size hp) (fun _ => rfl)).squeeze S64x128 squeezes_S1x64x128_S64x128).view.set
      = (Rect.unit (s := S2x64x128) ![p, 0, 0] S1x64x128.size hp).set := by
    show (((s3).view.slice _).reshape _ _).set = _
    rw [View.set_reshape, View.set_slice]
    exact Finset.map_refl
  rw [hs, Rect.mem_set_unit]
  constructor
  · intro h; have h2 : p ≤ (x 0).val ∧ (x 0).val < p + 1 := h 0; omega
  · intro h a
    have h1 : (x 1).val < 64 := (x 1).isLt
    have h2 : (x 2).val < 128 := (x 2).isLt
    match a with
    | ⟨0, _⟩ => show p ≤ (x 0).val ∧ (x 0).val < p + 1; omega
    | ⟨1, _⟩ => show 0 ≤ (x 1).val ∧ (x 1).val < 0 + 64; omega
    | ⟨2, _⟩ => show 0 ≤ (x 2).val ∧ (x 2).val < 0 + 128; omega

theorem tr_disj : Disjoint (tr0).view.set (tr1).view.set := by
  rw [Finset.disjoint_left]; intro x h0 h1
  have a := (mem_tr 0 inb_S2x64x128_S1x64x128_0_0_0 x).mp h0
  have b := (mem_tr 1 inb_S2x64x128_S1x64x128_1_0_0 x).mp h1
  omega
theorem tr_union : (tr0).view.set ∪ (tr1).view.set = Finset.univ := by
  ext x
  simp only [Finset.mem_union, Finset.mem_univ, iff_true]
  have hx : (x 0).val < 2 := (x 0).isLt
  rcases Nat.lt_succ_iff_lt_or_eq.mp hx with h | h
  · exact Or.inl ((mem_tr 0 inb_S2x64x128_S1x64x128_0_0_0 x).mpr (by omega))
  · exact Or.inr ((mem_tr 1 inb_S2x64x128_S1x64x128_1_0_0 x).mpr h)

theorem mem_rows (p : Nat) (hp : ∀ a, (![p, 0, 0] : Fin 3 → Nat) a + S1x128x128.size a ≤ S2x128x128.size a)
    (x : S2x128x128.Idx) :
    x ∈ (((s2).slice (Rect.unit (s := S2x128x128) ![p, 0, 0] S1x128x128.size hp) (fun _ => rfl)).squeeze S128x128 squeezes_S1x128x128_S128x128).view.set
      ↔ (x 0).val = p := by
  have hs : (((s2).slice (Rect.unit (s := S2x128x128) ![p, 0, 0] S1x128x128.size hp) (fun _ => rfl)).squeeze S128x128 squeezes_S1x128x128_S128x128).view.set
      = (Rect.unit (s := S2x128x128) ![p, 0, 0] S1x128x128.size hp).set := by
    show (((s2).view.slice _).reshape _ _).set = _
    rw [View.set_reshape, View.set_slice]
    exact Finset.map_refl
  rw [hs, Rect.mem_set_unit]
  constructor
  · intro h; have h2 : p ≤ (x 0).val ∧ (x 0).val < p + 1 := h 0; omega
  · intro h a
    have h1 : (x 1).val < 128 := (x 1).isLt
    have h2 : (x 2).val < 128 := (x 2).isLt
    match a with
    | ⟨0, _⟩ => show p ≤ (x 0).val ∧ (x 0).val < p + 1; omega
    | ⟨1, _⟩ => show 0 ≤ (x 1).val ∧ (x 1).val < 0 + 128; omega
    | ⟨2, _⟩ => show 0 ≤ (x 2).val ∧ (x 2).val < 0 + 128; omega

theorem rows_disj : Disjoint (rows0).view.set (rows1).view.set := by
  rw [Finset.disjoint_left]; intro x h0 h1
  have a := (mem_rows 0 inb_S2x128x128_S1x128x128_0_0_0 x).mp h0
  have b := (mem_rows 1 inb_S2x128x128_S1x128x128_1_0_0 x).mp h1
  omega
theorem rows_union : (rows0).view.set ∪ (rows1).view.set = Finset.univ := by
  ext x
  simp only [Finset.mem_union, Finset.mem_univ, iff_true]
  have hx : (x 0).val < 2 := (x 0).isLt
  rcases Nat.lt_succ_iff_lt_or_eq.mp hx with h | h
  · exact Or.inl ((mem_rows 0 inb_S2x128x128_S1x128x128_0_0_0 x).mpr (by omega))
  · exact Or.inr ((mem_rows 1 inb_S2x128x128_S1x128x128_1_0_0 x).mpr h)

omit [FloatOps F] in
theorem tr_halves (f : Buf (Elt F) ((s3).view.loc (thr d L))) :
    ((s3).view.loc (thr d L) ↦{fullShare} f : sProp 𝕄)
      ⊣⊢ iprop(((s3).view.loc (thr d L) ↦[(tr0).view.set]{fullShare} f) ∗ ((s3).view.loc (thr d L) ↦[(tr1).view.set]{fullShare} f)) := by
  have h : ((s3).view.loc (thr d L) ↦[(tr0).view.set ∪ (tr1).view.set]{fullShare} f : sProp 𝕄)
      ⊣⊢ iprop(((s3).view.loc (thr d L) ↦[(tr0).view.set]{fullShare} f) ∗ ((s3).view.loc (thr d L) ↦[(tr1).view.set]{fullShare} f)) :=
    pointsTo_union tr_disj
  rw [tr_union] at h
  exact h

omit [FloatOps F] in
theorem tr_join (f f' : Buf (Elt F) ((s3).view.loc (thr d L))) :
    iprop(((s3).view.loc (thr d L) ↦[(tr0).view.set]{fullShare} f) ∗ ((s3).view.loc (thr d L) ↦[(tr1).view.set]{fullShare} f') : sProp 𝕄)
      ⊢ iprop(∃ h, (s3).view.loc (thr d L) ↦{fullShare} h) := by
  have h : iprop(((s3).view.loc (thr d L) ↦[(tr0).view.set]{fullShare} f) ∗ ((s3).view.loc (thr d L) ↦[(tr1).view.set]{fullShare} f') : sProp 𝕄)
      ⊢ ((s3).view.loc (thr d L) ↦[(tr0).view.set ∪ (tr1).view.set]{fullShare} ((tr1).view.set.piecewise f' f)) :=
    pointsTo_join tr_disj
  rw [tr_union] at h
  iintro H
  iexists _
  iapply h; iexact H

omit [FloatOps F] in
theorem rows_halves (f : Buf (Elt F) ((s2).view.loc (thr d L))) :
    ((s2).view.loc (thr d L) ↦{fullShare} f : sProp 𝕄)
      ⊣⊢ iprop(((s2).view.loc (thr d L) ↦[(rows0).view.set]{fullShare} f) ∗ ((s2).view.loc (thr d L) ↦[(rows1).view.set]{fullShare} f)) := by
  have h : ((s2).view.loc (thr d L) ↦[(rows0).view.set ∪ (rows1).view.set]{fullShare} f : sProp 𝕄)
      ⊣⊢ iprop(((s2).view.loc (thr d L) ↦[(rows0).view.set]{fullShare} f) ∗ ((s2).view.loc (thr d L) ↦[(rows1).view.set]{fullShare} f)) :=
    pointsTo_union rows_disj
  rw [rows_union] at h
  exact h

omit [FloatOps F] in
theorem rows_join (f f' : Buf (Elt F) ((s2).view.loc (thr d L))) :
    iprop(((s2).view.loc (thr d L) ↦[(rows0).view.set]{fullShare} f) ∗ ((s2).view.loc (thr d L) ↦[(rows1).view.set]{fullShare} f') : sProp 𝕄)
      ⊢ iprop(∃ h, (s2).view.loc (thr d L) ↦{fullShare} h) := by
  have h : iprop(((s2).view.loc (thr d L) ↦[(rows0).view.set]{fullShare} f) ∗ ((s2).view.loc (thr d L) ↦[(rows1).view.set]{fullShare} f') : sProp 𝕄)
      ⊢ ((s2).view.loc (thr d L) ↦[(rows0).view.set ∪ (rows1).view.set]{fullShare} ((rows1).view.set.piecewise f' f)) :=
    pointsTo_join rows_disj
  rw [rows_union] at h
  iintro H
  iexists _
  iapply h; iexact H

set_option maxHeartbeats 4000000 in
theorem trip_first
    (hin : ∀ (r : Rect S13312) (hr : ∀ a, r.stride a = 1) (x : r.shape.Idx), (((s1).slice r hr).view.read (Elt F) g x).toNat < 500000)
    (k : Fin k1_t2_loop.trips) (hk : k.val = 0) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  have hgt : ¬ Scalar.cmpi .ne (Scalar.extui (Scalar.cmpi .sgt (Scf.iv 0#32 1#32 k) 0#32)) 0#32 = 1#1 :=
    fun h => absurd ((gt0_iff k).mp h) (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2
  iintro ⟨Hmw, H0, HG, HWP, HOP, %W', %hW', HO⟩
  ihave HG := (Entails.of_eq (show gpart (F := F) d L g P k.val = _ from dif_pos h52)) $$ HG
  icases HG with ⟨%R0, %R1, HF6, HpL, H1L, HF7, HpR, H1R⟩
  ihave HWP := (Entails.of_eq (show wpart (F := F) d L k.val = _ from if_pos hk)) $$ HWP
  icases HWP with ⟨⟨%T0, HT0⟩, ⟨%T1, HT1⟩, Hs6, Hs7⟩
  ihave HOP := (Entails.of_eq (show opart (F := F) d L k.val = iprop(bigSep (doneS k.val) (blockOwn (F := F) d L) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  sl_for (fun (_ : Nat) (_ : PUnit) => iprop(((s0).view.loc (thr d L) ↦{fullShare} X) ∗ ((s2).view.loc (thr d L) ↦[(rows0).view.set]{fullShare} R0)
      ∗ (∃ Tt, (s3).view.loc (thr d L) ↦[(tr0).view.set]{fullShare} Tt) : sProp 𝕄)) $$ [H0 HF6_dst HT0]
  case region => intro t u'; exact step3F d L k _ _ t u' X R0
  · isplitl [H0]; · iexact H0
    isplitl [HF6_dst]; · iexact HF6_dst
    iexists _; iexact HT0
  iintro %_ HI
  icases HI with ⟨H0, HR0, %T0', HT0⟩
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  sl_for (fun (_ : Nat) (_ : PUnit) => iprop(((s0).view.loc (thr d L) ↦{fullShare} X) ∗ ((s2).view.loc (thr d L) ↦[(rows1).view.set]{fullShare} R1)
      ∗ (∃ Tt, (s3).view.loc (thr d L) ↦[(tr1).view.set]{fullShare} Tt) : sProp 𝕄)) $$ [H0 HF7_dst HT1]
  case region => intro t u'; exact step4F d L k _ _ _ t u' X R1
  · isplitl [H0]; · iexact H0
    isplitl [HF7_dst]; · iexact HF7_dst
    iexists _; iexact HT1
  iintro %_ HI
  icases HI with ⟨H0, HR1, %T1', HT1⟩
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpart (F := F) d L g P (k.val + 1) = _ from dif_pos (show k.val + 1 < 52 by omega)]
    iexists _, _
    isplitl [HF6]; · iapply (flight_std (F := F) d L g P cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g P cc1_scratch5.sem rows1 _ (k1_off14 k) _ (256 * (k.val + 1) + 128) _ e14 qR (pR L)); iexact HF7
    isplitl [HpR]; · iexact HpR
    iapply (rest_std (F := F) d L g (k1_off14 k) _ (256 * (k.val + 1) + 128) _ e14 qR); iexact H1R
  isplitl [Hs6 Hs7]
  · rw [show wpart (F := F) d L (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitl [Hs6]; · iexact Hs6
    iexact Hs7
  isplitl [Hdone Htodo]
  · unfold opart
    isplitr [Htodo]
    · rw [doneS_first k.val hk]; iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem trip_mid
    (hin : ∀ (r : Rect S13312) (hr : ∀ a, r.stride a = 1) (x : r.shape.Idx), (((s1).slice r hr).view.read (Elt F) g x).toNat < 500000)
    (k : Fin k1_t2_loop.trips) (hk : 0 < k.val ∧ k.val < 51) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2
  iintro ⟨Hmw, H0, HG, HWP, HOP, %W', %hW', HO⟩
  ihave HG := (Entails.of_eq (show gpart (F := F) d L g P k.val = _ from dif_pos h52)) $$ HG
  icases HG with ⟨%R0, %R1, HF6, HpL, H1L, HF7, HpR, H1R⟩
  ihave HWP := (Entails.of_eq (show wpart (F := F) d L k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, HB8, HB9⟩
  ihave HOP := (Entails.of_eq (show opart (F := F) d L k.val = iprop(bigSep (doneS k.val) (blockOwn (F := F) d L) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockOwn_intro (F := F) d L km 0 _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (fun (_ : Nat) (_ : PUnit) => iprop(((s0).view.loc (thr d L) ↦{fullShare} X) ∗ ((s2).view.loc (thr d L) ↦[(rows0).view.set]{fullShare} R0)
      ∗ (∃ Tt, (s3).view.loc (thr d L) ↦[(tr0).view.set]{fullShare} Tt) : sProp 𝕄)) $$ [H0 HF6_dst HT0]
  case region => intro t u'; exact step3F d L k _ _ t u' X R0
  · isplitl [H0]; · iexact H0
    isplitl [HF6_dst]; · iexact HF6_dst
    iexists _; iexact HT0
  iintro %_ HI
  icases HI with ⟨H0, HR0, %T0', HT0⟩
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockOwn_intro (F := F) d L km 1 _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (fun (_ : Nat) (_ : PUnit) => iprop(((s0).view.loc (thr d L) ↦{fullShare} X) ∗ ((s2).view.loc (thr d L) ↦[(rows1).view.set]{fullShare} R1)
      ∗ (∃ Tt, (s3).view.loc (thr d L) ↦[(tr1).view.set]{fullShare} Tt) : sProp 𝕄)) $$ [H0 HF7_dst HT1]
  case region => intro t u'; exact step4F d L k _ _ _ t u' X R1
  · isplitl [H0]; · iexact H0
    isplitl [HF7_dst]; · iexact HF7_dst
    iexists _; iexact HT1
  iintro %_ HI
  icases HI with ⟨H0, HR1, %T1', HT1⟩
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpart (F := F) d L g P (k.val + 1) = _ from dif_pos (show k.val + 1 < 52 by omega)]
    iexists _, _
    isplitl [HF6]; · iapply (flight_std (F := F) d L g P cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g P cc1_scratch5.sem rows1 _ (k1_off14 k) _ (256 * (k.val + 1) + 128) _ e14 qR (pR L)); iexact HF7
    isplitl [HpR]; · iexact HpR
    iapply (rest_std (F := F) d L g (k1_off14 k) _ (256 * (k.val + 1) + 128) _ e14 qR); iexact H1R
  isplitl [HB8 HB9]
  · rw [show wpart (F := F) d L (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitl [HB8]; · iexact HB8
    iexact HB9
  isplitl [Hdone Htodo Hdn0 Hdn1]
  · unfold opart
    isplitr [Htodo]
    · iapply (Entails.of_eq (show iprop(blockOwn (F := F) d L (kkOf km 1) ∗ blockOwn (F := F) d L (kkOf km 0) ∗ bigSep (doneS k.val) (blockOwn (F := F) d L))
          = bigSep (doneS (k.val + 1)) (blockOwn (F := F) d L) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem trip_last
    (hin : ∀ (r : Rect S13312) (hr : ∀ a, r.stride a = 1) (x : r.shape.Idx), (((s1).slice r hr).view.read (Elt F) g x).toNat < 500000)
    (k : Fin k1_t2_loop.trips) (hk : k.val = 51) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : ¬ k1_cond2 k = 1#1 := fun h => absurd ((k1_cond2_iff k).mp h) (by omega)
  have hc4 : ¬ k1_cond4 k = 1#1 := fun h => absurd ((k1_cond4_iff k).mp h) (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2
  iintro ⟨Hmw, H0, HG, HWP, HOP, %W', %hW', HO⟩
  ihave HG := (Entails.of_eq (show gpart (F := F) d L g P k.val = _ from dif_pos h52)) $$ HG
  icases HG with ⟨%R0, %R1, HF6, HpL, H1L, HF7, HpR, H1R⟩
  ihave HWP := (Entails.of_eq (show wpart (F := F) d L k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, HB8, HB9⟩
  ihave HOP := (Entails.of_eq (show opart (F := F) d L k.val = iprop(bigSep (doneS k.val) (blockOwn (F := F) d L) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockOwn_intro (F := F) d L km 0 _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (fun (_ : Nat) (_ : PUnit) => iprop(((s0).view.loc (thr d L) ↦{fullShare} X) ∗ ((s2).view.loc (thr d L) ↦[(rows0).view.set]{fullShare} R0)
      ∗ (∃ Tt, (s3).view.loc (thr d L) ↦[(tr0).view.set]{fullShare} Tt) : sProp 𝕄)) $$ [H0 HF6_dst HT0]
  case region => intro t u'; exact step3F d L k _ _ t u' X R0
  · isplitl [H0]; · iexact H0
    isplitl [HF6_dst]; · iexact HF6_dst
    iexists _; iexact HT0
  iintro %_ HI
  icases HI with ⟨H0, HR0, %T0', HT0⟩
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockOwn_intro (F := F) d L km 1 _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (fun (_ : Nat) (_ : PUnit) => iprop(((s0).view.loc (thr d L) ↦{fullShare} X) ∗ ((s2).view.loc (thr d L) ↦[(rows1).view.set]{fullShare} R1)
      ∗ (∃ Tt, (s3).view.loc (thr d L) ↦[(tr1).view.set]{fullShare} Tt) : sProp 𝕄)) $$ [H0 HF7_dst HT1]
  case region => intro t u'; exact step4F d L k _ _ _ t u' X R1
  · isplitl [H0]; · iexact H0
    isplitl [HF7_dst]; · iexact HF7_dst
    iexists _; iexact HT1
  iintro %_ HI
  icases HI with ⟨H0, HR1, %T1', HT1⟩
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  isplitl [HF6 HpL H1L HF7 HpR H1R HR0 HR1]
  · rw [show gpart (F := F) d L g P (k.val + 1) = _ from dif_neg (show ¬ k.val + 1 < 52 by omega)]
    iexists R0, R1
    isplitl [HR0]; · iexact HR0
    isplitl [HR1]; · iexact HR1
    isplitl [HpL]; · iexact HpL
    isplitl [HpR]; · iexact HpR
    isplitl [H1L]; · iexact H1L
    isplitl [H1R]; · iexact H1R
    isplitl [HF6]; · iexact HF6
    iexact HF7
  isplitl [HB8 HB9]
  · rw [show wpart (F := F) d L (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitl [HB8]; · iexact HB8
    iexact HB9
  isplitl [Hdone Htodo Hdn0 Hdn1]
  · unfold opart
    isplitr [Htodo]
    · iapply (Entails.of_eq (show iprop(blockOwn (F := F) d L (kkOf km 1) ∗ blockOwn (F := F) d L (kkOf km 0) ∗ bigSep (doneS k.val) (blockOwn (F := F) d L))
          = bigSep (doneS (k.val + 1)) (blockOwn (F := F) d L) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

theorem trip2
    (hin : ∀ (r : Rect S13312) (hr : ∀ a, r.stride a = 1) (x : r.shape.Idx), (((s1).slice r hr).view.read (Elt F) g x).toNat < 500000)
    (k : Fin k1_t2_loop.trips) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  rcases Nat.eq_zero_or_pos k.val with h0 | hpos
  · exact trip_first d L O W X g P hin k h0 v2 u
  · rcases Nat.lt_or_ge k.val 51 with hlt | hge
    · exact trip_mid d L O W X g P hin k ⟨hpos, hlt⟩ v2 u
    · exact trip_last d L O W X g P hin k (by omega) v2 u

omit [FloatOps F] in
theorem pts_i (q : PosShare TreeShare) (f : Buf (Elt F) (Tiles.flatLoc d)) :
    ((iW).view.loc (thr d L) ↦{q} f : sProp 𝕄) = Tiles.flatLoc d ↦{q} f := by
  simp only [Memref.view_whole, View.set_whole]
omit [FloatOps F] in
theorem pts_p (q : PosShare TreeShare) (f : Buf (Elt F) (Tiles.pairsLoc d)) :
    ((pW).view.loc (thr d L) ↦{q} f : sProp 𝕄) = Tiles.pairsLoc d ↦{q} f := by
  simp only [Memref.view_whole, View.set_whole]

theorem doneS_zero : doneS 0 = ∅ := by
  ext b; simp only [doneS, Finset.mem_filter, Finset.mem_univ, true_and, Finset.notMem_empty, iff_false]; omega
theorem todoS_zero : todoS 0 = Finset.univ := by
  ext b; simp only [todoS, Finset.mem_filter, Finset.mem_univ, true_and, iff_true]; omega
theorem doneS_all : doneS 53 = Finset.univ := by
  ext b; simp only [doneS, Finset.mem_filter, Finset.mem_univ, true_and, iff_true]; have := b.isLt; omega

set_option maxHeartbeats 4000000 in
theorem tile_body1F (hF : (K (F := F)).Facts) (m : (ℓ : Loc nD τ sig) → Buf (Elt F) ℓ)
    (hI : ∀ i, ((Tiles.IDS m d) i).toNat ≤ 999999)
    (O : CellTallies nD τ sig (HIx 2)) (W : Waits sig (HIx 2)) (hO : ∀ g, O g none = 0) :
    iprop(levAts (K (F := F)).L (K (F := F)).lev ∗ Tiles.go1 m d (Tiles.c1Of L) (Tiles.s1Of L)
        ∗ scopedBufs (thr d L) ∗ scopedSems0 (thr d L) ∗ owes (thr d L) O W)
      ⊢ wp frame (wpE (defs₀ (F := F)) 𝒱₀ (thr d L) none) Set.univ
          (cc1_k L iW (Memref.isWhole_whole _) pW (Memref.isWhole_whole _) oW (Memref.isWhole_whole _) s0 (Memref.isWhole_whole _) s1 (Memref.isWhole_whole _) s2 (Memref.isWhole_whole _) s3 (Memref.isWhole_whole _) cc1_scratch4 cc1_scratch5 cc1_scratch6 cc1_scratch7 cc1_scoped0)
          fun _ => iprop(Tiles.go1 m d (Tiles.c1Of L) (Tiles.s1Of L) ∗ scopedBufs (thr d L) ∗ scopedSems0 (thr d L)
            ∗ ∃ W', ⌜∀ p ∈ W', p ∈ W ∨ p.2 = none⌝ ∗ owes (thr d L) O W') := by
  have hW0 : ∀ p ∈ W, p ∈ W ∨ p.2 = (none : HIx 2) := fun p hp => Or.inl hp
  simp only [cc1_k_eq_skeleton]; unfold cc1_k_skel
  rw [(K (F := F)).scopedBufs_V hF d (cV L) (jV L), SparseCore.Cfg.scopedSems0_V (Val := Elt F) d (cV L) (jV L), ownSems0_V1, ownBufs_V1]
  unfold Tiles.go1
  iintro ⟨#Hlv, ⟨Hi, Hp, Hq, Hout⟩, ⟨⟨%f0, H0⟩, ⟨%f1, H1⟩, ⟨%f2, H2⟩, ⟨%f3, H3⟩, Hbufs⟩, ⟨Hs4, Hs5, Hs6, Hs7, HsS, Hsems⟩, HO⟩
  ihave Hmw := ((K (F := F)).mayWaits_none (thr := thr d L) hO) $$ Hlv
  ihave Hi' := (Entails.of_eq (pts_i (F := F) d L _ _).symm) $$ Hi
  ihave Hp' := (Entails.of_eq (pts_p (F := F) d L _ _).symm) $$ Hp
  ihave Hq' := (Entails.of_eq (pts_p (F := F) d L _ _).symm) $$ Hq
  ihave H0' := (Entails.of_eq (show (((s0).view.loc (thr d L) ↦{fullShare} f0 : sProp 𝕄)) = _ from rfl).symm) $$ H0
  ihave H1' := (Entails.of_eq (show (((s1).view.loc (thr d L) ↦{fullShare} f1 : sProp 𝕄)) = _ from rfl).symm) $$ H1
  ihave H2h := (rows_halves (F := F) d L f2).1 $$ H2
  icases H2h with ⟨HR0, HR1⟩
  ihave H3h := (tr_halves (F := F) d L f3).1 $$ H3
  icases H3h with ⟨HT0, HT1⟩
  sl_exec
  sl_for (inv1 d L O) $$ [Hmw H0' H1']
  case region => intro k hk; exact step1 d L O k hk
  · unfold inv1
    isplitl [Hmw]; · iexact Hmw
    isplitl [H0']
    · iexists _; isplitl [H0']
      · iexact H0'
      · ipureintro
        intro j
        rw [View.write_whole_univ]
        exact hI _
    iexists f1; isplitl [H1']
    · iexact H1'
    · ipureintro; intro j hj; exact absurd hj (by simp)
  iintro %_ HI
  unfold inv1
  icases HI with ⟨Hmw, ⟨%X, H0, %hX⟩, %g, H1, %hg⟩
  have hin : ∀ (r : Rect S13312) (hr : ∀ a, r.stride a = 1) (x : r.shape.Idx), (((s1).slice r hr).view.read (Elt F) g x).toNat < 500000 := hin_of_exit (F := F) g hg
  ihave H1s := (show ((s1).view.loc (thr d L) ↦{fullShare} g : sProp 𝕄) ⊢ iprop(((s1).view.loc (thr d L) ↦{qL} g) ∗ ((s1).view.loc (thr d L) ↦{qR} g)) from (pointsTo_share (PosShare.mem_left_op_right fullShare)).1) $$ H1
  icases H1s with ⟨H1L, H1R⟩
  ihave HR0 := (Entails.of_eq (show ((rows0).view.loc (thr d L) ↦[(rows0).view.set]{fullShare} f2 : sProp 𝕄) = _ from rfl).symm) $$ HR0
  ihave HR1 := (Entails.of_eq (show ((rows1).view.loc (thr d L) ↦[(rows1).view.set]{fullShare} f2 : sProp 𝕄) = _ from rfl).symm) $$ HR1
  sl_exec
  sl_for (inv2 (F := F) d L O W X g (Cert.Lookup.pairs (Tiles.TAB m d))) $$ [Hmw H0 Hs4 Hp' H1L Hs5 Hq' H1R HT0 HT1 Hs6 Hs7 Hout HO]
  case region => intro k u; exact trip2 d L O W X g _ hin k _ u
  · unfold inv2
    isplitl [Hmw]; · iexact Hmw
    isplitl [H0]; · iexact H0
    isplitl [Hs4 Hp' H1L Hs5 Hq' H1R]
    · rw [show gpart (F := F) d L g (Cert.Lookup.pairs (Tiles.TAB m d)) 0 = _ from dif_pos (show 0 < 52 by omega)]
      iexists _, _
      isplitl [Hs4]; · iapply (flight_std (F := F) d L g _ cc1_scratch4.sem rows0 _ ![0] _ (256 * 0) _ rfl qL (pL L)); iexact Hs4
      isplitl [Hp']; · iexact Hp'
      isplitl [H1L]; · iapply (rest_std (F := F) d L g ![0] _ (256 * 0) _ rfl qL); iexact H1L
      isplitl [Hs5]; · iapply (flight_std (F := F) d L g _ cc1_scratch5.sem rows1 _ ![128] _ (256 * 0 + 128) _ rfl qR (pR L)); iexact Hs5
      isplitl [Hq']; · iexact Hq'
      iapply (rest_std (F := F) d L g ![128] _ (256 * 0 + 128) _ rfl qR); iexact H1R
    isplitl [HT0 HT1 Hs6 Hs7]
    · rw [show wpart (F := F) d L 0 = _ from if_pos rfl]
      isplitl [HT0]; · iexists _; iexact HT0
      isplitl [HT1]; · iexists _; iexact HT1
      isplitl [Hs6]; · iexact Hs6
      iexact Hs7
    isplitl [Hout]
    · unfold opart
      rw [doneS_zero, todoS_zero, bigSep_empty]
      isplitr
      · iempintro
      · iapply (Entails.of_eq (bigSep_univ_prod (fun p : Fin 104 × Fin 8 =>
          iprop(∃ f, Tiles.out5Loc d ↦[Tiles.outSet (Tiles.blkOf (Tiles.c1Of L) (Tiles.s1Of L) p.1) p.2]{fullShare} f))))
        iexact Hout
    iexists _; isplitr
    on_goal 2 => iexact HO
    ipureintro
    repeat' (first | exact hW0 | (refine (Finset.forall_mem_insert _ _ _).mpr ⟨Or.inr rfl, ?_⟩))
  iintro %_ HI
  have ht : Scf.trips k1_t2_loop.lb k1_t2_loop.ub k1_t2_loop.st = 52 := by decide
  ihave HI := (Entails.of_eq (show inv2 (F := F) d L O W X g (Cert.Lookup.pairs (Tiles.TAB m d)) (Scf.trips k1_t2_loop.lb k1_t2_loop.ub k1_t2_loop.st) _
      = inv2 (F := F) d L O W X g (Cert.Lookup.pairs (Tiles.TAB m d)) 52 _ from by rw [ht])) $$ HI
  unfold inv2
  icases HI with ⟨Hmw2, H0, HG, HWP, HOP, %W', %hW', HO⟩
  ihave HG := (Entails.of_eq (show gpart (F := F) d L g (Cert.Lookup.pairs (Tiles.TAB m d)) 52 = _ from dif_neg (by omega))) $$ HG
  icases HG with ⟨%R0, %R1, HR0e, HR1e, HpL, HpR, H1L, H1R, Hc6, Hc7⟩
  ihave HWP := (Entails.of_eq (show wpart (F := F) d L 52 = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, HB8, HB9⟩
  ihave HOP := (Entails.of_eq (show opart (F := F) d L 52 = iprop(bigSep (doneS 52) (blockOwn (F := F) d L) ∗ bigSep (todoS 52) (blockOwn (F := F) d L)) from rfl)) $$ HOP
  icases HOP with ⟨Hdone, Htodo⟩
  sl_exec
  sl_step
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockOwn_intro (F := F) d L km 0 _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockOwn_intro (F := F) d L km 1 _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  isplitl [Hi' HpL HpR Hdone Hdn0 Hdn1]
  · isplitl [Hi']; · iapply (Entails.of_eq (pts_i (F := F) d L _ _)); iexact Hi'
    isplitl [HpL]; · iapply (Entails.of_eq (pts_p (F := F) d L _ _)); iexact HpL
    isplitl [HpR]; · iapply (Entails.of_eq (pts_p (F := F) d L _ _)); iexact HpR
    iapply (Entails.of_eq (bigSep_univ_prod (fun p : Fin 104 × Fin 8 =>
      iprop(∃ f, Tiles.out5Loc d ↦[Tiles.outSet (Tiles.blkOf (Tiles.c1Of L) (Tiles.s1Of L) p.1) p.2]{fullShare} f))).symm)
    iapply (Entails.of_eq (show iprop(blockOwn (F := F) d L (kkOf km 1) ∗ blockOwn (F := F) d L (kkOf km 0) ∗ bigSep (doneS 52) (blockOwn (F := F) d L))
        = bigSep Finset.univ (blockOwn (F := F) d L) from by
      rw [← doneS_all, doneS_succ 52 km hkm, bigSep_insert (doneS_n1 52 km hkm), bigSep_insert (doneS_n0 52 km hkm)]; rfl))
    isplitl [Hdn1]; · iexact Hdn1
    isplitl [Hdn0]; · iexact Hdn0
    iexact Hdone
  isplitl [H0 H1L H1R HR0e HR1e HT0 HT1 Hbufs]
  · isplitl [H0]; · iexists _; iexact H0
    isplitl [H1L H1R]
    · iexists g
      iapply (show iprop(((s1).view.loc (thr d L) ↦{qL} g) ∗ ((s1).view.loc (thr d L) ↦{qR} g)) ⊢ ((s1).view.loc (thr d L) ↦{fullShare} g : sProp 𝕄)
        from (pointsTo_share (PosShare.mem_left_op_right fullShare)).2)
      isplitl [H1L]; · iexact H1L
      iexact H1R
    isplitl [HR0e HR1e]
    · iapply (rows_join (F := F) d L R0 R1)
      isplitl [HR0e]; · iexact HR0e
      iexact HR1e
    isplitl [HT0 HT1]
    · iapply (tr_join (F := F) d L T0 T1)
      isplitl [HT0]; · iexact HT0
      iexact HT1
    iexact Hbufs
  isplitl [Hc6 Hc7 HB8 HB9 HsS Hsems]
  · isplitl [Hc6]; · iexact Hc6
    isplitl [Hc7]; · iexact Hc7
    isplitl [HB8]; · iexact HB8
    isplitl [HB9]; · iexact HB9
    isplitl [HsS]; · iexact HsS
    iexact Hsems
  iexists _; isplitr
  on_goal 2 => iexact HO
  ipureintro
  repeat' (first | exact hW' | (refine (Finset.forall_mem_insert _ _ _).mpr ⟨Or.inr rfl, ?_⟩))

end Cert.Proof.KI.Body1

end
-- ==== Proof.Body1Val.lean ====
/-
  The gather kernel's tile body, the values of one trip of its main loop, as statements about arrays.

  Trip k of tile w handles blocks 2k and 2k + 1 of the tile: block B = 104·w + 2k + p is feature ⌊B/128⌋ and batch
  chunk B mod 128, and its 128 index words are entries 128·B … of the flat index list. For each word x the gather
  brings line ⌊x/2⌋ of the pair table — rows 2⌊x/2⌋ and 2⌊x/2⌋ + 1 of the table side by side — and the transposing
  loop leaves at (dd, r) of the transposed half the word of row r at column dd of the half x mod 2 names: the table's
  word dd of row x. That is the gathered rows' entry (⌊B/128⌋, ⌊dd/8⌋, B mod 128, dd mod 8, r); rows 8·i … 8·i + 7
  of the transposed half, written whole into window i of the block, therefore leave the gathered rows there.
-/
import proofs.«204055_g19524921328135_cont_8to1_763_20_alg».proof.Proof.Body1Frame
import proofs.«204055_g19524921328135_cont_8to1_763_20_alg».proof.Proof.HostSide

noncomputable section

namespace Cert.Proof.KI.Body1

open Cert.KernelIdeal Cert.KernelIdeal.Gen Cert.Proof.KI
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type}

local notation "𝕄" => MT nD τ sig (HIx 2) (Elt F) ℕ UU ℕ

variable [FloatOps F]

namespace Val

/-! ## From a block's transposed half to the gathered rows -/

section Core

variable (IDS : Cert.Lookup.SIds.Idx → BitVec 32) (TAB : Cert.Lookup.STab.Idx → Elt F .f32)

/-- Entry r of block Bv of the flat index list is the index of batch row (Bv mod 128)·128 + r, feature ⌊Bv/128⌋. -/
theorem flat_at_block (Bv : Nat) (hB : Bv < 3328) (r : Fin 128) :
    Cert.Lookup.flatIds IDS (ix1 (⟨128 * Bv + r.val, by have := r.isLt; omega⟩ : Fin 425984))
      = IDS (ix2 (⟨(Bv % 128) * 128 + r.val, by have := r.isLt; omega⟩ : Fin 16384) (⟨Bv / 128, by omega⟩ : Fin 26)) := by
  have hr := r.isLt
  have h := Cert.HostSide.flatIds_at IDS (⟨Bv / 128, by omega⟩ : Fin 26) (⟨(Bv % 128) * 128 + r.val, by omega⟩ : Fin 16384)
  have hi : (⟨(⟨Bv / 128, by omega⟩ : Fin 26).val * 16384 + (⟨(Bv % 128) * 128 + r.val, by omega⟩ : Fin 16384).val, by
      show Bv / 128 * 16384 + ((Bv % 128) * 128 + r.val) < 425984; omega⟩ : Fin 425984)
      = ⟨128 * Bv + r.val, by omega⟩ := Fin.ext (by show Bv / 128 * 16384 + ((Bv % 128) * 128 + r.val) = 128 * Bv + r.val; omega)
  rw [hi] at h
  exact h

/-- Line ⌊x/2⌋ of the pair table holds row x of the table in its half x mod 2. -/
theorem pairs_at (x : Nat) (hx : x ≤ 999999) (dd : Fin 64) :
    Cert.Lookup.pairs TAB (ix2 (⟨x / 2, by omega⟩ : Fin 500000) (⟨dd.val + 64 * (x % 2), by have := dd.isLt; omega⟩ : Fin 128))
      = TAB (ix2 (⟨x, by omega⟩ : Fin 1000000) dd) := by
  have hdd := dd.isLt
  have h := Cert.HostSide.pairs_row TAB (⟨x, by omega⟩ : Fin 1000000) dd
  have hi : (⟨((⟨x, by omega⟩ : Fin 1000000).val % 2) * 64 + dd.val, by show (x % 2) * 64 + dd.val < 128; omega⟩ : Fin 128)
      = ⟨dd.val + 64 * (x % 2), by omega⟩ := Fin.ext (by show (x % 2) * 64 + dd.val = dd.val + 64 * (x % 2); omega)
  rw [hi] at h
  exact h

/-- The gathered rows at window ⌊dd/8⌋, row dd mod 8, column r of block Bv: the table's word dd of the row that the
    block's index r names. -/
theorem out5_block (Bv : Nat) (hB : Bv < 3328) (dd : Fin 64) (r : Fin 128) :
    Cert.Lookup.out5 IDS TAB (ix5 (⟨Bv / 128, by omega⟩ : Fin 26) (⟨dd.val / 8, by have := dd.isLt; omega⟩ : Fin 8)
        (⟨Bv % 128, Nat.mod_lt _ (by decide)⟩ : Fin 128) (⟨dd.val % 8, Nat.mod_lt _ (by decide)⟩ : Fin 8) r)
      = TAB (ix2 (Cert.Lookup.rowOf (IDS (ix2 (⟨(Bv % 128) * 128 + r.val, by have := r.isLt; omega⟩ : Fin 16384)
          (⟨Bv / 128, by omega⟩ : Fin 26)))) dd) := by
  have hr := r.isLt
  have hdd := dd.isLt
  have h := Cert.HostSide.out5_at IDS TAB (⟨(Bv % 128) * 128 + r.val, by omega⟩ : Fin 16384) (⟨Bv / 128, by omega⟩ : Fin 26) dd
  have h1 : (⟨(⟨(Bv % 128) * 128 + r.val, by omega⟩ : Fin 16384).val / 128, by
      show ((Bv % 128) * 128 + r.val) / 128 < 128; omega⟩ : Fin 128) = ⟨Bv % 128, Nat.mod_lt _ (by decide)⟩ :=
    Fin.ext (by show ((Bv % 128) * 128 + r.val) / 128 = Bv % 128; omega)
  have h2 : (⟨(⟨(Bv % 128) * 128 + r.val, by omega⟩ : Fin 16384).val % 128, by
      show ((Bv % 128) * 128 + r.val) % 128 < 128; omega⟩ : Fin 128) = r :=
    Fin.ext (by show ((Bv % 128) * 128 + r.val) % 128 = r.val; omega)
  rw [h1, h2] at h
  exact h

/-- A word shifted right by one bit is its half. -/
theorem shr1_val (x : BitVec 32) : (IntOp.shrui .vector x 1#32).toNat = x.toNat / 2 := by
  have e : IntOp.shrui .vector x 1#32 = x >>> 1 := by simp [IntOp.shrui]
  rw [e, BitVec.toNat_ushiftRight, Nat.shiftRight_eq_div_pow]

end Core

section Block

variable (IDS : Cert.Lookup.SIds.Idx → BitVec 32) (TAB : Cert.Lookup.STab.Idx → Elt F .f32)

/-- A block's transposed half is its window of the gathered rows: when the block's 128 index words are entries
    128·Bv … of the flat list, the gathered half holds for each of them line ⌊word/2⌋ of the pair table, and element
    (dd, r) of the transposed half is the gathered word of row r at column dd of the half the word's low bit names. -/
theorem trOK_core (Bv : Nat) (hB : Bv < 3328) (xw : Fin 128 → BitVec 32)
    (hx : ∀ r : Fin 128, xw r = Cert.Lookup.flatIds IDS (ix1 (⟨128 * Bv + r.val, by have := r.isLt; omega⟩ : Fin 425984)))
    (hI : ∀ i, (IDS i).toNat ≤ 999999)
    (Rr : Vec F S128x128 .f32)
    (hrows : ∀ (r c : Fin 128) (h : (xw r).toNat / 2 < 500000),
      Rr (ix2 r c) = Cert.Lookup.pairs TAB (ix2 (⟨(xw r).toNat / 2, h⟩ : Fin 500000) c))
    (G : Vec F S64x128 .f32)
    (hexit : ∀ (dd : Fin 64) (r : Fin 128),
      G (ix2 dd r) = Rr (ix2 r (⟨dd.val + 64 * ((xw r).toNat % 2), by have := dd.isLt; omega⟩ : Fin 128)))
    (dd : Fin 64) (r : Fin 128) :
    G (ix2 dd r) = Cert.Lookup.out5 IDS TAB (ix5 (⟨Bv / 128, by omega⟩ : Fin 26) (⟨dd.val / 8, by have := dd.isLt; omega⟩ : Fin 8)
        (⟨Bv % 128, Nat.mod_lt _ (by decide)⟩ : Fin 128) (⟨dd.val % 8, Nat.mod_lt _ (by decide)⟩ : Fin 8) r) := by
  have hxr := (hx r).trans (flat_at_block IDS Bv hB r)
  have hle : (xw r).toNat ≤ 999999 := by rw [hxr]; exact hI _
  rw [hexit dd r, hrows r _ (by omega), pairs_at TAB (xw r).toNat hle dd, out5_block IDS TAB Bv hB dd r, ← hxr]
  refine congrArg (fun w : Fin 1000000 => TAB (ix2 w dd)) (Fin.ext ?_)
  exact (Cert.Lookup.rowOf_val hle).symm

end Block

/-! ## A landed window of the result -/

section Window

/-- A rank-2 index among the indices of the shape with three leading axes of size one. -/
theorem reshapeEquiv_ix2_111ab {a b : ℕ} (h : (⟨2, ![a, b]⟩ : Shape).numel = (⟨5, ![1, 1, 1, a, b]⟩ : Shape).numel)
    (x : Fin a) (y : Fin b) :
    Shape.reshapeEquiv h (ix2 x y)
      = ix5 (⟨0, Nat.one_pos⟩ : Fin 1) (⟨0, Nat.one_pos⟩ : Fin 1) (⟨0, Nat.one_pos⟩ : Fin 1) x y :=
  Shape.reshapeEquiv_eq_of_rowMajor h (by
    rw [Shape.rowMajor_val_five, Shape.rowMajor_val_two]
    show (((0 * 1 + 0) * 1 + 0) * a + x.val) * b + y.val = x.val * b + y.val
    simp only [Nat.zero_mul, Nat.zero_add, Nat.mul_one, Nat.add_zero])

/-- The 8 x 128 window of the result at offsets off, as the kernel names it. -/
abbrev win (off : Fin 5 → Nat) (inb : ∀ a, off a + S1x1x1x8x128.size a ≤ S26x8x128x8x128.size a) :
    Memref sig .scVector .hbm S8x128 .f32 :=
  ((oW).slice (Rect.unit (s := S26x8x128x8x128) off S1x1x1x8x128.size inb) (fun _ => rfl)).squeeze S8x128 squeezes_S1x1x1x8x128_S8x128

/-- Where element (y0, y1) of a window sits in the result: the window's offsets, then (y0, y1) on the last two axes. -/
theorem win_emb (B : Fin 3328) (i : Fin 8)
    (inb : ∀ a, (![B.val / 128, i.val, B.val % 128, 0, 0] : Fin 5 → Nat) a + S1x1x1x8x128.size a ≤ S26x8x128x8x128.size a)
    (y0 : Fin 8) (y1 : Fin 128) :
    (win ![B.val / 128, i.val, B.val % 128, 0, 0] inb).view.emb (ix2 y0 y1)
      = ix5 (⟨B.val / 128, by have := B.isLt; omega⟩ : Fin 26) i (⟨B.val % 128, Nat.mod_lt _ (by decide)⟩ : Fin 128) y0 y1 := by
  show (Rect.unit (s := S26x8x128x8x128) ![B.val / 128, i.val, B.val % 128, 0, 0] S1x1x1x8x128.size inb).emb
    (Shape.reshapeEquiv squeezes_S1x1x1x8x128_S8x128.numel_eq (ix2 y0 y1)) = _
  rw [reshapeEquiv_ix2_111ab]
  funext a
  refine Fin.ext ?_
  rw [Rect.emb_apply]
  match a with
  | ⟨0, _⟩ => show B.val / 128 + 1 * 0 = B.val / 128; omega
  | ⟨1, _⟩ => show i.val + 1 * 0 = i.val; omega
  | ⟨2, _⟩ => show B.val % 128 + 1 * 0 = B.val % 128; omega
  | ⟨3, _⟩ => show 0 + 1 * y0.val = y0.val; omega
  | ⟨4, _⟩ => show 0 + 1 * y1.val = y1.val; omega

end Window

section Landed

variable (IDS : Cert.Lookup.SIds.Idx → BitVec 32) (TAB : Cert.Lookup.STab.Idx → Elt F .f32)

/-- Rows o … o + 7 of a transposed half, written whole into window i = o / 8 of block B of the result over anything,
    leave on the window the gathered rows — when the half holds the block's window of the gathered rows. -/
theorem landed_apply (B : Fin 3328) (i : Fin 8) (off : Fin 5 → Nat)
    (inb : ∀ a, off a + S1x1x1x8x128.size a ≤ S26x8x128x8x128.size a)
    (e : off = ![B.val / 128, i.val, B.val % 128, 0, 0])
    (mm : Memref sig .scVector .vmem S64x128 .f32) (o : Nat) (ho : o = 8 * i.val)
    (inbT : ∀ a, (![o, 0] : Fin 2 → Nat) a + S8x128.size a ≤ S64x128.size a)
    (T : mm.view.ty.Contents (Elt F))
    (hT : ∀ (dd : Fin 64) (r : Fin 128), mm.view.read (Elt F) T (ix2 dd r)
      = Cert.Lookup.out5 IDS TAB (ix5 (⟨B.val / 128, by have := B.isLt; omega⟩ : Fin 26) (⟨dd.val / 8, by have := dd.isLt; omega⟩ : Fin 8)
          (⟨B.val % 128, Nat.mod_lt _ (by decide)⟩ : Fin 128) (⟨dd.val % 8, Nat.mod_lt _ (by decide)⟩ : Fin 8) r))
    (J : (win off inb).view.ty.Contents (Elt F)) (x : S26x8x128x8x128.Idx) (hx : x ∈ (win off inb).view.set) :
    (win off inb).view.writes (Elt F) J
        [⟨Rect.whole S8x128, ReadAs.same.apply ((trw mm o inbT).view.read (Elt F) T)⟩] x
      = Cert.Lookup.out5 IDS TAB x := by
  subst e
  subst ho
  have hi := i.isLt
  obtain ⟨y, -, rfl⟩ := Finset.mem_map.mp (show x ∈ Finset.univ.map (win _ inb).view.emb from hx)
  obtain ⟨y0, y1, rfl⟩ : ∃ (y0 : Fin 8) (y1 : Fin 128), y = ix2 y0 y1 := ⟨y 0, y 1, eq_ix2 y⟩
  have hy0 := y0.isLt
  rw [View.writes_singleton]
  have he : (win _ inb).view.emb (ix2 y0 y1) = ((win _ inb).view.slice (Rect.whole S8x128)).emb (ix2 y0 y1) := by
    show _ = (win _ inb).view.emb ((Rect.whole S8x128).emb (ix2 y0 y1))
    rw [Rect.emb_whole_apply]
  rw [he, View.write_emb_of_mem _ _ (Finset.mem_univ _)]
  have hr : (trw mm (8 * i.val) inbT).view.read (Elt F) T (ix2 y0 y1)
      = mm.view.read (Elt F) T (ix2 (⟨8 * i.val + y0.val, by omega⟩ : Fin 64) y1) := by
    have hemb : (Rect.unit (s := S64x128) ![8 * i.val, 0] S8x128.size inbT).emb (ix2 y0 y1)
        = ix2 (⟨8 * i.val + y0.val, by omega⟩ : Fin 64) y1 := by
      funext a
      refine Fin.ext ?_
      rw [Rect.emb_apply]
      match a with
      | ⟨0, _⟩ => show 8 * i.val + 1 * y0.val = 8 * i.val + y0.val; omega
      | ⟨1, _⟩ => show 0 + 1 * y1.val = y1.val; omega
    show _root_.cast _ (T (mm.view.emb ((Rect.unit (s := S64x128) ![8 * i.val, 0] S8x128.size inbT).emb (ix2 y0 y1)))) = _
    rw [hemb]
    rfl
  refine (cast_eq _ _).trans ?_
  show (trw mm (8 * i.val) inbT).view.read (Elt F) T (ix2 y0 y1) = _
  rw [hr, hT, ← he, win_emb B i inb y0 y1]
  have h1 : (⟨(⟨8 * i.val + y0.val, by omega⟩ : Fin 64).val / 8, by
      show (8 * i.val + y0.val) / 8 < 8; omega⟩ : Fin 8) = i := Fin.ext (by show (8 * i.val + y0.val) / 8 = i.val; omega)
  have h2 : (⟨(⟨8 * i.val + y0.val, by omega⟩ : Fin 64).val % 8, Nat.mod_lt _ (by decide)⟩ : Fin 8) = y0 :=
    Fin.ext (by show (8 * i.val + y0.val) % 8 = y0.val; omega)
  rw [h1, h2]

end Landed

end Val

/-! ## The two transposed halves of a trip, as the gathered rows -/

/-- The first transposed half of trip k is block 2k's window of the gathered rows: from the tile's index words X (entries
    13312·w … of the flat list), their halves g, the gathered half R holding the pair table's lines the halves name,
    and the transposed half T holding R's words as the trips leave them. -/
theorem trOK0_gen (IDS : Cert.Lookup.SIds.Idx → BitVec 32) (TAB : Cert.Lookup.STab.Idx → Elt F .f32)
    (d : Dev nD) (L : grid1.Coords) (k : Fin k1_t2_loop.trips) (B : Fin 3328)
    (hBv : B.val = 104 * (2 * (L 1).val + (L 0).val) + 2 * k.val + 0)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val) + r.val, by
        have := Inner.blk_le1 k; have := r.isLt; omega⟩ : Fin 13312)) : BitVec 32)).toNat < 500000),
      (rows0).view.read (Elt F) R (ix2 r c) = Cert.Lookup.pairs TAB (ix2 (⟨_, h⟩ : Fin 500000) c))
    (hexit : ∀ (dd : Fin 64) (r : Fin 128), (tr0).view.read (Elt F) T (ix2 dd r)
      = (rows0).view.read (Elt F) R (ix2 r (⟨dd.val + 64 * (((X (ix1 (⟨128 * (2 * k.val) + r.val, by
          have := Inner.blk_le1 k; have := r.isLt; omega⟩ : Fin 13312)) : BitVec 32)).toNat % 2), by
        have := dd.isLt; omega⟩ : Fin 128)))
    (dd : Fin 64) (r : Fin 128) :
    (tr0).view.read (Elt F) T (ix2 dd r)
      = Cert.Lookup.out5 IDS TAB (ix5 (⟨B.val / 128, by have := B.isLt; omega⟩ : Fin 26) (⟨dd.val / 8, by have := dd.isLt; omega⟩ : Fin 8)
          (⟨B.val % 128, Nat.mod_lt _ (by decide)⟩ : Fin 128) (⟨dd.val % 8, Nat.mod_lt _ (by decide)⟩ : Fin 8) r) := by
  have hk := Inner.blk_le1 k
  have h1 : (L 1).val < 16 := (L 1).isLt
  have h0 : (L 0).val < 2 := (L 0).isLt
  refine Val.trOK_core IDS TAB B.val B.isLt
    (fun r' => (X (ix1 (⟨128 * (2 * k.val) + r'.val, by have := r'.isLt; omega⟩ : Fin 13312)) : BitVec 32))
    (fun r' => ?_) hI ((rows0).view.read (Elt F) R) (fun r' c h => ?_) ((tr0).view.read (Elt F) T) hexit dd r
  · have hr' := r'.isLt
    refine (hXv _).trans (congrArg (fun n : Fin 425984 => Cert.Lookup.flatIds IDS (ix1 n)) (Fin.ext ?_))
    show 13312 * (2 * (L 1).val + (L 0).val) + (128 * (2 * k.val) + r'.val) = 128 * B.val + r'.val
    omega
  · have hg2 : ((g (ix1 (⟨128 * (2 * k.val) + r'.val, by have := r'.isLt; omega⟩ : Fin 13312)) : BitVec 32)).toNat
        = ((X (ix1 (⟨128 * (2 * k.val) + r'.val, by have := r'.isLt; omega⟩ : Fin 13312)) : BitVec 32)).toNat / 2 := by
      rw [hgv, Val.shr1_val]
    refine (hrows r' c (by rw [hg2]; exact h)).trans ?_
    exact congrArg (fun w : Fin 500000 => Cert.Lookup.pairs TAB (ix2 w c)) (Fin.ext hg2)

/-- The second transposed half of trip k is block 2k + 1's window of the gathered rows: from the tile's index words X (entries
    13312·w … of the flat list), their halves g, the gathered half R holding the pair table's lines the halves name,
    and the transposed half T holding R's words as the trips leave them. -/
theorem trOK1_gen (IDS : Cert.Lookup.SIds.Idx → BitVec 32) (TAB : Cert.Lookup.STab.Idx → Elt F .f32)
    (d : Dev nD) (L : grid1.Coords) (k : Fin k1_t2_loop.trips) (B : Fin 3328)
    (hBv : B.val = 104 * (2 * (L 1).val + (L 0).val) + 2 * k.val + 1)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val + 1) + r.val, by
        have := Inner.blk_le1 k; have := r.isLt; omega⟩ : Fin 13312)) : BitVec 32)).toNat < 500000),
      (rows1).view.read (Elt F) R (ix2 r c) = Cert.Lookup.pairs TAB (ix2 (⟨_, h⟩ : Fin 500000) c))
    (hexit : ∀ (dd : Fin 64) (r : Fin 128), (tr1).view.read (Elt F) T (ix2 dd r)
      = (rows1).view.read (Elt F) R (ix2 r (⟨dd.val + 64 * (((X (ix1 (⟨128 * (2 * k.val + 1) + r.val, by
          have := Inner.blk_le1 k; have := r.isLt; omega⟩ : Fin 13312)) : BitVec 32)).toNat % 2), by
        have := dd.isLt; omega⟩ : Fin 128)))
    (dd : Fin 64) (r : Fin 128) :
    (tr1).view.read (Elt F) T (ix2 dd r)
      = Cert.Lookup.out5 IDS TAB (ix5 (⟨B.val / 128, by have := B.isLt; omega⟩ : Fin 26) (⟨dd.val / 8, by have := dd.isLt; omega⟩ : Fin 8)
          (⟨B.val % 128, Nat.mod_lt _ (by decide)⟩ : Fin 128) (⟨dd.val % 8, Nat.mod_lt _ (by decide)⟩ : Fin 8) r) := by
  have hk := Inner.blk_le1 k
  have h1 : (L 1).val < 16 := (L 1).isLt
  have h0 : (L 0).val < 2 := (L 0).isLt
  refine Val.trOK_core IDS TAB B.val B.isLt
    (fun r' => (X (ix1 (⟨128 * (2 * k.val + 1) + r'.val, by have := r'.isLt; omega⟩ : Fin 13312)) : BitVec 32))
    (fun r' => ?_) hI ((rows1).view.read (Elt F) R) (fun r' c h => ?_) ((tr1).view.read (Elt F) T) hexit dd r
  · have hr' := r'.isLt
    refine (hXv _).trans (congrArg (fun n : Fin 425984 => Cert.Lookup.flatIds IDS (ix1 n)) (Fin.ext ?_))
    show 13312 * (2 * (L 1).val + (L 0).val) + (128 * (2 * k.val + 1) + r'.val) = 128 * B.val + r'.val
    omega
  · have hg2 : ((g (ix1 (⟨128 * (2 * k.val + 1) + r'.val, by have := r'.isLt; omega⟩ : Fin 13312)) : BitVec 32)).toNat
        = ((X (ix1 (⟨128 * (2 * k.val + 1) + r'.val, by have := r'.isLt; omega⟩ : Fin 13312)) : BitVec 32)).toNat / 2 := by
      rw [hgv, Val.shr1_val]
    refine (hrows r' c (by rw [hg2]; exact h)).trans ?_
    exact congrArg (fun w : Fin 500000 => Cert.Lookup.pairs TAB (ix2 w c)) (Fin.ext hg2)

/-- The first transposed half of trip k is the window of the gathered rows of the tile's block 2k. -/
theorem trOK0_of (IDS : Cert.Lookup.SIds.Idx → BitVec 32) (TAB : Cert.Lookup.STab.Idx → Elt F .f32)
    (d : Dev nD) (L : grid1.Coords) (k : Fin k1_t2_loop.trips)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val) + r.val, by
        have := Inner.blk_le1 k; have := r.isLt; omega⟩ : Fin 13312)) : BitVec 32)).toNat < 500000),
      (rows0).view.read (Elt F) R (ix2 r c) = Cert.Lookup.pairs TAB (ix2 (⟨_, h⟩ : Fin 500000) c))
    (hexit : ∀ (dd : Fin 64) (r : Fin 128), (tr0).view.read (Elt F) T (ix2 dd r)
      = (rows0).view.read (Elt F) R (ix2 r (⟨dd.val + 64 * (((X (ix1 (⟨128 * (2 * k.val) + r.val, by
          have := Inner.blk_le1 k; have := r.isLt; omega⟩ : Fin 13312)) : BitVec 32)).toNat % 2), by
        have := dd.isLt; omega⟩ : Fin 128)))
    (dd : Fin 64) (r : Fin 128) :
    (tr0).view.read (Elt F) T (ix2 dd r)
      = Cert.Lookup.out5 IDS TAB (ix5 (⟨(Tiles.blkOf (Tiles.c1Of L) (Tiles.s1Of L) (kkOf k 0)).val / 128, by have := (Tiles.blkOf (Tiles.c1Of L) (Tiles.s1Of L) (kkOf k 0)).isLt; omega⟩ : Fin 26) (⟨dd.val / 8, by have := dd.isLt; omega⟩ : Fin 8)
          (⟨(Tiles.blkOf (Tiles.c1Of L) (Tiles.s1Of L) (kkOf k 0)).val % 128, Nat.mod_lt _ (by decide)⟩ : Fin 128) (⟨dd.val % 8, Nat.mod_lt _ (by decide)⟩ : Fin 8) r) :=
  trOK0_gen IDS TAB d L k (Tiles.blkOf (Tiles.c1Of L) (Tiles.s1Of L) (kkOf k 0)) (blk_val L k 0) X g R T hXv hgv hI hrows hexit dd r

/-- The second transposed half of trip k is the window of the gathered rows of the tile's block 2k + 1. -/
theorem trOK1_of (IDS : Cert.Lookup.SIds.Idx → BitVec 32) (TAB : Cert.Lookup.STab.Idx → Elt F .f32)
    (d : Dev nD) (L : grid1.Coords) (k : Fin k1_t2_loop.trips)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val + 1) + r.val, by
        have := Inner.blk_le1 k; have := r.isLt; omega⟩ : Fin 13312)) : BitVec 32)).toNat < 500000),
      (rows1).view.read (Elt F) R (ix2 r c) = Cert.Lookup.pairs TAB (ix2 (⟨_, h⟩ : Fin 500000) c))
    (hexit : ∀ (dd : Fin 64) (r : Fin 128), (tr1).view.read (Elt F) T (ix2 dd r)
      = (rows1).view.read (Elt F) R (ix2 r (⟨dd.val + 64 * (((X (ix1 (⟨128 * (2 * k.val + 1) + r.val, by
          have := Inner.blk_le1 k; have := r.isLt; omega⟩ : Fin 13312)) : BitVec 32)).toNat % 2), by
        have := dd.isLt; omega⟩ : Fin 128)))
    (dd : Fin 64) (r : Fin 128) :
    (tr1).view.read (Elt F) T (ix2 dd r)
      = Cert.Lookup.out5 IDS TAB (ix5 (⟨(Tiles.blkOf (Tiles.c1Of L) (Tiles.s1Of L) (kkOf k 1)).val / 128, by have := (Tiles.blkOf (Tiles.c1Of L) (Tiles.s1Of L) (kkOf k 1)).isLt; omega⟩ : Fin 26) (⟨dd.val / 8, by have := dd.isLt; omega⟩ : Fin 8)
          (⟨(Tiles.blkOf (Tiles.c1Of L) (Tiles.s1Of L) (kkOf k 1)).val % 128, Nat.mod_lt _ (by decide)⟩ : Fin 128) (⟨dd.val % 8, Nat.mod_lt _ (by decide)⟩ : Fin 8) r) :=
  trOK1_gen IDS TAB d L k (Tiles.blkOf (Tiles.c1Of L) (Tiles.s1Of L) (kkOf k 1)) (blk_val L k 1) X g R T hXv hgv hI hrows hexit dd r

/-! ## The eight windows of a block -/

/-- Window 0 of block 2k + p, written from rows 0 … 7 of the block's transposed half, holds the gathered rows. -/
theorem landed4 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow4 L k p).view.loc (thr d L))) :
    ((ow4 L k p).view.loc (thr d L) ↦[(ow4 L k p).view.set]{fullShare}
        (ow4 L k p).view.writes (Elt F) J
          [⟨Rect.whole S8x128, ReadAs.same.apply ((trw mm 0 inb_S64x128_S8x128_0_0).view.read (Elt F) T)⟩] : sProp 𝕄)
      = (Tiles.out5Loc d ↦[Tiles.outSet (Tiles.blkOf (Tiles.c1Of L) (Tiles.s1Of L) (kkOf k p)) 0]{fullShare}
          (Cert.Lookup.out5 IDS TAB : Buf (Elt F) (Tiles.out5Loc d))) := by
  rw [ow4_pts d L k p]
  refine pointsTo_congr (fun x hx => ?_)
  have e : k1_off4 L k (BitVec.ofNat 32 p.val)
      = ![(Tiles.blkOf (Tiles.c1Of L) (Tiles.s1Of L) (kkOf k p)).val / 128, ((0 : Fin 8)).val,
          (Tiles.blkOf (Tiles.c1Of L) (Tiles.s1Of L) (kkOf k p)).val % 128, 0, 0] := by
    rw [k1_off4_eq L k p, blk_val L k p]; rfl
  have hs : (ow4 L k p).view.set = Tiles.outSet (Tiles.blkOf (Tiles.c1Of L) (Tiles.s1Of L) (kkOf k p)) 0 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (0 : Fin 8) _ (k1_off4_inb L k p) e
    mm 0 (by decide) inb_S64x128_S8x128_0_0 T hT J x (hs ▸ hx)

/-- Window 1 of block 2k + p, written from rows 8 … 15 of the block's transposed half, holds the gathered rows. -/
theorem landed5 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow5 L k p).view.loc (thr d L))) :
    ((ow5 L k p).view.loc (thr d L) ↦[(ow5 L k p).view.set]{fullShare}
        (ow5 L k p).view.writes (Elt F) J
          [⟨Rect.whole S8x128, ReadAs.same.apply ((trw mm 8 inb_S64x128_S8x128_8_0).view.read (Elt F) T)⟩] : sProp 𝕄)
      = (Tiles.out5Loc d ↦[Tiles.outSet (Tiles.blkOf (Tiles.c1Of L) (Tiles.s1Of L) (kkOf k p)) 1]{fullShare}
          (Cert.Lookup.out5 IDS TAB : Buf (Elt F) (Tiles.out5Loc d))) := by
  rw [ow5_pts d L k p]
  refine pointsTo_congr (fun x hx => ?_)
  have e : k1_off5 L k (BitVec.ofNat 32 p.val)
      = ![(Tiles.blkOf (Tiles.c1Of L) (Tiles.s1Of L) (kkOf k p)).val / 128, ((1 : Fin 8)).val,
          (Tiles.blkOf (Tiles.c1Of L) (Tiles.s1Of L) (kkOf k p)).val % 128, 0, 0] := by
    rw [k1_off5_eq L k p, blk_val L k p]; rfl
  have hs : (ow5 L k p).view.set = Tiles.outSet (Tiles.blkOf (Tiles.c1Of L) (Tiles.s1Of L) (kkOf k p)) 1 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (1 : Fin 8) _ (k1_off5_inb L k p) e
    mm 8 (by decide) inb_S64x128_S8x128_8_0 T hT J x (hs ▸ hx)

/-- Window 2 of block 2k + p, written from rows 16 … 23 of the block's transposed half, holds the gathered rows. -/
theorem landed6 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow6 L k p).view.loc (thr d L))) :
    ((ow6 L k p).view.loc (thr d L) ↦[(ow6 L k p).view.set]{fullShare}
        (ow6 L k p).view.writes (Elt F) J
          [⟨Rect.whole S8x128, ReadAs.same.apply ((trw mm 16 inb_S64x128_S8x128_16_0).view.read (Elt F) T)⟩] : sProp 𝕄)
      = (Tiles.out5Loc d ↦[Tiles.outSet (Tiles.blkOf (Tiles.c1Of L) (Tiles.s1Of L) (kkOf k p)) 2]{fullShare}
          (Cert.Lookup.out5 IDS TAB : Buf (Elt F) (Tiles.out5Loc d))) := by
  rw [ow6_pts d L k p]
  refine pointsTo_congr (fun x hx => ?_)
  have e : k1_off6 L k (BitVec.ofNat 32 p.val)
      = ![(Tiles.blkOf (Tiles.c1Of L) (Tiles.s1Of L) (kkOf k p)).val / 128, ((2 : Fin 8)).val,
          (Tiles.blkOf (Tiles.c1Of L) (Tiles.s1Of L) (kkOf k p)).val % 128, 0, 0] := by
    rw [k1_off6_eq L k p, blk_val L k p]; rfl
  have hs : (ow6 L k p).view.set = Tiles.outSet (Tiles.blkOf (Tiles.c1Of L) (Tiles.s1Of L) (kkOf k p)) 2 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (2 : Fin 8) _ (k1_off6_inb L k p) e
    mm 16 (by decide) inb_S64x128_S8x128_16_0 T hT J x (hs ▸ hx)

/-- Window 3 of block 2k + p, written from rows 24 … 31 of the block's transposed half, holds the gathered rows. -/
theorem landed7 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow7 L k p).view.loc (thr d L))) :
    ((ow7 L k p).view.loc (thr d L) ↦[(ow7 L k p).view.set]{fullShare}
        (ow7 L k p).view.writes (Elt F) J
          [⟨Rect.whole S8x128, ReadAs.same.apply ((trw mm 24 inb_S64x128_S8x128_24_0).view.read (Elt F) T)⟩] : sProp 𝕄)
      = (Tiles.out5Loc d ↦[Tiles.outSet (Tiles.blkOf (Tiles.c1Of L) (Tiles.s1Of L) (kkOf k p)) 3]{fullShare}
          (Cert.Lookup.out5 IDS TAB : Buf (Elt F) (Tiles.out5Loc d))) := by
  rw [ow7_pts d L k p]
  refine pointsTo_congr (fun x hx => ?_)
  have e : k1_off7 L k (BitVec.ofNat 32 p.val)
      = ![(Tiles.blkOf (Tiles.c1Of L) (Tiles.s1Of L) (kkOf k p)).val / 128, ((3 : Fin 8)).val,
          (Tiles.blkOf (Tiles.c1Of L) (Tiles.s1Of L) (kkOf k p)).val % 128, 0, 0] := by
    rw [k1_off7_eq L k p, blk_val L k p]; rfl
  have hs : (ow7 L k p).view.set = Tiles.outSet (Tiles.blkOf (Tiles.c1Of L) (Tiles.s1Of L) (kkOf k p)) 3 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (3 : Fin 8) _ (k1_off7_inb L k p) e
    mm 24 (by decide) inb_S64x128_S8x128_24_0 T hT J x (hs ▸ hx)

/-- Window 4 of block 2k + p, written from rows 32 … 39 of the block's transposed half, holds the gathered rows. -/
theorem landed8 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow8 L k p).view.loc (thr d L))) :
    ((ow8 L k p).view.loc (thr d L) ↦[(ow8 L k p).view.set]{fullShare}
        (ow8 L k p).view.writes (Elt F) J
          [⟨Rect.whole S8x128, ReadAs.same.apply ((trw mm 32 inb_S64x128_S8x128_32_0).view.read (Elt F) T)⟩] : sProp 𝕄)
      = (Tiles.out5Loc d ↦[Tiles.outSet (Tiles.blkOf (Tiles.c1Of L) (Tiles.s1Of L) (kkOf k p)) 4]{fullShare}
          (Cert.Lookup.out5 IDS TAB : Buf (Elt F) (Tiles.out5Loc d))) := by
  rw [ow8_pts d L k p]
  refine pointsTo_congr (fun x hx => ?_)
  have e : k1_off8 L k (BitVec.ofNat 32 p.val)
      = ![(Tiles.blkOf (Tiles.c1Of L) (Tiles.s1Of L) (kkOf k p)).val / 128, ((4 : Fin 8)).val,
          (Tiles.blkOf (Tiles.c1Of L) (Tiles.s1Of L) (kkOf k p)).val % 128, 0, 0] := by
    rw [k1_off8_eq L k p, blk_val L k p]; rfl
  have hs : (ow8 L k p).view.set = Tiles.outSet (Tiles.blkOf (Tiles.c1Of L) (Tiles.s1Of L) (kkOf k p)) 4 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (4 : Fin 8) _ (k1_off8_inb L k p) e
    mm 32 (by decide) inb_S64x128_S8x128_32_0 T hT J x (hs ▸ hx)

/-- Window 5 of block 2k + p, written from rows 40 … 47 of the block's transposed half, holds the gathered rows. -/
theorem landed9 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow9 L k p).view.loc (thr d L))) :
    ((ow9 L k p).view.loc (thr d L) ↦[(ow9 L k p).view.set]{fullShare}
        (ow9 L k p).view.writes (Elt F) J
          [⟨Rect.whole S8x128, ReadAs.same.apply ((trw mm 40 inb_S64x128_S8x128_40_0).view.read (Elt F) T)⟩] : sProp 𝕄)
      = (Tiles.out5Loc d ↦[Tiles.outSet (Tiles.blkOf (Tiles.c1Of L) (Tiles.s1Of L) (kkOf k p)) 5]{fullShare}
          (Cert.Lookup.out5 IDS TAB : Buf (Elt F) (Tiles.out5Loc d))) := by
  rw [ow9_pts d L k p]
  refine pointsTo_congr (fun x hx => ?_)
  have e : k1_off9 L k (BitVec.ofNat 32 p.val)
      = ![(Tiles.blkOf (Tiles.c1Of L) (Tiles.s1Of L) (kkOf k p)).val / 128, ((5 : Fin 8)).val,
          (Tiles.blkOf (Tiles.c1Of L) (Tiles.s1Of L) (kkOf k p)).val % 128, 0, 0] := by
    rw [k1_off9_eq L k p, blk_val L k p]; rfl
  have hs : (ow9 L k p).view.set = Tiles.outSet (Tiles.blkOf (Tiles.c1Of L) (Tiles.s1Of L) (kkOf k p)) 5 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (5 : Fin 8) _ (k1_off9_inb L k p) e
    mm 40 (by decide) inb_S64x128_S8x128_40_0 T hT J x (hs ▸ hx)

/-- Window 6 of block 2k + p, written from rows 48 … 55 of the block's transposed half, holds the gathered rows. -/
theorem landed10 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow10 L k p).view.loc (thr d L))) :
    ((ow10 L k p).view.loc (thr d L) ↦[(ow10 L k p).view.set]{fullShare}
        (ow10 L k p).view.writes (Elt F) J
          [⟨Rect.whole S8x128, ReadAs.same.apply ((trw mm 48 inb_S64x128_S8x128_48_0).view.read (Elt F) T)⟩] : sProp 𝕄)
      = (Tiles.out5Loc d ↦[Tiles.outSet (Tiles.blkOf (Tiles.c1Of L) (Tiles.s1Of L) (kkOf k p)) 6]{fullShare}
          (Cert.Lookup.out5 IDS TAB : Buf (Elt F) (Tiles.out5Loc d))) := by
  rw [ow10_pts d L k p]
  refine pointsTo_congr (fun x hx => ?_)
  have e : k1_off10 L k (BitVec.ofNat 32 p.val)
      = ![(Tiles.blkOf (Tiles.c1Of L) (Tiles.s1Of L) (kkOf k p)).val / 128, ((6 : Fin 8)).val,
          (Tiles.blkOf (Tiles.c1Of L) (Tiles.s1Of L) (kkOf k p)).val % 128, 0, 0] := by
    rw [k1_off10_eq L k p, blk_val L k p]; rfl
  have hs : (ow10 L k p).view.set = Tiles.outSet (Tiles.blkOf (Tiles.c1Of L) (Tiles.s1Of L) (kkOf k p)) 6 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (6 : Fin 8) _ (k1_off10_inb L k p) e
    mm 48 (by decide) inb_S64x128_S8x128_48_0 T hT J x (hs ▸ hx)

/-- Window 7 of block 2k + p, written from rows 56 … 63 of the block's transposed half, holds the gathered rows. -/
theorem landed11 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow11 L k p).view.loc (thr d L))) :
    ((ow11 L k p).view.loc (thr d L) ↦[(ow11 L k p).view.set]{fullShare}
        (ow11 L k p).view.writes (Elt F) J
          [⟨Rect.whole S8x128, ReadAs.same.apply ((trw mm 56 inb_S64x128_S8x128_56_0).view.read (Elt F) T)⟩] : sProp 𝕄)
      = (Tiles.out5Loc d ↦[Tiles.outSet (Tiles.blkOf (Tiles.c1Of L) (Tiles.s1Of L) (kkOf k p)) 7]{fullShare}
          (Cert.Lookup.out5 IDS TAB : Buf (Elt F) (Tiles.out5Loc d))) := by
  rw [ow11_pts d L k p]
  refine pointsTo_congr (fun x hx => ?_)
  have e : k1_off11 L k (BitVec.ofNat 32 p.val)
      = ![(Tiles.blkOf (Tiles.c1Of L) (Tiles.s1Of L) (kkOf k p)).val / 128, ((7 : Fin 8)).val,
          (Tiles.blkOf (Tiles.c1Of L) (Tiles.s1Of L) (kkOf k p)).val % 128, 0, 0] := by
    rw [k1_off11_eq L k p, blk_val L k p]; rfl
  have hs : (ow11 L k p).view.set = Tiles.outSet (Tiles.blkOf (Tiles.c1Of L) (Tiles.s1Of L) (kkOf k p)) 7 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (7 : Fin 8) _ (k1_off11_inb L k p) e
    mm 56 (by decide) inb_S64x128_S8x128_56_0 T hT J x (hs ▸ hx)

end Cert.Proof.KI.Body1

end
-- ==== Proof.Body1.lean ====
/-
  The gather kernel on one tile, with what every array holds.

  The tile's index scratch holds its slice of the flat index list (entry j is entry 13312·w + j, w the tile's
  number); the second scratch holds those words halved, so each names the pair-table line of its index word.
  A gather lands, in a half of the lines scratch, the 128 pair-table lines the halved words of one block name;
  the transposing loop then reads, for the word's low bit, the left or right 64 entries of each line, so the
  transposed half holds table[ids[b, f], d] for the block's field f and its 128 batch entries: exactly the
  block of the feature-major result. Each write-out copies eight rows of the transposed half into one window of
  the result, so a landed block holds the specification's gathered rows.

  The invariant of the main loop is the resource invariant of the storage-level module with three facts added:
  the lines each gather in flight delivers, the rows each transposed half in a write-out batch holds, and that
  the landed blocks hold the gathered rows.
-/
import proofs.«204055_g19524921328135_cont_8to1_763_20_alg».proof.Proof.Body1Frame
import proofs.«204055_g19524921328135_cont_8to1_763_20_alg».proof.Proof.Body1Val
import proofs.«204055_g19524921328135_cont_8to1_763_20_alg».proof.Proof.HostSide

noncomputable section

namespace Cert.Proof.KI.Body1

open Cert.KernelIdeal Cert.KernelIdeal.Gen Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (d : Dev nD) (L : grid1.Coords)

/-! ## The halved words, exactly -/

/-- The second scratch array after trip `k`'s store: below `16 (k + 1)` every entry is the first array's entry halved. -/
theorem stored_val (k : Fin k1_t1_loop.trips)
    (X : S13312.Idx → BitVec 32) (g : S13312.Idx → BitVec 32)
    (hg : ∀ j : S13312.Idx, (j 0).val < 16 * k.val → g j = IntOp.shrui .vector (X j) 1#32)
    (j : S13312.Idx) (hj : (j 0).val < 16 * (k.val + 1)) :
    (((s1).view.writes (Elt F) g
        [⟨Rect.unit (s := S13312) (k1_off2 k) S16.size (k1_off2_inb k),
          k1_pay39 (F := F) ((s0).view.readAt (Elt F) (Rect.unit (s := S13312) (k1_off2 k) S16.size (k1_off2_inb k)).toLoadRect X)⟩] j : BitVec 32))
      = IntOp.shrui .vector (X j) 1#32 := by
  have e := congrFun (View.write_whole_slice_unit (Val := Elt F) cc1_scratch1 (k1_off2 k) S16.size (k1_off2_inb k) g
    (k1_pay39 (F := F) ((s0).view.readAt (Elt F) (Rect.unit (s := S13312) (k1_off2 k) S16.size (k1_off2_inb k)).toLoadRect X))) j
  refine e.trans ?_
  unfold updateSlice
  split
  · next hin =>
    show IntOp.shrui .vector (X _) 1#32 = IntOp.shrui .vector (X j) 1#32
    congr 2
    funext a
    apply Fin.ext
    have ha := hin a
    match a with
    | ⟨0, _⟩ =>
      show k1_off2 k 0 + 1 * ((j 0).val - k1_off2 k 0) = (j 0).val
      have h1 : k1_off2 k 0 ≤ (j 0).val := ha.1
      omega
  · next hin =>
    refine hg j ?_
    by_contra hc
    refine hin fun a => ?_
    have h0 : k1_off2 k 0 = 16 * k.val := by rw [k1_off2_eq k]; rfl
    match a with
    | ⟨0, _⟩ =>
      show k1_off2 k 0 ≤ (j 0).val ∧ (j 0).val < k1_off2 k 0 + 16
      omega

/-- Before trip `k` of the halving loop, with the index words fixed: the entries of the second array below `16 k`
    are the index words halved. -/
def inv1V (d : Dev nD) (L : grid1.Coords) (O : CellTallies nD τ sig (HIx 2)) (X : Buf (Elt F) ((s0).view.loc (thr d L)))
    (k : Nat) (_ : PUnit) : sProp 𝕄 :=
  iprop(Transfers.MayWaits (thr d L) (none : HIx 2) O
    ∗ ((s0).view.loc (thr d L) ↦{fullShare} X)
    ∗ (∃ g, ((s1).view.loc (thr d L) ↦{fullShare} g)
        ∗ ⌜∀ j : S13312.Idx, (j 0).val < 16 * k → ((g j : BitVec 32)) = IntOp.shrui .vector ((X j : BitVec 32)) 1#32⌝))

theorem step1V (O : CellTallies nD τ sig (HIx 2)) (X : Buf (Elt F) ((s0).view.loc (thr d L))) (k : Fin k1_t1_loop.trips) (u : Unit) :
    inv1V (F := F) d L O X k.val u
      ⊢ wp frame (wpE (defs₀ (F := F)) 𝒱₀ (thr d L) none) Set.univ
          (k1_t1_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0 k u)
          (inv1V d L O X (k.val + 1)) := by
  unfold inv1V
  iintro ⟨Hmw, H0, %g, H1, %hg⟩
  sl_exec
  sl_step
  isplitl [Hmw]; · iexact Hmw
  isplitl [H0]; · iexact H0
  iexists _; isplitl [H1]
  · iexact H1
  · ipureintro; exact stored_val (F := F) k X g hg

/-- The halved words are pair-table lines when the index words are in range. -/
theorem halved_lt (X g : S13312.Idx → BitVec 32) (hX : ∀ j, (X j).toNat ≤ 999999)
    (hg : ∀ j : S13312.Idx, g j = IntOp.shrui .vector (X j) 1#32) (j : S13312.Idx) : (g j).toNat ≤ 499999 := by
  rw [hg j]; exact shr_le _ (hX j)

/-! ## The tile's slice of the flat index list -/

theorem copy_inb (j : S13312.Idx) : 13312 * (2 * (L 1).val + (L 0).val) + (j 0).val < 425984 := by
  have h0 : (L 0).val < 2 := (L 0).isLt
  have h1 : (L 1).val < 16 := (L 1).isLt
  have hj : (j 0).val < 13312 := (j 0).isLt
  omega

/-- What the first copy lands in the index scratch: entry `j` is entry `13312 w + j` of the flat list, `w` the tile's number. -/
theorem copy_val (fI : S425984.Idx → BitVec 32) (j : S13312.Idx) :
    (((iW).slice (Rect.unit (s := S425984) (k1_off1 L) S13312.size (k1_off1_inb L)) (fun _ => rfl)).view.read (Elt F) fI j : BitVec 32)
      = fI (ix1 (⟨13312 * (2 * (L 1).val + (L 0).val) + (j 0).val, copy_inb L j⟩ : Fin 425984)) := by
  show fI _ = fI _
  congr 1
  funext a
  apply Fin.ext
  have h0 : k1_off1 L 0 = 26624 * (L 1).val + 13312 * (L 0).val := by rw [k1_off1_eq L]; rfl
  match a with
  | ⟨0, _⟩ =>
    show k1_off1 L 0 + 1 * (j 0).val = 13312 * (2 * (L 1).val + (L 0).val) + (j 0).val
    omega

/-! ## What a gather delivers -/

theorem jrow_inb (off : Fin 1 → Nat) (inb : ∀ a, off a + S128.size a ≤ S13312.size a) (r : Fin 128) : off 0 + r.val < 13312 := by
  have h : off 0 + 128 ≤ 13312 := inb 0
  have := r.isLt
  omega

/-- Line `r` of a gathered half is the pair-table line the `r`-th halved word of the window names. -/
theorem gather_val (off : Fin 1 → Nat) (inb : ∀ a, off a + S128.size a ≤ S13312.size a)
    (g : S13312.Idx → BitVec 32) (P : S500000x128.Idx → F .f32)
    (hn : S128.numel = S128x128.size gathers_S500000x128_S128x128.axis')
    (h : ∀ x, ((((s1).slice (Rect.unit (s := S13312) off S128.size inb) (fun _ => rfl)).view.read (Elt F) g x : BitVec 32)).toNat
      < S500000x128.size gathers_S500000x128_S128x128.axis)
    (r c : Fin 128) (hr : (g (ix1 (⟨off 0 + r.val, jrow_inb off inb r⟩ : Fin 13312))).toNat < 500000) :
    SparseCore.gatherPayload (F := F) gathers_S500000x128_S128x128 ((pAll).view.read (Elt F) P)
        (SparseCore.rows (F := F) (((s1).slice (Rect.unit (s := S13312) off S128.size inb) (fun _ => rfl)).view.read (Elt F) g) hn h) (ix2 r c)
      = P (ix2 (⟨(g (ix1 (⟨off 0 + r.val, jrow_inb off inb r⟩ : Fin 13312))).toNat, hr⟩ : Fin 500000) c) := by
  unfold SparseCore.gatherPayload
  show P _ = P _
  congr 1
  funext b
  apply Fin.ext
  have hk : ∀ k : Fin S128.numel, ((S128.rowMajor.symm k) 0).val = k.val := fun k => by
    have := Shape.rowMajor_val_one (d := ![128]) (S128.rowMajor.symm k)
    rw [Equiv.apply_symm_apply] at this
    exact this.symm
  match b with
  | ⟨0, _⟩ =>
    show 0 + 1 * ((gathers_S500000x128_S128x128.idx _ (ix2 r c)) ⟨0, _⟩).val = _
    rw [Nat.zero_add, Nat.one_mul]
    refine (congrArg Fin.val (Shape.Gathers.idx_axis gathers_S500000x128_S128x128 _ (ix2 r c))).trans ?_
    show (g _).toNat = (g _).toNat
    congr 2
    funext a
    apply Fin.ext
    match a with
    | ⟨0, _⟩ =>
      show off 0 + 1 * ((S128.rowMajor.symm _) 0).val = off 0 + r.val
      rw [Nat.one_mul, hk]
      rfl
  | ⟨1, _⟩ =>
    show 0 + 1 * ((gathers_S500000x128_S128x128.idx _ (ix2 r c)) ⟨1, _⟩).val = c.val
    rw [Nat.zero_add, Nat.one_mul]
    exact Shape.Gathers.idx_of_ne gathers_S500000x128_S128x128 _ (ix2 r c) ⟨1, by decide⟩ (by decide)

/-! ## Reading a half written whole -/

omit [FloatOps F] in
theorem rows0_read_back (R : Buf (Elt F) ((s2).view.loc (thr d L))) (w : S128x128.Idx → F .f32) :
    (rows0).view.read (Elt F) ((rows0).view.writes (Elt F) R [⟨Rect.whole S128x128, w⟩]) = w := by
  rw [← View.write_univ_eq_writes_whole, View.writes_nil, View.read_write_univ]
omit [FloatOps F] in
theorem rows1_read_back (R : Buf (Elt F) ((s2).view.loc (thr d L))) (w : S128x128.Idx → F .f32) :
    (rows1).view.read (Elt F) ((rows1).view.writes (Elt F) R [⟨Rect.whole S128x128, w⟩]) = w := by
  rw [← View.write_univ_eq_writes_whole, View.writes_nil, View.read_write_univ]

variable (g : S13312.Idx → BitVec 32) (IDS : Cert.Lookup.SIds.Idx → BitVec 32) (TAB : Cert.Lookup.STab.Idx → F .f32)

theorem rj0 (k : Fin k1_t2_loop.trips) (r : Fin 128) : 128 * (2 * k.val) + r.val < 13312 := by
  have := Nat.lt_of_lt_of_eq k.isLt trips2; have := r.isLt; omega
theorem rj1 (k : Fin k1_t2_loop.trips) (r : Fin 128) : 128 * (2 * k.val + 1) + r.val < 13312 := by
  have := Nat.lt_of_lt_of_eq k.isLt trips2; have := r.isLt; omega

/-- The lines half `p` holds (or will hold, once its gather lands) for trip `k`: line `r` is the pair-table line the
    halved word `128 (2k + p) + r` names. -/
def RowsOK0 (k : Fin k1_t2_loop.trips) (R : Buf (Elt F) ((s2).view.loc (thr d L))) : Prop :=
  ∀ (r c : Fin 128) (h : (g (ix1 (⟨128 * (2 * k.val) + r.val, rj0 k r⟩ : Fin 13312))).toNat < 500000),
    (rows0).view.read (Elt F) R (ix2 r c) = Cert.Lookup.pairs TAB (ix2 ⟨_, h⟩ c)
def RowsOK1 (k : Fin k1_t2_loop.trips) (R : Buf (Elt F) ((s2).view.loc (thr d L))) : Prop :=
  ∀ (r c : Fin 128) (h : (g (ix1 (⟨128 * (2 * k.val + 1) + r.val, rj1 k r⟩ : Fin 13312))).toNat < 500000),
    (rows1).view.read (Elt F) R (ix2 r c) = Cert.Lookup.pairs TAB (ix2 ⟨_, h⟩ c)

theorem rowsOK0_new (k : Fin k1_t2_loop.trips) (off : Fin 1 → Nat) (inb : ∀ a, off a + S128.size a ≤ S13312.size a)
    (e : off = ![128 * (2 * k.val)]) (R : Buf (Elt F) ((s2).view.loc (thr d L)))
    (hn : S128.numel = S128x128.size gathers_S500000x128_S128x128.axis')
    (h : ∀ x, ((((s1).slice (Rect.unit (s := S13312) off S128.size inb) (fun _ => rfl)).view.read (Elt F) g x : BitVec 32)).toNat
      < S500000x128.size gathers_S500000x128_S128x128.axis) :
    RowsOK0 (F := F) d L g TAB k ((rows0).view.writes (Elt F) R [⟨Rect.whole S128x128,
      SparseCore.gatherPayload (F := F) gathers_S500000x128_S128x128 ((pAll).view.read (Elt F) (Cert.Lookup.pairs TAB))
        (SparseCore.rows (F := F) (((s1).slice (Rect.unit (s := S13312) off S128.size inb) (fun _ => rfl)).view.read (Elt F) g) hn h)⟩]) := by
  subst e
  intro r c hlt
  rw [rows0_read_back]
  exact gather_val (F := F) _ inb g (Cert.Lookup.pairs TAB) hn h r c hlt

theorem rowsOK1_new (k : Fin k1_t2_loop.trips) (off : Fin 1 → Nat) (inb : ∀ a, off a + S128.size a ≤ S13312.size a)
    (e : off = ![128 * (2 * k.val + 1)]) (R : Buf (Elt F) ((s2).view.loc (thr d L)))
    (hn : S128.numel = S128x128.size gathers_S500000x128_S128x128.axis')
    (h : ∀ x, ((((s1).slice (Rect.unit (s := S13312) off S128.size inb) (fun _ => rfl)).view.read (Elt F) g x : BitVec 32)).toNat
      < S500000x128.size gathers_S500000x128_S128x128.axis) :
    RowsOK1 (F := F) d L g TAB k ((rows1).view.writes (Elt F) R [⟨Rect.whole S128x128,
      SparseCore.gatherPayload (F := F) gathers_S500000x128_S128x128 ((pAll).view.read (Elt F) (Cert.Lookup.pairs TAB))
        (SparseCore.rows (F := F) (((s1).slice (Rect.unit (s := S13312) off S128.size inb) (fun _ => rfl)).view.read (Elt F) g) hn h)⟩]) := by
  subst e
  intro r c hlt
  rw [rows1_read_back]
  exact gather_val (F := F) _ inb g (Cert.Lookup.pairs TAB) hn h r c hlt

/-! ## The invariant, with what the scratch halves and the landed blocks hold -/

theorem bq (k : Fin k1_t2_loop.trips) (p : Fin 2) : (Tiles.blkOf (Tiles.c1Of L) (Tiles.s1Of L) (kkOf k p)).val / 128 < 26 := by
  have := (Tiles.blkOf (Tiles.c1Of L) (Tiles.s1Of L) (kkOf k p)).isLt; omega

/-- The transposed half `p` after the inner loop of trip `k`: entry `(dd, r)` is the gathered rows' entry for the block. -/
def TrOK0 (k : Fin k1_t2_loop.trips) (T : Buf (Elt F) ((s3).view.loc (thr d L))) : Prop :=
  ∀ (dd : Fin 64) (r : Fin 128), (tr0).view.read (Elt F) T (ix2 dd r)
    = Cert.Lookup.out5 IDS TAB (ix5 (⟨(Tiles.blkOf (Tiles.c1Of L) (Tiles.s1Of L) (kkOf k 0)).val / 128, bq L k 0⟩ : Fin 26) (⟨dd.val / 8, by omega⟩ : Fin 8)
        (⟨(Tiles.blkOf (Tiles.c1Of L) (Tiles.s1Of L) (kkOf k 0)).val % 128, Nat.mod_lt _ (by decide)⟩ : Fin 128) (⟨dd.val % 8, Nat.mod_lt _ (by decide)⟩ : Fin 8) r)
def TrOK1 (k : Fin k1_t2_loop.trips) (T : Buf (Elt F) ((s3).view.loc (thr d L))) : Prop :=
  ∀ (dd : Fin 64) (r : Fin 128), (tr1).view.read (Elt F) T (ix2 dd r)
    = Cert.Lookup.out5 IDS TAB (ix5 (⟨(Tiles.blkOf (Tiles.c1Of L) (Tiles.s1Of L) (kkOf k 1)).val / 128, bq L k 1⟩ : Fin 26) (⟨dd.val / 8, by omega⟩ : Fin 8)
        (⟨(Tiles.blkOf (Tiles.c1Of L) (Tiles.s1Of L) (kkOf k 1)).val % 128, Nat.mod_lt _ (by decide)⟩ : Fin 128) (⟨dd.val % 8, Nat.mod_lt _ (by decide)⟩ : Fin 8) r)

/-- A landed block: each of its eight windows holds the gathered rows. -/
def blockDone (kk : Fin 104) : sProp 𝕄 :=
  bigSep (Finset.univ : Finset (Fin 8)) fun d8 =>
    (Tiles.out5Loc d ↦[Tiles.outSet (Tiles.blkOf (Tiles.c1Of L) (Tiles.s1Of L) kk) d8]{fullShare}
      (Cert.Lookup.out5 IDS TAB : Buf (Elt F) (Tiles.out5Loc d)))

variable (O : CellTallies nD τ sig (HIx 2)) (W : Waits sig (HIx 2))
variable (X : Buf (Elt F) ((s0).view.loc (thr d L)))

theorem kfin (k : Nat) (h : k < 52) : k < k1_t2_loop.trips := Nat.lt_of_lt_of_eq h trips2.symm

def gpartV (k : Nat) : sProp 𝕄 :=
  if h : k < 52 then
    iprop(∃ R0 R1, Transfers.Flight countersEmb (thr d L) (SemLoc.dma cc1_scratch4.sem) default 524288
        iprop((((s2).view.loc (thr d L) ↦[(rows0).view.set]{fullShare} R0) ∗ ((s1).view.loc (thr d L) ↦[(jw (256 * k) (jwh0 k h)).view.set]{qL} g))
          ∗ ((pW).view.loc (thr d L) ↦[(pAll).view.set]{pL L} (Cert.Lookup.pairs TAB)))
      ∗ ((pW).view.loc (thr d L) ↦[Finset.univ \ (pAll).view.set]{pL L} (Cert.Lookup.pairs TAB))
      ∗ ((s1).view.loc (thr d L) ↦[Finset.univ \ (jw (256 * k) (jwh0 k h)).view.set]{qL} g)
      ∗ Transfers.Flight countersEmb (thr d L) (SemLoc.dma cc1_scratch5.sem) default 524288
        iprop((((s2).view.loc (thr d L) ↦[(rows1).view.set]{fullShare} R1) ∗ ((s1).view.loc (thr d L) ↦[(jw (256 * k + 128) (jwh1 k h)).view.set]{qR} g))
          ∗ ((pW).view.loc (thr d L) ↦[(pAll).view.set]{pR L} (Cert.Lookup.pairs TAB)))
      ∗ ((pW).view.loc (thr d L) ↦[Finset.univ \ (pAll).view.set]{pR L} (Cert.Lookup.pairs TAB))
      ∗ ((s1).view.loc (thr d L) ↦[Finset.univ \ (jw (256 * k + 128) (jwh1 k h)).view.set]{qR} g)
      ∗ ⌜RowsOK0 (F := F) d L g TAB ⟨k, kfin k h⟩ R0⌝ ∗ ⌜RowsOK1 (F := F) d L g TAB ⟨k, kfin k h⟩ R1⌝)
  else
    iprop(∃ R0 R1, ((s2).view.loc (thr d L) ↦[(rows0).view.set]{fullShare} R0) ∗ ((s2).view.loc (thr d L) ↦[(rows1).view.set]{fullShare} R1)
      ∗ ((pW).view.loc (thr d L) ↦{pL L} (Cert.Lookup.pairs TAB)) ∗ ((pW).view.loc (thr d L) ↦{pR L} (Cert.Lookup.pairs TAB))
      ∗ ((s1).view.loc (thr d L) ↦{qL} g) ∗ ((s1).view.loc (thr d L) ↦{qR} g)
      ∗ semVal (g4 d L) 0 ∗ semVal (g5 d L) 0)

def wpartV (k : Nat) : sProp 𝕄 :=
  if k = 0 then
    iprop((∃ T0, (s3).view.loc (thr d L) ↦[(tr0).view.set]{fullShare} T0) ∗ (∃ T1, (s3).view.loc (thr d L) ↦[(tr1).view.set]{fullShare} T1)
      ∗ semVal (g6 d L) 0 ∗ semVal (g7 d L) 0)
  else
    iprop(∃ (km : Fin k1_t2_loop.trips) (T0 T1 : Buf (Elt F) ((s3).view.loc (thr d L))) (fa0 fa1 fa2 fa3 fa4 fa5 fa6 fa7 fb0 fb1 fb2 fb3 fb4 fb5 fb6 fb7 : Buf (Elt F) ((oW).view.loc (thr d L))),
      ⌜km.val + 1 = k⌝ ∗ ⌜TrOK0 (F := F) d L IDS TAB km T0⌝ ∗ ⌜TrOK1 (F := F) d L IDS TAB km T1⌝
      ∗ Transfers.Batched countersEmb (thr d L) (SemLoc.dma cc1_scratch6.sem) default 32768 8 (Ds8a d L km T0 fa0 fa1 fa2 fa3 fa4 fa5 fa6 fa7) 0
      ∗ Transfers.Batched countersEmb (thr d L) (SemLoc.dma cc1_scratch7.sem) default 32768 8 (Ds8b d L km T1 fb0 fb1 fb2 fb3 fb4 fb5 fb6 fb7) 0)

def opartV (k : Nat) : sProp 𝕄 :=
  iprop(bigSep (doneS k) (blockDone (F := F) d L IDS TAB) ∗ bigSep (todoS k) (blockOwn (F := F) d L))

def inv2V (k : Nat) (_ : PUnit) : sProp 𝕄 :=
  iprop(Transfers.MayWaits (thr d L) (none : HIx 2) O
    ∗ ((s0).view.loc (thr d L) ↦{fullShare} X)
    ∗ gpartV (F := F) d L g TAB k ∗ wpartV (F := F) d L IDS TAB k ∗ opartV (F := F) d L IDS TAB k
    ∗ ∃ W', ⌜∀ p ∈ W', p ∈ W ∨ p.2 = none⌝ ∗ owes (thr d L) O W')

theorem blockDone_intro0 (k : Fin k1_t2_loop.trips) (T : Buf (Elt F) ((s3).view.loc (thr d L))) (hT : TrOK0 (F := F) d L IDS TAB k T)
    (J0 J1 J2 J3 J4 J5 J6 J7 : Buf (Elt F) ((oW).view.loc (thr d L))) :
    iprop(((ow4 L k 0).view.loc (thr d L) ↦[(ow4 L k 0).view.set]{fullShare}
          (ow4 L k 0).view.writes (Elt F) J0 [⟨Rect.whole S8x128, ReadAs.same.apply ((trw tr0 0 inb_S64x128_S8x128_0_0).view.read (Elt F) T)⟩])
        ∗ ((ow5 L k 0).view.loc (thr d L) ↦[(ow5 L k 0).view.set]{fullShare}
          (ow5 L k 0).view.writes (Elt F) J1 [⟨Rect.whole S8x128, ReadAs.same.apply ((trw tr0 8 inb_S64x128_S8x128_8_0).view.read (Elt F) T)⟩])
        ∗ ((ow6 L k 0).view.loc (thr d L) ↦[(ow6 L k 0).view.set]{fullShare}
          (ow6 L k 0).view.writes (Elt F) J2 [⟨Rect.whole S8x128, ReadAs.same.apply ((trw tr0 16 inb_S64x128_S8x128_16_0).view.read (Elt F) T)⟩])
        ∗ ((ow7 L k 0).view.loc (thr d L) ↦[(ow7 L k 0).view.set]{fullShare}
          (ow7 L k 0).view.writes (Elt F) J3 [⟨Rect.whole S8x128, ReadAs.same.apply ((trw tr0 24 inb_S64x128_S8x128_24_0).view.read (Elt F) T)⟩])
        ∗ ((ow8 L k 0).view.loc (thr d L) ↦[(ow8 L k 0).view.set]{fullShare}
          (ow8 L k 0).view.writes (Elt F) J4 [⟨Rect.whole S8x128, ReadAs.same.apply ((trw tr0 32 inb_S64x128_S8x128_32_0).view.read (Elt F) T)⟩])
        ∗ ((ow9 L k 0).view.loc (thr d L) ↦[(ow9 L k 0).view.set]{fullShare}
          (ow9 L k 0).view.writes (Elt F) J5 [⟨Rect.whole S8x128, ReadAs.same.apply ((trw tr0 40 inb_S64x128_S8x128_40_0).view.read (Elt F) T)⟩])
        ∗ ((ow10 L k 0).view.loc (thr d L) ↦[(ow10 L k 0).view.set]{fullShare}
          (ow10 L k 0).view.writes (Elt F) J6 [⟨Rect.whole S8x128, ReadAs.same.apply ((trw tr0 48 inb_S64x128_S8x128_48_0).view.read (Elt F) T)⟩])
        ∗ ((ow11 L k 0).view.loc (thr d L) ↦[(ow11 L k 0).view.set]{fullShare}
          (ow11 L k 0).view.writes (Elt F) J7 [⟨Rect.whole S8x128, ReadAs.same.apply ((trw tr0 56 inb_S64x128_S8x128_56_0).view.read (Elt F) T)⟩]) : sProp 𝕄)
      ⊢ blockDone (F := F) d L IDS TAB (kkOf k 0) := by
  unfold blockDone
  rw [bigSep_fin8]
  iintro ⟨H0, H1, H2, H3, H4, H5, H6, H7⟩
  isplitl [H0]; · iapply (Entails.of_eq (landed4 IDS TAB d L k 0 tr0 T hT J0)); iexact H0
  isplitl [H1]; · iapply (Entails.of_eq (landed5 IDS TAB d L k 0 tr0 T hT J1)); iexact H1
  isplitl [H2]; · iapply (Entails.of_eq (landed6 IDS TAB d L k 0 tr0 T hT J2)); iexact H2
  isplitl [H3]; · iapply (Entails.of_eq (landed7 IDS TAB d L k 0 tr0 T hT J3)); iexact H3
  isplitl [H4]; · iapply (Entails.of_eq (landed8 IDS TAB d L k 0 tr0 T hT J4)); iexact H4
  isplitl [H5]; · iapply (Entails.of_eq (landed9 IDS TAB d L k 0 tr0 T hT J5)); iexact H5
  isplitl [H6]; · iapply (Entails.of_eq (landed10 IDS TAB d L k 0 tr0 T hT J6)); iexact H6
  iapply (Entails.of_eq (landed11 IDS TAB d L k 0 tr0 T hT J7)); iexact H7

theorem blockDone_intro1 (k : Fin k1_t2_loop.trips) (T : Buf (Elt F) ((s3).view.loc (thr d L))) (hT : TrOK1 (F := F) d L IDS TAB k T)
    (J0 J1 J2 J3 J4 J5 J6 J7 : Buf (Elt F) ((oW).view.loc (thr d L))) :
    iprop(((ow4 L k 1).view.loc (thr d L) ↦[(ow4 L k 1).view.set]{fullShare}
          (ow4 L k 1).view.writes (Elt F) J0 [⟨Rect.whole S8x128, ReadAs.same.apply ((trw tr1 0 inb_S64x128_S8x128_0_0).view.read (Elt F) T)⟩])
        ∗ ((ow5 L k 1).view.loc (thr d L) ↦[(ow5 L k 1).view.set]{fullShare}
          (ow5 L k 1).view.writes (Elt F) J1 [⟨Rect.whole S8x128, ReadAs.same.apply ((trw tr1 8 inb_S64x128_S8x128_8_0).view.read (Elt F) T)⟩])
        ∗ ((ow6 L k 1).view.loc (thr d L) ↦[(ow6 L k 1).view.set]{fullShare}
          (ow6 L k 1).view.writes (Elt F) J2 [⟨Rect.whole S8x128, ReadAs.same.apply ((trw tr1 16 inb_S64x128_S8x128_16_0).view.read (Elt F) T)⟩])
        ∗ ((ow7 L k 1).view.loc (thr d L) ↦[(ow7 L k 1).view.set]{fullShare}
          (ow7 L k 1).view.writes (Elt F) J3 [⟨Rect.whole S8x128, ReadAs.same.apply ((trw tr1 24 inb_S64x128_S8x128_24_0).view.read (Elt F) T)⟩])
        ∗ ((ow8 L k 1).view.loc (thr d L) ↦[(ow8 L k 1).view.set]{fullShare}
          (ow8 L k 1).view.writes (Elt F) J4 [⟨Rect.whole S8x128, ReadAs.same.apply ((trw tr1 32 inb_S64x128_S8x128_32_0).view.read (Elt F) T)⟩])
        ∗ ((ow9 L k 1).view.loc (thr d L) ↦[(ow9 L k 1).view.set]{fullShare}
          (ow9 L k 1).view.writes (Elt F) J5 [⟨Rect.whole S8x128, ReadAs.same.apply ((trw tr1 40 inb_S64x128_S8x128_40_0).view.read (Elt F) T)⟩])
        ∗ ((ow10 L k 1).view.loc (thr d L) ↦[(ow10 L k 1).view.set]{fullShare}
          (ow10 L k 1).view.writes (Elt F) J6 [⟨Rect.whole S8x128, ReadAs.same.apply ((trw tr1 48 inb_S64x128_S8x128_48_0).view.read (Elt F) T)⟩])
        ∗ ((ow11 L k 1).view.loc (thr d L) ↦[(ow11 L k 1).view.set]{fullShare}
          (ow11 L k 1).view.writes (Elt F) J7 [⟨Rect.whole S8x128, ReadAs.same.apply ((trw tr1 56 inb_S64x128_S8x128_56_0).view.read (Elt F) T)⟩]) : sProp 𝕄)
      ⊢ blockDone (F := F) d L IDS TAB (kkOf k 1) := by
  unfold blockDone
  rw [bigSep_fin8]
  iintro ⟨H0, H1, H2, H3, H4, H5, H6, H7⟩
  isplitl [H0]; · iapply (Entails.of_eq (landed4 IDS TAB d L k 1 tr1 T hT J0)); iexact H0
  isplitl [H1]; · iapply (Entails.of_eq (landed5 IDS TAB d L k 1 tr1 T hT J1)); iexact H1
  isplitl [H2]; · iapply (Entails.of_eq (landed6 IDS TAB d L k 1 tr1 T hT J2)); iexact H2
  isplitl [H3]; · iapply (Entails.of_eq (landed7 IDS TAB d L k 1 tr1 T hT J3)); iexact H3
  isplitl [H4]; · iapply (Entails.of_eq (landed8 IDS TAB d L k 1 tr1 T hT J4)); iexact H4
  isplitl [H5]; · iapply (Entails.of_eq (landed9 IDS TAB d L k 1 tr1 T hT J5)); iexact H5
  isplitl [H6]; · iapply (Entails.of_eq (landed10 IDS TAB d L k 1 tr1 T hT J6)); iexact H6
  iapply (Entails.of_eq (landed11 IDS TAB d L k 1 tr1 T hT J7)); iexact H7

set_option maxHeartbeats 4000000 in
theorem tripV_first
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (hk : k.val = 0) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  have h52 : k.val < 52 := Nat.lt_of_lt_of_eq k.isLt trips2
  have hgt : ¬ Scalar.cmpi .ne (Scalar.extui (Scalar.cmpi .sgt (Scf.iv 0#32 1#32 k) 0#32)) 0#32 = 1#1 :=
    fun h => absurd ((gt0_iff k).mp h) (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2V
  iintro ⟨Hmw, H0, HG, HWP, HOP, %W', %hW', HO⟩
  ihave HG := (Entails.of_eq (show gpartV (F := F) d L g TAB k.val = _ from dif_pos h52)) $$ HG
  icases HG with ⟨%R0, %R1, HF6, HpL, H1L, HF7, HpR, H1R, %hR0, %hR1⟩
  ihave HWP := (Entails.of_eq (show wpartV (F := F) d L IDS TAB k.val = _ from if_pos hk)) $$ HWP
  icases HWP with ⟨⟨%T0, HT0⟩, ⟨%T1, HT1⟩, Hs6, Hs7⟩
  ihave HOP := (Entails.of_eq (show opartV (F := F) d L IDS TAB k.val = iprop(bigSep (doneS k.val) (blockDone (F := F) d L IDS TAB) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  sl_for (inv3V (F := F) d L k X R0) $$ [H0 HF6_dst HT0]
  case region => intro t u'; exact step3V d L k _ _ X R0 t u'
  · iapply (inv3V_init (F := F) d L k X R0 _)
    isplitl [H0]; · iexact H0
    isplitl [HF6_dst]; · iexact HF6_dst
    iexists _; iexact HT0
  iintro %_ HI
  ihave HI := (Entails.of_eq (show inv3V (F := F) d L k X R0 (Scf.trips k1_t3_loop.lb k1_t3_loop.ub k1_t3_loop.st) _
      = inv3V (F := F) d L k X R0 32 _ from by rw [show Scf.trips k1_t3_loop.lb k1_t3_loop.ub k1_t3_loop.st = 32 by decide])) $$ HI
  ihave HI := (inv3V_exit (F := F) d L k X R0 _) $$ HI
  icases HI with ⟨H0, HR0, %T0', HT0, %hex0⟩
  have hT0 : TrOK0 (F := F) d L IDS TAB k T0' := fun dd r => trOK0_of IDS TAB d L k X g R0 T0' hXv hgv hI hR0 hex0 dd r
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  sl_for (inv4V (F := F) d L k X R1) $$ [H0 HF7_dst HT1]
  case region => intro t u'; exact step4V d L k _ _ _ X R1 t u'
  · iapply (inv4V_init (F := F) d L k X R1 _)
    isplitl [H0]; · iexact H0
    isplitl [HF7_dst]; · iexact HF7_dst
    iexists _; iexact HT1
  iintro %_ HI
  ihave HI := (Entails.of_eq (show inv4V (F := F) d L k X R1 (Scf.trips k1_t4_loop.lb k1_t4_loop.ub k1_t4_loop.st) _
      = inv4V (F := F) d L k X R1 32 _ from by rw [show Scf.trips k1_t4_loop.lb k1_t4_loop.ub k1_t4_loop.st = 32 by decide])) $$ HI
  ihave HI := (inv4V_exit (F := F) d L k X R1 _) $$ HI
  icases HI with ⟨H0, HR1, %T1', HT1, %hex1⟩
  have hT1 : TrOK1 (F := F) d L IDS TAB k T1' := fun dd r => trOK1_of IDS TAB d L k X g R1 T1' hXv hgv hI hR1 hex1 dd r
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpartV (F := F) d L g TAB (k.val + 1) = _ from dif_pos (show k.val + 1 < 52 by omega)]
    iexists _, _
    isplitl [HF6]; · iapply (flight_std (F := F) d L g (Cert.Lookup.pairs TAB) cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g (Cert.Lookup.pairs TAB) cc1_scratch5.sem rows1 _ (k1_off14 k) _ (256 * (k.val + 1) + 128) _ e14 qR (pR L)); iexact HF7
    isplitl [HpR]; · iexact HpR
    isplitl [H1R]; · iapply (rest_std (F := F) d L g (k1_off14 k) _ (256 * (k.val + 1) + 128) _ e14 qR); iexact H1R
    isplitr
    · ipureintro
      exact rowsOK0_new (F := F) d L g TAB ⟨k.val + 1, kfin _ (by omega)⟩ (k1_off12 k) _
        (by rw [k1_off12_eq k, show 128 * (2 * (k.val + 1)) = 256 * k.val + 256 by omega]) R0 _ _
    · ipureintro
      exact rowsOK1_new (F := F) d L g TAB ⟨k.val + 1, kfin _ (by omega)⟩ (k1_off14 k) _
        (by rw [k1_off14_eq k, show 128 * (2 * (k.val + 1) + 1) = 256 * k.val + 384 by omega]) R1 _ _
  isplitl [Hs6 Hs7]
  · rw [show wpartV (F := F) d L IDS TAB (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitr; · ipureintro; exact hT0
    isplitr; · ipureintro; exact hT1
    isplitl [Hs6]; · iexact Hs6
    iexact Hs7
  isplitl [Hdone Htodo]
  · unfold opartV
    isplitr [Htodo]
    · rw [doneS_first k.val hk]; iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem tripV_mid
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (hk : 0 < k.val ∧ k.val < 51) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2V
  iintro ⟨Hmw, H0, HG, HWP, HOP, %W', %hW', HO⟩
  ihave HG := (Entails.of_eq (show gpartV (F := F) d L g TAB k.val = _ from dif_pos h52)) $$ HG
  icases HG with ⟨%R0, %R1, HF6, HpL, H1L, HF7, HpR, H1R, %hR0, %hR1⟩
  ihave HWP := (Entails.of_eq (show wpartV (F := F) d L IDS TAB k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, %hT0p, %hT1p, HB8, HB9⟩
  ihave HOP := (Entails.of_eq (show opartV (F := F) d L IDS TAB k.val = iprop(bigSep (doneS k.val) (blockDone (F := F) d L IDS TAB) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockDone_intro0 (F := F) d L IDS TAB km T0 hT0p _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (inv3V (F := F) d L k X R0) $$ [H0 HF6_dst HT0]
  case region => intro t u'; exact step3V d L k _ _ X R0 t u'
  · iapply (inv3V_init (F := F) d L k X R0 _)
    isplitl [H0]; · iexact H0
    isplitl [HF6_dst]; · iexact HF6_dst
    iexists _; iexact HT0
  iintro %_ HI
  ihave HI := (Entails.of_eq (show inv3V (F := F) d L k X R0 (Scf.trips k1_t3_loop.lb k1_t3_loop.ub k1_t3_loop.st) _
      = inv3V (F := F) d L k X R0 32 _ from by rw [show Scf.trips k1_t3_loop.lb k1_t3_loop.ub k1_t3_loop.st = 32 by decide])) $$ HI
  ihave HI := (inv3V_exit (F := F) d L k X R0 _) $$ HI
  icases HI with ⟨H0, HR0, %T0', HT0, %hex0⟩
  have hT0 : TrOK0 (F := F) d L IDS TAB k T0' := fun dd r => trOK0_of IDS TAB d L k X g R0 T0' hXv hgv hI hR0 hex0 dd r
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockDone_intro1 (F := F) d L IDS TAB km T1 hT1p _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (inv4V (F := F) d L k X R1) $$ [H0 HF7_dst HT1]
  case region => intro t u'; exact step4V d L k _ _ _ X R1 t u'
  · iapply (inv4V_init (F := F) d L k X R1 _)
    isplitl [H0]; · iexact H0
    isplitl [HF7_dst]; · iexact HF7_dst
    iexists _; iexact HT1
  iintro %_ HI
  ihave HI := (Entails.of_eq (show inv4V (F := F) d L k X R1 (Scf.trips k1_t4_loop.lb k1_t4_loop.ub k1_t4_loop.st) _
      = inv4V (F := F) d L k X R1 32 _ from by rw [show Scf.trips k1_t4_loop.lb k1_t4_loop.ub k1_t4_loop.st = 32 by decide])) $$ HI
  ihave HI := (inv4V_exit (F := F) d L k X R1 _) $$ HI
  icases HI with ⟨H0, HR1, %T1', HT1, %hex1⟩
  have hT1 : TrOK1 (F := F) d L IDS TAB k T1' := fun dd r => trOK1_of IDS TAB d L k X g R1 T1' hXv hgv hI hR1 hex1 dd r
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpartV (F := F) d L g TAB (k.val + 1) = _ from dif_pos (show k.val + 1 < 52 by omega)]
    iexists _, _
    isplitl [HF6]; · iapply (flight_std (F := F) d L g (Cert.Lookup.pairs TAB) cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g (Cert.Lookup.pairs TAB) cc1_scratch5.sem rows1 _ (k1_off14 k) _ (256 * (k.val + 1) + 128) _ e14 qR (pR L)); iexact HF7
    isplitl [HpR]; · iexact HpR
    isplitl [H1R]; · iapply (rest_std (F := F) d L g (k1_off14 k) _ (256 * (k.val + 1) + 128) _ e14 qR); iexact H1R
    isplitr
    · ipureintro
      exact rowsOK0_new (F := F) d L g TAB ⟨k.val + 1, kfin _ (by omega)⟩ (k1_off12 k) _
        (by rw [k1_off12_eq k, show 128 * (2 * (k.val + 1)) = 256 * k.val + 256 by omega]) R0 _ _
    · ipureintro
      exact rowsOK1_new (F := F) d L g TAB ⟨k.val + 1, kfin _ (by omega)⟩ (k1_off14 k) _
        (by rw [k1_off14_eq k, show 128 * (2 * (k.val + 1) + 1) = 256 * k.val + 384 by omega]) R1 _ _
  isplitl [HB8 HB9]
  · rw [show wpartV (F := F) d L IDS TAB (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitr; · ipureintro; exact hT0
    isplitr; · ipureintro; exact hT1
    isplitl [HB8]; · iexact HB8
    iexact HB9
  isplitl [Hdone Htodo Hdn0 Hdn1]
  · unfold opartV
    isplitr [Htodo]
    · iapply (Entails.of_eq (show iprop(blockDone (F := F) d L IDS TAB (kkOf km 1) ∗ blockDone (F := F) d L IDS TAB (kkOf km 0) ∗ bigSep (doneS k.val) (blockDone (F := F) d L IDS TAB))
          = bigSep (doneS (k.val + 1)) (blockDone (F := F) d L IDS TAB) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem tripV_last
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (hk : k.val = 51) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : ¬ k1_cond2 k = 1#1 := fun h => absurd ((k1_cond2_iff k).mp h) (by omega)
  have hc4 : ¬ k1_cond4 k = 1#1 := fun h => absurd ((k1_cond4_iff k).mp h) (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2V
  iintro ⟨Hmw, H0, HG, HWP, HOP, %W', %hW', HO⟩
  ihave HG := (Entails.of_eq (show gpartV (F := F) d L g TAB k.val = _ from dif_pos h52)) $$ HG
  icases HG with ⟨%R0, %R1, HF6, HpL, H1L, HF7, HpR, H1R, %hR0, %hR1⟩
  ihave HWP := (Entails.of_eq (show wpartV (F := F) d L IDS TAB k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, %hT0p, %hT1p, HB8, HB9⟩
  ihave HOP := (Entails.of_eq (show opartV (F := F) d L IDS TAB k.val = iprop(bigSep (doneS k.val) (blockDone (F := F) d L IDS TAB) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockDone_intro0 (F := F) d L IDS TAB km T0 hT0p _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (inv3V (F := F) d L k X R0) $$ [H0 HF6_dst HT0]
  case region => intro t u'; exact step3V d L k _ _ X R0 t u'
  · iapply (inv3V_init (F := F) d L k X R0 _)
    isplitl [H0]; · iexact H0
    isplitl [HF6_dst]; · iexact HF6_dst
    iexists _; iexact HT0
  iintro %_ HI
  ihave HI := (Entails.of_eq (show inv3V (F := F) d L k X R0 (Scf.trips k1_t3_loop.lb k1_t3_loop.ub k1_t3_loop.st) _
      = inv3V (F := F) d L k X R0 32 _ from by rw [show Scf.trips k1_t3_loop.lb k1_t3_loop.ub k1_t3_loop.st = 32 by decide])) $$ HI
  ihave HI := (inv3V_exit (F := F) d L k X R0 _) $$ HI
  icases HI with ⟨H0, HR0, %T0', HT0, %hex0⟩
  have hT0 : TrOK0 (F := F) d L IDS TAB k T0' := fun dd r => trOK0_of IDS TAB d L k X g R0 T0' hXv hgv hI hR0 hex0 dd r
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockDone_intro1 (F := F) d L IDS TAB km T1 hT1p _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (inv4V (F := F) d L k X R1) $$ [H0 HF7_dst HT1]
  case region => intro t u'; exact step4V d L k _ _ _ X R1 t u'
  · iapply (inv4V_init (F := F) d L k X R1 _)
    isplitl [H0]; · iexact H0
    isplitl [HF7_dst]; · iexact HF7_dst
    iexists _; iexact HT1
  iintro %_ HI
  ihave HI := (Entails.of_eq (show inv4V (F := F) d L k X R1 (Scf.trips k1_t4_loop.lb k1_t4_loop.ub k1_t4_loop.st) _
      = inv4V (F := F) d L k X R1 32 _ from by rw [show Scf.trips k1_t4_loop.lb k1_t4_loop.ub k1_t4_loop.st = 32 by decide])) $$ HI
  ihave HI := (inv4V_exit (F := F) d L k X R1 _) $$ HI
  icases HI with ⟨H0, HR1, %T1', HT1, %hex1⟩
  have hT1 : TrOK1 (F := F) d L IDS TAB k T1' := fun dd r => trOK1_of IDS TAB d L k X g R1 T1' hXv hgv hI hR1 hex1 dd r
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  isplitl [HF6 HpL H1L HF7 HpR H1R HR0 HR1]
  · rw [show gpartV (F := F) d L g TAB (k.val + 1) = _ from dif_neg (show ¬ k.val + 1 < 52 by omega)]
    iexists R0, R1
    isplitl [HR0]; · iexact HR0
    isplitl [HR1]; · iexact HR1
    isplitl [HpL]; · iexact HpL
    isplitl [HpR]; · iexact HpR
    isplitl [H1L]; · iexact H1L
    isplitl [H1R]; · iexact H1R
    isplitl [HF6]; · iexact HF6
    iexact HF7
  isplitl [HB8 HB9]
  · rw [show wpartV (F := F) d L IDS TAB (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitr; · ipureintro; exact hT0
    isplitr; · ipureintro; exact hT1
    isplitl [HB8]; · iexact HB8
    iexact HB9
  isplitl [Hdone Htodo Hdn0 Hdn1]
  · unfold opartV
    isplitr [Htodo]
    · iapply (Entails.of_eq (show iprop(blockDone (F := F) d L IDS TAB (kkOf km 1) ∗ blockDone (F := F) d L IDS TAB (kkOf km 0) ∗ bigSep (doneS k.val) (blockDone (F := F) d L IDS TAB))
          = bigSep (doneS (k.val + 1)) (blockDone (F := F) d L IDS TAB) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

omit [FloatOps F] in
theorem pts_name (ℓ : Loc nD τ sig) (q : PosShare TreeShare) (f : Buf (Elt F) ℓ) :
    (ℓ ↦{q} f : sProp 𝕄) ⊢ iprop(∃ Y, (ℓ ↦{q} Y) ∗ ⌜Y = f⌝) := by
  iintro H
  iexists f
  isplitl [H]
  · iexact H
  · ipureintro; rfl

theorem trip2V
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  rcases Nat.eq_zero_or_pos k.val with h0 | hpos
  · exact tripV_first d L g IDS TAB O W X hin hXv hgv hI k h0 v2 u
  · rcases Nat.lt_or_ge k.val 51 with hlt | hge
    · exact tripV_mid d L g IDS TAB O W X hin hXv hgv hI k ⟨hpos, hlt⟩ v2 u
    · exact tripV_last d L g IDS TAB O W X hin hXv hgv hI k (by have := Nat.lt_of_lt_of_eq k.isLt trips2; omega) v2 u
set_option maxHeartbeats 4000000 in
theorem tile_body1_at (hF : (K (F := F)).Facts) (m : (ℓ : Loc nD τ sig) → Buf (Elt F) ℓ)
    (hI : ∀ i, ((Tiles.IDS m d) i).toNat ≤ 999999)
    (O : CellTallies nD τ sig (HIx 2)) (W : Waits sig (HIx 2)) (hO : ∀ g, O g none = 0) :
    iprop(levAts (K (F := F)).L (K (F := F)).lev ∗ Tiles.go1 m d (Tiles.c1Of L) (Tiles.s1Of L)
        ∗ scopedBufs (thr d L) ∗ scopedSems0 (thr d L) ∗ owes (thr d L) O W)
      ⊢ wp frame (wpE (defs₀ (F := F)) 𝒱₀ (thr d L) none) Set.univ
          (cc1_k L iW (Memref.isWhole_whole _) pW (Memref.isWhole_whole _) oW (Memref.isWhole_whole _) s0 (Memref.isWhole_whole _) s1 (Memref.isWhole_whole _) s2 (Memref.isWhole_whole _) s3 (Memref.isWhole_whole _) cc1_scratch4 cc1_scratch5 cc1_scratch6 cc1_scratch7 cc1_scoped0)
          fun _ => iprop(Tiles.td1 m d (Tiles.c1Of L) (Tiles.s1Of L) ∗ scopedBufs (thr d L) ∗ scopedSems0 (thr d L)
            ∗ ∃ W', ⌜∀ p ∈ W', p ∈ W ∨ p.2 = none⌝ ∗ owes (thr d L) O W') := by
  have hW0 : ∀ p ∈ W, p ∈ W ∨ p.2 = (none : HIx 2) := fun p hp => Or.inl hp
  simp only [cc1_k_eq_skeleton]; unfold cc1_k_skel
  rw [(K (F := F)).scopedBufs_V hF d (cV L) (jV L), SparseCore.Cfg.scopedSems0_V (Val := Elt F) d (cV L) (jV L), ownSems0_V1, ownBufs_V1]
  unfold Tiles.go1 Tiles.td1
  iintro ⟨#Hlv, ⟨Hi, Hp, Hq, Hout⟩, ⟨⟨%f0, H0⟩, ⟨%f1, H1⟩, ⟨%f2, H2⟩, ⟨%f3, H3⟩, Hbufs⟩, ⟨Hs4, Hs5, Hs6, Hs7, HsS, Hsems⟩, HO⟩
  ihave Hmw := ((K (F := F)).mayWaits_none (thr := thr d L) hO) $$ Hlv
  ihave Hi' := (Entails.of_eq (pts_i (F := F) d L _ _).symm) $$ Hi
  ihave Hp' := (Entails.of_eq (pts_p (F := F) d L _ _).symm) $$ Hp
  ihave Hq' := (Entails.of_eq (pts_p (F := F) d L _ _).symm) $$ Hq
  ihave H0' := (Entails.of_eq (show (((s0).view.loc (thr d L) ↦{fullShare} f0 : sProp 𝕄)) = _ from rfl).symm) $$ H0
  ihave H1' := (Entails.of_eq (show (((s1).view.loc (thr d L) ↦{fullShare} f1 : sProp 𝕄)) = _ from rfl).symm) $$ H1
  ihave H2h := (rows_halves (F := F) d L f2).1 $$ H2
  icases H2h with ⟨HR0, HR1⟩
  ihave H3h := (tr_halves (F := F) d L f3).1 $$ H3
  icases H3h with ⟨HT0, HT1⟩
  sl_exec
  ihave H0n := (pts_name (F := F) _ _ _) $$ H0'
  icases H0n with ⟨%X, H0', %hX0⟩
  have hXv : ∀ j : S13312.Idx, (X j : BitVec 32) = Cert.Lookup.flatIds (Tiles.IDS m d) (ix1 (⟨13312 * (2 * (L 1).val + (L 0).val) + (j 0).val, copy_inb L j⟩ : Fin 425984)) := by
    intro j
    rw [hX0, View.write_whole_univ]
    exact copy_val (F := F) L (Cert.Lookup.flatIds (Tiles.IDS m d)) j
  have hX : ∀ j : S13312.Idx, ((X j : BitVec 32)).toNat ≤ 999999 := fun j => by rw [hXv j]; exact hI _
  sl_for (inv1V (F := F) d L O X) $$ [Hmw H0' H1']
  case region => intro k hk; exact step1V d L O X k hk
  · unfold inv1V
    isplitl [Hmw]; · iexact Hmw
    isplitl [H0']; · iexact H0'
    iexists f1; isplitl [H1']
    · iexact H1'
    · ipureintro; intro j hj; exact absurd hj (by simp)
  iintro %_ HI
  unfold inv1V
  icases HI with ⟨Hmw, H0, %g, H1, %hg⟩
  have hgv : ∀ j : S13312.Idx, (g j : BitVec 32) = IntOp.shrui .vector (X j : BitVec 32) 1#32 := fun j => hg j (by
    rw [exit1]; exact (j 0).isLt)
  have hin : ∀ (r : Rect S13312) (hr : ∀ a, r.stride a = 1) (x : r.shape.Idx), (((s1).slice r hr).view.read (Elt F) g x).toNat < 500000 :=
    hin_of (F := F) g (fun j _ => halved_lt X g hX hgv j)
  ihave H1s := (show ((s1).view.loc (thr d L) ↦{fullShare} g : sProp 𝕄) ⊢ iprop(((s1).view.loc (thr d L) ↦{qL} g) ∗ ((s1).view.loc (thr d L) ↦{qR} g)) from (pointsTo_share (PosShare.mem_left_op_right fullShare)).1) $$ H1
  icases H1s with ⟨H1L, H1R⟩
  ihave HR0 := (Entails.of_eq (show ((rows0).view.loc (thr d L) ↦[(rows0).view.set]{fullShare} f2 : sProp 𝕄) = _ from rfl).symm) $$ HR0
  ihave HR1 := (Entails.of_eq (show ((rows1).view.loc (thr d L) ↦[(rows1).view.set]{fullShare} f2 : sProp 𝕄) = _ from rfl).symm) $$ HR1
  sl_exec
  sl_for (inv2V (F := F) d L g (Tiles.IDS m d) (Tiles.TAB m d) O W X) $$ [Hmw H0 Hs4 Hp' H1L Hs5 Hq' H1R HT0 HT1 Hs6 Hs7 Hout HO]
  case region => intro k u; exact trip2V d L g (Tiles.IDS m d) (Tiles.TAB m d) O W X hin hXv hgv hI k _ u
  · unfold inv2V
    isplitl [Hmw]; · iexact Hmw
    isplitl [H0]; · iexact H0
    isplitl [Hs4 Hp' H1L Hs5 Hq' H1R]
    · rw [show gpartV (F := F) d L g (Tiles.TAB m d) 0 = _ from dif_pos (show 0 < 52 by omega)]
      iexists _, _
      isplitl [Hs4]; · iapply (flight_std (F := F) d L g _ cc1_scratch4.sem rows0 _ ![0] _ (256 * 0) _ rfl qL (pL L)); iexact Hs4
      isplitl [Hp']; · iexact Hp'
      isplitl [H1L]; · iapply (rest_std (F := F) d L g ![0] _ (256 * 0) _ rfl qL); iexact H1L
      isplitl [Hs5]; · iapply (flight_std (F := F) d L g _ cc1_scratch5.sem rows1 _ ![128] _ (256 * 0 + 128) _ rfl qR (pR L)); iexact Hs5
      isplitl [Hq']; · iexact Hq'
      isplitl [H1R]; · iapply (rest_std (F := F) d L g ![128] _ (256 * 0 + 128) _ rfl qR); iexact H1R
      isplitr
      · ipureintro
        exact rowsOK0_new (F := F) d L g (Tiles.TAB m d) ⟨0, kfin 0 (by omega)⟩ ![0] _ rfl f2 _ _
      · ipureintro
        exact rowsOK1_new (F := F) d L g (Tiles.TAB m d) ⟨0, kfin 0 (by omega)⟩ ![128] _ rfl f2 _ _
    isplitl [HT0 HT1 Hs6 Hs7]
    · rw [show wpartV (F := F) d L (Tiles.IDS m d) (Tiles.TAB m d) 0 = _ from if_pos rfl]
      isplitl [HT0]; · iexists _; iexact HT0
      isplitl [HT1]; · iexists _; iexact HT1
      isplitl [Hs6]; · iexact Hs6
      iexact Hs7
    isplitl [Hout]
    · unfold opartV
      rw [doneS_zero, todoS_zero, bigSep_empty]
      isplitr
      · iempintro
      · iapply (Entails.of_eq (bigSep_univ_prod (fun p : Fin 104 × Fin 8 =>
          iprop(∃ f, Tiles.out5Loc d ↦[Tiles.outSet (Tiles.blkOf (Tiles.c1Of L) (Tiles.s1Of L) p.1) p.2]{fullShare} f))))
        iexact Hout
    iexists _; isplitr
    on_goal 2 => iexact HO
    ipureintro
    repeat' (first | exact hW0 | (refine (Finset.forall_mem_insert _ _ _).mpr ⟨Or.inr rfl, ?_⟩))
  iintro %_ HI
  have ht : Scf.trips k1_t2_loop.lb k1_t2_loop.ub k1_t2_loop.st = 52 := by decide
  ihave HI := (Entails.of_eq (show inv2V (F := F) d L g (Tiles.IDS m d) (Tiles.TAB m d) O W X (Scf.trips k1_t2_loop.lb k1_t2_loop.ub k1_t2_loop.st) _
      = inv2V (F := F) d L g (Tiles.IDS m d) (Tiles.TAB m d) O W X 52 _ from by rw [ht])) $$ HI
  unfold inv2V
  icases HI with ⟨Hmw2, H0, HG, HWP, HOP, %W', %hW', HO⟩
  ihave HG := (Entails.of_eq (show gpartV (F := F) d L g (Tiles.TAB m d) 52 = _ from dif_neg (by omega))) $$ HG
  icases HG with ⟨%R0, %R1, HR0e, HR1e, HpL, HpR, H1L, H1R, Hc6, Hc7⟩
  ihave HWP := (Entails.of_eq (show wpartV (F := F) d L (Tiles.IDS m d) (Tiles.TAB m d) 52 = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, %hT0p, %hT1p, HB8, HB9⟩
  ihave HOP := (Entails.of_eq (show opartV (F := F) d L (Tiles.IDS m d) (Tiles.TAB m d) 52 = iprop(bigSep (doneS 52) (blockDone (F := F) d L (Tiles.IDS m d) (Tiles.TAB m d)) ∗ bigSep (todoS 52) (blockOwn (F := F) d L)) from rfl)) $$ HOP
  icases HOP with ⟨Hdone, Htodo⟩
  sl_exec
  sl_step
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockDone_intro0 (F := F) d L (Tiles.IDS m d) (Tiles.TAB m d) km T0 hT0p _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockDone_intro1 (F := F) d L (Tiles.IDS m d) (Tiles.TAB m d) km T1 hT1p _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  isplitl [Hi' HpL HpR Hdone Hdn0 Hdn1]
  · isplitl [Hi']; · iapply (Entails.of_eq (pts_i (F := F) d L _ _)); iexact Hi'
    isplitl [HpL]; · iapply (Entails.of_eq (pts_p (F := F) d L _ _)); iexact HpL
    isplitl [HpR]; · iapply (Entails.of_eq (pts_p (F := F) d L _ _)); iexact HpR
    iapply (Entails.of_eq (bigSep_univ_prod (fun p : Fin 104 × Fin 8 =>
      (Tiles.out5Loc d ↦[Tiles.outSet (Tiles.blkOf (Tiles.c1Of L) (Tiles.s1Of L) p.1) p.2]{fullShare}
        (Cert.Lookup.out5 (Tiles.IDS m d) (Tiles.TAB m d) : Buf (Elt F) (Tiles.out5Loc d)) : sProp 𝕄))).symm)
    iapply (Entails.of_eq (show iprop(blockDone (F := F) d L (Tiles.IDS m d) (Tiles.TAB m d) (kkOf km 1) ∗ blockDone (F := F) d L (Tiles.IDS m d) (Tiles.TAB m d) (kkOf km 0)
          ∗ bigSep (doneS 52) (blockDone (F := F) d L (Tiles.IDS m d) (Tiles.TAB m d)))
        = bigSep Finset.univ (blockDone (F := F) d L (Tiles.IDS m d) (Tiles.TAB m d)) from by
      rw [← doneS_all, doneS_succ 52 km hkm, bigSep_insert (doneS_n1 52 km hkm), bigSep_insert (doneS_n0 52 km hkm)]; rfl))
    isplitl [Hdn1]; · iexact Hdn1
    isplitl [Hdn0]; · iexact Hdn0
    iexact Hdone
  isplitl [H0 H1L H1R HR0e HR1e HT0 HT1 Hbufs]
  · isplitl [H0]; · iexists _; iexact H0
    isplitl [H1L H1R]
    · iexists g
      iapply (show iprop(((s1).view.loc (thr d L) ↦{qL} g) ∗ ((s1).view.loc (thr d L) ↦{qR} g)) ⊢ ((s1).view.loc (thr d L) ↦{fullShare} g : sProp 𝕄)
        from (pointsTo_share (PosShare.mem_left_op_right fullShare)).2)
      isplitl [H1L]; · iexact H1L
      iexact H1R
    isplitl [HR0e HR1e]
    · iapply (rows_join (F := F) d L R0 R1)
      isplitl [HR0e]; · iexact HR0e
      iexact HR1e
    isplitl [HT0 HT1]
    · iapply (tr_join (F := F) d L T0 T1)
      isplitl [HT0]; · iexact HT0
      iexact HT1
    iexact Hbufs
  isplitl [Hc6 Hc7 HB8 HB9 HsS Hsems]
  · isplitl [Hc6]; · iexact Hc6
    isplitl [Hc7]; · iexact Hc7
    isplitl [HB8]; · iexact HB8
    isplitl [HB9]; · iexact HB9
    isplitl [HsS]; · iexact HsS
    iexact Hsems
  iexists _; isplitr
  on_goal 2 => iexact HO
  ipureintro
  repeat' (first | exact hW' | (refine (Finset.forall_mem_insert _ _ _).mpr ⟨Or.inr rfl, ?_⟩))

/-- The gather kernel on tile `L` of device `d`: from what the launch hands the tile to what it hands back. -/
theorem tile_body1 (hF : (K (F := F)).Facts) (m : (ℓ : Loc nD τ sig) → Buf (Elt F) ℓ) (d : Dev nD) (L : grid1.Coords)
    (hI : ∀ i, ((Tiles.IDS m d) i).toNat ≤ 999999)
    (O : CellTallies nD τ sig (HIx 2)) (W : Waits sig (HIx 2)) (hO : ∀ g, O g none = 0) :
    iprop(levAts (K (F := F)).L (K (F := F)).lev ∗ Tiles.go1 m d (Tiles.c1Of L) (Tiles.s1Of L)
        ∗ scopedBufs (thr d L) ∗ scopedSems0 (thr d L) ∗ owes (thr d L) O W)
      ⊢ wp frame (wpE (defs₀ (F := F)) 𝒱₀ (thr d L) none) Set.univ
          (cc1_k L iW (Memref.isWhole_whole _) pW (Memref.isWhole_whole _) oW (Memref.isWhole_whole _) s0 (Memref.isWhole_whole _) s1 (Memref.isWhole_whole _) s2 (Memref.isWhole_whole _) s3 (Memref.isWhole_whole _) cc1_scratch4 cc1_scratch5 cc1_scratch6 cc1_scratch7 cc1_scoped0)
          fun _ => iprop(Tiles.td1 m d (Tiles.c1Of L) (Tiles.s1Of L) ∗ scopedBufs (thr d L) ∗ scopedSems0 (thr d L)
            ∗ ∃ W', ⌜∀ p ∈ W', p ∈ W ∨ p.2 = none⌝ ∗ owes (thr d L) O W') :=
  tile_body1_at d L hF m hI O W hO

end Cert.Proof.KI.Body1

end
-- ==== Proof.Body1Idx_b.lean ====
/-
  The gather kernel's first loop on one tile: the index words halved in place.

  The tile holds its slice of the flat index list in one scratch array and builds, in a second one,
  the list of pair-table lines to fetch: entry j of the second array is entry j of the first shifted
  right by one bit, sixteen entries a trip, 832 trips. An index word is at most 999999, so a halved
  word is at most 499999: a line of the pair table. The loop's invariant says that the first array
  holds index words in range throughout and that the entries of the second array written so far are
  lines of the pair table.
-/
import proofs.«204055_g19524921328135_cont_8to1_763_20_alg».proof.Proof.SetupKI_b
import Idealize.ShloMosaic.Lib.Pipeline.Value

noncomputable section

namespace Cert.Proof.KB.Body1

open Cert.Kernel Cert.Kernel.Gen Cert.Proof.KB
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

scoped notation "iW" => (Memref.whole Cert.Kernel.main_v1_scv : Memref Cert.Kernel.sig Kind.scVector Space.hbm Cert.Kernel.S425984 EltTy.i32)
scoped notation "pW" => (Memref.whole Cert.Kernel.main_v5_scv : Memref Cert.Kernel.sig Kind.scVector Space.hbm Cert.Kernel.S500000x128 EltTy.f32)
scoped notation "oW" => (Memref.whole Cert.Kernel.main_v6_scv : Memref Cert.Kernel.sig Kind.scVector Space.hbm Cert.Kernel.S26x8x128x8x128 EltTy.f32)
scoped notation "s0" => (Memref.whole Cert.Kernel.cc1_scratch0 : Memref Cert.Kernel.sig Kind.scVector Space.vmem Cert.Kernel.S13312 EltTy.i32)
scoped notation "s1" => (Memref.whole Cert.Kernel.cc1_scratch1 : Memref Cert.Kernel.sig Kind.scVector Space.vmem Cert.Kernel.S13312 EltTy.i32)
scoped notation "s2" => (Memref.whole Cert.Kernel.cc1_scratch2 : Memref Cert.Kernel.sig Kind.scVector Space.vmem Cert.Kernel.S2x128x128 EltTy.f32)
scoped notation "s3" => (Memref.whole Cert.Kernel.cc1_scratch3 : Memref Cert.Kernel.sig Kind.scVector Space.vmem Cert.Kernel.S2x64x128 EltTy.f32)

variable (d : Dev nD) (L : grid1.Coords)

/-- The tile's SparseCore. -/
abbrev cV (L : grid1.Coords) : Fin τ.nSC := (L 0).castLE hcore1
/-- The tile's vector subcore. -/
abbrev jV (L : grid1.Coords) : Fin τ.nSub := (L 1).castLE hsub1
/-- The tile's thread. -/
abbrev thr (d : Dev nD) (L : grid1.Coords) : Thread nD τ := V d (cV L) (jV L)

/-- Before trip `k`: the first scratch array holds index words, each at most 999999; the entries of
    the second below `16 k` are at most 499999. -/
def inv1 (d : Dev nD) (L : grid1.Coords) (O : CellTallies nD τ sig (HIx 2)) (k : Nat) (_ : PUnit) : sProp 𝕄 :=
  iprop(Transfers.MayWaits (thr d L) (none : HIx 2) O
    ∗ (∃ X, ((s0).view.loc (thr d L) ↦{fullShare} X) ∗ ⌜∀ j : S13312.Idx, ((X j : BitVec 32)).toNat ≤ 999999⌝)
    ∗ (∃ g, ((s1).view.loc (thr d L) ↦{fullShare} g) ∗ ⌜∀ j : S13312.Idx, (j 0).val < 16 * k → ((g j : BitVec 32)).toNat ≤ 499999⌝))

/-! ## The halved words -/

/-- An index word at most 999999, shifted right by one bit, is at most 499999. -/
theorem shr_le (x : BitVec 32) (h : x.toNat ≤ 999999) : (IntOp.shrui .vector x 1#32).toNat ≤ 499999 := by
  have e : IntOp.shrui .vector x 1#32 = x >>> 1 := by simp [IntOp.shrui]
  rw [e, BitVec.toNat_ushiftRight, Nat.shiftRight_eq_div_pow]
  omega

/-- The second scratch array after trip `k`'s store: below `16 (k + 1)` every entry is at most 499999. -/
theorem stored_bound (k : Fin k1_t1_loop.trips)
    (X : S13312.Idx → BitVec 32) (g : S13312.Idx → BitVec 32)
    (hX : ∀ j : S13312.Idx, (X j).toNat ≤ 999999)
    (hg : ∀ j : S13312.Idx, (j 0).val < 16 * k.val → (g j).toNat ≤ 499999)
    (j : S13312.Idx) (hj : (j 0).val < 16 * (k.val + 1)) :
    (((s1).view.writes (Elt F) g
        [⟨Rect.unit (s := S13312) (k1_off2 k) S16.size (k1_off2_inb k),
          k1_pay39 (F := F) ((s0).view.readAt (Elt F) (Rect.unit (s := S13312) (k1_off2 k) S16.size (k1_off2_inb k)).toLoadRect X)⟩] j : BitVec 32)).toNat
      ≤ 499999 := by
  have e := congrFun (View.write_whole_slice_unit (Val := Elt F) cc1_scratch1 (k1_off2 k) S16.size (k1_off2_inb k) g
    (k1_pay39 (F := F) ((s0).view.readAt (Elt F) (Rect.unit (s := S13312) (k1_off2 k) S16.size (k1_off2_inb k)).toLoadRect X))) j
  refine (congrArg (BitVec.toNat (w := 32)) e).trans_le ?_
  unfold updateSlice
  split
  · exact shr_le _ (hX _)
  · next hin =>
    refine hg j ?_
    by_contra hc
    refine hin fun a => ?_
    have h0 : k1_off2 k 0 = 16 * k.val := by rw [k1_off2_eq k]; rfl
    match a with
    | ⟨0, _⟩ =>
      show k1_off2 k 0 ≤ (j 0).val ∧ (j 0).val < k1_off2 k 0 + 16
      omega

/-! ## One trip of the loop -/

/-- One trip: sixteen index words are loaded, halved and stored; the invariant moves from `k` to `k + 1`. -/
theorem step1 (O : CellTallies nD τ sig (HIx 2)) (k : Fin k1_t1_loop.trips) (u : Unit) :
    inv1 (F := F) d L O k.val u
      ⊢ wp frame (wpE (defs₀ (F := F)) 𝒱₀ (thr d L) none) Set.univ
          (k1_t1_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0 k u)
          (inv1 d L O (k.val + 1)) := by
  unfold inv1
  iintro ⟨Hmw, ⟨%X, H0, %hX⟩, %g, H1, %hg⟩
  sl_exec
  sl_step
  isplitl [Hmw]; · iexact Hmw
  isplitl [H0]
  · iexists X; isplitl [H0]
    · iexact H0
    · ipureintro; exact hX
  iexists _; isplitl [H1]
  · iexact H1
  · ipureintro; exact stored_bound (F := F) k X g hX hg

/-! ## After the loop -/

/-- The loop runs 832 trips. -/
theorem trips1 : Scf.trips k1_t1_loop.lb k1_t1_loop.ub k1_t1_loop.st = 832 := by decide

/-- At the loop's exit the bound covers `16 · 832` entries: the whole array. -/
theorem exit1 : 16 * Scf.trips k1_t1_loop.lb k1_t1_loop.ub k1_t1_loop.st = 16 * 832 := by rw [trips1]

/-- When every entry of the second scratch array is at most 499999, every word read through a
    unit-stride slice of it is below 500000: an offset inside the pair table. -/
theorem hin_of (g : S13312.Idx → BitVec 32)
    (hg : ∀ j : S13312.Idx, (j 0).val < 16 * 832 → (g j).toNat ≤ 499999) :
    ∀ (r : Rect S13312) (hr : ∀ a, r.stride a = 1) (x : r.shape.Idx),
      (((s1).slice r hr).view.read (Elt F) g x).toNat < 500000 := by
  intro r hr x
  have h := hg (((s1).slice r hr).view.emb x) (by
    have := (((s1).slice r hr).view.emb x 0).isLt
    exact this)
  exact Nat.lt_succ_of_le h

/-- The same from the invariant at the loop's exit. -/
theorem hin_of_exit (g : S13312.Idx → BitVec 32)
    (hg : ∀ j : S13312.Idx, (j 0).val < 16 * Scf.trips k1_t1_loop.lb k1_t1_loop.ub k1_t1_loop.st → (g j).toNat ≤ 499999) :
    ∀ (r : Rect S13312) (hr : ∀ a, r.stride a = 1) (x : r.shape.Idx),
      (((s1).slice r hr).view.read (Elt F) g x).toNat < 500000 :=
  hin_of (F := F) g (exit1 ▸ hg)

end Cert.Proof.KB.Body1

end
-- ==== Proof.Body1OffC_b.lean ====
/-
  The remaining closed forms of the gather kernel's chains: windows 6 and 7 of a block, the index words an inner trip reads, the trip counts, and the main loop's two conditions as inequalities on the trip number. Decided over the finitely many cases.
-/
import proofs.«204055_g19524921328135_cont_8to1_763_20_alg».proof.Proof.Tiles_b

set_option Elab.async false

namespace Cert.Proof.KB.Body1

open Cert.Kernel Cert.Kernel.Gen Cert.Proof.KB
open Idealize.ShloMosaic

/-- Window 6 of block b = 104·w + 2k + p sits at (b / 128, 6, b % 128, 0, 0). -/
theorem k1_off10_eq : ∀ (L : grid1.Coords) (k : Fin k1_t2_loop.trips) (p : Fin 2),
    k1_off10 L k (BitVec.ofNat 32 p.val) = ![(104 * (2 * (L 1).val + (L 0).val) + 2 * k.val + p.val) / 128, 6, (104 * (2 * (L 1).val + (L 0).val) + 2 * k.val + p.val) % 128, 0, 0] := by
  decide +kernel

/-- Window 7 of block b = 104·w + 2k + p sits at (b / 128, 7, b % 128, 0, 0). -/
theorem k1_off11_eq : ∀ (L : grid1.Coords) (k : Fin k1_t2_loop.trips) (p : Fin 2),
    k1_off11 L k (BitVec.ofNat 32 p.val) = ![(104 * (2 * (L 1).val + (L 0).val) + 2 * k.val + p.val) / 128, 7, (104 * (2 * (L 1).val + (L 0).val) + 2 * k.val + p.val) % 128, 0, 0] := by
  decide +kernel

/-- An inner trip t of block 2k reads the sixteen index words at 128·(2k) + 16·(t / 4); of block 2k + 1 likewise. -/
theorem k1_off3_eq : ∀ (k : Fin k1_t2_loop.trips) (t : Fin k1_t3_loop.trips), k1_off3 k t = ![128 * (2 * k.val) + 16 * (t.val / 4)] := by
  decide +kernel
theorem k1_off13_eq : ∀ (k : Fin k1_t2_loop.trips) (t : Fin k1_t4_loop.trips), k1_off13 k t = ![128 * (2 * k.val + 1) + 16 * (t.val / 4)] := by
  decide +kernel

/-- The loops' trip counts. -/
theorem trips2 : k1_t2_loop.trips = 52 := by decide
theorem trips3 : k1_t3_loop.trips = 32 := by decide
theorem trips4 : k1_t4_loop.trips = 32 := by decide

/-- A further gather is started for the first half of trip k, and for the second, exactly when k is not the last trip. -/
theorem k1_cond2_iff : ∀ k : Fin k1_t2_loop.trips, k1_cond2 k = 1#1 ↔ k.val < 51 := by decide +kernel
theorem k1_cond4_iff : ∀ k : Fin k1_t2_loop.trips, k1_cond4 k = 1#1 ↔ k.val < 51 := by decide +kernel
/-- The "not the first trip" test as the body computes it. -/
theorem gt0_iff : ∀ k : Fin k1_t2_loop.trips,
    Scalar.cmpi .ne (Scalar.extui (Scalar.cmpi .sgt (Scf.iv 0#32 1#32 k) 0#32)) 0#32 = 1#1 ↔ 0 < k.val := by decide +kernel

end Cert.Proof.KB.Body1
-- ==== Proof.Body1Inner_b.lean ====
/-
  The inner transposing loops of the gather kernel's second phase, one trip at a time.

  A trip t of 32 moves one 16 x 16 block of a half of the gathered-lines scratch (128 x 128 words) into the
  matching half of the transposed scratch (64 x 128 words): lane x reads row x + 16·⌊t/4⌋ and, in step s of
  16, column ((x + s) mod 16) + 16·(t mod 4) — in the left or the right 64 columns, as the low bit of the
  lane's index word says — and writes the word read at (that column mod 64, that row). Every index is inside
  the half it addresses, whatever the index words are; a trip leaves the index words and the gathered half
  as they were. First as a frame (the transposed half ends at some contents), then with the contents
  followed: after the 32 trips element (dd, r) of the transposed half is the gathered word of row r at
  column dd of the half that the block's index word r names.
-/
import proofs.«204055_g19524921328135_cont_8to1_763_20_alg».proof.Proof.Body1Idx_b
import proofs.«204055_g19524921328135_cont_8to1_763_20_alg».proof.Proof.Body1OffC_b
import Idealize.ShloMosaic.Lib.ValueIdx

noncomputable section

namespace Cert.Proof.KB.Body1

open Cert.Kernel Cert.Kernel.Gen Cert.Proof.KB
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

namespace Inner

/-- The lane numbering of a 16-lane vector. -/
abbrev lanes : IVec S16 32 := iota .scVector S16 32 [0] iota_S16_d0_w32_scVector

/-! ## The index words of the transposing loop

Trip t of 32 moves the 16 x 16 block (row block ⌊t/4⌋, column block t mod 4) of one half of the gathered
lines: lane x reads row x + 16·⌊t/4⌋, and in step s of 16 the column ((x + s) mod 16) + 16·(t mod 4) of
the half a loaded index word's low bit names (0 or 64 columns further). Every such word is inside the
128 x 128 half it reads and the 64 x 128 half it writes. -/

section Words

/-- Lane x of the lane numbering is x, below 16. -/
theorem lane_lt (x : S16.Idx) : (lanes x).toNat < 16 := by
  have hx : (x 0).val < 16 := (x 0).isLt
  have hs : S16.size 0 = 16 := rfl
  unfold lanes iota
  simp only [List.foldl_cons, List.foldl_nil, BitVec.toNat_ofNat]
  omega

/-- The row block of trip t, 16·⌊t/4⌋, as the kernel computes it: floor division over signed words. -/
def rowBase (t : Nat) : BitVec 32 :=
  let arg14 : BitVec 32 := Scf.iv 0#32 1#32 t
  let v419 : BitVec 32 := Scalar.divsi arg14 4#32
  let v420 : BitVec 1 := Scalar.cmpi .sgt arg14 0#32
  let v421 : BitVec 32 := Scalar.extui v420
  let v422 : BitVec 1 := Scalar.cmpi .slt arg14 0#32
  let v423 : BitVec 32 := Scalar.extui v422
  let v424 : BitVec 32 := Scalar.subi v421 v423
  let v425 : BitVec 1 := Scalar.cmpi .sgt 4#32 0#32
  let v426 : BitVec 32 := Scalar.extui v425
  let v427 : BitVec 1 := Scalar.cmpi .slt 4#32 0#32
  let v428 : BitVec 32 := Scalar.extui v427
  let v429 : BitVec 32 := Scalar.subi v426 v428
  let v430 : BitVec 1 := Scalar.cmpi .ne v424 v429
  let v431 : BitVec 32 := Scalar.remsi arg14 4#32
  let v432 : BitVec 1 := Scalar.cmpi .ne v431 0#32
  let v433 : BitVec 1 := Scalar.andi v430 v432
  let v434 : BitVec 32 := Scalar.subi v419 1#32
  let v435 : BitVec 32 := Scalar.select v433 v434 v419
  Scalar.muli v435 16#32

/-- The column block of trip t, 16·(t mod 4), as the kernel computes it: floor remainder over signed words. -/
def colBase (t : Nat) : BitVec 32 :=
  let arg14 : BitVec 32 := Scf.iv 0#32 1#32 t
  let v436 : BitVec 1 := Scalar.cmpi .eq 4#32 0#32
  let v437 : BitVec 32 := Scalar.select v436 1#32 4#32
  let v438 : BitVec 32 := Scalar.remsi arg14 v437
  let v439 : BitVec 1 := Scalar.cmpi .ne v438 0#32
  let v440 : BitVec 1 := Scalar.cmpi .slt v438 0#32
  let v441 : BitVec 1 := Scalar.cmpi .slt v437 0#32
  let v442 : BitVec 1 := Scalar.xori v440 v441
  let v443 : BitVec 1 := Scalar.andi v442 v439
  let v444 : BitVec 32 := Scalar.addi v438 v437
  let v445 : BitVec 32 := Scalar.select v443 v444 v438
  Scalar.muli v445 16#32

theorem rowBase_le : ∀ t : Fin 32, (rowBase t.val).toNat ≤ 112 := by decide +kernel
theorem colBase_le : ∀ t : Fin 32, (colBase t.val).toNat ≤ 48 := by decide +kernel

/-- A sum of two words whose bounds add up below 2³² is bounded by the sum of the bounds. -/
theorem toNat_addi_le {a b : BitVec 32} {m n : Nat} (ha : a.toNat ≤ m) (hb : b.toNat ≤ n) (h : m + n < 2 ^ 32) :
    (IntOp.addi a b).toNat ≤ m + n := by
  unfold IntOp.addi
  rw [BitVec.toNat_add]
  omega

/-- A word masked by 15 is at most 15. -/
theorem toNat_andi15_le (a : BitVec 32) : (IntOp.andi a 15#32).toNat ≤ 15 := by
  unfold IntOp.andi
  rw [BitVec.toNat_and]
  exact Nat.and_le_right

/-- The low bit of any word moved up six places is 0 or 64. -/
theorem toNat_half_le (w : BitVec 32) : (IntOp.shli .vector (IntOp.andi w 1#32) 6#32).toNat ≤ 64 := by
  have h : (IntOp.andi w 1#32).toNat ≤ 1 := by
    unfold IntOp.andi
    rw [BitVec.toNat_and]
    exact Nat.and_le_right
  have h01 : IntOp.andi w 1#32 = 0#32 ∨ IntOp.andi w 1#32 = 1#32 := by
    rcases Nat.le_one_iff_eq_zero_or_eq_one.1 h with h0 | h1
    · exact Or.inl (BitVec.eq_of_toNat_eq h0)
    · exact Or.inr (BitVec.eq_of_toNat_eq h1)
  rcases h01 with h0 | h1
  · rw [h0]; decide
  · rw [h1]; decide

/-- The row a lane reads in trip t is inside the 128 rows. -/
theorem rowv_lt (t : Fin 32) (x : S16.Idx) : (addi lanes (broadcast S16 (rowBase t.val)) x).toNat < 128 := by
  have h := toNat_addi_le (Nat.le_of_lt_succ (lane_lt x)) (rowBase_le t) (by decide)
  show (IntOp.addi (lanes x) (rowBase t.val)).toNat < 128
  omega

/-- The column a lane writes in step s of trip t is inside the 64 columns of a half. -/
theorem perm_lt (s : BitVec 32) (t : Fin 32) (x : S16.Idx) :
    (addi (andi (addi lanes (broadcast S16 s)) (broadcast S16 15#32)) (broadcast S16 (colBase t.val)) x).toNat < 64 := by
  have h := toNat_addi_le (toNat_andi15_le (IntOp.addi (lanes x) s)) (colBase_le t) (by decide)
  show (IntOp.addi (IntOp.andi (IntOp.addi (lanes x) s) 15#32) (colBase t.val)).toNat < 64
  omega

/-- The column a lane reads in step s of trip t, in the half its index word names, is inside the 128 columns. -/
theorem col_lt (s : BitVec 32) (t : Fin 32) (v : IVec S16 32) (x : S16.Idx) :
    (addi (addi (andi (addi lanes (broadcast S16 s)) (broadcast S16 15#32)) (broadcast S16 (colBase t.val)))
      (shli (andi v (broadcast S16 1#32)) (broadcast S16 6#32)) x).toNat < 128 := by
  have h1 := toNat_addi_le (toNat_andi15_le (IntOp.addi (lanes x) s)) (colBase_le t) (by decide)
  have h := toNat_addi_le h1 (toNat_half_le (v x)) (by decide)
  show (IntOp.addi (IntOp.addi (IntOp.andi (IntOp.addi (lanes x) s) 15#32) (colBase t.val))
    (IntOp.shli .vector (IntOp.andi (v x) 1#32) 6#32)).toNat < 128
  omega

/-- An indexed read of a 128 x 128 half at (row, column) words that are inside it. -/
theorem chk_load {r c : IVec S16 32} (hr : ∀ x, (r x).toNat < 128) (hc : ∀ x, (c x).toNat < 128) :
    ∀ a x, ((![r, c] : Fin 2 → IVec S16 32) a x).toNat < S128x128.size a := by
  intro a x
  match a with
  | ⟨0, _⟩ => exact hr x
  | ⟨1, _⟩ => exact hc x

/-- An indexed write of a 64 x 128 half at (column, row) words that are inside it. -/
theorem chk_store {p r : IVec S16 32} (hp : ∀ x, (p x).toNat < 64) (hr : ∀ x, (r x).toNat < 128) :
    ∀ a x, ((![p, r] : Fin 2 → IVec S16 32) a x).toNat < S64x128.size a := by
  intro a x
  match a with
  | ⟨0, _⟩ => exact hp x
  | ⟨1, _⟩ => exact hr x

end Words

/-- Discharges the in-range assumption of an indexed read or write of trip t (a term of Fin 32). -/
macro "inner_chk" t:term : tactic =>
  `(tactic| first
    | (refine chk_store ?_ ?_; exact fun x => perm_lt _ $t x; exact fun x => rowv_lt $t x)
    | (refine chk_load ?_ ?_; exact fun x => rowv_lt $t x; exact fun x => col_lt _ $t _ x))

/-! ## The two halves of the two scratch arrays, and the indexed read and write of a held half -/

section Rules

variable {κ : Kind} {sp : Space} {s t : Shape} {e : EltTy}

omit [FloatOps F] in
/-- An access through a memref's whole rectangle goes through exactly the memref's own elements. -/
theorem set_access_whole (m : Memref sig κ sp s e) : (m.access (Rect.whole s)).set = m.view.set := by
  show (m.view.slice (Rect.whole s)).set = m.view.set
  rw [View.set_slice, Rect.set_whole]
  rfl

variable {c : Thread nD τ} {α : Type}

/-- The indexed read of a memref whose own elements are held: it continues at the gathered vector, the elements
    still held. -/
theorem wp_loadIdx_own {base : Memref sig c.2.kind .vmem s e} {idxs : Fin s.rank → IVec t 32}
    {h : ∀ a x, (idxs a x).toNat < s.size a} {hl : base.view.Loads}
    {k : Vec F t e → Prog (TpuEff nD τ sig (Elt F) Λ₀ c.2) α} {q : PosShare TreeShare}
    {f : Buf (Elt F) ((base.access (.whole s)).loc c)} {Q : α → sProp 𝕄} :
    ((base.access (.whole s)).loc c ↦[base.view.set]{q} f : sProp 𝕄)
      ⊢ iprop((((base.access (.whole s)).loc c ↦[base.view.set]{q} f)
          -∗ wp frame (wpE (defs₀ (F := F)) 𝒱₀ c none) Set.univ (k (loadIdx ((base.access (.whole s)).read (Elt F) f) idxs h)) Q)
        -∗ wp frame (wpE (defs₀ (F := F)) 𝒱₀ c none) Set.univ (SparseCore.vectorLoadIdx base idxs h hl >>= k) Q) :=
  SparseCore.wp_vectorLoadIdx 𝒱₀ c none Set.univ (Finset.subset_of_eq (set_access_whole base))

/-- The indexed write of a memref whose own elements are held at some contents: it continues holding them at some
    contents. -/
theorem wp_storeIdx_own {dd : Fin 1 → Nat} {base : Memref sig c.2.kind .vmem s e} {idxs : Fin s.rank → IVec ⟨1, dd⟩ 32}
    {v : Vec F ⟨1, dd⟩ e} {mask : IVec ⟨1, dd⟩ 1} {add : Bool} {h : ∀ a x, (idxs a x).toNat < s.size a}
    {hs : (base.access (.whole s)).Stores Finset.univ} {k : PUnit → Prog (TpuEff nD τ sig (Elt F) Λ₀ c.2) α} {Q : α → sProp 𝕄} :
    iprop(∃ f, ((base.access (.whole s)).loc c ↦[base.view.set]{fullShare} f : sProp 𝕄))
      ⊢ iprop(((∃ f, ((base.access (.whole s)).loc c ↦[base.view.set]{fullShare} f : sProp 𝕄))
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro ⟨%f, H⟩ Hk
  ihave H' := (Entails.of_eq (show ((base.access (.whole s)).loc c ↦[base.view.set]{fullShare} f : sProp 𝕄)
      = ((base.access (.whole s)).loc c ↦[(base.access (.whole s)).set]{fullShare} f) from by rw [set_access_whole])) $$ H
  iapply (SparseCore.wp_vectorStoreIdx 𝒱₀ c none Set.univ (base := base) (f := f)) $$ H'
  iintro H'
  iapply Hk
  iexists _
  ihave H := (Entails.of_eq (show ((base.access (.whole s)).loc c ↦[(base.access (.whole s)).set]{fullShare} _ : sProp 𝕄)
      = ((base.access (.whole s)).loc c ↦[base.view.set]{fullShare} _) from by rw [set_access_whole])) $$ H'
  iexact H

end Rules

set_option hygiene false in
/-- One step of a trip: the indexed read of the gathered half (held as HR), then the indexed write of the transposed
    half (held as HT), each followed by the plain steps up to the next one. -/
macro "inner_pair" c:term:max rows:term:max tr:term:max t:term:max : tactic =>
  `(tactic| (
    iapply (wp_loadIdx_own (c := $c) (base := $rows) (q := fullShare)) $$ HR
    iintro HR
    try sl_exec (disch := inner_chk $t)
    iapply (wp_storeIdx_own (c := $c) (base := $tr)) $$ HT
    iintro HT
    try sl_exec (disch := inner_chk $t)))

end Inner

/-! ## The halves of the two scratch arrays, as the kernel names them -/

/-- The first half of the gathered-lines scratch. -/
abbrev rows0 : Memref sig .scVector .vmem S128x128 .f32 :=
  ((s2).slice (Rect.unit (s := S2x128x128) ![0, 0, 0] S1x128x128.size inb_S2x128x128_S1x128x128_0_0_0) (fun _ => rfl)).squeeze S128x128 squeezes_S1x128x128_S128x128
/-- The first half of the transposed scratch. -/
abbrev tr0 : Memref sig .scVector .vmem S64x128 .f32 :=
  ((s3).slice (Rect.unit (s := S2x64x128) ![0, 0, 0] S1x64x128.size inb_S2x64x128_S1x64x128_0_0_0) (fun _ => rfl)).squeeze S64x128 squeezes_S1x64x128_S64x128
/-- The second half of the gathered-lines scratch. -/
abbrev rows1 : Memref sig .scVector .vmem S128x128 .f32 :=
  ((s2).slice (Rect.unit (s := S2x128x128) ![1, 0, 0] S1x128x128.size inb_S2x128x128_S1x128x128_1_0_0) (fun _ => rfl)).squeeze S128x128 squeezes_S1x128x128_S128x128
/-- The second half of the transposed scratch. -/
abbrev tr1 : Memref sig .scVector .vmem S64x128 .f32 :=
  ((s3).slice (Rect.unit (s := S2x64x128) ![1, 0, 0] S1x64x128.size inb_S2x64x128_S1x64x128_1_0_0) (fun _ => rfl)).squeeze S64x128 squeezes_S1x64x128_S64x128

/-! ## One trip, as a frame: what it holds before it holds after -/

open Inner

variable (d : Dev nD) (L : grid1.Coords)

/-- One trip of the transposing loop over the first halves: from the index words whole, the gathered half held by its
    own elements at R and the transposed half held at some contents, back to the same. -/
theorem step3F (k : Fin k1_t2_loop.trips) (v2 v176 : BitVec 32) (t : Fin k1_t3_loop.trips) (u : Unit)
    (X : Buf (Elt F) ((s0).view.loc (thr d L))) (R : Buf (Elt F) ((s2).view.loc (thr d L))) :
    iprop(((s0).view.loc (thr d L) ↦{fullShare} X)
        ∗ ((s2).view.loc (thr d L) ↦[(rows0).view.set]{fullShare} R)
        ∗ (∃ Tt, ((s3).view.loc (thr d L) ↦[(tr0).view.set]{fullShare} Tt)) : sProp 𝕄)
      ⊢ wp frame (wpE (defs₀ (F := F)) 𝒱₀ (thr d L) none) Set.univ
          (k1_t3_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) 0#32 1#32 k v176 t u)
          fun _ => iprop(((s0).view.loc (thr d L) ↦{fullShare} X)
            ∗ ((s2).view.loc (thr d L) ↦[(rows0).view.set]{fullShare} R)
            ∗ (∃ Tt, ((s3).view.loc (thr d L) ↦[(tr0).view.set]{fullShare} Tt))) := by
  obtain ⟨j, hj⟩ := t
  unfold k1_t3_body
  iintro ⟨H0, HR, HT⟩
  sl_exec (disch := inner_chk (⟨j, hj⟩ : Fin 32))
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  inner_pair (thr d L) rows0 tr0 (⟨j, hj⟩ : Fin 32)
  rw [wp_ret]
  imodintro
  isplitl [H0]
  · iexact H0
  isplitl [HR]
  · iexact HR
  iexact HT

/-- One trip of the transposing loop over the second halves: from the index words whole, the gathered half held by its
    own elements at R and the transposed half held at some contents, back to the same. -/
theorem step4F (k : Fin k1_t2_loop.trips) (v2 v298 : BitVec 32) (v305 : BitVec 1) (t : Fin k1_t4_loop.trips) (u : Unit)
    (X : Buf (Elt F) ((s0).view.loc (thr d L))) (R : Buf (Elt F) ((s2).view.loc (thr d L))) :
    iprop(((s0).view.loc (thr d L) ↦{fullShare} X)
        ∗ ((s2).view.loc (thr d L) ↦[(rows1).view.set]{fullShare} R)
        ∗ (∃ Tt, ((s3).view.loc (thr d L) ↦[(tr1).view.set]{fullShare} Tt)) : sProp 𝕄)
      ⊢ wp frame (wpE (defs₀ (F := F)) 𝒱₀ (thr d L) none) Set.univ
          (k1_t4_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k v298 v305 t u)
          fun _ => iprop(((s0).view.loc (thr d L) ↦{fullShare} X)
            ∗ ((s2).view.loc (thr d L) ↦[(rows1).view.set]{fullShare} R)
            ∗ (∃ Tt, ((s3).view.loc (thr d L) ↦[(tr1).view.set]{fullShare} Tt))) := by
  obtain ⟨j, hj⟩ := t
  unfold k1_t4_body
  iintro ⟨H0, HR, HT⟩
  sl_exec (disch := inner_chk (⟨j, hj⟩ : Fin 32))
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  inner_pair (thr d L) rows1 tr1 (⟨j, hj⟩ : Fin 32)
  rw [wp_ret]
  imodintro
  isplitl [H0]
  · iexact H0
  isplitl [HR]
  · iexact HR
  iexact HT

namespace Inner

/-! ## The words exactly, and one indexed write read back -/

section Exact

/-- Lane x of the lane numbering is x. -/
theorem lane_val (x : S16.Idx) : (lanes x).toNat = (x 0).val := by
  have hx : (x 0).val < 16 := (x 0).isLt
  have hs : S16.size 0 = 16 := rfl
  unfold lanes iota
  simp only [List.foldl_cons, List.foldl_nil, BitVec.toNat_ofNat]
  omega

theorem rowBase_val : ∀ t : Fin 32, (rowBase t.val).toNat = 16 * (t.val / 4) := by decide +kernel
theorem colBase_val : ∀ t : Fin 32, (colBase t.val).toNat = 16 * (t.val % 4) := by decide +kernel

/-- The rows the lanes read in trip t. -/
def rowV (t : Nat) : IVec S16 32 := addi lanes (broadcast S16 (rowBase t))
/-- The columns the lanes write in step s of trip t. -/
def permV (s : BitVec 32) (t : Nat) : IVec S16 32 :=
  addi (andi (addi lanes (broadcast S16 s)) (broadcast S16 15#32)) (broadcast S16 (colBase t))
/-- The half of the gathered line each lane's index word names: 0 or 64 columns. -/
def halfV (w : IVec S16 32) : IVec S16 32 := shli (andi w (broadcast S16 1#32)) (broadcast S16 6#32)

theorem rowV_val (t : Fin 32) (x : S16.Idx) : (rowV t.val x).toNat = (x 0).val + 16 * (t.val / 4) := by
  have hx : (x 0).val < 16 := (x 0).isLt
  have h1 := lane_val x
  have h2 := rowBase_val t
  show (IntOp.addi (lanes x) (rowBase t.val)).toNat = _
  unfold IntOp.addi
  rw [BitVec.toNat_add, h1, h2]
  omega

theorem permV_val (s : Nat) (hs : s < 16) (t : Fin 32) (x : S16.Idx) :
    (permV (BitVec.ofNat 32 s) t.val x).toNat = ((x 0).val + s) % 16 + 16 * (t.val % 4) := by
  have hx : (x 0).val < 16 := (x 0).isLt
  have h1 := lane_val x
  have h2 := colBase_val t
  show (IntOp.addi (IntOp.andi (IntOp.addi (lanes x) (BitVec.ofNat 32 s)) 15#32) (colBase t.val)).toNat = _
  unfold IntOp.addi IntOp.andi
  rw [BitVec.toNat_add, BitVec.toNat_and, BitVec.toNat_add, h1, h2, BitVec.toNat_ofNat,
    show (15#32 : BitVec 32).toNat = 2 ^ 4 - 1 from rfl, Nat.and_two_pow_sub_one_eq_mod]
  omega

theorem halfV_val (w : IVec S16 32) (x : S16.Idx) : (halfV w x).toNat = 64 * ((w x).toNat % 2) := by
  show (IntOp.shli .vector (IntOp.andi (w x) 1#32) 6#32).toNat = _
  have h : (IntOp.andi (w x) 1#32).toNat = (w x).toNat % 2 := by
    unfold IntOp.andi
    rw [BitVec.toNat_and, show (1#32 : BitVec 32).toNat = 2 ^ 1 - 1 from rfl, Nat.and_two_pow_sub_one_eq_mod]
  have h01 : IntOp.andi (w x) 1#32 = 0#32 ∨ IntOp.andi (w x) 1#32 = 1#32 := by
    have hlt : (w x).toNat % 2 < 2 := Nat.mod_lt _ (by decide)
    rcases Nat.le_one_iff_eq_zero_or_eq_one.1 (Nat.le_of_lt_succ (h ▸ hlt)) with h0 | h1
    · exact Or.inl (BitVec.eq_of_toNat_eq h0)
    · exact Or.inr (BitVec.eq_of_toNat_eq h1)
  rcases h01 with h0 | h1
  · rw [← h, h0]; decide
  · rw [← h, h1]; decide

/-- A left fold of point updates read back at j, when every update at j carries the same value a: a if some update
    is at j, the starting value otherwise. -/
theorem foldl_update_apply {ι σ β : Type} [DecidableEq σ] (idx : ι → σ) (val : ι → β) (j : σ) (a : β)
    (hv : ∀ k, idx k = j → val k = a) :
    ∀ (l : List ι) (g : σ → β),
      (l.foldl (fun g k j' => if idx k = j' then val k else g j') g) j = if ∃ k ∈ l, idx k = j then a else g j := by
  intro l
  induction l with
  | nil => intro g; simp
  | cons k l ih =>
    intro g
    rw [List.foldl_cons, ih]
    by_cases h1 : ∃ k' ∈ l, idx k' = j
    · have h3 : ∃ k'' ∈ k :: l, idx k'' = j := let ⟨k', hk', e'⟩ := h1; ⟨k', List.mem_cons_of_mem _ hk', e'⟩
      rw [if_pos h1, if_pos h3]
    · rw [if_neg h1]
      by_cases h2 : idx k = j
      · have h3 : ∃ k'' ∈ k :: l, idx k'' = j := ⟨k, List.mem_cons_self, h2⟩
        rw [if_pos h3]
        show (if idx k = j then val k else g j) = a
        rw [if_pos h2]
        exact hv k h2
      · have h3 : ¬ ∃ k'' ∈ k :: l, idx k'' = j := by
          rintro ⟨k', hk', e'⟩
          rcases List.mem_cons.1 hk' with rfl | hk'
          · exact h2 e'
          · exact h1 ⟨k', hk', e'⟩
        rw [if_neg h3]
        show (if idx k = j then val k else g j) = g j
        rw [if_neg h2]

variable {s : Shape} {e : EltTy} {dd : Fin 1 → Nat}

/-- An unmasked indexed write read back at an index j, when every lane that names j carries the same value a:
    a if some lane names j, the old value otherwise. -/
theorem storeIdx_apply (f : Vec F s e) (idxs : Fin s.rank → IVec ⟨1, dd⟩ 32) (v : Vec F ⟨1, dd⟩ e)
    (h : ∀ a x, (idxs a x).toNat < s.size a) (j : s.Idx) (a : Elt F e)
    (hv : ∀ k : Fin (dd 0), idxAt idxs h (Shape.ofLane k) = j → v (Shape.ofLane k) = a) :
    storeIdx f idxs v (fun _ => 1#1) false h j
      = if ∃ k : Fin (dd 0), idxAt idxs h (Shape.ofLane k) = j then a else f j := by
  have hfold : storeIdx f idxs v (fun _ => 1#1) false h
      = (List.finRange (dd 0)).foldl (fun g k j' => if idxAt idxs h (Shape.ofLane k) = j' then v (Shape.ofLane k) else g j') f := by
    unfold storeIdx
    congr 1
    funext g k j'
    have hiff : (∀ a, (j' a).val = (idxAt idxs h (Shape.ofLane k) a).val) ↔ idxAt idxs h (Shape.ofLane k) = j' :=
      ⟨fun hh => funext fun a => Fin.ext (hh a).symm, fun hh a => by rw [hh]⟩
    dsimp only
    rw [if_pos (show (1#1 : BitVec 1) = 1 from rfl)]
    rw [if_neg (show ¬ (false = true) from by decide)]
    by_cases hc : idxAt idxs h (Shape.ofLane k) = j'
    · rw [if_pos hc, if_pos (hiff.2 hc)]
    · rw [if_neg hc, if_neg (fun hh => hc (hiff.1 hh))]
  rw [hfold, foldl_update_apply (fun k : Fin (dd 0) => idxAt idxs h (Shape.ofLane k)) (fun k => v (Shape.ofLane k)) j a hv]
  by_cases hex : ∃ k : Fin (dd 0), idxAt idxs h (Shape.ofLane k) = j
  · have hex' : ∃ k ∈ List.finRange (dd 0), idxAt idxs h (Shape.ofLane k) = j :=
      let ⟨k, hk⟩ := hex; ⟨k, List.mem_finRange k, hk⟩
    rw [if_pos hex, if_pos hex']
  · have hex' : ¬ ∃ k ∈ List.finRange (dd 0), idxAt idxs h (Shape.ofLane k) = j :=
      fun ⟨k, _, hk⟩ => hex ⟨k, hk⟩
    rw [if_neg hex, if_neg hex']

end Exact

/-! ## One trip on the arrays -/

section Trip

open Idealize.ShloMosaic.ValueIdx

/-- Whether element (dd, r) of the transposed half is written by the first n steps of trip t: it lies in the
    trip's 16 x 16 block, and the step that reaches it, (dd − r) mod 16, is among them. -/
def Done (t n : Nat) (dd : Fin 64) (r : Fin 128) : Prop :=
  r.val / 16 = t / 4 ∧ dd.val / 16 = t % 4 ∧ (dd.val % 16 + 16 - r.val % 16) % 16 < n

instance (t n : Nat) (dd : Fin 64) (r : Fin 128) : Decidable (Done t n dd r) := by unfold Done; infer_instance

/-- Column dd of the left or the right 64 columns of a gathered line, as the parity of b says. -/
def colOf (dd : Fin 64) (b : Nat) : Fin 128 := ⟨dd.val + 64 * (b % 2), by have := dd.isLt; omega⟩

/-- What a trip writes at (dd, r): the gathered word of row r at column dd of the half (the left or the right 64
    columns) that the index word of lane r mod 16 names by its low bit. -/
def src (w : IVec S16 32) (Rr : Vec F S128x128 .f32) (dd : Fin 64) (r : Fin 128) : Elt F .f32 :=
  Rr (ix2 r (colOf dd (w (ix1 (⟨r.val % 16, Nat.mod_lt _ (by decide)⟩ : Fin 16))).toNat))

/-- The transposed half after n steps of trip t from G0: the elements written so far hold their gathered words, the
    others what G0 held. -/
def PartDone (t : Nat) (w : IVec S16 32) (Rr : Vec F S128x128 .f32) (G0 : Vec F S64x128 .f32) (n : Nat)
    (G : Vec F S64x128 .f32) : Prop :=
  ∀ (dd : Fin 64) (r : Fin 128), G (ix2 dd r) = if Done t n dd r then src w Rr dd r else G0 (ix2 dd r)

theorem partDone_zero (t : Nat) (w : IVec S16 32) (Rr : Vec F S128x128 .f32) (G0 : Vec F S64x128 .f32) :
    PartDone t w Rr G0 0 G0 := fun dd r => by
  rw [if_neg]
  unfold Done
  omega

/-- The coordinate of a lane. -/
theorem ofLane_val (k : Fin 16) : ((Shape.ofLane (d := ![16]) k) 0).val = k.val := rfl

/-- Which lane of step s of trip t names element (dd, r), if any: lane r mod 16, when (dd, r) is in the trip's block
    and s is the step that reaches it. -/
theorem names_iff (t : Fin 32) (s : Nat) (hs : s < 16) (dd : Fin 64) (r : Fin 128)
    (h2 : ∀ a x, ((![permV (BitVec.ofNat 32 s) t.val, rowV t.val] : Fin 2 → IVec S16 32) a x).toNat < S64x128.size a)
    (k : Fin 16) :
    idxAt ![permV (BitVec.ofNat 32 s) t.val, rowV t.val] h2 (Shape.ofLane (d := ![16]) k) = ix2 dd r
      ↔ k.val + 16 * (t.val / 4) = r.val ∧ (k.val + s) % 16 + 16 * (t.val % 4) = dd.val := by
  constructor
  · intro e
    have e0 : (permV (BitVec.ofNat 32 s) t.val (Shape.ofLane (d := ![16]) k)).toNat = dd.val :=
      congrArg (fun j : S64x128.Idx => (j 0).val) e
    have e1 : (rowV t.val (Shape.ofLane (d := ![16]) k)).toNat = r.val :=
      congrArg (fun j : S64x128.Idx => (j 1).val) e
    rw [permV_val s hs t, ofLane_val] at e0
    rw [rowV_val t, ofLane_val] at e1
    exact ⟨e1, e0⟩
  · rintro ⟨e1, e0⟩
    funext a
    refine Fin.ext ?_
    match a with
    | ⟨0, _⟩ =>
      show (permV (BitVec.ofNat 32 s) t.val (Shape.ofLane (d := ![16]) k)).toNat = dd.val
      rw [permV_val s hs t, ofLane_val]; exact e0
    | ⟨1, _⟩ =>
      show (rowV t.val (Shape.ofLane (d := ![16]) k)).toNat = r.val
      rw [rowV_val t, ofLane_val]; exact e1

/-- One step of a trip: the indexed write of step s, of the words its indexed read gathers, moves the transposed half
    from s steps done to s + 1. -/
theorem step_spec (t : Fin 32) (w : IVec S16 32) (Rr : Vec F S128x128 .f32) (G0 G : Vec F S64x128 .f32)
    (s : Nat) (hs : s < 16)
    (h1 : ∀ a x, ((![rowV t.val, addi (permV (BitVec.ofNat 32 s) t.val) (halfV w)] : Fin 2 → IVec S16 32) a x).toNat < S128x128.size a)
    (h2 : ∀ a x, ((![permV (BitVec.ofNat 32 s) t.val, rowV t.val] : Fin 2 → IVec S16 32) a x).toNat < S64x128.size a)
    (hG : PartDone t.val w Rr G0 s G) :
    PartDone t.val w Rr G0 (s + 1)
      (storeIdx G ![permV (BitVec.ofNat 32 s) t.val, rowV t.val]
        (loadIdx Rr ![rowV t.val, addi (permV (BitVec.ofNat 32 s) t.val) (halfV w)] h1) (fun _ => 1#1) false h2) := by
  intro dd r
  have hdd := dd.isLt
  have hr := r.isLt
  have hv : ∀ k : Fin 16, idxAt ![permV (BitVec.ofNat 32 s) t.val, rowV t.val] h2 (Shape.ofLane (d := ![16]) k) = ix2 dd r →
      loadIdx Rr ![rowV t.val, addi (permV (BitVec.ofNat 32 s) t.val) (halfV w)] h1 (Shape.ofLane (d := ![16]) k) = src w Rr dd r := by
    intro k e
    obtain ⟨e1, e0⟩ := (names_iff t s hs dd r h2 k).1 e
    have hk := k.isLt
    have hx : Shape.ofLane (d := ![16]) k = ix1 (⟨r.val % 16, Nat.mod_lt _ (by decide)⟩ : Fin 16) := by
      funext a
      match a with
      | ⟨0, _⟩ => exact Fin.ext (by show k.val = r.val % 16; omega)
    unfold loadIdx src
    congr 1
    funext a
    refine Fin.ext ?_
    match a with
    | ⟨0, _⟩ =>
      show (rowV t.val (Shape.ofLane (d := ![16]) k)).toNat = r.val
      rw [rowV_val t, ofLane_val]; exact e1
    | ⟨1, _⟩ =>
      show (IntOp.addi (permV (BitVec.ofNat 32 s) t.val (Shape.ofLane (d := ![16]) k)) (halfV w (Shape.ofLane (d := ![16]) k))).toNat
        = dd.val + 64 * ((w (ix1 (⟨r.val % 16, Nat.mod_lt _ (by decide)⟩ : Fin 16))).toNat % 2)
      unfold IntOp.addi
      rw [BitVec.toNat_add, permV_val s hs t, halfV_val, ofLane_val, hx]
      omega
  rw [storeIdx_apply G _ _ h2 (ix2 dd r) (src w Rr dd r) hv, hG dd r]
  by_cases hex : ∃ k : Fin ((![16] : Fin 1 → ℕ) 0), idxAt ![permV (BitVec.ofNat 32 s) t.val, rowV t.val] h2 (Shape.ofLane (d := ![16]) k) = ix2 dd r
  · obtain ⟨k, e⟩ := hex
    obtain ⟨e1, e0⟩ := (names_iff t s hs dd r h2 k).1 e
    have hk := k.isLt
    have hd : Done t.val (s + 1) dd r := by unfold Done; omega
    rw [if_pos ⟨k, e⟩, if_pos hd]
  · rw [if_neg hex]
    by_cases hd : Done t.val s dd r
    · have hd' : Done t.val (s + 1) dd r := by unfold Done at hd ⊢; omega
      rw [if_pos hd, if_pos hd']
    · have hd' : ¬ Done t.val (s + 1) dd r := by
        intro hd'
        unfold Done at hd hd'
        refine hex ⟨⟨r.val % 16, Nat.mod_lt _ (by decide)⟩, (names_iff t s hs dd r h2 _).2 ⟨?_, ?_⟩⟩
        · show r.val % 16 + 16 * (t.val / 4) = r.val; omega
        · show (r.val % 16 + s) % 16 + 16 * (t.val % 4) = dd.val; omega
      rw [if_neg hd, if_neg hd']

/-- A whole trip: sixteen steps done, the trip's block holds its gathered words and every other element what G0 held. -/
theorem partDone_full (t : Nat) (w : IVec S16 32) (Rr : Vec F S128x128 .f32) (G0 G : Vec F S64x128 .f32)
    (h : PartDone t w Rr G0 16 G) (dd : Fin 64) (r : Fin 128) :
    G (ix2 dd r) = if r.val / 16 = t / 4 ∧ dd.val / 16 = t % 4 then src w Rr dd r else G0 (ix2 dd r) := by
  rw [h dd r]
  by_cases hb : r.val / 16 = t / 4 ∧ dd.val / 16 = t % 4
  · rw [if_pos hb, if_pos (by unfold Done; omega)]
  · rw [if_neg hb, if_neg (by unfold Done; omega)]

end Trip

/-! ## The indexed write of a held half, its contents followed -/

section ValueRules

variable {κ : Kind} {sp : Space} {s : Shape} {e : EltTy}

omit [FloatOps F] in
/-- Reading through a memref's whole rectangle reads what the memref reads. -/
theorem read_access_whole' (Val : EltTy → Type) (m : Memref sig κ sp s e) (f : m.view.ty.Contents Val) :
    (m.access (Rect.whole s)).read Val f = m.view.read Val f := by
  funext x
  show _root_.cast _ (f (m.view.emb ((Rect.whole s).emb x))) = _root_.cast _ (f (m.view.emb x))
  rw [Rect.emb_whole_apply]

variable {c : Thread nD τ} {α : Type}

/-- The indexed write of a memref whose own elements are held at contents that, read through the memref, satisfy P:
    it continues holding them at contents that satisfy P', when the write takes every array of P to one of P'. -/
theorem wp_storeIdx_val {dd : Fin 1 → Nat} {base : Memref sig c.2.kind .vmem s e} {idxs : Fin s.rank → IVec ⟨1, dd⟩ 32}
    {v : Vec F ⟨1, dd⟩ e} {mask : IVec ⟨1, dd⟩ 1} {add : Bool} {h : ∀ a x, (idxs a x).toNat < s.size a}
    {hs : (base.access (.whole s)).Stores Finset.univ} {k : PUnit → Prog (TpuEff nD τ sig (Elt F) Λ₀ c.2) α}
    {Q : α → sProp 𝕄} (P P' : Vec F s e → Prop) (hPP' : ∀ G, P G → P' (storeIdx G idxs v mask add h)) :
    iprop(∃ f, ((base.access (.whole s)).loc c ↦[base.view.set]{fullShare} f : sProp 𝕄) ∗ ⌜P (base.view.read (Elt F) f)⌝)
      ⊢ iprop(((∃ f, ((base.access (.whole s)).loc c ↦[base.view.set]{fullShare} f : sProp 𝕄) ∗ ⌜P' (base.view.read (Elt F) f)⌝)
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  iintro ⟨%f, H, %hP⟩ Hk
  ihave H' := (Entails.of_eq (show ((base.access (.whole s)).loc c ↦[base.view.set]{fullShare} f : sProp 𝕄)
      = ((base.access (.whole s)).loc c ↦[(base.access (.whole s)).set]{fullShare} f) from by rw [set_access_whole])) $$ H
  iapply (SparseCore.wp_vectorStoreIdx 𝒱₀ c none Set.univ (base := base) (f := f)) $$ H'
  iintro H'
  iapply Hk
  iexists _
  isplitl [H']
  · ihave H := (Entails.of_eq (show ((base.access (.whole s)).loc c ↦[(base.access (.whole s)).set]{fullShare} _ : sProp 𝕄)
        = ((base.access (.whole s)).loc c ↦[base.view.set]{fullShare} _) from by rw [set_access_whole])) $$ H'
    iexact H
  · ipureintro
    have e1 := (read_access_whole' (Elt F) base
        ((base.access (.whole s)).write (Elt F) f
          (storeIdx ((base.access (.whole s)).read (Elt F) f) idxs v mask add h) Finset.univ)).symm.trans
      ((View.read_write_univ _ _).trans
        (congrArg (fun g => storeIdx g idxs v mask add h) (read_access_whole' (Elt F) base f)))
    rw [e1]
    exact hPP' _ hP

/-- Held contents that satisfy P, as "some contents that satisfy P". -/
theorem held_val_intro {base : Memref sig c.2.kind .vmem s e} (P : Vec F s e → Prop)
    (f : Buf (Elt F) ((base.access (.whole s)).loc c)) (hP : P (base.view.read (Elt F) f)) :
    ((base.access (.whole s)).loc c ↦[base.view.set]{fullShare} f : sProp 𝕄)
      ⊢ iprop(∃ f, ((base.access (.whole s)).loc c ↦[base.view.set]{fullShare} f : sProp 𝕄) ∗ ⌜P (base.view.read (Elt F) f)⌝) := by
  iintro H
  iexists f
  isplitl [H]
  · iexact H
  · ipureintro; exact hP

end ValueRules

/-! ## The trips in sequence -/

section Loop

open Idealize.ShloMosaic.ValueIdx

/-- The 128 index words of a block of the tile lie inside the tile's 13312. -/
theorem blk_le0 (k : Fin k1_t2_loop.trips) : 128 * (2 * k.val) + 128 ≤ 13312 := by
  have h := k.isLt
  have h52 : k1_t2_loop.trips = 52 := trips2
  omega
theorem blk_le1 (k : Fin k1_t2_loop.trips) : 128 * (2 * k.val + 1) + 128 ≤ 13312 := by
  have h := k.isLt
  have h52 : k1_t2_loop.trips = 52 := trips2
  omega

/-- The transposed half before trip t: every element of a block before t holds its gathered word — row r's word at
    column dd of the half that index word B + r names. -/
def Upto (B : Nat) (hB : B + 128 ≤ 13312) (X : S13312.Idx → BitVec 32) (Rr : Vec F S128x128 .f32) (t : Nat)
    (G : Vec F S64x128 .f32) : Prop :=
  ∀ (dd : Fin 64) (r : Fin 128), 4 * (r.val / 16) + dd.val / 16 < t →
    G (ix2 dd r) = Rr (ix2 r (colOf dd (X (ix1 (⟨B + r.val, by have := r.isLt; omega⟩ : Fin 13312))).toNat))

theorem upto_zero (B : Nat) (hB : B + 128 ≤ 13312) (X : S13312.Idx → BitVec 32) (Rr : Vec F S128x128 .f32)
    (G : Vec F S64x128 .f32) : Upto B hB X Rr 0 G := fun _ _ h => absurd h (Nat.not_lt_zero _)

/-- A whole trip, whose index words are the sixteen at B + 16·⌊t/4⌋, moves the transposed half from "before t" to
    "before t + 1". -/
theorem upto_step (B : Nat) (hB : B + 128 ≤ 13312) (X : S13312.Idx → BitVec 32) (Rr : Vec F S128x128 .f32)
    (t : Fin 32) (w : IVec S16 32)
    (hw : ∀ x : Fin 16, w (ix1 x) = X (ix1 (⟨B + 16 * (t.val / 4) + x.val, by have := x.isLt; have := t.isLt; omega⟩ : Fin 13312)))
    (G0 G : Vec F S64x128 .f32) (hU : Upto B hB X Rr t.val G0) (hP : PartDone t.val w Rr G0 16 G) :
    Upto B hB X Rr (t.val + 1) G := by
  intro dd r hlt
  have hdd := dd.isLt
  have hr := r.isLt
  rw [partDone_full t.val w Rr G0 G hP dd r]
  by_cases hb : r.val / 16 = t.val / 4 ∧ dd.val / 16 = t.val % 4
  · rw [if_pos hb]
    unfold src
    rw [hw ⟨r.val % 16, Nat.mod_lt _ (by decide)⟩]
    have hi : (⟨B + 16 * (t.val / 4) + (⟨r.val % 16, Nat.mod_lt _ (by decide)⟩ : Fin 16).val, by
        have := t.isLt; have : r.val % 16 < 16 := Nat.mod_lt _ (by decide); show B + 16 * (t.val / 4) + r.val % 16 < 13312; omega⟩ : Fin 13312)
        = ⟨B + r.val, by omega⟩ := Fin.ext (by show B + 16 * (t.val / 4) + r.val % 16 = B + r.val; omega)
    rw [hi]
  · rw [if_neg hb]
    exact hU dd r (by omega)

/-- Every element of the transposed half lies in a block before trip 32. -/
theorem upto_all (B : Nat) (hB : B + 128 ≤ 13312) (X : S13312.Idx → BitVec 32) (Rr : Vec F S128x128 .f32)
    (G : Vec F S64x128 .f32) (h : Upto B hB X Rr 32 G) (dd : Fin 64) (r : Fin 128) :
    G (ix2 dd r) = Rr (ix2 r (colOf dd (X (ix1 (⟨B + r.val, by have := r.isLt; omega⟩ : Fin 13312))).toNat)) :=
  h dd r (by have := dd.isLt; have := r.isLt; omega)

/-- The sixteen index words a trip of the first half reads. -/
theorem window3 (k : Fin k1_t2_loop.trips) (t : Fin k1_t3_loop.trips) (X : (s0).view.ty.Contents (Elt F)) (x : Fin 16) :
    (s0).view.readAt (Elt F) (Rect.unit (s := S13312) (k1_off3 k t) S16.size (k1_off3_inb k t)).toLoadRect X (ix1 x)
      = X (ix1 (⟨128 * (2 * k.val) + 16 * (t.val / 4) + x.val, by
          have := x.isLt; have := t.isLt; have := blk_le0 k; have h32 : k1_t3_loop.trips = 32 := trips3; omega⟩ : Fin 13312)) := by
  show X ((Rect.unit (s := S13312) (k1_off3 k t) S16.size (k1_off3_inb k t)).toLoadRect.idx (ix1 x)) = _
  congr 1
  funext a
  match a with
  | ⟨0, _⟩ =>
    refine Fin.ext ?_
    show k1_off3 k t 0 + 1 * x.val = 128 * (2 * k.val) + 16 * (t.val / 4) + x.val
    rw [k1_off3_eq k t]
    show 128 * (2 * k.val) + 16 * (t.val / 4) + 1 * x.val = _
    omega

/-- The sixteen index words a trip of the second half reads. -/
theorem window4 (k : Fin k1_t2_loop.trips) (t : Fin k1_t4_loop.trips) (X : (s0).view.ty.Contents (Elt F)) (x : Fin 16) :
    (s0).view.readAt (Elt F) (Rect.unit (s := S13312) (k1_off13 k t) S16.size (k1_off13_inb k t)).toLoadRect X (ix1 x)
      = X (ix1 (⟨128 * (2 * k.val + 1) + 16 * (t.val / 4) + x.val, by
          have := x.isLt; have := t.isLt; have := blk_le1 k; have h32 : k1_t4_loop.trips = 32 := trips4; omega⟩ : Fin 13312)) := by
  show X ((Rect.unit (s := S13312) (k1_off13 k t) S16.size (k1_off13_inb k t)).toLoadRect.idx (ix1 x)) = _
  congr 1
  funext a
  match a with
  | ⟨0, _⟩ =>
    refine Fin.ext ?_
    show k1_off13 k t 0 + 1 * x.val = 128 * (2 * k.val + 1) + 16 * (t.val / 4) + x.val
    rw [k1_off13_eq k t]
    show 128 * (2 * k.val + 1) + 16 * (t.val / 4) + 1 * x.val = _
    omega

end Loop

set_option hygiene false in
/-- One step of a trip with the transposed half's contents followed: the indexed read of the gathered half (held as
    HR), then the indexed write of the transposed half (held as HT at some contents whose array has s steps done). -/
macro "inner_pairV" c:term:max rows:term:max tr:term:max t:term:max j:term:max W:term:max RR:term:max G0:term:max s:term:max : tactic =>
  `(tactic| (
    iapply (wp_loadIdx_own (c := $c) (base := $rows) (q := fullShare)) $$ HR
    iintro HR
    try sl_exec (disch := inner_chk $t)
    iapply (wp_storeIdx_val (c := $c) (base := $tr) (PartDone $j $W $RR $G0 $s) (PartDone $j $W $RR $G0 ($s + 1))
      (fun G hG => step_spec $t $W $RR $G0 G $s (by decide)
        (chk_load (fun x => rowv_lt $t x) (fun x => col_lt (BitVec.ofNat 32 $s) $t $W x))
        (chk_store (fun x => perm_lt (BitVec.ofNat 32 $s) $t x) (fun x => rowv_lt $t x)) hG)) $$ HT
    iintro HT
    try sl_exec (disch := inner_chk $t)))

end Inner

open Inner

/-! ## The transposing loops with the transposed halves' contents followed -/

/-- Before trip t of the first half's loop: the index words X and the gathered half R as they were; the transposed
    half at contents whose blocks before t hold their gathered words. -/
def inv3V (d : Dev nD) (L : grid1.Coords) (k : Fin k1_t2_loop.trips) (X : Buf (Elt F) ((s0).view.loc (thr d L)))
    (R : Buf (Elt F) ((s2).view.loc (thr d L))) (t : Nat) (_ : Unit) : sProp 𝕄 :=
  iprop(((s0).view.loc (thr d L) ↦{fullShare} X)
    ∗ ((s2).view.loc (thr d L) ↦[(rows0).view.set]{fullShare} R)
    ∗ (∃ Tt, ((s3).view.loc (thr d L) ↦[(tr0).view.set]{fullShare} Tt)
        ∗ ⌜Upto (128 * (2 * k.val)) (blk_le0 k) X ((rows0).view.read (Elt F) R) t ((tr0).view.read (Elt F) Tt)⌝))

/-- The same for the second half's loop. -/
def inv4V (d : Dev nD) (L : grid1.Coords) (k : Fin k1_t2_loop.trips) (X : Buf (Elt F) ((s0).view.loc (thr d L)))
    (R : Buf (Elt F) ((s2).view.loc (thr d L))) (t : Nat) (_ : Unit) : sProp 𝕄 :=
  iprop(((s0).view.loc (thr d L) ↦{fullShare} X)
    ∗ ((s2).view.loc (thr d L) ↦[(rows1).view.set]{fullShare} R)
    ∗ (∃ Tt, ((s3).view.loc (thr d L) ↦[(tr1).view.set]{fullShare} Tt)
        ∗ ⌜Upto (128 * (2 * k.val + 1)) (blk_le1 k) X ((rows1).view.read (Elt F) R) t ((tr1).view.read (Elt F) Tt)⌝))

set_option maxHeartbeats 4000000 in
/-- One trip of the first half's loop moves its invariant from t to t + 1. -/
theorem step3V (k : Fin k1_t2_loop.trips) (v2 v176 : BitVec 32)
    (X : Buf (Elt F) ((s0).view.loc (thr d L))) (R : Buf (Elt F) ((s2).view.loc (thr d L)))
    (t : Fin k1_t3_loop.trips) (u : Unit) :
    inv3V (F := F) d L k X R t.val u
      ⊢ wp frame (wpE (defs₀ (F := F)) 𝒱₀ (thr d L) none) Set.univ
          (k1_t3_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) 0#32 1#32 k v176 t u)
          (inv3V (F := F) d L k X R (t.val + 1)) := by
  obtain ⟨j, hj⟩ := t
  unfold inv3V k1_t3_body
  iintro ⟨H0, HR, %Tt, HT, %hU⟩
  sl_exec (disch := inner_chk (⟨j, hj⟩ : Fin 32))
  ihave HT := (held_val_intro (F := F) (c := thr d L) (base := tr0) (PartDone j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 0) Tt
    (partDone_zero j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt))) $$ HT
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 0
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 1
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 2
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 3
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 4
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 5
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 6
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 7
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 8
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 9
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 10
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 11
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 12
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 13
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 14
  inner_pairV (thr d L) rows0 tr0 (⟨j, hj⟩ : Fin 32) j ((s0).view.readAt (Elt F) (Rect.unit (s := S13312) (k1_off3 k ⟨j, hj⟩) S16.size (k1_off3_inb k ⟨j, hj⟩)).toLoadRect X) ((rows0.access (Rect.whole S128x128)).read (Elt F) R) ((tr0).view.read (Elt F) Tt) 15
  rw [wp_ret]
  imodintro
  isplitl [H0]
  · iexact H0
  isplitl [HR]
  · iexact HR
  icases HT with ⟨%Tt', HT, %hP⟩
  iexists Tt'
  isplitl [HT]
  · iexact HT
  · ipureintro
    have hU' : Upto (128 * (2 * k.val)) (blk_le0 k) X ((rows0.access (Rect.whole S128x128)).read (Elt F) R) j ((tr0).view.read (Elt F) Tt) := by
      rw [read_access_whole' (Elt F) rows0 R]; exact hU
    have h := upto_step (128 * (2 * k.val)) (blk_le0 k) X ((rows0.access (Rect.whole S128x128)).read (Elt F) R) (⟨j, hj⟩ : Fin 32) ((s0).view.readAt (Elt F) (Rect.unit (s := S13312) (k1_off3 k ⟨j, hj⟩) S16.size (k1_off3_inb k ⟨j, hj⟩)).toLoadRect X) (fun x => window3 (F := F) k ⟨j, hj⟩ X x) ((tr0).view.read (Elt F) Tt) _ hU' hP
    rw [read_access_whole' (Elt F) rows0 R] at h
    exact h

set_option maxHeartbeats 4000000 in
/-- One trip of the second half's loop moves its invariant from t to t + 1. -/
theorem step4V (k : Fin k1_t2_loop.trips) (v2 v298 : BitVec 32) (v305 : BitVec 1)
    (X : Buf (Elt F) ((s0).view.loc (thr d L))) (R : Buf (Elt F) ((s2).view.loc (thr d L)))
    (t : Fin k1_t4_loop.trips) (u : Unit) :
    inv4V (F := F) d L k X R t.val u
      ⊢ wp frame (wpE (defs₀ (F := F)) 𝒱₀ (thr d L) none) Set.univ
          (k1_t4_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k v298 v305 t u)
          (inv4V (F := F) d L k X R (t.val + 1)) := by
  obtain ⟨j, hj⟩ := t
  unfold inv4V k1_t4_body
  iintro ⟨H0, HR, %Tt, HT, %hU⟩
  sl_exec (disch := inner_chk (⟨j, hj⟩ : Fin 32))
  ihave HT := (held_val_intro (F := F) (c := thr d L) (base := tr1) (PartDone j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 0) Tt
    (partDone_zero j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt))) $$ HT
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 0
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 1
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 2
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 3
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 4
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 5
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 6
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 7
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 8
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 9
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 10
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 11
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 12
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 13
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 14
  inner_pairV (thr d L) rows1 tr1 (⟨j, hj⟩ : Fin 32) j ((s0).view.readAt (Elt F) (Rect.unit (s := S13312) (k1_off13 k ⟨j, hj⟩) S16.size (k1_off13_inb k ⟨j, hj⟩)).toLoadRect X) ((rows1.access (Rect.whole S128x128)).read (Elt F) R) ((tr1).view.read (Elt F) Tt) 15
  rw [wp_ret]
  imodintro
  isplitl [H0]
  · iexact H0
  isplitl [HR]
  · iexact HR
  icases HT with ⟨%Tt', HT, %hP⟩
  iexists Tt'
  isplitl [HT]
  · iexact HT
  · ipureintro
    have hU' : Upto (128 * (2 * k.val + 1)) (blk_le1 k) X ((rows1.access (Rect.whole S128x128)).read (Elt F) R) j ((tr1).view.read (Elt F) Tt) := by
      rw [read_access_whole' (Elt F) rows1 R]; exact hU
    have h := upto_step (128 * (2 * k.val + 1)) (blk_le1 k) X ((rows1.access (Rect.whole S128x128)).read (Elt F) R) (⟨j, hj⟩ : Fin 32) ((s0).view.readAt (Elt F) (Rect.unit (s := S13312) (k1_off13 k ⟨j, hj⟩) S16.size (k1_off13_inb k ⟨j, hj⟩)).toLoadRect X) (fun x => window4 (F := F) k ⟨j, hj⟩ X x) ((tr1).view.read (Elt F) Tt) _ hU' hP
    rw [read_access_whole' (Elt F) rows1 R] at h
    exact h

/-- The invariant holds before the first trip, whatever the transposed half holds. -/
theorem inv3V_init (k : Fin k1_t2_loop.trips) (X : Buf (Elt F) ((s0).view.loc (thr d L)))
    (R : Buf (Elt F) ((s2).view.loc (thr d L))) (u : Unit) :
    iprop(((s0).view.loc (thr d L) ↦{fullShare} X)
        ∗ ((s2).view.loc (thr d L) ↦[(rows0).view.set]{fullShare} R)
        ∗ (∃ Tt, ((s3).view.loc (thr d L) ↦[(tr0).view.set]{fullShare} Tt)) : sProp 𝕄)
      ⊢ inv3V (F := F) d L k X R 0 u := by
  unfold inv3V
  iintro ⟨H0, HR, %Tt, HT⟩
  isplitl [H0]
  · iexact H0
  isplitl [HR]
  · iexact HR
  iexists Tt
  isplitl [HT]
  · iexact HT
  · ipureintro
    exact upto_zero _ _ _ _ _

/-- After the last trip every element of the transposed half holds its gathered word: element (dd, r) the word of row r
    at column dd of the left or the right 64 columns, as the low bit of the block's index word r says. -/
theorem inv3V_exit (k : Fin k1_t2_loop.trips) (X : Buf (Elt F) ((s0).view.loc (thr d L)))
    (R : Buf (Elt F) ((s2).view.loc (thr d L))) (u : Unit) :
    inv3V (F := F) d L k X R 32 u
      ⊢ iprop(((s0).view.loc (thr d L) ↦{fullShare} X)
        ∗ ((s2).view.loc (thr d L) ↦[(rows0).view.set]{fullShare} R)
        ∗ (∃ Tt, ((s3).view.loc (thr d L) ↦[(tr0).view.set]{fullShare} Tt)
          ∗ ⌜∀ (dd : Fin 64) (r : Fin 128), (tr0).view.read (Elt F) Tt (ValueIdx.ix2 dd r)
              = (rows0).view.read (Elt F) R (ValueIdx.ix2 r
                  (⟨dd.val + 64 * (((X (ValueIdx.ix1 (⟨128 * (2 * k.val) + r.val, by
                      have := blk_le0 k; have := r.isLt; omega⟩ : Fin 13312)) : BitVec 32)).toNat % 2), by
                    have := dd.isLt; omega⟩ : Fin 128))⌝)) := by
  unfold inv3V
  iintro ⟨H0, HR, %Tt, HT, %hU⟩
  isplitl [H0]
  · iexact H0
  isplitl [HR]
  · iexact HR
  iexists Tt
  isplitl [HT]
  · iexact HT
  · ipureintro
    exact fun dd r => upto_all _ _ _ _ _ hU dd r

/-- The invariant holds before the first trip, whatever the transposed half holds. -/
theorem inv4V_init (k : Fin k1_t2_loop.trips) (X : Buf (Elt F) ((s0).view.loc (thr d L)))
    (R : Buf (Elt F) ((s2).view.loc (thr d L))) (u : Unit) :
    iprop(((s0).view.loc (thr d L) ↦{fullShare} X)
        ∗ ((s2).view.loc (thr d L) ↦[(rows1).view.set]{fullShare} R)
        ∗ (∃ Tt, ((s3).view.loc (thr d L) ↦[(tr1).view.set]{fullShare} Tt)) : sProp 𝕄)
      ⊢ inv4V (F := F) d L k X R 0 u := by
  unfold inv4V
  iintro ⟨H0, HR, %Tt, HT⟩
  isplitl [H0]
  · iexact H0
  isplitl [HR]
  · iexact HR
  iexists Tt
  isplitl [HT]
  · iexact HT
  · ipureintro
    exact upto_zero _ _ _ _ _

/-- After the last trip every element of the transposed half holds its gathered word: element (dd, r) the word of row r
    at column dd of the left or the right 64 columns, as the low bit of the block's index word r says. -/
theorem inv4V_exit (k : Fin k1_t2_loop.trips) (X : Buf (Elt F) ((s0).view.loc (thr d L)))
    (R : Buf (Elt F) ((s2).view.loc (thr d L))) (u : Unit) :
    inv4V (F := F) d L k X R 32 u
      ⊢ iprop(((s0).view.loc (thr d L) ↦{fullShare} X)
        ∗ ((s2).view.loc (thr d L) ↦[(rows1).view.set]{fullShare} R)
        ∗ (∃ Tt, ((s3).view.loc (thr d L) ↦[(tr1).view.set]{fullShare} Tt)
          ∗ ⌜∀ (dd : Fin 64) (r : Fin 128), (tr1).view.read (Elt F) Tt (ValueIdx.ix2 dd r)
              = (rows1).view.read (Elt F) R (ValueIdx.ix2 r
                  (⟨dd.val + 64 * (((X (ValueIdx.ix1 (⟨128 * (2 * k.val + 1) + r.val, by
                      have := blk_le1 k; have := r.isLt; omega⟩ : Fin 13312)) : BitVec 32)).toNat % 2), by
                    have := dd.isLt; omega⟩ : Fin 128))⌝)) := by
  unfold inv4V
  iintro ⟨H0, HR, %Tt, HT, %hU⟩
  isplitl [H0]
  · iexact H0
  isplitl [HR]
  · iexact HR
  iexists Tt
  isplitl [HT]
  · iexact HT
  · ipureintro
    exact fun dd r => upto_all _ _ _ _ _ hU dd r

end Cert.Proof.KB.Body1

end
-- ==== Proof.Body1OffA_b.lean ====
/-
  The printed offset chains of the gather kernel's write-out windows in closed form: block b = 104·w + 2k + p of tile w = 2·(L 1) + (L 0) is feature b / 128, batch chunk b % 128, and window d8 of it sits at (b / 128, d8, b % 128, 0, 0). Decided over the finitely many tiles, trips and halves.
-/
import proofs.«204055_g19524921328135_cont_8to1_763_20_alg».proof.Proof.Tiles_b

set_option Elab.async false

namespace Cert.Proof.KB.Body1

open Cert.Kernel Cert.Kernel.Gen Cert.Proof.KB
open Idealize.ShloMosaic

/-- Window 0 of block b = 104·w + 2k + p sits at (b / 128, 0, b % 128, 0, 0). -/
theorem k1_off4_eq : ∀ (L : grid1.Coords) (k : Fin k1_t2_loop.trips) (p : Fin 2),
    k1_off4 L k (BitVec.ofNat 32 p.val) = ![(104 * (2 * (L 1).val + (L 0).val) + 2 * k.val + p.val) / 128, 0, (104 * (2 * (L 1).val + (L 0).val) + 2 * k.val + p.val) % 128, 0, 0] := by
  decide +kernel

/-- Window 1 of block b = 104·w + 2k + p sits at (b / 128, 1, b % 128, 0, 0). -/
theorem k1_off5_eq : ∀ (L : grid1.Coords) (k : Fin k1_t2_loop.trips) (p : Fin 2),
    k1_off5 L k (BitVec.ofNat 32 p.val) = ![(104 * (2 * (L 1).val + (L 0).val) + 2 * k.val + p.val) / 128, 1, (104 * (2 * (L 1).val + (L 0).val) + 2 * k.val + p.val) % 128, 0, 0] := by
  decide +kernel

/-- Window 2 of block b = 104·w + 2k + p sits at (b / 128, 2, b % 128, 0, 0). -/
theorem k1_off6_eq : ∀ (L : grid1.Coords) (k : Fin k1_t2_loop.trips) (p : Fin 2),
    k1_off6 L k (BitVec.ofNat 32 p.val) = ![(104 * (2 * (L 1).val + (L 0).val) + 2 * k.val + p.val) / 128, 2, (104 * (2 * (L 1).val + (L 0).val) + 2 * k.val + p.val) % 128, 0, 0] := by
  decide +kernel

end Cert.Proof.KB.Body1
-- ==== Proof.Body1OffB_b.lean ====
/-
  The printed offset chains of the gather kernel's write-out windows in closed form: block b = 104·w + 2k + p of tile w = 2·(L 1) + (L 0) is feature b / 128, batch chunk b % 128, and window d8 of it sits at (b / 128, d8, b % 128, 0, 0). Decided over the finitely many tiles, trips and halves.
-/
import proofs.«204055_g19524921328135_cont_8to1_763_20_alg».proof.Proof.Tiles_b

set_option Elab.async false

namespace Cert.Proof.KB.Body1

open Cert.Kernel Cert.Kernel.Gen Cert.Proof.KB
open Idealize.ShloMosaic

/-- Window 3 of block b = 104·w + 2k + p sits at (b / 128, 3, b % 128, 0, 0). -/
theorem k1_off7_eq : ∀ (L : grid1.Coords) (k : Fin k1_t2_loop.trips) (p : Fin 2),
    k1_off7 L k (BitVec.ofNat 32 p.val) = ![(104 * (2 * (L 1).val + (L 0).val) + 2 * k.val + p.val) / 128, 3, (104 * (2 * (L 1).val + (L 0).val) + 2 * k.val + p.val) % 128, 0, 0] := by
  decide +kernel

/-- Window 4 of block b = 104·w + 2k + p sits at (b / 128, 4, b % 128, 0, 0). -/
theorem k1_off8_eq : ∀ (L : grid1.Coords) (k : Fin k1_t2_loop.trips) (p : Fin 2),
    k1_off8 L k (BitVec.ofNat 32 p.val) = ![(104 * (2 * (L 1).val + (L 0).val) + 2 * k.val + p.val) / 128, 4, (104 * (2 * (L 1).val + (L 0).val) + 2 * k.val + p.val) % 128, 0, 0] := by
  decide +kernel

/-- Window 5 of block b = 104·w + 2k + p sits at (b / 128, 5, b % 128, 0, 0). -/
theorem k1_off9_eq : ∀ (L : grid1.Coords) (k : Fin k1_t2_loop.trips) (p : Fin 2),
    k1_off9 L k (BitVec.ofNat 32 p.val) = ![(104 * (2 * (L 1).val + (L 0).val) + 2 * k.val + p.val) / 128, 5, (104 * (2 * (L 1).val + (L 0).val) + 2 * k.val + p.val) % 128, 0, 0] := by
  decide +kernel

end Cert.Proof.KB.Body1
-- ==== Proof.Body1Off_b.lean ====
/-
  The gather kernel's printed chains in closed form, collected.
-/
import proofs.«204055_g19524921328135_cont_8to1_763_20_alg».proof.Proof.Body1OffA_b
import proofs.«204055_g19524921328135_cont_8to1_763_20_alg».proof.Proof.Body1OffB_b
import proofs.«204055_g19524921328135_cont_8to1_763_20_alg».proof.Proof.Body1OffC_b
-- ==== Proof.Body1Frame_b.lean ====
/-
  The gather kernel on one tile, at the level of resources: the tile copies its slice of the flat index list,
  halves the words, and then, two blocks at a time, gathers the pair-table lines the halved words name,
  transposes them and writes each block out as eight windows of the result, the next gathers and the
  previous write-outs in flight meanwhile. This module follows the tile's storage through the whole
  kernel — every window handed back — without yet saying what the result's windows hold.

  The main loop's invariant before trip k: both gathers of blocks 2k and 2k + 1 in flight (each holding
  its own half-share of the halved words and of the pair table), the write-outs of blocks 2k - 2 and
  2k - 1 in flight as two batches of eight, the blocks below 2k - 2 landed, the blocks from 2k on untouched.
-/
import proofs.«204055_g19524921328135_cont_8to1_763_20_alg».proof.Proof.Body1Inner_b
import proofs.«204055_g19524921328135_cont_8to1_763_20_alg».proof.Proof.Body1Off_b
import proofs.«204055_g19524921328135_cont_8to1_763_20_alg».proof.Proof.Tiles_b

noncomputable section

namespace Cert.Proof.KB.Body1

open Cert.Kernel Cert.Kernel.Gen Cert.Proof.KB
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (d : Dev nD) (L : grid1.Coords)

/-- The tile's five cells of this call. -/
abbrev g4 (d : Dev nD) (L : grid1.Coords) : GSem nD τ sig := (thr d L, .dma cc1_scratch4.sem)
abbrev g5 (d : Dev nD) (L : grid1.Coords) : GSem nD τ sig := (thr d L, .dma cc1_scratch5.sem)
abbrev g6 (d : Dev nD) (L : grid1.Coords) : GSem nD τ sig := (thr d L, .dma cc1_scratch6.sem)
abbrev g7 (d : Dev nD) (L : grid1.Coords) : GSem nD τ sig := (thr d L, .dma cc1_scratch7.sem)
abbrev gS (d : Dev nD) (L : grid1.Coords) : GSem nD τ sig := (thr d L, .dma cc1_scoped0.sem)

omit [FloatOps F] in
theorem ownSems0_V1 :
    (ownSems0 (thr d L) : sProp 𝕄)
      = iprop(semVal (g4 d L) 0 ∗ semVal (g5 d L) 0 ∗ semVal (g6 d L) 0 ∗ semVal (g7 d L) 0 ∗ semVal (gS d L) 0
          ∗ bigSep ((((((ownCells (thr d L)).erase (g4 d L)).erase (g5 d L)).erase (g6 d L)).erase (g7 d L)).erase (gS d L))
              fun g => semVal g 0) := by
  unfold SparseCore.Cfg.ownSems0
  have m4 : g4 d L ∈ ownCells (thr d L) := (mem_ownCells (g := g4 d L)).mpr ⟨rfl, by
    show (SemLoc.dma cc1_scratch4.sem : SemLoc sig).isScoped .scVector = true; decide⟩
  have m5 : g5 d L ∈ ownCells (thr d L) := (mem_ownCells (g := g5 d L)).mpr ⟨rfl, by
    show (SemLoc.dma cc1_scratch5.sem : SemLoc sig).isScoped .scVector = true; decide⟩
  have m6 : g6 d L ∈ ownCells (thr d L) := (mem_ownCells (g := g6 d L)).mpr ⟨rfl, by
    show (SemLoc.dma cc1_scratch6.sem : SemLoc sig).isScoped .scVector = true; decide⟩
  have m7 : g7 d L ∈ ownCells (thr d L) := (mem_ownCells (g := g7 d L)).mpr ⟨rfl, by
    show (SemLoc.dma cc1_scratch7.sem : SemLoc sig).isScoped .scVector = true; decide⟩
  have mS : gS d L ∈ ownCells (thr d L) := (mem_ownCells (g := gS d L)).mpr ⟨rfl, by
    show (SemLoc.dma cc1_scoped0.sem : SemLoc sig).isScoped .scVector = true; decide⟩
  have ne : ∀ (a b : DmaSems sig S_), a.sem ≠ b.sem → ((thr d L, SemLoc.dma a.sem) : GSem nD τ sig) ≠ (thr d L, SemLoc.dma b.sem) := by
    intro a b h e; exact h (by injection e with _ e2; injection e2)
  rw [SparseCore.bigSep_erase' m4,
    SparseCore.bigSep_erase' (Finset.mem_erase.mpr ⟨ne _ _ (by decide), m5⟩),
    SparseCore.bigSep_erase' (Finset.mem_erase.mpr ⟨ne _ _ (by decide), Finset.mem_erase.mpr ⟨ne _ _ (by decide), m6⟩⟩),
    SparseCore.bigSep_erase' (Finset.mem_erase.mpr ⟨ne _ _ (by decide), Finset.mem_erase.mpr ⟨ne _ _ (by decide), Finset.mem_erase.mpr ⟨ne _ _ (by decide), m7⟩⟩⟩),
    SparseCore.bigSep_erase' (Finset.mem_erase.mpr ⟨ne _ _ (by decide), Finset.mem_erase.mpr ⟨ne _ _ (by decide), Finset.mem_erase.mpr ⟨ne _ _ (by decide), Finset.mem_erase.mpr ⟨ne _ _ (by decide), mS⟩⟩⟩⟩)]

abbrev r0 (L : grid1.Coords) : DevRef τ sig := (Proc.scVector (cV L) (jV L)).devRef cc1_scratch0
abbrev r1 (L : grid1.Coords) : DevRef τ sig := (Proc.scVector (cV L) (jV L)).devRef cc1_scratch1
abbrev r2 (L : grid1.Coords) : DevRef τ sig := (Proc.scVector (cV L) (jV L)).devRef cc1_scratch2
abbrev r3 (L : grid1.Coords) : DevRef τ sig := (Proc.scVector (cV L) (jV L)).devRef cc1_scratch3

omit [FloatOps F] in
theorem ownBufs_V1 :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase (r0 L)).erase (r1 L)).erase (r2 L)).erase (r3 L))
              fun b => iprop(∃ f, ((d, b) : Loc nD τ sig) ↦{fullShare} f)) := by
  unfold SparseCore.Cfg.ownBufs
  have m0 := SparseCore.Cfg.mem_ownRefs_of_owner (p := Proc.scVector (cV L) (jV L)) (b := r0 L) rfl
  have m1 := SparseCore.Cfg.mem_ownRefs_of_owner (p := Proc.scVector (cV L) (jV L)) (b := r1 L) rfl
  have m2 := SparseCore.Cfg.mem_ownRefs_of_owner (p := Proc.scVector (cV L) (jV L)) (b := r2 L) rfl
  have m3 := SparseCore.Cfg.mem_ownRefs_of_owner (p := Proc.scVector (cV L) (jV L)) (b := r3 L) rfl
  have ne : ∀ (a b : Ref sig .scVector), a ≠ b → (Proc.scVector (cV L) (jV L)).devRef a ≠ (Proc.scVector (cV L) (jV L)).devRef b :=
    fun a b h e => h (Proc.devRef_injective _ e)
  refine (SparseCore.bigSep_erase' m0).trans ?_
  rw [SparseCore.bigSep_erase' (Finset.mem_erase.mpr ⟨ne _ _ (by decide), m1⟩),
    SparseCore.bigSep_erase' (Finset.mem_erase.mpr ⟨ne _ _ (by decide), Finset.mem_erase.mpr ⟨ne _ _ (by decide), m2⟩⟩),
    SparseCore.bigSep_erase' (Finset.mem_erase.mpr ⟨ne _ _ (by decide), Finset.mem_erase.mpr ⟨ne _ _ (by decide), Finset.mem_erase.mpr ⟨ne _ _ (by decide), m3⟩⟩⟩)]

/-! ## The kernel's windows -/

/-- The whole pair table as the gathers name it. -/
abbrev pAll : Memref sig .scVector .hbm S500000x128 .f32 :=
  (pW).slice (Rect.unit (s := S500000x128) ![0, 0] S500000x128.size inb_S500000x128_S500000x128_0_0) (fun _ => rfl)

theorem jw_inb (o : Nat) (h : o + 128 ≤ 13312) : ∀ a, (![o] : Fin 1 → Nat) a + S128.size a ≤ S13312.size a := by
  intro a; match a with | ⟨0, _⟩ => exact h
/-- The window of 128 halved words at offset `o`. -/
abbrev jw (o : Nat) (h : o + 128 ≤ 13312) : Memref sig .scVector .vmem S128 .i32 :=
  (s1).slice (Rect.unit (s := S13312) ![o] S128.size (jw_inb o h)) (fun _ => rfl)

/-- Window `N - 4` of the block that half `p` of trip `k` writes, as the program names it. -/
abbrev ow4 (L : grid1.Coords) (k : Fin k1_t2_loop.trips) (p : Fin 2) : Memref sig .scVector .hbm S8x128 .f32 :=
  ((oW).slice (Rect.unit (s := S26x8x128x8x128) (k1_off4 L k (BitVec.ofNat 32 p.val)) S1x1x1x8x128.size (k1_off4_inb L k p)) (fun _ => rfl)).squeeze S8x128 squeezes_S1x1x1x8x128_S8x128
abbrev ow5 (L : grid1.Coords) (k : Fin k1_t2_loop.trips) (p : Fin 2) : Memref sig .scVector .hbm S8x128 .f32 :=
  ((oW).slice (Rect.unit (s := S26x8x128x8x128) (k1_off5 L k (BitVec.ofNat 32 p.val)) S1x1x1x8x128.size (k1_off5_inb L k p)) (fun _ => rfl)).squeeze S8x128 squeezes_S1x1x1x8x128_S8x128
abbrev ow6 (L : grid1.Coords) (k : Fin k1_t2_loop.trips) (p : Fin 2) : Memref sig .scVector .hbm S8x128 .f32 :=
  ((oW).slice (Rect.unit (s := S26x8x128x8x128) (k1_off6 L k (BitVec.ofNat 32 p.val)) S1x1x1x8x128.size (k1_off6_inb L k p)) (fun _ => rfl)).squeeze S8x128 squeezes_S1x1x1x8x128_S8x128
abbrev ow7 (L : grid1.Coords) (k : Fin k1_t2_loop.trips) (p : Fin 2) : Memref sig .scVector .hbm S8x128 .f32 :=
  ((oW).slice (Rect.unit (s := S26x8x128x8x128) (k1_off7 L k (BitVec.ofNat 32 p.val)) S1x1x1x8x128.size (k1_off7_inb L k p)) (fun _ => rfl)).squeeze S8x128 squeezes_S1x1x1x8x128_S8x128
abbrev ow8 (L : grid1.Coords) (k : Fin k1_t2_loop.trips) (p : Fin 2) : Memref sig .scVector .hbm S8x128 .f32 :=
  ((oW).slice (Rect.unit (s := S26x8x128x8x128) (k1_off8 L k (BitVec.ofNat 32 p.val)) S1x1x1x8x128.size (k1_off8_inb L k p)) (fun _ => rfl)).squeeze S8x128 squeezes_S1x1x1x8x128_S8x128
abbrev ow9 (L : grid1.Coords) (k : Fin k1_t2_loop.trips) (p : Fin 2) : Memref sig .scVector .hbm S8x128 .f32 :=
  ((oW).slice (Rect.unit (s := S26x8x128x8x128) (k1_off9 L k (BitVec.ofNat 32 p.val)) S1x1x1x8x128.size (k1_off9_inb L k p)) (fun _ => rfl)).squeeze S8x128 squeezes_S1x1x1x8x128_S8x128
abbrev ow10 (L : grid1.Coords) (k : Fin k1_t2_loop.trips) (p : Fin 2) : Memref sig .scVector .hbm S8x128 .f32 :=
  ((oW).slice (Rect.unit (s := S26x8x128x8x128) (k1_off10 L k (BitVec.ofNat 32 p.val)) S1x1x1x8x128.size (k1_off10_inb L k p)) (fun _ => rfl)).squeeze S8x128 squeezes_S1x1x1x8x128_S8x128
abbrev ow11 (L : grid1.Coords) (k : Fin k1_t2_loop.trips) (p : Fin 2) : Memref sig .scVector .hbm S8x128 .f32 :=
  ((oW).slice (Rect.unit (s := S26x8x128x8x128) (k1_off11 L k (BitVec.ofNat 32 p.val)) S1x1x1x8x128.size (k1_off11_inb L k p)) (fun _ => rfl)).squeeze S8x128 squeezes_S1x1x1x8x128_S8x128
/-- The eight windows of a block, by number. -/
def ow (L : grid1.Coords) (k : Fin k1_t2_loop.trips) (p : Fin 2) : Fin 8 → Memref sig .scVector .hbm S8x128 .f32
  | 0 => ow4 L k p | 1 => ow5 L k p | 2 => ow6 L k p | 3 => ow7 L k p | 4 => ow8 L k p | 5 => ow9 L k p | 6 => ow10 L k p | 7 => ow11 L k p

/-! ## A buffer half as its eight windows -/

omit [FloatOps F] in
theorem bigSep_fin8 (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) := by
  have e : (Finset.univ : Finset (Fin 8)) = {0, 1, 2, 3, 4, 5, 6, 7} := by decide
  rw [e, bigSep_insert (by decide), bigSep_insert (by decide), bigSep_insert (by decide), bigSep_insert (by decide),
    bigSep_insert (by decide), bigSep_insert (by decide), bigSep_insert (by decide), bigSep_singleton]
  rfl

theorem w8_inb (t : Fin 8) : ∀ a, (![8 * t.val, 0] : Fin 2 → Nat) a + S8x128.size a ≤ S64x128.size a := by
  have := t.isLt
  intro a; match a with
  | ⟨0, _⟩ => show 8 * t.val + 8 ≤ 64; omega
  | ⟨1, _⟩ => show 0 + 128 ≤ 128; omega
/-- Rows `8 t … 8 t + 7` of a 64 × 128 array. -/
abbrev w8 (t : Fin 8) : Rect S64x128 := Rect.unit ![8 * t.val, 0] S8x128.size (w8_inb t)

theorem w8_disj (t t' : Fin 8) (h : t ≠ t') : Disjoint (w8 t).set (w8 t').set := by
  rw [Finset.disjoint_left]; intro x hx hx'
  have a : 8 * t.val ≤ (x 0).val ∧ (x 0).val < 8 * t.val + 8 := (Rect.mem_set_unit.mp hx) 0
  have b : 8 * t'.val ≤ (x 0).val ∧ (x 0).val < 8 * t'.val + 8 := (Rect.mem_set_unit.mp hx') 0
  exact h (Fin.ext (by omega))

theorem w8_cov : (Finset.univ : Finset (Fin 8)).biUnion (fun t => (w8 t).set) = Finset.univ := by
  ext x
  simp only [Finset.mem_biUnion, Finset.mem_univ, true_and, iff_true]
  have hx : (x 0).val < 64 := (x 0).isLt
  have hy : (x 1).val < 128 := (x 1).isLt
  refine ⟨⟨(x 0).val / 8, by omega⟩, Rect.mem_set_unit.mpr fun a => ?_⟩
  match a with
  | ⟨0, _⟩ => show 8 * ((x 0).val / 8) ≤ (x 0).val ∧ (x 0).val < 8 * ((x 0).val / 8) + 8; omega
  | ⟨1, _⟩ => show 0 ≤ (x 1).val ∧ (x 1).val < 0 + 128; omega

omit [FloatOps F] in
/-- A 64 × 128 array held by its own elements is its eight windows of eight rows, each held by its own. -/
theorem half_windows (mm : Memref sig .scVector .vmem S64x128 .f32) (f : Buf (Elt F) (mm.view.loc (thr d L))) :
    (mm.view.loc (thr d L) ↦[mm.view.set]{fullShare} f : sProp 𝕄)
      = bigSep (Finset.univ : Finset (Fin 8)) fun t =>
          (mm.view.loc (thr d L) ↦[(mm.slice (w8 t) (fun _ => rfl)).view.set]{fullShare} f) := by
  rw [pointsTo_rects (thr d L) mm fullShare w8 (fun _ _ => rfl) w8_disj w8_cov f]
  exact BI.bigSep_congr (fun t _ => owns_slice_read (thr d L) mm fullShare (w8 t) (fun _ => rfl) f)

/-! ## The result's windows, as the program names them and as the tile is handed them -/

theorem kkOf_lt (k : Fin k1_t2_loop.trips) (p : Fin 2) : 2 * k.val + p.val < 104 := by
  have h := Nat.lt_of_lt_of_eq k.isLt trips2
  have := p.isLt
  omega
/-- Block `2 k + p` as a block of the tile. -/
def kkOf (k : Fin k1_t2_loop.trips) (p : Fin 2) : Fin 104 := ⟨2 * k.val + p.val, kkOf_lt k p⟩

theorem blk_val (k : Fin k1_t2_loop.trips) (p : Fin 2) :
    (Tiles.blkOf (Tiles.c1Of L) (Tiles.s1Of L) (kkOf k p)).val = 104 * (2 * (L 1).val + (L 0).val) + 2 * k.val + p.val := by
  show 104 * (2 * (L 1).val + (L 0).val) + (2 * k.val + p.val) = _
  omega

theorem unit_congr {s : Shape} (off off' sz : Fin s.rank → Nat) (inb : ∀ a, off a + sz a ≤ s.size a) (inb' : ∀ a, off' a + sz a ≤ s.size a)
    (e : off = off') : Rect.unit off sz inb = Rect.unit off' sz inb' := by subst e; rfl

omit [FloatOps F] in
theorem slice_set_congr (r r' : Rect S26x8x128x8x128) (h : r = r') :
    ((oW).view.slice r).set = ((oW).view.slice r').set := by subst h; rfl

omit [FloatOps F] in
theorem ow4_pts (k : Fin k1_t2_loop.trips) (p : Fin 2) (f : Buf (Elt F) (Tiles.out5Loc d)) :
    ((ow4 L k p).view.loc (thr d L) ↦[(ow4 L k p).view.set]{fullShare} f : sProp 𝕄)
      = (Tiles.out5Loc d ↦[Tiles.outSet (Tiles.blkOf (Tiles.c1Of L) (Tiles.s1Of L) (kkOf k p)) 0]{fullShare} f) := by
  have e : Rect.unit (s := S26x8x128x8x128) (k1_off4 L k (BitVec.ofNat 32 p.val)) S1x1x1x8x128.size (k1_off4_inb L k p)
      = Tiles.outRect (Tiles.blkOf (Tiles.c1Of L) (Tiles.s1Of L) (kkOf k p)) 0 :=
    unit_congr _ _ _ _ _ (by rw [k1_off4_eq L k p, blk_val L k p]; rfl)
  have hs : (ow4 L k p).view.set = Tiles.outSet (Tiles.blkOf (Tiles.c1Of L) (Tiles.s1Of L) (kkOf k p)) 0 := by
    show (((oW).view.slice _).reshape _ _).set = _
    rw [View.set_reshape]
    exact slice_set_congr _ _ e
  rw [hs]

omit [FloatOps F] in
theorem ow5_pts (k : Fin k1_t2_loop.trips) (p : Fin 2) (f : Buf (Elt F) (Tiles.out5Loc d)) :
    ((ow5 L k p).view.loc (thr d L) ↦[(ow5 L k p).view.set]{fullShare} f : sProp 𝕄)
      = (Tiles.out5Loc d ↦[Tiles.outSet (Tiles.blkOf (Tiles.c1Of L) (Tiles.s1Of L) (kkOf k p)) 1]{fullShare} f) := by
  have e : Rect.unit (s := S26x8x128x8x128) (k1_off5 L k (BitVec.ofNat 32 p.val)) S1x1x1x8x128.size (k1_off5_inb L k p)
      = Tiles.outRect (Tiles.blkOf (Tiles.c1Of L) (Tiles.s1Of L) (kkOf k p)) 1 :=
    unit_congr _ _ _ _ _ (by rw [k1_off5_eq L k p, blk_val L k p]; rfl)
  have hs : (ow5 L k p).view.set = Tiles.outSet (Tiles.blkOf (Tiles.c1Of L) (Tiles.s1Of L) (kkOf k p)) 1 := by
    show (((oW).view.slice _).reshape _ _).set = _
    rw [View.set_reshape]
    exact slice_set_congr _ _ e
  rw [hs]

omit [FloatOps F] in
theorem ow6_pts (k : Fin k1_t2_loop.trips) (p : Fin 2) (f : Buf (Elt F) (Tiles.out5Loc d)) :
    ((ow6 L k p).view.loc (thr d L) ↦[(ow6 L k p).view.set]{fullShare} f : sProp 𝕄)
      = (Tiles.out5Loc d ↦[Tiles.outSet (Tiles.blkOf (Tiles.c1Of L) (Tiles.s1Of L) (kkOf k p)) 2]{fullShare} f) := by
  have e : Rect.unit (s := S26x8x128x8x128) (k1_off6 L k (BitVec.ofNat 32 p.val)) S1x1x1x8x128.size (k1_off6_inb L k p)
      = Tiles.outRect (Tiles.blkOf (Tiles.c1Of L) (Tiles.s1Of L) (kkOf k p)) 2 :=
    unit_congr _ _ _ _ _ (by rw [k1_off6_eq L k p, blk_val L k p]; rfl)
  have hs : (ow6 L k p).view.set = Tiles.outSet (Tiles.blkOf (Tiles.c1Of L) (Tiles.s1Of L) (kkOf k p)) 2 := by
    show (((oW).view.slice _).reshape _ _).set = _
    rw [View.set_reshape]
    exact slice_set_congr _ _ e
  rw [hs]

omit [FloatOps F] in
theorem ow7_pts (k : Fin k1_t2_loop.trips) (p : Fin 2) (f : Buf (Elt F) (Tiles.out5Loc d)) :
    ((ow7 L k p).view.loc (thr d L) ↦[(ow7 L k p).view.set]{fullShare} f : sProp 𝕄)
      = (Tiles.out5Loc d ↦[Tiles.outSet (Tiles.blkOf (Tiles.c1Of L) (Tiles.s1Of L) (kkOf k p)) 3]{fullShare} f) := by
  have e : Rect.unit (s := S26x8x128x8x128) (k1_off7 L k (BitVec.ofNat 32 p.val)) S1x1x1x8x128.size (k1_off7_inb L k p)
      = Tiles.outRect (Tiles.blkOf (Tiles.c1Of L) (Tiles.s1Of L) (kkOf k p)) 3 :=
    unit_congr _ _ _ _ _ (by rw [k1_off7_eq L k p, blk_val L k p]; rfl)
  have hs : (ow7 L k p).view.set = Tiles.outSet (Tiles.blkOf (Tiles.c1Of L) (Tiles.s1Of L) (kkOf k p)) 3 := by
    show (((oW).view.slice _).reshape _ _).set = _
    rw [View.set_reshape]
    exact slice_set_congr _ _ e
  rw [hs]

omit [FloatOps F] in
theorem ow8_pts (k : Fin k1_t2_loop.trips) (p : Fin 2) (f : Buf (Elt F) (Tiles.out5Loc d)) :
    ((ow8 L k p).view.loc (thr d L) ↦[(ow8 L k p).view.set]{fullShare} f : sProp 𝕄)
      = (Tiles.out5Loc d ↦[Tiles.outSet (Tiles.blkOf (Tiles.c1Of L) (Tiles.s1Of L) (kkOf k p)) 4]{fullShare} f) := by
  have e : Rect.unit (s := S26x8x128x8x128) (k1_off8 L k (BitVec.ofNat 32 p.val)) S1x1x1x8x128.size (k1_off8_inb L k p)
      = Tiles.outRect (Tiles.blkOf (Tiles.c1Of L) (Tiles.s1Of L) (kkOf k p)) 4 :=
    unit_congr _ _ _ _ _ (by rw [k1_off8_eq L k p, blk_val L k p]; rfl)
  have hs : (ow8 L k p).view.set = Tiles.outSet (Tiles.blkOf (Tiles.c1Of L) (Tiles.s1Of L) (kkOf k p)) 4 := by
    show (((oW).view.slice _).reshape _ _).set = _
    rw [View.set_reshape]
    exact slice_set_congr _ _ e
  rw [hs]

omit [FloatOps F] in
theorem ow9_pts (k : Fin k1_t2_loop.trips) (p : Fin 2) (f : Buf (Elt F) (Tiles.out5Loc d)) :
    ((ow9 L k p).view.loc (thr d L) ↦[(ow9 L k p).view.set]{fullShare} f : sProp 𝕄)
      = (Tiles.out5Loc d ↦[Tiles.outSet (Tiles.blkOf (Tiles.c1Of L) (Tiles.s1Of L) (kkOf k p)) 5]{fullShare} f) := by
  have e : Rect.unit (s := S26x8x128x8x128) (k1_off9 L k (BitVec.ofNat 32 p.val)) S1x1x1x8x128.size (k1_off9_inb L k p)
      = Tiles.outRect (Tiles.blkOf (Tiles.c1Of L) (Tiles.s1Of L) (kkOf k p)) 5 :=
    unit_congr _ _ _ _ _ (by rw [k1_off9_eq L k p, blk_val L k p]; rfl)
  have hs : (ow9 L k p).view.set = Tiles.outSet (Tiles.blkOf (Tiles.c1Of L) (Tiles.s1Of L) (kkOf k p)) 5 := by
    show (((oW).view.slice _).reshape _ _).set = _
    rw [View.set_reshape]
    exact slice_set_congr _ _ e
  rw [hs]

omit [FloatOps F] in
theorem ow10_pts (k : Fin k1_t2_loop.trips) (p : Fin 2) (f : Buf (Elt F) (Tiles.out5Loc d)) :
    ((ow10 L k p).view.loc (thr d L) ↦[(ow10 L k p).view.set]{fullShare} f : sProp 𝕄)
      = (Tiles.out5Loc d ↦[Tiles.outSet (Tiles.blkOf (Tiles.c1Of L) (Tiles.s1Of L) (kkOf k p)) 6]{fullShare} f) := by
  have e : Rect.unit (s := S26x8x128x8x128) (k1_off10 L k (BitVec.ofNat 32 p.val)) S1x1x1x8x128.size (k1_off10_inb L k p)
      = Tiles.outRect (Tiles.blkOf (Tiles.c1Of L) (Tiles.s1Of L) (kkOf k p)) 6 :=
    unit_congr _ _ _ _ _ (by rw [k1_off10_eq L k p, blk_val L k p]; rfl)
  have hs : (ow10 L k p).view.set = Tiles.outSet (Tiles.blkOf (Tiles.c1Of L) (Tiles.s1Of L) (kkOf k p)) 6 := by
    show (((oW).view.slice _).reshape _ _).set = _
    rw [View.set_reshape]
    exact slice_set_congr _ _ e
  rw [hs]

omit [FloatOps F] in
theorem ow11_pts (k : Fin k1_t2_loop.trips) (p : Fin 2) (f : Buf (Elt F) (Tiles.out5Loc d)) :
    ((ow11 L k p).view.loc (thr d L) ↦[(ow11 L k p).view.set]{fullShare} f : sProp 𝕄)
      = (Tiles.out5Loc d ↦[Tiles.outSet (Tiles.blkOf (Tiles.c1Of L) (Tiles.s1Of L) (kkOf k p)) 7]{fullShare} f) := by
  have e : Rect.unit (s := S26x8x128x8x128) (k1_off11 L k (BitVec.ofNat 32 p.val)) S1x1x1x8x128.size (k1_off11_inb L k p)
      = Tiles.outRect (Tiles.blkOf (Tiles.c1Of L) (Tiles.s1Of L) (kkOf k p)) 7 :=
    unit_congr _ _ _ _ _ (by rw [k1_off11_eq L k p, blk_val L k p]; rfl)
  have hs : (ow11 L k p).view.set = Tiles.outSet (Tiles.blkOf (Tiles.c1Of L) (Tiles.s1Of L) (kkOf k p)) 7 := by
    show (((oW).view.slice _).reshape _ _).set = _
    rw [View.set_reshape]
    exact slice_set_congr _ _ e
  rw [hs]

/-- A block of the tile's part of the result, each of its eight windows held at some contents. -/
def blockOwn (kk : Fin 104) : sProp 𝕄 :=
  bigSep (Finset.univ : Finset (Fin 8)) fun d8 =>
    iprop(∃ f, Tiles.out5Loc d ↦[Tiles.outSet (Tiles.blkOf (Tiles.c1Of L) (Tiles.s1Of L) kk) d8]{fullShare} f)

omit [FloatOps F] in
theorem blockOwn_intro (k : Fin k1_t2_loop.trips) (p : Fin 2) (f0 f1 f2 f3 f4 f5 f6 f7 : Buf (Elt F) (Tiles.out5Loc d)) :
    iprop(((ow4 L k p).view.loc (thr d L) ↦[(ow4 L k p).view.set]{fullShare} f0)
        ∗ ((ow5 L k p).view.loc (thr d L) ↦[(ow5 L k p).view.set]{fullShare} f1)
        ∗ ((ow6 L k p).view.loc (thr d L) ↦[(ow6 L k p).view.set]{fullShare} f2)
        ∗ ((ow7 L k p).view.loc (thr d L) ↦[(ow7 L k p).view.set]{fullShare} f3)
        ∗ ((ow8 L k p).view.loc (thr d L) ↦[(ow8 L k p).view.set]{fullShare} f4)
        ∗ ((ow9 L k p).view.loc (thr d L) ↦[(ow9 L k p).view.set]{fullShare} f5)
        ∗ ((ow10 L k p).view.loc (thr d L) ↦[(ow10 L k p).view.set]{fullShare} f6)
        ∗ ((ow11 L k p).view.loc (thr d L) ↦[(ow11 L k p).view.set]{fullShare} f7) : sProp 𝕄)
      ⊢ blockOwn (F := F) d L (kkOf k p) := by
  unfold blockOwn
  rw [bigSep_fin8, ow4_pts, ow5_pts, ow6_pts, ow7_pts, ow8_pts, ow9_pts, ow10_pts, ow11_pts]
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

omit [FloatOps F] in
theorem blockOwn_elim (k : Fin k1_t2_loop.trips) (p : Fin 2) :
    blockOwn (F := F) d L (kkOf k p)
      ⊢ iprop((∃ f, ((ow4 L k p).view.loc (thr d L) ↦[(ow4 L k p).view.set]{fullShare} f))
        ∗ (∃ f, ((ow5 L k p).view.loc (thr d L) ↦[(ow5 L k p).view.set]{fullShare} f))
        ∗ (∃ f, ((ow6 L k p).view.loc (thr d L) ↦[(ow6 L k p).view.set]{fullShare} f))
        ∗ (∃ f, ((ow7 L k p).view.loc (thr d L) ↦[(ow7 L k p).view.set]{fullShare} f))
        ∗ (∃ f, ((ow8 L k p).view.loc (thr d L) ↦[(ow8 L k p).view.set]{fullShare} f))
        ∗ (∃ f, ((ow9 L k p).view.loc (thr d L) ↦[(ow9 L k p).view.set]{fullShare} f))
        ∗ (∃ f, ((ow10 L k p).view.loc (thr d L) ↦[(ow10 L k p).view.set]{fullShare} f))
        ∗ (∃ f, ((ow11 L k p).view.loc (thr d L) ↦[(ow11 L k p).view.set]{fullShare} f)) : sProp 𝕄) := by
  unfold blockOwn
  rw [bigSep_fin8]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  isplitl [H0]; · iexists f0; rw [ow4_pts]; iexact H0
  isplitl [H1]; · iexists f1; rw [ow5_pts]; iexact H1
  isplitl [H2]; · iexists f2; rw [ow6_pts]; iexact H2
  isplitl [H3]; · iexists f3; rw [ow7_pts]; iexact H3
  isplitl [H4]; · iexists f4; rw [ow8_pts]; iexact H4
  isplitl [H5]; · iexists f5; rw [ow9_pts]; iexact H5
  isplitl [H6]; · iexists f6; rw [ow10_pts]; iexact H6
  iexists f7; rw [ow11_pts]; iexact H7

/-! ## Blocks done and blocks to do -/

/-- The blocks written out and landed before trip `k`: those below `2 k - 2`. -/
def doneS (k : Nat) : Finset (Fin 104) := Finset.univ.filter fun b => b.val + 2 < 2 * k
/-- The blocks not yet started before trip `k`: those from `2 k` on. -/
def todoS (k : Nat) : Finset (Fin 104) := Finset.univ.filter fun b => 2 * k ≤ b.val

theorem todoS_split (k : Fin k1_t2_loop.trips) :
    todoS k.val = insert (kkOf k 0) (insert (kkOf k 1) (todoS (k.val + 1))) := by
  ext b
  simp only [todoS, kkOf, Finset.mem_filter, Finset.mem_univ, true_and, Finset.mem_insert, Fin.ext_iff]
  show 2 * k.val ≤ b.val ↔ b.val = 2 * k.val + 0 ∨ b.val = 2 * k.val + 1 ∨ 2 * (k.val + 1) ≤ b.val
  omega
theorem todoS_n0 (k : Fin k1_t2_loop.trips) : kkOf k 0 ∉ insert (kkOf k 1) (todoS (k.val + 1)) := by
  simp only [todoS, kkOf, Finset.mem_filter, Finset.mem_univ, true_and, Finset.mem_insert, Fin.ext_iff, not_or]
  constructor
  · show ¬ (2 * k.val + 0 = 2 * k.val + 1); omega
  · show ¬ (2 * (k.val + 1) ≤ 2 * k.val + 0); omega
theorem todoS_n1 (k : Fin k1_t2_loop.trips) : kkOf k 1 ∉ todoS (k.val + 1) := by
  simp only [todoS, kkOf, Finset.mem_filter, Finset.mem_univ, true_and]
  show ¬ (2 * (k.val + 1) ≤ 2 * k.val + 1); omega
theorem doneS_succ (k : Nat) (km : Fin k1_t2_loop.trips) (hkm : km.val + 1 = k) :
    doneS (k + 1) = insert (kkOf km 1) (insert (kkOf km 0) (doneS k)) := by
  ext b
  simp only [doneS, kkOf, Finset.mem_filter, Finset.mem_univ, true_and, Finset.mem_insert, Fin.ext_iff]
  show b.val + 2 < 2 * (k + 1) ↔ b.val = 2 * km.val + 1 ∨ b.val = 2 * km.val + 0 ∨ b.val + 2 < 2 * k
  omega
theorem doneS_n1 (k : Nat) (km : Fin k1_t2_loop.trips) (hkm : km.val + 1 = k) : kkOf km 1 ∉ insert (kkOf km 0) (doneS k) := by
  simp only [doneS, kkOf, Finset.mem_filter, Finset.mem_univ, true_and, Finset.mem_insert, Fin.ext_iff, not_or]
  constructor
  · show ¬ (2 * km.val + 1 = 2 * km.val + 0); omega
  · show ¬ (2 * km.val + 1 + 2 < 2 * k); omega
theorem doneS_n0 (k : Nat) (km : Fin k1_t2_loop.trips) (hkm : km.val + 1 = k) : kkOf km 0 ∉ doneS k := by
  simp only [doneS, kkOf, Finset.mem_filter, Finset.mem_univ, true_and]
  show ¬ (2 * km.val + 0 + 2 < 2 * k); omega
theorem doneS_one : doneS 1 = doneS 0 := by
  ext b; simp only [doneS, Finset.mem_filter, Finset.mem_univ, true_and]; omega

/-- Rows `o … o + 7` of a 64 × 128 memref, as the program names the window. -/
abbrev trw (mm : Memref sig .scVector .vmem S64x128 .f32) (o : Nat)
    (inb : ∀ a, (![o, 0] : Fin 2 → Nat) a + S8x128.size a ≤ S64x128.size a) : Memref sig .scVector .vmem S8x128 .f32 :=
  mm.slice (Rect.unit (s := S64x128) ![o, 0] S8x128.size inb) (fun _ => rfl)

/-! ## The main loop's invariant -/

/-- The delivery of the write-out of rows `o … o + 7` of the transposed half `mm` (at contents `T`) into the result's
    window `w` (over contents `fo`): the window holding those rows, and the rows back. -/
abbrev D8 (mm : Memref sig .scVector .vmem S64x128 .f32) (o : Nat)
    (inb : ∀ a, (![o, 0] : Fin 2 → Nat) a + S8x128.size a ≤ S64x128.size a)
    (w : Memref sig .scVector .hbm S8x128 .f32) (T : Buf (Elt F) ((trw mm o inb).view.loc (thr d L)))
    (fo : Buf (Elt F) (w.view.loc (thr d L))) : sProp 𝕄 :=
  iprop((w.view.loc (thr d L) ↦[w.view.set]{fullShare}
      w.view.writes (Elt F) fo [⟨Rect.whole S8x128, ReadAs.same.apply ((trw mm o inb).view.read (Elt F) T)⟩])
    ∗ ((trw mm o inb).view.loc (thr d L) ↦[(trw mm o inb).view.set]{fullShare} T))

/-- The eight deliveries of a block's write-out from the first half of the transposed scratch. -/
abbrev Ds8a (k : Fin k1_t2_loop.trips) (T : Buf (Elt F) ((s3).view.loc (thr d L)))
    (f0 f1 f2 f3 f4 f5 f6 f7 : Buf (Elt F) ((oW).view.loc (thr d L))) : List (sProp 𝕄) :=
  [D8 d L tr0 0 inb_S64x128_S8x128_0_0 (ow4 L k 0) T f0,
   D8 d L tr0 8 inb_S64x128_S8x128_8_0 (ow5 L k 0) T f1,
   D8 d L tr0 16 inb_S64x128_S8x128_16_0 (ow6 L k 0) T f2,
   D8 d L tr0 24 inb_S64x128_S8x128_24_0 (ow7 L k 0) T f3,
   D8 d L tr0 32 inb_S64x128_S8x128_32_0 (ow8 L k 0) T f4,
   D8 d L tr0 40 inb_S64x128_S8x128_40_0 (ow9 L k 0) T f5,
   D8 d L tr0 48 inb_S64x128_S8x128_48_0 (ow10 L k 0) T f6,
   D8 d L tr0 56 inb_S64x128_S8x128_56_0 (ow11 L k 0) T f7]
/-- The eight deliveries of a block's write-out from the second half. -/
abbrev Ds8b (k : Fin k1_t2_loop.trips) (T : Buf (Elt F) ((s3).view.loc (thr d L)))
    (f0 f1 f2 f3 f4 f5 f6 f7 : Buf (Elt F) ((oW).view.loc (thr d L))) : List (sProp 𝕄) :=
  [D8 d L tr1 0 inb_S64x128_S8x128_0_0 (ow4 L k 1) T f0,
   D8 d L tr1 8 inb_S64x128_S8x128_8_0 (ow5 L k 1) T f1,
   D8 d L tr1 16 inb_S64x128_S8x128_16_0 (ow6 L k 1) T f2,
   D8 d L tr1 24 inb_S64x128_S8x128_24_0 (ow7 L k 1) T f3,
   D8 d L tr1 32 inb_S64x128_S8x128_32_0 (ow8 L k 1) T f4,
   D8 d L tr1 40 inb_S64x128_S8x128_40_0 (ow9 L k 1) T f5,
   D8 d L tr1 48 inb_S64x128_S8x128_48_0 (ow10 L k 1) T f6,
   D8 d L tr1 56 inb_S64x128_S8x128_56_0 (ow11 L k 1) T f7]

variable (O : CellTallies nD τ sig (HIx 2)) (W : Waits sig (HIx 2))
variable (X : Buf (Elt F) ((s0).view.loc (thr d L))) (g : Buf (Elt F) ((s1).view.loc (thr d L))) (P : Buf (Elt F) ((pW).view.loc (thr d L)))

/-- The shares the two gathers in flight hold of the halved words and of the pair table. -/
abbrev qL : PosShare TreeShare := fullShare.left
abbrev qR : PosShare TreeShare := fullShare.right
abbrev pL (L : grid1.Coords) : PosShare TreeShare := (Tiles.tileShare (Tiles.c1Of L) (Tiles.s1Of L)).left
abbrev pR (L : grid1.Coords) : PosShare TreeShare := (Tiles.tileShare (Tiles.c1Of L) (Tiles.s1Of L)).right

theorem jwh0 (k : Nat) (h : k < 52) : 256 * k + 128 ≤ 13312 := by omega
theorem jwh1 (k : Nat) (h : k < 52) : 256 * k + 128 + 128 ≤ 13312 := by omega

/-- The gathers' part before trip `k`: both in flight (blocks `2 k`, `2 k + 1`) while trips remain, else everything back. -/
def gpart (k : Nat) : sProp 𝕄 :=
  if h : k < 52 then
    iprop(∃ R0 R1, Transfers.Flight countersEmb (thr d L) (SemLoc.dma cc1_scratch4.sem) default 524288
        iprop((((s2).view.loc (thr d L) ↦[(rows0).view.set]{fullShare} R0) ∗ ((s1).view.loc (thr d L) ↦[(jw (256 * k) (jwh0 k h)).view.set]{qL} g))
          ∗ ((pW).view.loc (thr d L) ↦[(pAll).view.set]{pL L} P))
      ∗ ((pW).view.loc (thr d L) ↦[Finset.univ \ (pAll).view.set]{pL L} P)
      ∗ ((s1).view.loc (thr d L) ↦[Finset.univ \ (jw (256 * k) (jwh0 k h)).view.set]{qL} g)
      ∗ Transfers.Flight countersEmb (thr d L) (SemLoc.dma cc1_scratch5.sem) default 524288
        iprop((((s2).view.loc (thr d L) ↦[(rows1).view.set]{fullShare} R1) ∗ ((s1).view.loc (thr d L) ↦[(jw (256 * k + 128) (jwh1 k h)).view.set]{qR} g))
          ∗ ((pW).view.loc (thr d L) ↦[(pAll).view.set]{pR L} P))
      ∗ ((pW).view.loc (thr d L) ↦[Finset.univ \ (pAll).view.set]{pR L} P)
      ∗ ((s1).view.loc (thr d L) ↦[Finset.univ \ (jw (256 * k + 128) (jwh1 k h)).view.set]{qR} g))
  else
    iprop(∃ R0 R1, ((s2).view.loc (thr d L) ↦[(rows0).view.set]{fullShare} R0) ∗ ((s2).view.loc (thr d L) ↦[(rows1).view.set]{fullShare} R1)
      ∗ ((pW).view.loc (thr d L) ↦{pL L} P) ∗ ((pW).view.loc (thr d L) ↦{pR L} P)
      ∗ ((s1).view.loc (thr d L) ↦{qL} g) ∗ ((s1).view.loc (thr d L) ↦{qR} g)
      ∗ semVal (g4 d L) 0 ∗ semVal (g5 d L) 0)

/-- The write-outs' part before trip `k`: nothing in flight before the first trip, else the two batches of the trip before. -/
def wpart (k : Nat) : sProp 𝕄 :=
  if k = 0 then
    iprop((∃ T0, (s3).view.loc (thr d L) ↦[(tr0).view.set]{fullShare} T0) ∗ (∃ T1, (s3).view.loc (thr d L) ↦[(tr1).view.set]{fullShare} T1)
      ∗ semVal (g6 d L) 0 ∗ semVal (g7 d L) 0)
  else
    iprop(∃ (km : Fin k1_t2_loop.trips) (T0 T1 : Buf (Elt F) ((s3).view.loc (thr d L))) (fa0 fa1 fa2 fa3 fa4 fa5 fa6 fa7 fb0 fb1 fb2 fb3 fb4 fb5 fb6 fb7 : Buf (Elt F) ((oW).view.loc (thr d L))),
      ⌜km.val + 1 = k⌝
      ∗ Transfers.Batched countersEmb (thr d L) (SemLoc.dma cc1_scratch6.sem) default 32768 8 (Ds8a d L km T0 fa0 fa1 fa2 fa3 fa4 fa5 fa6 fa7) 0
      ∗ Transfers.Batched countersEmb (thr d L) (SemLoc.dma cc1_scratch7.sem) default 32768 8 (Ds8b d L km T1 fb0 fb1 fb2 fb3 fb4 fb5 fb6 fb7) 0)

/-- The result's blocks before trip `k`: those landed, and those not yet started. -/
def opart (k : Nat) : sProp 𝕄 :=
  iprop(bigSep (doneS k) (blockOwn (F := F) d L) ∗ bigSep (todoS k) (blockOwn (F := F) d L))

/-- Before trip `k` of the main loop. -/
def inv2 (k : Nat) (_ : PUnit) : sProp 𝕄 :=
  iprop(Transfers.MayWaits (thr d L) (none : HIx 2) O
    ∗ ((s0).view.loc (thr d L) ↦{fullShare} X)
    ∗ gpart d L g P k ∗ wpart (F := F) d L k ∗ opart (F := F) d L k
    ∗ ∃ W', ⌜∀ p ∈ W', p ∈ W ∨ p.2 = none⌝ ∗ owes (thr d L) O W')

/-! ## A gather's delivery, restated at the window's closed-form offset -/

theorem doneS_first (k : Nat) (hk : k = 0) : doneS (k + 1) = doneS k := by subst hk; exact doneS_one

omit [FloatOps F] in
theorem flight_std (sem : DmaSem sig) (rows : Memref sig .scVector .vmem S128x128 .f32) (R : Buf (Elt F) (rows.view.loc (thr d L)))
    (off : Fin 1 → Nat) (inb : ∀ a, off a + S128.size a ≤ S13312.size a) (o : Nat) (h : o + 128 ≤ 13312) (e : off = ![o])
    (q p : PosShare TreeShare) :
    (Transfers.Flight countersEmb (thr d L) (SemLoc.dma sem) default 524288
        iprop(((rows.view.loc (thr d L) ↦[rows.view.set]{fullShare} R)
            ∗ ((s1).view.loc (thr d L) ↦[((s1).slice (Rect.unit (s := S13312) off S128.size inb) (fun _ => rfl)).view.set]{q} g))
          ∗ ((pW).view.loc (thr d L) ↦[(pAll).view.set]{p} P)) : sProp 𝕄)
      ⊢ Transfers.Flight countersEmb (thr d L) (SemLoc.dma sem) default 524288
        iprop(((rows.view.loc (thr d L) ↦[rows.view.set]{fullShare} R) ∗ ((s1).view.loc (thr d L) ↦[(jw o h).view.set]{q} g))
          ∗ ((pW).view.loc (thr d L) ↦[(pAll).view.set]{p} P)) := by
  subst e; exact Entails.refl _

omit [FloatOps F] in
theorem rest_std (off : Fin 1 → Nat) (inb : ∀ a, off a + S128.size a ≤ S13312.size a) (o : Nat) (h : o + 128 ≤ 13312) (e : off = ![o])
    (q : PosShare TreeShare) :
    ((s1).view.loc (thr d L) ↦[Finset.univ \ ((s1).slice (Rect.unit (s := S13312) off S128.size inb) (fun _ => rfl)).view.set]{q} g : sProp 𝕄)
      ⊢ (s1).view.loc (thr d L) ↦[Finset.univ \ (jw o h).view.set]{q} g := by
  subst e; exact Entails.refl _

/-! ## A two-half scratch buffer as its halves -/

theorem mem_tr (p : Nat) (hp : ∀ a, (![p, 0, 0] : Fin 3 → Nat) a + S1x64x128.size a ≤ S2x64x128.size a)
    (x : S2x64x128.Idx) :
    x ∈ (((s3).slice (Rect.unit (s := S2x64x128) ![p, 0, 0] S1x64x128.size hp) (fun _ => rfl)).squeeze S64x128 squeezes_S1x64x128_S64x128).view.set
      ↔ (x 0).val = p := by
  have hs : (((s3).slice (Rect.unit (s := S2x64x128) ![p, 0, 0] S1x64x128.size hp) (fun _ => rfl)).squeeze S64x128 squeezes_S1x64x128_S64x128).view.set
      = (Rect.unit (s := S2x64x128) ![p, 0, 0] S1x64x128.size hp).set := by
    show (((s3).view.slice _).reshape _ _).set = _
    rw [View.set_reshape, View.set_slice]
    exact Finset.map_refl
  rw [hs, Rect.mem_set_unit]
  constructor
  · intro h; have h2 : p ≤ (x 0).val ∧ (x 0).val < p + 1 := h 0; omega
  · intro h a
    have h1 : (x 1).val < 64 := (x 1).isLt
    have h2 : (x 2).val < 128 := (x 2).isLt
    match a with
    | ⟨0, _⟩ => show p ≤ (x 0).val ∧ (x 0).val < p + 1; omega
    | ⟨1, _⟩ => show 0 ≤ (x 1).val ∧ (x 1).val < 0 + 64; omega
    | ⟨2, _⟩ => show 0 ≤ (x 2).val ∧ (x 2).val < 0 + 128; omega

theorem tr_disj : Disjoint (tr0).view.set (tr1).view.set := by
  rw [Finset.disjoint_left]; intro x h0 h1
  have a := (mem_tr 0 inb_S2x64x128_S1x64x128_0_0_0 x).mp h0
  have b := (mem_tr 1 inb_S2x64x128_S1x64x128_1_0_0 x).mp h1
  omega
theorem tr_union : (tr0).view.set ∪ (tr1).view.set = Finset.univ := by
  ext x
  simp only [Finset.mem_union, Finset.mem_univ, iff_true]
  have hx : (x 0).val < 2 := (x 0).isLt
  rcases Nat.lt_succ_iff_lt_or_eq.mp hx with h | h
  · exact Or.inl ((mem_tr 0 inb_S2x64x128_S1x64x128_0_0_0 x).mpr (by omega))
  · exact Or.inr ((mem_tr 1 inb_S2x64x128_S1x64x128_1_0_0 x).mpr h)

theorem mem_rows (p : Nat) (hp : ∀ a, (![p, 0, 0] : Fin 3 → Nat) a + S1x128x128.size a ≤ S2x128x128.size a)
    (x : S2x128x128.Idx) :
    x ∈ (((s2).slice (Rect.unit (s := S2x128x128) ![p, 0, 0] S1x128x128.size hp) (fun _ => rfl)).squeeze S128x128 squeezes_S1x128x128_S128x128).view.set
      ↔ (x 0).val = p := by
  have hs : (((s2).slice (Rect.unit (s := S2x128x128) ![p, 0, 0] S1x128x128.size hp) (fun _ => rfl)).squeeze S128x128 squeezes_S1x128x128_S128x128).view.set
      = (Rect.unit (s := S2x128x128) ![p, 0, 0] S1x128x128.size hp).set := by
    show (((s2).view.slice _).reshape _ _).set = _
    rw [View.set_reshape, View.set_slice]
    exact Finset.map_refl
  rw [hs, Rect.mem_set_unit]
  constructor
  · intro h; have h2 : p ≤ (x 0).val ∧ (x 0).val < p + 1 := h 0; omega
  · intro h a
    have h1 : (x 1).val < 128 := (x 1).isLt
    have h2 : (x 2).val < 128 := (x 2).isLt
    match a with
    | ⟨0, _⟩ => show p ≤ (x 0).val ∧ (x 0).val < p + 1; omega
    | ⟨1, _⟩ => show 0 ≤ (x 1).val ∧ (x 1).val < 0 + 128; omega
    | ⟨2, _⟩ => show 0 ≤ (x 2).val ∧ (x 2).val < 0 + 128; omega

theorem rows_disj : Disjoint (rows0).view.set (rows1).view.set := by
  rw [Finset.disjoint_left]; intro x h0 h1
  have a := (mem_rows 0 inb_S2x128x128_S1x128x128_0_0_0 x).mp h0
  have b := (mem_rows 1 inb_S2x128x128_S1x128x128_1_0_0 x).mp h1
  omega
theorem rows_union : (rows0).view.set ∪ (rows1).view.set = Finset.univ := by
  ext x
  simp only [Finset.mem_union, Finset.mem_univ, iff_true]
  have hx : (x 0).val < 2 := (x 0).isLt
  rcases Nat.lt_succ_iff_lt_or_eq.mp hx with h | h
  · exact Or.inl ((mem_rows 0 inb_S2x128x128_S1x128x128_0_0_0 x).mpr (by omega))
  · exact Or.inr ((mem_rows 1 inb_S2x128x128_S1x128x128_1_0_0 x).mpr h)

omit [FloatOps F] in
theorem tr_halves (f : Buf (Elt F) ((s3).view.loc (thr d L))) :
    ((s3).view.loc (thr d L) ↦{fullShare} f : sProp 𝕄)
      ⊣⊢ iprop(((s3).view.loc (thr d L) ↦[(tr0).view.set]{fullShare} f) ∗ ((s3).view.loc (thr d L) ↦[(tr1).view.set]{fullShare} f)) := by
  have h : ((s3).view.loc (thr d L) ↦[(tr0).view.set ∪ (tr1).view.set]{fullShare} f : sProp 𝕄)
      ⊣⊢ iprop(((s3).view.loc (thr d L) ↦[(tr0).view.set]{fullShare} f) ∗ ((s3).view.loc (thr d L) ↦[(tr1).view.set]{fullShare} f)) :=
    pointsTo_union tr_disj
  rw [tr_union] at h
  exact h

omit [FloatOps F] in
theorem tr_join (f f' : Buf (Elt F) ((s3).view.loc (thr d L))) :
    iprop(((s3).view.loc (thr d L) ↦[(tr0).view.set]{fullShare} f) ∗ ((s3).view.loc (thr d L) ↦[(tr1).view.set]{fullShare} f') : sProp 𝕄)
      ⊢ iprop(∃ h, (s3).view.loc (thr d L) ↦{fullShare} h) := by
  have h : iprop(((s3).view.loc (thr d L) ↦[(tr0).view.set]{fullShare} f) ∗ ((s3).view.loc (thr d L) ↦[(tr1).view.set]{fullShare} f') : sProp 𝕄)
      ⊢ ((s3).view.loc (thr d L) ↦[(tr0).view.set ∪ (tr1).view.set]{fullShare} ((tr1).view.set.piecewise f' f)) :=
    pointsTo_join tr_disj
  rw [tr_union] at h
  iintro H
  iexists _
  iapply h; iexact H

omit [FloatOps F] in
theorem rows_halves (f : Buf (Elt F) ((s2).view.loc (thr d L))) :
    ((s2).view.loc (thr d L) ↦{fullShare} f : sProp 𝕄)
      ⊣⊢ iprop(((s2).view.loc (thr d L) ↦[(rows0).view.set]{fullShare} f) ∗ ((s2).view.loc (thr d L) ↦[(rows1).view.set]{fullShare} f)) := by
  have h : ((s2).view.loc (thr d L) ↦[(rows0).view.set ∪ (rows1).view.set]{fullShare} f : sProp 𝕄)
      ⊣⊢ iprop(((s2).view.loc (thr d L) ↦[(rows0).view.set]{fullShare} f) ∗ ((s2).view.loc (thr d L) ↦[(rows1).view.set]{fullShare} f)) :=
    pointsTo_union rows_disj
  rw [rows_union] at h
  exact h

omit [FloatOps F] in
theorem rows_join (f f' : Buf (Elt F) ((s2).view.loc (thr d L))) :
    iprop(((s2).view.loc (thr d L) ↦[(rows0).view.set]{fullShare} f) ∗ ((s2).view.loc (thr d L) ↦[(rows1).view.set]{fullShare} f') : sProp 𝕄)
      ⊢ iprop(∃ h, (s2).view.loc (thr d L) ↦{fullShare} h) := by
  have h : iprop(((s2).view.loc (thr d L) ↦[(rows0).view.set]{fullShare} f) ∗ ((s2).view.loc (thr d L) ↦[(rows1).view.set]{fullShare} f') : sProp 𝕄)
      ⊢ ((s2).view.loc (thr d L) ↦[(rows0).view.set ∪ (rows1).view.set]{fullShare} ((rows1).view.set.piecewise f' f)) :=
    pointsTo_join rows_disj
  rw [rows_union] at h
  iintro H
  iexists _
  iapply h; iexact H

set_option maxHeartbeats 4000000 in
theorem trip_first
    (hin : ∀ (r : Rect S13312) (hr : ∀ a, r.stride a = 1) (x : r.shape.Idx), (((s1).slice r hr).view.read (Elt F) g x).toNat < 500000)
    (k : Fin k1_t2_loop.trips) (hk : k.val = 0) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  have hgt : ¬ Scalar.cmpi .ne (Scalar.extui (Scalar.cmpi .sgt (Scf.iv 0#32 1#32 k) 0#32)) 0#32 = 1#1 :=
    fun h => absurd ((gt0_iff k).mp h) (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2
  iintro ⟨Hmw, H0, HG, HWP, HOP, %W', %hW', HO⟩
  ihave HG := (Entails.of_eq (show gpart (F := F) d L g P k.val = _ from dif_pos h52)) $$ HG
  icases HG with ⟨%R0, %R1, HF6, HpL, H1L, HF7, HpR, H1R⟩
  ihave HWP := (Entails.of_eq (show wpart (F := F) d L k.val = _ from if_pos hk)) $$ HWP
  icases HWP with ⟨⟨%T0, HT0⟩, ⟨%T1, HT1⟩, Hs6, Hs7⟩
  ihave HOP := (Entails.of_eq (show opart (F := F) d L k.val = iprop(bigSep (doneS k.val) (blockOwn (F := F) d L) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  sl_for (fun (_ : Nat) (_ : PUnit) => iprop(((s0).view.loc (thr d L) ↦{fullShare} X) ∗ ((s2).view.loc (thr d L) ↦[(rows0).view.set]{fullShare} R0)
      ∗ (∃ Tt, (s3).view.loc (thr d L) ↦[(tr0).view.set]{fullShare} Tt) : sProp 𝕄)) $$ [H0 HF6_dst HT0]
  case region => intro t u'; exact step3F d L k _ _ t u' X R0
  · isplitl [H0]; · iexact H0
    isplitl [HF6_dst]; · iexact HF6_dst
    iexists _; iexact HT0
  iintro %_ HI
  icases HI with ⟨H0, HR0, %T0', HT0⟩
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  sl_for (fun (_ : Nat) (_ : PUnit) => iprop(((s0).view.loc (thr d L) ↦{fullShare} X) ∗ ((s2).view.loc (thr d L) ↦[(rows1).view.set]{fullShare} R1)
      ∗ (∃ Tt, (s3).view.loc (thr d L) ↦[(tr1).view.set]{fullShare} Tt) : sProp 𝕄)) $$ [H0 HF7_dst HT1]
  case region => intro t u'; exact step4F d L k _ _ _ t u' X R1
  · isplitl [H0]; · iexact H0
    isplitl [HF7_dst]; · iexact HF7_dst
    iexists _; iexact HT1
  iintro %_ HI
  icases HI with ⟨H0, HR1, %T1', HT1⟩
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpart (F := F) d L g P (k.val + 1) = _ from dif_pos (show k.val + 1 < 52 by omega)]
    iexists _, _
    isplitl [HF6]; · iapply (flight_std (F := F) d L g P cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g P cc1_scratch5.sem rows1 _ (k1_off14 k) _ (256 * (k.val + 1) + 128) _ e14 qR (pR L)); iexact HF7
    isplitl [HpR]; · iexact HpR
    iapply (rest_std (F := F) d L g (k1_off14 k) _ (256 * (k.val + 1) + 128) _ e14 qR); iexact H1R
  isplitl [Hs6 Hs7]
  · rw [show wpart (F := F) d L (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitl [Hs6]; · iexact Hs6
    iexact Hs7
  isplitl [Hdone Htodo]
  · unfold opart
    isplitr [Htodo]
    · rw [doneS_first k.val hk]; iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem trip_mid
    (hin : ∀ (r : Rect S13312) (hr : ∀ a, r.stride a = 1) (x : r.shape.Idx), (((s1).slice r hr).view.read (Elt F) g x).toNat < 500000)
    (k : Fin k1_t2_loop.trips) (hk : 0 < k.val ∧ k.val < 51) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2
  iintro ⟨Hmw, H0, HG, HWP, HOP, %W', %hW', HO⟩
  ihave HG := (Entails.of_eq (show gpart (F := F) d L g P k.val = _ from dif_pos h52)) $$ HG
  icases HG with ⟨%R0, %R1, HF6, HpL, H1L, HF7, HpR, H1R⟩
  ihave HWP := (Entails.of_eq (show wpart (F := F) d L k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, HB8, HB9⟩
  ihave HOP := (Entails.of_eq (show opart (F := F) d L k.val = iprop(bigSep (doneS k.val) (blockOwn (F := F) d L) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockOwn_intro (F := F) d L km 0 _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (fun (_ : Nat) (_ : PUnit) => iprop(((s0).view.loc (thr d L) ↦{fullShare} X) ∗ ((s2).view.loc (thr d L) ↦[(rows0).view.set]{fullShare} R0)
      ∗ (∃ Tt, (s3).view.loc (thr d L) ↦[(tr0).view.set]{fullShare} Tt) : sProp 𝕄)) $$ [H0 HF6_dst HT0]
  case region => intro t u'; exact step3F d L k _ _ t u' X R0
  · isplitl [H0]; · iexact H0
    isplitl [HF6_dst]; · iexact HF6_dst
    iexists _; iexact HT0
  iintro %_ HI
  icases HI with ⟨H0, HR0, %T0', HT0⟩
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockOwn_intro (F := F) d L km 1 _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (fun (_ : Nat) (_ : PUnit) => iprop(((s0).view.loc (thr d L) ↦{fullShare} X) ∗ ((s2).view.loc (thr d L) ↦[(rows1).view.set]{fullShare} R1)
      ∗ (∃ Tt, (s3).view.loc (thr d L) ↦[(tr1).view.set]{fullShare} Tt) : sProp 𝕄)) $$ [H0 HF7_dst HT1]
  case region => intro t u'; exact step4F d L k _ _ _ t u' X R1
  · isplitl [H0]; · iexact H0
    isplitl [HF7_dst]; · iexact HF7_dst
    iexists _; iexact HT1
  iintro %_ HI
  icases HI with ⟨H0, HR1, %T1', HT1⟩
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpart (F := F) d L g P (k.val + 1) = _ from dif_pos (show k.val + 1 < 52 by omega)]
    iexists _, _
    isplitl [HF6]; · iapply (flight_std (F := F) d L g P cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g P cc1_scratch5.sem rows1 _ (k1_off14 k) _ (256 * (k.val + 1) + 128) _ e14 qR (pR L)); iexact HF7
    isplitl [HpR]; · iexact HpR
    iapply (rest_std (F := F) d L g (k1_off14 k) _ (256 * (k.val + 1) + 128) _ e14 qR); iexact H1R
  isplitl [HB8 HB9]
  · rw [show wpart (F := F) d L (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitl [HB8]; · iexact HB8
    iexact HB9
  isplitl [Hdone Htodo Hdn0 Hdn1]
  · unfold opart
    isplitr [Htodo]
    · iapply (Entails.of_eq (show iprop(blockOwn (F := F) d L (kkOf km 1) ∗ blockOwn (F := F) d L (kkOf km 0) ∗ bigSep (doneS k.val) (blockOwn (F := F) d L))
          = bigSep (doneS (k.val + 1)) (blockOwn (F := F) d L) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem trip_last
    (hin : ∀ (r : Rect S13312) (hr : ∀ a, r.stride a = 1) (x : r.shape.Idx), (((s1).slice r hr).view.read (Elt F) g x).toNat < 500000)
    (k : Fin k1_t2_loop.trips) (hk : k.val = 51) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : ¬ k1_cond2 k = 1#1 := fun h => absurd ((k1_cond2_iff k).mp h) (by omega)
  have hc4 : ¬ k1_cond4 k = 1#1 := fun h => absurd ((k1_cond4_iff k).mp h) (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2
  iintro ⟨Hmw, H0, HG, HWP, HOP, %W', %hW', HO⟩
  ihave HG := (Entails.of_eq (show gpart (F := F) d L g P k.val = _ from dif_pos h52)) $$ HG
  icases HG with ⟨%R0, %R1, HF6, HpL, H1L, HF7, HpR, H1R⟩
  ihave HWP := (Entails.of_eq (show wpart (F := F) d L k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, HB8, HB9⟩
  ihave HOP := (Entails.of_eq (show opart (F := F) d L k.val = iprop(bigSep (doneS k.val) (blockOwn (F := F) d L) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockOwn_intro (F := F) d L km 0 _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (fun (_ : Nat) (_ : PUnit) => iprop(((s0).view.loc (thr d L) ↦{fullShare} X) ∗ ((s2).view.loc (thr d L) ↦[(rows0).view.set]{fullShare} R0)
      ∗ (∃ Tt, (s3).view.loc (thr d L) ↦[(tr0).view.set]{fullShare} Tt) : sProp 𝕄)) $$ [H0 HF6_dst HT0]
  case region => intro t u'; exact step3F d L k _ _ t u' X R0
  · isplitl [H0]; · iexact H0
    isplitl [HF6_dst]; · iexact HF6_dst
    iexists _; iexact HT0
  iintro %_ HI
  icases HI with ⟨H0, HR0, %T0', HT0⟩
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockOwn_intro (F := F) d L km 1 _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (fun (_ : Nat) (_ : PUnit) => iprop(((s0).view.loc (thr d L) ↦{fullShare} X) ∗ ((s2).view.loc (thr d L) ↦[(rows1).view.set]{fullShare} R1)
      ∗ (∃ Tt, (s3).view.loc (thr d L) ↦[(tr1).view.set]{fullShare} Tt) : sProp 𝕄)) $$ [H0 HF7_dst HT1]
  case region => intro t u'; exact step4F d L k _ _ _ t u' X R1
  · isplitl [H0]; · iexact H0
    isplitl [HF7_dst]; · iexact HF7_dst
    iexists _; iexact HT1
  iintro %_ HI
  icases HI with ⟨H0, HR1, %T1', HT1⟩
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  isplitl [HF6 HpL H1L HF7 HpR H1R HR0 HR1]
  · rw [show gpart (F := F) d L g P (k.val + 1) = _ from dif_neg (show ¬ k.val + 1 < 52 by omega)]
    iexists R0, R1
    isplitl [HR0]; · iexact HR0
    isplitl [HR1]; · iexact HR1
    isplitl [HpL]; · iexact HpL
    isplitl [HpR]; · iexact HpR
    isplitl [H1L]; · iexact H1L
    isplitl [H1R]; · iexact H1R
    isplitl [HF6]; · iexact HF6
    iexact HF7
  isplitl [HB8 HB9]
  · rw [show wpart (F := F) d L (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitl [HB8]; · iexact HB8
    iexact HB9
  isplitl [Hdone Htodo Hdn0 Hdn1]
  · unfold opart
    isplitr [Htodo]
    · iapply (Entails.of_eq (show iprop(blockOwn (F := F) d L (kkOf km 1) ∗ blockOwn (F := F) d L (kkOf km 0) ∗ bigSep (doneS k.val) (blockOwn (F := F) d L))
          = bigSep (doneS (k.val + 1)) (blockOwn (F := F) d L) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

theorem trip2
    (hin : ∀ (r : Rect S13312) (hr : ∀ a, r.stride a = 1) (x : r.shape.Idx), (((s1).slice r hr).view.read (Elt F) g x).toNat < 500000)
    (k : Fin k1_t2_loop.trips) (v2 : BitVec 32) (u : Unit) :
    inv2 (F := F) d L O W X g P k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2 d L O W X g P (k.val + 1)) := by
  have h52 : k.val < 52 := Nat.lt_of_lt_of_eq k.isLt trips2
  rcases Nat.eq_zero_or_pos k.val with h0 | hpos
  · exact trip_first d L O W X g P hin k h0 v2 u
  · rcases Nat.lt_or_ge k.val 51 with hlt | hge
    · exact trip_mid d L O W X g P hin k ⟨hpos, hlt⟩ v2 u
    · exact trip_last d L O W X g P hin k (by omega) v2 u

omit [FloatOps F] in
theorem pts_i (q : PosShare TreeShare) (f : Buf (Elt F) (Tiles.flatLoc d)) :
    ((iW).view.loc (thr d L) ↦{q} f : sProp 𝕄) = Tiles.flatLoc d ↦{q} f := by
  simp only [Memref.view_whole, View.set_whole]
omit [FloatOps F] in
theorem pts_p (q : PosShare TreeShare) (f : Buf (Elt F) (Tiles.pairsLoc d)) :
    ((pW).view.loc (thr d L) ↦{q} f : sProp 𝕄) = Tiles.pairsLoc d ↦{q} f := by
  simp only [Memref.view_whole, View.set_whole]

theorem doneS_zero : doneS 0 = ∅ := by
  ext b; simp only [doneS, Finset.mem_filter, Finset.mem_univ, true_and, Finset.notMem_empty, iff_false]; omega
theorem todoS_zero : todoS 0 = Finset.univ := by
  ext b; simp only [todoS, Finset.mem_filter, Finset.mem_univ, true_and, iff_true]; omega
theorem doneS_all : doneS 53 = Finset.univ := by
  ext b; simp only [doneS, Finset.mem_filter, Finset.mem_univ, true_and, iff_true]; have := b.isLt; omega

set_option maxHeartbeats 4000000 in
theorem tile_body1F (hF : (K (F := F)).Facts) (m : (ℓ : Loc nD τ sig) → Buf (Elt F) ℓ)
    (hI : ∀ i, ((Tiles.IDS m d) i).toNat ≤ 999999)
    (O : CellTallies nD τ sig (HIx 2)) (W : Waits sig (HIx 2)) (hO : ∀ g, O g none = 0) :
    iprop(levAts (K (F := F)).L (K (F := F)).lev ∗ Tiles.go1 m d (Tiles.c1Of L) (Tiles.s1Of L)
        ∗ scopedBufs (thr d L) ∗ scopedSems0 (thr d L) ∗ owes (thr d L) O W)
      ⊢ wp frame (wpE (defs₀ (F := F)) 𝒱₀ (thr d L) none) Set.univ
          (cc1_k L iW (Memref.isWhole_whole _) pW (Memref.isWhole_whole _) oW (Memref.isWhole_whole _) s0 (Memref.isWhole_whole _) s1 (Memref.isWhole_whole _) s2 (Memref.isWhole_whole _) s3 (Memref.isWhole_whole _) cc1_scratch4 cc1_scratch5 cc1_scratch6 cc1_scratch7 cc1_scoped0)
          fun _ => iprop(Tiles.go1 m d (Tiles.c1Of L) (Tiles.s1Of L) ∗ scopedBufs (thr d L) ∗ scopedSems0 (thr d L)
            ∗ ∃ W', ⌜∀ p ∈ W', p ∈ W ∨ p.2 = none⌝ ∗ owes (thr d L) O W') := by
  have hW0 : ∀ p ∈ W, p ∈ W ∨ p.2 = (none : HIx 2) := fun p hp => Or.inl hp
  simp only [cc1_k_eq_skeleton]; unfold cc1_k_skel
  rw [(K (F := F)).scopedBufs_V hF d (cV L) (jV L), SparseCore.Cfg.scopedSems0_V (Val := Elt F) d (cV L) (jV L), ownSems0_V1, ownBufs_V1]
  unfold Tiles.go1
  iintro ⟨#Hlv, ⟨Hi, Hp, Hq, Hout⟩, ⟨⟨%f0, H0⟩, ⟨%f1, H1⟩, ⟨%f2, H2⟩, ⟨%f3, H3⟩, Hbufs⟩, ⟨Hs4, Hs5, Hs6, Hs7, HsS, Hsems⟩, HO⟩
  ihave Hmw := ((K (F := F)).mayWaits_none (thr := thr d L) hO) $$ Hlv
  ihave Hi' := (Entails.of_eq (pts_i (F := F) d L _ _).symm) $$ Hi
  ihave Hp' := (Entails.of_eq (pts_p (F := F) d L _ _).symm) $$ Hp
  ihave Hq' := (Entails.of_eq (pts_p (F := F) d L _ _).symm) $$ Hq
  ihave H0' := (Entails.of_eq (show (((s0).view.loc (thr d L) ↦{fullShare} f0 : sProp 𝕄)) = _ from rfl).symm) $$ H0
  ihave H1' := (Entails.of_eq (show (((s1).view.loc (thr d L) ↦{fullShare} f1 : sProp 𝕄)) = _ from rfl).symm) $$ H1
  ihave H2h := (rows_halves (F := F) d L f2).1 $$ H2
  icases H2h with ⟨HR0, HR1⟩
  ihave H3h := (tr_halves (F := F) d L f3).1 $$ H3
  icases H3h with ⟨HT0, HT1⟩
  sl_exec
  sl_for (inv1 d L O) $$ [Hmw H0' H1']
  case region => intro k hk; exact step1 d L O k hk
  · unfold inv1
    isplitl [Hmw]; · iexact Hmw
    isplitl [H0']
    · iexists _; isplitl [H0']
      · iexact H0'
      · ipureintro
        intro j
        rw [View.write_whole_univ]
        exact hI _
    iexists f1; isplitl [H1']
    · iexact H1'
    · ipureintro; intro j hj; exact absurd hj (by simp)
  iintro %_ HI
  unfold inv1
  icases HI with ⟨Hmw, ⟨%X, H0, %hX⟩, %g, H1, %hg⟩
  have hin : ∀ (r : Rect S13312) (hr : ∀ a, r.stride a = 1) (x : r.shape.Idx), (((s1).slice r hr).view.read (Elt F) g x).toNat < 500000 := hin_of_exit (F := F) g hg
  ihave H1s := (show ((s1).view.loc (thr d L) ↦{fullShare} g : sProp 𝕄) ⊢ iprop(((s1).view.loc (thr d L) ↦{qL} g) ∗ ((s1).view.loc (thr d L) ↦{qR} g)) from (pointsTo_share (PosShare.mem_left_op_right fullShare)).1) $$ H1
  icases H1s with ⟨H1L, H1R⟩
  ihave HR0 := (Entails.of_eq (show ((rows0).view.loc (thr d L) ↦[(rows0).view.set]{fullShare} f2 : sProp 𝕄) = _ from rfl).symm) $$ HR0
  ihave HR1 := (Entails.of_eq (show ((rows1).view.loc (thr d L) ↦[(rows1).view.set]{fullShare} f2 : sProp 𝕄) = _ from rfl).symm) $$ HR1
  sl_exec
  sl_for (inv2 (F := F) d L O W X g (Cert.Lookup.pairs (Tiles.TAB m d))) $$ [Hmw H0 Hs4 Hp' H1L Hs5 Hq' H1R HT0 HT1 Hs6 Hs7 Hout HO]
  case region => intro k u; exact trip2 d L O W X g _ hin k _ u
  · unfold inv2
    isplitl [Hmw]; · iexact Hmw
    isplitl [H0]; · iexact H0
    isplitl [Hs4 Hp' H1L Hs5 Hq' H1R]
    · rw [show gpart (F := F) d L g (Cert.Lookup.pairs (Tiles.TAB m d)) 0 = _ from dif_pos (show 0 < 52 by omega)]
      iexists _, _
      isplitl [Hs4]; · iapply (flight_std (F := F) d L g _ cc1_scratch4.sem rows0 _ ![0] _ (256 * 0) _ rfl qL (pL L)); iexact Hs4
      isplitl [Hp']; · iexact Hp'
      isplitl [H1L]; · iapply (rest_std (F := F) d L g ![0] _ (256 * 0) _ rfl qL); iexact H1L
      isplitl [Hs5]; · iapply (flight_std (F := F) d L g _ cc1_scratch5.sem rows1 _ ![128] _ (256 * 0 + 128) _ rfl qR (pR L)); iexact Hs5
      isplitl [Hq']; · iexact Hq'
      iapply (rest_std (F := F) d L g ![128] _ (256 * 0 + 128) _ rfl qR); iexact H1R
    isplitl [HT0 HT1 Hs6 Hs7]
    · rw [show wpart (F := F) d L 0 = _ from if_pos rfl]
      isplitl [HT0]; · iexists _; iexact HT0
      isplitl [HT1]; · iexists _; iexact HT1
      isplitl [Hs6]; · iexact Hs6
      iexact Hs7
    isplitl [Hout]
    · unfold opart
      rw [doneS_zero, todoS_zero, bigSep_empty]
      isplitr
      · iempintro
      · iapply (Entails.of_eq (bigSep_univ_prod (fun p : Fin 104 × Fin 8 =>
          iprop(∃ f, Tiles.out5Loc d ↦[Tiles.outSet (Tiles.blkOf (Tiles.c1Of L) (Tiles.s1Of L) p.1) p.2]{fullShare} f))))
        iexact Hout
    iexists _; isplitr
    on_goal 2 => iexact HO
    ipureintro
    repeat' (first | exact hW0 | (refine (Finset.forall_mem_insert _ _ _).mpr ⟨Or.inr rfl, ?_⟩))
  iintro %_ HI
  have ht : Scf.trips k1_t2_loop.lb k1_t2_loop.ub k1_t2_loop.st = 52 := by decide
  ihave HI := (Entails.of_eq (show inv2 (F := F) d L O W X g (Cert.Lookup.pairs (Tiles.TAB m d)) (Scf.trips k1_t2_loop.lb k1_t2_loop.ub k1_t2_loop.st) _
      = inv2 (F := F) d L O W X g (Cert.Lookup.pairs (Tiles.TAB m d)) 52 _ from by rw [ht])) $$ HI
  unfold inv2
  icases HI with ⟨Hmw2, H0, HG, HWP, HOP, %W', %hW', HO⟩
  ihave HG := (Entails.of_eq (show gpart (F := F) d L g (Cert.Lookup.pairs (Tiles.TAB m d)) 52 = _ from dif_neg (by omega))) $$ HG
  icases HG with ⟨%R0, %R1, HR0e, HR1e, HpL, HpR, H1L, H1R, Hc6, Hc7⟩
  ihave HWP := (Entails.of_eq (show wpart (F := F) d L 52 = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, HB8, HB9⟩
  ihave HOP := (Entails.of_eq (show opart (F := F) d L 52 = iprop(bigSep (doneS 52) (blockOwn (F := F) d L) ∗ bigSep (todoS 52) (blockOwn (F := F) d L)) from rfl)) $$ HOP
  icases HOP with ⟨Hdone, Htodo⟩
  sl_exec
  sl_step
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockOwn_intro (F := F) d L km 0 _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockOwn_intro (F := F) d L km 1 _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  isplitl [Hi' HpL HpR Hdone Hdn0 Hdn1]
  · isplitl [Hi']; · iapply (Entails.of_eq (pts_i (F := F) d L _ _)); iexact Hi'
    isplitl [HpL]; · iapply (Entails.of_eq (pts_p (F := F) d L _ _)); iexact HpL
    isplitl [HpR]; · iapply (Entails.of_eq (pts_p (F := F) d L _ _)); iexact HpR
    iapply (Entails.of_eq (bigSep_univ_prod (fun p : Fin 104 × Fin 8 =>
      iprop(∃ f, Tiles.out5Loc d ↦[Tiles.outSet (Tiles.blkOf (Tiles.c1Of L) (Tiles.s1Of L) p.1) p.2]{fullShare} f))).symm)
    iapply (Entails.of_eq (show iprop(blockOwn (F := F) d L (kkOf km 1) ∗ blockOwn (F := F) d L (kkOf km 0) ∗ bigSep (doneS 52) (blockOwn (F := F) d L))
        = bigSep Finset.univ (blockOwn (F := F) d L) from by
      rw [← doneS_all, doneS_succ 52 km hkm, bigSep_insert (doneS_n1 52 km hkm), bigSep_insert (doneS_n0 52 km hkm)]; rfl))
    isplitl [Hdn1]; · iexact Hdn1
    isplitl [Hdn0]; · iexact Hdn0
    iexact Hdone
  isplitl [H0 H1L H1R HR0e HR1e HT0 HT1 Hbufs]
  · isplitl [H0]; · iexists _; iexact H0
    isplitl [H1L H1R]
    · iexists g
      iapply (show iprop(((s1).view.loc (thr d L) ↦{qL} g) ∗ ((s1).view.loc (thr d L) ↦{qR} g)) ⊢ ((s1).view.loc (thr d L) ↦{fullShare} g : sProp 𝕄)
        from (pointsTo_share (PosShare.mem_left_op_right fullShare)).2)
      isplitl [H1L]; · iexact H1L
      iexact H1R
    isplitl [HR0e HR1e]
    · iapply (rows_join (F := F) d L R0 R1)
      isplitl [HR0e]; · iexact HR0e
      iexact HR1e
    isplitl [HT0 HT1]
    · iapply (tr_join (F := F) d L T0 T1)
      isplitl [HT0]; · iexact HT0
      iexact HT1
    iexact Hbufs
  isplitl [Hc6 Hc7 HB8 HB9 HsS Hsems]
  · isplitl [Hc6]; · iexact Hc6
    isplitl [Hc7]; · iexact Hc7
    isplitl [HB8]; · iexact HB8
    isplitl [HB9]; · iexact HB9
    isplitl [HsS]; · iexact HsS
    iexact Hsems
  iexists _; isplitr
  on_goal 2 => iexact HO
  ipureintro
  repeat' (first | exact hW' | (refine (Finset.forall_mem_insert _ _ _).mpr ⟨Or.inr rfl, ?_⟩))

end Cert.Proof.KB.Body1

end
-- ==== Proof.Body1Val_b.lean ====
/-
  The gather kernel's tile body, the values of one trip of its main loop, as statements about arrays.

  Trip k of tile w handles blocks 2k and 2k + 1 of the tile: block B = 104·w + 2k + p is feature ⌊B/128⌋ and batch
  chunk B mod 128, and its 128 index words are entries 128·B … of the flat index list. For each word x the gather
  brings line ⌊x/2⌋ of the pair table — rows 2⌊x/2⌋ and 2⌊x/2⌋ + 1 of the table side by side — and the transposing
  loop leaves at (dd, r) of the transposed half the word of row r at column dd of the half x mod 2 names: the table's
  word dd of row x. That is the gathered rows' entry (⌊B/128⌋, ⌊dd/8⌋, B mod 128, dd mod 8, r); rows 8·i … 8·i + 7
  of the transposed half, written whole into window i of the block, therefore leave the gathered rows there.
-/
import proofs.«204055_g19524921328135_cont_8to1_763_20_alg».proof.Proof.Body1Frame_b
import proofs.«204055_g19524921328135_cont_8to1_763_20_alg».proof.Proof.HostSide_b

noncomputable section

namespace Cert.Proof.KB.Body1

open Cert.Kernel Cert.Kernel.Gen Cert.Proof.KB
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds

variable {F : FTy → Type}

local notation "𝕄" => MT nD τ sig (HIx 2) (Elt F) ℕ UU ℕ

variable [FloatOps F]

namespace Val

/-! ## From a block's transposed half to the gathered rows -/

section Core

variable (IDS : Cert.Lookup.SIds.Idx → BitVec 32) (TAB : Cert.Lookup.STab.Idx → Elt F .f32)

/-- Entry r of block Bv of the flat index list is the index of batch row (Bv mod 128)·128 + r, feature ⌊Bv/128⌋. -/
theorem flat_at_block (Bv : Nat) (hB : Bv < 3328) (r : Fin 128) :
    Cert.Lookup.flatIds IDS (ix1 (⟨128 * Bv + r.val, by have := r.isLt; omega⟩ : Fin 425984))
      = IDS (ix2 (⟨(Bv % 128) * 128 + r.val, by have := r.isLt; omega⟩ : Fin 16384) (⟨Bv / 128, by omega⟩ : Fin 26)) := by
  have hr := r.isLt
  have h := Cert.HostSideB.flatIds_at IDS (⟨Bv / 128, by omega⟩ : Fin 26) (⟨(Bv % 128) * 128 + r.val, by omega⟩ : Fin 16384)
  have hi : (⟨(⟨Bv / 128, by omega⟩ : Fin 26).val * 16384 + (⟨(Bv % 128) * 128 + r.val, by omega⟩ : Fin 16384).val, by
      show Bv / 128 * 16384 + ((Bv % 128) * 128 + r.val) < 425984; omega⟩ : Fin 425984)
      = ⟨128 * Bv + r.val, by omega⟩ := Fin.ext (by show Bv / 128 * 16384 + ((Bv % 128) * 128 + r.val) = 128 * Bv + r.val; omega)
  rw [hi] at h
  exact h

/-- Line ⌊x/2⌋ of the pair table holds row x of the table in its half x mod 2. -/
theorem pairs_at (x : Nat) (hx : x ≤ 999999) (dd : Fin 64) :
    Cert.Lookup.pairs TAB (ix2 (⟨x / 2, by omega⟩ : Fin 500000) (⟨dd.val + 64 * (x % 2), by have := dd.isLt; omega⟩ : Fin 128))
      = TAB (ix2 (⟨x, by omega⟩ : Fin 1000000) dd) := by
  have hdd := dd.isLt
  have h := Cert.HostSideB.pairs_row TAB (⟨x, by omega⟩ : Fin 1000000) dd
  have hi : (⟨((⟨x, by omega⟩ : Fin 1000000).val % 2) * 64 + dd.val, by show (x % 2) * 64 + dd.val < 128; omega⟩ : Fin 128)
      = ⟨dd.val + 64 * (x % 2), by omega⟩ := Fin.ext (by show (x % 2) * 64 + dd.val = dd.val + 64 * (x % 2); omega)
  rw [hi] at h
  exact h

/-- The gathered rows at window ⌊dd/8⌋, row dd mod 8, column r of block Bv: the table's word dd of the row that the
    block's index r names. -/
theorem out5_block (Bv : Nat) (hB : Bv < 3328) (dd : Fin 64) (r : Fin 128) :
    Cert.Lookup.out5 IDS TAB (ix5 (⟨Bv / 128, by omega⟩ : Fin 26) (⟨dd.val / 8, by have := dd.isLt; omega⟩ : Fin 8)
        (⟨Bv % 128, Nat.mod_lt _ (by decide)⟩ : Fin 128) (⟨dd.val % 8, Nat.mod_lt _ (by decide)⟩ : Fin 8) r)
      = TAB (ix2 (Cert.Lookup.rowOf (IDS (ix2 (⟨(Bv % 128) * 128 + r.val, by have := r.isLt; omega⟩ : Fin 16384)
          (⟨Bv / 128, by omega⟩ : Fin 26)))) dd) := by
  have hr := r.isLt
  have hdd := dd.isLt
  have h := Cert.HostSideB.out5_at IDS TAB (⟨(Bv % 128) * 128 + r.val, by omega⟩ : Fin 16384) (⟨Bv / 128, by omega⟩ : Fin 26) dd
  have h1 : (⟨(⟨(Bv % 128) * 128 + r.val, by omega⟩ : Fin 16384).val / 128, by
      show ((Bv % 128) * 128 + r.val) / 128 < 128; omega⟩ : Fin 128) = ⟨Bv % 128, Nat.mod_lt _ (by decide)⟩ :=
    Fin.ext (by show ((Bv % 128) * 128 + r.val) / 128 = Bv % 128; omega)
  have h2 : (⟨(⟨(Bv % 128) * 128 + r.val, by omega⟩ : Fin 16384).val % 128, by
      show ((Bv % 128) * 128 + r.val) % 128 < 128; omega⟩ : Fin 128) = r :=
    Fin.ext (by show ((Bv % 128) * 128 + r.val) % 128 = r.val; omega)
  rw [h1, h2] at h
  exact h

/-- A word shifted right by one bit is its half. -/
theorem shr1_val (x : BitVec 32) : (IntOp.shrui .vector x 1#32).toNat = x.toNat / 2 := by
  have e : IntOp.shrui .vector x 1#32 = x >>> 1 := by simp [IntOp.shrui]
  rw [e, BitVec.toNat_ushiftRight, Nat.shiftRight_eq_div_pow]

end Core

section Block

variable (IDS : Cert.Lookup.SIds.Idx → BitVec 32) (TAB : Cert.Lookup.STab.Idx → Elt F .f32)

/-- A block's transposed half is its window of the gathered rows: when the block's 128 index words are entries
    128·Bv … of the flat list, the gathered half holds for each of them line ⌊word/2⌋ of the pair table, and element
    (dd, r) of the transposed half is the gathered word of row r at column dd of the half the word's low bit names. -/
theorem trOK_core (Bv : Nat) (hB : Bv < 3328) (xw : Fin 128 → BitVec 32)
    (hx : ∀ r : Fin 128, xw r = Cert.Lookup.flatIds IDS (ix1 (⟨128 * Bv + r.val, by have := r.isLt; omega⟩ : Fin 425984)))
    (hI : ∀ i, (IDS i).toNat ≤ 999999)
    (Rr : Vec F S128x128 .f32)
    (hrows : ∀ (r c : Fin 128) (h : (xw r).toNat / 2 < 500000),
      Rr (ix2 r c) = Cert.Lookup.pairs TAB (ix2 (⟨(xw r).toNat / 2, h⟩ : Fin 500000) c))
    (G : Vec F S64x128 .f32)
    (hexit : ∀ (dd : Fin 64) (r : Fin 128),
      G (ix2 dd r) = Rr (ix2 r (⟨dd.val + 64 * ((xw r).toNat % 2), by have := dd.isLt; omega⟩ : Fin 128)))
    (dd : Fin 64) (r : Fin 128) :
    G (ix2 dd r) = Cert.Lookup.out5 IDS TAB (ix5 (⟨Bv / 128, by omega⟩ : Fin 26) (⟨dd.val / 8, by have := dd.isLt; omega⟩ : Fin 8)
        (⟨Bv % 128, Nat.mod_lt _ (by decide)⟩ : Fin 128) (⟨dd.val % 8, Nat.mod_lt _ (by decide)⟩ : Fin 8) r) := by
  have hxr := (hx r).trans (flat_at_block IDS Bv hB r)
  have hle : (xw r).toNat ≤ 999999 := by rw [hxr]; exact hI _
  rw [hexit dd r, hrows r _ (by omega), pairs_at TAB (xw r).toNat hle dd, out5_block IDS TAB Bv hB dd r, ← hxr]
  refine congrArg (fun w : Fin 1000000 => TAB (ix2 w dd)) (Fin.ext ?_)
  exact (Cert.Lookup.rowOf_val hle).symm

end Block

/-! ## A landed window of the result -/

section Window

/-- A rank-2 index among the indices of the shape with three leading axes of size one. -/
theorem reshapeEquiv_ix2_111ab {a b : ℕ} (h : (⟨2, ![a, b]⟩ : Shape).numel = (⟨5, ![1, 1, 1, a, b]⟩ : Shape).numel)
    (x : Fin a) (y : Fin b) :
    Shape.reshapeEquiv h (ix2 x y)
      = ix5 (⟨0, Nat.one_pos⟩ : Fin 1) (⟨0, Nat.one_pos⟩ : Fin 1) (⟨0, Nat.one_pos⟩ : Fin 1) x y :=
  Shape.reshapeEquiv_eq_of_rowMajor h (by
    rw [Shape.rowMajor_val_five, Shape.rowMajor_val_two]
    show (((0 * 1 + 0) * 1 + 0) * a + x.val) * b + y.val = x.val * b + y.val
    simp only [Nat.zero_mul, Nat.zero_add, Nat.mul_one, Nat.add_zero])

/-- The 8 x 128 window of the result at offsets off, as the kernel names it. -/
abbrev win (off : Fin 5 → Nat) (inb : ∀ a, off a + S1x1x1x8x128.size a ≤ S26x8x128x8x128.size a) :
    Memref sig .scVector .hbm S8x128 .f32 :=
  ((oW).slice (Rect.unit (s := S26x8x128x8x128) off S1x1x1x8x128.size inb) (fun _ => rfl)).squeeze S8x128 squeezes_S1x1x1x8x128_S8x128

/-- Where element (y0, y1) of a window sits in the result: the window's offsets, then (y0, y1) on the last two axes. -/
theorem win_emb (B : Fin 3328) (i : Fin 8)
    (inb : ∀ a, (![B.val / 128, i.val, B.val % 128, 0, 0] : Fin 5 → Nat) a + S1x1x1x8x128.size a ≤ S26x8x128x8x128.size a)
    (y0 : Fin 8) (y1 : Fin 128) :
    (win ![B.val / 128, i.val, B.val % 128, 0, 0] inb).view.emb (ix2 y0 y1)
      = ix5 (⟨B.val / 128, by have := B.isLt; omega⟩ : Fin 26) i (⟨B.val % 128, Nat.mod_lt _ (by decide)⟩ : Fin 128) y0 y1 := by
  show (Rect.unit (s := S26x8x128x8x128) ![B.val / 128, i.val, B.val % 128, 0, 0] S1x1x1x8x128.size inb).emb
    (Shape.reshapeEquiv squeezes_S1x1x1x8x128_S8x128.numel_eq (ix2 y0 y1)) = _
  rw [reshapeEquiv_ix2_111ab]
  funext a
  refine Fin.ext ?_
  rw [Rect.emb_apply]
  match a with
  | ⟨0, _⟩ => show B.val / 128 + 1 * 0 = B.val / 128; omega
  | ⟨1, _⟩ => show i.val + 1 * 0 = i.val; omega
  | ⟨2, _⟩ => show B.val % 128 + 1 * 0 = B.val % 128; omega
  | ⟨3, _⟩ => show 0 + 1 * y0.val = y0.val; omega
  | ⟨4, _⟩ => show 0 + 1 * y1.val = y1.val; omega

end Window

section Landed

variable (IDS : Cert.Lookup.SIds.Idx → BitVec 32) (TAB : Cert.Lookup.STab.Idx → Elt F .f32)

/-- Rows o … o + 7 of a transposed half, written whole into window i = o / 8 of block B of the result over anything,
    leave on the window the gathered rows — when the half holds the block's window of the gathered rows. -/
theorem landed_apply (B : Fin 3328) (i : Fin 8) (off : Fin 5 → Nat)
    (inb : ∀ a, off a + S1x1x1x8x128.size a ≤ S26x8x128x8x128.size a)
    (e : off = ![B.val / 128, i.val, B.val % 128, 0, 0])
    (mm : Memref sig .scVector .vmem S64x128 .f32) (o : Nat) (ho : o = 8 * i.val)
    (inbT : ∀ a, (![o, 0] : Fin 2 → Nat) a + S8x128.size a ≤ S64x128.size a)
    (T : mm.view.ty.Contents (Elt F))
    (hT : ∀ (dd : Fin 64) (r : Fin 128), mm.view.read (Elt F) T (ix2 dd r)
      = Cert.Lookup.out5 IDS TAB (ix5 (⟨B.val / 128, by have := B.isLt; omega⟩ : Fin 26) (⟨dd.val / 8, by have := dd.isLt; omega⟩ : Fin 8)
          (⟨B.val % 128, Nat.mod_lt _ (by decide)⟩ : Fin 128) (⟨dd.val % 8, Nat.mod_lt _ (by decide)⟩ : Fin 8) r))
    (J : (win off inb).view.ty.Contents (Elt F)) (x : S26x8x128x8x128.Idx) (hx : x ∈ (win off inb).view.set) :
    (win off inb).view.writes (Elt F) J
        [⟨Rect.whole S8x128, ReadAs.same.apply ((trw mm o inbT).view.read (Elt F) T)⟩] x
      = Cert.Lookup.out5 IDS TAB x := by
  subst e
  subst ho
  have hi := i.isLt
  obtain ⟨y, -, rfl⟩ := Finset.mem_map.mp (show x ∈ Finset.univ.map (win _ inb).view.emb from hx)
  obtain ⟨y0, y1, rfl⟩ : ∃ (y0 : Fin 8) (y1 : Fin 128), y = ix2 y0 y1 := ⟨y 0, y 1, eq_ix2 y⟩
  have hy0 := y0.isLt
  rw [View.writes_singleton]
  have he : (win _ inb).view.emb (ix2 y0 y1) = ((win _ inb).view.slice (Rect.whole S8x128)).emb (ix2 y0 y1) := by
    show _ = (win _ inb).view.emb ((Rect.whole S8x128).emb (ix2 y0 y1))
    rw [Rect.emb_whole_apply]
  rw [he, View.write_emb_of_mem _ _ (Finset.mem_univ _)]
  have hr : (trw mm (8 * i.val) inbT).view.read (Elt F) T (ix2 y0 y1)
      = mm.view.read (Elt F) T (ix2 (⟨8 * i.val + y0.val, by omega⟩ : Fin 64) y1) := by
    have hemb : (Rect.unit (s := S64x128) ![8 * i.val, 0] S8x128.size inbT).emb (ix2 y0 y1)
        = ix2 (⟨8 * i.val + y0.val, by omega⟩ : Fin 64) y1 := by
      funext a
      refine Fin.ext ?_
      rw [Rect.emb_apply]
      match a with
      | ⟨0, _⟩ => show 8 * i.val + 1 * y0.val = 8 * i.val + y0.val; omega
      | ⟨1, _⟩ => show 0 + 1 * y1.val = y1.val; omega
    show _root_.cast _ (T (mm.view.emb ((Rect.unit (s := S64x128) ![8 * i.val, 0] S8x128.size inbT).emb (ix2 y0 y1)))) = _
    rw [hemb]
    rfl
  refine (cast_eq _ _).trans ?_
  show (trw mm (8 * i.val) inbT).view.read (Elt F) T (ix2 y0 y1) = _
  rw [hr, hT, ← he, win_emb B i inb y0 y1]
  have h1 : (⟨(⟨8 * i.val + y0.val, by omega⟩ : Fin 64).val / 8, by
      show (8 * i.val + y0.val) / 8 < 8; omega⟩ : Fin 8) = i := Fin.ext (by show (8 * i.val + y0.val) / 8 = i.val; omega)
  have h2 : (⟨(⟨8 * i.val + y0.val, by omega⟩ : Fin 64).val % 8, Nat.mod_lt _ (by decide)⟩ : Fin 8) = y0 :=
    Fin.ext (by show (8 * i.val + y0.val) % 8 = y0.val; omega)
  rw [h1, h2]

end Landed

end Val

/-! ## The two transposed halves of a trip, as the gathered rows -/

/-- The first transposed half of trip k is block 2k's window of the gathered rows: from the tile's index words X (entries
    13312·w … of the flat list), their halves g, the gathered half R holding the pair table's lines the halves name,
    and the transposed half T holding R's words as the trips leave them. -/
theorem trOK0_gen (IDS : Cert.Lookup.SIds.Idx → BitVec 32) (TAB : Cert.Lookup.STab.Idx → Elt F .f32)
    (d : Dev nD) (L : grid1.Coords) (k : Fin k1_t2_loop.trips) (B : Fin 3328)
    (hBv : B.val = 104 * (2 * (L 1).val + (L 0).val) + 2 * k.val + 0)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val) + r.val, by
        have := Inner.blk_le1 k; have := r.isLt; omega⟩ : Fin 13312)) : BitVec 32)).toNat < 500000),
      (rows0).view.read (Elt F) R (ix2 r c) = Cert.Lookup.pairs TAB (ix2 (⟨_, h⟩ : Fin 500000) c))
    (hexit : ∀ (dd : Fin 64) (r : Fin 128), (tr0).view.read (Elt F) T (ix2 dd r)
      = (rows0).view.read (Elt F) R (ix2 r (⟨dd.val + 64 * (((X (ix1 (⟨128 * (2 * k.val) + r.val, by
          have := Inner.blk_le1 k; have := r.isLt; omega⟩ : Fin 13312)) : BitVec 32)).toNat % 2), by
        have := dd.isLt; omega⟩ : Fin 128)))
    (dd : Fin 64) (r : Fin 128) :
    (tr0).view.read (Elt F) T (ix2 dd r)
      = Cert.Lookup.out5 IDS TAB (ix5 (⟨B.val / 128, by have := B.isLt; omega⟩ : Fin 26) (⟨dd.val / 8, by have := dd.isLt; omega⟩ : Fin 8)
          (⟨B.val % 128, Nat.mod_lt _ (by decide)⟩ : Fin 128) (⟨dd.val % 8, Nat.mod_lt _ (by decide)⟩ : Fin 8) r) := by
  have hk := Inner.blk_le1 k
  have h1 : (L 1).val < 16 := (L 1).isLt
  have h0 : (L 0).val < 2 := (L 0).isLt
  refine Val.trOK_core IDS TAB B.val B.isLt
    (fun r' => (X (ix1 (⟨128 * (2 * k.val) + r'.val, by have := r'.isLt; omega⟩ : Fin 13312)) : BitVec 32))
    (fun r' => ?_) hI ((rows0).view.read (Elt F) R) (fun r' c h => ?_) ((tr0).view.read (Elt F) T) hexit dd r
  · have hr' := r'.isLt
    refine (hXv _).trans (congrArg (fun n : Fin 425984 => Cert.Lookup.flatIds IDS (ix1 n)) (Fin.ext ?_))
    show 13312 * (2 * (L 1).val + (L 0).val) + (128 * (2 * k.val) + r'.val) = 128 * B.val + r'.val
    omega
  · have hg2 : ((g (ix1 (⟨128 * (2 * k.val) + r'.val, by have := r'.isLt; omega⟩ : Fin 13312)) : BitVec 32)).toNat
        = ((X (ix1 (⟨128 * (2 * k.val) + r'.val, by have := r'.isLt; omega⟩ : Fin 13312)) : BitVec 32)).toNat / 2 := by
      rw [hgv, Val.shr1_val]
    refine (hrows r' c (by rw [hg2]; exact h)).trans ?_
    exact congrArg (fun w : Fin 500000 => Cert.Lookup.pairs TAB (ix2 w c)) (Fin.ext hg2)

/-- The second transposed half of trip k is block 2k + 1's window of the gathered rows: from the tile's index words X (entries
    13312·w … of the flat list), their halves g, the gathered half R holding the pair table's lines the halves name,
    and the transposed half T holding R's words as the trips leave them. -/
theorem trOK1_gen (IDS : Cert.Lookup.SIds.Idx → BitVec 32) (TAB : Cert.Lookup.STab.Idx → Elt F .f32)
    (d : Dev nD) (L : grid1.Coords) (k : Fin k1_t2_loop.trips) (B : Fin 3328)
    (hBv : B.val = 104 * (2 * (L 1).val + (L 0).val) + 2 * k.val + 1)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val + 1) + r.val, by
        have := Inner.blk_le1 k; have := r.isLt; omega⟩ : Fin 13312)) : BitVec 32)).toNat < 500000),
      (rows1).view.read (Elt F) R (ix2 r c) = Cert.Lookup.pairs TAB (ix2 (⟨_, h⟩ : Fin 500000) c))
    (hexit : ∀ (dd : Fin 64) (r : Fin 128), (tr1).view.read (Elt F) T (ix2 dd r)
      = (rows1).view.read (Elt F) R (ix2 r (⟨dd.val + 64 * (((X (ix1 (⟨128 * (2 * k.val + 1) + r.val, by
          have := Inner.blk_le1 k; have := r.isLt; omega⟩ : Fin 13312)) : BitVec 32)).toNat % 2), by
        have := dd.isLt; omega⟩ : Fin 128)))
    (dd : Fin 64) (r : Fin 128) :
    (tr1).view.read (Elt F) T (ix2 dd r)
      = Cert.Lookup.out5 IDS TAB (ix5 (⟨B.val / 128, by have := B.isLt; omega⟩ : Fin 26) (⟨dd.val / 8, by have := dd.isLt; omega⟩ : Fin 8)
          (⟨B.val % 128, Nat.mod_lt _ (by decide)⟩ : Fin 128) (⟨dd.val % 8, Nat.mod_lt _ (by decide)⟩ : Fin 8) r) := by
  have hk := Inner.blk_le1 k
  have h1 : (L 1).val < 16 := (L 1).isLt
  have h0 : (L 0).val < 2 := (L 0).isLt
  refine Val.trOK_core IDS TAB B.val B.isLt
    (fun r' => (X (ix1 (⟨128 * (2 * k.val + 1) + r'.val, by have := r'.isLt; omega⟩ : Fin 13312)) : BitVec 32))
    (fun r' => ?_) hI ((rows1).view.read (Elt F) R) (fun r' c h => ?_) ((tr1).view.read (Elt F) T) hexit dd r
  · have hr' := r'.isLt
    refine (hXv _).trans (congrArg (fun n : Fin 425984 => Cert.Lookup.flatIds IDS (ix1 n)) (Fin.ext ?_))
    show 13312 * (2 * (L 1).val + (L 0).val) + (128 * (2 * k.val + 1) + r'.val) = 128 * B.val + r'.val
    omega
  · have hg2 : ((g (ix1 (⟨128 * (2 * k.val + 1) + r'.val, by have := r'.isLt; omega⟩ : Fin 13312)) : BitVec 32)).toNat
        = ((X (ix1 (⟨128 * (2 * k.val + 1) + r'.val, by have := r'.isLt; omega⟩ : Fin 13312)) : BitVec 32)).toNat / 2 := by
      rw [hgv, Val.shr1_val]
    refine (hrows r' c (by rw [hg2]; exact h)).trans ?_
    exact congrArg (fun w : Fin 500000 => Cert.Lookup.pairs TAB (ix2 w c)) (Fin.ext hg2)

/-- The first transposed half of trip k is the window of the gathered rows of the tile's block 2k. -/
theorem trOK0_of (IDS : Cert.Lookup.SIds.Idx → BitVec 32) (TAB : Cert.Lookup.STab.Idx → Elt F .f32)
    (d : Dev nD) (L : grid1.Coords) (k : Fin k1_t2_loop.trips)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val) + r.val, by
        have := Inner.blk_le1 k; have := r.isLt; omega⟩ : Fin 13312)) : BitVec 32)).toNat < 500000),
      (rows0).view.read (Elt F) R (ix2 r c) = Cert.Lookup.pairs TAB (ix2 (⟨_, h⟩ : Fin 500000) c))
    (hexit : ∀ (dd : Fin 64) (r : Fin 128), (tr0).view.read (Elt F) T (ix2 dd r)
      = (rows0).view.read (Elt F) R (ix2 r (⟨dd.val + 64 * (((X (ix1 (⟨128 * (2 * k.val) + r.val, by
          have := Inner.blk_le1 k; have := r.isLt; omega⟩ : Fin 13312)) : BitVec 32)).toNat % 2), by
        have := dd.isLt; omega⟩ : Fin 128)))
    (dd : Fin 64) (r : Fin 128) :
    (tr0).view.read (Elt F) T (ix2 dd r)
      = Cert.Lookup.out5 IDS TAB (ix5 (⟨(Tiles.blkOf (Tiles.c1Of L) (Tiles.s1Of L) (kkOf k 0)).val / 128, by have := (Tiles.blkOf (Tiles.c1Of L) (Tiles.s1Of L) (kkOf k 0)).isLt; omega⟩ : Fin 26) (⟨dd.val / 8, by have := dd.isLt; omega⟩ : Fin 8)
          (⟨(Tiles.blkOf (Tiles.c1Of L) (Tiles.s1Of L) (kkOf k 0)).val % 128, Nat.mod_lt _ (by decide)⟩ : Fin 128) (⟨dd.val % 8, Nat.mod_lt _ (by decide)⟩ : Fin 8) r) :=
  trOK0_gen IDS TAB d L k (Tiles.blkOf (Tiles.c1Of L) (Tiles.s1Of L) (kkOf k 0)) (blk_val L k 0) X g R T hXv hgv hI hrows hexit dd r

/-- The second transposed half of trip k is the window of the gathered rows of the tile's block 2k + 1. -/
theorem trOK1_of (IDS : Cert.Lookup.SIds.Idx → BitVec 32) (TAB : Cert.Lookup.STab.Idx → Elt F .f32)
    (d : Dev nD) (L : grid1.Coords) (k : Fin k1_t2_loop.trips)
    (X : Buf (Elt F) ((s0).view.loc (thr d L))) (g : Buf (Elt F) ((s1).view.loc (thr d L)))
    (R : Buf (Elt F) ((s2).view.loc (thr d L))) (T : Buf (Elt F) ((s3).view.loc (thr d L)))
    (hXv : ∀ j : S13312.Idx, (X j : BitVec 32) = Cert.Lookup.flatIds IDS (ix1 (⟨13312 * (2 * (L 1).val + (L 0).val) + (j 0).val, by
      have h1 : (L 1).val < 16 := (L 1).isLt; have h0 : (L 0).val < 2 := (L 0).isLt; have hj : (j 0).val < 13312 := (j 0).isLt; omega⟩ : Fin 425984)))
    (hgv : ∀ j : S13312.Idx, (g j : BitVec 32) = IntOp.shrui .vector (X j) 1#32)
    (hI : ∀ i, (IDS i).toNat ≤ 999999)
    (hrows : ∀ (r c : Fin 128) (h : ((g (ix1 (⟨128 * (2 * k.val + 1) + r.val, by
        have := Inner.blk_le1 k; have := r.isLt; omega⟩ : Fin 13312)) : BitVec 32)).toNat < 500000),
      (rows1).view.read (Elt F) R (ix2 r c) = Cert.Lookup.pairs TAB (ix2 (⟨_, h⟩ : Fin 500000) c))
    (hexit : ∀ (dd : Fin 64) (r : Fin 128), (tr1).view.read (Elt F) T (ix2 dd r)
      = (rows1).view.read (Elt F) R (ix2 r (⟨dd.val + 64 * (((X (ix1 (⟨128 * (2 * k.val + 1) + r.val, by
          have := Inner.blk_le1 k; have := r.isLt; omega⟩ : Fin 13312)) : BitVec 32)).toNat % 2), by
        have := dd.isLt; omega⟩ : Fin 128)))
    (dd : Fin 64) (r : Fin 128) :
    (tr1).view.read (Elt F) T (ix2 dd r)
      = Cert.Lookup.out5 IDS TAB (ix5 (⟨(Tiles.blkOf (Tiles.c1Of L) (Tiles.s1Of L) (kkOf k 1)).val / 128, by have := (Tiles.blkOf (Tiles.c1Of L) (Tiles.s1Of L) (kkOf k 1)).isLt; omega⟩ : Fin 26) (⟨dd.val / 8, by have := dd.isLt; omega⟩ : Fin 8)
          (⟨(Tiles.blkOf (Tiles.c1Of L) (Tiles.s1Of L) (kkOf k 1)).val % 128, Nat.mod_lt _ (by decide)⟩ : Fin 128) (⟨dd.val % 8, Nat.mod_lt _ (by decide)⟩ : Fin 8) r) :=
  trOK1_gen IDS TAB d L k (Tiles.blkOf (Tiles.c1Of L) (Tiles.s1Of L) (kkOf k 1)) (blk_val L k 1) X g R T hXv hgv hI hrows hexit dd r

/-! ## The eight windows of a block -/

/-- Window 0 of block 2k + p, written from rows 0 … 7 of the block's transposed half, holds the gathered rows. -/
theorem landed4 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow4 L k p).view.loc (thr d L))) :
    ((ow4 L k p).view.loc (thr d L) ↦[(ow4 L k p).view.set]{fullShare}
        (ow4 L k p).view.writes (Elt F) J
          [⟨Rect.whole S8x128, ReadAs.same.apply ((trw mm 0 inb_S64x128_S8x128_0_0).view.read (Elt F) T)⟩] : sProp 𝕄)
      = (Tiles.out5Loc d ↦[Tiles.outSet (Tiles.blkOf (Tiles.c1Of L) (Tiles.s1Of L) (kkOf k p)) 0]{fullShare}
          (Cert.Lookup.out5 IDS TAB : Buf (Elt F) (Tiles.out5Loc d))) := by
  rw [ow4_pts d L k p]
  refine pointsTo_congr (fun x hx => ?_)
  have e : k1_off4 L k (BitVec.ofNat 32 p.val)
      = ![(Tiles.blkOf (Tiles.c1Of L) (Tiles.s1Of L) (kkOf k p)).val / 128, ((0 : Fin 8)).val,
          (Tiles.blkOf (Tiles.c1Of L) (Tiles.s1Of L) (kkOf k p)).val % 128, 0, 0] := by
    rw [k1_off4_eq L k p, blk_val L k p]; rfl
  have hs : (ow4 L k p).view.set = Tiles.outSet (Tiles.blkOf (Tiles.c1Of L) (Tiles.s1Of L) (kkOf k p)) 0 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (0 : Fin 8) _ (k1_off4_inb L k p) e
    mm 0 (by decide) inb_S64x128_S8x128_0_0 T hT J x (hs ▸ hx)

/-- Window 1 of block 2k + p, written from rows 8 … 15 of the block's transposed half, holds the gathered rows. -/
theorem landed5 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow5 L k p).view.loc (thr d L))) :
    ((ow5 L k p).view.loc (thr d L) ↦[(ow5 L k p).view.set]{fullShare}
        (ow5 L k p).view.writes (Elt F) J
          [⟨Rect.whole S8x128, ReadAs.same.apply ((trw mm 8 inb_S64x128_S8x128_8_0).view.read (Elt F) T)⟩] : sProp 𝕄)
      = (Tiles.out5Loc d ↦[Tiles.outSet (Tiles.blkOf (Tiles.c1Of L) (Tiles.s1Of L) (kkOf k p)) 1]{fullShare}
          (Cert.Lookup.out5 IDS TAB : Buf (Elt F) (Tiles.out5Loc d))) := by
  rw [ow5_pts d L k p]
  refine pointsTo_congr (fun x hx => ?_)
  have e : k1_off5 L k (BitVec.ofNat 32 p.val)
      = ![(Tiles.blkOf (Tiles.c1Of L) (Tiles.s1Of L) (kkOf k p)).val / 128, ((1 : Fin 8)).val,
          (Tiles.blkOf (Tiles.c1Of L) (Tiles.s1Of L) (kkOf k p)).val % 128, 0, 0] := by
    rw [k1_off5_eq L k p, blk_val L k p]; rfl
  have hs : (ow5 L k p).view.set = Tiles.outSet (Tiles.blkOf (Tiles.c1Of L) (Tiles.s1Of L) (kkOf k p)) 1 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (1 : Fin 8) _ (k1_off5_inb L k p) e
    mm 8 (by decide) inb_S64x128_S8x128_8_0 T hT J x (hs ▸ hx)

/-- Window 2 of block 2k + p, written from rows 16 … 23 of the block's transposed half, holds the gathered rows. -/
theorem landed6 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow6 L k p).view.loc (thr d L))) :
    ((ow6 L k p).view.loc (thr d L) ↦[(ow6 L k p).view.set]{fullShare}
        (ow6 L k p).view.writes (Elt F) J
          [⟨Rect.whole S8x128, ReadAs.same.apply ((trw mm 16 inb_S64x128_S8x128_16_0).view.read (Elt F) T)⟩] : sProp 𝕄)
      = (Tiles.out5Loc d ↦[Tiles.outSet (Tiles.blkOf (Tiles.c1Of L) (Tiles.s1Of L) (kkOf k p)) 2]{fullShare}
          (Cert.Lookup.out5 IDS TAB : Buf (Elt F) (Tiles.out5Loc d))) := by
  rw [ow6_pts d L k p]
  refine pointsTo_congr (fun x hx => ?_)
  have e : k1_off6 L k (BitVec.ofNat 32 p.val)
      = ![(Tiles.blkOf (Tiles.c1Of L) (Tiles.s1Of L) (kkOf k p)).val / 128, ((2 : Fin 8)).val,
          (Tiles.blkOf (Tiles.c1Of L) (Tiles.s1Of L) (kkOf k p)).val % 128, 0, 0] := by
    rw [k1_off6_eq L k p, blk_val L k p]; rfl
  have hs : (ow6 L k p).view.set = Tiles.outSet (Tiles.blkOf (Tiles.c1Of L) (Tiles.s1Of L) (kkOf k p)) 2 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (2 : Fin 8) _ (k1_off6_inb L k p) e
    mm 16 (by decide) inb_S64x128_S8x128_16_0 T hT J x (hs ▸ hx)

/-- Window 3 of block 2k + p, written from rows 24 … 31 of the block's transposed half, holds the gathered rows. -/
theorem landed7 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow7 L k p).view.loc (thr d L))) :
    ((ow7 L k p).view.loc (thr d L) ↦[(ow7 L k p).view.set]{fullShare}
        (ow7 L k p).view.writes (Elt F) J
          [⟨Rect.whole S8x128, ReadAs.same.apply ((trw mm 24 inb_S64x128_S8x128_24_0).view.read (Elt F) T)⟩] : sProp 𝕄)
      = (Tiles.out5Loc d ↦[Tiles.outSet (Tiles.blkOf (Tiles.c1Of L) (Tiles.s1Of L) (kkOf k p)) 3]{fullShare}
          (Cert.Lookup.out5 IDS TAB : Buf (Elt F) (Tiles.out5Loc d))) := by
  rw [ow7_pts d L k p]
  refine pointsTo_congr (fun x hx => ?_)
  have e : k1_off7 L k (BitVec.ofNat 32 p.val)
      = ![(Tiles.blkOf (Tiles.c1Of L) (Tiles.s1Of L) (kkOf k p)).val / 128, ((3 : Fin 8)).val,
          (Tiles.blkOf (Tiles.c1Of L) (Tiles.s1Of L) (kkOf k p)).val % 128, 0, 0] := by
    rw [k1_off7_eq L k p, blk_val L k p]; rfl
  have hs : (ow7 L k p).view.set = Tiles.outSet (Tiles.blkOf (Tiles.c1Of L) (Tiles.s1Of L) (kkOf k p)) 3 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (3 : Fin 8) _ (k1_off7_inb L k p) e
    mm 24 (by decide) inb_S64x128_S8x128_24_0 T hT J x (hs ▸ hx)

/-- Window 4 of block 2k + p, written from rows 32 … 39 of the block's transposed half, holds the gathered rows. -/
theorem landed8 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow8 L k p).view.loc (thr d L))) :
    ((ow8 L k p).view.loc (thr d L) ↦[(ow8 L k p).view.set]{fullShare}
        (ow8 L k p).view.writes (Elt F) J
          [⟨Rect.whole S8x128, ReadAs.same.apply ((trw mm 32 inb_S64x128_S8x128_32_0).view.read (Elt F) T)⟩] : sProp 𝕄)
      = (Tiles.out5Loc d ↦[Tiles.outSet (Tiles.blkOf (Tiles.c1Of L) (Tiles.s1Of L) (kkOf k p)) 4]{fullShare}
          (Cert.Lookup.out5 IDS TAB : Buf (Elt F) (Tiles.out5Loc d))) := by
  rw [ow8_pts d L k p]
  refine pointsTo_congr (fun x hx => ?_)
  have e : k1_off8 L k (BitVec.ofNat 32 p.val)
      = ![(Tiles.blkOf (Tiles.c1Of L) (Tiles.s1Of L) (kkOf k p)).val / 128, ((4 : Fin 8)).val,
          (Tiles.blkOf (Tiles.c1Of L) (Tiles.s1Of L) (kkOf k p)).val % 128, 0, 0] := by
    rw [k1_off8_eq L k p, blk_val L k p]; rfl
  have hs : (ow8 L k p).view.set = Tiles.outSet (Tiles.blkOf (Tiles.c1Of L) (Tiles.s1Of L) (kkOf k p)) 4 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (4 : Fin 8) _ (k1_off8_inb L k p) e
    mm 32 (by decide) inb_S64x128_S8x128_32_0 T hT J x (hs ▸ hx)

/-- Window 5 of block 2k + p, written from rows 40 … 47 of the block's transposed half, holds the gathered rows. -/
theorem landed9 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow9 L k p).view.loc (thr d L))) :
    ((ow9 L k p).view.loc (thr d L) ↦[(ow9 L k p).view.set]{fullShare}
        (ow9 L k p).view.writes (Elt F) J
          [⟨Rect.whole S8x128, ReadAs.same.apply ((trw mm 40 inb_S64x128_S8x128_40_0).view.read (Elt F) T)⟩] : sProp 𝕄)
      = (Tiles.out5Loc d ↦[Tiles.outSet (Tiles.blkOf (Tiles.c1Of L) (Tiles.s1Of L) (kkOf k p)) 5]{fullShare}
          (Cert.Lookup.out5 IDS TAB : Buf (Elt F) (Tiles.out5Loc d))) := by
  rw [ow9_pts d L k p]
  refine pointsTo_congr (fun x hx => ?_)
  have e : k1_off9 L k (BitVec.ofNat 32 p.val)
      = ![(Tiles.blkOf (Tiles.c1Of L) (Tiles.s1Of L) (kkOf k p)).val / 128, ((5 : Fin 8)).val,
          (Tiles.blkOf (Tiles.c1Of L) (Tiles.s1Of L) (kkOf k p)).val % 128, 0, 0] := by
    rw [k1_off9_eq L k p, blk_val L k p]; rfl
  have hs : (ow9 L k p).view.set = Tiles.outSet (Tiles.blkOf (Tiles.c1Of L) (Tiles.s1Of L) (kkOf k p)) 5 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (5 : Fin 8) _ (k1_off9_inb L k p) e
    mm 40 (by decide) inb_S64x128_S8x128_40_0 T hT J x (hs ▸ hx)

/-- Window 6 of block 2k + p, written from rows 48 … 55 of the block's transposed half, holds the gathered rows. -/
theorem landed10 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow10 L k p).view.loc (thr d L))) :
    ((ow10 L k p).view.loc (thr d L) ↦[(ow10 L k p).view.set]{fullShare}
        (ow10 L k p).view.writes (Elt F) J
          [⟨Rect.whole S8x128, ReadAs.same.apply ((trw mm 48 inb_S64x128_S8x128_48_0).view.read (Elt F) T)⟩] : sProp 𝕄)
      = (Tiles.out5Loc d ↦[Tiles.outSet (Tiles.blkOf (Tiles.c1Of L) (Tiles.s1Of L) (kkOf k p)) 6]{fullShare}
          (Cert.Lookup.out5 IDS TAB : Buf (Elt F) (Tiles.out5Loc d))) := by
  rw [ow10_pts d L k p]
  refine pointsTo_congr (fun x hx => ?_)
  have e : k1_off10 L k (BitVec.ofNat 32 p.val)
      = ![(Tiles.blkOf (Tiles.c1Of L) (Tiles.s1Of L) (kkOf k p)).val / 128, ((6 : Fin 8)).val,
          (Tiles.blkOf (Tiles.c1Of L) (Tiles.s1Of L) (kkOf k p)).val % 128, 0, 0] := by
    rw [k1_off10_eq L k p, blk_val L k p]; rfl
  have hs : (ow10 L k p).view.set = Tiles.outSet (Tiles.blkOf (Tiles.c1Of L) (Tiles.s1Of L) (kkOf k p)) 6 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (6 : Fin 8) _ (k1_off10_inb L k p) e
    mm 48 (by decide) inb_S64x128_S8x128_48_0 T hT J x (hs ▸ hx)

/-- Window 7 of block 2k + p, written from rows 56 … 63 of the block's transposed half, holds the gathered rows. -/
theorem landed11 (IDS : Cert.Lookup.SIds.Idx → BitVec 32) (TAB : Cert.Lookup.STab.Idx → Elt F .f32)
    (d : Dev nD) (L : grid1.Coords) (k : Fin k1_t2_loop.trips) (p : Fin 2)
    (mm : Memref sig .scVector .vmem S64x128 .f32) (T : mm.view.ty.Contents (Elt F))
    (hT : ∀ (dd : Fin 64) (r : Fin 128), mm.view.read (Elt F) T (ix2 dd r)
      = Cert.Lookup.out5 IDS TAB (ix5 (⟨(Tiles.blkOf (Tiles.c1Of L) (Tiles.s1Of L) (kkOf k p)).val / 128, by
            have := (Tiles.blkOf (Tiles.c1Of L) (Tiles.s1Of L) (kkOf k p)).isLt; omega⟩ : Fin 26)
          (⟨dd.val / 8, by have := dd.isLt; omega⟩ : Fin 8)
          (⟨(Tiles.blkOf (Tiles.c1Of L) (Tiles.s1Of L) (kkOf k p)).val % 128, Nat.mod_lt _ (by decide)⟩ : Fin 128)
          (⟨dd.val % 8, Nat.mod_lt _ (by decide)⟩ : Fin 8) r))
    (J : Buf (Elt F) ((ow11 L k p).view.loc (thr d L))) :
    ((ow11 L k p).view.loc (thr d L) ↦[(ow11 L k p).view.set]{fullShare}
        (ow11 L k p).view.writes (Elt F) J
          [⟨Rect.whole S8x128, ReadAs.same.apply ((trw mm 56 inb_S64x128_S8x128_56_0).view.read (Elt F) T)⟩] : sProp 𝕄)
      = (Tiles.out5Loc d ↦[Tiles.outSet (Tiles.blkOf (Tiles.c1Of L) (Tiles.s1Of L) (kkOf k p)) 7]{fullShare}
          (Cert.Lookup.out5 IDS TAB : Buf (Elt F) (Tiles.out5Loc d))) := by
  rw [ow11_pts d L k p]
  refine pointsTo_congr (fun x hx => ?_)
  have e : k1_off11 L k (BitVec.ofNat 32 p.val)
      = ![(Tiles.blkOf (Tiles.c1Of L) (Tiles.s1Of L) (kkOf k p)).val / 128, ((7 : Fin 8)).val,
          (Tiles.blkOf (Tiles.c1Of L) (Tiles.s1Of L) (kkOf k p)).val % 128, 0, 0] := by
    rw [k1_off11_eq L k p, blk_val L k p]; rfl
  have hs : (ow11 L k p).view.set = Tiles.outSet (Tiles.blkOf (Tiles.c1Of L) (Tiles.s1Of L) (kkOf k p)) 7 := by
    show (((oW).view.slice _).reshape _ _).set = _
    rw [View.set_reshape]
    exact slice_set_congr _ _ (unit_congr _ _ _ _ _ e)
  exact Val.landed_apply IDS TAB (Tiles.blkOf (Tiles.c1Of L) (Tiles.s1Of L) (kkOf k p)) (7 : Fin 8) _ (k1_off11_inb L k p) e
    mm 56 (by decide) inb_S64x128_S8x128_56_0 T hT J x (hs ▸ hx)

end Cert.Proof.KB.Body1

end
-- ==== Proof.Body1_b.lean ====
/-
  The gather kernel on one tile, with what every array holds.

  The tile's index scratch holds its slice of the flat index list (entry j is entry 13312·w + j, w the tile's
  number); the second scratch holds those words halved, so each names the pair-table line of its index word.
  A gather lands, in a half of the lines scratch, the 128 pair-table lines the halved words of one block name;
  the transposing loop then reads, for the word's low bit, the left or right 64 entries of each line, so the
  transposed half holds table[ids[b, f], d] for the block's field f and its 128 batch entries: exactly the
  block of the feature-major result. Each write-out copies eight rows of the transposed half into one window of
  the result, so a landed block holds the specification's gathered rows.

  The invariant of the main loop is the resource invariant of the storage-level module with three facts added:
  the lines each gather in flight delivers, the rows each transposed half in a write-out batch holds, and that
  the landed blocks hold the gathered rows.
-/
import proofs.«204055_g19524921328135_cont_8to1_763_20_alg».proof.Proof.Body1Frame_b
import proofs.«204055_g19524921328135_cont_8to1_763_20_alg».proof.Proof.Body1Val_b
import proofs.«204055_g19524921328135_cont_8to1_763_20_alg».proof.Proof.HostSide_b

noncomputable section

namespace Cert.Proof.KB.Body1

open Cert.Kernel Cert.Kernel.Gen Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

variable (d : Dev nD) (L : grid1.Coords)

/-! ## The halved words, exactly -/

/-- The second scratch array after trip `k`'s store: below `16 (k + 1)` every entry is the first array's entry halved. -/
theorem stored_val (k : Fin k1_t1_loop.trips)
    (X : S13312.Idx → BitVec 32) (g : S13312.Idx → BitVec 32)
    (hg : ∀ j : S13312.Idx, (j 0).val < 16 * k.val → g j = IntOp.shrui .vector (X j) 1#32)
    (j : S13312.Idx) (hj : (j 0).val < 16 * (k.val + 1)) :
    (((s1).view.writes (Elt F) g
        [⟨Rect.unit (s := S13312) (k1_off2 k) S16.size (k1_off2_inb k),
          k1_pay39 (F := F) ((s0).view.readAt (Elt F) (Rect.unit (s := S13312) (k1_off2 k) S16.size (k1_off2_inb k)).toLoadRect X)⟩] j : BitVec 32))
      = IntOp.shrui .vector (X j) 1#32 := by
  have e := congrFun (View.write_whole_slice_unit (Val := Elt F) cc1_scratch1 (k1_off2 k) S16.size (k1_off2_inb k) g
    (k1_pay39 (F := F) ((s0).view.readAt (Elt F) (Rect.unit (s := S13312) (k1_off2 k) S16.size (k1_off2_inb k)).toLoadRect X))) j
  refine e.trans ?_
  unfold updateSlice
  split
  · next hin =>
    show IntOp.shrui .vector (X _) 1#32 = IntOp.shrui .vector (X j) 1#32
    congr 2
    funext a
    apply Fin.ext
    have ha := hin a
    match a with
    | ⟨0, _⟩ =>
      show k1_off2 k 0 + 1 * ((j 0).val - k1_off2 k 0) = (j 0).val
      have h1 : k1_off2 k 0 ≤ (j 0).val := ha.1
      omega
  · next hin =>
    refine hg j ?_
    by_contra hc
    refine hin fun a => ?_
    have h0 : k1_off2 k 0 = 16 * k.val := by rw [k1_off2_eq k]; rfl
    match a with
    | ⟨0, _⟩ =>
      show k1_off2 k 0 ≤ (j 0).val ∧ (j 0).val < k1_off2 k 0 + 16
      omega

/-- Before trip `k` of the halving loop, with the index words fixed: the entries of the second array below `16 k`
    are the index words halved. -/
def inv1V (d : Dev nD) (L : grid1.Coords) (O : CellTallies nD τ sig (HIx 2)) (X : Buf (Elt F) ((s0).view.loc (thr d L)))
    (k : Nat) (_ : PUnit) : sProp 𝕄 :=
  iprop(Transfers.MayWaits (thr d L) (none : HIx 2) O
    ∗ ((s0).view.loc (thr d L) ↦{fullShare} X)
    ∗ (∃ g, ((s1).view.loc (thr d L) ↦{fullShare} g)
        ∗ ⌜∀ j : S13312.Idx, (j 0).val < 16 * k → ((g j : BitVec 32)) = IntOp.shrui .vector ((X j : BitVec 32)) 1#32⌝))

theorem step1V (O : CellTallies nD τ sig (HIx 2)) (X : Buf (Elt F) ((s0).view.loc (thr d L))) (k : Fin k1_t1_loop.trips) (u : Unit) :
    inv1V (F := F) d L O X k.val u
      ⊢ wp frame (wpE (defs₀ (F := F)) 𝒱₀ (thr d L) none) Set.univ
          (k1_t1_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0 k u)
          (inv1V d L O X (k.val + 1)) := by
  unfold inv1V
  iintro ⟨Hmw, H0, %g, H1, %hg⟩
  sl_exec
  sl_step
  isplitl [Hmw]; · iexact Hmw
  isplitl [H0]; · iexact H0
  iexists _; isplitl [H1]
  · iexact H1
  · ipureintro; exact stored_val (F := F) k X g hg

/-- The halved words are pair-table lines when the index words are in range. -/
theorem halved_lt (X g : S13312.Idx → BitVec 32) (hX : ∀ j, (X j).toNat ≤ 999999)
    (hg : ∀ j : S13312.Idx, g j = IntOp.shrui .vector (X j) 1#32) (j : S13312.Idx) : (g j).toNat ≤ 499999 := by
  rw [hg j]; exact shr_le _ (hX j)

/-! ## The tile's slice of the flat index list -/

theorem copy_inb (j : S13312.Idx) : 13312 * (2 * (L 1).val + (L 0).val) + (j 0).val < 425984 := by
  have h0 : (L 0).val < 2 := (L 0).isLt
  have h1 : (L 1).val < 16 := (L 1).isLt
  have hj : (j 0).val < 13312 := (j 0).isLt
  omega

/-- What the first copy lands in the index scratch: entry `j` is entry `13312 w + j` of the flat list, `w` the tile's number. -/
theorem copy_val (fI : S425984.Idx → BitVec 32) (j : S13312.Idx) :
    (((iW).slice (Rect.unit (s := S425984) (k1_off1 L) S13312.size (k1_off1_inb L)) (fun _ => rfl)).view.read (Elt F) fI j : BitVec 32)
      = fI (ix1 (⟨13312 * (2 * (L 1).val + (L 0).val) + (j 0).val, copy_inb L j⟩ : Fin 425984)) := by
  show fI _ = fI _
  congr 1
  funext a
  apply Fin.ext
  have h0 : k1_off1 L 0 = 26624 * (L 1).val + 13312 * (L 0).val := by rw [k1_off1_eq L]; rfl
  match a with
  | ⟨0, _⟩ =>
    show k1_off1 L 0 + 1 * (j 0).val = 13312 * (2 * (L 1).val + (L 0).val) + (j 0).val
    omega

/-! ## What a gather delivers -/

theorem jrow_inb (off : Fin 1 → Nat) (inb : ∀ a, off a + S128.size a ≤ S13312.size a) (r : Fin 128) : off 0 + r.val < 13312 := by
  have h : off 0 + 128 ≤ 13312 := inb 0
  have := r.isLt
  omega

/-- Line `r` of a gathered half is the pair-table line the `r`-th halved word of the window names. -/
theorem gather_val (off : Fin 1 → Nat) (inb : ∀ a, off a + S128.size a ≤ S13312.size a)
    (g : S13312.Idx → BitVec 32) (P : S500000x128.Idx → F .f32)
    (hn : S128.numel = S128x128.size gathers_S500000x128_S128x128.axis')
    (h : ∀ x, ((((s1).slice (Rect.unit (s := S13312) off S128.size inb) (fun _ => rfl)).view.read (Elt F) g x : BitVec 32)).toNat
      < S500000x128.size gathers_S500000x128_S128x128.axis)
    (r c : Fin 128) (hr : (g (ix1 (⟨off 0 + r.val, jrow_inb off inb r⟩ : Fin 13312))).toNat < 500000) :
    SparseCore.gatherPayload (F := F) gathers_S500000x128_S128x128 ((pAll).view.read (Elt F) P)
        (SparseCore.rows (F := F) (((s1).slice (Rect.unit (s := S13312) off S128.size inb) (fun _ => rfl)).view.read (Elt F) g) hn h) (ix2 r c)
      = P (ix2 (⟨(g (ix1 (⟨off 0 + r.val, jrow_inb off inb r⟩ : Fin 13312))).toNat, hr⟩ : Fin 500000) c) := by
  unfold SparseCore.gatherPayload
  show P _ = P _
  congr 1
  funext b
  apply Fin.ext
  have hk : ∀ k : Fin S128.numel, ((S128.rowMajor.symm k) 0).val = k.val := fun k => by
    have := Shape.rowMajor_val_one (d := ![128]) (S128.rowMajor.symm k)
    rw [Equiv.apply_symm_apply] at this
    exact this.symm
  match b with
  | ⟨0, _⟩ =>
    show 0 + 1 * ((gathers_S500000x128_S128x128.idx _ (ix2 r c)) ⟨0, _⟩).val = _
    rw [Nat.zero_add, Nat.one_mul]
    refine (congrArg Fin.val (Shape.Gathers.idx_axis gathers_S500000x128_S128x128 _ (ix2 r c))).trans ?_
    show (g _).toNat = (g _).toNat
    congr 2
    funext a
    apply Fin.ext
    match a with
    | ⟨0, _⟩ =>
      show off 0 + 1 * ((S128.rowMajor.symm _) 0).val = off 0 + r.val
      rw [Nat.one_mul, hk]
      rfl
  | ⟨1, _⟩ =>
    show 0 + 1 * ((gathers_S500000x128_S128x128.idx _ (ix2 r c)) ⟨1, _⟩).val = c.val
    rw [Nat.zero_add, Nat.one_mul]
    exact Shape.Gathers.idx_of_ne gathers_S500000x128_S128x128 _ (ix2 r c) ⟨1, by decide⟩ (by decide)

/-! ## Reading a half written whole -/

omit [FloatOps F] in
theorem rows0_read_back (R : Buf (Elt F) ((s2).view.loc (thr d L))) (w : S128x128.Idx → F .f32) :
    (rows0).view.read (Elt F) ((rows0).view.writes (Elt F) R [⟨Rect.whole S128x128, w⟩]) = w := by
  rw [← View.write_univ_eq_writes_whole, View.writes_nil, View.read_write_univ]
omit [FloatOps F] in
theorem rows1_read_back (R : Buf (Elt F) ((s2).view.loc (thr d L))) (w : S128x128.Idx → F .f32) :
    (rows1).view.read (Elt F) ((rows1).view.writes (Elt F) R [⟨Rect.whole S128x128, w⟩]) = w := by
  rw [← View.write_univ_eq_writes_whole, View.writes_nil, View.read_write_univ]

variable (g : S13312.Idx → BitVec 32) (IDS : Cert.Lookup.SIds.Idx → BitVec 32) (TAB : Cert.Lookup.STab.Idx → F .f32)

theorem rj0 (k : Fin k1_t2_loop.trips) (r : Fin 128) : 128 * (2 * k.val) + r.val < 13312 := by
  have := Nat.lt_of_lt_of_eq k.isLt trips2; have := r.isLt; omega
theorem rj1 (k : Fin k1_t2_loop.trips) (r : Fin 128) : 128 * (2 * k.val + 1) + r.val < 13312 := by
  have := Nat.lt_of_lt_of_eq k.isLt trips2; have := r.isLt; omega

/-- The lines half `p` holds (or will hold, once its gather lands) for trip `k`: line `r` is the pair-table line the
    halved word `128 (2k + p) + r` names. -/
def RowsOK0 (k : Fin k1_t2_loop.trips) (R : Buf (Elt F) ((s2).view.loc (thr d L))) : Prop :=
  ∀ (r c : Fin 128) (h : (g (ix1 (⟨128 * (2 * k.val) + r.val, rj0 k r⟩ : Fin 13312))).toNat < 500000),
    (rows0).view.read (Elt F) R (ix2 r c) = Cert.Lookup.pairs TAB (ix2 ⟨_, h⟩ c)
def RowsOK1 (k : Fin k1_t2_loop.trips) (R : Buf (Elt F) ((s2).view.loc (thr d L))) : Prop :=
  ∀ (r c : Fin 128) (h : (g (ix1 (⟨128 * (2 * k.val + 1) + r.val, rj1 k r⟩ : Fin 13312))).toNat < 500000),
    (rows1).view.read (Elt F) R (ix2 r c) = Cert.Lookup.pairs TAB (ix2 ⟨_, h⟩ c)

theorem rowsOK0_new (k : Fin k1_t2_loop.trips) (off : Fin 1 → Nat) (inb : ∀ a, off a + S128.size a ≤ S13312.size a)
    (e : off = ![128 * (2 * k.val)]) (R : Buf (Elt F) ((s2).view.loc (thr d L)))
    (hn : S128.numel = S128x128.size gathers_S500000x128_S128x128.axis')
    (h : ∀ x, ((((s1).slice (Rect.unit (s := S13312) off S128.size inb) (fun _ => rfl)).view.read (Elt F) g x : BitVec 32)).toNat
      < S500000x128.size gathers_S500000x128_S128x128.axis) :
    RowsOK0 (F := F) d L g TAB k ((rows0).view.writes (Elt F) R [⟨Rect.whole S128x128,
      SparseCore.gatherPayload (F := F) gathers_S500000x128_S128x128 ((pAll).view.read (Elt F) (Cert.Lookup.pairs TAB))
        (SparseCore.rows (F := F) (((s1).slice (Rect.unit (s := S13312) off S128.size inb) (fun _ => rfl)).view.read (Elt F) g) hn h)⟩]) := by
  subst e
  intro r c hlt
  rw [rows0_read_back]
  exact gather_val (F := F) _ inb g (Cert.Lookup.pairs TAB) hn h r c hlt

theorem rowsOK1_new (k : Fin k1_t2_loop.trips) (off : Fin 1 → Nat) (inb : ∀ a, off a + S128.size a ≤ S13312.size a)
    (e : off = ![128 * (2 * k.val + 1)]) (R : Buf (Elt F) ((s2).view.loc (thr d L)))
    (hn : S128.numel = S128x128.size gathers_S500000x128_S128x128.axis')
    (h : ∀ x, ((((s1).slice (Rect.unit (s := S13312) off S128.size inb) (fun _ => rfl)).view.read (Elt F) g x : BitVec 32)).toNat
      < S500000x128.size gathers_S500000x128_S128x128.axis) :
    RowsOK1 (F := F) d L g TAB k ((rows1).view.writes (Elt F) R [⟨Rect.whole S128x128,
      SparseCore.gatherPayload (F := F) gathers_S500000x128_S128x128 ((pAll).view.read (Elt F) (Cert.Lookup.pairs TAB))
        (SparseCore.rows (F := F) (((s1).slice (Rect.unit (s := S13312) off S128.size inb) (fun _ => rfl)).view.read (Elt F) g) hn h)⟩]) := by
  subst e
  intro r c hlt
  rw [rows1_read_back]
  exact gather_val (F := F) _ inb g (Cert.Lookup.pairs TAB) hn h r c hlt

/-! ## The invariant, with what the scratch halves and the landed blocks hold -/

theorem bq (k : Fin k1_t2_loop.trips) (p : Fin 2) : (Tiles.blkOf (Tiles.c1Of L) (Tiles.s1Of L) (kkOf k p)).val / 128 < 26 := by
  have := (Tiles.blkOf (Tiles.c1Of L) (Tiles.s1Of L) (kkOf k p)).isLt; omega

/-- The transposed half `p` after the inner loop of trip `k`: entry `(dd, r)` is the gathered rows' entry for the block. -/
def TrOK0 (k : Fin k1_t2_loop.trips) (T : Buf (Elt F) ((s3).view.loc (thr d L))) : Prop :=
  ∀ (dd : Fin 64) (r : Fin 128), (tr0).view.read (Elt F) T (ix2 dd r)
    = Cert.Lookup.out5 IDS TAB (ix5 (⟨(Tiles.blkOf (Tiles.c1Of L) (Tiles.s1Of L) (kkOf k 0)).val / 128, bq L k 0⟩ : Fin 26) (⟨dd.val / 8, by omega⟩ : Fin 8)
        (⟨(Tiles.blkOf (Tiles.c1Of L) (Tiles.s1Of L) (kkOf k 0)).val % 128, Nat.mod_lt _ (by decide)⟩ : Fin 128) (⟨dd.val % 8, Nat.mod_lt _ (by decide)⟩ : Fin 8) r)
def TrOK1 (k : Fin k1_t2_loop.trips) (T : Buf (Elt F) ((s3).view.loc (thr d L))) : Prop :=
  ∀ (dd : Fin 64) (r : Fin 128), (tr1).view.read (Elt F) T (ix2 dd r)
    = Cert.Lookup.out5 IDS TAB (ix5 (⟨(Tiles.blkOf (Tiles.c1Of L) (Tiles.s1Of L) (kkOf k 1)).val / 128, bq L k 1⟩ : Fin 26) (⟨dd.val / 8, by omega⟩ : Fin 8)
        (⟨(Tiles.blkOf (Tiles.c1Of L) (Tiles.s1Of L) (kkOf k 1)).val % 128, Nat.mod_lt _ (by decide)⟩ : Fin 128) (⟨dd.val % 8, Nat.mod_lt _ (by decide)⟩ : Fin 8) r)

/-- A landed block: each of its eight windows holds the gathered rows. -/
def blockDone (kk : Fin 104) : sProp 𝕄 :=
  bigSep (Finset.univ : Finset (Fin 8)) fun d8 =>
    (Tiles.out5Loc d ↦[Tiles.outSet (Tiles.blkOf (Tiles.c1Of L) (Tiles.s1Of L) kk) d8]{fullShare}
      (Cert.Lookup.out5 IDS TAB : Buf (Elt F) (Tiles.out5Loc d)))

variable (O : CellTallies nD τ sig (HIx 2)) (W : Waits sig (HIx 2))
variable (X : Buf (Elt F) ((s0).view.loc (thr d L)))

theorem kfin (k : Nat) (h : k < 52) : k < k1_t2_loop.trips := Nat.lt_of_lt_of_eq h trips2.symm

def gpartV (k : Nat) : sProp 𝕄 :=
  if h : k < 52 then
    iprop(∃ R0 R1, Transfers.Flight countersEmb (thr d L) (SemLoc.dma cc1_scratch4.sem) default 524288
        iprop((((s2).view.loc (thr d L) ↦[(rows0).view.set]{fullShare} R0) ∗ ((s1).view.loc (thr d L) ↦[(jw (256 * k) (jwh0 k h)).view.set]{qL} g))
          ∗ ((pW).view.loc (thr d L) ↦[(pAll).view.set]{pL L} (Cert.Lookup.pairs TAB)))
      ∗ ((pW).view.loc (thr d L) ↦[Finset.univ \ (pAll).view.set]{pL L} (Cert.Lookup.pairs TAB))
      ∗ ((s1).view.loc (thr d L) ↦[Finset.univ \ (jw (256 * k) (jwh0 k h)).view.set]{qL} g)
      ∗ Transfers.Flight countersEmb (thr d L) (SemLoc.dma cc1_scratch5.sem) default 524288
        iprop((((s2).view.loc (thr d L) ↦[(rows1).view.set]{fullShare} R1) ∗ ((s1).view.loc (thr d L) ↦[(jw (256 * k + 128) (jwh1 k h)).view.set]{qR} g))
          ∗ ((pW).view.loc (thr d L) ↦[(pAll).view.set]{pR L} (Cert.Lookup.pairs TAB)))
      ∗ ((pW).view.loc (thr d L) ↦[Finset.univ \ (pAll).view.set]{pR L} (Cert.Lookup.pairs TAB))
      ∗ ((s1).view.loc (thr d L) ↦[Finset.univ \ (jw (256 * k + 128) (jwh1 k h)).view.set]{qR} g)
      ∗ ⌜RowsOK0 (F := F) d L g TAB ⟨k, kfin k h⟩ R0⌝ ∗ ⌜RowsOK1 (F := F) d L g TAB ⟨k, kfin k h⟩ R1⌝)
  else
    iprop(∃ R0 R1, ((s2).view.loc (thr d L) ↦[(rows0).view.set]{fullShare} R0) ∗ ((s2).view.loc (thr d L) ↦[(rows1).view.set]{fullShare} R1)
      ∗ ((pW).view.loc (thr d L) ↦{pL L} (Cert.Lookup.pairs TAB)) ∗ ((pW).view.loc (thr d L) ↦{pR L} (Cert.Lookup.pairs TAB))
      ∗ ((s1).view.loc (thr d L) ↦{qL} g) ∗ ((s1).view.loc (thr d L) ↦{qR} g)
      ∗ semVal (g4 d L) 0 ∗ semVal (g5 d L) 0)

def wpartV (k : Nat) : sProp 𝕄 :=
  if k = 0 then
    iprop((∃ T0, (s3).view.loc (thr d L) ↦[(tr0).view.set]{fullShare} T0) ∗ (∃ T1, (s3).view.loc (thr d L) ↦[(tr1).view.set]{fullShare} T1)
      ∗ semVal (g6 d L) 0 ∗ semVal (g7 d L) 0)
  else
    iprop(∃ (km : Fin k1_t2_loop.trips) (T0 T1 : Buf (Elt F) ((s3).view.loc (thr d L))) (fa0 fa1 fa2 fa3 fa4 fa5 fa6 fa7 fb0 fb1 fb2 fb3 fb4 fb5 fb6 fb7 : Buf (Elt F) ((oW).view.loc (thr d L))),
      ⌜km.val + 1 = k⌝ ∗ ⌜TrOK0 (F := F) d L IDS TAB km T0⌝ ∗ ⌜TrOK1 (F := F) d L IDS TAB km T1⌝
      ∗ Transfers.Batched countersEmb (thr d L) (SemLoc.dma cc1_scratch6.sem) default 32768 8 (Ds8a d L km T0 fa0 fa1 fa2 fa3 fa4 fa5 fa6 fa7) 0
      ∗ Transfers.Batched countersEmb (thr d L) (SemLoc.dma cc1_scratch7.sem) default 32768 8 (Ds8b d L km T1 fb0 fb1 fb2 fb3 fb4 fb5 fb6 fb7) 0)

def opartV (k : Nat) : sProp 𝕄 :=
  iprop(bigSep (doneS k) (blockDone (F := F) d L IDS TAB) ∗ bigSep (todoS k) (blockOwn (F := F) d L))

def inv2V (k : Nat) (_ : PUnit) : sProp 𝕄 :=
  iprop(Transfers.MayWaits (thr d L) (none : HIx 2) O
    ∗ ((s0).view.loc (thr d L) ↦{fullShare} X)
    ∗ gpartV (F := F) d L g TAB k ∗ wpartV (F := F) d L IDS TAB k ∗ opartV (F := F) d L IDS TAB k
    ∗ ∃ W', ⌜∀ p ∈ W', p ∈ W ∨ p.2 = none⌝ ∗ owes (thr d L) O W')

theorem blockDone_intro0 (k : Fin k1_t2_loop.trips) (T : Buf (Elt F) ((s3).view.loc (thr d L))) (hT : TrOK0 (F := F) d L IDS TAB k T)
    (J0 J1 J2 J3 J4 J5 J6 J7 : Buf (Elt F) ((oW).view.loc (thr d L))) :
    iprop(((ow4 L k 0).view.loc (thr d L) ↦[(ow4 L k 0).view.set]{fullShare}
          (ow4 L k 0).view.writes (Elt F) J0 [⟨Rect.whole S8x128, ReadAs.same.apply ((trw tr0 0 inb_S64x128_S8x128_0_0).view.read (Elt F) T)⟩])
        ∗ ((ow5 L k 0).view.loc (thr d L) ↦[(ow5 L k 0).view.set]{fullShare}
          (ow5 L k 0).view.writes (Elt F) J1 [⟨Rect.whole S8x128, ReadAs.same.apply ((trw tr0 8 inb_S64x128_S8x128_8_0).view.read (Elt F) T)⟩])
        ∗ ((ow6 L k 0).view.loc (thr d L) ↦[(ow6 L k 0).view.set]{fullShare}
          (ow6 L k 0).view.writes (Elt F) J2 [⟨Rect.whole S8x128, ReadAs.same.apply ((trw tr0 16 inb_S64x128_S8x128_16_0).view.read (Elt F) T)⟩])
        ∗ ((ow7 L k 0).view.loc (thr d L) ↦[(ow7 L k 0).view.set]{fullShare}
          (ow7 L k 0).view.writes (Elt F) J3 [⟨Rect.whole S8x128, ReadAs.same.apply ((trw tr0 24 inb_S64x128_S8x128_24_0).view.read (Elt F) T)⟩])
        ∗ ((ow8 L k 0).view.loc (thr d L) ↦[(ow8 L k 0).view.set]{fullShare}
          (ow8 L k 0).view.writes (Elt F) J4 [⟨Rect.whole S8x128, ReadAs.same.apply ((trw tr0 32 inb_S64x128_S8x128_32_0).view.read (Elt F) T)⟩])
        ∗ ((ow9 L k 0).view.loc (thr d L) ↦[(ow9 L k 0).view.set]{fullShare}
          (ow9 L k 0).view.writes (Elt F) J5 [⟨Rect.whole S8x128, ReadAs.same.apply ((trw tr0 40 inb_S64x128_S8x128_40_0).view.read (Elt F) T)⟩])
        ∗ ((ow10 L k 0).view.loc (thr d L) ↦[(ow10 L k 0).view.set]{fullShare}
          (ow10 L k 0).view.writes (Elt F) J6 [⟨Rect.whole S8x128, ReadAs.same.apply ((trw tr0 48 inb_S64x128_S8x128_48_0).view.read (Elt F) T)⟩])
        ∗ ((ow11 L k 0).view.loc (thr d L) ↦[(ow11 L k 0).view.set]{fullShare}
          (ow11 L k 0).view.writes (Elt F) J7 [⟨Rect.whole S8x128, ReadAs.same.apply ((trw tr0 56 inb_S64x128_S8x128_56_0).view.read (Elt F) T)⟩]) : sProp 𝕄)
      ⊢ blockDone (F := F) d L IDS TAB (kkOf k 0) := by
  unfold blockDone
  rw [bigSep_fin8]
  iintro ⟨H0, H1, H2, H3, H4, H5, H6, H7⟩
  isplitl [H0]; · iapply (Entails.of_eq (landed4 IDS TAB d L k 0 tr0 T hT J0)); iexact H0
  isplitl [H1]; · iapply (Entails.of_eq (landed5 IDS TAB d L k 0 tr0 T hT J1)); iexact H1
  isplitl [H2]; · iapply (Entails.of_eq (landed6 IDS TAB d L k 0 tr0 T hT J2)); iexact H2
  isplitl [H3]; · iapply (Entails.of_eq (landed7 IDS TAB d L k 0 tr0 T hT J3)); iexact H3
  isplitl [H4]; · iapply (Entails.of_eq (landed8 IDS TAB d L k 0 tr0 T hT J4)); iexact H4
  isplitl [H5]; · iapply (Entails.of_eq (landed9 IDS TAB d L k 0 tr0 T hT J5)); iexact H5
  isplitl [H6]; · iapply (Entails.of_eq (landed10 IDS TAB d L k 0 tr0 T hT J6)); iexact H6
  iapply (Entails.of_eq (landed11 IDS TAB d L k 0 tr0 T hT J7)); iexact H7

theorem blockDone_intro1 (k : Fin k1_t2_loop.trips) (T : Buf (Elt F) ((s3).view.loc (thr d L))) (hT : TrOK1 (F := F) d L IDS TAB k T)
    (J0 J1 J2 J3 J4 J5 J6 J7 : Buf (Elt F) ((oW).view.loc (thr d L))) :
    iprop(((ow4 L k 1).view.loc (thr d L) ↦[(ow4 L k 1).view.set]{fullShare}
          (ow4 L k 1).view.writes (Elt F) J0 [⟨Rect.whole S8x128, ReadAs.same.apply ((trw tr1 0 inb_S64x128_S8x128_0_0).view.read (Elt F) T)⟩])
        ∗ ((ow5 L k 1).view.loc (thr d L) ↦[(ow5 L k 1).view.set]{fullShare}
          (ow5 L k 1).view.writes (Elt F) J1 [⟨Rect.whole S8x128, ReadAs.same.apply ((trw tr1 8 inb_S64x128_S8x128_8_0).view.read (Elt F) T)⟩])
        ∗ ((ow6 L k 1).view.loc (thr d L) ↦[(ow6 L k 1).view.set]{fullShare}
          (ow6 L k 1).view.writes (Elt F) J2 [⟨Rect.whole S8x128, ReadAs.same.apply ((trw tr1 16 inb_S64x128_S8x128_16_0).view.read (Elt F) T)⟩])
        ∗ ((ow7 L k 1).view.loc (thr d L) ↦[(ow7 L k 1).view.set]{fullShare}
          (ow7 L k 1).view.writes (Elt F) J3 [⟨Rect.whole S8x128, ReadAs.same.apply ((trw tr1 24 inb_S64x128_S8x128_24_0).view.read (Elt F) T)⟩])
        ∗ ((ow8 L k 1).view.loc (thr d L) ↦[(ow8 L k 1).view.set]{fullShare}
          (ow8 L k 1).view.writes (Elt F) J4 [⟨Rect.whole S8x128, ReadAs.same.apply ((trw tr1 32 inb_S64x128_S8x128_32_0).view.read (Elt F) T)⟩])
        ∗ ((ow9 L k 1).view.loc (thr d L) ↦[(ow9 L k 1).view.set]{fullShare}
          (ow9 L k 1).view.writes (Elt F) J5 [⟨Rect.whole S8x128, ReadAs.same.apply ((trw tr1 40 inb_S64x128_S8x128_40_0).view.read (Elt F) T)⟩])
        ∗ ((ow10 L k 1).view.loc (thr d L) ↦[(ow10 L k 1).view.set]{fullShare}
          (ow10 L k 1).view.writes (Elt F) J6 [⟨Rect.whole S8x128, ReadAs.same.apply ((trw tr1 48 inb_S64x128_S8x128_48_0).view.read (Elt F) T)⟩])
        ∗ ((ow11 L k 1).view.loc (thr d L) ↦[(ow11 L k 1).view.set]{fullShare}
          (ow11 L k 1).view.writes (Elt F) J7 [⟨Rect.whole S8x128, ReadAs.same.apply ((trw tr1 56 inb_S64x128_S8x128_56_0).view.read (Elt F) T)⟩]) : sProp 𝕄)
      ⊢ blockDone (F := F) d L IDS TAB (kkOf k 1) := by
  unfold blockDone
  rw [bigSep_fin8]
  iintro ⟨H0, H1, H2, H3, H4, H5, H6, H7⟩
  isplitl [H0]; · iapply (Entails.of_eq (landed4 IDS TAB d L k 1 tr1 T hT J0)); iexact H0
  isplitl [H1]; · iapply (Entails.of_eq (landed5 IDS TAB d L k 1 tr1 T hT J1)); iexact H1
  isplitl [H2]; · iapply (Entails.of_eq (landed6 IDS TAB d L k 1 tr1 T hT J2)); iexact H2
  isplitl [H3]; · iapply (Entails.of_eq (landed7 IDS TAB d L k 1 tr1 T hT J3)); iexact H3
  isplitl [H4]; · iapply (Entails.of_eq (landed8 IDS TAB d L k 1 tr1 T hT J4)); iexact H4
  isplitl [H5]; · iapply (Entails.of_eq (landed9 IDS TAB d L k 1 tr1 T hT J5)); iexact H5
  isplitl [H6]; · iapply (Entails.of_eq (landed10 IDS TAB d L k 1 tr1 T hT J6)); iexact H6
  iapply (Entails.of_eq (landed11 IDS TAB d L k 1 tr1 T hT J7)); iexact H7

set_option maxHeartbeats 4000000 in
theorem tripV_first
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (hk : k.val = 0) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  have h52 : k.val < 52 := Nat.lt_of_lt_of_eq k.isLt trips2
  have hgt : ¬ Scalar.cmpi .ne (Scalar.extui (Scalar.cmpi .sgt (Scf.iv 0#32 1#32 k) 0#32)) 0#32 = 1#1 :=
    fun h => absurd ((gt0_iff k).mp h) (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2V
  iintro ⟨Hmw, H0, HG, HWP, HOP, %W', %hW', HO⟩
  ihave HG := (Entails.of_eq (show gpartV (F := F) d L g TAB k.val = _ from dif_pos h52)) $$ HG
  icases HG with ⟨%R0, %R1, HF6, HpL, H1L, HF7, HpR, H1R, %hR0, %hR1⟩
  ihave HWP := (Entails.of_eq (show wpartV (F := F) d L IDS TAB k.val = _ from if_pos hk)) $$ HWP
  icases HWP with ⟨⟨%T0, HT0⟩, ⟨%T1, HT1⟩, Hs6, Hs7⟩
  ihave HOP := (Entails.of_eq (show opartV (F := F) d L IDS TAB k.val = iprop(bigSep (doneS k.val) (blockDone (F := F) d L IDS TAB) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  sl_for (inv3V (F := F) d L k X R0) $$ [H0 HF6_dst HT0]
  case region => intro t u'; exact step3V d L k _ _ X R0 t u'
  · iapply (inv3V_init (F := F) d L k X R0 _)
    isplitl [H0]; · iexact H0
    isplitl [HF6_dst]; · iexact HF6_dst
    iexists _; iexact HT0
  iintro %_ HI
  ihave HI := (Entails.of_eq (show inv3V (F := F) d L k X R0 (Scf.trips k1_t3_loop.lb k1_t3_loop.ub k1_t3_loop.st) _
      = inv3V (F := F) d L k X R0 32 _ from by rw [show Scf.trips k1_t3_loop.lb k1_t3_loop.ub k1_t3_loop.st = 32 by decide])) $$ HI
  ihave HI := (inv3V_exit (F := F) d L k X R0 _) $$ HI
  icases HI with ⟨H0, HR0, %T0', HT0, %hex0⟩
  have hT0 : TrOK0 (F := F) d L IDS TAB k T0' := fun dd r => trOK0_of IDS TAB d L k X g R0 T0' hXv hgv hI hR0 hex0 dd r
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  sl_for (inv4V (F := F) d L k X R1) $$ [H0 HF7_dst HT1]
  case region => intro t u'; exact step4V d L k _ _ _ X R1 t u'
  · iapply (inv4V_init (F := F) d L k X R1 _)
    isplitl [H0]; · iexact H0
    isplitl [HF7_dst]; · iexact HF7_dst
    iexists _; iexact HT1
  iintro %_ HI
  ihave HI := (Entails.of_eq (show inv4V (F := F) d L k X R1 (Scf.trips k1_t4_loop.lb k1_t4_loop.ub k1_t4_loop.st) _
      = inv4V (F := F) d L k X R1 32 _ from by rw [show Scf.trips k1_t4_loop.lb k1_t4_loop.ub k1_t4_loop.st = 32 by decide])) $$ HI
  ihave HI := (inv4V_exit (F := F) d L k X R1 _) $$ HI
  icases HI with ⟨H0, HR1, %T1', HT1, %hex1⟩
  have hT1 : TrOK1 (F := F) d L IDS TAB k T1' := fun dd r => trOK1_of IDS TAB d L k X g R1 T1' hXv hgv hI hR1 hex1 dd r
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpartV (F := F) d L g TAB (k.val + 1) = _ from dif_pos (show k.val + 1 < 52 by omega)]
    iexists _, _
    isplitl [HF6]; · iapply (flight_std (F := F) d L g (Cert.Lookup.pairs TAB) cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g (Cert.Lookup.pairs TAB) cc1_scratch5.sem rows1 _ (k1_off14 k) _ (256 * (k.val + 1) + 128) _ e14 qR (pR L)); iexact HF7
    isplitl [HpR]; · iexact HpR
    isplitl [H1R]; · iapply (rest_std (F := F) d L g (k1_off14 k) _ (256 * (k.val + 1) + 128) _ e14 qR); iexact H1R
    isplitr
    · ipureintro
      exact rowsOK0_new (F := F) d L g TAB ⟨k.val + 1, kfin _ (by omega)⟩ (k1_off12 k) _
        (by rw [k1_off12_eq k, show 128 * (2 * (k.val + 1)) = 256 * k.val + 256 by omega]) R0 _ _
    · ipureintro
      exact rowsOK1_new (F := F) d L g TAB ⟨k.val + 1, kfin _ (by omega)⟩ (k1_off14 k) _
        (by rw [k1_off14_eq k, show 128 * (2 * (k.val + 1) + 1) = 256 * k.val + 384 by omega]) R1 _ _
  isplitl [Hs6 Hs7]
  · rw [show wpartV (F := F) d L IDS TAB (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitr; · ipureintro; exact hT0
    isplitr; · ipureintro; exact hT1
    isplitl [Hs6]; · iexact Hs6
    iexact Hs7
  isplitl [Hdone Htodo]
  · unfold opartV
    isplitr [Htodo]
    · rw [doneS_first k.val hk]; iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem tripV_mid
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (hk : 0 < k.val ∧ k.val < 51) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : k1_cond2 k = 1#1 := (k1_cond2_iff k).mpr (by omega)
  have hc4 : k1_cond4 k = 1#1 := (k1_cond4_iff k).mpr (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2V
  iintro ⟨Hmw, H0, HG, HWP, HOP, %W', %hW', HO⟩
  ihave HG := (Entails.of_eq (show gpartV (F := F) d L g TAB k.val = _ from dif_pos h52)) $$ HG
  icases HG with ⟨%R0, %R1, HF6, HpL, H1L, HF7, HpR, H1R, %hR0, %hR1⟩
  ihave HWP := (Entails.of_eq (show wpartV (F := F) d L IDS TAB k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, %hT0p, %hT1p, HB8, HB9⟩
  ihave HOP := (Entails.of_eq (show opartV (F := F) d L IDS TAB k.val = iprop(bigSep (doneS k.val) (blockDone (F := F) d L IDS TAB) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockDone_intro0 (F := F) d L IDS TAB km T0 hT0p _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (inv3V (F := F) d L k X R0) $$ [H0 HF6_dst HT0]
  case region => intro t u'; exact step3V d L k _ _ X R0 t u'
  · iapply (inv3V_init (F := F) d L k X R0 _)
    isplitl [H0]; · iexact H0
    isplitl [HF6_dst]; · iexact HF6_dst
    iexists _; iexact HT0
  iintro %_ HI
  ihave HI := (Entails.of_eq (show inv3V (F := F) d L k X R0 (Scf.trips k1_t3_loop.lb k1_t3_loop.ub k1_t3_loop.st) _
      = inv3V (F := F) d L k X R0 32 _ from by rw [show Scf.trips k1_t3_loop.lb k1_t3_loop.ub k1_t3_loop.st = 32 by decide])) $$ HI
  ihave HI := (inv3V_exit (F := F) d L k X R0 _) $$ HI
  icases HI with ⟨H0, HR0, %T0', HT0, %hex0⟩
  have hT0 : TrOK0 (F := F) d L IDS TAB k T0' := fun dd r => trOK0_of IDS TAB d L k X g R0 T0' hXv hgv hI hR0 hex0 dd r
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockDone_intro1 (F := F) d L IDS TAB km T1 hT1p _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (inv4V (F := F) d L k X R1) $$ [H0 HF7_dst HT1]
  case region => intro t u'; exact step4V d L k _ _ _ X R1 t u'
  · iapply (inv4V_init (F := F) d L k X R1 _)
    isplitl [H0]; · iexact H0
    isplitl [HF7_dst]; · iexact HF7_dst
    iexists _; iexact HT1
  iintro %_ HI
  ihave HI := (Entails.of_eq (show inv4V (F := F) d L k X R1 (Scf.trips k1_t4_loop.lb k1_t4_loop.ub k1_t4_loop.st) _
      = inv4V (F := F) d L k X R1 32 _ from by rw [show Scf.trips k1_t4_loop.lb k1_t4_loop.ub k1_t4_loop.st = 32 by decide])) $$ HI
  ihave HI := (inv4V_exit (F := F) d L k X R1 _) $$ HI
  icases HI with ⟨H0, HR1, %T1', HT1, %hex1⟩
  have hT1 : TrOK1 (F := F) d L IDS TAB k T1' := fun dd r => trOK1_of IDS TAB d L k X g R1 T1' hXv hgv hI hR1 hex1 dd r
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  have e12 : k1_off12 k = ![256 * (k.val + 1)] := by rw [k1_off12_eq k, show 256 * (k.val + 1) = 256 * k.val + 256 by omega]
  have e14 : k1_off14 k = ![256 * (k.val + 1) + 128] := by rw [k1_off14_eq k, show 256 * (k.val + 1) + 128 = 256 * k.val + 384 by omega]
  isplitl [HF6 HpL H1L HF7 HpR H1R]
  · rw [show gpartV (F := F) d L g TAB (k.val + 1) = _ from dif_pos (show k.val + 1 < 52 by omega)]
    iexists _, _
    isplitl [HF6]; · iapply (flight_std (F := F) d L g (Cert.Lookup.pairs TAB) cc1_scratch4.sem rows0 _ (k1_off12 k) _ (256 * (k.val + 1)) _ e12 qL (pL L)); iexact HF6
    isplitl [HpL]; · iexact HpL
    isplitl [H1L]; · iapply (rest_std (F := F) d L g (k1_off12 k) _ (256 * (k.val + 1)) _ e12 qL); iexact H1L
    isplitl [HF7]; · iapply (flight_std (F := F) d L g (Cert.Lookup.pairs TAB) cc1_scratch5.sem rows1 _ (k1_off14 k) _ (256 * (k.val + 1) + 128) _ e14 qR (pR L)); iexact HF7
    isplitl [HpR]; · iexact HpR
    isplitl [H1R]; · iapply (rest_std (F := F) d L g (k1_off14 k) _ (256 * (k.val + 1) + 128) _ e14 qR); iexact H1R
    isplitr
    · ipureintro
      exact rowsOK0_new (F := F) d L g TAB ⟨k.val + 1, kfin _ (by omega)⟩ (k1_off12 k) _
        (by rw [k1_off12_eq k, show 128 * (2 * (k.val + 1)) = 256 * k.val + 256 by omega]) R0 _ _
    · ipureintro
      exact rowsOK1_new (F := F) d L g TAB ⟨k.val + 1, kfin _ (by omega)⟩ (k1_off14 k) _
        (by rw [k1_off14_eq k, show 128 * (2 * (k.val + 1) + 1) = 256 * k.val + 384 by omega]) R1 _ _
  isplitl [HB8 HB9]
  · rw [show wpartV (F := F) d L IDS TAB (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitr; · ipureintro; exact hT0
    isplitr; · ipureintro; exact hT1
    isplitl [HB8]; · iexact HB8
    iexact HB9
  isplitl [Hdone Htodo Hdn0 Hdn1]
  · unfold opartV
    isplitr [Htodo]
    · iapply (Entails.of_eq (show iprop(blockDone (F := F) d L IDS TAB (kkOf km 1) ∗ blockDone (F := F) d L IDS TAB (kkOf km 0) ∗ bigSep (doneS k.val) (blockDone (F := F) d L IDS TAB))
          = bigSep (doneS (k.val + 1)) (blockDone (F := F) d L IDS TAB) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

set_option maxHeartbeats 4000000 in
theorem tripV_last
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (hk : k.val = 51) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  have h52 : k.val < 52 := Nat.lt_of_lt_of_eq k.isLt trips2
  have hgt : Scalar.cmpi .ne (Scalar.extui (Scalar.cmpi .sgt (Scf.iv 0#32 1#32 k) 0#32)) 0#32 = 1#1 :=
    (gt0_iff k).mpr (by omega)
  have hc2 : ¬ k1_cond2 k = 1#1 := fun h => absurd ((k1_cond2_iff k).mp h) (by omega)
  have hc4 : ¬ k1_cond4 k = 1#1 := fun h => absurd ((k1_cond4_iff k).mp h) (by omega)
  have _plan8 : Transfers.BatchOf (thr d L) (SemLoc.dma (sig := sig) cc1_scratch6.sem) 8 := trivial
  have _plan9 : Transfers.BatchOf (thr d L) (SemLoc.dma (sig := sig) cc1_scratch7.sem) 8 := trivial
  unfold inv2V
  iintro ⟨Hmw, H0, HG, HWP, HOP, %W', %hW', HO⟩
  ihave HG := (Entails.of_eq (show gpartV (F := F) d L g TAB k.val = _ from dif_pos h52)) $$ HG
  icases HG with ⟨%R0, %R1, HF6, HpL, H1L, HF7, HpR, H1R, %hR0, %hR1⟩
  ihave HWP := (Entails.of_eq (show wpartV (F := F) d L IDS TAB k.val = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, %hT0p, %hT1p, HB8, HB9⟩
  ihave HOP := (Entails.of_eq (show opartV (F := F) d L IDS TAB k.val = iprop(bigSep (doneS k.val) (blockDone (F := F) d L IDS TAB) ∗ bigSep (todoS k.val) (blockOwn (F := F) d L)) from rfl)) $$ HOP
  icases HOP with ⟨Hdone, Htodo⟩
  ihave Htodo := (Entails.of_eq (show bigSep (todoS k.val) (blockOwn (F := F) d L)
      = iprop(blockOwn (F := F) d L (kkOf k 0) ∗ blockOwn (F := F) d L (kkOf k 1) ∗ bigSep (todoS (k.val + 1)) (blockOwn (F := F) d L)) from by
    rw [todoS_split k, bigSep_insert (todoS_n0 k), bigSep_insert (todoS_n1 k)]; rfl)) $$ Htodo
  icases Htodo with ⟨Hb0, Hb1, Htodo⟩
  ihave Hb0 := (blockOwn_elim (F := F) d L k 0) $$ Hb0
  icases Hb0 with ⟨⟨%fa0, Ho4⟩, ⟨%fa1, Ho5⟩, ⟨%fa2, Ho6⟩, ⟨%fa3, Ho7⟩, ⟨%fa4, Ho8⟩, ⟨%fa5, Ho9⟩, ⟨%fa6, Ho10⟩, ⟨%fa7, Ho11⟩⟩
  ihave Hb1 := (blockOwn_elim (F := F) d L k 1) $$ Hb1
  icases Hb1 with ⟨⟨%fb0, Hq4⟩, ⟨%fb1, Hq5⟩, ⟨%fb2, Hq6⟩, ⟨%fb3, Hq7⟩, ⟨%fb4, Hq8⟩, ⟨%fb5, Hq9⟩, ⟨%fb6, Hq10⟩, ⟨%fb7, Hq11⟩⟩
  unfold k1_t2_body
  sl_exec
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockDone_intro0 (F := F) d L IDS TAB km T0 hT0p _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  sl_for (inv3V (F := F) d L k X R0) $$ [H0 HF6_dst HT0]
  case region => intro t u'; exact step3V d L k _ _ X R0 t u'
  · iapply (inv3V_init (F := F) d L k X R0 _)
    isplitl [H0]; · iexact H0
    isplitl [HF6_dst]; · iexact HF6_dst
    iexists _; iexact HT0
  iintro %_ HI
  ihave HI := (Entails.of_eq (show inv3V (F := F) d L k X R0 (Scf.trips k1_t3_loop.lb k1_t3_loop.ub k1_t3_loop.st) _
      = inv3V (F := F) d L k X R0 32 _ from by rw [show Scf.trips k1_t3_loop.lb k1_t3_loop.ub k1_t3_loop.st = 32 by decide])) $$ HI
  ihave HI := (inv3V_exit (F := F) d L k X R0 _) $$ HI
  icases HI with ⟨H0, HR0, %T0', HT0, %hex0⟩
  have hT0 : TrOK0 (F := F) d L IDS TAB k T0' := fun dd r => trOK0_of IDS TAB d L k X g R0 T0' hXv hgv hI hR0 hex0 dd r
  ihave HT0w := (Entails.of_eq ((half_windows (F := F) d L tr0 T0').trans (bigSep_fin8 _))) $$ HT0
  icases HT0w with ⟨Hw0, Hw1, Hw2, Hw3, Hw4, Hw5, Hw6, Hw7⟩
  ihave Hw0 := (Entails.of_eq (show ((trw tr0 0 inb_S64x128_S8x128_0_0).view.loc (thr d L) ↦[(trw tr0 0 inb_S64x128_S8x128_0_0).view.set]{fullShare} T0' : sProp 𝕄) = _ from rfl).symm) $$ Hw0
  ihave Hw1 := (Entails.of_eq (show ((trw tr0 8 inb_S64x128_S8x128_8_0).view.loc (thr d L) ↦[(trw tr0 8 inb_S64x128_S8x128_8_0).view.set]{fullShare} T0' : sProp 𝕄) = _ from rfl).symm) $$ Hw1
  ihave Hw2 := (Entails.of_eq (show ((trw tr0 16 inb_S64x128_S8x128_16_0).view.loc (thr d L) ↦[(trw tr0 16 inb_S64x128_S8x128_16_0).view.set]{fullShare} T0' : sProp 𝕄) = _ from rfl).symm) $$ Hw2
  ihave Hw3 := (Entails.of_eq (show ((trw tr0 24 inb_S64x128_S8x128_24_0).view.loc (thr d L) ↦[(trw tr0 24 inb_S64x128_S8x128_24_0).view.set]{fullShare} T0' : sProp 𝕄) = _ from rfl).symm) $$ Hw3
  ihave Hw4 := (Entails.of_eq (show ((trw tr0 32 inb_S64x128_S8x128_32_0).view.loc (thr d L) ↦[(trw tr0 32 inb_S64x128_S8x128_32_0).view.set]{fullShare} T0' : sProp 𝕄) = _ from rfl).symm) $$ Hw4
  ihave Hw5 := (Entails.of_eq (show ((trw tr0 40 inb_S64x128_S8x128_40_0).view.loc (thr d L) ↦[(trw tr0 40 inb_S64x128_S8x128_40_0).view.set]{fullShare} T0' : sProp 𝕄) = _ from rfl).symm) $$ Hw5
  ihave Hw6 := (Entails.of_eq (show ((trw tr0 48 inb_S64x128_S8x128_48_0).view.loc (thr d L) ↦[(trw tr0 48 inb_S64x128_S8x128_48_0).view.set]{fullShare} T0' : sProp 𝕄) = _ from rfl).symm) $$ Hw6
  ihave Hw7 := (Entails.of_eq (show ((trw tr0 56 inb_S64x128_S8x128_56_0).view.loc (thr d L) ↦[(trw tr0 56 inb_S64x128_S8x128_56_0).view.set]{fullShare} T0' : sProp 𝕄) = _ from rfl).symm) $$ Hw7
  ihave HR0 := (Entails.of_eq (show ((rows0).view.loc (thr d L) ↦[(rows0).view.set]{fullShare} R0 : sProp 𝕄) = _ from rfl).symm) $$ HR0
  sl_exec
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockDone_intro1 (F := F) d L IDS TAB km T1 hT1p _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  sl_for (inv4V (F := F) d L k X R1) $$ [H0 HF7_dst HT1]
  case region => intro t u'; exact step4V d L k _ _ _ X R1 t u'
  · iapply (inv4V_init (F := F) d L k X R1 _)
    isplitl [H0]; · iexact H0
    isplitl [HF7_dst]; · iexact HF7_dst
    iexists _; iexact HT1
  iintro %_ HI
  ihave HI := (Entails.of_eq (show inv4V (F := F) d L k X R1 (Scf.trips k1_t4_loop.lb k1_t4_loop.ub k1_t4_loop.st) _
      = inv4V (F := F) d L k X R1 32 _ from by rw [show Scf.trips k1_t4_loop.lb k1_t4_loop.ub k1_t4_loop.st = 32 by decide])) $$ HI
  ihave HI := (inv4V_exit (F := F) d L k X R1 _) $$ HI
  icases HI with ⟨H0, HR1, %T1', HT1, %hex1⟩
  have hT1 : TrOK1 (F := F) d L IDS TAB k T1' := fun dd r => trOK1_of IDS TAB d L k X g R1 T1' hXv hgv hI hR1 hex1 dd r
  ihave HT1w := (Entails.of_eq ((half_windows (F := F) d L tr1 T1').trans (bigSep_fin8 _))) $$ HT1
  icases HT1w with ⟨Hv0, Hv1, Hv2, Hv3, Hv4, Hv5, Hv6, Hv7⟩
  ihave Hv0 := (Entails.of_eq (show ((trw tr1 0 inb_S64x128_S8x128_0_0).view.loc (thr d L) ↦[(trw tr1 0 inb_S64x128_S8x128_0_0).view.set]{fullShare} T1' : sProp 𝕄) = _ from rfl).symm) $$ Hv0
  ihave Hv1 := (Entails.of_eq (show ((trw tr1 8 inb_S64x128_S8x128_8_0).view.loc (thr d L) ↦[(trw tr1 8 inb_S64x128_S8x128_8_0).view.set]{fullShare} T1' : sProp 𝕄) = _ from rfl).symm) $$ Hv1
  ihave Hv2 := (Entails.of_eq (show ((trw tr1 16 inb_S64x128_S8x128_16_0).view.loc (thr d L) ↦[(trw tr1 16 inb_S64x128_S8x128_16_0).view.set]{fullShare} T1' : sProp 𝕄) = _ from rfl).symm) $$ Hv2
  ihave Hv3 := (Entails.of_eq (show ((trw tr1 24 inb_S64x128_S8x128_24_0).view.loc (thr d L) ↦[(trw tr1 24 inb_S64x128_S8x128_24_0).view.set]{fullShare} T1' : sProp 𝕄) = _ from rfl).symm) $$ Hv3
  ihave Hv4 := (Entails.of_eq (show ((trw tr1 32 inb_S64x128_S8x128_32_0).view.loc (thr d L) ↦[(trw tr1 32 inb_S64x128_S8x128_32_0).view.set]{fullShare} T1' : sProp 𝕄) = _ from rfl).symm) $$ Hv4
  ihave Hv5 := (Entails.of_eq (show ((trw tr1 40 inb_S64x128_S8x128_40_0).view.loc (thr d L) ↦[(trw tr1 40 inb_S64x128_S8x128_40_0).view.set]{fullShare} T1' : sProp 𝕄) = _ from rfl).symm) $$ Hv5
  ihave Hv6 := (Entails.of_eq (show ((trw tr1 48 inb_S64x128_S8x128_48_0).view.loc (thr d L) ↦[(trw tr1 48 inb_S64x128_S8x128_48_0).view.set]{fullShare} T1' : sProp 𝕄) = _ from rfl).symm) $$ Hv6
  ihave Hv7 := (Entails.of_eq (show ((trw tr1 56 inb_S64x128_S8x128_56_0).view.loc (thr d L) ↦[(trw tr1 56 inb_S64x128_S8x128_56_0).view.set]{fullShare} T1' : sProp 𝕄) = _ from rfl).symm) $$ Hv7
  ihave HR1 := (Entails.of_eq (show ((rows1).view.loc (thr d L) ↦[(rows1).view.set]{fullShare} R1 : sProp 𝕄) = _ from rfl).symm) $$ HR1
  sl_exec
  sl_step
  isplitl [Hmw]; · iexact Hmw
  isplitl [H0]; · iexact H0
  isplitl [HF6 HpL H1L HF7 HpR H1R HR0 HR1]
  · rw [show gpartV (F := F) d L g TAB (k.val + 1) = _ from dif_neg (show ¬ k.val + 1 < 52 by omega)]
    iexists R0, R1
    isplitl [HR0]; · iexact HR0
    isplitl [HR1]; · iexact HR1
    isplitl [HpL]; · iexact HpL
    isplitl [HpR]; · iexact HpR
    isplitl [H1L]; · iexact H1L
    isplitl [H1R]; · iexact H1R
    isplitl [HF6]; · iexact HF6
    iexact HF7
  isplitl [HB8 HB9]
  · rw [show wpartV (F := F) d L IDS TAB (k.val + 1) = _ from if_neg (Nat.succ_ne_zero _)]
    iexists k, T0', T1', fa0, fa1, fa2, fa3, fa4, fa5, fa6, fa7, fb0, fb1, fb2, fb3, fb4, fb5, fb6, fb7
    isplitr; · ipureintro; rfl
    isplitr; · ipureintro; exact hT0
    isplitr; · ipureintro; exact hT1
    isplitl [HB8]; · iexact HB8
    iexact HB9
  isplitl [Hdone Htodo Hdn0 Hdn1]
  · unfold opartV
    isplitr [Htodo]
    · iapply (Entails.of_eq (show iprop(blockDone (F := F) d L IDS TAB (kkOf km 1) ∗ blockDone (F := F) d L IDS TAB (kkOf km 0) ∗ bigSep (doneS k.val) (blockDone (F := F) d L IDS TAB))
          = bigSep (doneS (k.val + 1)) (blockDone (F := F) d L IDS TAB) from by
        rw [doneS_succ k.val km hkm, bigSep_insert (doneS_n1 k.val km hkm), bigSep_insert (doneS_n0 k.val km hkm)]; rfl))
      isplitl [Hdn1]; · iexact Hdn1
      isplitl [Hdn0]; · iexact Hdn0
      iexact Hdone
    · iexact Htodo
  iexists _; isplitr
  on_goal 2 => iexact HO
  ipureintro
  repeat' (first | exact hW' | (refine (Finset.forall_mem_insert _ _ _).mpr ⟨Or.inr rfl, ?_⟩))

omit [FloatOps F] in
theorem pts_name (ℓ : Loc nD τ sig) (q : PosShare TreeShare) (f : Buf (Elt F) ℓ) :
    (ℓ ↦{q} f : sProp 𝕄) ⊢ iprop(∃ Y, (ℓ ↦{q} Y) ∗ ⌜Y = f⌝) := by
  iintro H
  iexists f
  isplitl [H]
  · iexact H
  · ipureintro; rfl

theorem trip2V
    (hin : ∀ (r : Rect S13312) (hr : ∀ a, r.stride a = 1) (x : r.shape.Idx), (((s1).slice r hr).view.read (Elt F) g x).toNat < 500000)
    (hXv : ∀ j : S13312.Idx, (X j : BitVec 32) = Cert.Lookup.flatIds IDS (ix1 (⟨13312 * (2 * (L 1).val + (L 0).val) + (j 0).val, copy_inb L j⟩ : Fin 425984)))
    (hgv : ∀ j : S13312.Idx, g j = IntOp.shrui .vector (X j : BitVec 32) 1#32) (hI : ∀ i, (IDS i).toNat ≤ 999999)
    (k : Fin k1_t2_loop.trips) (v2 : BitVec 32) (u : Unit) :
    inv2V (F := F) d L g IDS TAB O W X k.val u
      ⊢ wp frame (wpE (defs₀ (F := F)) 𝒱₀ (thr d L) none) Set.univ
          (k1_t2_body L iW (Memref.isWhole_whole _) pW (Memref.isWhole_whole _) oW (Memref.isWhole_whole _)
            s0 (Memref.isWhole_whole _) s1 (Memref.isWhole_whole _) s2 (Memref.isWhole_whole _) s3 (Memref.isWhole_whole _)
            cc1_scratch4 cc1_scratch5 cc1_scratch6 cc1_scratch7 cc1_scoped0
            v2 (iota .scVector S16 32 [0] iota_S16_d0_w32_scVector) k u)
          (inv2V (F := F) d L g IDS TAB O W X (k.val + 1)) := by
  rcases Nat.eq_zero_or_pos k.val with h0 | hpos
  · exact tripV_first d L g IDS TAB O W X hin hXv hgv hI k h0 v2 u
  · rcases Nat.lt_or_ge k.val 51 with hlt | hge
    · exact tripV_mid d L g IDS TAB O W X hin hXv hgv hI k ⟨hpos, hlt⟩ v2 u
    · exact tripV_last d L g IDS TAB O W X hin hXv hgv hI k (by have := Nat.lt_of_lt_of_eq k.isLt trips2; omega) v2 u
set_option maxHeartbeats 4000000 in
theorem tile_body1_at (hF : (K (F := F)).Facts) (m : (ℓ : Loc nD τ sig) → Buf (Elt F) ℓ)
    (hI : ∀ i, ((Tiles.IDS m d) i).toNat ≤ 999999)
    (O : CellTallies nD τ sig (HIx 2)) (W : Waits sig (HIx 2)) (hO : ∀ g, O g none = 0) :
    iprop(levAts (K (F := F)).L (K (F := F)).lev ∗ Tiles.go1 m d (Tiles.c1Of L) (Tiles.s1Of L)
        ∗ scopedBufs (thr d L) ∗ scopedSems0 (thr d L) ∗ owes (thr d L) O W)
      ⊢ wp frame (wpE (defs₀ (F := F)) 𝒱₀ (thr d L) none) Set.univ
          (cc1_k L iW (Memref.isWhole_whole _) pW (Memref.isWhole_whole _) oW (Memref.isWhole_whole _) s0 (Memref.isWhole_whole _) s1 (Memref.isWhole_whole _) s2 (Memref.isWhole_whole _) s3 (Memref.isWhole_whole _) cc1_scratch4 cc1_scratch5 cc1_scratch6 cc1_scratch7 cc1_scoped0)
          fun _ => iprop(Tiles.td1 m d (Tiles.c1Of L) (Tiles.s1Of L) ∗ scopedBufs (thr d L) ∗ scopedSems0 (thr d L)
            ∗ ∃ W', ⌜∀ p ∈ W', p ∈ W ∨ p.2 = none⌝ ∗ owes (thr d L) O W') := by
  have hW0 : ∀ p ∈ W, p ∈ W ∨ p.2 = (none : HIx 2) := fun p hp => Or.inl hp
  simp only [cc1_k_eq_skeleton]; unfold cc1_k_skel
  rw [(K (F := F)).scopedBufs_V hF d (cV L) (jV L), SparseCore.Cfg.scopedSems0_V (Val := Elt F) d (cV L) (jV L), ownSems0_V1, ownBufs_V1]
  unfold Tiles.go1 Tiles.td1
  iintro ⟨#Hlv, ⟨Hi, Hp, Hq, Hout⟩, ⟨⟨%f0, H0⟩, ⟨%f1, H1⟩, ⟨%f2, H2⟩, ⟨%f3, H3⟩, Hbufs⟩, ⟨Hs4, Hs5, Hs6, Hs7, HsS, Hsems⟩, HO⟩
  ihave Hmw := ((K (F := F)).mayWaits_none (thr := thr d L) hO) $$ Hlv
  ihave Hi' := (Entails.of_eq (pts_i (F := F) d L _ _).symm) $$ Hi
  ihave Hp' := (Entails.of_eq (pts_p (F := F) d L _ _).symm) $$ Hp
  ihave Hq' := (Entails.of_eq (pts_p (F := F) d L _ _).symm) $$ Hq
  ihave H0' := (Entails.of_eq (show (((s0).view.loc (thr d L) ↦{fullShare} f0 : sProp 𝕄)) = _ from rfl).symm) $$ H0
  ihave H1' := (Entails.of_eq (show (((s1).view.loc (thr d L) ↦{fullShare} f1 : sProp 𝕄)) = _ from rfl).symm) $$ H1
  ihave H2h := (rows_halves (F := F) d L f2).1 $$ H2
  icases H2h with ⟨HR0, HR1⟩
  ihave H3h := (tr_halves (F := F) d L f3).1 $$ H3
  icases H3h with ⟨HT0, HT1⟩
  sl_exec
  ihave H0n := (pts_name (F := F) _ _ _) $$ H0'
  icases H0n with ⟨%X, H0', %hX0⟩
  have hXv : ∀ j : S13312.Idx, (X j : BitVec 32) = Cert.Lookup.flatIds (Tiles.IDS m d) (ix1 (⟨13312 * (2 * (L 1).val + (L 0).val) + (j 0).val, copy_inb L j⟩ : Fin 425984)) := by
    intro j
    rw [hX0, View.write_whole_univ]
    exact copy_val (F := F) L (Cert.Lookup.flatIds (Tiles.IDS m d)) j
  have hX : ∀ j : S13312.Idx, ((X j : BitVec 32)).toNat ≤ 999999 := fun j => by rw [hXv j]; exact hI _
  sl_for (inv1V (F := F) d L O X) $$ [Hmw H0' H1']
  case region => intro k hk; exact step1V d L O X k hk
  · unfold inv1V
    isplitl [Hmw]; · iexact Hmw
    isplitl [H0']; · iexact H0'
    iexists f1; isplitl [H1']
    · iexact H1'
    · ipureintro; intro j hj; exact absurd hj (by simp)
  iintro %_ HI
  unfold inv1V
  icases HI with ⟨Hmw, H0, %g, H1, %hg⟩
  have hgv : ∀ j : S13312.Idx, (g j : BitVec 32) = IntOp.shrui .vector (X j : BitVec 32) 1#32 := fun j => hg j (by
    rw [exit1]; exact (j 0).isLt)
  have hin : ∀ (r : Rect S13312) (hr : ∀ a, r.stride a = 1) (x : r.shape.Idx), (((s1).slice r hr).view.read (Elt F) g x).toNat < 500000 :=
    hin_of (F := F) g (fun j _ => halved_lt X g hX hgv j)
  ihave H1s := (show ((s1).view.loc (thr d L) ↦{fullShare} g : sProp 𝕄) ⊢ iprop(((s1).view.loc (thr d L) ↦{qL} g) ∗ ((s1).view.loc (thr d L) ↦{qR} g)) from (pointsTo_share (PosShare.mem_left_op_right fullShare)).1) $$ H1
  icases H1s with ⟨H1L, H1R⟩
  ihave HR0 := (Entails.of_eq (show ((rows0).view.loc (thr d L) ↦[(rows0).view.set]{fullShare} f2 : sProp 𝕄) = _ from rfl).symm) $$ HR0
  ihave HR1 := (Entails.of_eq (show ((rows1).view.loc (thr d L) ↦[(rows1).view.set]{fullShare} f2 : sProp 𝕄) = _ from rfl).symm) $$ HR1
  sl_exec
  sl_for (inv2V (F := F) d L g (Tiles.IDS m d) (Tiles.TAB m d) O W X) $$ [Hmw H0 Hs4 Hp' H1L Hs5 Hq' H1R HT0 HT1 Hs6 Hs7 Hout HO]
  case region => intro k u; exact trip2V d L g (Tiles.IDS m d) (Tiles.TAB m d) O W X hin hXv hgv hI k _ u
  · unfold inv2V
    isplitl [Hmw]; · iexact Hmw
    isplitl [H0]; · iexact H0
    isplitl [Hs4 Hp' H1L Hs5 Hq' H1R]
    · rw [show gpartV (F := F) d L g (Tiles.TAB m d) 0 = _ from dif_pos (show 0 < 52 by omega)]
      iexists _, _
      isplitl [Hs4]; · iapply (flight_std (F := F) d L g _ cc1_scratch4.sem rows0 _ ![0] _ (256 * 0) _ rfl qL (pL L)); iexact Hs4
      isplitl [Hp']; · iexact Hp'
      isplitl [H1L]; · iapply (rest_std (F := F) d L g ![0] _ (256 * 0) _ rfl qL); iexact H1L
      isplitl [Hs5]; · iapply (flight_std (F := F) d L g _ cc1_scratch5.sem rows1 _ ![128] _ (256 * 0 + 128) _ rfl qR (pR L)); iexact Hs5
      isplitl [Hq']; · iexact Hq'
      isplitl [H1R]; · iapply (rest_std (F := F) d L g ![128] _ (256 * 0 + 128) _ rfl qR); iexact H1R
      isplitr
      · ipureintro
        exact rowsOK0_new (F := F) d L g (Tiles.TAB m d) ⟨0, kfin 0 (by omega)⟩ ![0] _ rfl f2 _ _
      · ipureintro
        exact rowsOK1_new (F := F) d L g (Tiles.TAB m d) ⟨0, kfin 0 (by omega)⟩ ![128] _ rfl f2 _ _
    isplitl [HT0 HT1 Hs6 Hs7]
    · rw [show wpartV (F := F) d L (Tiles.IDS m d) (Tiles.TAB m d) 0 = _ from if_pos rfl]
      isplitl [HT0]; · iexists _; iexact HT0
      isplitl [HT1]; · iexists _; iexact HT1
      isplitl [Hs6]; · iexact Hs6
      iexact Hs7
    isplitl [Hout]
    · unfold opartV
      rw [doneS_zero, todoS_zero, bigSep_empty]
      isplitr
      · iempintro
      · iapply (Entails.of_eq (bigSep_univ_prod (fun p : Fin 104 × Fin 8 =>
          iprop(∃ f, Tiles.out5Loc d ↦[Tiles.outSet (Tiles.blkOf (Tiles.c1Of L) (Tiles.s1Of L) p.1) p.2]{fullShare} f))))
        iexact Hout
    iexists _; isplitr
    on_goal 2 => iexact HO
    ipureintro
    repeat' (first | exact hW0 | (refine (Finset.forall_mem_insert _ _ _).mpr ⟨Or.inr rfl, ?_⟩))
  iintro %_ HI
  have ht : Scf.trips k1_t2_loop.lb k1_t2_loop.ub k1_t2_loop.st = 52 := by decide
  ihave HI := (Entails.of_eq (show inv2V (F := F) d L g (Tiles.IDS m d) (Tiles.TAB m d) O W X (Scf.trips k1_t2_loop.lb k1_t2_loop.ub k1_t2_loop.st) _
      = inv2V (F := F) d L g (Tiles.IDS m d) (Tiles.TAB m d) O W X 52 _ from by rw [ht])) $$ HI
  unfold inv2V
  icases HI with ⟨Hmw2, H0, HG, HWP, HOP, %W', %hW', HO⟩
  ihave HG := (Entails.of_eq (show gpartV (F := F) d L g (Tiles.TAB m d) 52 = _ from dif_neg (by omega))) $$ HG
  icases HG with ⟨%R0, %R1, HR0e, HR1e, HpL, HpR, H1L, H1R, Hc6, Hc7⟩
  ihave HWP := (Entails.of_eq (show wpartV (F := F) d L (Tiles.IDS m d) (Tiles.TAB m d) 52 = _ from if_neg (by omega))) $$ HWP
  icases HWP with ⟨%km, %T0, %T1, %ga0, %ga1, %ga2, %ga3, %ga4, %ga5, %ga6, %ga7, %gb0, %gb1, %gb2, %gb3, %gb4, %gb5, %gb6, %gb7, %hkm, %hT0p, %hT1p, HB8, HB9⟩
  ihave HOP := (Entails.of_eq (show opartV (F := F) d L (Tiles.IDS m d) (Tiles.TAB m d) 52 = iprop(bigSep (doneS 52) (blockDone (F := F) d L (Tiles.IDS m d) (Tiles.TAB m d)) ∗ bigSep (todoS 52) (blockOwn (F := F) d L)) from rfl)) $$ HOP
  icases HOP with ⟨Hdone, Htodo⟩
  sl_exec
  sl_step
  ihave HT0 := (Entails.of_eq ((half_windows (F := F) d L tr0 T0).trans (bigSep_fin8 _)).symm) $$ [HB8_src0 HB8_src1 HB8_src2 HB8_src3 HB8_src4 HB8_src5 HB8_src6 HB8_src7]
  · isplitl [HB8_src0]; · iexact HB8_src0
    isplitl [HB8_src1]; · iexact HB8_src1
    isplitl [HB8_src2]; · iexact HB8_src2
    isplitl [HB8_src3]; · iexact HB8_src3
    isplitl [HB8_src4]; · iexact HB8_src4
    isplitl [HB8_src5]; · iexact HB8_src5
    isplitl [HB8_src6]; · iexact HB8_src6
    iexact HB8_src7
  ihave Hdn0 := (blockDone_intro0 (F := F) d L (Tiles.IDS m d) (Tiles.TAB m d) km T0 hT0p _ _ _ _ _ _ _ _) $$ [HB8_dst0 HB8_dst1 HB8_dst2 HB8_dst3 HB8_dst4 HB8_dst5 HB8_dst6 HB8_dst7]
  · isplitl [HB8_dst0]; · iexact HB8_dst0
    isplitl [HB8_dst1]; · iexact HB8_dst1
    isplitl [HB8_dst2]; · iexact HB8_dst2
    isplitl [HB8_dst3]; · iexact HB8_dst3
    isplitl [HB8_dst4]; · iexact HB8_dst4
    isplitl [HB8_dst5]; · iexact HB8_dst5
    isplitl [HB8_dst6]; · iexact HB8_dst6
    iexact HB8_dst7
  ihave HT1 := (Entails.of_eq ((half_windows (F := F) d L tr1 T1).trans (bigSep_fin8 _)).symm) $$ [HB9_src0 HB9_src1 HB9_src2 HB9_src3 HB9_src4 HB9_src5 HB9_src6 HB9_src7]
  · isplitl [HB9_src0]; · iexact HB9_src0
    isplitl [HB9_src1]; · iexact HB9_src1
    isplitl [HB9_src2]; · iexact HB9_src2
    isplitl [HB9_src3]; · iexact HB9_src3
    isplitl [HB9_src4]; · iexact HB9_src4
    isplitl [HB9_src5]; · iexact HB9_src5
    isplitl [HB9_src6]; · iexact HB9_src6
    iexact HB9_src7
  ihave Hdn1 := (blockDone_intro1 (F := F) d L (Tiles.IDS m d) (Tiles.TAB m d) km T1 hT1p _ _ _ _ _ _ _ _) $$ [HB9_dst0 HB9_dst1 HB9_dst2 HB9_dst3 HB9_dst4 HB9_dst5 HB9_dst6 HB9_dst7]
  · isplitl [HB9_dst0]; · iexact HB9_dst0
    isplitl [HB9_dst1]; · iexact HB9_dst1
    isplitl [HB9_dst2]; · iexact HB9_dst2
    isplitl [HB9_dst3]; · iexact HB9_dst3
    isplitl [HB9_dst4]; · iexact HB9_dst4
    isplitl [HB9_dst5]; · iexact HB9_dst5
    isplitl [HB9_dst6]; · iexact HB9_dst6
    iexact HB9_dst7
  isplitl [Hi' HpL HpR Hdone Hdn0 Hdn1]
  · isplitl [Hi']; · iapply (Entails.of_eq (pts_i (F := F) d L _ _)); iexact Hi'
    isplitl [HpL]; · iapply (Entails.of_eq (pts_p (F := F) d L _ _)); iexact HpL
    isplitl [HpR]; · iapply (Entails.of_eq (pts_p (F := F) d L _ _)); iexact HpR
    iapply (Entails.of_eq (bigSep_univ_prod (fun p : Fin 104 × Fin 8 =>
      (Tiles.out5Loc d ↦[Tiles.outSet (Tiles.blkOf (Tiles.c1Of L) (Tiles.s1Of L) p.1) p.2]{fullShare}
        (Cert.Lookup.out5 (Tiles.IDS m d) (Tiles.TAB m d) : Buf (Elt F) (Tiles.out5Loc d)) : sProp 𝕄))).symm)
    iapply (Entails.of_eq (show iprop(blockDone (F := F) d L (Tiles.IDS m d) (Tiles.TAB m d) (kkOf km 1) ∗ blockDone (F := F) d L (Tiles.IDS m d) (Tiles.TAB m d) (kkOf km 0)
          ∗ bigSep (doneS 52) (blockDone (F := F) d L (Tiles.IDS m d) (Tiles.TAB m d)))
        = bigSep Finset.univ (blockDone (F := F) d L (Tiles.IDS m d) (Tiles.TAB m d)) from by
      rw [← doneS_all, doneS_succ 52 km hkm, bigSep_insert (doneS_n1 52 km hkm), bigSep_insert (doneS_n0 52 km hkm)]; rfl))
    isplitl [Hdn1]; · iexact Hdn1
    isplitl [Hdn0]; · iexact Hdn0
    iexact Hdone
  isplitl [H0 H1L H1R HR0e HR1e HT0 HT1 Hbufs]
  · isplitl [H0]; · iexists _; iexact H0
    isplitl [H1L H1R]
    · iexists g
      iapply (show iprop(((s1).view.loc (thr d L) ↦{qL} g) ∗ ((s1).view.loc (thr d L) ↦{qR} g)) ⊢ ((s1).view.loc (thr d L) ↦{fullShare} g : sProp 𝕄)
        from (pointsTo_share (PosShare.mem_left_op_right fullShare)).2)
      isplitl [H1L]; · iexact H1L
      iexact H1R
    isplitl [HR0e HR1e]
    · iapply (rows_join (F := F) d L R0 R1)
      isplitl [HR0e]; · iexact HR0e
      iexact HR1e
    isplitl [HT0 HT1]
    · iapply (tr_join (F := F) d L T0 T1)
      isplitl [HT0]; · iexact HT0
      iexact HT1
    iexact Hbufs
  isplitl [Hc6 Hc7 HB8 HB9 HsS Hsems]
  · isplitl [Hc6]; · iexact Hc6
    isplitl [Hc7]; · iexact Hc7
    isplitl [HB8]; · iexact HB8
    isplitl [HB9]; · iexact HB9
    isplitl [HsS]; · iexact HsS
    iexact Hsems
  iexists _; isplitr
  on_goal 2 => iexact HO
  ipureintro
  repeat' (first | exact hW' | (refine (Finset.forall_mem_insert _ _ _).mpr ⟨Or.inr rfl, ?_⟩))

/-- The gather kernel on tile `L` of device `d`: from what the launch hands the tile to what it hands back. -/
theorem tile_body1 (hF : (K (F := F)).Facts) (m : (ℓ : Loc nD τ sig) → Buf (Elt F) ℓ) (d : Dev nD) (L : grid1.Coords)
    (hI : ∀ i, ((Tiles.IDS m d) i).toNat ≤ 999999)
    (O : CellTallies nD τ sig (HIx 2)) (W : Waits sig (HIx 2)) (hO : ∀ g, O g none = 0) :
    iprop(levAts (K (F := F)).L (K (F := F)).lev ∗ Tiles.go1 m d (Tiles.c1Of L) (Tiles.s1Of L)
        ∗ scopedBufs (thr d L) ∗ scopedSems0 (thr d L) ∗ owes (thr d L) O W)
      ⊢ wp frame (wpE (defs₀ (F := F)) 𝒱₀ (thr d L) none) Set.univ
          (cc1_k L iW (Memref.isWhole_whole _) pW (Memref.isWhole_whole _) oW (Memref.isWhole_whole _) s0 (Memref.isWhole_whole _) s1 (Memref.isWhole_whole _) s2 (Memref.isWhole_whole _) s3 (Memref.isWhole_whole _) cc1_scratch4 cc1_scratch5 cc1_scratch6 cc1_scratch7 cc1_scoped0)
          fun _ => iprop(Tiles.td1 m d (Tiles.c1Of L) (Tiles.s1Of L) ∗ scopedBufs (thr d L) ∗ scopedSems0 (thr d L)
            ∗ ∃ W', ⌜∀ p ∈ W', p ∈ W ∨ p.2 = none⌝ ∗ owes (thr d L) O W') :=
  tile_body1_at d L hF m hI O W hO

end Cert.Proof.KB.Body1

end
-- ==== Proof.lean ====
/-
  The embedding lookup out[b, f, d] = table[ids[b, f], d] (ids : i32[16384, 26] with entries in
  0 … 999999, table : [1000000, 64]): the kernel program and the reference compute the same array.

  Both are data movement only, so the whole claim is an index equation and the float instance never
  matters. The reference takes the rows by a gather; with every index in range neither the wrap of
  negative indices nor the fill of out-of-range ones applies (Proof/RefSide.lean). The kernel program
  repacks the table two rows to a line on the vector subcores (line r holds rows 2r and 2r + 1 side by
  side), gathers line ids / 2 for every index, picks the half ids % 2 while transposing each block of
  128 gathered lines, writes the blocks feature-major, and the host reorders the axes
  (Proof/Spec.lean states the layouts; Proof/Tiles.lean how the arrays are dealt to the thirty-two tiles;
  Proof/Body0.lean and Proof/Body1.lean what one tile does in each of the two calls;
  Proof/LaunchKI.lean the run of all the threads; Proof/HostSide.lean the host's reorderings).
  The word-level program is the same text at the other instance: its modules (the files whose names
  end in _b) are the same mathematics with the program's name substituted, and its frame is that run
  with the values dropped. Nothing was rewritten by the idealization, so it preserves trivially.
-/
import proofs.«204055_g19524921328135_cont_8to1_763_20_alg».proof.Defs
import proofs.«204055_g19524921328135_cont_8to1_763_20_alg».proof.Proof.Gen.Kernel
import proofs.«204055_g19524921328135_cont_8to1_763_20_alg».proof.Proof.Gen.KernelIdeal
import proofs.«204055_g19524921328135_cont_8to1_763_20_alg».proof.Proof.Gen.ReferenceIdeal
import proofs.«204055_g19524921328135_cont_8to1_763_20_alg».proof.Proof.Gen.Pre_input_domain
import proofs.«204055_g19524921328135_cont_8to1_763_20_alg».proof.Proof.RefSide
import proofs.«204055_g19524921328135_cont_8to1_763_20_alg».proof.Proof.LaunchKI
import proofs.«204055_g19524921328135_cont_8to1_763_20_alg».proof.Proof.LaunchKI_b
import proofs.«204055_g19524921328135_cont_8to1_763_20_alg».proof.Proof.Body0
import proofs.«204055_g19524921328135_cont_8to1_763_20_alg».proof.Proof.Body0_b
import proofs.«204055_g19524921328135_cont_8to1_763_20_alg».proof.Proof.Body1
import proofs.«204055_g19524921328135_cont_8to1_763_20_alg».proof.Proof.Body1_b
import Idealize.ShloMosaic.Adequacy
import Idealize.ShloMosaic.Init

noncomputable section

namespace Cert.Proof

open Idealize.ShloMosaic Idealize.SL.Sem

/-- The idealized kernel program's run: it ends with its result at the lookup of its arguments, the arguments unchanged. -/
theorem run_ki (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (Cert.Proof.KI.Launch.QC m) :=
  Cert.Proof.KI.Launch.run_main (F := Ideal) m g (fun d => Cert.RefSide.ids_le _ _ (hpre d))
    (fun d L O W hO => Cert.Proof.KI.Body0.tile_body0 Cert.Proof.KI.facts m d L O W hO)
    (fun d L O W hO => Cert.Proof.KI.Body1.tile_body1 Cert.Proof.KI.facts m d L (Cert.RefSide.ids_le _ _ (hpre d)) O W hO)

/-- The word-level kernel program's run, the same. -/
theorem run_kb (m : (ℓ : Loc Cert.Kernel.nD Cert.Kernel.τ Cert.Kernel.sig) → Buf (Elt Bits) ℓ) (g : Dev Cert.Kernel.nD → PrngReg)
    (hpre : Cert.Pre_Kernel m) :
    θ_run (Cert.Kernel.defs (F := Bits)) (Cert.Kernel.threads (F := Bits)) ⟨m, fun _ => 0, g⟩ (Cert.Proof.KB.Launch.QC m) :=
  Cert.Proof.KB.Launch.run_main (F := Bits) m g (fun d => Cert.RefSide.ids_le _ _ (hpre d))
    (fun d L O W hO => Cert.Proof.KB.Body0.tile_body0 Cert.Proof.KB.facts m d L O W hO)
    (fun d L O W hO => Cert.Proof.KB.Body1.tile_body1 Cert.Proof.KB.facts m d L (Cert.RefSide.ids_le _ _ (hpre d)) O W hO)

theorem frame_k : Cert.frame_Kernel := fun m g hpre =>
  (θ_run (Cert.Kernel.defs (F := Bits)) _ _).mono (fun _ h c => (h c).2) (run_kb m g hpre)

theorem frame_ki : Cert.frame_KernelIdeal := fun m g hpre =>
  (θ_run (Cert.KernelIdeal.defs (F := Ideal)) _ _).mono (fun _ h c => (h c).2) (run_ki m g hpre)

/-- The two idealized programs, from memories that agree on the arguments, end at one array: the lookup. -/
theorem algebraic : Cert.algebraic_KernelIdeal_ReferenceIdeal := by
  intro m g m' g' hpre hagree
  refine ⟨fun c => Cert.Lookup.lookup (m ((c.tc : Thread Cert.KernelIdeal.nD Cert.KernelIdeal.τ).loc Cert.KernelIdeal.main_arg0)) (m ((c.tc : Thread Cert.KernelIdeal.nD Cert.KernelIdeal.τ).loc Cert.KernelIdeal.main_arg1)), run_ki m g hpre, ?_⟩
  have hpre' : Cert.Pre_ReferenceIdeal m' := fun c => by
    show Cert.Pre_input_domain.fn (F := Ideal) _ _ = _
    rw [(hagree c).1, (hagree c).2]; exact hpre c
  refine (θ_run (Cert.ReferenceIdeal.defs (F := Ideal)) _ _).mono (fun _ h c => ⟨?_, (h c).2⟩) (Cert.RefSide.run m' g' hpre')
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, Cert.RefSide.frame, trivial, algebraic⟩

end Cert.Proof

end
